-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x256 : Shape := ⟨2, ![4096, 256]⟩
abbrev S4096x16384 : Shape := ⟨2, ![4096, 16384]⟩
abbrev S4096x4096 : Shape := ⟨2, ![4096, 4096]⟩
abbrev S2x16384 : Shape := ⟨2, ![2, 16384]⟩
abbrev S1 : Shape := ⟨1, ![1]⟩
abbrev S256x128 : Shape := ⟨2, ![256, 128]⟩
abbrev S128 : Shape := ⟨1, ![128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x16384 : S_.BroadcastsInDim S2x16384 (![] : Fin 0 → Fin S2x16384.rank)
  reducesTo_S2x16384_S_d0_1 : S2x16384.ReducesTo [0, 1] S_

variable [Facts]

def fn_part2 {F : FTy → Type} [FloatOps F] (main_v28 : IVec S_ 1) (main_v33 : IVec S2x16384 1) : IVec S_ 1 :=
  let main_c_12 : IVec S_ 1 := constantI S_ 1 1#1
  let main_v34 : IVec S_ 1 := (fun x v => Host.reduce IntOp.andi x v reducesTo_S2x16384_S_d0_1 h_S_) main_v33 main_c_12
  let main_v35 : IVec S_ 1 := andi main_v28 main_v34
  main_v35

def fn_part1 {F : FTy → Type} [FloatOps F] (main_arg3 : IVec S2x16384 32) (main_arg5 : FVec F S256x128 .f32) (main_arg6 : FVec F S128 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S2x16384 32 := broadcastInDim S2x16384 ![] bcast_S_S2x16384 main_c_10
  let main_v30 : IVec S2x16384 1 := cmpi .sge main_arg3 main_v29
  let main_c_11 : IVec S_ 32 := constantI S_ 32 4095#32
  let main_v31 : IVec S2x16384 32 := broadcastInDim S2x16384 ![] bcast_S_S2x16384 main_c_11
  let main_v32 : IVec S2x16384 1 := cmpi .sle main_arg3 main_v31
  let main_v33 : IVec S2x16384 1 := andi main_v30 main_v32
  fn_part2 (F := F) main_v28 main_v33

def fn {F : FTy → Type} [FloatOps F] (main_arg0 : FVec F S4096x256 .f32) (main_arg1 : FVec F S4096x16384 .f32) (main_arg2 : FVec F S4096x4096 .f32) (main_arg3 : IVec S2x16384 32) (main_arg4 : FVec F S1 .f32) (main_arg5 : FVec F S256x128 .f32) (main_arg6 : FVec F S128 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg3 main_arg5 main_arg6 main_v13 main_v16
-- ==== Kernel.lean ====
abbrev S4096x256 : Shape := ⟨2, ![4096, 256]⟩
abbrev S4096x16384 : Shape := ⟨2, ![4096, 16384]⟩
abbrev S4096x4096 : Shape := ⟨2, ![4096, 4096]⟩
abbrev S2x16384 : Shape := ⟨2, ![2, 16384]⟩
abbrev S1 : Shape := ⟨1, ![1]⟩
abbrev S256x128 : Shape := ⟨2, ![256, 128]⟩
abbrev S128 : Shape := ⟨1, ![128]⟩
abbrev S1x1 : Shape := ⟨2, ![1, 1]⟩
abbrev S4096x128 : Shape := ⟨2, ![4096, 128]⟩
abbrev S512x4096 : Shape := ⟨2, ![512, 4096]⟩
abbrev S512x128 : Shape := ⟨2, ![512, 128]⟩
abbrev S1x4096x128 : Shape := ⟨3, ![1, 4096, 128]⟩
abbrev S1x1x1 : Shape := ⟨3, ![1, 1, 1]⟩
abbrev S16384x128 : Shape := ⟨2, ![16384, 128]⟩
abbrev S512 : Shape := ⟨1, ![512]⟩
abbrev S3x128x128 : Shape := ⟨3, ![3, 128, 128]⟩
abbrev S_ : Shape := ⟨0, ![]⟩
abbrev S1x512 : Shape := ⟨2, ![1, 512]⟩
abbrev S1x128x128 : Shape := ⟨3, ![1, 128, 128]⟩
abbrev S128x128 : Shape := ⟨2, ![128, 128]⟩
abbrev S1x1x16 : Shape := ⟨3, ![1, 1, 16]⟩
abbrev S16 : Shape := ⟨1, ![16]⟩
abbrev S1x128 : Shape := ⟨2, ![1, 128]⟩
abbrev S128x16384 : Shape := ⟨2, ![128, 16384]⟩

abbrev nBuf : Table → Nat
  | .hbm => 13
  | .local .tc .vmem => 15
  | .local .scVector .vmem => 4
  | _ => 0

abbrev bufTy : (tb : Table) → Fin (nBuf tb) → BufTy
  | .hbm, ⟨0, _⟩ => ⟨S4096x256, .f32⟩
  | .hbm, ⟨1, _⟩ => ⟨S4096x16384, .f32⟩
  | .hbm, ⟨2, _⟩ => ⟨S4096x4096, .f32⟩
  | .hbm, ⟨3, _⟩ => ⟨S2x16384, .i32⟩
  | .hbm, ⟨4, _⟩ => ⟨S1, .f32⟩
  | .hbm, ⟨5, _⟩ => ⟨S256x128, .f32⟩
  | .hbm, ⟨6, _⟩ => ⟨S128, .f32⟩
  | .hbm, ⟨7, _⟩ => ⟨S1x1, .f32⟩
  | .hbm, ⟨8, _⟩ => ⟨S4096x128, .f32⟩
  | .hbm, ⟨9, _⟩ => ⟨S4096x128, .f32⟩
  | .hbm, ⟨10, _⟩ => ⟨S16384x128, .f32⟩
  | .hbm, ⟨11, _⟩ => ⟨S1x128, .f32⟩
  | .hbm, ⟨12, _⟩ => ⟨S4096x128, .f32⟩
  | .local .tc .vmem, ⟨0, _⟩ => ⟨S1x1, .f32⟩
  | .local .tc .vmem, ⟨1, _⟩ => ⟨S4096x256, .f32⟩
  | .local .tc .vmem, ⟨2, _⟩ => ⟨S256x128, .f32⟩
  | .local .tc .vmem, ⟨3, _⟩ => ⟨S512x4096, .f32⟩
  | .local .tc .vmem, ⟨4, _⟩ => ⟨S512x4096, .f32⟩
  | .local .tc .vmem, ⟨5, _⟩ => ⟨S4096x128, .f32⟩
  | .local .tc .vmem, ⟨6, _⟩ => ⟨S512x128, .f32⟩
  | .local .tc .vmem, ⟨7, _⟩ => ⟨S512x128, .f32⟩
  | .local .tc .vmem, ⟨8, _⟩ => ⟨S4096x128, .f32⟩
  | .local .tc .vmem, ⟨9, _⟩ => ⟨S128x16384, .f32⟩
  | .local .tc .vmem, ⟨10, _⟩ => ⟨S128x16384, .f32⟩
  | .local .tc .vmem, ⟨11, _⟩ => ⟨S16384x128, .f32⟩
  | .local .tc .vmem, ⟨12, _⟩ => ⟨S1x128, .f32⟩
  | .local .tc .vmem, ⟨13, _⟩ => ⟨S128x128, .f32⟩
  | .local .tc .vmem, ⟨14, _⟩ => ⟨S128x128, .f32⟩
  | .local .scVector .vmem, ⟨0, _⟩ => ⟨S512, .i32⟩
  | .local .scVector .vmem, ⟨1, _⟩ => ⟨S512, .i32⟩
  | .local .scVector .vmem, ⟨2, _⟩ => ⟨S3x128x128, .f32⟩
  | .local .scVector .vmem, ⟨3, _⟩ => ⟨S3x128x128, .f32⟩
  | _, _ => ⟨S4096x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v1_0_scv : Ref sig .scVector := ⟨.hbm, 8, rfl⟩
abbrev main_v1_1_scv : Ref sig .scVector := ⟨.hbm, 9, rfl⟩
abbrev main_arg3_scv : Ref sig .scVector := ⟨.hbm, 3, rfl⟩
abbrev main_v2_scv : Ref sig .scVector := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem3_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) : Fin 2 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![1, v2.toNat]
def k1_off2 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k1_t1_loop : Scf.Loop 32 :=
  let c0_i32_47 : BitVec 32 := 0#32
  let c128_i32_48 : BitVec 32 := 128#32
  let v35 : BitVec 32 := Scalar.addi c0_i32_47 c128_i32_48
  let c1_i32_49 : BitVec 32 := 1#32
  ⟨c0_i32_47, v35, c1_i32_49⟩
def k1_off3 (k1_t1 : Fin k1_t1_loop.trips) : Fin 3 → Nat :=
  let c0_i32_173 : BitVec 32 := 0#32
  let v123 : Index := Scalar.indexCast c0_i32_173
  let c0_i32_47 : BitVec 32 := 0#32
  let c1_i32_49 : BitVec 32 := 1#32
  let arg19 : BitVec 32 := Scf.iv c0_i32_47 c1_i32_49 k1_t1
  let v124 : Index := Scalar.indexCast arg19
  let c0 : Index := 0#32
  ![0, v124.toNat, 0]
def k1_off4 (k1_t1 : Fin k1_t1_loop.trips) : Fin 3 → Nat :=
  let c0_i32_178 : BitVec 32 := 0#32
  let v137 : Index := Scalar.indexCast c0_i32_178
  let c0_i32_47 : BitVec 32 := 0#32
  let c1_i32_49 : BitVec 32 := 1#32
  let arg19 : BitVec 32 := Scf.iv c0_i32_47 c1_i32_49 k1_t1
  let v138 : Index := Scalar.indexCast arg19
  let c16 : Index := 16#32
  ![0, v138.toNat, 16]
def k1_off5 (k1_t1 : Fin k1_t1_loop.trips) : Fin 3 → Nat :=
  let c0_i32_183 : BitVec 32 := 0#32
  let v151 : Index := Scalar.indexCast c0_i32_183
  let c0_i32_47 : BitVec 32 := 0#32
  let c1_i32_49 : BitVec 32 := 1#32
  let arg19 : BitVec 32 := Scf.iv c0_i32_47 c1_i32_49 k1_t1
  let v152 : Index := Scalar.indexCast arg19
  let c32 : Index := 32#32
  ![0, v152.toNat, 32]
def k1_off6 (k1_t1 : Fin k1_t1_loop.trips) : Fin 3 → Nat :=
  let c0_i32_188 : BitVec 32 := 0#32
  let v165 : Index := Scalar.indexCast c0_i32_188
  let c0_i32_47 : BitVec 32 := 0#32
  let c1_i32_49 : BitVec 32 := 1#32
  let arg19 : BitVec 32 := Scf.iv c0_i32_47 c1_i32_49 k1_t1
  let v166 : Index := Scalar.indexCast arg19
  let c48 : Index := 48#32
  ![0, v166.toNat, 48]
def k1_off7 (k1_t1 : Fin k1_t1_loop.trips) : Fin 3 → Nat :=
  let c0_i32_193 : BitVec 32 := 0#32
  let v179 : Index := Scalar.indexCast c0_i32_193
  let c0_i32_47 : BitVec 32 := 0#32
  let c1_i32_49 : BitVec 32 := 1#32
  let arg19 : BitVec 32 := Scf.iv c0_i32_47 c1_i32_49 k1_t1
  let v180 : Index := Scalar.indexCast arg19
  let c64 : Index := 64#32
  ![0, v180.toNat, 64]
def k1_off8 (k1_t1 : Fin k1_t1_loop.trips) : Fin 3 → Nat :=
  let c0_i32_198 : BitVec 32 := 0#32
  let v193 : Index := Scalar.indexCast c0_i32_198
  let c0_i32_47 : BitVec 32 := 0#32
  let c1_i32_49 : BitVec 32 := 1#32
  let arg19 : BitVec 32 := Scf.iv c0_i32_47 c1_i32_49 k1_t1
  let v194 : Index := Scalar.indexCast arg19
  let c80 : Index := 80#32
  ![0, v194.toNat, 80]
def k1_off9 (k1_t1 : Fin k1_t1_loop.trips) : Fin 3 → Nat :=
  let c0_i32_203 : BitVec 32 := 0#32
  let v207 : Index := Scalar.indexCast c0_i32_203
  let c0_i32_47 : BitVec 32 := 0#32
  let c1_i32_49 : BitVec 32 := 1#32
  let arg19 : BitVec 32 := Scf.iv c0_i32_47 c1_i32_49 k1_t1
  let v208 : Index := Scalar.indexCast arg19
  let c96 : Index := 96#32
  ![0, v208.toNat, 96]
def k1_off10 (k1_t1 : Fin k1_t1_loop.trips) : Fin 3 → Nat :=
  let c0_i32_208 : BitVec 32 := 0#32
  let v221 : Index := Scalar.indexCast c0_i32_208
  let c0_i32_47 : BitVec 32 := 0#32
  let c1_i32_49 : BitVec 32 := 1#32
  let arg19 : BitVec 32 := Scf.iv c0_i32_47 c1_i32_49 k1_t1
  let v222 : Index := Scalar.indexCast arg19
  let c112 : Index := 112#32
  ![0, v222.toNat, 112]
def k1_off11 (i : grid1.Coords) (c0_i32_51 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v36 : BitVec 32 := Scalar.addi v2 c0_i32_51
  let c0_i32_55 : BitVec 32 := 0#32
  ![v36.toNat, 0]
@[reducible] def k1_t2_loop : Scf.Loop 32 :=
  let c0_i32_90 : BitVec 32 := 0#32
  let c128_i32_91 : BitVec 32 := 128#32
  let v65 : BitVec 32 := Scalar.addi c0_i32_90 c128_i32_91
  let c1_i32_92 : BitVec 32 := 1#32
  ⟨c0_i32_90, v65, c1_i32_92⟩
def k1_off12 (k1_t2 : Fin k1_t2_loop.trips) : Fin 3 → Nat :=
  let c1_i32_173 : BitVec 32 := 1#32
  let v123 : Index := Scalar.indexCast c1_i32_173
  let c0_i32_90 : BitVec 32 := 0#32
  let c1_i32_92 : BitVec 32 := 1#32
  let arg19 : BitVec 32 := Scf.iv c0_i32_90 c1_i32_92 k1_t2
  let v124 : Index := Scalar.indexCast arg19
  let c0 : Index := 0#32
  ![1, v124.toNat, 0]
def k1_off13 (k1_t2 : Fin k1_t2_loop.trips) : Fin 3 → Nat :=
  let c1_i32_178 : BitVec 32 := 1#32
  let v137 : Index := Scalar.indexCast c1_i32_178
  let c0_i32_90 : BitVec 32 := 0#32
  let c1_i32_92 : BitVec 32 := 1#32
  let arg19 : BitVec 32 := Scf.iv c0_i32_90 c1_i32_92 k1_t2
  let v138 : Index := Scalar.indexCast arg19
  let c16 : Index := 16#32
  ![1, v138.toNat, 16]
def k1_off14 (k1_t2 : Fin k1_t2_loop.trips) : Fin 3 → Nat :=
  let c1_i32_183 : BitVec 32 := 1#32
  let v151 : Index := Scalar.indexCast c1_i32_183
  let c0_i32_90 : BitVec 32 := 0#32
  let c1_i32_92 : BitVec 32 := 1#32
  let arg19 : BitVec 32 := Scf.iv c0_i32_90 c1_i32_92 k1_t2
  let v152 : Index := Scalar.indexCast arg19
  let c32 : Index := 32#32
  ![1, v152.toNat, 32]
def k1_off15 (k1_t2 : Fin k1_t2_loop.trips) : Fin 3 → Nat :=
  let c1_i32_188 : BitVec 32 := 1#32
  let v165 : Index := Scalar.indexCast c1_i32_188
  let c0_i32_90 : BitVec 32 := 0#32
  let c1_i32_92 : BitVec 32 := 1#32
  let arg19 : BitVec 32 := Scf.iv c0_i32_90 c1_i32_92 k1_t2
  let v166 : Index := Scalar.indexCast arg19
  let c48 : Index := 48#32
  ![1, v166.toNat, 48]
def k1_off16 (k1_t2 : Fin k1_t2_loop.trips) : Fin 3 → Nat :=
  let c1_i32_193 : BitVec 32 := 1#32
  let v179 : Index := Scalar.indexCast c1_i32_193
  let c0_i32_90 : BitVec 32 := 0#32
  let c1_i32_92 : BitVec 32 := 1#32
  let arg19 : BitVec 32 := Scf.iv c0_i32_90 c1_i32_92 k1_t2
  let v180 : Index := Scalar.indexCast arg19
  let c64 : Index := 64#32
  ![1, v180.toNat, 64]
def k1_off17 (k1_t2 : Fin k1_t2_loop.trips) : Fin 3 → Nat :=
  let c1_i32_198 : BitVec 32 := 1#32
  let v193 : Index := Scalar.indexCast c1_i32_198
  let c0_i32_90 : BitVec 32 := 0#32
  let c1_i32_92 : BitVec 32 := 1#32
  let arg19 : BitVec 32 := Scf.iv c0_i32_90 c1_i32_92 k1_t2
  let v194 : Index := Scalar.indexCast arg19
  let c80 : Index := 80#32
  ![1, v194.toNat, 80]
def k1_off18 (k1_t2 : Fin k1_t2_loop.trips) : Fin 3 → Nat :=
  let c1_i32_203 : BitVec 32 := 1#32
  let v207 : Index := Scalar.indexCast c1_i32_203
  let c0_i32_90 : BitVec 32 := 0#32
  let c1_i32_92 : BitVec 32 := 1#32
  let arg19 : BitVec 32 := Scf.iv c0_i32_90 c1_i32_92 k1_t2
  let v208 : Index := Scalar.indexCast arg19
  let c96 : Index := 96#32
  ![1, v208.toNat, 96]
def k1_off19 (k1_t2 : Fin k1_t2_loop.trips) : Fin 3 → Nat :=
  let c1_i32_208 : BitVec 32 := 1#32
  let v221 : Index := Scalar.indexCast c1_i32_208
  let c0_i32_90 : BitVec 32 := 0#32
  let c1_i32_92 : BitVec 32 := 1#32
  let arg19 : BitVec 32 := Scf.iv c0_i32_90 c1_i32_92 k1_t2
  let v222 : Index := Scalar.indexCast arg19
  let c112 : Index := 112#32
  ![1, v222.toNat, 112]
@[reducible] def k1_t3_loop : Scf.Loop 32 :=
  let c0_i32_115 : BitVec 32 := 0#32
  let c128_i32_116 : BitVec 32 := 128#32
  let v81 : BitVec 32 := Scalar.addi c0_i32_115 c128_i32_116
  let c1_i32_117 : BitVec 32 := 1#32
  ⟨c0_i32_115, v81, c1_i32_117⟩
def k1_off20 (k1_t3 : Fin k1_t3_loop.trips) : Fin 3 → Nat :=
  let c2_i32_173 : BitVec 32 := 2#32
  let v123 : Index := Scalar.indexCast c2_i32_173
  let c0_i32_115 : BitVec 32 := 0#32
  let c1_i32_117 : BitVec 32 := 1#32
  let arg19 : BitVec 32 := Scf.iv c0_i32_115 c1_i32_117 k1_t3
  let v124 : Index := Scalar.indexCast arg19
  let c0 : Index := 0#32
  ![2, v124.toNat, 0]
def k1_off21 (k1_t3 : Fin k1_t3_loop.trips) : Fin 3 → Nat :=
  let c2_i32_178 : BitVec 32 := 2#32
  let v137 : Index := Scalar.indexCast c2_i32_178
  let c0_i32_115 : BitVec 32 := 0#32
  let c1_i32_117 : BitVec 32 := 1#32
  let arg19 : BitVec 32 := Scf.iv c0_i32_115 c1_i32_117 k1_t3
  let v138 : Index := Scalar.indexCast arg19
  let c16 : Index := 16#32
  ![2, v138.toNat, 16]
def k1_off22 (k1_t3 : Fin k1_t3_loop.trips) : Fin 3 → Nat :=
  let c2_i32_183 : BitVec 32 := 2#32
  let v151 : Index := Scalar.indexCast c2_i32_183
  let c0_i32_115 : BitVec 32 := 0#32
  let c1_i32_117 : BitVec 32 := 1#32
  let arg19 : BitVec 32 := Scf.iv c0_i32_115 c1_i32_117 k1_t3
  let v152 : Index := Scalar.indexCast arg19
  let c32 : Index := 32#32
  ![2, v152.toNat, 32]
def k1_off23 (k1_t3 : Fin k1_t3_loop.trips) : Fin 3 → Nat :=
  let c2_i32_188 : BitVec 32 := 2#32
  let v165 : Index := Scalar.indexCast c2_i32_188
  let c0_i32_115 : BitVec 32 := 0#32
  let c1_i32_117 : BitVec 32 := 1#32
  let arg19 : BitVec 32 := Scf.iv c0_i32_115 c1_i32_117 k1_t3
  let v166 : Index := Scalar.indexCast arg19
  let c48 : Index := 48#32
  ![2, v166.toNat, 48]
def k1_off24 (k1_t3 : Fin k1_t3_loop.trips) : Fin 3 → Nat :=
  let c2_i32_193 : BitVec 32 := 2#32
  let v179 : Index := Scalar.indexCast c2_i32_193
  let c0_i32_115 : BitVec 32 := 0#32
  let c1_i32_117 : BitVec 32 := 1#32
  let arg19 : BitVec 32 := Scf.iv c0_i32_115 c1_i32_117 k1_t3
  let v180 : Index := Scalar.indexCast arg19
  let c64 : Index := 64#32
  ![2, v180.toNat, 64]
def k1_off25 (k1_t3 : Fin k1_t3_loop.trips) : Fin 3 → Nat :=
  let c2_i32_198 : BitVec 32 := 2#32
  let v193 : Index := Scalar.indexCast c2_i32_198
  let c0_i32_115 : BitVec 32 := 0#32
  let c1_i32_117 : BitVec 32 := 1#32
  let arg19 : BitVec 32 := Scf.iv c0_i32_115 c1_i32_117 k1_t3
  let v194 : Index := Scalar.indexCast arg19
  let c80 : Index := 80#32
  ![2, v194.toNat, 80]
def k1_off26 (k1_t3 : Fin k1_t3_loop.trips) : Fin 3 → Nat :=
  let c2_i32_203 : BitVec 32 := 2#32
  let v207 : Index := Scalar.indexCast c2_i32_203
  let c0_i32_115 : BitVec 32 := 0#32
  let c1_i32_117 : BitVec 32 := 1#32
  let arg19 : BitVec 32 := Scf.iv c0_i32_115 c1_i32_117 k1_t3
  let v208 : Index := Scalar.indexCast arg19
  let c96 : Index := 96#32
  ![2, v208.toNat, 96]
def k1_off27 (k1_t3 : Fin k1_t3_loop.trips) : Fin 3 → Nat :=
  let c2_i32_208 : BitVec 32 := 2#32
  let v221 : Index := Scalar.indexCast c2_i32_208
  let c0_i32_115 : BitVec 32 := 0#32
  let c1_i32_117 : BitVec 32 := 1#32
  let arg19 : BitVec 32 := Scf.iv c0_i32_115 c1_i32_117 k1_t3
  let v222 : Index := Scalar.indexCast arg19
  let c112 : Index := 112#32
  ![2, v222.toNat, 112]
@[reducible] def k1_t4_loop : Scf.Loop 32 :=
  let c0_i32_140 : BitVec 32 := 0#32
  let c128_i32_141 : BitVec 32 := 128#32
  let v97 : BitVec 32 := Scalar.addi c0_i32_140 c128_i32_141
  let c1_i32_142 : BitVec 32 := 1#32
  ⟨c0_i32_140, v97, c1_i32_142⟩
def k1_off28 (k1_t4 : Fin k1_t4_loop.trips) : Fin 3 → Nat :=
  let c0_i32_173 : BitVec 32 := 0#32
  let v123 : Index := Scalar.indexCast c0_i32_173
  let c0_i32_140 : BitVec 32 := 0#32
  let c1_i32_142 : BitVec 32 := 1#32
  let arg19 : BitVec 32 := Scf.iv c0_i32_140 c1_i32_142 k1_t4
  let v124 : Index := Scalar.indexCast arg19
  let c0 : Index := 0#32
  ![0, v124.toNat, 0]
def k1_off29 (k1_t4 : Fin k1_t4_loop.trips) : Fin 3 → Nat :=
  let c0_i32_178 : BitVec 32 := 0#32
  let v137 : Index := Scalar.indexCast c0_i32_178
  let c0_i32_140 : BitVec 32 := 0#32
  let c1_i32_142 : BitVec 32 := 1#32
  let arg19 : BitVec 32 := Scf.iv c0_i32_140 c1_i32_142 k1_t4
  let v138 : Index := Scalar.indexCast arg19
  let c16 : Index := 16#32
  ![0, v138.toNat, 16]
def k1_off30 (k1_t4 : Fin k1_t4_loop.trips) : Fin 3 → Nat :=
  let c0_i32_183 : BitVec 32 := 0#32
  let v151 : Index := Scalar.indexCast c0_i32_183
  let c0_i32_140 : BitVec 32 := 0#32
  let c1_i32_142 : BitVec 32 := 1#32
  let arg19 : BitVec 32 := Scf.iv c0_i32_140 c1_i32_142 k1_t4
  let v152 : Index := Scalar.indexCast arg19
  let c32 : Index := 32#32
  ![0, v152.toNat, 32]
def k1_off31 (k1_t4 : Fin k1_t4_loop.trips) : Fin 3 → Nat :=
  let c0_i32_188 : BitVec 32 := 0#32
  let v165 : Index := Scalar.indexCast c0_i32_188
  let c0_i32_140 : BitVec 32 := 0#32
  let c1_i32_142 : BitVec 32 := 1#32
  let arg19 : BitVec 32 := Scf.iv c0_i32_140 c1_i32_142 k1_t4
  let v166 : Index := Scalar.indexCast arg19
  let c48 : Index := 48#32
  ![0, v166.toNat, 48]
def k1_off32 (k1_t4 : Fin k1_t4_loop.trips) : Fin 3 → Nat :=
  let c0_i32_193 : BitVec 32 := 0#32
  let v179 : Index := Scalar.indexCast c0_i32_193
  let c0_i32_140 : BitVec 32 := 0#32
  let c1_i32_142 : BitVec 32 := 1#32
  let arg19 : BitVec 32 := Scf.iv c0_i32_140 c1_i32_142 k1_t4
  let v180 : Index := Scalar.indexCast arg19
  let c64 : Index := 64#32
  ![0, v180.toNat, 64]
def k1_off33 (k1_t4 : Fin k1_t4_loop.trips) : Fin 3 → Nat :=
  let c0_i32_198 : BitVec 32 := 0#32
  let v193 : Index := Scalar.indexCast c0_i32_198
  let c0_i32_140 : BitVec 32 := 0#32
  let c1_i32_142 : BitVec 32 := 1#32
  let arg19 : BitVec 32 := Scf.iv c0_i32_140 c1_i32_142 k1_t4
  let v194 : Index := Scalar.indexCast arg19
  let c80 : Index := 80#32
  ![0, v194.toNat, 80]
def k1_off34 (k1_t4 : Fin k1_t4_loop.trips) : Fin 3 → Nat :=
  let c0_i32_203 : BitVec 32 := 0#32
  let v207 : Index := Scalar.indexCast c0_i32_203
  let c0_i32_140 : BitVec 32 := 0#32
  let c1_i32_142 : BitVec 32 := 1#32
  let arg19 : BitVec 32 := Scf.iv c0_i32_140 c1_i32_142 k1_t4
  let v208 : Index := Scalar.indexCast arg19
  let c96 : Index := 96#32
  ![0, v208.toNat, 96]
def k1_off35 (k1_t4 : Fin k1_t4_loop.trips) : Fin 3 → Nat :=
  let c0_i32_208 : BitVec 32 := 0#32
  let v221 : Index := Scalar.indexCast c0_i32_208
  let c0_i32_140 : BitVec 32 := 0#32
  let c1_i32_142 : BitVec 32 := 1#32
  let arg19 : BitVec 32 := Scf.iv c0_i32_140 c1_i32_142 k1_t4
  let v222 : Index := Scalar.indexCast arg19
  let c112 : Index := 112#32
  ![0, v222.toNat, 112]
abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x16384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16384x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S128x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x256_S4096x256_0_0 : ∀ a, (![0, 0] : Fin 2 → Nat) a + S4096x256.size a ≤ S4096x256.size a
  h_S4096x256 : 0 < S4096x256.numel
  inb_S256x128_S256x128_0_0 : ∀ a, (![0, 0] : Fin 2 → Nat) a + S256x128.size a ≤ S256x128.size a
  h_S256x128 : 0 < S256x128.numel
  broadcasts_S1x1_S4096x128 : S1x1.Broadcasts S4096x128
  shapeCasts_S4096x128_S1x4096x128 : S4096x128.ShapeCasts S1x4096x128
  reduces_S1x4096x128_S1 : S1x4096x128.Reduces [1, 2] S1
  shapeCasts_S1_S1x1x1 : S1.ShapeCasts S1x1x1
  inpos_S1x1x1_p0_0_0 : ∀ a, (![0, 0, 0] : Fin 3 → Nat) a < S1x1x1.size a
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S512x4096_S512x4096_0_0 : ∀ a, (![0, 0] : Fin 2 → Nat) a + S512x4096.size a ≤ S512x4096.size a
  h_S512x4096 : 0 < S512x4096.numel
  inb_S512x128_S512x128_0_0 : ∀ a, (![0, 0] : Fin 2 → Nat) a + S512x128.size a ≤ S512x128.size a
  h_S512x128 : 0 < S512x128.numel
  squeezes_S1x512_S512 : S1x512.Squeezes S512
  inb_S3x128x128_S1x128x128_0_0_0 : ∀ a, (![0, 0, 0] : Fin 3 → Nat) a + S1x128x128.size a ≤ S3x128x128.size a
  squeezes_S1x128x128_S128x128 : S1x128x128.Squeezes S128x128
  inb_S512_S128_0 : ∀ a, (![0] : Fin 1 → Nat) a + S128.size a ≤ S512.size a
  gathers_S4096x128_S128x128 : S4096x128.Gathers 0 S128x128
  inb_S3x128x128_S1x128x128_1_0_0 : ∀ a, (![1, 0, 0] : Fin 3 → Nat) a + S1x128x128.size a ≤ S3x128x128.size a
  inb_S512_S128_128 : ∀ a, (![128] : Fin 1 → Nat) a + S128.size a ≤ S512.size a
  inb_S3x128x128_S1x128x128_2_0_0 : ∀ a, (![2, 0, 0] : Fin 3 → Nat) a + S1x128x128.size a ≤ S3x128x128.size a
  inb_S512_S128_256 : ∀ a, (![256] : Fin 1 → Nat) a + S128.size a ≤ S512.size a
  h_S1x1x16 : 0 < S1x1x16.numel
  shapeCasts_S1x1x16_S16 : S1x1x16.ShapeCasts S16
  shapeCasts_S16_S1x1x16 : S16.ShapeCasts S1x1x16
  inb_S512_S128_384 : ∀ a, (![384] : Fin 1 → Nat) a + S128.size a ≤ S512.size a
  shapeCasts_S128_S1x128 : S128.ShapeCasts S1x128
  inb_S128x16384_S128x16384_0_0 : ∀ a, (![0, 0] : Fin 2 → Nat) a + S128x16384.size a ≤ S128x16384.size a
  h_S128x16384 : 0 < S128x16384.numel
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  dot_S4096x256_S256x128_S4096x128_1_0_0_1_n_n_wf : DotDims.WF S4096x256 S256x128 S4096x128 [1] [0] [0] [1] [] []
  dot_S512x4096_S4096x128_S512x128_1_0_0_1_n_n_wf : DotDims.WF S512x4096 S4096x128 S512x128 [1] [0] [0] [1] [] []
  dot_S128x16384_S16384x128_S128x128_1_0_0_1_n_n_wf : DotDims.WF S128x16384 S16384x128 S128x128 [1] [0] [0] [1] [] []
  hcc1_scratch4 : 8 + S_.numel ≤ 25
  hcc1_scratch5 : 9 + S_.numel ≤ 25
  hcc1_scratch6 : 10 + S_.numel ≤ 25
  hcc1_scratch7 : 11 + S_.numel ≤ 25
  hcc1_scratch8 : 12 + S_.numel ≤ 25
  hcc1_scratch9 : 13 + S_.numel ≤ 25
  hcc1_scratch10 : 14 + S_.numel ≤ 25
  hcc1_scratch11 : 15 + S_.numel ≤ 25
  hcc1_scratch12 : 16 + S_.numel ≤ 25
  hcc1_scoped0 : 17 + S_.numel ≤ 25
  hcc1_scoped1 : 18 + S_.numel ≤ 25
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .f32 = 32 ∨ (Rect.block (s := S4096x4096) S512x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S4096x128.size a
  hwx0_4 : ∀ i : grid0.Coords, EltTy.bits .f32 = 32 ∨ (Rect.block (s := S4096x128) S4096x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S4096x128.size a
  hwx0_5 : ∀ i : grid0.Coords, EltTy.bits .f32 = 32 ∨ (Rect.block (s := S4096x128) S512x128.size (cc0_transform_5 i) (hinb0_5 i)).WholeWords (EltTy.packing .f32)
  hcore1 : grid1.bound 0 ≤ τ.nSC
  hsub1 : grid1.bound 1 ≤ τ.nSub
  k1_off1_inb : ∀ i : grid1.Coords, ∀ a, (k1_off1 i) a + S1x512.size a ≤ S2x16384.size a
  k1_off2_inb : ∀ i : grid1.Coords, ∀ a, (k1_off2 i) a + S1x512.size a ≤ S2x16384.size a
  k1_t1_ok : k1_t1_loop.OK
  k1_off3_inb : ∀ k1_t1 : Fin k1_t1_loop.trips, ∀ a, (k1_off3 k1_t1) a + S1x1x16.size a ≤ S3x128x128.size a
  k1_off4_inb : ∀ k1_t1 : Fin k1_t1_loop.trips, ∀ a, (k1_off4 k1_t1) a + S1x1x16.size a ≤ S3x128x128.size a
  k1_off5_inb : ∀ k1_t1 : Fin k1_t1_loop.trips, ∀ a, (k1_off5 k1_t1) a + S1x1x16.size a ≤ S3x128x128.size a
  k1_off6_inb : ∀ k1_t1 : Fin k1_t1_loop.trips, ∀ a, (k1_off6 k1_t1) a + S1x1x16.size a ≤ S3x128x128.size a
  k1_off7_inb : ∀ k1_t1 : Fin k1_t1_loop.trips, ∀ a, (k1_off7 k1_t1) a + S1x1x16.size a ≤ S3x128x128.size a
  k1_off8_inb : ∀ k1_t1 : Fin k1_t1_loop.trips, ∀ a, (k1_off8 k1_t1) a + S1x1x16.size a ≤ S3x128x128.size a
  k1_off9_inb : ∀ k1_t1 : Fin k1_t1_loop.trips, ∀ a, (k1_off9 k1_t1) a + S1x1x16.size a ≤ S3x128x128.size a
  k1_off10_inb : ∀ k1_t1 : Fin k1_t1_loop.trips, ∀ a, (k1_off10 k1_t1) a + S1x1x16.size a ≤ S3x128x128.size a
  k1_off11_inb : ∀ i : grid1.Coords, ∀ (r : Fin 4), ∀ a, (k1_off11 i (BitVec.ofNat 32 (128 * r.val))) a + S128x128.size a ≤ S16384x128.size a
  k1_t2_ok : k1_t2_loop.OK
  k1_off12_inb : ∀ k1_t2 : Fin k1_t2_loop.trips, ∀ a, (k1_off12 k1_t2) a + S1x1x16.size a ≤ S3x128x128.size a
  k1_off13_inb : ∀ k1_t2 : Fin k1_t2_loop.trips, ∀ a, (k1_off13 k1_t2) a + S1x1x16.size a ≤ S3x128x128.size a
  k1_off14_inb : ∀ k1_t2 : Fin k1_t2_loop.trips, ∀ a, (k1_off14 k1_t2) a + S1x1x16.size a ≤ S3x128x128.size a
  k1_off15_inb : ∀ k1_t2 : Fin k1_t2_loop.trips, ∀ a, (k1_off15 k1_t2) a + S1x1x16.size a ≤ S3x128x128.size a
  k1_off16_inb : ∀ k1_t2 : Fin k1_t2_loop.trips, ∀ a, (k1_off16 k1_t2) a + S1x1x16.size a ≤ S3x128x128.size a
  k1_off17_inb : ∀ k1_t2 : Fin k1_t2_loop.trips, ∀ a, (k1_off17 k1_t2) a + S1x1x16.size a ≤ S3x128x128.size a
  k1_off18_inb : ∀ k1_t2 : Fin k1_t2_loop.trips, ∀ a, (k1_off18 k1_t2) a + S1x1x16.size a ≤ S3x128x128.size a
  k1_off19_inb : ∀ k1_t2 : Fin k1_t2_loop.trips, ∀ a, (k1_off19 k1_t2) a + S1x1x16.size a ≤ S3x128x128.size a
  k1_t3_ok : k1_t3_loop.OK
  k1_off20_inb : ∀ k1_t3 : Fin k1_t3_loop.trips, ∀ a, (k1_off20 k1_t3) a + S1x1x16.size a ≤ S3x128x128.size a
  k1_off21_inb : ∀ k1_t3 : Fin k1_t3_loop.trips, ∀ a, (k1_off21 k1_t3) a + S1x1x16.size a ≤ S3x128x128.size a
  k1_off22_inb : ∀ k1_t3 : Fin k1_t3_loop.trips, ∀ a, (k1_off22 k1_t3) a + S1x1x16.size a ≤ S3x128x128.size a
  k1_off23_inb : ∀ k1_t3 : Fin k1_t3_loop.trips, ∀ a, (k1_off23 k1_t3) a + S1x1x16.size a ≤ S3x128x128.size a
  k1_off24_inb : ∀ k1_t3 : Fin k1_t3_loop.trips, ∀ a, (k1_off24 k1_t3) a + S1x1x16.size a ≤ S3x128x128.size a
  k1_off25_inb : ∀ k1_t3 : Fin k1_t3_loop.trips, ∀ a, (k1_off25 k1_t3) a + S1x1x16.size a ≤ S3x128x128.size a
  k1_off26_inb : ∀ k1_t3 : Fin k1_t3_loop.trips, ∀ a, (k1_off26 k1_t3) a + S1x1x16.size a ≤ S3x128x128.size a
  k1_off27_inb : ∀ k1_t3 : Fin k1_t3_loop.trips, ∀ a, (k1_off27 k1_t3) a + S1x1x16.size a ≤ S3x128x128.size a
  k1_t4_ok : k1_t4_loop.OK
  k1_off28_inb : ∀ k1_t4 : Fin k1_t4_loop.trips, ∀ a, (k1_off28 k1_t4) a + S1x1x16.size a ≤ S3x128x128.size a
  k1_off29_inb : ∀ k1_t4 : Fin k1_t4_loop.trips, ∀ a, (k1_off29 k1_t4) a + S1x1x16.size a ≤ S3x128x128.size a
  k1_off30_inb : ∀ k1_t4 : Fin k1_t4_loop.trips, ∀ a, (k1_off30 k1_t4) a + S1x1x16.size a ≤ S3x128x128.size a
  k1_off31_inb : ∀ k1_t4 : Fin k1_t4_loop.trips, ∀ a, (k1_off31 k1_t4) a + S1x1x16.size a ≤ S3x128x128.size a
  k1_off32_inb : ∀ k1_t4 : Fin k1_t4_loop.trips, ∀ a, (k1_off32 k1_t4) a + S1x1x16.size a ≤ S3x128x128.size a
  k1_off33_inb : ∀ k1_t4 : Fin k1_t4_loop.trips, ∀ a, (k1_off33 k1_t4) a + S1x1x16.size a ≤ S3x128x128.size a
  k1_off34_inb : ∀ k1_t4 : Fin k1_t4_loop.trips, ∀ a, (k1_off34 k1_t4) a + S1x1x16.size a ≤ S3x128x128.size a
  k1_off35_inb : ∀ k1_t4 : Fin k1_t4_loop.trips, ∀ a, (k1_off35 k1_t4) a + S1x1x16.size a ≤ S3x128x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x16384.size a ≤ S4096x16384.size a
  hwx2_0 : ∀ i : grid2.Coords, EltTy.bits .f32 = 32 ∨ (Rect.block (s := S4096x16384) S128x16384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16384x128.size a ≤ S16384x128.size a
  hwx2_1 : ∀ i : grid2.Coords, EltTy.bits .f32 = 32 ∨ (Rect.block (s := S16384x128) S16384x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S4096x128.size a
  hwx2_3 : ∀ i : grid2.Coords, EltTy.bits .f32 = 32 ∨ (Rect.block (s := S4096x128) S128x128.size (cc2_transform_3 i) (hinb2_3 i)).WholeWords (EltTy.packing .f32)

variable [Facts₀]

abbrev cc1_scratch4 : DmaSems sig S_ := SemArray.consecutive 8 S_ hcc1_scratch4
abbrev cc1_scratch5 : DmaSems sig S_ := SemArray.consecutive 9 S_ hcc1_scratch5
abbrev cc1_scratch6 : DmaSems sig S_ := SemArray.consecutive 10 S_ hcc1_scratch6
abbrev cc1_scratch7 : DmaSems sig S_ := SemArray.consecutive 11 S_ hcc1_scratch7
abbrev cc1_scratch8 : DmaSems sig S_ := SemArray.consecutive 12 S_ hcc1_scratch8
abbrev cc1_scratch9 : DmaSems sig S_ := SemArray.consecutive 13 S_ hcc1_scratch9
abbrev cc1_scratch10 : DmaSems sig S_ := SemArray.consecutive 14 S_ hcc1_scratch10
abbrev cc1_scratch11 : DmaSems sig S_ := SemArray.consecutive 15 S_ hcc1_scratch11
abbrev cc1_scratch12 : DmaSems sig S_ := SemArray.consecutive 16 S_ hcc1_scratch12
abbrev cc1_scoped0 : DmaSems sig S_ := SemArray.consecutive 17 S_ hcc1_scoped0
abbrev cc1_scoped1 : DmaSems sig S_ := SemArray.consecutive 18 S_ hcc1_scoped1
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S128x16384_S16384x128_S128x128_1_0_0_1_n_n : DotDims S128x16384 S16384x128 S128x128 where
  lhsContracting := [1]
  rhsContracting := [0]
  lhsNonContracting := [0]
  rhsNonContracting := [1]
  lhsBatch := []
  rhsBatch := []
  wf := dot_S128x16384_S16384x128_S128x128_1_0_0_1_n_n_wf

abbrev win0_0 : Pipeline.Window sig grid0 :=
  Pipeline.Window.ofSpec (Memref.whole main_v0) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S4096x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond1 i == 1#1) | 5 => fun _ => false | ⟨_ + 6, h⟩ => absurd h (Nat.not_lt.2 (Nat.le_add_left _ _))

abbrev win2_0 : Pipeline.Window sig grid2 :=
  Pipeline.Window.ofSpec (Memref.whole main_arg1) S128x16384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S16384x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S128x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x256 : Shape := ⟨2, ![4096, 256]⟩
abbrev S4096x16384 : Shape := ⟨2, ![4096, 16384]⟩
abbrev S4096x4096 : Shape := ⟨2, ![4096, 4096]⟩
abbrev S2x16384 : Shape := ⟨2, ![2, 16384]⟩
abbrev S1 : Shape := ⟨1, ![1]⟩
abbrev S256x128 : Shape := ⟨2, ![256, 128]⟩
abbrev S128 : Shape := ⟨1, ![128]⟩
abbrev S_ : Shape := ⟨0, ![]⟩
abbrev S4096x128 : Shape := ⟨2, ![4096, 128]⟩
abbrev S1x1 : Shape := ⟨2, ![1, 1]⟩
abbrev S1x16384 : Shape := ⟨2, ![1, 16384]⟩
abbrev S16384 : Shape := ⟨1, ![16384]⟩
abbrev S16384x1 : Shape := ⟨2, ![16384, 1]⟩
abbrev S16384x128 : Shape := ⟨2, ![16384, 128]⟩
abbrev S1x128 : Shape := ⟨2, ![1, 128]⟩

abbrev nBuf : Space → Nat
  | .hbm => 112
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x16384, .f32⟩
  | .hbm, ⟨2, _⟩ => ⟨S4096x4096, .f32⟩
  | .hbm, ⟨3, _⟩ => ⟨S2x16384, .i32⟩
  | .hbm, ⟨4, _⟩ => ⟨S1, .f32⟩
  | .hbm, ⟨5, _⟩ => ⟨S256x128, .f32⟩
  | .hbm, ⟨6, _⟩ => ⟨S128, .f32⟩
  | .hbm, ⟨7, _⟩ => ⟨S1, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S1, .f32⟩
  | .hbm, ⟨18, _⟩ => ⟨S4096x128, .f32⟩
  | .hbm, ⟨19, _⟩ => ⟨S1x1, .f32⟩
  | .hbm, ⟨20, _⟩ => ⟨S4096x128, .f32⟩
  | .hbm, ⟨21, _⟩ => ⟨S4096x128, .f32⟩
  | .hbm, ⟨22, _⟩ => ⟨S_, .f32⟩
  | .hbm, ⟨23, _⟩ => ⟨S_, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S1x16384, .i32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S1, .i32⟩
  | .hbm, ⟨39, _⟩ => ⟨S_, .i32⟩
  | .hbm, ⟨40, _⟩ => ⟨S16384x1, .i32⟩
  | .hbm, ⟨41, _⟩ => ⟨S16384x1, .i1⟩
  | .hbm, ⟨42, _⟩ => ⟨S1x1, .i32⟩
  | .hbm, ⟨43, _⟩ => ⟨S16384x1, .i32⟩
  | .hbm, ⟨44, _⟩ => ⟨S16384x1, .i1⟩
  | .hbm, ⟨45, _⟩ => ⟨S16384x1, .i1⟩
  | .hbm, ⟨46, _⟩ => ⟨S_, .i1⟩
  | .hbm, ⟨47, _⟩ => ⟨S16384, .i1⟩
  | .hbm, ⟨48, _⟩ => ⟨S16384x128, .f32⟩
  | .hbm, ⟨49, _⟩ => ⟨S16384x128, .i1⟩
  | .hbm, ⟨50, _⟩ => ⟨S_, .f32⟩
  | .hbm, ⟨51, _⟩ => ⟨S16384x128, .f32⟩
  | .hbm, ⟨52, _⟩ => ⟨S16384x128, .f32⟩
  | .hbm, ⟨53, _⟩ => ⟨S1x16384, .i32⟩
  | .hbm, ⟨54, _⟩ => ⟨S16384, .i32⟩
  | .hbm, ⟨55, _⟩ => ⟨S_, .i32⟩
  | .hbm, ⟨56, _⟩ => ⟨S16384, .i32⟩
  | .hbm, ⟨57, _⟩ => ⟨S16384, .i1⟩
  | .hbm, ⟨58, _⟩ => ⟨S_, .i32⟩
  | .hbm, ⟨59, _⟩ => ⟨S16384, .i32⟩
  | .hbm, ⟨60, _⟩ => ⟨S16384, .i32⟩
  | .hbm, ⟨61, _⟩ => ⟨S16384, .i32⟩
  | .hbm, ⟨62, _⟩ => ⟨S16384x1, .i32⟩
  | .hbm, ⟨63, _⟩ => ⟨S1, .i32⟩
  | .hbm, ⟨64, _⟩ => ⟨S_, .i32⟩
  | .hbm, ⟨65, _⟩ => ⟨S16384x1, .i32⟩
  | .hbm, ⟨66, _⟩ => ⟨S16384x1, .i1⟩
  | .hbm, ⟨67, _⟩ => ⟨S1x1, .i32⟩
  | .hbm, ⟨68, _⟩ => ⟨S16384x1, .i32⟩
  | .hbm, ⟨69, _⟩ => ⟨S16384x1, .i1⟩
  | .hbm, ⟨70, _⟩ => ⟨S16384x1, .i1⟩
  | .hbm, ⟨71, _⟩ => ⟨S_, .i1⟩
  | .hbm, ⟨72, _⟩ => ⟨S16384, .i1⟩
  | .hbm, ⟨73, _⟩ => ⟨S16384x128, .f32⟩
  | .hbm, ⟨74, _⟩ => ⟨S16384x128, .i1⟩
  | .hbm, ⟨75, _⟩ => ⟨S_, .f32⟩
  | .hbm, ⟨76, _⟩ => ⟨S16384x128, .f32⟩
  | .hbm, ⟨77, _⟩ => ⟨S16384x128, .f32⟩
  | .hbm, ⟨78, _⟩ => ⟨S_, .f32⟩
  | .hbm, ⟨79, _⟩ => ⟨S16384x128, .f32⟩
  | .hbm, ⟨80, _⟩ => ⟨S16384x128, .f32⟩
  | .hbm, ⟨81, _⟩ => ⟨S16384x128, .f32⟩
  | .hbm, ⟨82, _⟩ => ⟨S1x16384, .i32⟩
  | .hbm, ⟨83, _⟩ => ⟨S16384, .i32⟩
  | .hbm, ⟨84, _⟩ => ⟨S_, .i32⟩
  | .hbm, ⟨85, _⟩ => ⟨S16384, .i32⟩
  | .hbm, ⟨86, _⟩ => ⟨S16384, .i1⟩
  | .hbm, ⟨87, _⟩ => ⟨S_, .i32⟩
  | .hbm, ⟨88, _⟩ => ⟨S16384, .i32⟩
  | .hbm, ⟨89, _⟩ => ⟨S16384, .i32⟩
  | .hbm, ⟨90, _⟩ => ⟨S16384, .i32⟩
  | .hbm, ⟨91, _⟩ => ⟨S16384x1, .i32⟩
  | .hbm, ⟨92, _⟩ => ⟨S1, .i32⟩
  | .hbm, ⟨93, _⟩ => ⟨S_, .i32⟩
  | .hbm, ⟨94, _⟩ => ⟨S16384x1, .i32⟩
  | .hbm, ⟨95, _⟩ => ⟨S16384x1, .i1⟩
  | .hbm, ⟨96, _⟩ => ⟨S1x1, .i32⟩
  | .hbm, ⟨97, _⟩ => ⟨S16384x1, .i32⟩
  | .hbm, ⟨98, _⟩ => ⟨S16384x1, .i1⟩
  | .hbm, ⟨99, _⟩ => ⟨S16384x1, .i1⟩
  | .hbm, ⟨100, _⟩ => ⟨S_, .i1⟩
  | .hbm, ⟨101, _⟩ => ⟨S16384, .i1⟩
  | .hbm, ⟨102, _⟩ => ⟨S16384x128, .f32⟩
  | .hbm, ⟨103, _⟩ => ⟨S16384x128, .i1⟩
  | .hbm, ⟨104, _⟩ => ⟨S_, .f32⟩
  | .hbm, ⟨105, _⟩ => ⟨S16384x128, .f32⟩
  | .hbm, ⟨106, _⟩ => ⟨S16384x128, .f32⟩
  | .hbm, ⟨107, _⟩ => ⟨S16384x128, .f32⟩
  | .hbm, ⟨108, _⟩ => ⟨S4096x128, .f32⟩
  | .hbm, ⟨109, _⟩ => ⟨S1x128, .f32⟩
  | .hbm, ⟨110, _⟩ => ⟨S4096x128, .f32⟩
  | .hbm, ⟨111, _⟩ => ⟨S4096x128, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v22 : Ref sig .tc := ⟨.hbm, 77, rfl⟩
abbrev main_cst_3 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_c_1 : Ref sig .tc := ⟨.hbm, 92, rfl⟩
abbrev main_call2_c_2 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_3 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_call2_cst : Ref sig .tc := ⟨.hbm, 104, rfl⟩
abbrev main_call2_v15 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_1 : S1.BroadcastsInDim S1x1 (![1] : Fin 1 → Fin S1x1.rank)
  bcast_S1x1_S4096x128_0_1 : S1x1.BroadcastsInDim S4096x128 (![0, 1] : Fin 2 → Fin S4096x128.rank)
  reducesTo_S4096x128_S_d0_1 : S4096x128.ReducesTo [0, 1] S_
  h_S_ : 0 < S_.numel
  bcast_S_S4096x128 : S_.BroadcastsInDim S4096x128 (![] : Fin 0 → Fin S4096x128.rank)
  slices_S2x16384_S1x16384_1_0 : S2x16384.Slices ![1, 0] S1x16384
  shapeCasts_S1x16384_S16384 : S1x16384.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1x1_S16384x1_0_1 : S1x1.BroadcastsInDim S16384x1 (![0, 1] : Fin 2 → Fin S16384x1.rank)
  reducesTo_S16384x1_S16384_d1 : S16384x1.ReducesTo [1] S16384
  bcast_S16384_S16384x128_0 : S16384.BroadcastsInDim S16384x128 (![0] : Fin 1 → Fin S16384x128.rank)
  bcast_S_S16384x128 : S_.BroadcastsInDim S16384x128 (![] : Fin 0 → Fin S16384x128.rank)
  slices_S2x16384_S1x16384_0_0 : S2x16384.Slices ![0, 0] S1x16384
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []
  gather_S4096x128_S16384x1_S16384x128_1_0_n_n_0_1_1128_wf : GatherDims.WF S4096x128 S16384x1 S16384x128 [1] [0] [] [0] [] 1 ![1, 128]
  dot_S4096x16384_S16384x128_S4096x128_1_0_0_1_n_n_wf : DotDims.WF S4096x16384 S16384x128 S4096x128 [1] [0] [0] [1] [] []

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def gather_S4096x128_S16384x1_S16384x128_1_0_n_n_0_1_1128 : GatherDims S4096x128 S16384x1 S16384x128 where
  offsetDims := [1]
  collapsedSliceDims := [0]
  operandBatchingDims := []
  startIndicesBatchingDims := []
  startIndexMap := [0]
  indexVectorDim := 1
  sliceSizes := ![1, 128]
  wf := gather_S4096x128_S16384x1_S16384x128_1_0_n_n_0_1_1128_wf
def dot_S4096x16384_S16384x128_S4096x128_1_0_0_1_n_n : DotDims S4096x16384 S16384x128 S4096x128 where
  lhsContracting := [1]
  rhsContracting := [0]
  lhsNonContracting := [0]
  rhsNonContracting := [1]
  lhsBatch := []
  rhsBatch := []
  wf := dot_S4096x16384_S16384x128_S4096x128_1_0_0_1_n_n_wf

class Facts : Prop extends Facts₀ where

variable [Facts]
-- ==== Proof.ScSetup.lean ====
/-
  The program as the SparseCore launch theorem sees it, and the resource algebra the whole proof is carried in:
  the launch handshakes' rounds, the TensorCore pipelines' staging cells' rounds, and the counters of the vector
  subcores' own transfers, side by side.
-/
import proofs.«208470_g86148454023375_cont_sun_c4_654_45_alg».proof.Defs
import proofs.«208470_g86148454023375_cont_sun_c4_654_45_alg».proof.Proof.Gen.KernelIdeal
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP [FloatOps F] : Labels := Pipeline.Sig Λ₀ (Fin 2) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelines' staging cells' rounds. -/
abbrev UP : Type := UR sig nD τ
/-- Handshakes, beside staging cells, beside the transfers' counters. -/
abbrev UU : Type := UH × (UP × Counters)

/-- The handshakes' component. -/
abbrev EH : Emb UH (MT nD τ sig (HIx 1) (Elt F) ℕ UU ℕ) := embL
/-- The staging cells' component. -/
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP embR; infer_instance

end Cert.KernelIdeal.Sc

end
-- ==== Proof.MainArrays.lean ====
/-
  @main on the TensorCore, piece by piece: the arrays it holds between the launches, the two reshapes as host
  operations over them, and how the final memory reads the claim.
-/
import proofs.«208470_g86148454023375_cont_sun_c4_654_45_alg».proof.Proof.ScSetup

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The TensorCore's arrays -/

abbrev aLoc (d : Dev nD) (b : Ref sig .tc) : Loc nD τ sig := (SparseCore.T d).loc b

abbrev r_arg0 : DevRef τ sig := Proc.devRef .tc (main_arg0 : Ref sig .tc)
abbrev r_arg1 : DevRef τ sig := Proc.devRef .tc (main_arg1 : Ref sig .tc)
abbrev r_arg2 : DevRef τ sig := Proc.devRef .tc (main_arg2 : Ref sig .tc)
abbrev r_arg3 : DevRef τ sig := Proc.devRef .tc (main_arg3 : Ref sig .tc)
abbrev r_arg4 : DevRef τ sig := Proc.devRef .tc (main_arg4 : Ref sig .tc)
abbrev r_arg5 : DevRef τ sig := Proc.devRef .tc (main_arg5 : Ref sig .tc)
abbrev r_arg6 : DevRef τ sig := Proc.devRef .tc (main_arg6 : Ref sig .tc)
abbrev r_v0 : DevRef τ sig := Proc.devRef .tc (main_v0 : Ref sig .tc)
abbrev r_v1_0 : DevRef τ sig := Proc.devRef .tc (main_v1_0 : Ref sig .tc)
abbrev r_v1_1 : DevRef τ sig := Proc.devRef .tc (main_v1_1 : Ref sig .tc)
abbrev r_v2 : DevRef τ sig := Proc.devRef .tc (main_v2 : Ref sig .tc)
abbrev r_v3 : DevRef τ sig := Proc.devRef .tc (main_v3 : Ref sig .tc)
abbrev r_v4 : DevRef τ sig := Proc.devRef .tc (main_v4 : Ref sig .tc)

/-- Every unscoped array of the TensorCore: the seven arguments and the six values of @main. -/
abbrev SAll : Finset (DevRef τ sig) := {r_arg0, r_arg1, r_arg2, r_arg3, r_arg4, r_arg5, r_arg6, r_v0, r_v1_0, r_v1_1, r_v2, r_v3, r_v4}

theorem unscoped_filter : (Finset.univ.filter fun b : Ref sig .tc => ¬ b.isScoped) = {main_arg0, main_arg1, main_arg2, main_arg3, main_arg4, main_arg5, main_arg6, main_v0, main_v1_0, main_v1_1, main_v2, main_v3, main_v4} := by decide

/-- The TensorCore's unscoped arrays, one by one. -/
theorem unscopedBufs_eq (d : Dev nD) (W : (b : Ref sig .tc) → Buf (Elt F) ((d.tc : Thread nD τ).loc b)) :
    (unscopedBufs d W : sProp 𝕄) = iprop((aLoc d main_arg0 ↦{fullShare} W main_arg0) ∗ (aLoc d main_arg1 ↦{fullShare} W main_arg1) ∗ (aLoc d main_arg2 ↦{fullShare} W main_arg2)
      ∗ (aLoc d main_arg3 ↦{fullShare} W main_arg3) ∗ (aLoc d main_arg4 ↦{fullShare} W main_arg4) ∗ (aLoc d main_arg5 ↦{fullShare} W main_arg5) ∗ (aLoc d main_arg6 ↦{fullShare} W main_arg6)
      ∗ (aLoc d main_v0 ↦{fullShare} W main_v0) ∗ (aLoc d main_v1_0 ↦{fullShare} W main_v1_0) ∗ (aLoc d main_v1_1 ↦{fullShare} W main_v1_1) ∗ (aLoc d main_v2 ↦{fullShare} W main_v2)
      ∗ (aLoc d main_v3 ↦{fullShare} W main_v3) ∗ aLoc d main_v4 ↦{fullShare} W main_v4) := by
  unfold unscopedBufs
  rw [unscoped_filter, SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! ## What @main leaves the claim -/

/-- The seven arguments at their launch contents and the result array at `o`. -/
def FIN (o : (d : Dev nD) → Buf (Elt F) (aLoc d main_v4)) (d : Dev nD) : sProp 𝕄 :=
  iprop((aLoc d main_v4 ↦{fullShare} o d) ∗ (aLoc d main_arg0 ↦{fullShare} m (aLoc d main_arg0)) ∗ (aLoc d main_arg1 ↦{fullShare} m (aLoc d main_arg1)) ∗ (aLoc d main_arg2 ↦{fullShare} m (aLoc d main_arg2))
    ∗ (aLoc d main_arg3 ↦{fullShare} m (aLoc d main_arg3)) ∗ (aLoc d main_arg4 ↦{fullShare} m (aLoc d main_arg4)) ∗ (aLoc d main_arg5 ↦{fullShare} m (aLoc d main_arg5)) ∗ aLoc d main_arg6 ↦{fullShare} m (aLoc d main_arg6))

def fq (o : (d : Dev nD) → Buf (Elt F) (aLoc d main_v4)) (d : Dev nD) (s' : Phys nD τ sig (Elt F)) : Prop :=
  s'.mem.mem (aLoc d main_v4) = o d ∧ s'.mem.mem (aLoc d main_arg0) = m (aLoc d main_arg0) ∧ s'.mem.mem (aLoc d main_arg1) = m (aLoc d main_arg1) ∧ s'.mem.mem (aLoc d main_arg2) = m (aLoc d main_arg2)
    ∧ s'.mem.mem (aLoc d main_arg3) = m (aLoc d main_arg3) ∧ s'.mem.mem (aLoc d main_arg4) = m (aLoc d main_arg4) ∧ s'.mem.mem (aLoc d main_arg5) = m (aLoc d main_arg5) ∧ s'.mem.mem (aLoc d main_arg6) = m (aLoc d main_arg6)

/-- A whole array held at `f` beside the state interpretation: the memory holds `f` there (and the state interpretation is kept). -/
theorem agree_keep (s' : Phys nD τ sig (Elt F)) (ℓ : Loc nD τ sig) (f : Buf (Elt F) ℓ) :
    iprop(SI s' ∗ (ℓ ↦{fullShare} f : sProp 𝕄)) ⊢ iprop(⌜s'.mem.mem ℓ = f⌝ ∗ SI s') := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

theorem hfin (o : (d : Dev nD) → Buf (Elt F) (aLoc d main_v4)) (d : Dev nD) (s' : Phys nD τ sig (Elt F)) : iprop(FIN m o d ∗ SI s') ⊢ (⌜fq m o d s'⌝ : sProp 𝕄) := by
  unfold FIN
  iintro ⟨⟨H4, H0, H1, H2, H3, Ha4, H5, H6⟩, HSI⟩
  ihave X := (agree_keep s' _ _) $$ [HSI H4]; · isplitl [HSI] <;> iassumption
  icases X with ⟨%h4, HSI⟩
  ihave X := (agree_keep s' _ _) $$ [HSI H0]; · isplitl [HSI] <;> iassumption
  icases X with ⟨%h0, HSI⟩
  ihave X := (agree_keep s' _ _) $$ [HSI H1]; · isplitl [HSI] <;> iassumption
  icases X with ⟨%h1, HSI⟩
  ihave X := (agree_keep s' _ _) $$ [HSI H2]; · isplitl [HSI] <;> iassumption
  icases X with ⟨%h2, HSI⟩
  ihave X := (agree_keep s' _ _) $$ [HSI H3]; · isplitl [HSI] <;> iassumption
  icases X with ⟨%h3, HSI⟩
  ihave X := (agree_keep s' _ _) $$ [HSI Ha4]; · isplitl [HSI] <;> iassumption
  icases X with ⟨%ha4, HSI⟩
  ihave X := (agree_keep s' _ _) $$ [HSI H5]; · isplitl [HSI] <;> iassumption
  icases X with ⟨%h5, HSI⟩
  ihave X := (agree_keep s' _ _) $$ [HSI H6]; · isplitl [HSI] <;> iassumption
  icases X with ⟨%h6, -⟩
  ipureintro; exact ⟨h4, h0, h1, h2, h3, ha4, h5, h6⟩

end Cert.KernelIdeal.Sc

end
-- ==== Proof.MainSteps.lean ====
/-
  The two reshapes of @main as steps of the TensorCore's proof: each reads one argument array and fills one value array
  with its elements at the new shape, everything else as it was.
-/
import proofs.«208470_g86148454023375_cont_sun_c4_654_45_alg».proof.Proof.MainArrays

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ)

/-- The launch valuation of device `d`. -/
def V0 (d : Dev nD) : Valuation τ sig (Elt F) := fun b => m (d, b)

/-- The scalar parameter as a one-by-one array. -/
def p11Of (a : (⟨S1, .f32⟩ : BufTy).Contents (Elt F)) : (⟨S1x1, .f32⟩ : BufTy).Contents (Elt F) := shapeCast S1x1 a shapeCasts_S1_S1x1
/-- The bias vector as a one-row array. -/
def b1Of (a : (⟨S128, .f32⟩ : BufTy).Contents (Elt F)) : (⟨S1x128, .f32⟩ : BufTy).Contents (Elt F) := shapeCast S1x128 a shapeCasts_S128_S1x128

abbrev opR0 : HloOp τ sig (Elt F) := StableHlo.reshape main_arg4 main_v0 rfl shapeCasts_S1_S1x1
abbrev opR3 : HloOp τ sig (Elt F) := StableHlo.reshape main_arg6 main_v3 rfl shapeCasts_S128_S1x128

include m in
theorem reshape0_step {Λ : Labels} {defs : Defs nD τ sig (Elt F) Λ} (𝒱' : Variants) (d : Dev nD) (a : Buf (Elt F) (aLoc d main_arg4)) (f : Buf (Elt F) (aLoc d main_v0))
    (Q : PUnit → sProp 𝕄) :
    iprop(boundary (T d) ∗ (aLoc d main_arg4 ↦{fullShare} a) ∗ (aLoc d main_v0 ↦{fullShare} f))
      ⊢ iprop(((boundary (T d) ∗ (aLoc d main_arg4 ↦{fullShare} a) ∗ (aLoc d main_v0 ↦{fullShare} (p11Of a : Buf (Elt F) (aLoc d main_v0)))) -∗ wp frame (wpE defs 𝒱' (T d) none) Set.univ (.ret PUnit.unit) Q)
          -∗ wp frame (wpE defs 𝒱' (T d) none) Set.univ (hlo (p := .tc) rfl (opR0 (F := F)) (fun _ => .ret PUnit.unit)) Q) := by
  have hne : (r_arg4 : DevRef τ sig) ≠ r_v0 := by decide
  let W : Valuation τ sig (Elt F) := Function.update (Function.update (V0 m d) r_arg4 a) r_v0 f
  have hWx : W r_arg4 = a := (Function.update_of_ne hne _ _).trans (Function.update_self _ _ _)
  have hWy : W r_v0 = f := Function.update_self _ _ _
  have hS : (opR0 (F := F)).bufs ⊆ ({r_arg4, r_v0} : Finset (DevRef τ sig)) := Finset.Subset.refl _
  have hheld : ∀ W' : Valuation τ sig (Elt F), (held (T d) ({r_arg4, r_v0} : Finset (DevRef τ sig)) W' : sProp 𝕄)
      = iprop((aLoc d main_arg4 ↦{fullShare} W' r_arg4) ∗ (aLoc d main_v0 ↦{fullShare} W' r_v0)) := by
    intro W'
    unfold held
    rw [SparseCore.bigSep_insert' (by decide), bigSep_singleton]
  have hrx : (opR0 (F := F)).result W r_arg4 = a :=
    ((opR0 (F := F)).result_of_not_mem W (b := r_arg4) (show r_arg4 ∉ ({r_v0} : Finset (DevRef τ sig)) by decide)).trans hWx
  have hry : (opR0 (F := F)).result W r_v0 = (p11Of a : Buf (Elt F) (aLoc d main_v0)) := by
    rw [show (opR0 (F := F)).result W r_v0 = _ from StableHlo.reshape_result _ _ _ _ _ _ W]
    show (fun i => shapeCast _ (W r_arg4) _ i) = _
    rw [hWx]; rfl
  have h := wp_hlo_within (hp := rfl) (defs := defs) 𝒱' (T d) none Set.univ (op := opR0 (F := F)) (S := {r_arg4, r_v0}) hS (V := W) (Q := Q) (k := fun _ => .ret ⟨⟩)
  rw [hheld, hheld, hrx, hry, hWx, hWy] at h
  exact h

include m in
theorem reshape3_step {Λ : Labels} {defs : Defs nD τ sig (Elt F) Λ} (𝒱' : Variants) (d : Dev nD) (a : Buf (Elt F) (aLoc d main_arg6)) (f : Buf (Elt F) (aLoc d main_v3))
    (Q : PUnit → sProp 𝕄) :
    iprop(boundary (T d) ∗ (aLoc d main_arg6 ↦{fullShare} a) ∗ (aLoc d main_v3 ↦{fullShare} f))
      ⊢ iprop(((boundary (T d) ∗ (aLoc d main_arg6 ↦{fullShare} a) ∗ (aLoc d main_v3 ↦{fullShare} (b1Of a : Buf (Elt F) (aLoc d main_v3)))) -∗ wp frame (wpE defs 𝒱' (T d) none) Set.univ (.ret PUnit.unit) Q)
          -∗ wp frame (wpE defs 𝒱' (T d) none) Set.univ (hlo (p := .tc) rfl (opR3 (F := F)) (fun _ => .ret PUnit.unit)) Q) := by
  have hne : (r_arg6 : DevRef τ sig) ≠ r_v3 := by decide
  let W : Valuation τ sig (Elt F) := Function.update (Function.update (V0 m d) r_arg6 a) r_v3 f
  have hWx : W r_arg6 = a := (Function.update_of_ne hne _ _).trans (Function.update_self _ _ _)
  have hWy : W r_v3 = f := Function.update_self _ _ _
  have hS : (opR3 (F := F)).bufs ⊆ ({r_arg6, r_v3} : Finset (DevRef τ sig)) := Finset.Subset.refl _
  have hheld : ∀ W' : Valuation τ sig (Elt F), (held (T d) ({r_arg6, r_v3} : Finset (DevRef τ sig)) W' : sProp 𝕄)
      = iprop((aLoc d main_arg6 ↦{fullShare} W' r_arg6) ∗ (aLoc d main_v3 ↦{fullShare} W' r_v3)) := by
    intro W'
    unfold held
    rw [SparseCore.bigSep_insert' (by decide), bigSep_singleton]
  have hrx : (opR3 (F := F)).result W r_arg6 = a :=
    ((opR3 (F := F)).result_of_not_mem W (b := r_arg6) (show r_arg6 ∉ ({r_v3} : Finset (DevRef τ sig)) by decide)).trans hWx
  have hry : (opR3 (F := F)).result W r_v3 = (b1Of a : Buf (Elt F) (aLoc d main_v3)) := by
    rw [show (opR3 (F := F)).result W r_v3 = _ from StableHlo.reshape_result _ _ _ _ _ _ W]
    show (fun i => shapeCast _ (W r_arg6) _ i) = _
    rw [hWx]; rfl
  have h := wp_hlo_within (hp := rfl) (defs := defs) 𝒱' (T d) none Set.univ (op := opR3 (F := F)) (S := {r_arg6, r_v3}) hS (V := W) (Q := Q) (k := fun _ => .ret ⟨⟩)
  rw [hheld, hheld, hrx, hry, hWx, hWy] at h
  exact h

end Cert.KernelIdeal.Sc

end
-- ==== Proof.LaunchElem.lean ====
/-
  The launch element of the proof's ghost state: the handshakes' rounds, and beside them the staging cells' rounds of the
  two TensorCore pipelines, funded once at launch and dealt to the TensorCore of each device; the transfers' counters
  start at their unit and are found where a transfer is issued.
-/
import proofs.«208470_g86148454023375_cont_sun_c4_654_45_alg».proof.Proof.ScSetup
import proofs.«208470_g86148454023375_cont_sun_c4_654_45_alg».proof.Proof.Gen.KernelIdeal.Launch

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- What the launch deals the TensorCore of `d` for its two pipelines: each one's staging cells' ghost state and the duty
    tokens of the transfers its loop issues. -/
def G (d : Dev nD) : sProp 𝕄 :=
  bigSep Finset.univ fun p : Fin 2 => iprop(Pipeline.cellsGhost cfgs (EP (F := F)) p d ∗ Pipeline.toksInit cfgs (EP (F := F)) p d)

/-- The launch element: the handshake cells' rounds; the staging cells' rounds; the counters' unit. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem bigSep_emp' {I : Type} (s : Finset I) : (bigSep s fun _ => iprop(emp)) = (iprop(emp) : sProp 𝕄) := bigSep_emp_const s

theorem hu₀ (P : (K (F := F)).Pay (nD := nD) (Val := Elt F) (Name := ℕ) (U := UU)) (hx : ∀ q thr, P.x q thr = iprop(emp)) :
    (ownU (u₀ (F := F)) : sProp 𝕄)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 1 => P.x q thr) := by
  unfold u₀
  iintro Hu
  ihave H := (ownU_pair _ _) $$ Hu
  icases H with ⟨HH, HR⟩
  ihave H2 := (own_pair_emb embR _ _) $$ HR
  icases H2 with ⟨HP, -⟩
  have hf := Pipeline.fund_ghost (nD := nD) (τ := τ) (Ix := HIx 1) (Val := Elt F) (Name := ℕ) (Lvl := ℕ) cfgs (EP (F := F)) cellOf_inj
  unfold EP at hf
  imod hf $$ HP with ⟨Hg, Ht⟩
  imodintro
  isplitl [HH]; · iexact HH
  isplitl [Hg Ht]
  · unfold G
    simp only [bigSep_sep']
    isplitl [Hg]; · iexact Hg
    iexact Ht
  · simp only [hx, bigSep_emp']
    iempintro

end Cert.KernelIdeal.Sc

end
-- ==== Proof.ScSpec.lean ====
/-
  The vector subcores' kernel as ONE pure function of its operands: row t of the result is the lanewise product of
  the row of the first table that the second row of the edge list names at t and the row of the second table that
  the first row of the edge list names at t.
-/
import proofs.«208470_g86148454023375_cont_sun_c4_654_45_alg».proof.Proof.ScSetup
import Idealize.ShloMosaic.Lib.ValueIdx

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type}

local notation "𝕄" => MT nD τ sig (HIx 1) (Elt F) ℕ UU ℕ

/-- The row a 32-bit word names in a table of 4096 rows (the word itself when it is in range). -/
def rowIx (w : BitVec 32) : Fin 4096 := ⟨w.toNat % 4096, Nat.mod_lt _ (by decide)⟩

theorem rowIx_of_lt {w : BitVec 32} (h : w.toNat < 4096) : rowIx w = ⟨w.toNat, h⟩ :=
  Fin.ext (Nat.mod_eq_of_lt h)

variable [FloatOps F]

/-- The kernel's whole result: entry (t, j) is the product of entry (edge (1, t), j) of the first table and entry
    (edge (0, t), j) of the second. -/
def msgV (prod recip : (⟨S4096x128, .f32⟩ : BufTy).Contents (Elt F)) (edge : (⟨S2x16384, .i32⟩ : BufTy).Contents (Elt F)) :
    (⟨S16384x128, .f32⟩ : BufTy).Contents (Elt F) :=
  fun x => FloatOps.mulf (prod (ix2 (rowIx (edge (ix2 (1 : Fin 2) (x 0)))) (x 1))) (recip (ix2 (rowIx (edge (ix2 (0 : Fin 2) (x 0)))) (x 1)))

/-- The result read at an index, the rows as the in-range words of the edge list. -/
theorem msgV_apply (prod recip : (⟨S4096x128, .f32⟩ : BufTy).Contents (Elt F)) (edge : (⟨S2x16384, .i32⟩ : BufTy).Contents (Elt F))
    (t : Fin 16384) (j : Fin 128) (h1 : (edge (ix2 (1 : Fin 2) t)).toNat < 4096) (h0 : (edge (ix2 (0 : Fin 2) t)).toNat < 4096) :
    msgV prod recip edge (ix2 t j)
      = FloatOps.mulf (prod (ix2 (⟨(edge (ix2 (1 : Fin 2) t)).toNat, h1⟩ : Fin 4096) j)) (recip (ix2 (⟨(edge (ix2 (0 : Fin 2) t)).toNat, h0⟩ : Fin 4096) j)) := by
  unfold msgV
  rw [rowIx_of_lt h1, rowIx_of_lt h0]

/-- Every word of the edge list names a row of the two tables. -/
def PreOK (m : (ℓ : Loc nD τ sig) → Buf (Elt F) ℓ) : Prop :=
  ∀ (d : Dev nD) (x : S2x16384.Idx), (m ((SparseCore.T d).loc main_arg3) x).toNat < 4096

end Cert.KernelIdeal.Sc

end
-- ==== Proof.ScPay.lean ====
/-
  What the launch handshakes carry for the vector subcores' kernel: each SparseCore is handed a read share of the two
  tables and of the edge list and the rows of the result its vector subcores own; each vector subcore a read share of
  the three and its own four blocks of 128 rows of the result; they come back with the result's rows written.
-/
import proofs.«208470_g86148454023375_cont_sun_c4_654_45_alg».proof.Proof.ScSpec

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type}

local notation "𝕄" => MT nD τ sig (HIx 1) (Elt F) ℕ UU ℕ

variable [FloatOps F]
variable (m : (ℓ : Loc nD τ sig) → Buf (Elt F) ℓ) (prodC recipC : (⟨S4096x128, .f32⟩ : BufTy).Contents (Elt F))

/-! ## The arrays, as the TensorCore names them -/

abbrev prodLoc (d : Dev nD) : Loc nD τ sig := (SparseCore.T d).loc main_v1_0
abbrev recipLoc (d : Dev nD) : Loc nD τ sig := (SparseCore.T d).loc main_v1_1
abbrev edgeLoc (d : Dev nD) : Loc nD τ sig := (SparseCore.T d).loc main_arg3
abbrev msgLoc (d : Dev nD) : Loc nD τ sig := (SparseCore.T d).loc main_v2

/-- The edge list at the launch. -/
abbrev edgeC (d : Dev nD) : (⟨S2x16384, .i32⟩ : BufTy).Contents (Elt F) := m (edgeLoc d)
/-- The kernel's result on device `d`. -/
abbrev msgC (d : Dev nD) : (⟨S16384x128, .f32⟩ : BufTy).Contents (Elt F) := msgV prodC recipC (edgeC m d)

/-! ## Grid coordinates, read shares, blocks of rows -/

theorem nCore_zero : (K (F := F)).nCore 0 = 2 := rfl
theorem nSub_zero : (K (F := F)).nSub 0 = 16 := rfl
theorem bound_zero : grid1.bound 0 = 2 := rfl
theorem bound_one : grid1.bound 1 = 16 := rfl

/-- A vector subcore's grid coordinates. -/
def coordsV (c : Fin (grid1.bound 0)) (s : Fin (grid1.bound 1)) : grid1.Coords :=
  fun | 0 => c | 1 => s | ⟨_ + 2, h⟩ => absurd h (Nat.not_lt.2 (Nat.le_add_left _ _))

abbrev cL (L : grid1.Coords) : Fin 2 := Fin.cast bound_zero (L 0)
abbrev sL (L : grid1.Coords) : Fin 16 := Fin.cast bound_one (L 1)
abbrev cV (L : grid1.Coords) : Fin τ.nSC := (L 0).castLE hcore1
abbrev jV (L : grid1.Coords) : Fin τ.nSub := (L 1).castLE hsub1

/-- SparseCore `c`'s read share of an array every vector subcore reads whole, -/
def shC (c : Fin 2) : PosShare TreeShare := pieceOf fullShare 2 (by decide) c
/-- and its vector subcore `s`'s. -/
def shT (c : Fin 2) (s : Fin 16) : PosShare TreeShare := pieceOf (shC c) 16 (by decide) s

/-- Block `k` of 128 rows of the result of the vector subcore at `L`, as the kernel slices it. -/
abbrev chunkRect (L : grid1.Coords) (k : Fin 4) : Rect S16384x128 :=
  Rect.unit (s := S16384x128) (k1_off11 L (BitVec.ofNat 32 (128 * k.val))) S128x128.size (k1_off11_inb L k)
abbrev chunkM (L : grid1.Coords) (k : Fin 4) : Memref sig .scVector .hbm S128x128 .f32 :=
  (Memref.whole main_v2_scv : Memref sig .scVector .hbm S16384x128 .f32).slice (chunkRect L k) (fun _ => rfl)
abbrev chunkSet (L : grid1.Coords) (k : Fin 4) : Finset S16384x128.Idx := (chunkM L k).view.set

/-! ## What a vector subcore is handed and hands back -/

/-- The task's operands: a read share of the two tables and of the edge list, the task's four blocks of the result at
    whatever they hold. -/
def tileGo (d : Dev nD) (L : grid1.Coords) : sProp 𝕄 :=
  iprop((prodLoc d ↦{shT (cL L) (sL L)} prodC) ∗ (recipLoc d ↦{shT (cL L) (sL L)} recipC) ∗ (edgeLoc d ↦{shT (cL L) (sL L)} m (edgeLoc d))
    ∗ bigSep Finset.univ fun k : Fin 4 => iprop(∃ f, msgLoc d ↦[chunkSet L k]{fullShare} f))

/-- The task's results: the same shares, the four blocks written. -/
def tileTd (d : Dev nD) (L : grid1.Coords) : sProp 𝕄 :=
  iprop((prodLoc d ↦{shT (cL L) (sL L)} prodC) ∗ (recipLoc d ↦{shT (cL L) (sL L)} recipC) ∗ (edgeLoc d ↦{shT (cL L) (sL L)} m (edgeLoc d))
    ∗ bigSep Finset.univ fun k : Fin 4 => msgLoc d ↦[chunkSet L k]{fullShare} msgC m prodC recipC d)

/-- A SparseCore's operands: its read shares, its vector subcores' blocks of the result. -/
def coreSt (d : Dev nD) (c : Fin 2) : sProp 𝕄 :=
  iprop((prodLoc d ↦{shC c} prodC) ∗ (recipLoc d ↦{shC c} recipC) ∗ (edgeLoc d ↦{shC c} m (edgeLoc d))
    ∗ bigSep Finset.univ fun s : Fin 16 => bigSep Finset.univ fun k : Fin 4 =>
        iprop(∃ f, msgLoc d ↦[chunkSet (coordsV (Fin.cast bound_zero.symm c) (Fin.cast bound_one.symm s)) k]{fullShare} f))

/-- A SparseCore's results. -/
def coreDn (d : Dev nD) (c : Fin 2) : sProp 𝕄 :=
  iprop((prodLoc d ↦{shC c} prodC) ∗ (recipLoc d ↦{shC c} recipC) ∗ (edgeLoc d ↦{shC c} m (edgeLoc d))
    ∗ bigSep Finset.univ fun s : Fin 16 => bigSep Finset.univ fun k : Fin 4 =>
        msgLoc d ↦[chunkSet (coordsV (Fin.cast bound_zero.symm c) (Fin.cast bound_one.symm s)) k]{fullShare} msgC m prodC recipC d)

instance tileGo_storable (d : Dev nD) (L : grid1.Coords) : BI.Storable (upEmb : UEmb _ 𝕄) (tileGo m prodC recipC d L) := by
  unfold tileGo; infer_instance
instance tileTd_storable (d : Dev nD) (L : grid1.Coords) : BI.Storable (upEmb : UEmb _ 𝕄) (tileTd m prodC recipC d L) := by
  unfold tileTd; infer_instance
instance coreSt_storable (d : Dev nD) (c : Fin 2) : BI.Storable (upEmb : UEmb _ 𝕄) (coreSt m prodC recipC d c) := by
  unfold coreSt; infer_instance
instance coreDn_storable (d : Dev nD) (c : Fin 2) : BI.Storable (upEmb : UEmb _ 𝕄) (coreDn m prodC recipC d c) := by
  unfold coreDn; infer_instance

/-- The one call's payloads. The kernel makes local copies only and waits for them itself: nothing is dealt it. -/
def P : (K (F := F)).Pay (nD := nD) (Val := Elt F) (Name := ℕ) (U := UU) where
  st := fun q d c => match q with | 0 => coreSt m prodC recipC d (Fin.cast nCore_zero c)
  dn := fun q d c => match q with | 0 => coreDn m prodC recipC d (Fin.cast nCore_zero c)
  go := fun q d c i => match q with
    | 0 => tileGo m prodC recipC d (coordsV (Fin.cast (nCore_zero.trans bound_zero.symm) c) (Fin.cast (nSub_zero.trans bound_one.symm) i))
  td := fun q d c i => match q with
    | 0 => tileTd m prodC recipC d (coordsV (Fin.cast (nCore_zero.trans bound_zero.symm) c) (Fin.cast (nSub_zero.trans bound_one.symm) i))
  x := fun _ _ => iprop(emp)

instance P_storable : (P (F := F) m prodC recipC).IsStorable where
  st q d c := match q with | 0 => coreSt_storable m prodC recipC d _
  dn q d c := match q with | 0 => coreDn_storable m prodC recipC d _
  go q d c i := match q with | 0 => tileGo_storable m prodC recipC d _
  td q d c i := match q with | 0 => tileTd_storable m prodC recipC d _

theorem P_st (d : Dev nD) (c : Fin ((K (F := F)).nCore 0)) : (P m prodC recipC).st 0 d c = coreSt m prodC recipC d (Fin.cast nCore_zero c) := rfl
theorem P_dn (d : Dev nD) (c : Fin ((K (F := F)).nCore 0)) : (P m prodC recipC).dn 0 d c = coreDn m prodC recipC d (Fin.cast nCore_zero c) := rfl
theorem P_go (d : Dev nD) (c : Fin ((K (F := F)).nCore 0)) (i : Fin ((K (F := F)).nSub 0)) :
    (P m prodC recipC).go 0 d c i
      = tileGo m prodC recipC d (coordsV (Fin.cast (nCore_zero.trans bound_zero.symm) c) (Fin.cast (nSub_zero.trans bound_one.symm) i)) := rfl
theorem P_td (d : Dev nD) (c : Fin ((K (F := F)).nCore 0)) (i : Fin ((K (F := F)).nSub 0)) :
    (P m prodC recipC).td 0 d c i
      = tileTd m prodC recipC d (coordsV (Fin.cast (nCore_zero.trans bound_zero.symm) c) (Fin.cast (nSub_zero.trans bound_one.symm) i)) := rfl
theorem P_x (q : Fin 1) (thr : Thread nD τ) : (P m prodC recipC).x q thr = iprop(emp) := rfl
theorem P_ox : (P m prodC recipC).ox = fun _ _ => 0 := rfl

/-! ## The call's operands and results, whole -/

/-! ## The result's 128 blocks of 128 rows -/

theorem hdiv128 : 128 ∣ S16384x128.size 0 := ⟨128, rfl⟩
/-- Block `b` of 128 rows. -/
abbrev blk (b : Fin 128) : Rect S16384x128 := Rect.part (s := S16384x128) (a₀ := 0) hdiv128 b
abbrev blkSet (b : Fin 128) : Finset S16384x128.Idx := ((Memref.whole main_v2_scv : Memref sig .scVector .hbm S16384x128 .f32).view.slice (blk b)).set

/-- The grid coordinates of vector subcore `s` of SparseCore `c`. -/
abbrev Lcs (c : Fin 2) (s : Fin 16) : grid1.Coords := coordsV (Fin.cast bound_zero.symm c) (Fin.cast bound_one.symm s)

/-- The number of the block that is chunk `k` of vector subcore `s` of SparseCore `c`. -/
def blkIx (c : Fin 2) (s : Fin 16) (k : Fin 4) : Fin 128 := ⟨8 * s.val + 4 * c.val + k.val, by omega⟩

theorem chunkRect_eq (c : Fin 2) (s : Fin 16) (k : Fin 4) : chunkRect (Lcs c s) k = blk (blkIx c s k) := by
  unfold chunkRect blk Rect.part Rect.block
  congr 1 <;> funext a
  · rw [k1_off11_eq]
    match a with
    | 0 => simp [Shape.partIx, Shape.partSize, blkIx, coordsV]; omega
    | 1 => simp [Shape.partIx, Shape.partSize]
  · match a with
    | 0 => simp [Shape.partSize]
    | 1 => simp [Shape.partSize]

theorem chunkSet_eq (c : Fin 2) (s : Fin 16) (k : Fin 4) : chunkSet (Lcs c s) k = blkSet (blkIx c s k) := by
  show ((Memref.whole main_v2_scv : Memref sig .scVector .hbm S16384x128 .f32).view.slice (chunkRect (Lcs c s) k)).set = _
  rw [chunkRect_eq]

theorem blkSet_eq (b : Fin 128) : blkSet b = (blk b).set := by
  show ((View.whole (main_v2_scv : Ref sig .scVector)).slice (blk b)).set = _
  rw [View.set_slice]; exact Finset.map_refl
theorem blk_disjoint : ∀ i ∈ (Finset.univ : Finset (Fin 128)), ∀ j ∈ (Finset.univ : Finset (Fin 128)), i ≠ j → Disjoint (blkSet i) (blkSet j) :=
  fun i _ j _ h => by rw [blkSet_eq, blkSet_eq]; exact Rect.part_disjoint hdiv128 h
theorem blk_cover : (Finset.univ : Finset (Fin 128)).biUnion blkSet = Finset.univ :=
  (Finset.biUnion_congr rfl fun i _ => blkSet_eq i).trans (Rect.biUnion_part hdiv128)

/-- The result whole is its 128 blocks. -/
theorem msg_blocks (d : Dev nD) (f : Buf (Elt F) (msgLoc d)) :
    (msgLoc d ↦{fullShare} f : sProp 𝕄) = bigSep Finset.univ fun b : Fin 128 => msgLoc d ↦[blkSet b]{fullShare} f := by
  rw [← pointsTo_biUnion Finset.univ (ℓ := msgLoc d) blkSet blk_disjoint, blk_cover]; try rfl

/-! ## Blocks by SparseCore, vector subcore and chunk -/

def eB : Fin 16 × (Fin 2 × Fin 4) ≃ Fin 128 := (Equiv.prodCongr (Equiv.refl (Fin 16)) finProdFinEquiv).trans finProdFinEquiv

theorem eB_apply (s : Fin 16) (c : Fin 2) (k : Fin 4) : eB (s, (c, k)) = blkIx c s k :=
  Fin.ext (by simp [eB, finProdFinEquiv, blkIx]; omega)

theorem reindex (Ψ : Fin 128 → sProp 𝕄) :
    (bigSep Finset.univ fun c : Fin 2 => bigSep Finset.univ fun s : Fin 16 => bigSep Finset.univ fun k : Fin 4 => Ψ (blkIx c s k))
      = bigSep Finset.univ Ψ := by
  have h1 : ∀ s : Fin 16, (bigSep Finset.univ fun p : Fin 2 × Fin 4 => Ψ (eB (s, p)))
      = bigSep Finset.univ fun c : Fin 2 => bigSep Finset.univ fun k : Fin 4 => Ψ (blkIx c s k) := fun s => by
    rw [bigSep_univ_prod]; simp only [eB_apply]
  rw [bigSep_univ_equiv eB Ψ, bigSep_univ_prod]
  simp only [h1]
  exact bigSep_univ_comm _

/-! ## Read shares -/

omit [FloatOps F] in
theorem share2 {ℓ : Loc nD τ sig} (f : Buf (Elt F) ℓ) : (bigSep Finset.univ fun c : Fin 2 => (ℓ ↦{shC c} f : sProp 𝕄)) = ℓ ↦{fullShare} f := by
  unfold shC; exact (pointsTo_piecesOf Finset.univ f (by decide) fullShare).symm
omit [FloatOps F] in
theorem share16 {ℓ : Loc nD τ sig} (f : Buf (Elt F) ℓ) (c : Fin 2) : (bigSep Finset.univ fun s : Fin 16 => (ℓ ↦{shT c s} f : sProp 𝕄)) = ℓ ↦{shC c} f := by
  unfold shT; exact (pointsTo_piecesOf Finset.univ f (by decide) (shC c)).symm

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The result: whole, and by SparseCore, vector subcore and chunk -/

theorem msg_chunks (d : Dev nD) (f : Buf (Elt F) (msgLoc d)) :
    (bigSep Finset.univ fun c : Fin 2 => bigSep Finset.univ fun s : Fin 16 => bigSep Finset.univ fun k : Fin 4 =>
        (msgLoc d ↦[chunkSet (Lcs c s) k]{fullShare} f : sProp 𝕄))
      = msgLoc d ↦{fullShare} f := by
  simp only [chunkSet_eq]
  rw [reindex (fun b => (msgLoc d ↦[blkSet b]{fullShare} f : sProp 𝕄)), msg_blocks]

theorem blocks_join (d : Dev nD) :
    (bigSep Finset.univ fun b : Fin 128 => iprop(∃ f, msgLoc d ↦[blkSet b]{fullShare} f)) ⊢ (iprop(∃ f, msgLoc d ↦{fullShare} f) : sProp 𝕄) := by
  refine (bigSep_exists_pi Finset.univ (fun b (f : Buf (Elt F) (msgLoc d)) => (msgLoc d ↦[blkSet b]{fullShare} f : sProp 𝕄))).trans ?_
  iintro ⟨%fs, H⟩
  ihave H' := (pointsTo_biUnion_join Finset.univ blkSet fs (fs 0) blk_disjoint) $$ H
  icases H' with ⟨%g, -, Hg⟩
  rw [blk_cover]
  iexists g; iexact Hg

theorem msg_chunks_ex (d : Dev nD) :
    (bigSep Finset.univ fun c : Fin 2 => bigSep Finset.univ fun s : Fin 16 => bigSep Finset.univ fun k : Fin 4 =>
        (iprop(∃ f, msgLoc d ↦[chunkSet (Lcs c s) k]{fullShare} f) : sProp 𝕄))
      = iprop(∃ f, msgLoc d ↦{fullShare} f) := by
  simp only [chunkSet_eq]
  rw [reindex (fun b => (iprop(∃ f, msgLoc d ↦[blkSet b]{fullShare} f) : sProp 𝕄))]
  have he : ∀ (f : Buf (Elt F) (msgLoc d)) (b : Fin 128),
      (msgLoc d ↦[blkSet b]{fullShare} f : sProp 𝕄) ⊢ iprop(∃ f, msgLoc d ↦[blkSet b]{fullShare} f) := fun f b => by
    iintro H; iexists f; iexact H
  have hm : ∀ f : Buf (Elt F) (msgLoc d), (msgLoc d ↦{fullShare} f : sProp 𝕄) ⊢ bigSep Finset.univ fun b : Fin 128 => iprop(∃ f, msgLoc d ↦[blkSet b]{fullShare} f) := fun f => by
    rw [msg_blocks]
    exact bigSep_mono fun b _ => he f b
  have h2 : (iprop(∃ f, msgLoc d ↦{fullShare} f) : sProp 𝕄) ⊢ bigSep Finset.univ fun b : Fin 128 => iprop(∃ f, msgLoc d ↦[blkSet b]{fullShare} f) := by
    iintro ⟨%f, H⟩
    iapply (hm f); iexact H
  exact BI.Entails.antisymm (blocks_join d) h2

/-- The SparseCores' operands together are the four arrays whole, the result at whatever it holds. -/
theorem st0_eq (d : Dev nD) :
    (bigSep Finset.univ fun c : Fin ((K (F := F)).nCore 0) => (P m prodC recipC).st 0 d c)
      = iprop((prodLoc d ↦{fullShare} prodC) ∗ (recipLoc d ↦{fullShare} recipC) ∗ (edgeLoc d ↦{fullShare} m (edgeLoc d))
          ∗ ∃ f, msgLoc d ↦{fullShare} f) := by
  show (bigSep Finset.univ fun c : Fin ((K (F := F)).nCore 0) => coreSt m prodC recipC d (Fin.cast nCore_zero c)) = _
  rw [bigSep_cores (fun c => coreSt m prodC recipC d c)]
  unfold coreSt
  rw [bigSep_sep', bigSep_sep', bigSep_sep', share2, share2, share2, msg_chunks_ex]

/-- The SparseCores' results together are the four arrays whole, the result written. -/
theorem dn0_eq (d : Dev nD) :
    (bigSep Finset.univ fun c : Fin ((K (F := F)).nCore 0) => (P m prodC recipC).dn 0 d c)
      = iprop((prodLoc d ↦{fullShare} prodC) ∗ (recipLoc d ↦{fullShare} recipC) ∗ (edgeLoc d ↦{fullShare} m (edgeLoc d))
          ∗ msgLoc d ↦{fullShare} msgC m prodC recipC d) := by
  show (bigSep Finset.univ fun c : Fin ((K (F := F)).nCore 0) => coreDn m prodC recipC d (Fin.cast nCore_zero c)) = _
  rw [bigSep_cores (fun c => coreDn m prodC recipC d c)]
  unfold coreDn
  rw [bigSep_sep', bigSep_sep', bigSep_sep', share2, share2, share2, msg_chunks]

end Cert.KernelIdeal.Sc

end
-- ==== Proof.Main.lean ====
/-
  @main on the TensorCore: the parameter's reshape, the first pipeline's region, the SparseCore call, the bias's reshape,
  the second pipeline's region — from the launch contents to the result array at the composed value, the arguments kept.
-/
import proofs.«208470_g86148454023375_cont_sun_c4_654_45_alg».proof.Proof.MainSteps
import proofs.«208470_g86148454023375_cont_sun_c4_654_45_alg».proof.Proof.LaunchElem
import proofs.«208470_g86148454023375_cont_sun_c4_654_45_alg».proof.Proof.ScPay

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-- The TensorCore's handshake debts with the bound on its recorded pairs: what a pipeline's region takes and gives back. -/
def owesB' (d : Dev nD) (O : CellTallies nD τ sig (HIx 1)) (b : ℕ) : sProp 𝕄 :=
  iprop(∃ W, ⌜(K (F := F)).WBelow (T d) W b⌝ ∗ owes (T d) O W)

section Main

variable (prodV : (⟨S1x1, .f32⟩ : BufTy).Contents (Elt F) → (⟨S4096x256, .f32⟩ : BufTy).Contents (Elt F) → (⟨S256x128, .f32⟩ : BufTy).Contents (Elt F) → (⟨S4096x128, .f32⟩ : BufTy).Contents (Elt F))
  (recipV : (⟨S1x1, .f32⟩ : BufTy).Contents (Elt F) → (⟨S4096x256, .f32⟩ : BufTy).Contents (Elt F) → (⟨S256x128, .f32⟩ : BufTy).Contents (Elt F) → (⟨S4096x4096, .f32⟩ : BufTy).Contents (Elt F) → (⟨S4096x128, .f32⟩ : BufTy).Contents (Elt F))
  (outV : (⟨S4096x16384, .f32⟩ : BufTy).Contents (Elt F) → (⟨S16384x128, .f32⟩ : BufTy).Contents (Elt F) → (⟨S1x128, .f32⟩ : BufTy).Contents (Elt F) → (⟨S4096x128, .f32⟩ : BufTy).Contents (Elt F))

/-- The first region's results on device `d`, from the launch contents. -/
abbrev p11C (d : Dev nD) : (⟨S1x1, .f32⟩ : BufTy).Contents (Elt F) := p11Of (m (aLoc d main_arg4))
abbrev prodCv (d : Dev nD) := prodV (p11C m d) (m (aLoc d main_arg0)) (m (aLoc d main_arg5))
abbrev recipCv (d : Dev nD) := recipV (p11C m d) (m (aLoc d main_arg0)) (m (aLoc d main_arg5)) (m (aLoc d main_arg2))
/-- The SparseCore call's result. -/
abbrev msgCv (d : Dev nD) := msgV (prodCv m prodV d) (recipCv m recipV d) (m (aLoc d main_arg3))
/-- The program's result. -/
abbrev outCv (d : Dev nD) : Buf (Elt F) (aLoc d main_v4) := outV (m (aLoc d main_arg1)) (msgCv m prodV recipV d) (b1Of (m (aLoc d main_arg6)))

/-- What the first pipeline's region does on the TensorCore of `d`, inside the SparseCore program: from the region
    boundary, its staging cells' launch ghost, the handshake debts (which pass through) and its arrays, the two
    results at their values, everything else as it was. -/
def Region0Spec : Prop :=
  ∀ (d : Dev nD) (O : CellTallies nD τ sig (HIx 1)) (b : ℕ), (∀ g, O g none = 0) →
    ∀ (p11 : Buf (Elt F) (aLoc d main_v0)) (x : Buf (Elt F) (aLoc d main_arg0)) (w : Buf (Elt F) (aLoc d main_arg5)) (adj : Buf (Elt F) (aLoc d main_arg2))
      (f10 : Buf (Elt F) (aLoc d main_v1_0)) (f11 : Buf (Elt F) (aLoc d main_v1_1)),
    iprop(levAts (K (F := F)).L (K (F := F)).lev ∗ boundary (T d) ∗ Pipeline.cellsGhost cfgs (EP (F := F)) 0 d ∗ Pipeline.toksInit cfgs (EP (F := F)) 0 d ∗ owesB' d O b
        ∗ (aLoc d main_v0 ↦{fullShare} p11) ∗ (aLoc d main_arg0 ↦{fullShare} x) ∗ (aLoc d main_arg5 ↦{fullShare} w) ∗ (aLoc d main_arg2 ↦{fullShare} adj)
        ∗ (aLoc d main_v1_0 ↦{fullShare} f10) ∗ (aLoc d main_v1_1 ↦{fullShare} f11))
      ⊢ wp frame (wpE ((K (F := F)).defs (D (F := F))) 𝒱 (T d) none) Set.univ (Prog.lift (.customCall (SparseCore.inner (Pipeline.entry 0)) ()))
          fun _ => iprop(boundary (T d) ∗ owesB' d O b
            ∗ (aLoc d main_v0 ↦{fullShare} p11) ∗ (aLoc d main_arg0 ↦{fullShare} x) ∗ (aLoc d main_arg5 ↦{fullShare} w) ∗ (aLoc d main_arg2 ↦{fullShare} adj)
            ∗ (aLoc d main_v1_0 ↦{fullShare} (prodV p11 x w : Buf (Elt F) (aLoc d main_v1_0))) ∗ (aLoc d main_v1_1 ↦{fullShare} (recipV p11 x w adj : Buf (Elt F) (aLoc d main_v1_1))))

/-- The same of the second pipeline's region. -/
def Region2Spec : Prop :=
  ∀ (d : Dev nD) (O : CellTallies nD τ sig (HIx 1)) (b : ℕ), (∀ g, O g none = 0) →
    ∀ (tm : Buf (Elt F) (aLoc d main_arg1)) (msg : Buf (Elt F) (aLoc d main_v2)) (b1 : Buf (Elt F) (aLoc d main_v3)) (f4 : Buf (Elt F) (aLoc d main_v4)),
    iprop(levAts (K (F := F)).L (K (F := F)).lev ∗ boundary (T d) ∗ Pipeline.cellsGhost cfgs (EP (F := F)) 1 d ∗ Pipeline.toksInit cfgs (EP (F := F)) 1 d ∗ owesB' d O b
        ∗ (aLoc d main_arg1 ↦{fullShare} tm) ∗ (aLoc d main_v2 ↦{fullShare} msg) ∗ (aLoc d main_v3 ↦{fullShare} b1) ∗ (aLoc d main_v4 ↦{fullShare} f4))
      ⊢ wp frame (wpE ((K (F := F)).defs (D (F := F))) 𝒱 (T d) none) Set.univ (Prog.lift (.customCall (SparseCore.inner (Pipeline.entry 1)) ()))
          fun _ => iprop(boundary (T d) ∗ owesB' d O b
            ∗ (aLoc d main_arg1 ↦{fullShare} tm) ∗ (aLoc d main_v2 ↦{fullShare} msg) ∗ (aLoc d main_v3 ↦{fullShare} b1)
            ∗ (aLoc d main_v4 ↦{fullShare} (outV tm msg b1 : Buf (Elt F) (aLoc d main_v4))))

theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

/-- The TensorCore's handshake state is its debts with their bound, beside the rest. -/
theorem tcSt_open (d : Dev nD) (n : ℕ) :
    ((K (F := F)).tcSt EH d n : sProp 𝕄) ⊢ iprop(owesB' d ((K (F := F)).Otc d n) (8 * n) ∗ (owesB' d ((K (F := F)).Otc d n) (8 * n) -∗ (K (F := F)).tcSt EH d n)) := by
  unfold SparseCore.Cfg.tcSt owesB'
  iintro ⟨HO, Hrest⟩
  isplitl [HO]; · iexact HO
  iintro HO
  isplitl [HO]; · iexact HO
  iexact Hrest

variable {prodV recipV outV}

omit [FloatOps F] in
theorem bigSep_fin2 {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

/-- @main on device `d`'s TensorCore. -/
theorem hmain (h0 : Region0Spec (F := F) prodV recipV) (h2 : Region2Spec (F := F) outV) (κ : GSem nD τ sig → ℕ) (d : Dev nD) :
    iprop((K (F := F)).ctx EH (P m (prodCv m prodV 0) (recipCv m recipV 0)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m (outCv m prodV recipV outV) d) := by
  obtain rfl : d = 0 := Subsingleton.elim _ _
  unfold SparseCore.Cfg.tcRes
  rw [unscopedBufs_eq]
  unfold G
  rw [bigSep_fin2]
  simp only [main, wp_bind, wp_pure]
  iintro ⟨#Hctx, Hst, ⟨Hb, ⟨A0, A1, A2, A3, A4, A5, A6, B0, B10, B11, B2, B3, B4⟩, -, -⟩, ⟨Hg0, Ht0⟩, ⟨Hg1, Ht1⟩⟩
  ihave #Hlev := ((K (F := F)).ctx_levAts κ) $$ Hctx
  -- the parameter's reshape
  iapply (reshape0_step m 𝒱 0 _ _ _) $$ [Hb A4 B0]
  · isplitl [Hb]; · iexact Hb
    isplitl [A4]; · iexact A4
    iexact B0
  iintro ⟨Hb, A4, B0⟩
  rw [wp_ret]; imodintro
  -- the first pipeline's region
  ihave H := (tcSt_open (F := F) 0 0) $$ Hst
  icases H with ⟨HO, Hclose⟩
  iapply (wp_wand frame (wpE ((K (F := F)).defs (D (F := F))) 𝒱 (SparseCore.T 0) none) Set.univ) $$ [Hb Hg0 Ht0 HO B0 A0 A5 A2 B10 B11]
  · iapply (h0 0 _ _ (Otc_none 0 0) _ _ _ _ _ _)
    isplitr; · iexact Hlev
    isplitl [Hb]; · iexact Hb
    isplitl [Hg0]; · iexact Hg0
    isplitl [Ht0]; · iexact Ht0
    isplitl [HO]; · iexact HO
    isplitl [B0]; · iexact B0
    isplitl [A0]; · iexact A0
    isplitl [A5]; · iexact A5
    isplitl [A2]; · iexact A2
    isplitl [B10]; · iexact B10
    iexact B11
  iintro %_ ⟨Hb, HO, B0, A0, A5, A2, B10, B11⟩
  ihave Hst := Hclose $$ HO
  -- the SparseCore call: the two tables and the edge list to the SparseCores and back, the messages filled
  iapply ((K (F := F)).wp_run (D (F := F)) 𝒱 (EH := EH) (P := P m (prodCv m prodV 0) (recipCv m recipV 0)) κ 0 0) $$ [Hst B10 B11 A3 B2 Hb A0 A1 A2 A4 A5 A6 B0 B3 B4 Hg1 Ht1]
  isplitr; · iexact Hctx
  isplitl [Hst]; · iexact Hst
  isplitl [B10 B11 A3 B2]
  · rw [st0_eq]
    isplitl [B10]; · iexact B10
    isplitl [B11]; · iexact B11
    isplitl [A3]; · iexact A3
    iexists _; iexact B2
  iintro ⟨Hst, Hdn⟩
  ihave Hdn' := (Entails.of_eq (dn0_eq m (prodCv m prodV 0) (recipCv m recipV 0) 0)) $$ Hdn
  icases Hdn' with ⟨B10, B11, A3, B2⟩
  -- the bias's reshape
  iapply (reshape3_step m 𝒱 0 _ _ _) $$ [Hb A6 B3]
  · isplitl [Hb]; · iexact Hb
    isplitl [A6]; · iexact A6
    iexact B3
  iintro ⟨Hb, A6, B3⟩
  rw [wp_ret]; imodintro
  -- the second pipeline's region
  ihave H := (tcSt_open (F := F) 0 ((0 : Fin 1).val + 1)) $$ Hst
  icases H with ⟨HO, Hclose⟩
  iapply (wp_wand frame (wpE ((K (F := F)).defs (D (F := F))) 𝒱 (SparseCore.T 0) none) Set.univ) $$ [Hb Hg1 Ht1 HO A1 B2 B3 B4]
  · iapply (h2 0 _ _ (Otc_none 0 ((0 : Fin 1).val + 1)) _ _ _ _)
    isplitr; · iexact Hlev
    isplitl [Hb]; · iexact Hb
    isplitl [Hg1]; · iexact Hg1
    isplitl [Ht1]; · iexact Ht1
    isplitl [HO]; · iexact HO
    isplitl [A1]; · iexact A1
    isplitl [B2]; · iexact B2
    isplitl [B3]; · iexact B3
    iexact B4
  iintro %_ ⟨Hb, HO, A1, B2, B3, B4⟩
  ihave Hst := Hclose $$ HO
  imodintro
  isplitl [Hst]; · iexact Hst
  unfold FIN
  isplitl [B4]; · iexact B4
  isplitl [A0]; · iexact A0
  isplitl [A1]; · iexact A1
  isplitl [A2]; · iexact A2
  isplitl [A3]; · iexact A3
  isplitl [A4]; · iexact A4
  isplitl [A5]; · iexact A5
  iexact A6

end Main

end Cert.KernelIdeal.Sc

end
-- ==== Proof.ScBodyPre.lean ====
/-
  One vector subcore's own storage spelt out: its four scratch buffers and eleven DMA semaphores among everything it
  owns, and the arrays as the kernel's memrefs address them.
-/
import proofs.«208470_g86148454023375_cont_sun_c4_654_45_alg».proof.Proof.ScPay

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type}

local notation "𝕄" => MT nD τ sig (HIx 1) (Elt F) ℕ UU ℕ

variable [FloatOps F]

/-! ## The kernel's memrefs -/

abbrev pV : Memref sig .scVector .hbm S4096x128 .f32 := Memref.whole main_v1_0_scv
abbrev rV : Memref sig .scVector .hbm S4096x128 .f32 := Memref.whole main_v1_1_scv
abbrev eV : Memref sig .scVector .hbm S2x16384 .i32 := Memref.whole main_arg3_scv
abbrev oV : Memref sig .scVector .hbm S16384x128 .f32 := Memref.whole main_v2_scv
abbrev sI1 : Memref sig .scVector .vmem S512 .i32 := Memref.whole cc1_scratch0
abbrev sI0 : Memref sig .scVector .vmem S512 .i32 := Memref.whole cc1_scratch1
abbrev sR1 : Memref sig .scVector .vmem S3x128x128 .f32 := Memref.whole cc1_scratch2
abbrev sR0 : Memref sig .scVector .vmem S3x128x128 .f32 := Memref.whole cc1_scratch3

/-! ## Read tokens, blocks -/

section Toks

variable {ℓ : Loc nD τ sig} {S : Finset (Idx ℓ)} {f : Buf (Elt F) ℓ}

omit [FloatOps F] in
/-- A read share as three read tokens numbered `a`, `a + 1`, `a + 2` and what is left of it. -/
theorem pts_toks3 (q : PosShare TreeShare) (a : ℕ) :
    (ℓ ↦[S]{q} f : sProp 𝕄)
      = iprop((ℓ ↦[S]{Transfers.shareDrop q (a + 3)} f) ∗ (ℓ ↦[S]{Transfers.shareTokN q (a + 2)} f) ∗ (ℓ ↦[S]{Transfers.shareTokN q (a + 1)} f)
          ∗ (ℓ ↦[S]{Transfers.shareTokN q a} f) ∗ bigSep (Finset.range a) fun i => ℓ ↦[S]{Transfers.shareTokN q i} f) := by
  rw [BI.Entails.antisymm (Transfers.pointsTo_toks_range (Ix := HIx 1) (Name := ℕ) (U := UU) (Lvl := ℕ) (ℓ := ℓ) (S := S) (f := f) q (a + 3)).1
      (Transfers.pointsTo_toks_range (Ix := HIx 1) (Name := ℕ) (U := UU) (Lvl := ℕ) (ℓ := ℓ) (S := S) (f := f) q (a + 3)).2,
    Finset.range_add_one, SparseCore.bigSep_insert' (by simp), Finset.range_add_one, SparseCore.bigSep_insert' (by simp),
    Finset.range_add_one, SparseCore.bigSep_insert' (by simp)]

omit [FloatOps F] in
/-- Read tokens 8, 9, 10: one per semaphore the first table's gathers complete on. -/
theorem pts_toksP (q : PosShare TreeShare) :
    (ℓ ↦[S]{q} f : sProp 𝕄)
      = iprop((ℓ ↦[S]{Transfers.shareDrop q 11} f) ∗ (ℓ ↦[S]{Transfers.shareTokN q 10} f) ∗ (ℓ ↦[S]{Transfers.shareTokN q 9} f)
          ∗ (ℓ ↦[S]{Transfers.shareTokN q 8} f) ∗ bigSep (Finset.range 8) fun i => ℓ ↦[S]{Transfers.shareTokN q i} f) := pts_toks3 q 8
omit [FloatOps F] in
/-- Read tokens 11, 12, 13: one per semaphore the second table's gathers complete on. -/
theorem pts_toksR (q : PosShare TreeShare) :
    (ℓ ↦[S]{q} f : sProp 𝕄)
      = iprop((ℓ ↦[S]{Transfers.shareDrop q 14} f) ∗ (ℓ ↦[S]{Transfers.shareTokN q 13} f) ∗ (ℓ ↦[S]{Transfers.shareTokN q 12} f)
          ∗ (ℓ ↦[S]{Transfers.shareTokN q 11} f) ∗ bigSep (Finset.range 11) fun i => ℓ ↦[S]{Transfers.shareTokN q i} f) := pts_toks3 q 11

end Toks

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

section Tile

variable (d : Dev nD) (L : grid1.Coords)

/-- The vector subcore at `L`. -/
abbrev thrV : Thread nD τ := V d (cV L) (jV L)

omit [FloatOps F] in
theorem pts_pV (q : PosShare TreeShare) (f : Buf (Elt F) (prodLoc d)) :
    ((pV).view.loc (V d (cV L) (jV L)) ↦[(pV).view.set]{q} f : sProp 𝕄) = prodLoc d ↦{q} f := by
  simp only [Memref.view_whole, View.set_whole]
omit [FloatOps F] in
theorem pts_rV (q : PosShare TreeShare) (f : Buf (Elt F) (recipLoc d)) :
    ((rV).view.loc (V d (cV L) (jV L)) ↦[(rV).view.set]{q} f : sProp 𝕄) = recipLoc d ↦{q} f := by
  simp only [Memref.view_whole, View.set_whole]
omit [FloatOps F] in
theorem pts_eV (q : PosShare TreeShare) (f : Buf (Elt F) (edgeLoc d)) :
    ((eV).view.loc (V d (cV L) (jV L)) ↦[(eV).view.set]{q} f : sProp 𝕄) = edgeLoc d ↦{q} f := by
  simp only [Memref.view_whole, View.set_whole]
omit [FloatOps F] in
theorem pts_chunk (k : Fin 4) (f : Buf (Elt F) (msgLoc d)) :
    ((chunkM L k).view.loc (V d (cV L) (jV L)) ↦[(chunkM L k).view.set]{fullShare} f : sProp 𝕄) = msgLoc d ↦[chunkSet L k]{fullShare} f := rfl
omit [FloatOps F] in
theorem pts_sI1 (f : Buf (Elt F) ((V d (cV L) (jV L)).loc cc1_scratch0)) :
    ((sI1).view.loc (V d (cV L) (jV L)) ↦[(sI1).view.set]{fullShare} f : sProp 𝕄) = (V d (cV L) (jV L)).loc cc1_scratch0 ↦{fullShare} f := by
  simp only [Memref.view_whole, View.set_whole]
omit [FloatOps F] in
theorem pts_sI0 (f : Buf (Elt F) ((V d (cV L) (jV L)).loc cc1_scratch1)) :
    ((sI0).view.loc (V d (cV L) (jV L)) ↦[(sI0).view.set]{fullShare} f : sProp 𝕄) = (V d (cV L) (jV L)).loc cc1_scratch1 ↦{fullShare} f := by
  simp only [Memref.view_whole, View.set_whole]
omit [FloatOps F] in
theorem pts_sR1 (f : Buf (Elt F) ((V d (cV L) (jV L)).loc cc1_scratch2)) :
    ((sR1).view.loc (V d (cV L) (jV L)) ↦[(sR1).view.set]{fullShare} f : sProp 𝕄) = (V d (cV L) (jV L)).loc cc1_scratch2 ↦{fullShare} f := by
  simp only [Memref.view_whole, View.set_whole]
omit [FloatOps F] in
theorem pts_sR0 (f : Buf (Elt F) ((V d (cV L) (jV L)).loc cc1_scratch3)) :
    ((sR0).view.loc (V d (cV L) (jV L)) ↦[(sR0).view.set]{fullShare} f : sProp 𝕄) = (V d (cV L) (jV L)).loc cc1_scratch3 ↦{fullShare} f := by
  simp only [Memref.view_whole, View.set_whole]

/-! ## The subcore's semaphores and buffers -/

abbrev cell (n : DmaSem sig) : GSem nD τ sig := (V d (cV L) (jV L), SemLoc.dma n)

/-- The kernel's eleven DMA semaphores, the subcore's. -/
def kCells : Finset (GSem nD τ sig) :=
  {cell d L cc1_scratch4.sem, cell d L cc1_scratch5.sem, cell d L cc1_scratch6.sem, cell d L cc1_scratch7.sem, cell d L cc1_scratch8.sem, cell d L cc1_scratch9.sem, cell d L cc1_scratch10.sem, cell d L cc1_scratch11.sem, cell d L cc1_scratch12.sem, cell d L cc1_scoped0.sem, cell d L cc1_scoped1.sem}

omit [FloatOps F] in
theorem dma_scoped : ∀ n : DmaSem sig, (SemLoc.dma n : SemLoc sig).isScoped .scVector = true := by decide

omit [FloatOps F] in
theorem kCells_sub : kCells d L ⊆ ownCells (V d (cV L) (jV L)) := by
  intro g hg
  simp only [kCells, Finset.mem_insert, Finset.mem_singleton] at hg
  rcases hg with rfl | rfl | rfl | rfl | rfl | rfl | rfl | rfl | rfl | rfl | rfl <;> exact mem_ownCells.mpr ⟨rfl, dma_scoped _⟩

omit [FloatOps F] in
theorem cell_ne {a b : DmaSem sig} (h : a ≠ b) : cell d L a ≠ cell d L b :=
  fun e => h (SemLoc.dma.inj (Prod.mk.inj e).2)

omit [FloatOps F] in
/-- The subcore's scoped semaphores at zero are the kernel's eleven and the rest. -/
theorem ownSems0_V :
    (ownSems0 (V d (cV L) (jV L)) : sProp 𝕄)
      = iprop((semVal (cell d L cc1_scratch4.sem) 0 ∗ semVal (cell d L cc1_scratch5.sem) 0 ∗ semVal (cell d L cc1_scratch6.sem) 0 ∗ semVal (cell d L cc1_scratch7.sem) 0 ∗ semVal (cell d L cc1_scratch8.sem) 0 ∗ semVal (cell d L cc1_scratch9.sem) 0 ∗ semVal (cell d L cc1_scratch10.sem) 0 ∗ semVal (cell d L cc1_scratch11.sem) 0 ∗ semVal (cell d L cc1_scratch12.sem) 0 ∗ semVal (cell d L cc1_scoped0.sem) 0 ∗ semVal (cell d L cc1_scoped1.sem) 0)
          ∗ bigSep (ownCells (V d (cV L) (jV L)) \ kCells d L) fun g => semVal g 0) := by
  unfold SparseCore.Cfg.ownSems0
  rw [SparseCore.bigSep_sdiff_split' (kCells_sub d L)]
  unfold kCells
  rw [SparseCore.bigSep_insert' (by
      simp only [Finset.mem_insert, Finset.mem_singleton, not_or]
      exact ⟨cell_ne d L (by decide), cell_ne d L (by decide), cell_ne d L (by decide), cell_ne d L (by decide), cell_ne d L (by decide), cell_ne d L (by decide), cell_ne d L (by decide), cell_ne d L (by decide), cell_ne d L (by decide), cell_ne d L (by decide)⟩),
    SparseCore.bigSep_insert' (by
      simp only [Finset.mem_insert, Finset.mem_singleton, not_or]
      exact ⟨cell_ne d L (by decide), cell_ne d L (by decide), cell_ne d L (by decide), cell_ne d L (by decide), cell_ne d L (by decide), cell_ne d L (by decide), cell_ne d L (by decide), cell_ne d L (by decide), cell_ne d L (by decide)⟩),
    SparseCore.bigSep_insert' (by
      simp only [Finset.mem_insert, Finset.mem_singleton, not_or]
      exact ⟨cell_ne d L (by decide), cell_ne d L (by decide), cell_ne d L (by decide), cell_ne d L (by decide), cell_ne d L (by decide), cell_ne d L (by decide), cell_ne d L (by decide), cell_ne d L (by decide)⟩),
    SparseCore.bigSep_insert' (by
      simp only [Finset.mem_insert, Finset.mem_singleton, not_or]
      exact ⟨cell_ne d L (by decide), cell_ne d L (by decide), cell_ne d L (by decide), cell_ne d L (by decide), cell_ne d L (by decide), cell_ne d L (by decide), cell_ne d L (by decide)⟩),
    SparseCore.bigSep_insert' (by
      simp only [Finset.mem_insert, Finset.mem_singleton, not_or]
      exact ⟨cell_ne d L (by decide), cell_ne d L (by decide), cell_ne d L (by decide), cell_ne d L (by decide), cell_ne d L (by decide), cell_ne d L (by decide)⟩),
    SparseCore.bigSep_insert' (by
      simp only [Finset.mem_insert, Finset.mem_singleton, not_or]
      exact ⟨cell_ne d L (by decide), cell_ne d L (by decide), cell_ne d L (by decide), cell_ne d L (by decide), cell_ne d L (by decide)⟩),
    SparseCore.bigSep_insert' (by
      simp only [Finset.mem_insert, Finset.mem_singleton, not_or]
      exact ⟨cell_ne d L (by decide), cell_ne d L (by decide), cell_ne d L (by decide), cell_ne d L (by decide)⟩),
    SparseCore.bigSep_insert' (by
      simp only [Finset.mem_insert, Finset.mem_singleton, not_or]
      exact ⟨cell_ne d L (by decide), cell_ne d L (by decide), cell_ne d L (by decide)⟩),
    SparseCore.bigSep_insert' (by
      simp only [Finset.mem_insert, Finset.mem_singleton, not_or]
      exact ⟨cell_ne d L (by decide), cell_ne d L (by decide)⟩),
    SparseCore.bigSep_insert' (by
      simp only [Finset.mem_insert, Finset.mem_singleton, not_or]
      exact cell_ne d L (by decide)),
    bigSep_singleton]

/-- The kernel's four scratch buffers, the subcore's. -/
def kRefs : Finset (DevRef τ sig) :=
  {(Proc.scVector (cV L) (jV L)).devRef cc1_scratch0, (Proc.scVector (cV L) (jV L)).devRef cc1_scratch1, (Proc.scVector (cV L) (jV L)).devRef cc1_scratch2, (Proc.scVector (cV L) (jV L)).devRef cc1_scratch3}

omit [FloatOps F] in
theorem kRefs_sub : kRefs L ⊆ ownRefs (τ := τ) (.scVector (cV L) (jV L)) := by
  intro b hb
  simp only [kRefs, Finset.mem_insert, Finset.mem_singleton] at hb
  rcases hb with rfl | rfl | rfl | rfl <;> exact SparseCore.Cfg.mem_ownRefs_of_owner (p := Proc.scVector (cV L) (jV L)) rfl

omit [FloatOps F] in
theorem ref_ne {a b : Ref sig .scVector} (h : a ≠ b) : (Proc.scVector (cV L) (jV L)).devRef a ≠ (Proc.scVector (cV L) (jV L)).devRef b :=
  fun e => h (Proc.devRef_injective _ e)

omit [FloatOps F] in
/-- The subcore's own buffers are the kernel's four scratch buffers, at some contents, and the rest. -/
theorem ownBufs_V :
    (ownBufs (V d (cV L) (jV L)) : sProp 𝕄)
      = iprop(((∃ f, (V d (cV L) (jV L)).loc cc1_scratch0 ↦{fullShare} f) ∗ (∃ f, (V d (cV L) (jV L)).loc cc1_scratch1 ↦{fullShare} f)
            ∗ (∃ f, (V d (cV L) (jV L)).loc cc1_scratch2 ↦{fullShare} f) ∗ (∃ f, (V d (cV L) (jV L)).loc cc1_scratch3 ↦{fullShare} f))
          ∗ bigSep (ownRefs (τ := τ) (.scVector (cV L) (jV L)) \ kRefs L) fun b => iprop(∃ f, ((d, b) : Loc nD τ sig) ↦{fullShare} f)) := by
  unfold SparseCore.Cfg.ownBufs
  rw [SparseCore.bigSep_sdiff_split' (kRefs_sub L)]
  unfold kRefs
  rw [SparseCore.bigSep_insert' (by
      simp only [Finset.mem_insert, Finset.mem_singleton, not_or]
      exact ⟨ref_ne L (by decide), ref_ne L (by decide), ref_ne L (by decide)⟩),
    SparseCore.bigSep_insert' (by
      simp only [Finset.mem_insert, Finset.mem_singleton, not_or]
      exact ⟨ref_ne L (by decide), ref_ne L (by decide)⟩),
    SparseCore.bigSep_insert' (by
      simp only [Finset.mem_insert, Finset.mem_singleton, not_or]
      exact ref_ne L (by decide)),
    bigSep_singleton]

end Tile

end Cert.KernelIdeal.Sc

end
-- ==== Proof.ScIdx.lean ====
/-
  The pure side of one vector subcore's task: what its buffers hold, index by index.
-/
import proofs.«208470_g86148454023375_cont_sun_c4_654_45_alg».proof.Proof.ScBodyPre
import Idealize.ShloMosaic.Lib.SparseCore.Stream
import Idealize.ShloMosaic.Lib.Writes

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type}

local notation "𝕄" => MT nD τ sig (HIx 1) (Elt F) ℕ UU ℕ

/-- Slot `σ` of a ring buffer, as the kernel slices it. -/
abbrev slot0M (b : Memref sig .scVector .vmem S3x128x128 .f32) : Memref sig .scVector .vmem S128x128 .f32 :=
  (b.slice (Rect.unit (s := S3x128x128) ![0, 0, 0] S1x128x128.size inb_S3x128x128_S1x128x128_0_0_0) (fun _ => rfl)).squeeze S128x128 squeezes_S1x128x128_S128x128
abbrev slot1M (b : Memref sig .scVector .vmem S3x128x128 .f32) : Memref sig .scVector .vmem S128x128 .f32 :=
  (b.slice (Rect.unit (s := S3x128x128) ![1, 0, 0] S1x128x128.size inb_S3x128x128_S1x128x128_1_0_0) (fun _ => rfl)).squeeze S128x128 squeezes_S1x128x128_S128x128
abbrev slot2M (b : Memref sig .scVector .vmem S3x128x128 .f32) : Memref sig .scVector .vmem S128x128 .f32 :=
  (b.slice (Rect.unit (s := S3x128x128) ![2, 0, 0] S1x128x128.size inb_S3x128x128_S1x128x128_2_0_0) (fun _ => rfl)).squeeze S128x128 squeezes_S1x128x128_S128x128

variable [FloatOps F]
variable (m : (ℓ : Loc nD τ sig) → Buf (Elt F) ℓ) (prodC recipC : (⟨S4096x128, .f32⟩ : BufTy).Contents (Elt F))

/-! ## What the gathers leave -/

/-- The first row of the result the vector subcore at `L` owns. -/
def baseRow (L : grid1.Coords) : ℕ := 1024 * (L 1).val + 512 * (L 0).val

omit [FloatOps F] in
theorem baseRow_lt (L : grid1.Coords) (c : Fin 4) (r : Fin 128) : baseRow L + 128 * c.val + r.val < 16384 := by
  have h0 : (L 0).val < 2 := (L 0).isLt
  have h1 : (L 1).val < 16 := (L 1).isLt
  unfold baseRow; omega

/-- Edge `baseRow L + 128 c + r` of the vector subcore at `L`. -/
def edgeAt (L : grid1.Coords) (c : Fin 4) (r : Fin 128) : Fin 16384 := ⟨baseRow L + 128 * c.val + r.val, baseRow_lt L c r⟩

/-- What chunk `c`'s gather of the first table leaves at row `r`, lane `j` of whichever slot it lands in. -/
def gathA (d : Dev nD) (L : grid1.Coords) (c : Fin 4) : S3x128x128.Idx → F .f32 :=
  fun i => prodC (ix2 (rowIx (m (edgeLoc d) (ix2 (1 : Fin 2) (edgeAt L c (i 1))))) (i 2))
/-- The same of the second table. -/
def gathB (d : Dev nD) (L : grid1.Coords) (c : Fin 4) : S3x128x128.Idx → F .f32 :=
  fun i => recipC (ix2 (rowIx (m (edgeLoc d) (ix2 (0 : Fin 2) (edgeAt L c (i 1))))) (i 2))

/-! ## One trip of a row loop -/

/-- Rows below `k` multiplied. -/
def rowsDone (k : ℕ) (A B : S3x128x128.Idx → F .f32) : S3x128x128.Idx → F .f32 :=
  fun i => if (i 1).val < k then FloatOps.mulf (A i) (B i) else A i

end Cert.KernelIdeal.Sc

end
-- ==== Proof.ScIdxA.lean ====
/-
  The slots of a ring buffer as sets of indices, and what an indexed row copy leaves in a slot.
-/
import proofs.«208470_g86148454023375_cont_sun_c4_654_45_alg».proof.Proof.ScIdx
import Idealize.ShloMosaic.Lib.ValueLayout

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type}

local notation "𝕄" => MT nD τ sig (HIx 1) (Elt F) ℕ UU ℕ

variable [FloatOps F]
variable (m : (ℓ : Loc nD τ sig) → Buf (Elt F) ℓ) (prodC recipC : (⟨S4096x128, .f32⟩ : BufTy).Contents (Elt F))

/-! ## The three slots of a ring buffer -/

omit [FloatOps F] in
/-- A unit-row rectangle of the ring buffer's shape holds exactly the indices whose first coordinate is its row. -/
theorem unit3_iff (x : S3x128x128.Idx) (σ : ℕ) :
    (∀ a, (![σ, 0, 0] : Fin 3 → ℕ) a ≤ x a ∧ (x a : ℕ) < (![σ, 0, 0] : Fin 3 → ℕ) a + S1x128x128.size a) ↔ (x 0).val = σ := by
  constructor
  · intro h
    have h0 := h 0
    have e1 : (![σ, 0, 0] : Fin 3 → ℕ) 0 = σ := rfl
    have e2 : S1x128x128.size 0 = 1 := rfl
    rw [e1, e2] at h0
    omega
  · intro h a
    have h1 : (x 1).val < 128 := (x 1).isLt
    have h2 : (x 2).val < 128 := (x 2).isLt
    match a with
    | ⟨0, _⟩ => exact ⟨by show σ ≤ (x 0).val; omega, by show (x 0).val < σ + 1; omega⟩
    | ⟨1, _⟩ => exact ⟨Nat.zero_le _, by show (x 1).val < 0 + 128; omega⟩
    | ⟨2, _⟩ => exact ⟨Nat.zero_le _, by show (x 2).val < 0 + 128; omega⟩

omit [FloatOps F] in
/-- The elements under a slot: the buffer's elements under the indices of that row. -/
theorem mem_slot_set (b : Memref sig .scVector .vmem S3x128x128 .f32) (σ : ℕ) (inb) (i : b.view.ty.Idx) :
    i ∈ ((b.slice (Rect.unit (s := S3x128x128) ![σ, 0, 0] S1x128x128.size inb) (fun _ => rfl)).squeeze S128x128
        squeezes_S1x128x128_S128x128).view.set ↔ ∃ x : S3x128x128.Idx, (x 0).val = σ ∧ b.view.emb x = i := by
  have e : ((b.slice (Rect.unit (s := S3x128x128) ![σ, 0, 0] S1x128x128.size inb) (fun _ => rfl)).squeeze S128x128
        squeezes_S1x128x128_S128x128).view.set = (Rect.unit (s := S3x128x128) ![σ, 0, 0] S1x128x128.size inb).set.map b.view.emb :=
    (View.set_reshape (b.view.slice (Rect.unit (s := S3x128x128) ![σ, 0, 0] S1x128x128.size inb))
      squeezes_S1x128x128_S128x128.numel_eq).trans (View.set_slice b.view _)
  rw [e]
  simp only [Finset.mem_map, Rect.mem_set_unit, unit3_iff]

omit [FloatOps F] in
theorem mem_view_set (b : Memref sig .scVector .vmem S3x128x128 .f32) (i : b.view.ty.Idx) :
    i ∈ b.view.set ↔ ∃ x : S3x128x128.Idx, b.view.emb x = i := by
  simp only [View.set, Finset.mem_map, Finset.mem_univ, true_and]

omit [FloatOps F] in
/-- Off two of the three rows is the third. -/
theorem slot_rest_aux (b : Memref sig .scVector .vmem S3x128x128 .f32) (σ σ₁ σ₂ : ℕ) (inb inb₁ inb₂)
    (h3 : ∀ n : ℕ, n < 3 → (n = σ ↔ n ≠ σ₁ ∧ n ≠ σ₂)) :
    (b.view.set \ ((b.slice (Rect.unit (s := S3x128x128) ![σ₁, 0, 0] S1x128x128.size inb₁) (fun _ => rfl)).squeeze S128x128
        squeezes_S1x128x128_S128x128).view.set) \ ((b.slice (Rect.unit (s := S3x128x128) ![σ₂, 0, 0] S1x128x128.size inb₂) (fun _ => rfl)).squeeze S128x128
        squeezes_S1x128x128_S128x128).view.set
      = ((b.slice (Rect.unit (s := S3x128x128) ![σ, 0, 0] S1x128x128.size inb) (fun _ => rfl)).squeeze S128x128
        squeezes_S1x128x128_S128x128).view.set := by
  ext i
  rw [Finset.mem_sdiff, Finset.mem_sdiff, mem_slot_set, mem_slot_set, mem_slot_set, mem_view_set]
  constructor
  · rintro ⟨⟨⟨x, rfl⟩, h1⟩, h2⟩
    have hx : (x 0).val < 3 := (x 0).isLt
    exact ⟨x, (h3 _ hx).2 ⟨fun e => h1 ⟨x, e, rfl⟩, fun e => h2 ⟨x, e, rfl⟩⟩, rfl⟩
  · rintro ⟨x, hx, rfl⟩
    have hx3 : (x 0).val < 3 := (x 0).isLt
    have hne := (h3 _ hx3).1 hx
    refine ⟨⟨⟨x, rfl⟩, ?_⟩, ?_⟩
    · rintro ⟨y, hy, e⟩
      have := b.view.emb.injective e
      subst this
      exact hne.1 hy
    · rintro ⟨y, hy, e⟩
      have := b.view.emb.injective e
      subst this
      exact hne.2 hy

omit [FloatOps F] in
theorem slot_rest0 (b : Memref sig .scVector .vmem S3x128x128 .f32) :
    (b.view.set \ (slot1M b).view.set) \ (slot2M b).view.set = (slot0M b).view.set :=
  slot_rest_aux b 0 1 2 _ _ _ (fun n hn => by omega)
omit [FloatOps F] in
theorem slot_rest1 (b : Memref sig .scVector .vmem S3x128x128 .f32) :
    (b.view.set \ (slot0M b).view.set) \ (slot2M b).view.set = (slot1M b).view.set :=
  slot_rest_aux b 1 0 2 _ _ _ (fun n hn => by omega)
omit [FloatOps F] in
theorem slot_rest2 (b : Memref sig .scVector .vmem S3x128x128 .f32) :
    (b.view.set \ (slot0M b).view.set) \ (slot1M b).view.set = (slot2M b).view.set :=
  slot_rest_aux b 2 0 1 _ _ _ (fun n hn => by omega)

omit [FloatOps F] in
theorem mem_slot0_sR1 (i : S3x128x128.Idx) : i ∈ (slot0M sR1).view.set ↔ (i 0).val = 0 := by
  rw [mem_slot_set]
  exact ⟨fun ⟨x, hx, e⟩ => by rw [← e]; exact hx, fun h => ⟨i, h, rfl⟩⟩
omit [FloatOps F] in
theorem mem_slot1_sR1 (i : S3x128x128.Idx) : i ∈ (slot1M sR1).view.set ↔ (i 0).val = 1 := by
  rw [mem_slot_set]
  exact ⟨fun ⟨x, hx, e⟩ => by rw [← e]; exact hx, fun h => ⟨i, h, rfl⟩⟩
omit [FloatOps F] in
theorem mem_slot2_sR1 (i : S3x128x128.Idx) : i ∈ (slot2M sR1).view.set ↔ (i 0).val = 2 := by
  rw [mem_slot_set]
  exact ⟨fun ⟨x, hx, e⟩ => by rw [← e]; exact hx, fun h => ⟨i, h, rfl⟩⟩
omit [FloatOps F] in
theorem mem_slot0_sR0 (i : S3x128x128.Idx) : i ∈ (slot0M sR0).view.set ↔ (i 0).val = 0 := by
  rw [mem_slot_set]
  exact ⟨fun ⟨x, hx, e⟩ => by rw [← e]; exact hx, fun h => ⟨i, h, rfl⟩⟩
omit [FloatOps F] in
theorem mem_slot1_sR0 (i : S3x128x128.Idx) : i ∈ (slot1M sR0).view.set ↔ (i 0).val = 1 := by
  rw [mem_slot_set]
  exact ⟨fun ⟨x, hx, e⟩ => by rw [← e]; exact hx, fun h => ⟨i, h, rfl⟩⟩
omit [FloatOps F] in
theorem mem_slot2_sR0 (i : S3x128x128.Idx) : i ∈ (slot2M sR0).view.set ↔ (i 0).val = 2 := by
  rw [mem_slot_set]
  exact ⟨fun ⟨x, hx, e⟩ => by rw [← e]; exact hx, fun h => ⟨i, h, rfl⟩⟩

/-! ## Reading through the kernel's views -/

omit [FloatOps F] in
/-- Where a slot's view puts index (r, j): row r, lane j of the slot's row of the ring buffer. -/
theorem slot_emb (b : Memref sig .scVector .vmem S3x128x128 .f32) (σ : ℕ) (inb) (x : S128x128.Idx) :
    ((b.slice (Rect.unit (s := S3x128x128) ![σ, 0, 0] S1x128x128.size inb) (fun _ => rfl)).squeeze S128x128
        squeezes_S1x128x128_S128x128).view.emb x
      = b.view.emb ((Rect.unit (s := S3x128x128) ![σ, 0, 0] S1x128x128.size inb).emb (ix3 (⟨0, Nat.one_pos⟩ : Fin 1) (x 0) (x 1))) := by
  show b.view.emb ((Rect.unit (s := S3x128x128) ![σ, 0, 0] S1x128x128.size inb).emb
    (Shape.reshapeEquiv squeezes_S1x128x128_S128x128.numel_eq x)) = _
  obtain ⟨a, b', rfl⟩ : ∃ a b', x = ix2 a b' := ⟨x 0, x 1, ValueIdx.eq_ix2 x⟩
  rw [ValueIdx.reshapeEquiv_ix2_1ab]

/-- A list buffer written whole, read through a 128-word slice at offset o: word k is word o + k of what was written. -/
theorem list_read (vI : Memref sig .scVector .vmem S512 .i32) (g : vI.view.ty.Contents (Elt F))
    (w : (Rect.whole S512).shape.Idx → Elt F .i32) (o : ℕ) (ho : ∀ a, (![o] : Fin 1 → ℕ) a + S128.size a ≤ S512.size a) (k : S128.Idx) :
    View.read (Elt F) ((vI.slice (Rect.unit (s := S512) ![o] S128.size ho) (fun _ => rfl)).view)
        (vI.view.writes (Elt F) g [⟨Rect.whole S512, w⟩]) k
      = w ((Rect.unit (s := S512) ![o] S128.size ho).emb k) := by
  have h := View.read_writes_cons_emb vI.view g (Rect.whole S512) w [] ((Rect.unit (s := S512) ![o] S128.size ho).emb k)
  rw [Rect.emb_whole_apply] at h
  exact h

/-- The edge list read through a one-row, 512-word slice at offset `off`, flattened: word z is entry (off 0, off 1 + z). -/
theorem edge_read (off : Fin 2 → ℕ) (inb : ∀ a, off a + S1x512.size a ≤ S2x16384.size a) (f : (eV).view.ty.Contents (Elt F)) (z : S512.Idx) :
    View.read (Elt F) (((eV).slice (Rect.unit (s := S2x16384) off S1x512.size inb) (fun _ => rfl)).squeeze S512 squeezes_S1x512_S512).view f z
      = f ((Rect.unit (s := S2x16384) off S1x512.size inb).emb (Fin.cons (⟨0, Nat.one_pos⟩ : Fin 1) z)) := by
  show f ((Rect.unit (s := S2x16384) off S1x512.size inb).emb (Shape.reshapeEquiv squeezes_S1x512_S512.numel_eq z)) = _
  rw [Shape.reshapeEquiv_cons_one]
  rfl

omit [FloatOps F] in
/-- Word k of a rank-one list in row-major order is entry k. -/
theorem rowMajor_symm_128 (k : Fin 128) (h : S128.numel = 128) : S128.rowMajor.symm (k.cast h.symm) = ix1 k := by
  rw [Equiv.symm_apply_eq]
  exact Fin.ext (Shape.rowMajor_val_one (d := ![128]) (ix1 k)).symm

omit [FloatOps F] in
/-- The source index of a row gather: the named row, the index's own lane. -/
theorem gather_idx (R : Fin (S128x128.size gathers_S4096x128_S128x128.axis') → Fin (S4096x128.size gathers_S4096x128_S128x128.axis)) (x : S128x128.Idx) :
    gathers_S4096x128_S128x128.idx R x = (ix2 (n0 := 4096) (n1 := 128) (R (x 0)) (x 1) : S4096x128.Idx) := by
  funext b
  match b with
  | ⟨0, _⟩ => exact Shape.Gathers.idx_axis gathers_S4096x128_S128x128 R x
  | ⟨1, _⟩ => exact Fin.ext (Shape.Gathers.idx_of_ne gathers_S4096x128_S128x128 R x ⟨1, by decide⟩ (by decide))

omit [FloatOps F] in
/-- Word k of the 128-word slice at offset 128 c of a subcore's 512 edges, in edge row `row`, is entry (row, its edge). -/
theorem edge_idx (L : grid1.Coords) (c : Fin 4) (o : ℕ) (hoc : o = 128 * c.val)
    (ho : ∀ a, (![o] : Fin 1 → ℕ) a + S128.size a ≤ S512.size a) (k : Fin 128) (offK : Fin 2 → ℕ)
    (inbK : ∀ a, offK a + S1x512.size a ≤ S2x16384.size a) (row : Fin 2) (hoff : offK = ![row.val, baseRow L]) :
    (Rect.unit (s := S2x16384) offK S1x512.size inbK).emb
        (Fin.cons (⟨0, Nat.one_pos⟩ : Fin 1) ((Rect.unit (s := S512) ![o] S128.size ho).emb (ix1 k)))
      = ix2 row (edgeAt L c k) := by
  subst hoff
  funext a
  apply Fin.ext
  rw [Rect.emb_apply]
  match a with
  | ⟨0, _⟩ =>
    show row.val + 1 * 0 = row.val
    omega
  | ⟨1, _⟩ =>
    show baseRow L + 1 * ((Rect.unit (s := S512) ![o] S128.size ho).emb (ix1 k) 0).val = baseRow L + 128 * c.val + k.val
    rw [Rect.emb_apply]
    show baseRow L + 1 * (o + 1 * k.val) = baseRow L + 128 * c.val + k.val
    omega

/-- The first table read through the slice that is all of it. -/
theorem table_read_p (f : (pV).view.ty.Contents (Elt F)) (y : S4096x128.Idx) :
    View.read (Elt F) ((pV).slice (Rect.unit (s := S4096x128) ![0, 0] S4096x128.size inb_S4096x128_S4096x128_0_0) (fun _ => rfl)).view f y
      = f y := by
  show f ((Rect.unit (s := S4096x128) ![0, 0] S4096x128.size inb_S4096x128_S4096x128_0_0).emb y) = f y
  congr 1
  funext a
  apply Fin.ext
  rw [Rect.emb_apply]
  match a with
  | ⟨0, _⟩ => show 0 + 1 * (y 0).val = (y 0).val; omega
  | ⟨1, _⟩ => show 0 + 1 * (y 1).val = (y 1).val; omega

/-- The second table read through the slice that is all of it. -/
theorem table_read_r (f : (rV).view.ty.Contents (Elt F)) (y : S4096x128.Idx) :
    View.read (Elt F) ((rV).slice (Rect.unit (s := S4096x128) ![0, 0] S4096x128.size inb_S4096x128_S4096x128_0_0) (fun _ => rfl)).view f y
      = f y := by
  show f ((Rect.unit (s := S4096x128) ![0, 0] S4096x128.size inb_S4096x128_S4096x128_0_0).emb y) = f y
  congr 1
  funext a
  apply Fin.ext
  rw [Rect.emb_apply]
  match a with
  | ⟨0, _⟩ => show 0 + 1 * (y 0).val = (y 0).val; omega
  | ⟨1, _⟩ => show 0 + 1 * (y 1).val = (y 1).val; omega

omit [FloatOps F] in
/-- Row 1 and row 2 coordinates of an index of a slot's row are the slot index's own. -/
theorem slot_coord1 (σ : ℕ) (inb) (a b' : Fin 128) :
    ((Rect.unit (s := S3x128x128) ![σ, 0, 0] S1x128x128.size inb).emb (ix3 (⟨0, Nat.one_pos⟩ : Fin 1) a b')) 1 = a :=
  Fin.ext (by
    rw [Rect.emb_apply]
    show 0 + 1 * a.val = a.val
    omega)
omit [FloatOps F] in
theorem slot_coord2 (σ : ℕ) (inb) (a b' : Fin 128) :
    ((Rect.unit (s := S3x128x128) ![σ, 0, 0] S1x128x128.size inb).emb (ix3 (⟨0, Nat.one_pos⟩ : Fin 1) a b')) 2 = b' :=
  Fin.ext (by
    rw [Rect.emb_apply]
    show 0 + 1 * b'.val = b'.val
    omega)

/-- What the first table's gather is to leave, at the element of a slot under (r, j). -/
theorem gathA_slot (d : Dev nD) (L : grid1.Coords) (c : Fin 4) (σ : ℕ) (inb) (x : S128x128.Idx) :
    gathA m prodC d L c ((sR1).view.emb ((Rect.unit (s := S3x128x128) ![σ, 0, 0] S1x128x128.size inb).emb (ix3 (⟨0, Nat.one_pos⟩ : Fin 1) (x 0) (x 1))))
      = prodC (ix2 (rowIx (m (edgeLoc d) (ix2 (1 : Fin 2) (edgeAt L c (x 0))))) (x 1)) := by
  unfold gathA
  show prodC (ix2 (rowIx (m (edgeLoc d) (ix2 (1 : Fin 2) (edgeAt L c
      (((Rect.unit (s := S3x128x128) ![σ, 0, 0] S1x128x128.size inb).emb (ix3 (⟨0, Nat.one_pos⟩ : Fin 1) (x 0) (x 1))) 1)))))
      (((Rect.unit (s := S3x128x128) ![σ, 0, 0] S1x128x128.size inb).emb (ix3 (⟨0, Nat.one_pos⟩ : Fin 1) (x 0) (x 1))) 2)) = _
  have h1 : ((Rect.unit (s := S3x128x128) ![σ, 0, 0] S1x128x128.size inb).emb (ix3 (⟨0, Nat.one_pos⟩ : Fin 1) (x 0) (x 1))) 1 = x 0 :=
    slot_coord1 σ inb (x 0) (x 1)
  have h2 : ((Rect.unit (s := S3x128x128) ![σ, 0, 0] S1x128x128.size inb).emb (ix3 (⟨0, Nat.one_pos⟩ : Fin 1) (x 0) (x 1))) 2 = x 1 :=
    slot_coord2 σ inb (x 0) (x 1)
  rw [h1, h2]

/-- The same of the second table. -/
theorem gathB_slot (d : Dev nD) (L : grid1.Coords) (c : Fin 4) (σ : ℕ) (inb) (x : S128x128.Idx) :
    gathB m recipC d L c ((sR0).view.emb ((Rect.unit (s := S3x128x128) ![σ, 0, 0] S1x128x128.size inb).emb (ix3 (⟨0, Nat.one_pos⟩ : Fin 1) (x 0) (x 1))))
      = recipC (ix2 (rowIx (m (edgeLoc d) (ix2 (0 : Fin 2) (edgeAt L c (x 0))))) (x 1)) := by
  unfold gathB
  show recipC (ix2 (rowIx (m (edgeLoc d) (ix2 (0 : Fin 2) (edgeAt L c
      (((Rect.unit (s := S3x128x128) ![σ, 0, 0] S1x128x128.size inb).emb (ix3 (⟨0, Nat.one_pos⟩ : Fin 1) (x 0) (x 1))) 1)))))
      (((Rect.unit (s := S3x128x128) ![σ, 0, 0] S1x128x128.size inb).emb (ix3 (⟨0, Nat.one_pos⟩ : Fin 1) (x 0) (x 1))) 2)) = _
  have h1 : ((Rect.unit (s := S3x128x128) ![σ, 0, 0] S1x128x128.size inb).emb (ix3 (⟨0, Nat.one_pos⟩ : Fin 1) (x 0) (x 1))) 1 = x 0 :=
    slot_coord1 σ inb (x 0) (x 1)
  have h2 : ((Rect.unit (s := S3x128x128) ![σ, 0, 0] S1x128x128.size inb).emb (ix3 (⟨0, Nat.one_pos⟩ : Fin 1) (x 0) (x 1))) 2 = x 1 :=
    slot_coord2 σ inb (x 0) (x 1)
  rw [h1, h2]

/-! ## What the gathers leave -/

set_option maxHeartbeats 4000000 in
theorem landA0 (hpre : PreOK m) (d : Dev nD) (L : grid1.Coords) (c : Fin 4) (prev : (sR1).view.ty.Contents (Elt F)) (g : (sI1).view.ty.Contents (Elt F))
    (o : ℕ) (hoc : o = 128 * c.val) (ho : ∀ a, (![o] : Fin 1 → ℕ) a + S128.size a ≤ S512.size a) (hn : _) (hin : _) :
    ∀ i ∈ (slot0M sR1).view.set,
      View.write (Elt F) (slot0M sR1).view prev
        (SparseCore.gatherPayload gathers_S4096x128_S128x128
        (View.read (Elt F) ((pV).slice (Rect.unit (s := S4096x128) ![0, 0] S4096x128.size inb_S4096x128_S4096x128_0_0) (fun _ => rfl)).view prodC)
        (SparseCore.rows
          (View.read (Elt F) ((sI1).slice (Rect.unit (s := S512) ![o] S128.size ho) (fun _ => rfl)).view
            ((sI1).view.writes (Elt F) g [⟨Rect.whole S512, (ReadAs.same : ReadAs (Elt F) S512 .i32 S512 .i32).apply
              (View.read (Elt F) (((eV).slice (Rect.unit (s := S2x16384) (k1_off1 L) S1x512.size (k1_off1_inb L)) (fun _ => rfl)).squeeze S512 squeezes_S1x512_S512).view (m (edgeLoc d)))⟩]))
          hn hin))
        Finset.univ i = gathA m prodC d L c i := by
  intro i hi
  obtain ⟨x, -, rfl⟩ := Finset.mem_map.mp hi
  rw [View.write_emb_of_mem _ _ (Finset.mem_univ x), cast_eq]
  unfold SparseCore.gatherPayload
  rw [gather_idx, table_read_p]
  -- the row the list names for this index's row: the edge's word, which is in range
  have hrow : SparseCore.rows
        (View.read (Elt F) ((sI1).slice (Rect.unit (s := S512) ![o] S128.size ho) (fun _ => rfl)).view
          ((sI1).view.writes (Elt F) g [⟨Rect.whole S512, (ReadAs.same : ReadAs (Elt F) S512 .i32 S512 .i32).apply
            (View.read (Elt F) (((eV).slice (Rect.unit (s := S2x16384) (k1_off1 L) S1x512.size (k1_off1_inb L)) (fun _ => rfl)).squeeze S512 squeezes_S1x512_S512).view (m (edgeLoc d)))⟩]))
        hn hin (x 0) = rowIx (m (edgeLoc d) (ix2 (1 : Fin 2) (edgeAt L c (x 0)))) := by
    apply Fin.ext
    show (View.read (Elt F) ((sI1).slice (Rect.unit (s := S512) ![o] S128.size ho) (fun _ => rfl)).view
      ((sI1).view.writes (Elt F) g [⟨Rect.whole S512, (ReadAs.same : ReadAs (Elt F) S512 .i32 S512 .i32).apply
            (View.read (Elt F) (((eV).slice (Rect.unit (s := S2x16384) (k1_off1 L) S1x512.size (k1_off1_inb L)) (fun _ => rfl)).squeeze S512 squeezes_S1x512_S512).view (m (edgeLoc d)))⟩])
      (S128.rowMajor.symm ((x 0).cast hn.symm))).toNat = _
    have e : S128.rowMajor.symm ((x 0).cast hn.symm) = ix1 (x 0) := rowMajor_symm_128 (x 0) hn
    rw [e]
    refine (congrArg BitVec.toNat (list_read (sI1) g _ o ho (ix1 (x 0)))).trans ?_
    show (View.read (Elt F) (((eV).slice (Rect.unit (s := S2x16384) (k1_off1 L) S1x512.size (k1_off1_inb L)) (fun _ => rfl)).squeeze S512 squeezes_S1x512_S512).view (m (edgeLoc d))
      ((Rect.unit (s := S512) ![o] S128.size ho).emb (ix1 (x 0)))).toNat = _
    refine (congrArg BitVec.toNat (edge_read (k1_off1 L) (k1_off1_inb L) (m (edgeLoc d))
      ((Rect.unit (s := S512) ![o] S128.size ho).emb (ix1 (x 0))))).trans ?_
    refine (congrArg (fun y : S2x16384.Idx => BitVec.toNat (m (edgeLoc d) y))
      (edge_idx L c o hoc ho (x 0) (k1_off1 L) (k1_off1_inb L) (1 : Fin 2) (k1_off1_eq L))).trans ?_
    exact (Nat.mod_eq_of_lt (hpre d _)).symm
  rw [hrow]
  refine Eq.trans ?_ (congrArg (gathA m prodC d L c) (slot_emb sR1 _ _ x)).symm
  exact (gathA_slot m prodC d L c _ _ x).symm

set_option maxHeartbeats 4000000 in
theorem landA1 (hpre : PreOK m) (d : Dev nD) (L : grid1.Coords) (c : Fin 4) (prev : (sR1).view.ty.Contents (Elt F)) (g : (sI1).view.ty.Contents (Elt F))
    (o : ℕ) (hoc : o = 128 * c.val) (ho : ∀ a, (![o] : Fin 1 → ℕ) a + S128.size a ≤ S512.size a) (hn : _) (hin : _) :
    ∀ i ∈ (slot1M sR1).view.set,
      View.write (Elt F) (slot1M sR1).view prev
        (SparseCore.gatherPayload gathers_S4096x128_S128x128
        (View.read (Elt F) ((pV).slice (Rect.unit (s := S4096x128) ![0, 0] S4096x128.size inb_S4096x128_S4096x128_0_0) (fun _ => rfl)).view prodC)
        (SparseCore.rows
          (View.read (Elt F) ((sI1).slice (Rect.unit (s := S512) ![o] S128.size ho) (fun _ => rfl)).view
            ((sI1).view.writes (Elt F) g [⟨Rect.whole S512, (ReadAs.same : ReadAs (Elt F) S512 .i32 S512 .i32).apply
              (View.read (Elt F) (((eV).slice (Rect.unit (s := S2x16384) (k1_off1 L) S1x512.size (k1_off1_inb L)) (fun _ => rfl)).squeeze S512 squeezes_S1x512_S512).view (m (edgeLoc d)))⟩]))
          hn hin))
        Finset.univ i = gathA m prodC d L c i := by
  intro i hi
  obtain ⟨x, -, rfl⟩ := Finset.mem_map.mp hi
  rw [View.write_emb_of_mem _ _ (Finset.mem_univ x), cast_eq]
  unfold SparseCore.gatherPayload
  rw [gather_idx, table_read_p]
  -- the row the list names for this index's row: the edge's word, which is in range
  have hrow : SparseCore.rows
        (View.read (Elt F) ((sI1).slice (Rect.unit (s := S512) ![o] S128.size ho) (fun _ => rfl)).view
          ((sI1).view.writes (Elt F) g [⟨Rect.whole S512, (ReadAs.same : ReadAs (Elt F) S512 .i32 S512 .i32).apply
            (View.read (Elt F) (((eV).slice (Rect.unit (s := S2x16384) (k1_off1 L) S1x512.size (k1_off1_inb L)) (fun _ => rfl)).squeeze S512 squeezes_S1x512_S512).view (m (edgeLoc d)))⟩]))
        hn hin (x 0) = rowIx (m (edgeLoc d) (ix2 (1 : Fin 2) (edgeAt L c (x 0)))) := by
    apply Fin.ext
    show (View.read (Elt F) ((sI1).slice (Rect.unit (s := S512) ![o] S128.size ho) (fun _ => rfl)).view
      ((sI1).view.writes (Elt F) g [⟨Rect.whole S512, (ReadAs.same : ReadAs (Elt F) S512 .i32 S512 .i32).apply
            (View.read (Elt F) (((eV).slice (Rect.unit (s := S2x16384) (k1_off1 L) S1x512.size (k1_off1_inb L)) (fun _ => rfl)).squeeze S512 squeezes_S1x512_S512).view (m (edgeLoc d)))⟩])
      (S128.rowMajor.symm ((x 0).cast hn.symm))).toNat = _
    have e : S128.rowMajor.symm ((x 0).cast hn.symm) = ix1 (x 0) := rowMajor_symm_128 (x 0) hn
    rw [e]
    refine (congrArg BitVec.toNat (list_read (sI1) g _ o ho (ix1 (x 0)))).trans ?_
    show (View.read (Elt F) (((eV).slice (Rect.unit (s := S2x16384) (k1_off1 L) S1x512.size (k1_off1_inb L)) (fun _ => rfl)).squeeze S512 squeezes_S1x512_S512).view (m (edgeLoc d))
      ((Rect.unit (s := S512) ![o] S128.size ho).emb (ix1 (x 0)))).toNat = _
    refine (congrArg BitVec.toNat (edge_read (k1_off1 L) (k1_off1_inb L) (m (edgeLoc d))
      ((Rect.unit (s := S512) ![o] S128.size ho).emb (ix1 (x 0))))).trans ?_
    refine (congrArg (fun y : S2x16384.Idx => BitVec.toNat (m (edgeLoc d) y))
      (edge_idx L c o hoc ho (x 0) (k1_off1 L) (k1_off1_inb L) (1 : Fin 2) (k1_off1_eq L))).trans ?_
    exact (Nat.mod_eq_of_lt (hpre d _)).symm
  rw [hrow]
  refine Eq.trans ?_ (congrArg (gathA m prodC d L c) (slot_emb sR1 _ _ x)).symm
  exact (gathA_slot m prodC d L c _ _ x).symm

set_option maxHeartbeats 4000000 in
theorem landA2 (hpre : PreOK m) (d : Dev nD) (L : grid1.Coords) (c : Fin 4) (prev : (sR1).view.ty.Contents (Elt F)) (g : (sI1).view.ty.Contents (Elt F))
    (o : ℕ) (hoc : o = 128 * c.val) (ho : ∀ a, (![o] : Fin 1 → ℕ) a + S128.size a ≤ S512.size a) (hn : _) (hin : _) :
    ∀ i ∈ (slot2M sR1).view.set,
      View.write (Elt F) (slot2M sR1).view prev
        (SparseCore.gatherPayload gathers_S4096x128_S128x128
        (View.read (Elt F) ((pV).slice (Rect.unit (s := S4096x128) ![0, 0] S4096x128.size inb_S4096x128_S4096x128_0_0) (fun _ => rfl)).view prodC)
        (SparseCore.rows
          (View.read (Elt F) ((sI1).slice (Rect.unit (s := S512) ![o] S128.size ho) (fun _ => rfl)).view
            ((sI1).view.writes (Elt F) g [⟨Rect.whole S512, (ReadAs.same : ReadAs (Elt F) S512 .i32 S512 .i32).apply
              (View.read (Elt F) (((eV).slice (Rect.unit (s := S2x16384) (k1_off1 L) S1x512.size (k1_off1_inb L)) (fun _ => rfl)).squeeze S512 squeezes_S1x512_S512).view (m (edgeLoc d)))⟩]))
          hn hin))
        Finset.univ i = gathA m prodC d L c i := by
  intro i hi
  obtain ⟨x, -, rfl⟩ := Finset.mem_map.mp hi
  rw [View.write_emb_of_mem _ _ (Finset.mem_univ x), cast_eq]
  unfold SparseCore.gatherPayload
  rw [gather_idx, table_read_p]
  -- the row the list names for this index's row: the edge's word, which is in range
  have hrow : SparseCore.rows
        (View.read (Elt F) ((sI1).slice (Rect.unit (s := S512) ![o] S128.size ho) (fun _ => rfl)).view
          ((sI1).view.writes (Elt F) g [⟨Rect.whole S512, (ReadAs.same : ReadAs (Elt F) S512 .i32 S512 .i32).apply
            (View.read (Elt F) (((eV).slice (Rect.unit (s := S2x16384) (k1_off1 L) S1x512.size (k1_off1_inb L)) (fun _ => rfl)).squeeze S512 squeezes_S1x512_S512).view (m (edgeLoc d)))⟩]))
        hn hin (x 0) = rowIx (m (edgeLoc d) (ix2 (1 : Fin 2) (edgeAt L c (x 0)))) := by
    apply Fin.ext
    show (View.read (Elt F) ((sI1).slice (Rect.unit (s := S512) ![o] S128.size ho) (fun _ => rfl)).view
      ((sI1).view.writes (Elt F) g [⟨Rect.whole S512, (ReadAs.same : ReadAs (Elt F) S512 .i32 S512 .i32).apply
            (View.read (Elt F) (((eV).slice (Rect.unit (s := S2x16384) (k1_off1 L) S1x512.size (k1_off1_inb L)) (fun _ => rfl)).squeeze S512 squeezes_S1x512_S512).view (m (edgeLoc d)))⟩])
      (S128.rowMajor.symm ((x 0).cast hn.symm))).toNat = _
    have e : S128.rowMajor.symm ((x 0).cast hn.symm) = ix1 (x 0) := rowMajor_symm_128 (x 0) hn
    rw [e]
    refine (congrArg BitVec.toNat (list_read (sI1) g _ o ho (ix1 (x 0)))).trans ?_
    show (View.read (Elt F) (((eV).slice (Rect.unit (s := S2x16384) (k1_off1 L) S1x512.size (k1_off1_inb L)) (fun _ => rfl)).squeeze S512 squeezes_S1x512_S512).view (m (edgeLoc d))
      ((Rect.unit (s := S512) ![o] S128.size ho).emb (ix1 (x 0)))).toNat = _
    refine (congrArg BitVec.toNat (edge_read (k1_off1 L) (k1_off1_inb L) (m (edgeLoc d))
      ((Rect.unit (s := S512) ![o] S128.size ho).emb (ix1 (x 0))))).trans ?_
    refine (congrArg (fun y : S2x16384.Idx => BitVec.toNat (m (edgeLoc d) y))
      (edge_idx L c o hoc ho (x 0) (k1_off1 L) (k1_off1_inb L) (1 : Fin 2) (k1_off1_eq L))).trans ?_
    exact (Nat.mod_eq_of_lt (hpre d _)).symm
  rw [hrow]
  refine Eq.trans ?_ (congrArg (gathA m prodC d L c) (slot_emb sR1 _ _ x)).symm
  exact (gathA_slot m prodC d L c _ _ x).symm

set_option maxHeartbeats 4000000 in
theorem landB0 (hpre : PreOK m) (d : Dev nD) (L : grid1.Coords) (c : Fin 4) (prev : (sR0).view.ty.Contents (Elt F)) (g : (sI0).view.ty.Contents (Elt F))
    (o : ℕ) (hoc : o = 128 * c.val) (ho : ∀ a, (![o] : Fin 1 → ℕ) a + S128.size a ≤ S512.size a) (hn : _) (hin : _) :
    ∀ i ∈ (slot0M sR0).view.set,
      View.write (Elt F) (slot0M sR0).view prev
        (SparseCore.gatherPayload gathers_S4096x128_S128x128
        (View.read (Elt F) ((rV).slice (Rect.unit (s := S4096x128) ![0, 0] S4096x128.size inb_S4096x128_S4096x128_0_0) (fun _ => rfl)).view recipC)
        (SparseCore.rows
          (View.read (Elt F) ((sI0).slice (Rect.unit (s := S512) ![o] S128.size ho) (fun _ => rfl)).view
            ((sI0).view.writes (Elt F) g [⟨Rect.whole S512, (ReadAs.same : ReadAs (Elt F) S512 .i32 S512 .i32).apply
              (View.read (Elt F) (((eV).slice (Rect.unit (s := S2x16384) (k1_off2 L) S1x512.size (k1_off2_inb L)) (fun _ => rfl)).squeeze S512 squeezes_S1x512_S512).view (m (edgeLoc d)))⟩]))
          hn hin))
        Finset.univ i = gathB m recipC d L c i := by
  intro i hi
  obtain ⟨x, -, rfl⟩ := Finset.mem_map.mp hi
  rw [View.write_emb_of_mem _ _ (Finset.mem_univ x), cast_eq]
  unfold SparseCore.gatherPayload
  rw [gather_idx, table_read_r]
  -- the row the list names for this index's row: the edge's word, which is in range
  have hrow : SparseCore.rows
        (View.read (Elt F) ((sI0).slice (Rect.unit (s := S512) ![o] S128.size ho) (fun _ => rfl)).view
          ((sI0).view.writes (Elt F) g [⟨Rect.whole S512, (ReadAs.same : ReadAs (Elt F) S512 .i32 S512 .i32).apply
            (View.read (Elt F) (((eV).slice (Rect.unit (s := S2x16384) (k1_off2 L) S1x512.size (k1_off2_inb L)) (fun _ => rfl)).squeeze S512 squeezes_S1x512_S512).view (m (edgeLoc d)))⟩]))
        hn hin (x 0) = rowIx (m (edgeLoc d) (ix2 (0 : Fin 2) (edgeAt L c (x 0)))) := by
    apply Fin.ext
    show (View.read (Elt F) ((sI0).slice (Rect.unit (s := S512) ![o] S128.size ho) (fun _ => rfl)).view
      ((sI0).view.writes (Elt F) g [⟨Rect.whole S512, (ReadAs.same : ReadAs (Elt F) S512 .i32 S512 .i32).apply
            (View.read (Elt F) (((eV).slice (Rect.unit (s := S2x16384) (k1_off2 L) S1x512.size (k1_off2_inb L)) (fun _ => rfl)).squeeze S512 squeezes_S1x512_S512).view (m (edgeLoc d)))⟩])
      (S128.rowMajor.symm ((x 0).cast hn.symm))).toNat = _
    have e : S128.rowMajor.symm ((x 0).cast hn.symm) = ix1 (x 0) := rowMajor_symm_128 (x 0) hn
    rw [e]
    refine (congrArg BitVec.toNat (list_read (sI0) g _ o ho (ix1 (x 0)))).trans ?_
    show (View.read (Elt F) (((eV).slice (Rect.unit (s := S2x16384) (k1_off2 L) S1x512.size (k1_off2_inb L)) (fun _ => rfl)).squeeze S512 squeezes_S1x512_S512).view (m (edgeLoc d))
      ((Rect.unit (s := S512) ![o] S128.size ho).emb (ix1 (x 0)))).toNat = _
    refine (congrArg BitVec.toNat (edge_read (k1_off2 L) (k1_off2_inb L) (m (edgeLoc d))
      ((Rect.unit (s := S512) ![o] S128.size ho).emb (ix1 (x 0))))).trans ?_
    refine (congrArg (fun y : S2x16384.Idx => BitVec.toNat (m (edgeLoc d) y))
      (edge_idx L c o hoc ho (x 0) (k1_off2 L) (k1_off2_inb L) (0 : Fin 2) (k1_off2_eq L))).trans ?_
    exact (Nat.mod_eq_of_lt (hpre d _)).symm
  rw [hrow]
  refine Eq.trans ?_ (congrArg (gathB m recipC d L c) (slot_emb sR0 _ _ x)).symm
  exact (gathB_slot m recipC d L c _ _ x).symm

set_option maxHeartbeats 4000000 in
theorem landB1 (hpre : PreOK m) (d : Dev nD) (L : grid1.Coords) (c : Fin 4) (prev : (sR0).view.ty.Contents (Elt F)) (g : (sI0).view.ty.Contents (Elt F))
    (o : ℕ) (hoc : o = 128 * c.val) (ho : ∀ a, (![o] : Fin 1 → ℕ) a + S128.size a ≤ S512.size a) (hn : _) (hin : _) :
    ∀ i ∈ (slot1M sR0).view.set,
      View.write (Elt F) (slot1M sR0).view prev
        (SparseCore.gatherPayload gathers_S4096x128_S128x128
        (View.read (Elt F) ((rV).slice (Rect.unit (s := S4096x128) ![0, 0] S4096x128.size inb_S4096x128_S4096x128_0_0) (fun _ => rfl)).view recipC)
        (SparseCore.rows
          (View.read (Elt F) ((sI0).slice (Rect.unit (s := S512) ![o] S128.size ho) (fun _ => rfl)).view
            ((sI0).view.writes (Elt F) g [⟨Rect.whole S512, (ReadAs.same : ReadAs (Elt F) S512 .i32 S512 .i32).apply
              (View.read (Elt F) (((eV).slice (Rect.unit (s := S2x16384) (k1_off2 L) S1x512.size (k1_off2_inb L)) (fun _ => rfl)).squeeze S512 squeezes_S1x512_S512).view (m (edgeLoc d)))⟩]))
          hn hin))
        Finset.univ i = gathB m recipC d L c i := by
  intro i hi
  obtain ⟨x, -, rfl⟩ := Finset.mem_map.mp hi
  rw [View.write_emb_of_mem _ _ (Finset.mem_univ x), cast_eq]
  unfold SparseCore.gatherPayload
  rw [gather_idx, table_read_r]
  -- the row the list names for this index's row: the edge's word, which is in range
  have hrow : SparseCore.rows
        (View.read (Elt F) ((sI0).slice (Rect.unit (s := S512) ![o] S128.size ho) (fun _ => rfl)).view
          ((sI0).view.writes (Elt F) g [⟨Rect.whole S512, (ReadAs.same : ReadAs (Elt F) S512 .i32 S512 .i32).apply
            (View.read (Elt F) (((eV).slice (Rect.unit (s := S2x16384) (k1_off2 L) S1x512.size (k1_off2_inb L)) (fun _ => rfl)).squeeze S512 squeezes_S1x512_S512).view (m (edgeLoc d)))⟩]))
        hn hin (x 0) = rowIx (m (edgeLoc d) (ix2 (0 : Fin 2) (edgeAt L c (x 0)))) := by
    apply Fin.ext
    show (View.read (Elt F) ((sI0).slice (Rect.unit (s := S512) ![o] S128.size ho) (fun _ => rfl)).view
      ((sI0).view.writes (Elt F) g [⟨Rect.whole S512, (ReadAs.same : ReadAs (Elt F) S512 .i32 S512 .i32).apply
            (View.read (Elt F) (((eV).slice (Rect.unit (s := S2x16384) (k1_off2 L) S1x512.size (k1_off2_inb L)) (fun _ => rfl)).squeeze S512 squeezes_S1x512_S512).view (m (edgeLoc d)))⟩])
      (S128.rowMajor.symm ((x 0).cast hn.symm))).toNat = _
    have e : S128.rowMajor.symm ((x 0).cast hn.symm) = ix1 (x 0) := rowMajor_symm_128 (x 0) hn
    rw [e]
    refine (congrArg BitVec.toNat (list_read (sI0) g _ o ho (ix1 (x 0)))).trans ?_
    show (View.read (Elt F) (((eV).slice (Rect.unit (s := S2x16384) (k1_off2 L) S1x512.size (k1_off2_inb L)) (fun _ => rfl)).squeeze S512 squeezes_S1x512_S512).view (m (edgeLoc d))
      ((Rect.unit (s := S512) ![o] S128.size ho).emb (ix1 (x 0)))).toNat = _
    refine (congrArg BitVec.toNat (edge_read (k1_off2 L) (k1_off2_inb L) (m (edgeLoc d))
      ((Rect.unit (s := S512) ![o] S128.size ho).emb (ix1 (x 0))))).trans ?_
    refine (congrArg (fun y : S2x16384.Idx => BitVec.toNat (m (edgeLoc d) y))
      (edge_idx L c o hoc ho (x 0) (k1_off2 L) (k1_off2_inb L) (0 : Fin 2) (k1_off2_eq L))).trans ?_
    exact (Nat.mod_eq_of_lt (hpre d _)).symm
  rw [hrow]
  refine Eq.trans ?_ (congrArg (gathB m recipC d L c) (slot_emb sR0 _ _ x)).symm
  exact (gathB_slot m recipC d L c _ _ x).symm

set_option maxHeartbeats 4000000 in
theorem landB2 (hpre : PreOK m) (d : Dev nD) (L : grid1.Coords) (c : Fin 4) (prev : (sR0).view.ty.Contents (Elt F)) (g : (sI0).view.ty.Contents (Elt F))
    (o : ℕ) (hoc : o = 128 * c.val) (ho : ∀ a, (![o] : Fin 1 → ℕ) a + S128.size a ≤ S512.size a) (hn : _) (hin : _) :
    ∀ i ∈ (slot2M sR0).view.set,
      View.write (Elt F) (slot2M sR0).view prev
        (SparseCore.gatherPayload gathers_S4096x128_S128x128
        (View.read (Elt F) ((rV).slice (Rect.unit (s := S4096x128) ![0, 0] S4096x128.size inb_S4096x128_S4096x128_0_0) (fun _ => rfl)).view recipC)
        (SparseCore.rows
          (View.read (Elt F) ((sI0).slice (Rect.unit (s := S512) ![o] S128.size ho) (fun _ => rfl)).view
            ((sI0).view.writes (Elt F) g [⟨Rect.whole S512, (ReadAs.same : ReadAs (Elt F) S512 .i32 S512 .i32).apply
              (View.read (Elt F) (((eV).slice (Rect.unit (s := S2x16384) (k1_off2 L) S1x512.size (k1_off2_inb L)) (fun _ => rfl)).squeeze S512 squeezes_S1x512_S512).view (m (edgeLoc d)))⟩]))
          hn hin))
        Finset.univ i = gathB m recipC d L c i := by
  intro i hi
  obtain ⟨x, -, rfl⟩ := Finset.mem_map.mp hi
  rw [View.write_emb_of_mem _ _ (Finset.mem_univ x), cast_eq]
  unfold SparseCore.gatherPayload
  rw [gather_idx, table_read_r]
  -- the row the list names for this index's row: the edge's word, which is in range
  have hrow : SparseCore.rows
        (View.read (Elt F) ((sI0).slice (Rect.unit (s := S512) ![o] S128.size ho) (fun _ => rfl)).view
          ((sI0).view.writes (Elt F) g [⟨Rect.whole S512, (ReadAs.same : ReadAs (Elt F) S512 .i32 S512 .i32).apply
            (View.read (Elt F) (((eV).slice (Rect.unit (s := S2x16384) (k1_off2 L) S1x512.size (k1_off2_inb L)) (fun _ => rfl)).squeeze S512 squeezes_S1x512_S512).view (m (edgeLoc d)))⟩]))
        hn hin (x 0) = rowIx (m (edgeLoc d) (ix2 (0 : Fin 2) (edgeAt L c (x 0)))) := by
    apply Fin.ext
    show (View.read (Elt F) ((sI0).slice (Rect.unit (s := S512) ![o] S128.size ho) (fun _ => rfl)).view
      ((sI0).view.writes (Elt F) g [⟨Rect.whole S512, (ReadAs.same : ReadAs (Elt F) S512 .i32 S512 .i32).apply
            (View.read (Elt F) (((eV).slice (Rect.unit (s := S2x16384) (k1_off2 L) S1x512.size (k1_off2_inb L)) (fun _ => rfl)).squeeze S512 squeezes_S1x512_S512).view (m (edgeLoc d)))⟩])
      (S128.rowMajor.symm ((x 0).cast hn.symm))).toNat = _
    have e : S128.rowMajor.symm ((x 0).cast hn.symm) = ix1 (x 0) := rowMajor_symm_128 (x 0) hn
    rw [e]
    refine (congrArg BitVec.toNat (list_read (sI0) g _ o ho (ix1 (x 0)))).trans ?_
    show (View.read (Elt F) (((eV).slice (Rect.unit (s := S2x16384) (k1_off2 L) S1x512.size (k1_off2_inb L)) (fun _ => rfl)).squeeze S512 squeezes_S1x512_S512).view (m (edgeLoc d))
      ((Rect.unit (s := S512) ![o] S128.size ho).emb (ix1 (x 0)))).toNat = _
    refine (congrArg BitVec.toNat (edge_read (k1_off2 L) (k1_off2_inb L) (m (edgeLoc d))
      ((Rect.unit (s := S512) ![o] S128.size ho).emb (ix1 (x 0))))).trans ?_
    refine (congrArg (fun y : S2x16384.Idx => BitVec.toNat (m (edgeLoc d) y))
      (edge_idx L c o hoc ho (x 0) (k1_off2 L) (k1_off2_inb L) (0 : Fin 2) (k1_off2_eq L))).trans ?_
    exact (Nat.mod_eq_of_lt (hpre d _)).symm
  rw [hrow]
  refine Eq.trans ?_ (congrArg (gathB m recipC d L c) (slot_emb sR0 _ _ x)).symm
  exact (gathB_slot m recipC d L c _ _ x).symm

end Cert.KernelIdeal.Sc

end
-- ==== Proof.ScIdxD.lean ====
/-
  One trip of a row loop, and a block of the result after its copy out of a slot.
-/
import proofs.«208470_g86148454023375_cont_sun_c4_654_45_alg».proof.Proof.ScIdx
import Idealize.ShloMosaic.Lib.Pipeline.Value

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type}

local notation "𝕄" => MT nD τ sig (HIx 1) (Elt F) ℕ UU ℕ

variable [FloatOps F]
variable (m : (ℓ : Loc nD τ sig) → Buf (Elt F) ℓ) (prodC recipC : (⟨S4096x128, .f32⟩ : BufTy).Contents (Elt F))

/-- An index in row `k` of slot `σ` whose lane is in [ℓ, ℓ + 16) is in the sixteen-lane rectangle at (σ, k, ℓ); -/
theorem mem_lane {σ : Fin 3} {k ℓ : ℕ} {inb : ∀ a, (![σ.val, k, ℓ] : Fin 3 → ℕ) a + S1x1x16.size a ≤ S3x128x128.size a} (i : S3x128x128.Idx)
    (h0 : (i 0).val = σ.val) (h1 : (i 1).val = k) (h2 : ℓ ≤ (i 2).val ∧ (i 2).val < ℓ + 16) :
    i ∈ (Rect.unit (s := S3x128x128) ![σ.val, k, ℓ] S1x1x16.size inb).set := by
  rw [Rect.mem_set_unit]
  intro a
  match a with
  | ⟨0, _⟩ => show σ.val ≤ (i 0).val ∧ (i 0).val < σ.val + 1; omega
  | ⟨1, _⟩ => show k ≤ (i 1).val ∧ (i 1).val < k + 1; omega
  | ⟨2, _⟩ => show ℓ ≤ (i 2).val ∧ (i 2).val < ℓ + 16; omega

/-- and an index in that rectangle is in that row. -/
theorem row_of_mem_lane {σ : Fin 3} {k ℓ : ℕ} {inb : ∀ a, (![σ.val, k, ℓ] : Fin 3 → ℕ) a + S1x1x16.size a ≤ S3x128x128.size a} {i : S3x128x128.Idx}
    (hmem : i ∈ (Rect.unit (s := S3x128x128) ![σ.val, k, ℓ] S1x1x16.size inb).set) : (i 0).val = σ.val ∧ (i 1).val = k := by
  rw [Rect.mem_set_unit] at hmem
  have h0 : σ.val ≤ (i 0).val ∧ (i 0).val < σ.val + 1 := hmem 0
  have h1 : k ≤ (i 1).val ∧ (i 1).val < k + 1 := hmem 1
  omega

/-- A trip's eight lane stores of row `k` of slot `σ` are the row's lanewise product. -/
theorem row_step (σ : Fin 3) (k : ℕ) (hk : k < 128) (f : (sR1).view.ty.Contents (Elt F)) (h : (sR0).view.ty.Contents (Elt F))
    (o0 : Fin 3 → ℕ) (ho0 : o0 = ![σ.val, k, 0]) (inb0 : ∀ a, o0 a + S1x1x16.size a ≤ S3x128x128.size a)
    (P0 : Vec F S1x1x16 .f32 → Vec F S1x1x16 .f32 → FVec F S1x1x16 .f32) (hP0 : ∀ a b x, P0 a b x = FloatOps.mulf (a x) (b x))
    (o1 : Fin 3 → ℕ) (ho1 : o1 = ![σ.val, k, 16]) (inb1 : ∀ a, o1 a + S1x1x16.size a ≤ S3x128x128.size a)
    (P1 : Vec F S1x1x16 .f32 → Vec F S1x1x16 .f32 → FVec F S1x1x16 .f32) (hP1 : ∀ a b x, P1 a b x = FloatOps.mulf (a x) (b x))
    (o2 : Fin 3 → ℕ) (ho2 : o2 = ![σ.val, k, 32]) (inb2 : ∀ a, o2 a + S1x1x16.size a ≤ S3x128x128.size a)
    (P2 : Vec F S1x1x16 .f32 → Vec F S1x1x16 .f32 → FVec F S1x1x16 .f32) (hP2 : ∀ a b x, P2 a b x = FloatOps.mulf (a x) (b x))
    (o3 : Fin 3 → ℕ) (ho3 : o3 = ![σ.val, k, 48]) (inb3 : ∀ a, o3 a + S1x1x16.size a ≤ S3x128x128.size a)
    (P3 : Vec F S1x1x16 .f32 → Vec F S1x1x16 .f32 → FVec F S1x1x16 .f32) (hP3 : ∀ a b x, P3 a b x = FloatOps.mulf (a x) (b x))
    (o4 : Fin 3 → ℕ) (ho4 : o4 = ![σ.val, k, 64]) (inb4 : ∀ a, o4 a + S1x1x16.size a ≤ S3x128x128.size a)
    (P4 : Vec F S1x1x16 .f32 → Vec F S1x1x16 .f32 → FVec F S1x1x16 .f32) (hP4 : ∀ a b x, P4 a b x = FloatOps.mulf (a x) (b x))
    (o5 : Fin 3 → ℕ) (ho5 : o5 = ![σ.val, k, 80]) (inb5 : ∀ a, o5 a + S1x1x16.size a ≤ S3x128x128.size a)
    (P5 : Vec F S1x1x16 .f32 → Vec F S1x1x16 .f32 → FVec F S1x1x16 .f32) (hP5 : ∀ a b x, P5 a b x = FloatOps.mulf (a x) (b x))
    (o6 : Fin 3 → ℕ) (ho6 : o6 = ![σ.val, k, 96]) (inb6 : ∀ a, o6 a + S1x1x16.size a ≤ S3x128x128.size a)
    (P6 : Vec F S1x1x16 .f32 → Vec F S1x1x16 .f32 → FVec F S1x1x16 .f32) (hP6 : ∀ a b x, P6 a b x = FloatOps.mulf (a x) (b x))
    (o7 : Fin 3 → ℕ) (ho7 : o7 = ![σ.val, k, 112]) (inb7 : ∀ a, o7 a + S1x1x16.size a ≤ S3x128x128.size a)
    (P7 : Vec F S1x1x16 .f32 → Vec F S1x1x16 .f32 → FVec F S1x1x16 .f32) (hP7 : ∀ a b x, P7 a b x = FloatOps.mulf (a x) (b x)) :
    ∀ i, (sR1).view.writes (Elt F) f
      [⟨Rect.unit (s := S3x128x128) o7 S1x1x16.size inb7,
          P7 (View.readAt (Elt F) (sR1).view (Rect.unit (s := S3x128x128) o7 S1x1x16.size inb7).toLoadRect f)
            (View.readAt (Elt F) (sR0).view (Rect.unit (s := S3x128x128) o7 S1x1x16.size inb7).toLoadRect h)⟩,
        ⟨Rect.unit (s := S3x128x128) o6 S1x1x16.size inb6,
          P6 (View.readAt (Elt F) (sR1).view (Rect.unit (s := S3x128x128) o6 S1x1x16.size inb6).toLoadRect f)
            (View.readAt (Elt F) (sR0).view (Rect.unit (s := S3x128x128) o6 S1x1x16.size inb6).toLoadRect h)⟩,
        ⟨Rect.unit (s := S3x128x128) o5 S1x1x16.size inb5,
          P5 (View.readAt (Elt F) (sR1).view (Rect.unit (s := S3x128x128) o5 S1x1x16.size inb5).toLoadRect f)
            (View.readAt (Elt F) (sR0).view (Rect.unit (s := S3x128x128) o5 S1x1x16.size inb5).toLoadRect h)⟩,
        ⟨Rect.unit (s := S3x128x128) o4 S1x1x16.size inb4,
          P4 (View.readAt (Elt F) (sR1).view (Rect.unit (s := S3x128x128) o4 S1x1x16.size inb4).toLoadRect f)
            (View.readAt (Elt F) (sR0).view (Rect.unit (s := S3x128x128) o4 S1x1x16.size inb4).toLoadRect h)⟩,
        ⟨Rect.unit (s := S3x128x128) o3 S1x1x16.size inb3,
          P3 (View.readAt (Elt F) (sR1).view (Rect.unit (s := S3x128x128) o3 S1x1x16.size inb3).toLoadRect f)
            (View.readAt (Elt F) (sR0).view (Rect.unit (s := S3x128x128) o3 S1x1x16.size inb3).toLoadRect h)⟩,
        ⟨Rect.unit (s := S3x128x128) o2 S1x1x16.size inb2,
          P2 (View.readAt (Elt F) (sR1).view (Rect.unit (s := S3x128x128) o2 S1x1x16.size inb2).toLoadRect f)
            (View.readAt (Elt F) (sR0).view (Rect.unit (s := S3x128x128) o2 S1x1x16.size inb2).toLoadRect h)⟩,
        ⟨Rect.unit (s := S3x128x128) o1 S1x1x16.size inb1,
          P1 (View.readAt (Elt F) (sR1).view (Rect.unit (s := S3x128x128) o1 S1x1x16.size inb1).toLoadRect f)
            (View.readAt (Elt F) (sR0).view (Rect.unit (s := S3x128x128) o1 S1x1x16.size inb1).toLoadRect h)⟩,
        ⟨Rect.unit (s := S3x128x128) o0 S1x1x16.size inb0,
          P0 (View.readAt (Elt F) (sR1).view (Rect.unit (s := S3x128x128) o0 S1x1x16.size inb0).toLoadRect f)
            (View.readAt (Elt F) (sR0).view (Rect.unit (s := S3x128x128) o0 S1x1x16.size inb0).toLoadRect h)⟩] i
      = if (i 0).val = σ.val ∧ (i 1).val = k then FloatOps.mulf (f i) (h i) else f i := by
  intro i
  subst ho0 ho1 ho2 ho3 ho4 ho5 ho6 ho7
  have key : ∀ g : (sR1).view.ty.Contents (Elt F), (sR1).view.read (Elt F) g i = g i := fun g => rfl
  refine (key _).symm.trans ?_
  by_cases hrow : (i 0).val = σ.val ∧ (i 1).val = k
  · rw [if_pos hrow]
    refine View.read_writes_apply_of_pieces (sR1).view f (fun j => FloatOps.mulf (f j) (h j)) _ ?_ i ?_
    · intro p hp x
      simp only [List.mem_cons, List.not_mem_nil, _root_.or_false] at hp
      rcases hp with rfl | rfl | rfl | rfl | rfl | rfl | rfl | rfl
      · exact hP7 _ _ x
      · exact hP6 _ _ x
      · exact hP5 _ _ x
      · exact hP4 _ _ x
      · exact hP3 _ _ x
      · exact hP2 _ _ x
      · exact hP1 _ _ x
      · exact hP0 _ _ x
    · have hi2 : (i 2).val < 128 := (i 2).isLt
      have hc : (i 2).val < 16 ∨ (16 ≤ (i 2).val ∧ (i 2).val < 32) ∨ (32 ≤ (i 2).val ∧ (i 2).val < 48) ∨ (48 ≤ (i 2).val ∧ (i 2).val < 64)
          ∨ (64 ≤ (i 2).val ∧ (i 2).val < 80) ∨ (80 ≤ (i 2).val ∧ (i 2).val < 96) ∨ (96 ≤ (i 2).val ∧ (i 2).val < 112) ∨ (112 ≤ (i 2).val ∧ (i 2).val < 128) := by omega
      rcases hc with hc | hc | hc | hc | hc | hc | hc | hc
      · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_lane (ℓ := 0) (inb := inb0) i hrow.1 hrow.2 (by omega)⟩
      · exact ⟨_, (List.mem_cons_of_mem _ (List.mem_cons_of_mem _ (List.mem_cons_of_mem _ (List.mem_cons_of_mem _ (List.mem_cons_of_mem _ (List.mem_cons_of_mem _ List.mem_cons_self)))))), mem_lane (ℓ := 16) (inb := inb1) i hrow.1 hrow.2 (by omega)⟩
      · exact ⟨_, (List.mem_cons_of_mem _ (List.mem_cons_of_mem _ (List.mem_cons_of_mem _ (List.mem_cons_of_mem _ (List.mem_cons_of_mem _ List.mem_cons_self))))), mem_lane (ℓ := 32) (inb := inb2) i hrow.1 hrow.2 (by omega)⟩
      · exact ⟨_, (List.mem_cons_of_mem _ (List.mem_cons_of_mem _ (List.mem_cons_of_mem _ (List.mem_cons_of_mem _ List.mem_cons_self)))), mem_lane (ℓ := 48) (inb := inb3) i hrow.1 hrow.2 (by omega)⟩
      · exact ⟨_, (List.mem_cons_of_mem _ (List.mem_cons_of_mem _ (List.mem_cons_of_mem _ List.mem_cons_self))), mem_lane (ℓ := 64) (inb := inb4) i hrow.1 hrow.2 (by omega)⟩
      · exact ⟨_, (List.mem_cons_of_mem _ (List.mem_cons_of_mem _ List.mem_cons_self)), mem_lane (ℓ := 80) (inb := inb5) i hrow.1 hrow.2 (by omega)⟩
      · exact ⟨_, (List.mem_cons_of_mem _ List.mem_cons_self), mem_lane (ℓ := 96) (inb := inb6) i hrow.1 hrow.2 (by omega)⟩
      · exact ⟨_, List.mem_cons_self, mem_lane (ℓ := 112) (inb := inb7) i hrow.1 hrow.2 (by omega)⟩
  · rw [if_neg hrow]
    refine (View.read_writes_apply_of_forall_not_mem (sR1).view f i _ ?_).trans (key f)
    intro p hp hmem
    simp only [List.mem_cons, List.not_mem_nil, _root_.or_false] at hp
    rcases hp with rfl | rfl | rfl | rfl | rfl | rfl | rfl | rfl
    · exact hrow (row_of_mem_lane (ℓ := 112) (inb := inb7) hmem)
    · exact hrow (row_of_mem_lane (ℓ := 96) (inb := inb6) hmem)
    · exact hrow (row_of_mem_lane (ℓ := 80) (inb := inb5) hmem)
    · exact hrow (row_of_mem_lane (ℓ := 64) (inb := inb4) hmem)
    · exact hrow (row_of_mem_lane (ℓ := 48) (inb := inb3) hmem)
    · exact hrow (row_of_mem_lane (ℓ := 32) (inb := inb2) hmem)
    · exact hrow (row_of_mem_lane (ℓ := 16) (inb := inb1) hmem)
    · exact hrow (row_of_mem_lane (ℓ := 0) (inb := inb0) hmem)

/-! ## The scatter -/

/-- A block of the result after the copy out of the slot at offsets (σ, 0, 0), when the slot holds the products of the
    block's chunk: element (r, l) of the block is element (σ, r, l) of the ring buffer, and sits at row
    (the subcore's first row) + 128 c + r, lane l, of the result. -/
theorem scat_gen (d : Dev nD) (L : grid1.Coords) (c : Fin 4) (off : Fin 3 → ℕ) (σ : ℕ) (hoff : off = ![σ, 0, 0])
    (inb : ∀ a, off a + S1x128x128.size a ≤ S3x128x128.size a)
    (g : (sR1).view.ty.Contents (Elt F)) (base : (chunkM L c).view.ty.Contents (Elt F))
    (hg : ∀ j ∈ (((sR1).slice (Rect.unit (s := S3x128x128) off S1x128x128.size inb) (fun _ => rfl)).squeeze S128x128 squeezes_S1x128x128_S128x128).view.set,
      g j = FloatOps.mulf (gathA m prodC d L c j) (gathB m recipC d L c j)) :
    ∀ i ∈ chunkSet L c,
      (chunkM L c).view.writes (Elt F) base [⟨Rect.whole S128x128, (ReadAs.same : ReadAs (Elt F) S128x128 .f32 S128x128 .f32).apply
        (View.read (Elt F) (((sR1).slice (Rect.unit (s := S3x128x128) off S1x128x128.size inb) (fun _ => rfl)).squeeze S128x128 squeezes_S1x128x128_S128x128).view g)⟩] i
        = msgC m prodC recipC d i := by
  intro i hi
  obtain ⟨x, -, rfl⟩ := Finset.mem_map.mp hi
  rw [View.writes_singleton]
  have e : (chunkM L c).view.emb x = ((chunkM L c).view.slice (Rect.whole S128x128)).emb x := by
    simp only [View.emb_slice, Function.Embedding.trans_apply, Rect.emb_whole_apply]
  rw [e, View.write_emb_of_mem _ _ (Finset.mem_univ _)]
  subst hoff
  have hc : S1x128x128.ShapeCasts S128x128 := by decide
  have hrd := Memref.read_squeeze_slice (Val := Elt F) (sR1) (Rect.unit (s := S3x128x128) ![σ, 0, 0] S1x128x128.size inb) (fun _ => rfl) squeezes_S1x128x128_S128x128 hc g
  show View.read (Elt F) (((sR1).slice (Rect.unit (s := S3x128x128) ![σ, 0, 0] S1x128x128.size inb) (fun _ => rfl)).squeeze S128x128 squeezes_S1x128x128_S128x128).view g x = _
  rw [hrd]
  rw [shapeCast_dropUnit_apply (n := 2) ![128, 128], ← e]
  have hx0 : (x 0).val < 128 := (x 0).isLt
  have hx1 : (x 1).val < 128 := (x 1).isLt
  -- the slot's element the block's element (x 0, x 1) is copied from
  let j : S3x128x128.Idx := (Rect.unit (s := S3x128x128) ![σ, 0, 0] S1x128x128.size inb).toLoadRect.idx (Fin.cons ⟨0, Nat.one_pos⟩ x)
  have hj1 : (j 1).val = (x 0).val := by show 0 + 1 * (x 0).val = _; omega
  have hj2 : (j 2).val = (x 1).val := by show 0 + 1 * (x 1).val = _; omega
  have hjmem : j ∈ (((sR1).slice (Rect.unit (s := S3x128x128) ![σ, 0, 0] S1x128x128.size inb) (fun _ => rfl)).squeeze S128x128 squeezes_S1x128x128_S128x128).view.set := by
    have hs : (((sR1).slice (Rect.unit (s := S3x128x128) ![σ, 0, 0] S1x128x128.size inb) (fun _ => rfl)).squeeze S128x128 squeezes_S1x128x128_S128x128).view.set
        = (Rect.unit (s := S3x128x128) ![σ, 0, 0] S1x128x128.size inb).set :=
      (View.set_reshape (v := (View.whole cc1_scratch2).slice (Rect.unit (s := S3x128x128) ![σ, 0, 0] S1x128x128.size inb)) _).trans
        (View.set_slice_whole cc1_scratch2 _)
    rw [hs]
    exact LoadRect.idx_mem _ _
  show g j = _
  rw [hg j hjmem]
  -- the block's element sits at row baseRow L + 128 c + x 0, lane x 1 of the result
  have hi0 : ((chunkM L c).view.emb x) 0 = edgeAt L c (j 1) := by
    apply Fin.ext
    show (k1_off11 L (BitVec.ofNat 32 (128 * c.val))) 0 + 1 * (x 0).val = baseRow L + 128 * c.val + (j 1).val
    rw [k1_off11_eq L c, hj1]; unfold baseRow
    show 1024 * (L 1).val + 512 * (L 0).val + 128 * c.val + 1 * (x 0).val = _; omega
  have hi1 : ((chunkM L c).view.emb x) 1 = j 2 := by
    apply Fin.ext
    show (k1_off11 L (BitVec.ofNat 32 (128 * c.val))) 1 + 1 * (x 1).val = (j 2).val
    rw [k1_off11_eq L c, hj2]
    show 0 + 1 * (x 1).val = _; omega
  unfold gathA gathB
  show _ = msgV prodC recipC (m (edgeLoc d)) ((chunkM L c).view.emb x)
  unfold msgV
  rw [hi0, hi1]

/-- Block `c` of the result after the scatter out of slot 0, when that slot holds the products of chunk `c`. -/
theorem scat0 (hpre : PreOK m) (d : Dev nD) (L : grid1.Coords) (c : Fin 4) (g : (sR1).view.ty.Contents (Elt F)) (base : (chunkM L c).view.ty.Contents (Elt F))
    (hg : ∀ j ∈ (slot0M sR1).view.set, g j = FloatOps.mulf (gathA m prodC d L c j) (gathB m recipC d L c j)) :
    ∀ i ∈ chunkSet L c,
      (chunkM L c).view.writes (Elt F) base [⟨Rect.whole S128x128, (ReadAs.same : ReadAs (Elt F) S128x128 .f32 S128x128 .f32).apply
        (View.read (Elt F) (slot0M sR1).view g)⟩] i = msgC m prodC recipC d i := by
  exact scat_gen m prodC recipC d L c ![0, 0, 0] 0 rfl inb_S3x128x128_S1x128x128_0_0_0 g base hg

/-- Block `c` of the result after the scatter out of slot 1, when that slot holds the products of chunk `c`. -/
theorem scat1 (hpre : PreOK m) (d : Dev nD) (L : grid1.Coords) (c : Fin 4) (g : (sR1).view.ty.Contents (Elt F)) (base : (chunkM L c).view.ty.Contents (Elt F))
    (hg : ∀ j ∈ (slot1M sR1).view.set, g j = FloatOps.mulf (gathA m prodC d L c j) (gathB m recipC d L c j)) :
    ∀ i ∈ chunkSet L c,
      (chunkM L c).view.writes (Elt F) base [⟨Rect.whole S128x128, (ReadAs.same : ReadAs (Elt F) S128x128 .f32 S128x128 .f32).apply
        (View.read (Elt F) (slot1M sR1).view g)⟩] i = msgC m prodC recipC d i := by
  exact scat_gen m prodC recipC d L c ![1, 0, 0] 1 rfl inb_S3x128x128_S1x128x128_1_0_0 g base hg

/-- Block `c` of the result after the scatter out of slot 2, when that slot holds the products of chunk `c`. -/
theorem scat2 (hpre : PreOK m) (d : Dev nD) (L : grid1.Coords) (c : Fin 4) (g : (sR1).view.ty.Contents (Elt F)) (base : (chunkM L c).view.ty.Contents (Elt F))
    (hg : ∀ j ∈ (slot2M sR1).view.set, g j = FloatOps.mulf (gathA m prodC d L c j) (gathB m recipC d L c j)) :
    ∀ i ∈ chunkSet L c,
      (chunkM L c).view.writes (Elt F) base [⟨Rect.whole S128x128, (ReadAs.same : ReadAs (Elt F) S128x128 .f32 S128x128 .f32).apply
        (View.read (Elt F) (slot2M sR1).view g)⟩] i = msgC m prodC recipC d i := by
  exact scat_gen m prodC recipC d L c ![2, 0, 0] 2 rfl inb_S3x128x128_S1x128x128_2_0_0 g base hg

/-! ## The three slots of a ring buffer: disjoint, and together the whole buffer -/

omit [FloatOps F] in
/-- The unit-row rectangle at row `σ` of the ring buffer's shape holds exactly the indices whose first coordinate is `σ`. -/
theorem unit3_rowD (x : S3x128x128.Idx) (σ : ℕ) (inb : ∀ a, (![σ, 0, 0] : Fin 3 → ℕ) a + S1x128x128.size a ≤ S3x128x128.size a) :
    x ∈ (Rect.unit (s := S3x128x128) ![σ, 0, 0] S1x128x128.size inb).set ↔ (x 0).val = σ := by
  rw [Rect.mem_set_unit]
  have h1 : (x 1).val < 128 := (x 1).isLt
  have h2 : (x 2).val < 128 := (x 2).isLt
  constructor
  · intro h
    have h0 : σ ≤ (x 0).val ∧ (x 0).val < σ + 1 := h 0
    omega
  · intro h a
    match a with
    | ⟨0, _⟩ => show σ ≤ (x 0).val ∧ (x 0).val < σ + 1; omega
    | ⟨1, _⟩ => show 0 ≤ (x 1).val ∧ (x 1).val < 0 + 128; omega
    | ⟨2, _⟩ => show 0 ≤ (x 2).val ∧ (x 2).val < 0 + 128; omega

omit [FloatOps F] in
/-- The elements under the slot at row `σ`: the buffer's elements under the indices of that row. -/
theorem mem_slotD (b : Memref sig .scVector .vmem S3x128x128 .f32) (σ : ℕ) (inb : ∀ a, (![σ, 0, 0] : Fin 3 → ℕ) a + S1x128x128.size a ≤ S3x128x128.size a)
    (i : b.view.ty.Idx) :
    i ∈ ((b.slice (Rect.unit (s := S3x128x128) ![σ, 0, 0] S1x128x128.size inb) (fun _ => rfl)).squeeze S128x128
        squeezes_S1x128x128_S128x128).view.set ↔ ∃ x : S3x128x128.Idx, (x 0).val = σ ∧ b.view.emb x = i := by
  have e : ((b.slice (Rect.unit (s := S3x128x128) ![σ, 0, 0] S1x128x128.size inb) (fun _ => rfl)).squeeze S128x128
        squeezes_S1x128x128_S128x128).view.set = (Rect.unit (s := S3x128x128) ![σ, 0, 0] S1x128x128.size inb).set.map b.view.emb :=
    (View.set_reshape (v := b.view.slice (Rect.unit (s := S3x128x128) ![σ, 0, 0] S1x128x128.size inb)) _).trans (View.set_slice b.view _)
  rw [e, Finset.mem_map]
  constructor
  · rintro ⟨x, hx, rfl⟩; exact ⟨x, (unit3_rowD x σ inb).mp hx, rfl⟩
  · rintro ⟨x, hx, rfl⟩; exact ⟨x, (unit3_rowD x σ inb).mpr hx, rfl⟩

omit [FloatOps F] in
theorem mem_viewD (b : Memref sig .scVector .vmem S3x128x128 .f32) (i : b.view.ty.Idx) :
    i ∈ b.view.set ↔ ∃ x : S3x128x128.Idx, b.view.emb x = i := by
  simp only [View.set, Finset.mem_map, Finset.mem_univ, true_and]

omit [FloatOps F] in
/-- Slots at different rows share no element. -/
theorem slot_disjD (b : Memref sig .scVector .vmem S3x128x128 .f32) (σ σ' : ℕ) (hne : σ ≠ σ')
    (inb : ∀ a, (![σ, 0, 0] : Fin 3 → ℕ) a + S1x128x128.size a ≤ S3x128x128.size a)
    (inb' : ∀ a, (![σ', 0, 0] : Fin 3 → ℕ) a + S1x128x128.size a ≤ S3x128x128.size a) :
    Disjoint ((b.slice (Rect.unit (s := S3x128x128) ![σ, 0, 0] S1x128x128.size inb) (fun _ => rfl)).squeeze S128x128 squeezes_S1x128x128_S128x128).view.set
      ((b.slice (Rect.unit (s := S3x128x128) ![σ', 0, 0] S1x128x128.size inb') (fun _ => rfl)).squeeze S128x128 squeezes_S1x128x128_S128x128).view.set := by
  rw [Finset.disjoint_left]
  intro i h h'
  obtain ⟨x, hx, rfl⟩ := (mem_slotD b σ inb i).mp h
  obtain ⟨y, hy, e⟩ := (mem_slotD b σ' inb' _).mp h'
  have := b.view.emb.injective e
  subst this
  exact hne (hx.symm.trans hy)

omit [FloatOps F] in
theorem slot_disj01 (b : Memref sig .scVector .vmem S3x128x128 .f32) : Disjoint (slot0M b).view.set (slot1M b).view.set :=
  slot_disjD b 0 1 (by decide) _ _
omit [FloatOps F] in
theorem slot_disj02 (b : Memref sig .scVector .vmem S3x128x128 .f32) : Disjoint (slot0M b).view.set (slot2M b).view.set :=
  slot_disjD b 0 2 (by decide) _ _
omit [FloatOps F] in
theorem slot_disj12 (b : Memref sig .scVector .vmem S3x128x128 .f32) : Disjoint (slot1M b).view.set (slot2M b).view.set :=
  slot_disjD b 1 2 (by decide) _ _

omit [FloatOps F] in
/-- The three slots are the whole ring buffer. -/
theorem slots_union (b : Memref sig .scVector .vmem S3x128x128 .f32) :
    ((slot0M b).view.set ∪ (slot1M b).view.set) ∪ (slot2M b).view.set = b.view.set := by
  ext i
  rw [Finset.mem_union, Finset.mem_union, mem_slotD b 0, mem_slotD b 1, mem_slotD b 2, mem_viewD]
  constructor
  · rintro ((⟨x, -, e⟩ | ⟨x, -, e⟩) | ⟨x, -, e⟩) <;> exact ⟨x, e⟩
  · rintro ⟨x, e⟩
    have hx : (x 0).val < 3 := (x 0).isLt
    have h3 : (x 0).val = 0 ∨ (x 0).val = 1 ∨ (x 0).val = 2 := by omega
    rcases h3 with h | h | h
    · exact Or.inl (Or.inl ⟨x, h, e⟩)
    · exact Or.inl (Or.inr ⟨x, h, e⟩)
    · exact Or.inr ⟨x, h, e⟩

/-- The three slots of a ring buffer, each held whole, are the ring buffer held whole. -/
theorem ring_join (d : Dev nD) (L : grid1.Coords) (b : Memref sig .scVector .vmem S3x128x128 .f32)
    (f0 f1 f2 : Buf (Elt F) (b.view.loc (V d (cV L) (jV L)))) :
    iprop(((slot0M b).view.loc (V d (cV L) (jV L)) ↦[(slot0M b).view.set]{fullShare} f0)
        ∗ ((slot1M b).view.loc (V d (cV L) (jV L)) ↦[(slot1M b).view.set]{fullShare} f1)
        ∗ ((slot2M b).view.loc (V d (cV L) (jV L)) ↦[(slot2M b).view.set]{fullShare} f2))
      ⊢ (iprop(∃ f, b.view.loc (V d (cV L) (jV L)) ↦[b.view.set]{fullShare} f) : sProp 𝕄) := by
  have hd : Disjoint ((slot0M b).view.set ∪ (slot1M b).view.set) (slot2M b).view.set :=
    Finset.disjoint_union_left.mpr ⟨slot_disj02 b, slot_disj12 b⟩
  rw [← slots_union b]
  iintro ⟨H0, H1, H2⟩
  iexists _
  iapply (pointsTo_join (ℓ := b.view.loc (V d (cV L) (jV L))) hd)
  isplitl [H0 H1]
  · iapply (pointsTo_join (ℓ := b.view.loc (V d (cV L) (jV L))) (slot_disj01 b))
    isplitl [H0]
    · iexact H0
    · iexact H1
  · iexact H2

/-! ## A write through the whole rectangle -/

omit [FloatOps F] in
/-- One store through the whole rectangle of a view's shape is the unmasked write through the view. -/
theorem writes_whole_eq {κ : Kind} {sp : Space} {s : Shape} {e : EltTy} (v : View sig κ sp s e) (f : v.ty.Contents (Elt F)) (w : s.Idx → Elt F e) :
    v.writes (Elt F) f [⟨Rect.whole s, w⟩] = v.write (Elt F) f w Finset.univ := by
  rw [View.writes_singleton]
  funext i
  by_cases hi : i ∈ v.set
  · obtain ⟨x, -, rfl⟩ := Finset.mem_map.mp hi
    have e1 : v.emb x = (v.slice (Rect.whole s)).emb x := by
      simp only [View.emb_slice, Function.Embedding.trans_apply, Rect.emb_whole_apply]
    conv_lhs => rw [e1, View.write_emb_of_mem _ _ (Finset.mem_univ _)]
    rw [View.write_emb_of_mem _ _ (Finset.mem_univ _)]
  · have hi' : i ∉ (v.slice (Rect.whole s)).set := by
      rw [View.set_slice, Rect.set_whole]; exact hi
    rw [View.write_of_not_mem _ _ _ (by rwa [View.setOn_univ]), View.write_of_not_mem _ _ _ (by rwa [View.setOn_univ])]

end Cert.KernelIdeal.Sc

end
-- ==== Proof.ScBody.lean ====
/-
  One vector subcore's task, at a symbolic place of the grid.
-/
import proofs.«208470_g86148454023375_cont_sun_c4_654_45_alg».proof.Proof.ScIdxA
import proofs.«208470_g86148454023375_cont_sun_c4_654_45_alg».proof.Proof.ScIdxD
import proofs.«208470_g86148454023375_cont_sun_c4_654_45_alg».proof.Proof.Gen.KernelIdeal.Skeleton
import Idealize.ShloMosaic.Lib.Pipeline.Value

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type}

local notation "𝕄" => MT nD τ sig (HIx 1) (Elt F) ℕ UU ℕ

variable [FloatOps F]
variable (m : (ℓ : Loc nD τ sig) → Buf (Elt F) ℓ) (prodC recipC : (⟨S4096x128, .f32⟩ : BufTy).Contents (Elt F))

omit [FloatOps F] in
/-- A list buffer written whole with in-range words reads in-range words through every slice. -/
theorem list_inb {thr : Thread nD τ} (vI : Memref sig thr.2.kind .vmem S512 .i32) (g : Buf (Elt F) (vI.view.loc thr))
    (w : (Rect.whole S512).shape.Idx → Elt F .i32) (hw : ∀ j, (w j).toNat < 4096) (r : Rect S512) (hr : ∀ a, r.stride a = 1) (x : r.shape.Idx) :
    ((vI.slice r hr).view.read (Elt F) (vI.view.writes (Elt F) g [⟨Rect.whole S512, w⟩]) x).toNat < 4096 := by
  have h := View.read_writes_cons_emb vI.view g (Rect.whole S512) w [] (r.emb x)
  rw [Rect.emb_whole_apply] at h
  have h' : (vI.slice r hr).view.read (Elt F) (vI.view.writes (Elt F) g [⟨Rect.whole S512, w⟩]) x
      = vI.view.read (Elt F) (vI.view.writes (Elt F) g [⟨Rect.whole S512, w⟩]) (r.emb x) := rfl
  rw [h', h]
  exact hw _

/-! ## A lane vector's product -/

omit [FloatOps F] in
theorem x1x16 (x : S1x1x16.Idx) : (x 0).val = 0 ∧ (x 1).val = 0 := by
  have h0 : (x 0).val < 1 := (x 0).isLt
  have h1 : (x 1).val < 1 := (x 1).isLt
  omega

/-- Sixteen lanes multiplied as a vector of sixteen and cast back are the lanes' products. -/
theorem lane_mul (a b : Vec F S1x1x16 .f32) (h1 : S1x1x16.ShapeCasts S16) (h2 : S16.ShapeCasts S1x1x16) (x : S1x1x16.Idx) :
    shapeCast S1x1x16 (Idealize.ShloMosaic.mulf (shapeCast S16 a h1) (shapeCast S16 b h1)) h2 x = FloatOps.mulf (a x) (b x) := by
  obtain ⟨hx0, hx1⟩ := x1x16 x
  have hk : (S1x1x16.rowMajor x : Nat) = S16.rowMajor (ix1 (x 2)) := by
    rw [Shape.rowMajor_val_one, Shape.rowMajor_val_three]; simp [hx0, hx1]
  rw [shapeCast_apply _ h2 x (ix1 (x 2)) hk.symm]
  show FloatOps.mulf (shapeCast S16 a h1 (ix1 (x 2))) (shapeCast S16 b h1 (ix1 (x 2))) = _
  rw [shapeCast_apply a h1 (ix1 (x 2)) x hk, shapeCast_apply b h1 (ix1 (x 2)) x hk]

/-- A pointwise change of contents and a respelling of the held set. -/
theorem pts_conv {ℓ : Loc nD τ sig} {S S' : Finset (Idx ℓ)} {f f' : Buf (Elt F) ℓ} (hS : S = S') (hf : ∀ i ∈ S, f i = f' i) :
    (ℓ ↦[S]{fullShare} f : sProp 𝕄) ⊢ ℓ ↦[S']{fullShare} f' := by
  subst hS; rw [pointsTo_congr hf]

omit [FloatOps F] in
theorem rowsDone_zero [FloatOps F] (A B : S3x128x128.Idx → F .f32) : rowsDone 0 A B = A := by
  funext i; simp [rowsDone]

theorem rowsDone_full (A B : S3x128x128.Idx → F .f32) (i : S3x128x128.Idx) : rowsDone 128 A B i = FloatOps.mulf (A i) (B i) := by
  have : (i 1).val < 128 := (i 1).isLt
  simp [rowsDone, this]

/-- One trip of a row loop on the held indices of slot `σ`: row `k` multiplied. -/
theorem rows_step (σ : Fin 3) (k : ℕ) (hk : k < 128) (A B : S3x128x128.Idx → F .f32)
    (S : Finset S3x128x128.Idx) (hS : ∀ i ∈ S, (i 0).val = σ.val)
    (o0 : Fin 3 → ℕ) (ho0 : o0 = ![σ.val, k, 0]) (inb0 : ∀ a, o0 a + S1x1x16.size a ≤ S3x128x128.size a)
    (P0 : Vec F S1x1x16 .f32 → Vec F S1x1x16 .f32 → FVec F S1x1x16 .f32) (hP0 : ∀ a b x, P0 a b x = FloatOps.mulf (a x) (b x))
    (o1 : Fin 3 → ℕ) (ho1 : o1 = ![σ.val, k, 16]) (inb1 : ∀ a, o1 a + S1x1x16.size a ≤ S3x128x128.size a)
    (P1 : Vec F S1x1x16 .f32 → Vec F S1x1x16 .f32 → FVec F S1x1x16 .f32) (hP1 : ∀ a b x, P1 a b x = FloatOps.mulf (a x) (b x))
    (o2 : Fin 3 → ℕ) (ho2 : o2 = ![σ.val, k, 32]) (inb2 : ∀ a, o2 a + S1x1x16.size a ≤ S3x128x128.size a)
    (P2 : Vec F S1x1x16 .f32 → Vec F S1x1x16 .f32 → FVec F S1x1x16 .f32) (hP2 : ∀ a b x, P2 a b x = FloatOps.mulf (a x) (b x))
    (o3 : Fin 3 → ℕ) (ho3 : o3 = ![σ.val, k, 48]) (inb3 : ∀ a, o3 a + S1x1x16.size a ≤ S3x128x128.size a)
    (P3 : Vec F S1x1x16 .f32 → Vec F S1x1x16 .f32 → FVec F S1x1x16 .f32) (hP3 : ∀ a b x, P3 a b x = FloatOps.mulf (a x) (b x))
    (o4 : Fin 3 → ℕ) (ho4 : o4 = ![σ.val, k, 64]) (inb4 : ∀ a, o4 a + S1x1x16.size a ≤ S3x128x128.size a)
    (P4 : Vec F S1x1x16 .f32 → Vec F S1x1x16 .f32 → FVec F S1x1x16 .f32) (hP4 : ∀ a b x, P4 a b x = FloatOps.mulf (a x) (b x))
    (o5 : Fin 3 → ℕ) (ho5 : o5 = ![σ.val, k, 80]) (inb5 : ∀ a, o5 a + S1x1x16.size a ≤ S3x128x128.size a)
    (P5 : Vec F S1x1x16 .f32 → Vec F S1x1x16 .f32 → FVec F S1x1x16 .f32) (hP5 : ∀ a b x, P5 a b x = FloatOps.mulf (a x) (b x))
    (o6 : Fin 3 → ℕ) (ho6 : o6 = ![σ.val, k, 96]) (inb6 : ∀ a, o6 a + S1x1x16.size a ≤ S3x128x128.size a)
    (P6 : Vec F S1x1x16 .f32 → Vec F S1x1x16 .f32 → FVec F S1x1x16 .f32) (hP6 : ∀ a b x, P6 a b x = FloatOps.mulf (a x) (b x))
    (o7 : Fin 3 → ℕ) (ho7 : o7 = ![σ.val, k, 112]) (inb7 : ∀ a, o7 a + S1x1x16.size a ≤ S3x128x128.size a)
    (P7 : Vec F S1x1x16 .f32 → Vec F S1x1x16 .f32 → FVec F S1x1x16 .f32) (hP7 : ∀ a b x, P7 a b x = FloatOps.mulf (a x) (b x)) :
    ∀ i ∈ S, (sR1).view.writes (Elt F) (rowsDone k A B)
      [⟨Rect.unit (s := S3x128x128) o7 S1x1x16.size inb7,
          P7 (View.readAt (Elt F) (sR1).view (Rect.unit (s := S3x128x128) o7 S1x1x16.size inb7).toLoadRect (rowsDone k A B))
            (View.readAt (Elt F) (sR0).view (Rect.unit (s := S3x128x128) o7 S1x1x16.size inb7).toLoadRect B)⟩,
        ⟨Rect.unit (s := S3x128x128) o6 S1x1x16.size inb6,
          P6 (View.readAt (Elt F) (sR1).view (Rect.unit (s := S3x128x128) o6 S1x1x16.size inb6).toLoadRect (rowsDone k A B))
            (View.readAt (Elt F) (sR0).view (Rect.unit (s := S3x128x128) o6 S1x1x16.size inb6).toLoadRect B)⟩,
        ⟨Rect.unit (s := S3x128x128) o5 S1x1x16.size inb5,
          P5 (View.readAt (Elt F) (sR1).view (Rect.unit (s := S3x128x128) o5 S1x1x16.size inb5).toLoadRect (rowsDone k A B))
            (View.readAt (Elt F) (sR0).view (Rect.unit (s := S3x128x128) o5 S1x1x16.size inb5).toLoadRect B)⟩,
        ⟨Rect.unit (s := S3x128x128) o4 S1x1x16.size inb4,
          P4 (View.readAt (Elt F) (sR1).view (Rect.unit (s := S3x128x128) o4 S1x1x16.size inb4).toLoadRect (rowsDone k A B))
            (View.readAt (Elt F) (sR0).view (Rect.unit (s := S3x128x128) o4 S1x1x16.size inb4).toLoadRect B)⟩,
        ⟨Rect.unit (s := S3x128x128) o3 S1x1x16.size inb3,
          P3 (View.readAt (Elt F) (sR1).view (Rect.unit (s := S3x128x128) o3 S1x1x16.size inb3).toLoadRect (rowsDone k A B))
            (View.readAt (Elt F) (sR0).view (Rect.unit (s := S3x128x128) o3 S1x1x16.size inb3).toLoadRect B)⟩,
        ⟨Rect.unit (s := S3x128x128) o2 S1x1x16.size inb2,
          P2 (View.readAt (Elt F) (sR1).view (Rect.unit (s := S3x128x128) o2 S1x1x16.size inb2).toLoadRect (rowsDone k A B))
            (View.readAt (Elt F) (sR0).view (Rect.unit (s := S3x128x128) o2 S1x1x16.size inb2).toLoadRect B)⟩,
        ⟨Rect.unit (s := S3x128x128) o1 S1x1x16.size inb1,
          P1 (View.readAt (Elt F) (sR1).view (Rect.unit (s := S3x128x128) o1 S1x1x16.size inb1).toLoadRect (rowsDone k A B))
            (View.readAt (Elt F) (sR0).view (Rect.unit (s := S3x128x128) o1 S1x1x16.size inb1).toLoadRect B)⟩,
        ⟨Rect.unit (s := S3x128x128) o0 S1x1x16.size inb0,
          P0 (View.readAt (Elt F) (sR1).view (Rect.unit (s := S3x128x128) o0 S1x1x16.size inb0).toLoadRect (rowsDone k A B))
            (View.readAt (Elt F) (sR0).view (Rect.unit (s := S3x128x128) o0 S1x1x16.size inb0).toLoadRect B)⟩] i
      = rowsDone (k + 1) A B i := by
  intro i hi
  rw [row_step σ k hk (rowsDone k A B) B o0 ho0 inb0 P0 hP0 o1 ho1 inb1 P1 hP1 o2 ho2 inb2 P2 hP2 o3 ho3 inb3 P3 hP3 o4 ho4 inb4 P4 hP4 o5 ho5 inb5 P5 hP5 o6 ho6 inb6 P6 hP6 o7 ho7 inb7 P7 hP7]
  have h0 := hS i hi
  unfold rowsDone
  by_cases h1 : (i 1).val = k
  · simp [h0, h1]
  · have h2 : ((i 1).val < k + 1) ↔ ((i 1).val < k) := by omega
    simp [h0, h1, h2]

/-- The loop invariant: the slot's held rows below `k` multiplied, the second ring buffer's as gathered. -/
def invL (d : Dev nD) (L : grid1.Coords) (S1 : Finset (Idx ((sR1).view.loc (V d (cV L) (jV L))))) (S0 : Finset (Idx ((sR0).view.loc (V d (cV L) (jV L)))))
    (A B : S3x128x128.Idx → F .f32) (k : Nat) (_ : PUnit) : sProp 𝕄 :=
  iprop(((sR1).view.loc (V d (cV L) (jV L)) ↦[S1]{fullShare} rowsDone k A B) ∗ ((sR0).view.loc (V d (cV L) (jV L)) ↦[S0]{fullShare} B))

omit [FloatOps F] in
theorem rest_slot0 {b : Memref sig .scVector .vmem S3x128x128 .f32} {i} (hi : i ∈ (((b).view.set \ (slot1M b).view.set) \ (slot2M b).view.set)) : i ∈ (slot0M b).view.set := slot_rest0 b ▸ hi
omit [FloatOps F] in
theorem rest_slot1 {b : Memref sig .scVector .vmem S3x128x128 .f32} {i} (hi : i ∈ (((b).view.set \ (slot0M b).view.set) \ (slot2M b).view.set)) : i ∈ (slot1M b).view.set := slot_rest1 b ▸ hi
omit [FloatOps F] in
theorem rest_slot2 {b : Memref sig .scVector .vmem S3x128x128 .f32} {i} (hi : i ∈ (((b).view.set \ (slot0M b).view.set) \ (slot1M b).view.set)) : i ∈ (slot2M b).view.set := slot_rest2 b ▸ hi

/-- The first wait's landing: the first slot of each ring buffer, the two later gathers' writes elsewhere. -/
theorem land1A (hpre : PreOK m) (d : Dev nD) (L : grid1.Coords) (prev : (sR1).view.ty.Contents (Elt F)) (g : (sI1).view.ty.Contents (Elt F))
    (ho : ∀ a, (![0] : Fin 1 → ℕ) a + S128.size a ≤ S512.size a) (hn : _) (hin : _) (P1 P2 : S128x128.Idx → F .f32) :
    ∀ i ∈ (((sR1).view.set \ (slot1M sR1).view.set) \ (slot2M sR1).view.set),
      View.write (Elt F) (slot2M sR1).view (View.write (Elt F) (slot1M sR1).view (View.write (Elt F) (slot0M sR1).view prev
        (SparseCore.gatherPayload gathers_S4096x128_S128x128
        (View.read (Elt F) ((pV).slice (Rect.unit (s := S4096x128) ![0, 0] S4096x128.size inb_S4096x128_S4096x128_0_0) (fun _ => rfl)).view prodC)
        (SparseCore.rows
          (View.read (Elt F) ((sI1).slice (Rect.unit (s := S512) ![0] S128.size ho) (fun _ => rfl)).view
            ((sI1).view.writes (Elt F) g [⟨Rect.whole S512, (ReadAs.same : ReadAs (Elt F) S512 .i32 S512 .i32).apply
              (View.read (Elt F) (((eV).slice (Rect.unit (s := S2x16384) (k1_off1 L) S1x512.size (k1_off1_inb L)) (fun _ => rfl)).squeeze S512 squeezes_S1x512_S512).view (m (edgeLoc d)))⟩]))
          hn hin))
        Finset.univ) P1 Finset.univ) P2 Finset.univ i = gathA m prodC d L 0 i := by
  intro i hi
  obtain ⟨hi12, hi2⟩ := Finset.mem_sdiff.mp hi
  obtain ⟨_, hi1⟩ := Finset.mem_sdiff.mp hi12
  rw [View.write_of_not_mem _ _ _ (show i ∉ (slot2M sR1).view.setOn Finset.univ from hi2),
    View.write_of_not_mem _ _ _ (show i ∉ (slot1M sR1).view.setOn Finset.univ from hi1)]
  exact landA0 m prodC hpre d L 0 prev g 0 rfl ho hn hin i (rest_slot0 hi)

theorem land1B (hpre : PreOK m) (d : Dev nD) (L : grid1.Coords) (prev : (sR0).view.ty.Contents (Elt F)) (g : (sI0).view.ty.Contents (Elt F))
    (ho : ∀ a, (![0] : Fin 1 → ℕ) a + S128.size a ≤ S512.size a) (hn : _) (hin : _) (P1 P2 : S128x128.Idx → F .f32) :
    ∀ i ∈ (((sR0).view.set \ (slot1M sR0).view.set) \ (slot2M sR0).view.set),
      View.write (Elt F) (slot2M sR0).view (View.write (Elt F) (slot1M sR0).view (View.write (Elt F) (slot0M sR0).view prev
        (SparseCore.gatherPayload gathers_S4096x128_S128x128
        (View.read (Elt F) ((rV).slice (Rect.unit (s := S4096x128) ![0, 0] S4096x128.size inb_S4096x128_S4096x128_0_0) (fun _ => rfl)).view recipC)
        (SparseCore.rows
          (View.read (Elt F) ((sI0).slice (Rect.unit (s := S512) ![0] S128.size ho) (fun _ => rfl)).view
            ((sI0).view.writes (Elt F) g [⟨Rect.whole S512, (ReadAs.same : ReadAs (Elt F) S512 .i32 S512 .i32).apply
              (View.read (Elt F) (((eV).slice (Rect.unit (s := S2x16384) (k1_off2 L) S1x512.size (k1_off2_inb L)) (fun _ => rfl)).squeeze S512 squeezes_S1x512_S512).view (m (edgeLoc d)))⟩]))
          hn hin))
        Finset.univ) P1 Finset.univ) P2 Finset.univ i = gathB m recipC d L 0 i := by
  intro i hi
  obtain ⟨hi12, hi2⟩ := Finset.mem_sdiff.mp hi
  obtain ⟨_, hi1⟩ := Finset.mem_sdiff.mp hi12
  rw [View.write_of_not_mem _ _ _ (show i ∉ (slot2M sR0).view.setOn Finset.univ from hi2),
    View.write_of_not_mem _ _ _ (show i ∉ (slot1M sR0).view.setOn Finset.univ from hi1)]
  exact landB0 m recipC hpre d L 0 prev g 0 rfl ho hn hin i (rest_slot0 hi)
omit [FloatOps F] in
/-- Slot 0's elements, as the slot's own memref addresses them. -/
theorem own0 (d : Dev nD) (L : grid1.Coords) (b : Memref sig .scVector .vmem S3x128x128 .f32) (f : Buf (Elt F) (b.view.loc (V d (cV L) (jV L)))) :
    (b.view.loc (V d (cV L) (jV L)) ↦[(slot0M b).view.set]{fullShare} f : sProp 𝕄)
      = ((slot0M b).view.loc (V d (cV L) (jV L)) ↦[(slot0M b).view.set]{fullShare} f) := rfl
omit [FloatOps F] in
/-- Slot 1's elements, as the slot's own memref addresses them. -/
theorem own1 (d : Dev nD) (L : grid1.Coords) (b : Memref sig .scVector .vmem S3x128x128 .f32) (f : Buf (Elt F) (b.view.loc (V d (cV L) (jV L)))) :
    (b.view.loc (V d (cV L) (jV L)) ↦[(slot1M b).view.set]{fullShare} f : sProp 𝕄)
      = ((slot1M b).view.loc (V d (cV L) (jV L)) ↦[(slot1M b).view.set]{fullShare} f) := rfl
omit [FloatOps F] in
/-- Slot 2's elements, as the slot's own memref addresses them. -/
theorem own2 (d : Dev nD) (L : grid1.Coords) (b : Memref sig .scVector .vmem S3x128x128 .f32) (f : Buf (Elt F) (b.view.loc (V d (cV L) (jV L)))) :
    (b.view.loc (V d (cV L) (jV L)) ↦[(slot2M b).view.set]{fullShare} f : sProp 𝕄)
      = ((slot2M b).view.loc (V d (cV L) (jV L)) ↦[(slot2M b).view.set]{fullShare} f) := rfl

/-- The last chunk's landing, written as one whole piece of the slot. -/
theorem landA0w (hpre : PreOK m) (d : Dev nD) (L : grid1.Coords) (c : Fin 4) (prev : (sR1).view.ty.Contents (Elt F)) (g : (sI1).view.ty.Contents (Elt F))
    (o : ℕ) (hoc : o = 128 * c.val) (ho : ∀ a, (![o] : Fin 1 → ℕ) a + S128.size a ≤ S512.size a) (hn : _) (hin : _) :
    ∀ i ∈ (slot0M sR1).view.set,
      (slot0M sR1).view.writes (Elt F) prev [⟨Rect.whole S128x128,
        (SparseCore.gatherPayload gathers_S4096x128_S128x128
        (View.read (Elt F) ((pV).slice (Rect.unit (s := S4096x128) ![0, 0] S4096x128.size inb_S4096x128_S4096x128_0_0) (fun _ => rfl)).view prodC)
        (SparseCore.rows
          (View.read (Elt F) ((sI1).slice (Rect.unit (s := S512) ![o] S128.size ho) (fun _ => rfl)).view
            ((sI1).view.writes (Elt F) g [⟨Rect.whole S512, (ReadAs.same : ReadAs (Elt F) S512 .i32 S512 .i32).apply
              (View.read (Elt F) (((eV).slice (Rect.unit (s := S2x16384) (k1_off1 L) S1x512.size (k1_off1_inb L)) (fun _ => rfl)).squeeze S512 squeezes_S1x512_S512).view (m (edgeLoc d)))⟩]))
          hn hin))⟩] i = gathA m prodC d L c i := by
  intro i hi
  rw [writes_whole_eq]
  exact landA0 m prodC hpre d L c prev g o hoc ho hn hin i hi

theorem landB0w (hpre : PreOK m) (d : Dev nD) (L : grid1.Coords) (c : Fin 4) (prev : (sR0).view.ty.Contents (Elt F)) (g : (sI0).view.ty.Contents (Elt F))
    (o : ℕ) (hoc : o = 128 * c.val) (ho : ∀ a, (![o] : Fin 1 → ℕ) a + S128.size a ≤ S512.size a) (hn : _) (hin : _) :
    ∀ i ∈ (slot0M sR0).view.set,
      (slot0M sR0).view.writes (Elt F) prev [⟨Rect.whole S128x128,
        (SparseCore.gatherPayload gathers_S4096x128_S128x128
        (View.read (Elt F) ((rV).slice (Rect.unit (s := S4096x128) ![0, 0] S4096x128.size inb_S4096x128_S4096x128_0_0) (fun _ => rfl)).view recipC)
        (SparseCore.rows
          (View.read (Elt F) ((sI0).slice (Rect.unit (s := S512) ![o] S128.size ho) (fun _ => rfl)).view
            ((sI0).view.writes (Elt F) g [⟨Rect.whole S512, (ReadAs.same : ReadAs (Elt F) S512 .i32 S512 .i32).apply
              (View.read (Elt F) (((eV).slice (Rect.unit (s := S2x16384) (k1_off2 L) S1x512.size (k1_off2_inb L)) (fun _ => rfl)).squeeze S512 squeezes_S1x512_S512).view (m (edgeLoc d)))⟩]))
          hn hin))⟩] i = gathB m recipC d L c i := by
  intro i hi
  rw [writes_whole_eq]
  exact landB0 m recipC hpre d L c prev g o hoc ho hn hin i hi

omit [FloatOps F] in
/-- A wait recorded at the kernel's own index beside admissible ones is admissible. -/
theorem ins_ok {W W' : Waits sig (HIx 1)} {a : SemLoc sig × HIx 1} (ha : a.2 = none) (h : ∀ p ∈ W', p ∈ W ∨ p.2 = none) :
    ∀ p ∈ insert a W', p ∈ W ∨ p.2 = none := by
  intro p hp
  rcases Finset.mem_insert.mp hp with rfl | hp
  · exact .inr ha
  · exact h p hp

/-- The first ring buffer given back whole. -/
theorem ring_back1 (d : Dev nD) (L : grid1.Coords) (f0 f1 f2 : Buf (Elt F) ((sR1).view.loc (V d (cV L) (jV L)))) :
    iprop(((slot0M sR1).view.loc (V d (cV L) (jV L)) ↦[(slot0M sR1).view.set]{fullShare} f0)
        ∗ ((slot1M sR1).view.loc (V d (cV L) (jV L)) ↦[(slot1M sR1).view.set]{fullShare} f1)
        ∗ ((slot2M sR1).view.loc (V d (cV L) (jV L)) ↦[(slot2M sR1).view.set]{fullShare} f2))
      ⊢ (iprop(∃ f, (V d (cV L) (jV L)).loc cc1_scratch2 ↦{fullShare} f) : sProp 𝕄) := by
  refine (ring_join (F := F) d L sR1 f0 f1 f2).trans ?_
  iintro ⟨%f, H⟩
  iexists f
  iapply (Entails.of_eq (pts_sR1 (F := F) d L f)); iexact H
/-- The second ring buffer given back whole. -/
theorem ring_back0 (d : Dev nD) (L : grid1.Coords) (f0 f1 f2 : Buf (Elt F) ((sR0).view.loc (V d (cV L) (jV L)))) :
    iprop(((slot0M sR0).view.loc (V d (cV L) (jV L)) ↦[(slot0M sR0).view.set]{fullShare} f0)
        ∗ ((slot1M sR0).view.loc (V d (cV L) (jV L)) ↦[(slot1M sR0).view.set]{fullShare} f1)
        ∗ ((slot2M sR0).view.loc (V d (cV L) (jV L)) ↦[(slot2M sR0).view.set]{fullShare} f2))
      ⊢ (iprop(∃ f, (V d (cV L) (jV L)).loc cc1_scratch3 ↦{fullShare} f) : sProp 𝕄) := by
  refine (ring_join (F := F) d L sR0 f0 f1 f2).trans ?_
  iintro ⟨%f, H⟩
  iexists f
  iapply (Entails.of_eq (pts_sR0 (F := F) d L f)); iexact H

set_option maxHeartbeats 4000000 in
/-- The task of the vector subcore at `L`: from its read shares and its four blocks of the result, the blocks written
    with the products of the gathered rows. -/
theorem tile_body (hF : (K (F := F)).Facts) (hpre : PreOK m) (d : Dev nD) (L : grid1.Coords)
    (O : CellTallies nD τ sig (HIx 1)) (W : Waits sig (HIx 1)) (hO : ∀ g, O g none = 0) :
    iprop(levAts (K (F := F)).L (K (F := F)).lev ∗ emp ∗ tileGo m prodC recipC d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L (Memref.whole main_v1_0_scv) (Memref.isWhole_whole _) (Memref.whole main_v1_1_scv) (Memref.isWhole_whole _)
            (Memref.whole main_arg3_scv) (Memref.isWhole_whole _) (Memref.whole main_v2_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scratch4 cc1_scratch5 cc1_scratch6 cc1_scratch7 cc1_scratch8 cc1_scratch9 cc1_scratch10 cc1_scratch11 cc1_scratch12 cc1_scoped0 cc1_scoped1)
          fun _ => iprop(tileTd m prodC recipC d L ∗ scopedBufs (V d (cV L) (jV L)) ∗ scopedSems0 (V d (cV L) (jV L))
            ∗ ∃ W', ⌜∀ p ∈ W', p ∈ W ∨ p.2 = none⌝ ∗ owes (V d (cV L) (jV L)) O W') := by
  have hin1 : ∀ (g : Buf (Elt F) ((sI1).view.loc (V d (cV L) (jV L)))) (r : Rect S512) (hr : ∀ a, r.stride a = 1) (x : r.shape.Idx),
      (((sI1).slice r hr).view.read (Elt F) ((sI1).view.writes (Elt F) g [⟨Rect.whole S512,
        (ReadAs.same : ReadAs (Elt F) S512 .i32 S512 .i32).apply
          ((((eV).slice (Rect.unit (s := S2x16384) (k1_off1 L) S1x512.size (k1_off1_inb L)) (fun _ => rfl)).squeeze S512 squeezes_S1x512_S512).view.read (Elt F) (m (edgeLoc d)))⟩]) x).toNat < 4096 :=
    fun g r hr x => list_inb (thr := V d (cV L) (jV L)) sI1 g _ (fun j => hpre d _) r hr x
  have hin0 : ∀ (g : Buf (Elt F) ((sI0).view.loc (V d (cV L) (jV L)))) (r : Rect S512) (hr : ∀ a, r.stride a = 1) (x : r.shape.Idx),
      (((sI0).slice r hr).view.read (Elt F) ((sI0).view.writes (Elt F) g [⟨Rect.whole S512,
        (ReadAs.same : ReadAs (Elt F) S512 .i32 S512 .i32).apply
          ((((eV).slice (Rect.unit (s := S2x16384) (k1_off2 L) S1x512.size (k1_off2_inb L)) (fun _ => rfl)).squeeze S512 squeezes_S1x512_S512).view.read (Elt F) (m (edgeLoc d)))⟩]) x).toNat < 4096 :=
    fun g r hr x => list_inb (thr := V d (cV L) (jV L)) sI0 g _ (fun j => hpre d _) r hr x
  simp only [cc1_k_eq_skeleton]; unfold cc1_k_skel
  rw [(K (F := F)).scopedBufs_V hF d (cV L) (jV L), SparseCore.Cfg.scopedSems0_V (Val := Elt F) d (cV L) (jV L), ownSems0_V, ownBufs_V]
  unfold tileGo tileTd
  rw [bigSep_fin4, bigSep_fin4, pts_toksP (ℓ := prodLoc d) (shT (cL L) (sL L)), pts_toksR (ℓ := recipLoc d) (shT (cL L) (sL L))]
  iintro ⟨#Hlv, -, ⟨⟨HpD, Hp10, Hp9, Hp8, HpR⟩, ⟨HrD, Hr13, Hr12, Hr11, HrR⟩, He, ⟨%g0, Hm0⟩, ⟨%g1, Hm1⟩, ⟨%g2, Hm2⟩, ⟨%g3, Hm3⟩⟩,
    ⟨⟨⟨%f0, Hs0⟩, ⟨%f1, Hs1⟩, ⟨%f2, Hs2⟩, ⟨%f3, Hs3⟩⟩, Hbufs⟩, ⟨⟨H4, H5, H6, H7, H8, H9, H10, H11, H12, Hc0, Hc1⟩, Hsems⟩, HO⟩
  ihave Hmw := ((K (F := F)).mayWaits_none (thr := V d (cV L) (jV L)) hO) $$ Hlv
  ihave Hp8' := (Entails.of_eq (pts_pV (F := F) d L _ _).symm) $$ Hp8
  ihave Hp9' := (Entails.of_eq (pts_pV (F := F) d L _ _).symm) $$ Hp9
  ihave Hp10' := (Entails.of_eq (pts_pV (F := F) d L _ _).symm) $$ Hp10
  ihave Hr11' := (Entails.of_eq (pts_rV (F := F) d L _ _).symm) $$ Hr11
  ihave Hr12' := (Entails.of_eq (pts_rV (F := F) d L _ _).symm) $$ Hr12
  ihave Hr13' := (Entails.of_eq (pts_rV (F := F) d L _ _).symm) $$ Hr13
  ihave He' := (Entails.of_eq (pts_eV (F := F) d L _ _).symm) $$ He
  ihave Hm0' := (Entails.of_eq (pts_chunk (F := F) d L 0 _).symm) $$ Hm0
  ihave Hm1' := (Entails.of_eq (pts_chunk (F := F) d L 1 _).symm) $$ Hm1
  ihave Hm2' := (Entails.of_eq (pts_chunk (F := F) d L 2 _).symm) $$ Hm2
  ihave Hm3' := (Entails.of_eq (pts_chunk (F := F) d L 3 _).symm) $$ Hm3
  ihave Hs0' := (Entails.of_eq (pts_sI1 (F := F) d L _).symm) $$ Hs0
  ihave Hs1' := (Entails.of_eq (pts_sI0 (F := F) d L _).symm) $$ Hs1
  ihave Hs2' := (Entails.of_eq (pts_sR1 (F := F) d L _).symm) $$ Hs2
  ihave Hs3' := (Entails.of_eq (pts_sR0 (F := F) d L _).symm) $$ Hs3
  sl_exec
  -- the first chunk's rows have landed in slot 0 of each ring buffer
  ihave Hs2' := (pts_conv rfl (land1A m prodC hpre d L _ _ _ _ _ _ _)) $$ Hs2'
  ihave Hs3' := (pts_conv rfl (land1B m recipC hpre d L _ _ _ _ _ _ _)) $$ Hs3'
  sl_for (invL d L (((sR1).view.set \ (slot1M sR1).view.set) \ (slot2M sR1).view.set) (((sR0).view.set \ (slot1M sR0).view.set) \ (slot2M sR0).view.set) (gathA m prodC d L 0) (gathB m recipC d L 0)) $$ [Hs2' Hs3']
  case region =>
    intro k _
    unfold invL
    iintro ⟨H1, H0⟩
    sl_exec
    sl_unfold_run_names
    ihave H1 := (pts_conv (ℓ := (sR1).view.loc (V d (cV L) (jV L))) (S := (((sR1).view.set \ (slot1M sR1).view.set) \ (slot2M sR1).view.set)) (f' := rowsDone (k.val + 1) (gathA m prodC d L 0) (gathB m recipC d L 0)) rfl
      (rows_step 0 k.val k.isLt (gathA m prodC d L 0) (gathB m recipC d L 0) (((sR1).view.set \ (slot1M sR1).view.set) \ (slot2M sR1).view.set)
        (fun i hi => (mem_slot0_sR1 i).mp (rest_slot0 hi))
        (k1_off3 k) (k1_off3_eq k) (k1_off3_inb k) k1_pay1 (fun a b x => lane_mul a b _ _ x)
        (k1_off4 k) (k1_off4_eq k) (k1_off4_inb k) k1_pay2 (fun a b x => lane_mul a b _ _ x)
        (k1_off5 k) (k1_off5_eq k) (k1_off5_inb k) (fun a b => k1_pay4 (k1_pay3 a b)) (fun a b x => lane_mul a b _ _ x)
        (k1_off6 k) (k1_off6_eq k) (k1_off6_inb k) k1_pay5 (fun a b x => lane_mul a b _ _ x)
        (k1_off7 k) (k1_off7_eq k) (k1_off7_inb k) k1_pay6 (fun a b x => lane_mul a b _ _ x)
        (k1_off8 k) (k1_off8_eq k) (k1_off8_inb k) (fun a b => k1_pay29 (k1_pay7 a b)) (fun a b x => lane_mul a b _ _ x)
        (k1_off9 k) (k1_off9_eq k) (k1_off9_inb k) k1_pay30 (fun a b x => lane_mul a b _ _ x)
        (k1_off10 k) (k1_off10_eq k) (k1_off10_inb k) k1_pay31 (fun a b x => lane_mul a b _ _ x))) $$ H1
    sl_step
    isplitl [H1]
    · iexact H1
    · iexact H0
  · unfold invL
    rw [rowsDone_zero]
    isplitl [Hs2']
    · iexact Hs2'
    · iexact Hs3'
  iintro %_ HI
  unfold invL
  icases HI with ⟨Hs2', Hs3'⟩
  ihave Hs2' := (pts_conv (slot_rest0 sR1) (fun i _ => rfl)) $$ Hs2'
  ihave Hs3' := (pts_conv (slot_rest0 sR0) (fun i _ => rfl)) $$ Hs3'
  ihave Hs2' := (Entails.of_eq (own0 (F := F) d L sR1 _)) $$ Hs2'
  ihave Hs3' := (Entails.of_eq (own0 (F := F) d L sR0 _)) $$ Hs3'
  sl_exec
  -- chunk 1's rows have landed in slot 1 of each ring buffer
  sl_unfold_run_names
  ihave Hs2'_2 := (pts_conv rfl (landA1 m prodC hpre d L 1 _ _ 128 rfl _ _ _)) $$ Hs2'_2
  ihave Hs3'_2 := (pts_conv rfl (landB1 m recipC hpre d L 1 _ _ 128 rfl _ _ _)) $$ Hs3'_2
  ihave Hs2'_2 := (pts_conv (slot_rest1 sR1).symm (fun i _ => rfl)) $$ Hs2'_2
  ihave Hs3'_2 := (pts_conv (slot_rest1 sR0).symm (fun i _ => rfl)) $$ Hs3'_2
  sl_for (invL d L (((sR1).view.set \ (slot0M sR1).view.set) \ (slot2M sR1).view.set) (((sR0).view.set \ (slot0M sR0).view.set) \ (slot2M sR0).view.set) (gathA m prodC d L 1) (gathB m recipC d L 1)) $$ [Hs2'_2 Hs3'_2]
  case region =>
    intro k _
    unfold invL
    iintro ⟨H1, H0⟩
    sl_exec
    sl_unfold_run_names
    ihave H1 := (pts_conv (ℓ := (sR1).view.loc (V d (cV L) (jV L))) (S := (((sR1).view.set \ (slot0M sR1).view.set) \ (slot2M sR1).view.set)) (f' := rowsDone (k.val + 1) (gathA m prodC d L 1) (gathB m recipC d L 1)) rfl
      (rows_step 1 k.val k.isLt (gathA m prodC d L 1) (gathB m recipC d L 1) (((sR1).view.set \ (slot0M sR1).view.set) \ (slot2M sR1).view.set)
        (fun i hi => (mem_slot1_sR1 i).mp (rest_slot1 hi))
        (k1_off12 k) (k1_off12_eq k) (k1_off12_inb k) k1_pay8 (fun a b x => lane_mul a b _ _ x)
        (k1_off13 k) (k1_off13_eq k) (k1_off13_inb k) k1_pay9 (fun a b x => lane_mul a b _ _ x)
        (k1_off14 k) (k1_off14_eq k) (k1_off14_inb k) (fun a b => k1_pay11 (k1_pay10 a b)) (fun a b x => lane_mul a b _ _ x)
        (k1_off15 k) (k1_off15_eq k) (k1_off15_inb k) k1_pay12 (fun a b x => lane_mul a b _ _ x)
        (k1_off16 k) (k1_off16_eq k) (k1_off16_inb k) k1_pay13 (fun a b x => lane_mul a b _ _ x)
        (k1_off17 k) (k1_off17_eq k) (k1_off17_inb k) (fun a b => k1_pay32 (k1_pay14 a b)) (fun a b x => lane_mul a b _ _ x)
        (k1_off18 k) (k1_off18_eq k) (k1_off18_inb k) k1_pay33 (fun a b x => lane_mul a b _ _ x)
        (k1_off19 k) (k1_off19_eq k) (k1_off19_inb k) k1_pay34 (fun a b x => lane_mul a b _ _ x))) $$ H1
    sl_step
    isplitl [H1]
    · iexact H1
    · iexact H0
  · unfold invL
    rw [rowsDone_zero]
    isplitl [Hs2'_2]
    · iexact Hs2'_2
    · iexact Hs3'_2
  iintro %_ HI
  unfold invL
  icases HI with ⟨Hs2'_2, Hs3'_2⟩
  ihave Hs2'_2 := (pts_conv (slot_rest1 sR1) (fun i _ => rfl)) $$ Hs2'_2
  ihave Hs3'_2 := (pts_conv (slot_rest1 sR0) (fun i _ => rfl)) $$ Hs3'_2
  ihave Hs2'_2 := (Entails.of_eq (own1 (F := F) d L sR1 _)) $$ Hs2'_2
  ihave Hs3'_2 := (Entails.of_eq (own1 (F := F) d L sR0 _)) $$ Hs3'_2
  sl_exec
  -- chunk 2's rows have landed in slot 2 of each ring buffer
  sl_unfold_run_names
  ihave Hs2'_2 := (pts_conv rfl (landA2 m prodC hpre d L 2 _ _ 256 rfl _ _ _)) $$ Hs2'_2
  ihave Hs3'_3 := (pts_conv rfl (landB2 m recipC hpre d L 2 _ _ 256 rfl _ _ _)) $$ Hs3'_3
  ihave Hs2'_2 := (pts_conv (slot_rest2 sR1).symm (fun i _ => rfl)) $$ Hs2'_2
  ihave Hs3'_3 := (pts_conv (slot_rest2 sR0).symm (fun i _ => rfl)) $$ Hs3'_3
  sl_for (invL d L (((sR1).view.set \ (slot0M sR1).view.set) \ (slot1M sR1).view.set) (((sR0).view.set \ (slot0M sR0).view.set) \ (slot1M sR0).view.set) (gathA m prodC d L 2) (gathB m recipC d L 2)) $$ [Hs2'_2 Hs3'_3]
  case region =>
    intro k _
    unfold invL
    iintro ⟨H1, H0⟩
    sl_exec
    sl_unfold_run_names
    ihave H1 := (pts_conv (ℓ := (sR1).view.loc (V d (cV L) (jV L))) (S := (((sR1).view.set \ (slot0M sR1).view.set) \ (slot1M sR1).view.set)) (f' := rowsDone (k.val + 1) (gathA m prodC d L 2) (gathB m recipC d L 2)) rfl
      (rows_step 2 k.val k.isLt (gathA m prodC d L 2) (gathB m recipC d L 2) (((sR1).view.set \ (slot0M sR1).view.set) \ (slot1M sR1).view.set)
        (fun i hi => (mem_slot2_sR1 i).mp (rest_slot2 hi))
        (k1_off20 k) (k1_off20_eq k) (k1_off20_inb k) k1_pay15 (fun a b x => lane_mul a b _ _ x)
        (k1_off21 k) (k1_off21_eq k) (k1_off21_inb k) k1_pay16 (fun a b x => lane_mul a b _ _ x)
        (k1_off22 k) (k1_off22_eq k) (k1_off22_inb k) (fun a b => k1_pay18 (k1_pay17 a b)) (fun a b x => lane_mul a b _ _ x)
        (k1_off23 k) (k1_off23_eq k) (k1_off23_inb k) k1_pay19 (fun a b x => lane_mul a b _ _ x)
        (k1_off24 k) (k1_off24_eq k) (k1_off24_inb k) k1_pay20 (fun a b x => lane_mul a b _ _ x)
        (k1_off25 k) (k1_off25_eq k) (k1_off25_inb k) (fun a b => k1_pay35 (k1_pay21 a b)) (fun a b x => lane_mul a b _ _ x)
        (k1_off26 k) (k1_off26_eq k) (k1_off26_inb k) k1_pay36 (fun a b x => lane_mul a b _ _ x)
        (k1_off27 k) (k1_off27_eq k) (k1_off27_inb k) k1_pay37 (fun a b x => lane_mul a b _ _ x))) $$ H1
    sl_step
    isplitl [H1]
    · iexact H1
    · iexact H0
  · unfold invL
    rw [rowsDone_zero]
    isplitl [Hs2'_2]
    · iexact Hs2'_2
    · iexact Hs3'_3
  iintro %_ HI
  unfold invL
  icases HI with ⟨Hs2'_2, Hs3'_3⟩
  ihave Hs2'_2 := (pts_conv (slot_rest2 sR1) (fun i _ => rfl)) $$ Hs2'_2
  ihave Hs3'_3 := (pts_conv (slot_rest2 sR0) (fun i _ => rfl)) $$ Hs3'_3
  ihave Hs2'_2 := (Entails.of_eq (own2 (F := F) d L sR1 _)) $$ Hs2'_2
  ihave Hs3'_3 := (Entails.of_eq (own2 (F := F) d L sR0 _)) $$ Hs3'_3
  sl_exec
  -- chunk 3's rows have landed in slot 0 of each ring buffer
  sl_unfold_run_names
  ihave Hs2' := (pts_conv rfl (landA0w m prodC hpre d L 3 _ _ 384 rfl _ _ _)) $$ Hs2'
  ihave Hs3' := (pts_conv rfl (landB0w m recipC hpre d L 3 _ _ 384 rfl _ _ _)) $$ Hs3'
  ihave Hs2' := (Entails.of_eq (own0 (F := F) d L sR1 _).symm) $$ Hs2'
  ihave Hs3' := (Entails.of_eq (own0 (F := F) d L sR0 _).symm) $$ Hs3'
  ihave Hs2' := (pts_conv (slot_rest0 sR1).symm (fun i _ => rfl)) $$ Hs2'
  ihave Hs3' := (pts_conv (slot_rest0 sR0).symm (fun i _ => rfl)) $$ Hs3'
  sl_for (invL d L (((sR1).view.set \ (slot1M sR1).view.set) \ (slot2M sR1).view.set) (((sR0).view.set \ (slot1M sR0).view.set) \ (slot2M sR0).view.set) (gathA m prodC d L 3) (gathB m recipC d L 3)) $$ [Hs2' Hs3']
  case region =>
    intro k _
    unfold invL
    iintro ⟨H1, H0⟩
    sl_exec
    sl_unfold_run_names
    ihave H1 := (pts_conv (ℓ := (sR1).view.loc (V d (cV L) (jV L))) (S := (((sR1).view.set \ (slot1M sR1).view.set) \ (slot2M sR1).view.set)) (f' := rowsDone (k.val + 1) (gathA m prodC d L 3) (gathB m recipC d L 3)) rfl
      (rows_step 0 k.val k.isLt (gathA m prodC d L 3) (gathB m recipC d L 3) (((sR1).view.set \ (slot1M sR1).view.set) \ (slot2M sR1).view.set)
        (fun i hi => (mem_slot0_sR1 i).mp (rest_slot0 hi))
        (k1_off28 k) (k1_off28_eq k) (k1_off28_inb k) k1_pay22 (fun a b x => lane_mul a b _ _ x)
        (k1_off29 k) (k1_off29_eq k) (k1_off29_inb k) k1_pay23 (fun a b x => lane_mul a b _ _ x)
        (k1_off30 k) (k1_off30_eq k) (k1_off30_inb k) (fun a b => k1_pay25 (k1_pay24 a b)) (fun a b x => lane_mul a b _ _ x)
        (k1_off31 k) (k1_off31_eq k) (k1_off31_inb k) k1_pay26 (fun a b x => lane_mul a b _ _ x)
        (k1_off32 k) (k1_off32_eq k) (k1_off32_inb k) k1_pay27 (fun a b x => lane_mul a b _ _ x)
        (k1_off33 k) (k1_off33_eq k) (k1_off33_inb k) (fun a b => k1_pay38 (k1_pay28 a b)) (fun a b x => lane_mul a b _ _ x)
        (k1_off34 k) (k1_off34_eq k) (k1_off34_inb k) k1_pay39 (fun a b x => lane_mul a b _ _ x)
        (k1_off35 k) (k1_off35_eq k) (k1_off35_inb k) k1_pay40 (fun a b x => lane_mul a b _ _ x))) $$ H1
    sl_step
    isplitl [H1]
    · iexact H1
    · iexact H0
  · unfold invL
    rw [rowsDone_zero]
    isplitl [Hs2']
    · iexact Hs2'
    · iexact Hs3'
  iintro %_ HI
  unfold invL
  icases HI with ⟨Hs2', Hs3'⟩
  ihave Hs2' := (pts_conv (slot_rest0 sR1) (fun i _ => rfl)) $$ Hs2'
  ihave Hs3' := (pts_conv (slot_rest0 sR0) (fun i _ => rfl)) $$ Hs3'
  ihave Hs2' := (Entails.of_eq (own0 (F := F) d L sR1 _)) $$ Hs2'
  ihave Hs3' := (Entails.of_eq (own0 (F := F) d L sR0 _)) $$ Hs3'
  sl_exec
  -- the four blocks of the result hold the products
  sl_unfold_run_names
  ihave Hm0' := (pts_conv (ℓ := (chunkM L 0).view.loc (V d (cV L) (jV L))) (S := chunkSet L 0) (f' := msgC m prodC recipC d) rfl
    (scat0 m prodC recipC hpre d L 0 (rowsDone (Scf.trips k1_t1_loop.lb k1_t1_loop.ub k1_t1_loop.st) (gathA m prodC d L 0) (gathB m recipC d L 0)) _
      (fun j _ => rowsDone_full (gathA m prodC d L 0) (gathB m recipC d L 0) j))) $$ Hm0'
  ihave Hm1' := (pts_conv (ℓ := (chunkM L 1).view.loc (V d (cV L) (jV L))) (S := chunkSet L 1) (f' := msgC m prodC recipC d) rfl
    (scat1 m prodC recipC hpre d L 1 (rowsDone (Scf.trips k1_t2_loop.lb k1_t2_loop.ub k1_t2_loop.st) (gathA m prodC d L 1) (gathB m recipC d L 1)) _
      (fun j _ => rowsDone_full (gathA m prodC d L 1) (gathB m recipC d L 1) j))) $$ Hm1'
  ihave Hm2' := (pts_conv (ℓ := (chunkM L 2).view.loc (V d (cV L) (jV L))) (S := chunkSet L 2) (f' := msgC m prodC recipC d) rfl
    (scat2 m prodC recipC hpre d L 2 (rowsDone (Scf.trips k1_t3_loop.lb k1_t3_loop.ub k1_t3_loop.st) (gathA m prodC d L 2) (gathB m recipC d L 2)) _
      (fun j _ => rowsDone_full (gathA m prodC d L 2) (gathB m recipC d L 2) j))) $$ Hm2'
  ihave Hm3' := (pts_conv (ℓ := (chunkM L 3).view.loc (V d (cV L) (jV L))) (S := chunkSet L 3) (f' := msgC m prodC recipC d) rfl
    (scat0 m prodC recipC hpre d L 3 (rowsDone (Scf.trips k1_t4_loop.lb k1_t4_loop.ub k1_t4_loop.st) (gathA m prodC d L 3) (gathB m recipC d L 3)) _
      (fun j _ => rowsDone_full (gathA m prodC d L 3) (gathB m recipC d L 3) j))) $$ Hm3'
  ihave Hm0 := (Entails.of_eq (pts_chunk (F := F) d L 0 _)) $$ Hm0'
  ihave Hm1 := (Entails.of_eq (pts_chunk (F := F) d L 1 _)) $$ Hm1'
  ihave Hm2 := (Entails.of_eq (pts_chunk (F := F) d L 2 _)) $$ Hm2'
  ihave Hm3 := (Entails.of_eq (pts_chunk (F := F) d L 3 _)) $$ Hm3'
  ihave Hp8 := (Entails.of_eq (pts_pV (F := F) d L _ _)) $$ Hp8'
  ihave Hp9 := (Entails.of_eq (pts_pV (F := F) d L _ _)) $$ Hp9'
  ihave Hp10 := (Entails.of_eq (pts_pV (F := F) d L _ _)) $$ Hp10'
  ihave Hr11 := (Entails.of_eq (pts_rV (F := F) d L _ _)) $$ Hr11'
  ihave Hr12 := (Entails.of_eq (pts_rV (F := F) d L _ _)) $$ Hr12'
  ihave Hr13 := (Entails.of_eq (pts_rV (F := F) d L _ _)) $$ Hr13'
  ihave He := (Entails.of_eq (pts_eV (F := F) d L _ _)) $$ He'
  sl_step
  isplitl [HpD Hp10 Hp9 Hp8 HpR HrD Hr13 Hr12 Hr11 HrR He Hm0 Hm1 Hm2 Hm3]
  · isplitl [HpD Hp10 Hp9 Hp8 HpR]
    ·
      isplitl [HpD]; · iexact HpD
      isplitl [Hp10]; · iexact Hp10
      isplitl [Hp9]; · iexact Hp9
      isplitl [Hp8]; · iexact Hp8
      iexact HpR
    isplitl [HrD Hr13 Hr12 Hr11 HrR]
    ·
      isplitl [HrD]; · iexact HrD
      isplitl [Hr13]; · iexact Hr13
      isplitl [Hr12]; · iexact Hr12
      isplitl [Hr11]; · iexact Hr11
      iexact HrR
    isplitl [He]; · iexact He
    isplitl [Hm0]; · iexact Hm0
    isplitl [Hm1]; · iexact Hm1
    isplitl [Hm2]; · iexact Hm2
    iexact Hm3
  isplitl [Hs0' Hs1' Hs2' Hs2'_2 Hs2'_2_2 Hs3' Hs3'_2 Hs3'_3 Hbufs]
  · isplitr [Hbufs]
    · isplitl [Hs0']
      · iexists _; iapply (Entails.of_eq (pts_sI1 (F := F) d L _)); iexact Hs0'
      isplitl [Hs1']
      · iexists _; iapply (Entails.of_eq (pts_sI0 (F := F) d L _)); iexact Hs1'
      isplitl [Hs2' Hs2'_2 Hs2'_2_2]
      · iapply (ring_back1 (F := F) d L _ _ _)
        isplitl [Hs2']; · iexact Hs2'
        isplitl [Hs2'_2]; · iexact Hs2'_2
        iexact Hs2'_2_2
      · iapply (ring_back0 (F := F) d L _ _ _)
        isplitl [Hs3']; · iexact Hs3'
        isplitl [Hs3'_2]; · iexact Hs3'_2
        iexact Hs3'_3
    · iexact Hbufs
  isplitl [H4 H5 H6 H7 H8 H9 H10 H11 H12 Hc0 Hc1 Hsems]
  · isplitr [Hsems]
    ·
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [Hc0]; · iexact Hc0
      iexact Hc1
    · iexact Hsems
  iexists _; isplitr
  rotate_left
  · iexact HO
  · ipureintro
    repeat (first | exact fun p hp => Or.inl hp | refine ins_ok rfl ?_)

end Cert.KernelIdeal.Sc

end
-- ==== Proof.ScObl.lean ====
/-
  The launch theorem's obligations for the vector subcores' kernel: each task, and how a SparseCore's operands split
  among its vector subcores.
-/
import proofs.«208470_g86148454023375_cont_sun_c4_654_45_alg».proof.Proof.ScBody

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type}

local notation "𝕄" => MT nD τ sig (HIx 1) (Elt F) ℕ UU ℕ

variable [FloatOps F]
variable (m : (ℓ : Loc nD τ sig) → Buf (Elt F) ℓ) (prodC recipC : (⟨S4096x128, .f32⟩ : BufTy).Contents (Elt F))

theorem defs₀_vector (c : Fin τ.nSC) (s : Fin τ.nSub) :
    defs₀ (F := F) (.scVector c s) 1 ()
      = SparseCore.onTile hcore1 hsub1 (fun c s => cc1_k (coordsV c s)
            (Memref.whole main_v1_0_scv) (Memref.isWhole_whole _) (Memref.whole main_v1_1_scv) (Memref.isWhole_whole _)
            (Memref.whole main_arg3_scv) (Memref.isWhole_whole _) (Memref.whole main_v2_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scratch4 cc1_scratch5 cc1_scratch6 cc1_scratch7 cc1_scratch8 cc1_scratch9 cc1_scratch10 cc1_scratch11 cc1_scratch12 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call. -/
theorem tileObl (hpre : PreOK m) : (K (F := F)).TileObl (D (F := F)) 𝒱 (P m prodC recipC) v₀ 0 := by
  intro d c i O W hO _ _
  simp only [show (P m prodC recipC).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m prodC recipC facts hpre d (coordsV ⟨_, hc.1⟩ ⟨_, hc.2⟩) O W hO).trans (wp_mono frame _ _ fun _ => obl_post)

omit [FloatOps F] in
theorem cL_Lcs (c : Fin 2) (s : Fin 16) : cL (Lcs c s) = c := rfl
omit [FloatOps F] in
theorem sL_Lcs (c : Fin 2) (s : Fin 16) : sL (Lcs c s) = s := rfl

/-- A SparseCore's operands are its vector subcores' operands. -/
theorem core_split (d : Dev nD) (c : Fin 2) :
    coreSt m prodC recipC d c = bigSep Finset.univ fun s : Fin 16 => tileGo m prodC recipC d (Lcs c s) := by
  unfold coreSt tileGo
  rw [bigSep_sep', bigSep_sep', bigSep_sep']
  simp only [cL_Lcs, sL_Lcs]
  rw [share16, share16, share16]

/-- A SparseCore's results are its vector subcores' results. -/
theorem core_join (d : Dev nD) (c : Fin 2) :
    coreDn m prodC recipC d c = bigSep Finset.univ fun s : Fin 16 => tileTd m prodC recipC d (Lcs c s) := by
  unfold coreDn tileTd
  rw [bigSep_sep', bigSep_sep', bigSep_sep']
  simp only [cL_Lcs, sL_Lcs]
  rw [share16, share16, share16]

/-- A SparseCore's operands split among its sixteen vector subcores, and their results gather. -/
theorem vecSplit : (K (F := F)).VecSplit' (P m prodC recipC) 0 := by
  intro d c
  show coreSt m prodC recipC d (Fin.cast nCore_zero c) ⊢ |={Set.univ}=> iprop(
      (bigSep Finset.univ fun i : Fin ((K (F := F)).nSub 0) => tileGo m prodC recipC d (Lcs (Fin.cast nCore_zero c) (Fin.cast nSub_zero i)))
      ∗ ((bigSep Finset.univ fun i : Fin ((K (F := F)).nSub 0) => tileTd m prodC recipC d (Lcs (Fin.cast nCore_zero c) (Fin.cast nSub_zero i)))
          -∗ coreDn m prodC recipC d (Fin.cast nCore_zero c)))
  rw [bigSep_subs (fun s => tileGo m prodC recipC d (Lcs (Fin.cast nCore_zero c) s)),
    bigSep_subs (fun s => tileTd m prodC recipC d (Lcs (Fin.cast nCore_zero c) s)), core_split, core_join]
  iintro H; imodintro
  isplitl [H]; · iexact H
  iintro H; iexact H

end Cert.KernelIdeal.Sc

end
-- ==== Proof.Run.lean ====
/-
  The program's run: every weakly fair execution of the device's threads terminates, nothing faulting, with the result
  array at the composed value of the argument arrays and the arguments as they were.
-/
import proofs.«208470_g86148454023375_cont_sun_c4_654_45_alg».proof.Proof.Main
import proofs.«208470_g86148454023375_cont_sun_c4_654_45_alg».proof.Proof.ScObl

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- The run's post: the result array at `o`, the seven arguments as launched. -/
def QC (o : (d : Dev nD) → Buf (Elt F) (aLoc d main_v4)) : PUnit × MemSt nD τ sig (Elt F) → Prop := fun r => ∀ c : Dev nD,
  r.2.mem (aLoc c main_v4) = o c ∧ r.2.mem (aLoc c main_arg0) = m (aLoc c main_arg0) ∧ r.2.mem (aLoc c main_arg1) = m (aLoc c main_arg1) ∧ r.2.mem (aLoc c main_arg2) = m (aLoc c main_arg2)
    ∧ r.2.mem (aLoc c main_arg3) = m (aLoc c main_arg3) ∧ r.2.mem (aLoc c main_arg4) = m (aLoc c main_arg4) ∧ r.2.mem (aLoc c main_arg5) = m (aLoc c main_arg5) ∧ r.2.mem (aLoc c main_arg6) = m (aLoc c main_arg6)

variable {prodV : (⟨S1x1, .f32⟩ : BufTy).Contents (Elt F) → (⟨S4096x256, .f32⟩ : BufTy).Contents (Elt F) → (⟨S256x128, .f32⟩ : BufTy).Contents (Elt F) → (⟨S4096x128, .f32⟩ : BufTy).Contents (Elt F)}
  {recipV : (⟨S1x1, .f32⟩ : BufTy).Contents (Elt F) → (⟨S4096x256, .f32⟩ : BufTy).Contents (Elt F) → (⟨S256x128, .f32⟩ : BufTy).Contents (Elt F) → (⟨S4096x4096, .f32⟩ : BufTy).Contents (Elt F) → (⟨S4096x128, .f32⟩ : BufTy).Contents (Elt F)}
  {outV : (⟨S4096x16384, .f32⟩ : BufTy).Contents (Elt F) → (⟨S16384x128, .f32⟩ : BufTy).Contents (Elt F) → (⟨S1x128, .f32⟩ : BufTy).Contents (Elt F) → (⟨S4096x128, .f32⟩ : BufTy).Contents (Elt F)}

theorem run_main [∀ e, Nonempty (Elt F e)] (h0 : Region0Spec (F := F) prodV recipV) (h2 : Region2Spec (F := F) outV) (hpre : PreOK m) :
    θ_run (Cert.KernelIdeal.defs (F := F)) (Cert.KernelIdeal.threads (F := F)) ⟨m, fun _ => 0, ρ⟩ (QC m (outCv m prodV recipV outV)) :=
  SparseCore.Cfg.θ_run_sc (K := K (F := F)) (D := D (F := F)) (𝒱 := 𝒱) (EH := EH) (P := P m (prodCv m prodV 0) (recipCv m recipV 0)) facts v₀
    (fun q hq => match q with | 0 => nomatch hq)
    (fun q _ => match q with | 0 => tileObl m (prodCv m prodV 0) (recipCv m recipV 0) hpre)
    (fun q _ => match q with | 0 => SparseCore.Cfg.VecSplit.of_plain (vecSplit m (prodCv m prodV 0) (recipCv m recipV 0)))
    m ρ main (G (F := F)) (FIN m (outCv m prodV recipV outV)) (u₀ (F := F))
    (sep_elim_left.trans (hu₀ (P m (prodCv m prodV 0) (recipCv m recipV 0)) (fun _ _ => rfl)))
    (hmain m ρ h0 h2) (fq m (outCv m prodV recipV outV)) (hfin m (outCv m prodV recipV outV)) (QC m (outCv m prodV recipV outV)) (fun _ h => h)

end Cert.KernelIdeal.Sc

end
-- ==== Proof.ScSetupK.lean ====
/-
  The program as the SparseCore launch theorem sees it, and the resource algebra the whole proof is carried in:
  the launch handshakes' rounds, the TensorCore pipelines' staging cells' rounds, and the counters of the vector
  subcores' own transfers, side by side.
-/
import proofs.«208470_g86148454023375_cont_sun_c4_654_45_alg».proof.Defs
import proofs.«208470_g86148454023375_cont_sun_c4_654_45_alg».proof.Proof.Gen.Kernel
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.Kernel.Sc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP [FloatOps F] : Labels := Pipeline.Sig Λ₀ (Fin 2) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelines' staging cells' rounds. -/
abbrev UP : Type := UR sig nD τ
/-- Handshakes, beside staging cells, beside the transfers' counters. -/
abbrev UU : Type := UH × (UP × Counters)

/-- The handshakes' component. -/
abbrev EH : Emb UH (MT nD τ sig (HIx 1) (Elt F) ℕ UU ℕ) := embL
/-- The staging cells' component. -/
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP embR; infer_instance

end Cert.Kernel.Sc

end
-- ==== Proof.MainArraysK.lean ====
/-
  @main on the TensorCore, piece by piece: the arrays it holds between the launches, the two reshapes as host
  operations over them, and how the final memory reads the claim.
-/
import proofs.«208470_g86148454023375_cont_sun_c4_654_45_alg».proof.Proof.ScSetupK

noncomputable section

namespace Cert.Kernel.Sc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The TensorCore's arrays -/

abbrev aLoc (d : Dev nD) (b : Ref sig .tc) : Loc nD τ sig := (SparseCore.T d).loc b

abbrev r_arg0 : DevRef τ sig := Proc.devRef .tc (main_arg0 : Ref sig .tc)
abbrev r_arg1 : DevRef τ sig := Proc.devRef .tc (main_arg1 : Ref sig .tc)
abbrev r_arg2 : DevRef τ sig := Proc.devRef .tc (main_arg2 : Ref sig .tc)
abbrev r_arg3 : DevRef τ sig := Proc.devRef .tc (main_arg3 : Ref sig .tc)
abbrev r_arg4 : DevRef τ sig := Proc.devRef .tc (main_arg4 : Ref sig .tc)
abbrev r_arg5 : DevRef τ sig := Proc.devRef .tc (main_arg5 : Ref sig .tc)
abbrev r_arg6 : DevRef τ sig := Proc.devRef .tc (main_arg6 : Ref sig .tc)
abbrev r_v0 : DevRef τ sig := Proc.devRef .tc (main_v0 : Ref sig .tc)
abbrev r_v1_0 : DevRef τ sig := Proc.devRef .tc (main_v1_0 : Ref sig .tc)
abbrev r_v1_1 : DevRef τ sig := Proc.devRef .tc (main_v1_1 : Ref sig .tc)
abbrev r_v2 : DevRef τ sig := Proc.devRef .tc (main_v2 : Ref sig .tc)
abbrev r_v3 : DevRef τ sig := Proc.devRef .tc (main_v3 : Ref sig .tc)
abbrev r_v4 : DevRef τ sig := Proc.devRef .tc (main_v4 : Ref sig .tc)

/-- Every unscoped array of the TensorCore: the seven arguments and the six values of @main. -/
abbrev SAll : Finset (DevRef τ sig) := {r_arg0, r_arg1, r_arg2, r_arg3, r_arg4, r_arg5, r_arg6, r_v0, r_v1_0, r_v1_1, r_v2, r_v3, r_v4}

theorem unscoped_filter : (Finset.univ.filter fun b : Ref sig .tc => ¬ b.isScoped) = {main_arg0, main_arg1, main_arg2, main_arg3, main_arg4, main_arg5, main_arg6, main_v0, main_v1_0, main_v1_1, main_v2, main_v3, main_v4} := by decide

/-- The TensorCore's unscoped arrays, one by one. -/
theorem unscopedBufs_eq (d : Dev nD) (W : (b : Ref sig .tc) → Buf (Elt F) ((d.tc : Thread nD τ).loc b)) :
    (unscopedBufs d W : sProp 𝕄) = iprop((aLoc d main_arg0 ↦{fullShare} W main_arg0) ∗ (aLoc d main_arg1 ↦{fullShare} W main_arg1) ∗ (aLoc d main_arg2 ↦{fullShare} W main_arg2)
      ∗ (aLoc d main_arg3 ↦{fullShare} W main_arg3) ∗ (aLoc d main_arg4 ↦{fullShare} W main_arg4) ∗ (aLoc d main_arg5 ↦{fullShare} W main_arg5) ∗ (aLoc d main_arg6 ↦{fullShare} W main_arg6)
      ∗ (aLoc d main_v0 ↦{fullShare} W main_v0) ∗ (aLoc d main_v1_0 ↦{fullShare} W main_v1_0) ∗ (aLoc d main_v1_1 ↦{fullShare} W main_v1_1) ∗ (aLoc d main_v2 ↦{fullShare} W main_v2)
      ∗ (aLoc d main_v3 ↦{fullShare} W main_v3) ∗ aLoc d main_v4 ↦{fullShare} W main_v4) := by
  unfold unscopedBufs
  rw [unscoped_filter, SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! ## What @main leaves the claim -/

/-- The seven arguments at their launch contents and the result array at `o`. -/
def FIN (o : (d : Dev nD) → Buf (Elt F) (aLoc d main_v4)) (d : Dev nD) : sProp 𝕄 :=
  iprop((aLoc d main_v4 ↦{fullShare} o d) ∗ (aLoc d main_arg0 ↦{fullShare} m (aLoc d main_arg0)) ∗ (aLoc d main_arg1 ↦{fullShare} m (aLoc d main_arg1)) ∗ (aLoc d main_arg2 ↦{fullShare} m (aLoc d main_arg2))
    ∗ (aLoc d main_arg3 ↦{fullShare} m (aLoc d main_arg3)) ∗ (aLoc d main_arg4 ↦{fullShare} m (aLoc d main_arg4)) ∗ (aLoc d main_arg5 ↦{fullShare} m (aLoc d main_arg5)) ∗ aLoc d main_arg6 ↦{fullShare} m (aLoc d main_arg6))

def fq (o : (d : Dev nD) → Buf (Elt F) (aLoc d main_v4)) (d : Dev nD) (s' : Phys nD τ sig (Elt F)) : Prop :=
  s'.mem.mem (aLoc d main_v4) = o d ∧ s'.mem.mem (aLoc d main_arg0) = m (aLoc d main_arg0) ∧ s'.mem.mem (aLoc d main_arg1) = m (aLoc d main_arg1) ∧ s'.mem.mem (aLoc d main_arg2) = m (aLoc d main_arg2)
    ∧ s'.mem.mem (aLoc d main_arg3) = m (aLoc d main_arg3) ∧ s'.mem.mem (aLoc d main_arg4) = m (aLoc d main_arg4) ∧ s'.mem.mem (aLoc d main_arg5) = m (aLoc d main_arg5) ∧ s'.mem.mem (aLoc d main_arg6) = m (aLoc d main_arg6)

/-- A whole array held at `f` beside the state interpretation: the memory holds `f` there (and the state interpretation is kept). -/
theorem agree_keep (s' : Phys nD τ sig (Elt F)) (ℓ : Loc nD τ sig) (f : Buf (Elt F) ℓ) :
    iprop(SI s' ∗ (ℓ ↦{fullShare} f : sProp 𝕄)) ⊢ iprop(⌜s'.mem.mem ℓ = f⌝ ∗ SI s') := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

theorem hfin (o : (d : Dev nD) → Buf (Elt F) (aLoc d main_v4)) (d : Dev nD) (s' : Phys nD τ sig (Elt F)) : iprop(FIN m o d ∗ SI s') ⊢ (⌜fq m o d s'⌝ : sProp 𝕄) := by
  unfold FIN
  iintro ⟨⟨H4, H0, H1, H2, H3, Ha4, H5, H6⟩, HSI⟩
  ihave X := (agree_keep s' _ _) $$ [HSI H4]; · isplitl [HSI] <;> iassumption
  icases X with ⟨%h4, HSI⟩
  ihave X := (agree_keep s' _ _) $$ [HSI H0]; · isplitl [HSI] <;> iassumption
  icases X with ⟨%h0, HSI⟩
  ihave X := (agree_keep s' _ _) $$ [HSI H1]; · isplitl [HSI] <;> iassumption
  icases X with ⟨%h1, HSI⟩
  ihave X := (agree_keep s' _ _) $$ [HSI H2]; · isplitl [HSI] <;> iassumption
  icases X with ⟨%h2, HSI⟩
  ihave X := (agree_keep s' _ _) $$ [HSI H3]; · isplitl [HSI] <;> iassumption
  icases X with ⟨%h3, HSI⟩
  ihave X := (agree_keep s' _ _) $$ [HSI Ha4]; · isplitl [HSI] <;> iassumption
  icases X with ⟨%ha4, HSI⟩
  ihave X := (agree_keep s' _ _) $$ [HSI H5]; · isplitl [HSI] <;> iassumption
  icases X with ⟨%h5, HSI⟩
  ihave X := (agree_keep s' _ _) $$ [HSI H6]; · isplitl [HSI] <;> iassumption
  icases X with ⟨%h6, -⟩
  ipureintro; exact ⟨h4, h0, h1, h2, h3, ha4, h5, h6⟩

end Cert.Kernel.Sc

end
-- ==== Proof.MainStepsK.lean ====
/-
  The two reshapes of @main as steps of the TensorCore's proof: each reads one argument array and fills one value array
  with its elements at the new shape, everything else as it was.
-/
import proofs.«208470_g86148454023375_cont_sun_c4_654_45_alg».proof.Proof.MainArraysK

noncomputable section

namespace Cert.Kernel.Sc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ)

/-- The launch valuation of device `d`. -/
def V0 (d : Dev nD) : Valuation τ sig (Elt F) := fun b => m (d, b)

/-- The scalar parameter as a one-by-one array. -/
def p11Of (a : (⟨S1, .f32⟩ : BufTy).Contents (Elt F)) : (⟨S1x1, .f32⟩ : BufTy).Contents (Elt F) := shapeCast S1x1 a shapeCasts_S1_S1x1
/-- The bias vector as a one-row array. -/
def b1Of (a : (⟨S128, .f32⟩ : BufTy).Contents (Elt F)) : (⟨S1x128, .f32⟩ : BufTy).Contents (Elt F) := shapeCast S1x128 a shapeCasts_S128_S1x128

abbrev opR0 : HloOp τ sig (Elt F) := StableHlo.reshape main_arg4 main_v0 rfl shapeCasts_S1_S1x1
abbrev opR3 : HloOp τ sig (Elt F) := StableHlo.reshape main_arg6 main_v3 rfl shapeCasts_S128_S1x128

include m in
theorem reshape0_step {Λ : Labels} {defs : Defs nD τ sig (Elt F) Λ} (𝒱' : Variants) (d : Dev nD) (a : Buf (Elt F) (aLoc d main_arg4)) (f : Buf (Elt F) (aLoc d main_v0))
    (Q : PUnit → sProp 𝕄) :
    iprop(boundary (T d) ∗ (aLoc d main_arg4 ↦{fullShare} a) ∗ (aLoc d main_v0 ↦{fullShare} f))
      ⊢ iprop(((boundary (T d) ∗ (aLoc d main_arg4 ↦{fullShare} a) ∗ (aLoc d main_v0 ↦{fullShare} (p11Of a : Buf (Elt F) (aLoc d main_v0)))) -∗ wp frame (wpE defs 𝒱' (T d) none) Set.univ (.ret PUnit.unit) Q)
          -∗ wp frame (wpE defs 𝒱' (T d) none) Set.univ (hlo (p := .tc) rfl (opR0 (F := F)) (fun _ => .ret PUnit.unit)) Q) := by
  have hne : (r_arg4 : DevRef τ sig) ≠ r_v0 := by decide
  let W : Valuation τ sig (Elt F) := Function.update (Function.update (V0 m d) r_arg4 a) r_v0 f
  have hWx : W r_arg4 = a := (Function.update_of_ne hne _ _).trans (Function.update_self _ _ _)
  have hWy : W r_v0 = f := Function.update_self _ _ _
  have hS : (opR0 (F := F)).bufs ⊆ ({r_arg4, r_v0} : Finset (DevRef τ sig)) := Finset.Subset.refl _
  have hheld : ∀ W' : Valuation τ sig (Elt F), (held (T d) ({r_arg4, r_v0} : Finset (DevRef τ sig)) W' : sProp 𝕄)
      = iprop((aLoc d main_arg4 ↦{fullShare} W' r_arg4) ∗ (aLoc d main_v0 ↦{fullShare} W' r_v0)) := by
    intro W'
    unfold held
    rw [SparseCore.bigSep_insert' (by decide), bigSep_singleton]
  have hrx : (opR0 (F := F)).result W r_arg4 = a :=
    ((opR0 (F := F)).result_of_not_mem W (b := r_arg4) (show r_arg4 ∉ ({r_v0} : Finset (DevRef τ sig)) by decide)).trans hWx
  have hry : (opR0 (F := F)).result W r_v0 = (p11Of a : Buf (Elt F) (aLoc d main_v0)) := by
    rw [show (opR0 (F := F)).result W r_v0 = _ from StableHlo.reshape_result _ _ _ _ _ _ W]
    show (fun i => shapeCast _ (W r_arg4) _ i) = _
    rw [hWx]; rfl
  have h := wp_hlo_within (hp := rfl) (defs := defs) 𝒱' (T d) none Set.univ (op := opR0 (F := F)) (S := {r_arg4, r_v0}) hS (V := W) (Q := Q) (k := fun _ => .ret ⟨⟩)
  rw [hheld, hheld, hrx, hry, hWx, hWy] at h
  exact h

include m in
theorem reshape3_step {Λ : Labels} {defs : Defs nD τ sig (Elt F) Λ} (𝒱' : Variants) (d : Dev nD) (a : Buf (Elt F) (aLoc d main_arg6)) (f : Buf (Elt F) (aLoc d main_v3))
    (Q : PUnit → sProp 𝕄) :
    iprop(boundary (T d) ∗ (aLoc d main_arg6 ↦{fullShare} a) ∗ (aLoc d main_v3 ↦{fullShare} f))
      ⊢ iprop(((boundary (T d) ∗ (aLoc d main_arg6 ↦{fullShare} a) ∗ (aLoc d main_v3 ↦{fullShare} (b1Of a : Buf (Elt F) (aLoc d main_v3)))) -∗ wp frame (wpE defs 𝒱' (T d) none) Set.univ (.ret PUnit.unit) Q)
          -∗ wp frame (wpE defs 𝒱' (T d) none) Set.univ (hlo (p := .tc) rfl (opR3 (F := F)) (fun _ => .ret PUnit.unit)) Q) := by
  have hne : (r_arg6 : DevRef τ sig) ≠ r_v3 := by decide
  let W : Valuation τ sig (Elt F) := Function.update (Function.update (V0 m d) r_arg6 a) r_v3 f
  have hWx : W r_arg6 = a := (Function.update_of_ne hne _ _).trans (Function.update_self _ _ _)
  have hWy : W r_v3 = f := Function.update_self _ _ _
  have hS : (opR3 (F := F)).bufs ⊆ ({r_arg6, r_v3} : Finset (DevRef τ sig)) := Finset.Subset.refl _
  have hheld : ∀ W' : Valuation τ sig (Elt F), (held (T d) ({r_arg6, r_v3} : Finset (DevRef τ sig)) W' : sProp 𝕄)
      = iprop((aLoc d main_arg6 ↦{fullShare} W' r_arg6) ∗ (aLoc d main_v3 ↦{fullShare} W' r_v3)) := by
    intro W'
    unfold held
    rw [SparseCore.bigSep_insert' (by decide), bigSep_singleton]
  have hrx : (opR3 (F := F)).result W r_arg6 = a :=
    ((opR3 (F := F)).result_of_not_mem W (b := r_arg6) (show r_arg6 ∉ ({r_v3} : Finset (DevRef τ sig)) by decide)).trans hWx
  have hry : (opR3 (F := F)).result W r_v3 = (b1Of a : Buf (Elt F) (aLoc d main_v3)) := by
    rw [show (opR3 (F := F)).result W r_v3 = _ from StableHlo.reshape_result _ _ _ _ _ _ W]
    show (fun i => shapeCast _ (W r_arg6) _ i) = _
    rw [hWx]; rfl
  have h := wp_hlo_within (hp := rfl) (defs := defs) 𝒱' (T d) none Set.univ (op := opR3 (F := F)) (S := {r_arg6, r_v3}) hS (V := W) (Q := Q) (k := fun _ => .ret ⟨⟩)
  rw [hheld, hheld, hrx, hry, hWx, hWy] at h
  exact h

end Cert.Kernel.Sc

end
-- ==== Proof.LaunchElemK.lean ====
/-
  The launch element of the proof's ghost state: the handshakes' rounds, and beside them the staging cells' rounds of the
  two TensorCore pipelines, funded once at launch and dealt to the TensorCore of each device; the transfers' counters
  start at their unit and are found where a transfer is issued.
-/
import proofs.«208470_g86148454023375_cont_sun_c4_654_45_alg».proof.Proof.ScSetupK
import proofs.«208470_g86148454023375_cont_sun_c4_654_45_alg».proof.Proof.Gen.Kernel.Launch

noncomputable section

namespace Cert.Kernel.Sc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- What the launch deals the TensorCore of `d` for its two pipelines: each one's staging cells' ghost state and the duty
    tokens of the transfers its loop issues. -/
def G (d : Dev nD) : sProp 𝕄 :=
  bigSep Finset.univ fun p : Fin 2 => iprop(Pipeline.cellsGhost cfgs (EP (F := F)) p d ∗ Pipeline.toksInit cfgs (EP (F := F)) p d)

/-- The launch element: the handshake cells' rounds; the staging cells' rounds; the counters' unit. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem bigSep_emp' {I : Type} (s : Finset I) : (bigSep s fun _ => iprop(emp)) = (iprop(emp) : sProp 𝕄) := bigSep_emp_const s

theorem hu₀ (P : (K (F := F)).Pay (nD := nD) (Val := Elt F) (Name := ℕ) (U := UU)) (hx : ∀ q thr, P.x q thr = iprop(emp)) :
    (ownU (u₀ (F := F)) : sProp 𝕄)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 1 => P.x q thr) := by
  unfold u₀
  iintro Hu
  ihave H := (ownU_pair _ _) $$ Hu
  icases H with ⟨HH, HR⟩
  ihave H2 := (own_pair_emb embR _ _) $$ HR
  icases H2 with ⟨HP, -⟩
  have hf := Pipeline.fund_ghost (nD := nD) (τ := τ) (Ix := HIx 1) (Val := Elt F) (Name := ℕ) (Lvl := ℕ) cfgs (EP (F := F)) cellOf_inj
  unfold EP at hf
  imod hf $$ HP with ⟨Hg, Ht⟩
  imodintro
  isplitl [HH]; · iexact HH
  isplitl [Hg Ht]
  · unfold G
    simp only [bigSep_sep']
    isplitl [Hg]; · iexact Hg
    iexact Ht
  · simp only [hx, bigSep_emp']
    iempintro

end Cert.Kernel.Sc

end
-- ==== Proof.ScSpecK.lean ====
/-
  The vector subcores' kernel as ONE pure function of its operands: row t of the result is the lanewise product of
  the row of the first table that the second row of the edge list names at t and the row of the second table that
  the first row of the edge list names at t.
-/
import proofs.«208470_g86148454023375_cont_sun_c4_654_45_alg».proof.Proof.ScSetupK
import Idealize.ShloMosaic.Lib.ValueIdx

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type}

local notation "𝕄" => MT nD τ sig (HIx 1) (Elt F) ℕ UU ℕ

/-- The row a 32-bit word names in a table of 4096 rows (the word itself when it is in range). -/
def rowIx (w : BitVec 32) : Fin 4096 := ⟨w.toNat % 4096, Nat.mod_lt _ (by decide)⟩

theorem rowIx_of_lt {w : BitVec 32} (h : w.toNat < 4096) : rowIx w = ⟨w.toNat, h⟩ :=
  Fin.ext (Nat.mod_eq_of_lt h)

variable [FloatOps F]

/-- The kernel's whole result: entry (t, j) is the product of entry (edge (1, t), j) of the first table and entry
    (edge (0, t), j) of the second. -/
def msgV (prod recip : (⟨S4096x128, .f32⟩ : BufTy).Contents (Elt F)) (edge : (⟨S2x16384, .i32⟩ : BufTy).Contents (Elt F)) :
    (⟨S16384x128, .f32⟩ : BufTy).Contents (Elt F) :=
  fun x => FloatOps.mulf (prod (ix2 (rowIx (edge (ix2 (1 : Fin 2) (x 0)))) (x 1))) (recip (ix2 (rowIx (edge (ix2 (0 : Fin 2) (x 0)))) (x 1)))

/-- The result read at an index, the rows as the in-range words of the edge list. -/
theorem msgV_apply (prod recip : (⟨S4096x128, .f32⟩ : BufTy).Contents (Elt F)) (edge : (⟨S2x16384, .i32⟩ : BufTy).Contents (Elt F))
    (t : Fin 16384) (j : Fin 128) (h1 : (edge (ix2 (1 : Fin 2) t)).toNat < 4096) (h0 : (edge (ix2 (0 : Fin 2) t)).toNat < 4096) :
    msgV prod recip edge (ix2 t j)
      = FloatOps.mulf (prod (ix2 (⟨(edge (ix2 (1 : Fin 2) t)).toNat, h1⟩ : Fin 4096) j)) (recip (ix2 (⟨(edge (ix2 (0 : Fin 2) t)).toNat, h0⟩ : Fin 4096) j)) := by
  unfold msgV
  rw [rowIx_of_lt h1, rowIx_of_lt h0]

/-- Every word of the edge list names a row of the two tables. -/
def PreOK (m : (ℓ : Loc nD τ sig) → Buf (Elt F) ℓ) : Prop :=
  ∀ (d : Dev nD) (x : S2x16384.Idx), (m ((SparseCore.T d).loc main_arg3) x).toNat < 4096

end Cert.Kernel.Sc

end
-- ==== Proof.ScPayK.lean ====
/-
  What the launch handshakes carry for the vector subcores' kernel: each SparseCore is handed a read share of the two
  tables and of the edge list and the rows of the result its vector subcores own; each vector subcore a read share of
  the three and its own four blocks of 128 rows of the result; they come back with the result's rows written.
-/
import proofs.«208470_g86148454023375_cont_sun_c4_654_45_alg».proof.Proof.ScSpecK

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type}

local notation "𝕄" => MT nD τ sig (HIx 1) (Elt F) ℕ UU ℕ

variable [FloatOps F]
variable (m : (ℓ : Loc nD τ sig) → Buf (Elt F) ℓ) (prodC recipC : (⟨S4096x128, .f32⟩ : BufTy).Contents (Elt F))

/-! ## The arrays, as the TensorCore names them -/

abbrev prodLoc (d : Dev nD) : Loc nD τ sig := (SparseCore.T d).loc main_v1_0
abbrev recipLoc (d : Dev nD) : Loc nD τ sig := (SparseCore.T d).loc main_v1_1
abbrev edgeLoc (d : Dev nD) : Loc nD τ sig := (SparseCore.T d).loc main_arg3
abbrev msgLoc (d : Dev nD) : Loc nD τ sig := (SparseCore.T d).loc main_v2

/-- The edge list at the launch. -/
abbrev edgeC (d : Dev nD) : (⟨S2x16384, .i32⟩ : BufTy).Contents (Elt F) := m (edgeLoc d)
/-- The kernel's result on device `d`. -/
abbrev msgC (d : Dev nD) : (⟨S16384x128, .f32⟩ : BufTy).Contents (Elt F) := msgV prodC recipC (edgeC m d)

/-! ## Grid coordinates, read shares, blocks of rows -/

theorem nCore_zero : (K (F := F)).nCore 0 = 2 := rfl
theorem nSub_zero : (K (F := F)).nSub 0 = 16 := rfl
theorem bound_zero : grid1.bound 0 = 2 := rfl
theorem bound_one : grid1.bound 1 = 16 := rfl

/-- A vector subcore's grid coordinates. -/
def coordsV (c : Fin (grid1.bound 0)) (s : Fin (grid1.bound 1)) : grid1.Coords :=
  fun | 0 => c | 1 => s | ⟨_ + 2, h⟩ => absurd h (Nat.not_lt.2 (Nat.le_add_left _ _))

abbrev cL (L : grid1.Coords) : Fin 2 := Fin.cast bound_zero (L 0)
abbrev sL (L : grid1.Coords) : Fin 16 := Fin.cast bound_one (L 1)
abbrev cV (L : grid1.Coords) : Fin τ.nSC := (L 0).castLE hcore1
abbrev jV (L : grid1.Coords) : Fin τ.nSub := (L 1).castLE hsub1

/-- SparseCore `c`'s read share of an array every vector subcore reads whole, -/
def shC (c : Fin 2) : PosShare TreeShare := pieceOf fullShare 2 (by decide) c
/-- and its vector subcore `s`'s. -/
def shT (c : Fin 2) (s : Fin 16) : PosShare TreeShare := pieceOf (shC c) 16 (by decide) s

/-- Block `k` of 128 rows of the result of the vector subcore at `L`, as the kernel slices it. -/
abbrev chunkRect (L : grid1.Coords) (k : Fin 4) : Rect S16384x128 :=
  Rect.unit (s := S16384x128) (k1_off11 L (BitVec.ofNat 32 (128 * k.val))) S128x128.size (k1_off11_inb L k)
abbrev chunkM (L : grid1.Coords) (k : Fin 4) : Memref sig .scVector .hbm S128x128 .f32 :=
  (Memref.whole main_v2_scv : Memref sig .scVector .hbm S16384x128 .f32).slice (chunkRect L k) (fun _ => rfl)
abbrev chunkSet (L : grid1.Coords) (k : Fin 4) : Finset S16384x128.Idx := (chunkM L k).view.set

/-! ## What a vector subcore is handed and hands back -/

/-- The task's operands: a read share of the two tables and of the edge list, the task's four blocks of the result at
    whatever they hold. -/
def tileGo (d : Dev nD) (L : grid1.Coords) : sProp 𝕄 :=
  iprop((prodLoc d ↦{shT (cL L) (sL L)} prodC) ∗ (recipLoc d ↦{shT (cL L) (sL L)} recipC) ∗ (edgeLoc d ↦{shT (cL L) (sL L)} m (edgeLoc d))
    ∗ bigSep Finset.univ fun k : Fin 4 => iprop(∃ f, msgLoc d ↦[chunkSet L k]{fullShare} f))

/-- The task's results: the same shares, the four blocks written. -/
def tileTd (d : Dev nD) (L : grid1.Coords) : sProp 𝕄 :=
  iprop((prodLoc d ↦{shT (cL L) (sL L)} prodC) ∗ (recipLoc d ↦{shT (cL L) (sL L)} recipC) ∗ (edgeLoc d ↦{shT (cL L) (sL L)} m (edgeLoc d))
    ∗ bigSep Finset.univ fun k : Fin 4 => msgLoc d ↦[chunkSet L k]{fullShare} msgC m prodC recipC d)

/-- A SparseCore's operands: its read shares, its vector subcores' blocks of the result. -/
def coreSt (d : Dev nD) (c : Fin 2) : sProp 𝕄 :=
  iprop((prodLoc d ↦{shC c} prodC) ∗ (recipLoc d ↦{shC c} recipC) ∗ (edgeLoc d ↦{shC c} m (edgeLoc d))
    ∗ bigSep Finset.univ fun s : Fin 16 => bigSep Finset.univ fun k : Fin 4 =>
        iprop(∃ f, msgLoc d ↦[chunkSet (coordsV (Fin.cast bound_zero.symm c) (Fin.cast bound_one.symm s)) k]{fullShare} f))

/-- A SparseCore's results. -/
def coreDn (d : Dev nD) (c : Fin 2) : sProp 𝕄 :=
  iprop((prodLoc d ↦{shC c} prodC) ∗ (recipLoc d ↦{shC c} recipC) ∗ (edgeLoc d ↦{shC c} m (edgeLoc d))
    ∗ bigSep Finset.univ fun s : Fin 16 => bigSep Finset.univ fun k : Fin 4 =>
        msgLoc d ↦[chunkSet (coordsV (Fin.cast bound_zero.symm c) (Fin.cast bound_one.symm s)) k]{fullShare} msgC m prodC recipC d)

instance tileGo_storable (d : Dev nD) (L : grid1.Coords) : BI.Storable (upEmb : UEmb _ 𝕄) (tileGo m prodC recipC d L) := by
  unfold tileGo; infer_instance
instance tileTd_storable (d : Dev nD) (L : grid1.Coords) : BI.Storable (upEmb : UEmb _ 𝕄) (tileTd m prodC recipC d L) := by
  unfold tileTd; infer_instance
instance coreSt_storable (d : Dev nD) (c : Fin 2) : BI.Storable (upEmb : UEmb _ 𝕄) (coreSt m prodC recipC d c) := by
  unfold coreSt; infer_instance
instance coreDn_storable (d : Dev nD) (c : Fin 2) : BI.Storable (upEmb : UEmb _ 𝕄) (coreDn m prodC recipC d c) := by
  unfold coreDn; infer_instance

/-- The one call's payloads. The kernel makes local copies only and waits for them itself: nothing is dealt it. -/
def P : (K (F := F)).Pay (nD := nD) (Val := Elt F) (Name := ℕ) (U := UU) where
  st := fun q d c => match q with | 0 => coreSt m prodC recipC d (Fin.cast nCore_zero c)
  dn := fun q d c => match q with | 0 => coreDn m prodC recipC d (Fin.cast nCore_zero c)
  go := fun q d c i => match q with
    | 0 => tileGo m prodC recipC d (coordsV (Fin.cast (nCore_zero.trans bound_zero.symm) c) (Fin.cast (nSub_zero.trans bound_one.symm) i))
  td := fun q d c i => match q with
    | 0 => tileTd m prodC recipC d (coordsV (Fin.cast (nCore_zero.trans bound_zero.symm) c) (Fin.cast (nSub_zero.trans bound_one.symm) i))
  x := fun _ _ => iprop(emp)

instance P_storable : (P (F := F) m prodC recipC).IsStorable where
  st q d c := match q with | 0 => coreSt_storable m prodC recipC d _
  dn q d c := match q with | 0 => coreDn_storable m prodC recipC d _
  go q d c i := match q with | 0 => tileGo_storable m prodC recipC d _
  td q d c i := match q with | 0 => tileTd_storable m prodC recipC d _

theorem P_st (d : Dev nD) (c : Fin ((K (F := F)).nCore 0)) : (P m prodC recipC).st 0 d c = coreSt m prodC recipC d (Fin.cast nCore_zero c) := rfl
theorem P_dn (d : Dev nD) (c : Fin ((K (F := F)).nCore 0)) : (P m prodC recipC).dn 0 d c = coreDn m prodC recipC d (Fin.cast nCore_zero c) := rfl
theorem P_go (d : Dev nD) (c : Fin ((K (F := F)).nCore 0)) (i : Fin ((K (F := F)).nSub 0)) :
    (P m prodC recipC).go 0 d c i
      = tileGo m prodC recipC d (coordsV (Fin.cast (nCore_zero.trans bound_zero.symm) c) (Fin.cast (nSub_zero.trans bound_one.symm) i)) := rfl
theorem P_td (d : Dev nD) (c : Fin ((K (F := F)).nCore 0)) (i : Fin ((K (F := F)).nSub 0)) :
    (P m prodC recipC).td 0 d c i
      = tileTd m prodC recipC d (coordsV (Fin.cast (nCore_zero.trans bound_zero.symm) c) (Fin.cast (nSub_zero.trans bound_one.symm) i)) := rfl
theorem P_x (q : Fin 1) (thr : Thread nD τ) : (P m prodC recipC).x q thr = iprop(emp) := rfl
theorem P_ox : (P m prodC recipC).ox = fun _ _ => 0 := rfl

/-! ## The call's operands and results, whole -/

/-! ## The result's 128 blocks of 128 rows -/

theorem hdiv128 : 128 ∣ S16384x128.size 0 := ⟨128, rfl⟩
/-- Block `b` of 128 rows. -/
abbrev blk (b : Fin 128) : Rect S16384x128 := Rect.part (s := S16384x128) (a₀ := 0) hdiv128 b
abbrev blkSet (b : Fin 128) : Finset S16384x128.Idx := ((Memref.whole main_v2_scv : Memref sig .scVector .hbm S16384x128 .f32).view.slice (blk b)).set

/-- The grid coordinates of vector subcore `s` of SparseCore `c`. -/
abbrev Lcs (c : Fin 2) (s : Fin 16) : grid1.Coords := coordsV (Fin.cast bound_zero.symm c) (Fin.cast bound_one.symm s)

/-- The number of the block that is chunk `k` of vector subcore `s` of SparseCore `c`. -/
def blkIx (c : Fin 2) (s : Fin 16) (k : Fin 4) : Fin 128 := ⟨8 * s.val + 4 * c.val + k.val, by omega⟩

theorem chunkRect_eq (c : Fin 2) (s : Fin 16) (k : Fin 4) : chunkRect (Lcs c s) k = blk (blkIx c s k) := by
  unfold chunkRect blk Rect.part Rect.block
  congr 1 <;> funext a
  · rw [k1_off11_eq]
    match a with
    | 0 => simp [Shape.partIx, Shape.partSize, blkIx, coordsV]; omega
    | 1 => simp [Shape.partIx, Shape.partSize]
  · match a with
    | 0 => simp [Shape.partSize]
    | 1 => simp [Shape.partSize]

theorem chunkSet_eq (c : Fin 2) (s : Fin 16) (k : Fin 4) : chunkSet (Lcs c s) k = blkSet (blkIx c s k) := by
  show ((Memref.whole main_v2_scv : Memref sig .scVector .hbm S16384x128 .f32).view.slice (chunkRect (Lcs c s) k)).set = _
  rw [chunkRect_eq]

theorem blkSet_eq (b : Fin 128) : blkSet b = (blk b).set := by
  show ((View.whole (main_v2_scv : Ref sig .scVector)).slice (blk b)).set = _
  rw [View.set_slice]; exact Finset.map_refl
theorem blk_disjoint : ∀ i ∈ (Finset.univ : Finset (Fin 128)), ∀ j ∈ (Finset.univ : Finset (Fin 128)), i ≠ j → Disjoint (blkSet i) (blkSet j) :=
  fun i _ j _ h => by rw [blkSet_eq, blkSet_eq]; exact Rect.part_disjoint hdiv128 h
theorem blk_cover : (Finset.univ : Finset (Fin 128)).biUnion blkSet = Finset.univ :=
  (Finset.biUnion_congr rfl fun i _ => blkSet_eq i).trans (Rect.biUnion_part hdiv128)

/-- The result whole is its 128 blocks. -/
theorem msg_blocks (d : Dev nD) (f : Buf (Elt F) (msgLoc d)) :
    (msgLoc d ↦{fullShare} f : sProp 𝕄) = bigSep Finset.univ fun b : Fin 128 => msgLoc d ↦[blkSet b]{fullShare} f := by
  rw [← pointsTo_biUnion Finset.univ (ℓ := msgLoc d) blkSet blk_disjoint, blk_cover]; try rfl

/-! ## Blocks by SparseCore, vector subcore and chunk -/

def eB : Fin 16 × (Fin 2 × Fin 4) ≃ Fin 128 := (Equiv.prodCongr (Equiv.refl (Fin 16)) finProdFinEquiv).trans finProdFinEquiv

theorem eB_apply (s : Fin 16) (c : Fin 2) (k : Fin 4) : eB (s, (c, k)) = blkIx c s k :=
  Fin.ext (by simp [eB, finProdFinEquiv, blkIx]; omega)

theorem reindex (Ψ : Fin 128 → sProp 𝕄) :
    (bigSep Finset.univ fun c : Fin 2 => bigSep Finset.univ fun s : Fin 16 => bigSep Finset.univ fun k : Fin 4 => Ψ (blkIx c s k))
      = bigSep Finset.univ Ψ := by
  have h1 : ∀ s : Fin 16, (bigSep Finset.univ fun p : Fin 2 × Fin 4 => Ψ (eB (s, p)))
      = bigSep Finset.univ fun c : Fin 2 => bigSep Finset.univ fun k : Fin 4 => Ψ (blkIx c s k) := fun s => by
    rw [bigSep_univ_prod]; simp only [eB_apply]
  rw [bigSep_univ_equiv eB Ψ, bigSep_univ_prod]
  simp only [h1]
  exact bigSep_univ_comm _

/-! ## Read shares -/

omit [FloatOps F] in
theorem share2 {ℓ : Loc nD τ sig} (f : Buf (Elt F) ℓ) : (bigSep Finset.univ fun c : Fin 2 => (ℓ ↦{shC c} f : sProp 𝕄)) = ℓ ↦{fullShare} f := by
  unfold shC; exact (pointsTo_piecesOf Finset.univ f (by decide) fullShare).symm
omit [FloatOps F] in
theorem share16 {ℓ : Loc nD τ sig} (f : Buf (Elt F) ℓ) (c : Fin 2) : (bigSep Finset.univ fun s : Fin 16 => (ℓ ↦{shT c s} f : sProp 𝕄)) = ℓ ↦{shC c} f := by
  unfold shT; exact (pointsTo_piecesOf Finset.univ f (by decide) (shC c)).symm

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The result: whole, and by SparseCore, vector subcore and chunk -/

theorem msg_chunks (d : Dev nD) (f : Buf (Elt F) (msgLoc d)) :
    (bigSep Finset.univ fun c : Fin 2 => bigSep Finset.univ fun s : Fin 16 => bigSep Finset.univ fun k : Fin 4 =>
        (msgLoc d ↦[chunkSet (Lcs c s) k]{fullShare} f : sProp 𝕄))
      = msgLoc d ↦{fullShare} f := by
  simp only [chunkSet_eq]
  rw [reindex (fun b => (msgLoc d ↦[blkSet b]{fullShare} f : sProp 𝕄)), msg_blocks]

theorem blocks_join (d : Dev nD) :
    (bigSep Finset.univ fun b : Fin 128 => iprop(∃ f, msgLoc d ↦[blkSet b]{fullShare} f)) ⊢ (iprop(∃ f, msgLoc d ↦{fullShare} f) : sProp 𝕄) := by
  refine (bigSep_exists_pi Finset.univ (fun b (f : Buf (Elt F) (msgLoc d)) => (msgLoc d ↦[blkSet b]{fullShare} f : sProp 𝕄))).trans ?_
  iintro ⟨%fs, H⟩
  ihave H' := (pointsTo_biUnion_join Finset.univ blkSet fs (fs 0) blk_disjoint) $$ H
  icases H' with ⟨%g, -, Hg⟩
  rw [blk_cover]
  iexists g; iexact Hg

theorem msg_chunks_ex (d : Dev nD) :
    (bigSep Finset.univ fun c : Fin 2 => bigSep Finset.univ fun s : Fin 16 => bigSep Finset.univ fun k : Fin 4 =>
        (iprop(∃ f, msgLoc d ↦[chunkSet (Lcs c s) k]{fullShare} f) : sProp 𝕄))
      = iprop(∃ f, msgLoc d ↦{fullShare} f) := by
  simp only [chunkSet_eq]
  rw [reindex (fun b => (iprop(∃ f, msgLoc d ↦[blkSet b]{fullShare} f) : sProp 𝕄))]
  have he : ∀ (f : Buf (Elt F) (msgLoc d)) (b : Fin 128),
      (msgLoc d ↦[blkSet b]{fullShare} f : sProp 𝕄) ⊢ iprop(∃ f, msgLoc d ↦[blkSet b]{fullShare} f) := fun f b => by
    iintro H; iexists f; iexact H
  have hm : ∀ f : Buf (Elt F) (msgLoc d), (msgLoc d ↦{fullShare} f : sProp 𝕄) ⊢ bigSep Finset.univ fun b : Fin 128 => iprop(∃ f, msgLoc d ↦[blkSet b]{fullShare} f) := fun f => by
    rw [msg_blocks]
    exact bigSep_mono fun b _ => he f b
  have h2 : (iprop(∃ f, msgLoc d ↦{fullShare} f) : sProp 𝕄) ⊢ bigSep Finset.univ fun b : Fin 128 => iprop(∃ f, msgLoc d ↦[blkSet b]{fullShare} f) := by
    iintro ⟨%f, H⟩
    iapply (hm f); iexact H
  exact BI.Entails.antisymm (blocks_join d) h2

/-- The SparseCores' operands together are the four arrays whole, the result at whatever it holds. -/
theorem st0_eq (d : Dev nD) :
    (bigSep Finset.univ fun c : Fin ((K (F := F)).nCore 0) => (P m prodC recipC).st 0 d c)
      = iprop((prodLoc d ↦{fullShare} prodC) ∗ (recipLoc d ↦{fullShare} recipC) ∗ (edgeLoc d ↦{fullShare} m (edgeLoc d))
          ∗ ∃ f, msgLoc d ↦{fullShare} f) := by
  show (bigSep Finset.univ fun c : Fin ((K (F := F)).nCore 0) => coreSt m prodC recipC d (Fin.cast nCore_zero c)) = _
  rw [bigSep_cores (fun c => coreSt m prodC recipC d c)]
  unfold coreSt
  rw [bigSep_sep', bigSep_sep', bigSep_sep', share2, share2, share2, msg_chunks_ex]

/-- The SparseCores' results together are the four arrays whole, the result written. -/
theorem dn0_eq (d : Dev nD) :
    (bigSep Finset.univ fun c : Fin ((K (F := F)).nCore 0) => (P m prodC recipC).dn 0 d c)
      = iprop((prodLoc d ↦{fullShare} prodC) ∗ (recipLoc d ↦{fullShare} recipC) ∗ (edgeLoc d ↦{fullShare} m (edgeLoc d))
          ∗ msgLoc d ↦{fullShare} msgC m prodC recipC d) := by
  show (bigSep Finset.univ fun c : Fin ((K (F := F)).nCore 0) => coreDn m prodC recipC d (Fin.cast nCore_zero c)) = _
  rw [bigSep_cores (fun c => coreDn m prodC recipC d c)]
  unfold coreDn
  rw [bigSep_sep', bigSep_sep', bigSep_sep', share2, share2, share2, msg_chunks]

end Cert.Kernel.Sc

end
-- ==== Proof.MainK.lean ====
/-
  @main on the TensorCore: the parameter's reshape, the first pipeline's region, the SparseCore call, the bias's reshape,
  the second pipeline's region — from the launch contents to the result array at the composed value, the arguments kept.
-/
import proofs.«208470_g86148454023375_cont_sun_c4_654_45_alg».proof.Proof.MainStepsK
import proofs.«208470_g86148454023375_cont_sun_c4_654_45_alg».proof.Proof.LaunchElemK
import proofs.«208470_g86148454023375_cont_sun_c4_654_45_alg».proof.Proof.ScPayK

noncomputable section

namespace Cert.Kernel.Sc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-- The TensorCore's handshake debts with the bound on its recorded pairs: what a pipeline's region takes and gives back. -/
def owesB' (d : Dev nD) (O : CellTallies nD τ sig (HIx 1)) (b : ℕ) : sProp 𝕄 :=
  iprop(∃ W, ⌜(K (F := F)).WBelow (T d) W b⌝ ∗ owes (T d) O W)

section Main

variable (prodV : (⟨S1x1, .f32⟩ : BufTy).Contents (Elt F) → (⟨S4096x256, .f32⟩ : BufTy).Contents (Elt F) → (⟨S256x128, .f32⟩ : BufTy).Contents (Elt F) → (⟨S4096x128, .f32⟩ : BufTy).Contents (Elt F))
  (recipV : (⟨S1x1, .f32⟩ : BufTy).Contents (Elt F) → (⟨S4096x256, .f32⟩ : BufTy).Contents (Elt F) → (⟨S256x128, .f32⟩ : BufTy).Contents (Elt F) → (⟨S4096x4096, .f32⟩ : BufTy).Contents (Elt F) → (⟨S4096x128, .f32⟩ : BufTy).Contents (Elt F))
  (outV : (⟨S4096x16384, .f32⟩ : BufTy).Contents (Elt F) → (⟨S16384x128, .f32⟩ : BufTy).Contents (Elt F) → (⟨S1x128, .f32⟩ : BufTy).Contents (Elt F) → (⟨S4096x128, .f32⟩ : BufTy).Contents (Elt F))

/-- The first region's results on device `d`, from the launch contents. -/
abbrev p11C (d : Dev nD) : (⟨S1x1, .f32⟩ : BufTy).Contents (Elt F) := p11Of (m (aLoc d main_arg4))
abbrev prodCv (d : Dev nD) := prodV (p11C m d) (m (aLoc d main_arg0)) (m (aLoc d main_arg5))
abbrev recipCv (d : Dev nD) := recipV (p11C m d) (m (aLoc d main_arg0)) (m (aLoc d main_arg5)) (m (aLoc d main_arg2))
/-- The SparseCore call's result. -/
abbrev msgCv (d : Dev nD) := msgV (prodCv m prodV d) (recipCv m recipV d) (m (aLoc d main_arg3))
/-- The program's result. -/
abbrev outCv (d : Dev nD) : Buf (Elt F) (aLoc d main_v4) := outV (m (aLoc d main_arg1)) (msgCv m prodV recipV d) (b1Of (m (aLoc d main_arg6)))

/-- What the first pipeline's region does on the TensorCore of `d`, inside the SparseCore program: from the region
    boundary, its staging cells' launch ghost, the handshake debts (which pass through) and its arrays, the two
    results at their values, everything else as it was. -/
def Region0Spec : Prop :=
  ∀ (d : Dev nD) (O : CellTallies nD τ sig (HIx 1)) (b : ℕ), (∀ g, O g none = 0) →
    ∀ (p11 : Buf (Elt F) (aLoc d main_v0)) (x : Buf (Elt F) (aLoc d main_arg0)) (w : Buf (Elt F) (aLoc d main_arg5)) (adj : Buf (Elt F) (aLoc d main_arg2))
      (f10 : Buf (Elt F) (aLoc d main_v1_0)) (f11 : Buf (Elt F) (aLoc d main_v1_1)),
    iprop(levAts (K (F := F)).L (K (F := F)).lev ∗ boundary (T d) ∗ Pipeline.cellsGhost cfgs (EP (F := F)) 0 d ∗ Pipeline.toksInit cfgs (EP (F := F)) 0 d ∗ owesB' d O b
        ∗ (aLoc d main_v0 ↦{fullShare} p11) ∗ (aLoc d main_arg0 ↦{fullShare} x) ∗ (aLoc d main_arg5 ↦{fullShare} w) ∗ (aLoc d main_arg2 ↦{fullShare} adj)
        ∗ (aLoc d main_v1_0 ↦{fullShare} f10) ∗ (aLoc d main_v1_1 ↦{fullShare} f11))
      ⊢ wp frame (wpE ((K (F := F)).defs (D (F := F))) 𝒱 (T d) none) Set.univ (Prog.lift (.customCall (SparseCore.inner (Pipeline.entry 0)) ()))
          fun _ => iprop(boundary (T d) ∗ owesB' d O b
            ∗ (aLoc d main_v0 ↦{fullShare} p11) ∗ (aLoc d main_arg0 ↦{fullShare} x) ∗ (aLoc d main_arg5 ↦{fullShare} w) ∗ (aLoc d main_arg2 ↦{fullShare} adj)
            ∗ (aLoc d main_v1_0 ↦{fullShare} (prodV p11 x w : Buf (Elt F) (aLoc d main_v1_0))) ∗ (aLoc d main_v1_1 ↦{fullShare} (recipV p11 x w adj : Buf (Elt F) (aLoc d main_v1_1))))

/-- The same of the second pipeline's region. -/
def Region2Spec : Prop :=
  ∀ (d : Dev nD) (O : CellTallies nD τ sig (HIx 1)) (b : ℕ), (∀ g, O g none = 0) →
    ∀ (tm : Buf (Elt F) (aLoc d main_arg1)) (msg : Buf (Elt F) (aLoc d main_v2)) (b1 : Buf (Elt F) (aLoc d main_v3)) (f4 : Buf (Elt F) (aLoc d main_v4)),
    iprop(levAts (K (F := F)).L (K (F := F)).lev ∗ boundary (T d) ∗ Pipeline.cellsGhost cfgs (EP (F := F)) 1 d ∗ Pipeline.toksInit cfgs (EP (F := F)) 1 d ∗ owesB' d O b
        ∗ (aLoc d main_arg1 ↦{fullShare} tm) ∗ (aLoc d main_v2 ↦{fullShare} msg) ∗ (aLoc d main_v3 ↦{fullShare} b1) ∗ (aLoc d main_v4 ↦{fullShare} f4))
      ⊢ wp frame (wpE ((K (F := F)).defs (D (F := F))) 𝒱 (T d) none) Set.univ (Prog.lift (.customCall (SparseCore.inner (Pipeline.entry 1)) ()))
          fun _ => iprop(boundary (T d) ∗ owesB' d O b
            ∗ (aLoc d main_arg1 ↦{fullShare} tm) ∗ (aLoc d main_v2 ↦{fullShare} msg) ∗ (aLoc d main_v3 ↦{fullShare} b1)
            ∗ (aLoc d main_v4 ↦{fullShare} (outV tm msg b1 : Buf (Elt F) (aLoc d main_v4))))

theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

/-- The TensorCore's handshake state is its debts with their bound, beside the rest. -/
theorem tcSt_open (d : Dev nD) (n : ℕ) :
    ((K (F := F)).tcSt EH d n : sProp 𝕄) ⊢ iprop(owesB' d ((K (F := F)).Otc d n) (8 * n) ∗ (owesB' d ((K (F := F)).Otc d n) (8 * n) -∗ (K (F := F)).tcSt EH d n)) := by
  unfold SparseCore.Cfg.tcSt owesB'
  iintro ⟨HO, Hrest⟩
  isplitl [HO]; · iexact HO
  iintro HO
  isplitl [HO]; · iexact HO
  iexact Hrest

variable {prodV recipV outV}

omit [FloatOps F] in
theorem bigSep_fin2 {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

/-- @main on device `d`'s TensorCore. -/
theorem hmain (h0 : Region0Spec (F := F) prodV recipV) (h2 : Region2Spec (F := F) outV) (κ : GSem nD τ sig → ℕ) (d : Dev nD) :
    iprop((K (F := F)).ctx EH (P m (prodCv m prodV 0) (recipCv m recipV 0)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m (outCv m prodV recipV outV) d) := by
  obtain rfl : d = 0 := Subsingleton.elim _ _
  unfold SparseCore.Cfg.tcRes
  rw [unscopedBufs_eq]
  unfold G
  rw [bigSep_fin2]
  simp only [main, wp_bind, wp_pure]
  iintro ⟨#Hctx, Hst, ⟨Hb, ⟨A0, A1, A2, A3, A4, A5, A6, B0, B10, B11, B2, B3, B4⟩, -, -⟩, ⟨Hg0, Ht0⟩, ⟨Hg1, Ht1⟩⟩
  ihave #Hlev := ((K (F := F)).ctx_levAts κ) $$ Hctx
  -- the parameter's reshape
  iapply (reshape0_step m 𝒱 0 _ _ _) $$ [Hb A4 B0]
  · isplitl [Hb]; · iexact Hb
    isplitl [A4]; · iexact A4
    iexact B0
  iintro ⟨Hb, A4, B0⟩
  rw [wp_ret]; imodintro
  -- the first pipeline's region
  ihave H := (tcSt_open (F := F) 0 0) $$ Hst
  icases H with ⟨HO, Hclose⟩
  iapply (wp_wand frame (wpE ((K (F := F)).defs (D (F := F))) 𝒱 (SparseCore.T 0) none) Set.univ) $$ [Hb Hg0 Ht0 HO B0 A0 A5 A2 B10 B11]
  · iapply (h0 0 _ _ (Otc_none 0 0) _ _ _ _ _ _)
    isplitr; · iexact Hlev
    isplitl [Hb]; · iexact Hb
    isplitl [Hg0]; · iexact Hg0
    isplitl [Ht0]; · iexact Ht0
    isplitl [HO]; · iexact HO
    isplitl [B0]; · iexact B0
    isplitl [A0]; · iexact A0
    isplitl [A5]; · iexact A5
    isplitl [A2]; · iexact A2
    isplitl [B10]; · iexact B10
    iexact B11
  iintro %_ ⟨Hb, HO, B0, A0, A5, A2, B10, B11⟩
  ihave Hst := Hclose $$ HO
  -- the SparseCore call: the two tables and the edge list to the SparseCores and back, the messages filled
  iapply ((K (F := F)).wp_run (D (F := F)) 𝒱 (EH := EH) (P := P m (prodCv m prodV 0) (recipCv m recipV 0)) κ 0 0) $$ [Hst B10 B11 A3 B2 Hb A0 A1 A2 A4 A5 A6 B0 B3 B4 Hg1 Ht1]
  isplitr; · iexact Hctx
  isplitl [Hst]; · iexact Hst
  isplitl [B10 B11 A3 B2]
  · rw [st0_eq]
    isplitl [B10]; · iexact B10
    isplitl [B11]; · iexact B11
    isplitl [A3]; · iexact A3
    iexists _; iexact B2
  iintro ⟨Hst, Hdn⟩
  ihave Hdn' := (Entails.of_eq (dn0_eq m (prodCv m prodV 0) (recipCv m recipV 0) 0)) $$ Hdn
  icases Hdn' with ⟨B10, B11, A3, B2⟩
  -- the bias's reshape
  iapply (reshape3_step m 𝒱 0 _ _ _) $$ [Hb A6 B3]
  · isplitl [Hb]; · iexact Hb
    isplitl [A6]; · iexact A6
    iexact B3
  iintro ⟨Hb, A6, B3⟩
  rw [wp_ret]; imodintro
  -- the second pipeline's region
  ihave H := (tcSt_open (F := F) 0 ((0 : Fin 1).val + 1)) $$ Hst
  icases H with ⟨HO, Hclose⟩
  iapply (wp_wand frame (wpE ((K (F := F)).defs (D (F := F))) 𝒱 (SparseCore.T 0) none) Set.univ) $$ [Hb Hg1 Ht1 HO A1 B2 B3 B4]
  · iapply (h2 0 _ _ (Otc_none 0 ((0 : Fin 1).val + 1)) _ _ _ _)
    isplitr; · iexact Hlev
    isplitl [Hb]; · iexact Hb
    isplitl [Hg1]; · iexact Hg1
    isplitl [Ht1]; · iexact Ht1
    isplitl [HO]; · iexact HO
    isplitl [A1]; · iexact A1
    isplitl [B2]; · iexact B2
    isplitl [B3]; · iexact B3
    iexact B4
  iintro %_ ⟨Hb, HO, A1, B2, B3, B4⟩
  ihave Hst := Hclose $$ HO
  imodintro
  isplitl [Hst]; · iexact Hst
  unfold FIN
  isplitl [B4]; · iexact B4
  isplitl [A0]; · iexact A0
  isplitl [A1]; · iexact A1
  isplitl [A2]; · iexact A2
  isplitl [A3]; · iexact A3
  isplitl [A4]; · iexact A4
  isplitl [A5]; · iexact A5
  iexact A6

end Main

end Cert.Kernel.Sc

end
-- ==== Proof.ScBodyPreK.lean ====
/-
  One vector subcore's own storage spelt out: its four scratch buffers and eleven DMA semaphores among everything it
  owns, and the arrays as the kernel's memrefs address them.
-/
import proofs.«208470_g86148454023375_cont_sun_c4_654_45_alg».proof.Proof.ScPayK

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type}

local notation "𝕄" => MT nD τ sig (HIx 1) (Elt F) ℕ UU ℕ

variable [FloatOps F]

/-! ## The kernel's memrefs -/

abbrev pV : Memref sig .scVector .hbm S4096x128 .f32 := Memref.whole main_v1_0_scv
abbrev rV : Memref sig .scVector .hbm S4096x128 .f32 := Memref.whole main_v1_1_scv
abbrev eV : Memref sig .scVector .hbm S2x16384 .i32 := Memref.whole main_arg3_scv
abbrev oV : Memref sig .scVector .hbm S16384x128 .f32 := Memref.whole main_v2_scv
abbrev sI1 : Memref sig .scVector .vmem S512 .i32 := Memref.whole cc1_scratch0
abbrev sI0 : Memref sig .scVector .vmem S512 .i32 := Memref.whole cc1_scratch1
abbrev sR1 : Memref sig .scVector .vmem S3x128x128 .f32 := Memref.whole cc1_scratch2
abbrev sR0 : Memref sig .scVector .vmem S3x128x128 .f32 := Memref.whole cc1_scratch3

/-! ## Read tokens, blocks -/

section Toks

variable {ℓ : Loc nD τ sig} {S : Finset (Idx ℓ)} {f : Buf (Elt F) ℓ}

omit [FloatOps F] in
/-- A read share as three read tokens numbered `a`, `a + 1`, `a + 2` and what is left of it. -/
theorem pts_toks3 (q : PosShare TreeShare) (a : ℕ) :
    (ℓ ↦[S]{q} f : sProp 𝕄)
      = iprop((ℓ ↦[S]{Transfers.shareDrop q (a + 3)} f) ∗ (ℓ ↦[S]{Transfers.shareTokN q (a + 2)} f) ∗ (ℓ ↦[S]{Transfers.shareTokN q (a + 1)} f)
          ∗ (ℓ ↦[S]{Transfers.shareTokN q a} f) ∗ bigSep (Finset.range a) fun i => ℓ ↦[S]{Transfers.shareTokN q i} f) := by
  rw [BI.Entails.antisymm (Transfers.pointsTo_toks_range (Ix := HIx 1) (Name := ℕ) (U := UU) (Lvl := ℕ) (ℓ := ℓ) (S := S) (f := f) q (a + 3)).1
      (Transfers.pointsTo_toks_range (Ix := HIx 1) (Name := ℕ) (U := UU) (Lvl := ℕ) (ℓ := ℓ) (S := S) (f := f) q (a + 3)).2,
    Finset.range_add_one, SparseCore.bigSep_insert' (by simp), Finset.range_add_one, SparseCore.bigSep_insert' (by simp),
    Finset.range_add_one, SparseCore.bigSep_insert' (by simp)]

omit [FloatOps F] in
/-- Read tokens 8, 9, 10: one per semaphore the first table's gathers complete on. -/
theorem pts_toksP (q : PosShare TreeShare) :
    (ℓ ↦[S]{q} f : sProp 𝕄)
      = iprop((ℓ ↦[S]{Transfers.shareDrop q 11} f) ∗ (ℓ ↦[S]{Transfers.shareTokN q 10} f) ∗ (ℓ ↦[S]{Transfers.shareTokN q 9} f)
          ∗ (ℓ ↦[S]{Transfers.shareTokN q 8} f) ∗ bigSep (Finset.range 8) fun i => ℓ ↦[S]{Transfers.shareTokN q i} f) := pts_toks3 q 8
omit [FloatOps F] in
/-- Read tokens 11, 12, 13: one per semaphore the second table's gathers complete on. -/
theorem pts_toksR (q : PosShare TreeShare) :
    (ℓ ↦[S]{q} f : sProp 𝕄)
      = iprop((ℓ ↦[S]{Transfers.shareDrop q 14} f) ∗ (ℓ ↦[S]{Transfers.shareTokN q 13} f) ∗ (ℓ ↦[S]{Transfers.shareTokN q 12} f)
          ∗ (ℓ ↦[S]{Transfers.shareTokN q 11} f) ∗ bigSep (Finset.range 11) fun i => ℓ ↦[S]{Transfers.shareTokN q i} f) := pts_toks3 q 11

end Toks

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

section Tile

variable (d : Dev nD) (L : grid1.Coords)

/-- The vector subcore at `L`. -/
abbrev thrV : Thread nD τ := V d (cV L) (jV L)

omit [FloatOps F] in
theorem pts_pV (q : PosShare TreeShare) (f : Buf (Elt F) (prodLoc d)) :
    ((pV).view.loc (V d (cV L) (jV L)) ↦[(pV).view.set]{q} f : sProp 𝕄) = prodLoc d ↦{q} f := by
  simp only [Memref.view_whole, View.set_whole]
omit [FloatOps F] in
theorem pts_rV (q : PosShare TreeShare) (f : Buf (Elt F) (recipLoc d)) :
    ((rV).view.loc (V d (cV L) (jV L)) ↦[(rV).view.set]{q} f : sProp 𝕄) = recipLoc d ↦{q} f := by
  simp only [Memref.view_whole, View.set_whole]
omit [FloatOps F] in
theorem pts_eV (q : PosShare TreeShare) (f : Buf (Elt F) (edgeLoc d)) :
    ((eV).view.loc (V d (cV L) (jV L)) ↦[(eV).view.set]{q} f : sProp 𝕄) = edgeLoc d ↦{q} f := by
  simp only [Memref.view_whole, View.set_whole]
omit [FloatOps F] in
theorem pts_chunk (k : Fin 4) (f : Buf (Elt F) (msgLoc d)) :
    ((chunkM L k).view.loc (V d (cV L) (jV L)) ↦[(chunkM L k).view.set]{fullShare} f : sProp 𝕄) = msgLoc d ↦[chunkSet L k]{fullShare} f := rfl
omit [FloatOps F] in
theorem pts_sI1 (f : Buf (Elt F) ((V d (cV L) (jV L)).loc cc1_scratch0)) :
    ((sI1).view.loc (V d (cV L) (jV L)) ↦[(sI1).view.set]{fullShare} f : sProp 𝕄) = (V d (cV L) (jV L)).loc cc1_scratch0 ↦{fullShare} f := by
  simp only [Memref.view_whole, View.set_whole]
omit [FloatOps F] in
theorem pts_sI0 (f : Buf (Elt F) ((V d (cV L) (jV L)).loc cc1_scratch1)) :
    ((sI0).view.loc (V d (cV L) (jV L)) ↦[(sI0).view.set]{fullShare} f : sProp 𝕄) = (V d (cV L) (jV L)).loc cc1_scratch1 ↦{fullShare} f := by
  simp only [Memref.view_whole, View.set_whole]
omit [FloatOps F] in
theorem pts_sR1 (f : Buf (Elt F) ((V d (cV L) (jV L)).loc cc1_scratch2)) :
    ((sR1).view.loc (V d (cV L) (jV L)) ↦[(sR1).view.set]{fullShare} f : sProp 𝕄) = (V d (cV L) (jV L)).loc cc1_scratch2 ↦{fullShare} f := by
  simp only [Memref.view_whole, View.set_whole]
omit [FloatOps F] in
theorem pts_sR0 (f : Buf (Elt F) ((V d (cV L) (jV L)).loc cc1_scratch3)) :
    ((sR0).view.loc (V d (cV L) (jV L)) ↦[(sR0).view.set]{fullShare} f : sProp 𝕄) = (V d (cV L) (jV L)).loc cc1_scratch3 ↦{fullShare} f := by
  simp only [Memref.view_whole, View.set_whole]

/-! ## The subcore's semaphores and buffers -/

abbrev cell (n : DmaSem sig) : GSem nD τ sig := (V d (cV L) (jV L), SemLoc.dma n)

/-- The kernel's eleven DMA semaphores, the subcore's. -/
def kCells : Finset (GSem nD τ sig) :=
  {cell d L cc1_scratch4.sem, cell d L cc1_scratch5.sem, cell d L cc1_scratch6.sem, cell d L cc1_scratch7.sem, cell d L cc1_scratch8.sem, cell d L cc1_scratch9.sem, cell d L cc1_scratch10.sem, cell d L cc1_scratch11.sem, cell d L cc1_scratch12.sem, cell d L cc1_scoped0.sem, cell d L cc1_scoped1.sem}

omit [FloatOps F] in
theorem dma_scoped : ∀ n : DmaSem sig, (SemLoc.dma n : SemLoc sig).isScoped .scVector = true := by decide

omit [FloatOps F] in
theorem kCells_sub : kCells d L ⊆ ownCells (V d (cV L) (jV L)) := by
  intro g hg
  simp only [kCells, Finset.mem_insert, Finset.mem_singleton] at hg
  rcases hg with rfl | rfl | rfl | rfl | rfl | rfl | rfl | rfl | rfl | rfl | rfl <;> exact mem_ownCells.mpr ⟨rfl, dma_scoped _⟩

omit [FloatOps F] in
theorem cell_ne {a b : DmaSem sig} (h : a ≠ b) : cell d L a ≠ cell d L b :=
  fun e => h (SemLoc.dma.inj (Prod.mk.inj e).2)

omit [FloatOps F] in
/-- The subcore's scoped semaphores at zero are the kernel's eleven and the rest. -/
theorem ownSems0_V :
    (ownSems0 (V d (cV L) (jV L)) : sProp 𝕄)
      = iprop((semVal (cell d L cc1_scratch4.sem) 0 ∗ semVal (cell d L cc1_scratch5.sem) 0 ∗ semVal (cell d L cc1_scratch6.sem) 0 ∗ semVal (cell d L cc1_scratch7.sem) 0 ∗ semVal (cell d L cc1_scratch8.sem) 0 ∗ semVal (cell d L cc1_scratch9.sem) 0 ∗ semVal (cell d L cc1_scratch10.sem) 0 ∗ semVal (cell d L cc1_scratch11.sem) 0 ∗ semVal (cell d L cc1_scratch12.sem) 0 ∗ semVal (cell d L cc1_scoped0.sem) 0 ∗ semVal (cell d L cc1_scoped1.sem) 0)
          ∗ bigSep (ownCells (V d (cV L) (jV L)) \ kCells d L) fun g => semVal g 0) := by
  unfold SparseCore.Cfg.ownSems0
  rw [SparseCore.bigSep_sdiff_split' (kCells_sub d L)]
  unfold kCells
  rw [SparseCore.bigSep_insert' (by
      simp only [Finset.mem_insert, Finset.mem_singleton, not_or]
      exact ⟨cell_ne d L (by decide), cell_ne d L (by decide), cell_ne d L (by decide), cell_ne d L (by decide), cell_ne d L (by decide), cell_ne d L (by decide), cell_ne d L (by decide), cell_ne d L (by decide), cell_ne d L (by decide), cell_ne d L (by decide)⟩),
    SparseCore.bigSep_insert' (by
      simp only [Finset.mem_insert, Finset.mem_singleton, not_or]
      exact ⟨cell_ne d L (by decide), cell_ne d L (by decide), cell_ne d L (by decide), cell_ne d L (by decide), cell_ne d L (by decide), cell_ne d L (by decide), cell_ne d L (by decide), cell_ne d L (by decide), cell_ne d L (by decide)⟩),
    SparseCore.bigSep_insert' (by
      simp only [Finset.mem_insert, Finset.mem_singleton, not_or]
      exact ⟨cell_ne d L (by decide), cell_ne d L (by decide), cell_ne d L (by decide), cell_ne d L (by decide), cell_ne d L (by decide), cell_ne d L (by decide), cell_ne d L (by decide), cell_ne d L (by decide)⟩),
    SparseCore.bigSep_insert' (by
      simp only [Finset.mem_insert, Finset.mem_singleton, not_or]
      exact ⟨cell_ne d L (by decide), cell_ne d L (by decide), cell_ne d L (by decide), cell_ne d L (by decide), cell_ne d L (by decide), cell_ne d L (by decide), cell_ne d L (by decide)⟩),
    SparseCore.bigSep_insert' (by
      simp only [Finset.mem_insert, Finset.mem_singleton, not_or]
      exact ⟨cell_ne d L (by decide), cell_ne d L (by decide), cell_ne d L (by decide), cell_ne d L (by decide), cell_ne d L (by decide), cell_ne d L (by decide)⟩),
    SparseCore.bigSep_insert' (by
      simp only [Finset.mem_insert, Finset.mem_singleton, not_or]
      exact ⟨cell_ne d L (by decide), cell_ne d L (by decide), cell_ne d L (by decide), cell_ne d L (by decide), cell_ne d L (by decide)⟩),
    SparseCore.bigSep_insert' (by
      simp only [Finset.mem_insert, Finset.mem_singleton, not_or]
      exact ⟨cell_ne d L (by decide), cell_ne d L (by decide), cell_ne d L (by decide), cell_ne d L (by decide)⟩),
    SparseCore.bigSep_insert' (by
      simp only [Finset.mem_insert, Finset.mem_singleton, not_or]
      exact ⟨cell_ne d L (by decide), cell_ne d L (by decide), cell_ne d L (by decide)⟩),
    SparseCore.bigSep_insert' (by
      simp only [Finset.mem_insert, Finset.mem_singleton, not_or]
      exact ⟨cell_ne d L (by decide), cell_ne d L (by decide)⟩),
    SparseCore.bigSep_insert' (by
      simp only [Finset.mem_insert, Finset.mem_singleton, not_or]
      exact cell_ne d L (by decide)),
    bigSep_singleton]

/-- The kernel's four scratch buffers, the subcore's. -/
def kRefs : Finset (DevRef τ sig) :=
  {(Proc.scVector (cV L) (jV L)).devRef cc1_scratch0, (Proc.scVector (cV L) (jV L)).devRef cc1_scratch1, (Proc.scVector (cV L) (jV L)).devRef cc1_scratch2, (Proc.scVector (cV L) (jV L)).devRef cc1_scratch3}

omit [FloatOps F] in
theorem kRefs_sub : kRefs L ⊆ ownRefs (τ := τ) (.scVector (cV L) (jV L)) := by
  intro b hb
  simp only [kRefs, Finset.mem_insert, Finset.mem_singleton] at hb
  rcases hb with rfl | rfl | rfl | rfl <;> exact SparseCore.Cfg.mem_ownRefs_of_owner (p := Proc.scVector (cV L) (jV L)) rfl

omit [FloatOps F] in
theorem ref_ne {a b : Ref sig .scVector} (h : a ≠ b) : (Proc.scVector (cV L) (jV L)).devRef a ≠ (Proc.scVector (cV L) (jV L)).devRef b :=
  fun e => h (Proc.devRef_injective _ e)

omit [FloatOps F] in
/-- The subcore's own buffers are the kernel's four scratch buffers, at some contents, and the rest. -/
theorem ownBufs_V :
    (ownBufs (V d (cV L) (jV L)) : sProp 𝕄)
      = iprop(((∃ f, (V d (cV L) (jV L)).loc cc1_scratch0 ↦{fullShare} f) ∗ (∃ f, (V d (cV L) (jV L)).loc cc1_scratch1 ↦{fullShare} f)
            ∗ (∃ f, (V d (cV L) (jV L)).loc cc1_scratch2 ↦{fullShare} f) ∗ (∃ f, (V d (cV L) (jV L)).loc cc1_scratch3 ↦{fullShare} f))
          ∗ bigSep (ownRefs (τ := τ) (.scVector (cV L) (jV L)) \ kRefs L) fun b => iprop(∃ f, ((d, b) : Loc nD τ sig) ↦{fullShare} f)) := by
  unfold SparseCore.Cfg.ownBufs
  rw [SparseCore.bigSep_sdiff_split' (kRefs_sub L)]
  unfold kRefs
  rw [SparseCore.bigSep_insert' (by
      simp only [Finset.mem_insert, Finset.mem_singleton, not_or]
      exact ⟨ref_ne L (by decide), ref_ne L (by decide), ref_ne L (by decide)⟩),
    SparseCore.bigSep_insert' (by
      simp only [Finset.mem_insert, Finset.mem_singleton, not_or]
      exact ⟨ref_ne L (by decide), ref_ne L (by decide)⟩),
    SparseCore.bigSep_insert' (by
      simp only [Finset.mem_insert, Finset.mem_singleton, not_or]
      exact ref_ne L (by decide)),
    bigSep_singleton]

end Tile

end Cert.Kernel.Sc

end
-- ==== Proof.ScIdxK.lean ====
/-
  The pure side of one vector subcore's task: what its buffers hold, index by index.
-/
import proofs.«208470_g86148454023375_cont_sun_c4_654_45_alg».proof.Proof.ScBodyPreK
import Idealize.ShloMosaic.Lib.SparseCore.Stream
import Idealize.ShloMosaic.Lib.Writes

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type}

local notation "𝕄" => MT nD τ sig (HIx 1) (Elt F) ℕ UU ℕ

/-- Slot `σ` of a ring buffer, as the kernel slices it. -/
abbrev slot0M (b : Memref sig .scVector .vmem S3x128x128 .f32) : Memref sig .scVector .vmem S128x128 .f32 :=
  (b.slice (Rect.unit (s := S3x128x128) ![0, 0, 0] S1x128x128.size inb_S3x128x128_S1x128x128_0_0_0) (fun _ => rfl)).squeeze S128x128 squeezes_S1x128x128_S128x128
abbrev slot1M (b : Memref sig .scVector .vmem S3x128x128 .f32) : Memref sig .scVector .vmem S128x128 .f32 :=
  (b.slice (Rect.unit (s := S3x128x128) ![1, 0, 0] S1x128x128.size inb_S3x128x128_S1x128x128_1_0_0) (fun _ => rfl)).squeeze S128x128 squeezes_S1x128x128_S128x128
abbrev slot2M (b : Memref sig .scVector .vmem S3x128x128 .f32) : Memref sig .scVector .vmem S128x128 .f32 :=
  (b.slice (Rect.unit (s := S3x128x128) ![2, 0, 0] S1x128x128.size inb_S3x128x128_S1x128x128_2_0_0) (fun _ => rfl)).squeeze S128x128 squeezes_S1x128x128_S128x128

variable [FloatOps F]
variable (m : (ℓ : Loc nD τ sig) → Buf (Elt F) ℓ) (prodC recipC : (⟨S4096x128, .f32⟩ : BufTy).Contents (Elt F))

/-! ## What the gathers leave -/

/-- The first row of the result the vector subcore at `L` owns. -/
def baseRow (L : grid1.Coords) : ℕ := 1024 * (L 1).val + 512 * (L 0).val

omit [FloatOps F] in
theorem baseRow_lt (L : grid1.Coords) (c : Fin 4) (r : Fin 128) : baseRow L + 128 * c.val + r.val < 16384 := by
  have h0 : (L 0).val < 2 := (L 0).isLt
  have h1 : (L 1).val < 16 := (L 1).isLt
  unfold baseRow; omega

/-- Edge `baseRow L + 128 c + r` of the vector subcore at `L`. -/
def edgeAt (L : grid1.Coords) (c : Fin 4) (r : Fin 128) : Fin 16384 := ⟨baseRow L + 128 * c.val + r.val, baseRow_lt L c r⟩

/-- What chunk `c`'s gather of the first table leaves at row `r`, lane `j` of whichever slot it lands in. -/
def gathA (d : Dev nD) (L : grid1.Coords) (c : Fin 4) : S3x128x128.Idx → F .f32 :=
  fun i => prodC (ix2 (rowIx (m (edgeLoc d) (ix2 (1 : Fin 2) (edgeAt L c (i 1))))) (i 2))
/-- The same of the second table. -/
def gathB (d : Dev nD) (L : grid1.Coords) (c : Fin 4) : S3x128x128.Idx → F .f32 :=
  fun i => recipC (ix2 (rowIx (m (edgeLoc d) (ix2 (0 : Fin 2) (edgeAt L c (i 1))))) (i 2))

/-! ## One trip of a row loop -/

/-- Rows below `k` multiplied. -/
def rowsDone (k : ℕ) (A B : S3x128x128.Idx → F .f32) : S3x128x128.Idx → F .f32 :=
  fun i => if (i 1).val < k then FloatOps.mulf (A i) (B i) else A i

end Cert.Kernel.Sc

end
-- ==== Proof.ScIdxAK.lean ====
/-
  The slots of a ring buffer as sets of indices, and what an indexed row copy leaves in a slot.
-/
import proofs.«208470_g86148454023375_cont_sun_c4_654_45_alg».proof.Proof.ScIdxK
import Idealize.ShloMosaic.Lib.ValueLayout

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type}

local notation "𝕄" => MT nD τ sig (HIx 1) (Elt F) ℕ UU ℕ

variable [FloatOps F]
variable (m : (ℓ : Loc nD τ sig) → Buf (Elt F) ℓ) (prodC recipC : (⟨S4096x128, .f32⟩ : BufTy).Contents (Elt F))

/-! ## The three slots of a ring buffer -/

omit [FloatOps F] in
/-- A unit-row rectangle of the ring buffer's shape holds exactly the indices whose first coordinate is its row. -/
theorem unit3_iff (x : S3x128x128.Idx) (σ : ℕ) :
    (∀ a, (![σ, 0, 0] : Fin 3 → ℕ) a ≤ x a ∧ (x a : ℕ) < (![σ, 0, 0] : Fin 3 → ℕ) a + S1x128x128.size a) ↔ (x 0).val = σ := by
  constructor
  · intro h
    have h0 := h 0
    have e1 : (![σ, 0, 0] : Fin 3 → ℕ) 0 = σ := rfl
    have e2 : S1x128x128.size 0 = 1 := rfl
    rw [e1, e2] at h0
    omega
  · intro h a
    have h1 : (x 1).val < 128 := (x 1).isLt
    have h2 : (x 2).val < 128 := (x 2).isLt
    match a with
    | ⟨0, _⟩ => exact ⟨by show σ ≤ (x 0).val; omega, by show (x 0).val < σ + 1; omega⟩
    | ⟨1, _⟩ => exact ⟨Nat.zero_le _, by show (x 1).val < 0 + 128; omega⟩
    | ⟨2, _⟩ => exact ⟨Nat.zero_le _, by show (x 2).val < 0 + 128; omega⟩

omit [FloatOps F] in
/-- The elements under a slot: the buffer's elements under the indices of that row. -/
theorem mem_slot_set (b : Memref sig .scVector .vmem S3x128x128 .f32) (σ : ℕ) (inb) (i : b.view.ty.Idx) :
    i ∈ ((b.slice (Rect.unit (s := S3x128x128) ![σ, 0, 0] S1x128x128.size inb) (fun _ => rfl)).squeeze S128x128
        squeezes_S1x128x128_S128x128).view.set ↔ ∃ x : S3x128x128.Idx, (x 0).val = σ ∧ b.view.emb x = i := by
  have e : ((b.slice (Rect.unit (s := S3x128x128) ![σ, 0, 0] S1x128x128.size inb) (fun _ => rfl)).squeeze S128x128
        squeezes_S1x128x128_S128x128).view.set = (Rect.unit (s := S3x128x128) ![σ, 0, 0] S1x128x128.size inb).set.map b.view.emb :=
    (View.set_reshape (b.view.slice (Rect.unit (s := S3x128x128) ![σ, 0, 0] S1x128x128.size inb))
      squeezes_S1x128x128_S128x128.numel_eq).trans (View.set_slice b.view _)
  rw [e]
  simp only [Finset.mem_map, Rect.mem_set_unit, unit3_iff]

omit [FloatOps F] in
theorem mem_view_set (b : Memref sig .scVector .vmem S3x128x128 .f32) (i : b.view.ty.Idx) :
    i ∈ b.view.set ↔ ∃ x : S3x128x128.Idx, b.view.emb x = i := by
  simp only [View.set, Finset.mem_map, Finset.mem_univ, true_and]

omit [FloatOps F] in
/-- Off two of the three rows is the third. -/
theorem slot_rest_aux (b : Memref sig .scVector .vmem S3x128x128 .f32) (σ σ₁ σ₂ : ℕ) (inb inb₁ inb₂)
    (h3 : ∀ n : ℕ, n < 3 → (n = σ ↔ n ≠ σ₁ ∧ n ≠ σ₂)) :
    (b.view.set \ ((b.slice (Rect.unit (s := S3x128x128) ![σ₁, 0, 0] S1x128x128.size inb₁) (fun _ => rfl)).squeeze S128x128
        squeezes_S1x128x128_S128x128).view.set) \ ((b.slice (Rect.unit (s := S3x128x128) ![σ₂, 0, 0] S1x128x128.size inb₂) (fun _ => rfl)).squeeze S128x128
        squeezes_S1x128x128_S128x128).view.set
      = ((b.slice (Rect.unit (s := S3x128x128) ![σ, 0, 0] S1x128x128.size inb) (fun _ => rfl)).squeeze S128x128
        squeezes_S1x128x128_S128x128).view.set := by
  ext i
  rw [Finset.mem_sdiff, Finset.mem_sdiff, mem_slot_set, mem_slot_set, mem_slot_set, mem_view_set]
  constructor
  · rintro ⟨⟨⟨x, rfl⟩, h1⟩, h2⟩
    have hx : (x 0).val < 3 := (x 0).isLt
    exact ⟨x, (h3 _ hx).2 ⟨fun e => h1 ⟨x, e, rfl⟩, fun e => h2 ⟨x, e, rfl⟩⟩, rfl⟩
  · rintro ⟨x, hx, rfl⟩
    have hx3 : (x 0).val < 3 := (x 0).isLt
    have hne := (h3 _ hx3).1 hx
    refine ⟨⟨⟨x, rfl⟩, ?_⟩, ?_⟩
    · rintro ⟨y, hy, e⟩
      have := b.view.emb.injective e
      subst this
      exact hne.1 hy
    · rintro ⟨y, hy, e⟩
      have := b.view.emb.injective e
      subst this
      exact hne.2 hy

omit [FloatOps F] in
theorem slot_rest0 (b : Memref sig .scVector .vmem S3x128x128 .f32) :
    (b.view.set \ (slot1M b).view.set) \ (slot2M b).view.set = (slot0M b).view.set :=
  slot_rest_aux b 0 1 2 _ _ _ (fun n hn => by omega)
omit [FloatOps F] in
theorem slot_rest1 (b : Memref sig .scVector .vmem S3x128x128 .f32) :
    (b.view.set \ (slot0M b).view.set) \ (slot2M b).view.set = (slot1M b).view.set :=
  slot_rest_aux b 1 0 2 _ _ _ (fun n hn => by omega)
omit [FloatOps F] in
theorem slot_rest2 (b : Memref sig .scVector .vmem S3x128x128 .f32) :
    (b.view.set \ (slot0M b).view.set) \ (slot1M b).view.set = (slot2M b).view.set :=
  slot_rest_aux b 2 0 1 _ _ _ (fun n hn => by omega)

omit [FloatOps F] in
theorem mem_slot0_sR1 (i : S3x128x128.Idx) : i ∈ (slot0M sR1).view.set ↔ (i 0).val = 0 := by
  rw [mem_slot_set]
  exact ⟨fun ⟨x, hx, e⟩ => by rw [← e]; exact hx, fun h => ⟨i, h, rfl⟩⟩
omit [FloatOps F] in
theorem mem_slot1_sR1 (i : S3x128x128.Idx) : i ∈ (slot1M sR1).view.set ↔ (i 0).val = 1 := by
  rw [mem_slot_set]
  exact ⟨fun ⟨x, hx, e⟩ => by rw [← e]; exact hx, fun h => ⟨i, h, rfl⟩⟩
omit [FloatOps F] in
theorem mem_slot2_sR1 (i : S3x128x128.Idx) : i ∈ (slot2M sR1).view.set ↔ (i 0).val = 2 := by
  rw [mem_slot_set]
  exact ⟨fun ⟨x, hx, e⟩ => by rw [← e]; exact hx, fun h => ⟨i, h, rfl⟩⟩
omit [FloatOps F] in
theorem mem_slot0_sR0 (i : S3x128x128.Idx) : i ∈ (slot0M sR0).view.set ↔ (i 0).val = 0 := by
  rw [mem_slot_set]
  exact ⟨fun ⟨x, hx, e⟩ => by rw [← e]; exact hx, fun h => ⟨i, h, rfl⟩⟩
omit [FloatOps F] in
theorem mem_slot1_sR0 (i : S3x128x128.Idx) : i ∈ (slot1M sR0).view.set ↔ (i 0).val = 1 := by
  rw [mem_slot_set]
  exact ⟨fun ⟨x, hx, e⟩ => by rw [← e]; exact hx, fun h => ⟨i, h, rfl⟩⟩
omit [FloatOps F] in
theorem mem_slot2_sR0 (i : S3x128x128.Idx) : i ∈ (slot2M sR0).view.set ↔ (i 0).val = 2 := by
  rw [mem_slot_set]
  exact ⟨fun ⟨x, hx, e⟩ => by rw [← e]; exact hx, fun h => ⟨i, h, rfl⟩⟩

/-! ## Reading through the kernel's views -/

omit [FloatOps F] in
/-- Where a slot's view puts index (r, j): row r, lane j of the slot's row of the ring buffer. -/
theorem slot_emb (b : Memref sig .scVector .vmem S3x128x128 .f32) (σ : ℕ) (inb) (x : S128x128.Idx) :
    ((b.slice (Rect.unit (s := S3x128x128) ![σ, 0, 0] S1x128x128.size inb) (fun _ => rfl)).squeeze S128x128
        squeezes_S1x128x128_S128x128).view.emb x
      = b.view.emb ((Rect.unit (s := S3x128x128) ![σ, 0, 0] S1x128x128.size inb).emb (ix3 (⟨0, Nat.one_pos⟩ : Fin 1) (x 0) (x 1))) := by
  show b.view.emb ((Rect.unit (s := S3x128x128) ![σ, 0, 0] S1x128x128.size inb).emb
    (Shape.reshapeEquiv squeezes_S1x128x128_S128x128.numel_eq x)) = _
  obtain ⟨a, b', rfl⟩ : ∃ a b', x = ix2 a b' := ⟨x 0, x 1, ValueIdx.eq_ix2 x⟩
  rw [ValueIdx.reshapeEquiv_ix2_1ab]

/-- A list buffer written whole, read through a 128-word slice at offset o: word k is word o + k of what was written. -/
theorem list_read (vI : Memref sig .scVector .vmem S512 .i32) (g : vI.view.ty.Contents (Elt F))
    (w : (Rect.whole S512).shape.Idx → Elt F .i32) (o : ℕ) (ho : ∀ a, (![o] : Fin 1 → ℕ) a + S128.size a ≤ S512.size a) (k : S128.Idx) :
    View.read (Elt F) ((vI.slice (Rect.unit (s := S512) ![o] S128.size ho) (fun _ => rfl)).view)
        (vI.view.writes (Elt F) g [⟨Rect.whole S512, w⟩]) k
      = w ((Rect.unit (s := S512) ![o] S128.size ho).emb k) := by
  have h := View.read_writes_cons_emb vI.view g (Rect.whole S512) w [] ((Rect.unit (s := S512) ![o] S128.size ho).emb k)
  rw [Rect.emb_whole_apply] at h
  exact h

/-- The edge list read through a one-row, 512-word slice at offset `off`, flattened: word z is entry (off 0, off 1 + z). -/
theorem edge_read (off : Fin 2 → ℕ) (inb : ∀ a, off a + S1x512.size a ≤ S2x16384.size a) (f : (eV).view.ty.Contents (Elt F)) (z : S512.Idx) :
    View.read (Elt F) (((eV).slice (Rect.unit (s := S2x16384) off S1x512.size inb) (fun _ => rfl)).squeeze S512 squeezes_S1x512_S512).view f z
      = f ((Rect.unit (s := S2x16384) off S1x512.size inb).emb (Fin.cons (⟨0, Nat.one_pos⟩ : Fin 1) z)) := by
  show f ((Rect.unit (s := S2x16384) off S1x512.size inb).emb (Shape.reshapeEquiv squeezes_S1x512_S512.numel_eq z)) = _
  rw [Shape.reshapeEquiv_cons_one]
  rfl

omit [FloatOps F] in
/-- Word k of a rank-one list in row-major order is entry k. -/
theorem rowMajor_symm_128 (k : Fin 128) (h : S128.numel = 128) : S128.rowMajor.symm (k.cast h.symm) = ix1 k := by
  rw [Equiv.symm_apply_eq]
  exact Fin.ext (Shape.rowMajor_val_one (d := ![128]) (ix1 k)).symm

omit [FloatOps F] in
/-- The source index of a row gather: the named row, the index's own lane. -/
theorem gather_idx (R : Fin (S128x128.size gathers_S4096x128_S128x128.axis') → Fin (S4096x128.size gathers_S4096x128_S128x128.axis)) (x : S128x128.Idx) :
    gathers_S4096x128_S128x128.idx R x = (ix2 (n0 := 4096) (n1 := 128) (R (x 0)) (x 1) : S4096x128.Idx) := by
  funext b
  match b with
  | ⟨0, _⟩ => exact Shape.Gathers.idx_axis gathers_S4096x128_S128x128 R x
  | ⟨1, _⟩ => exact Fin.ext (Shape.Gathers.idx_of_ne gathers_S4096x128_S128x128 R x ⟨1, by decide⟩ (by decide))

omit [FloatOps F] in
/-- Word k of the 128-word slice at offset 128 c of a subcore's 512 edges, in edge row `row`, is entry (row, its edge). -/
theorem edge_idx (L : grid1.Coords) (c : Fin 4) (o : ℕ) (hoc : o = 128 * c.val)
    (ho : ∀ a, (![o] : Fin 1 → ℕ) a + S128.size a ≤ S512.size a) (k : Fin 128) (offK : Fin 2 → ℕ)
    (inbK : ∀ a, offK a + S1x512.size a ≤ S2x16384.size a) (row : Fin 2) (hoff : offK = ![row.val, baseRow L]) :
    (Rect.unit (s := S2x16384) offK S1x512.size inbK).emb
        (Fin.cons (⟨0, Nat.one_pos⟩ : Fin 1) ((Rect.unit (s := S512) ![o] S128.size ho).emb (ix1 k)))
      = ix2 row (edgeAt L c k) := by
  subst hoff
  funext a
  apply Fin.ext
  rw [Rect.emb_apply]
  match a with
  | ⟨0, _⟩ =>
    show row.val + 1 * 0 = row.val
    omega
  | ⟨1, _⟩ =>
    show baseRow L + 1 * ((Rect.unit (s := S512) ![o] S128.size ho).emb (ix1 k) 0).val = baseRow L + 128 * c.val + k.val
    rw [Rect.emb_apply]
    show baseRow L + 1 * (o + 1 * k.val) = baseRow L + 128 * c.val + k.val
    omega

/-- The first table read through the slice that is all of it. -/
theorem table_read_p (f : (pV).view.ty.Contents (Elt F)) (y : S4096x128.Idx) :
    View.read (Elt F) ((pV).slice (Rect.unit (s := S4096x128) ![0, 0] S4096x128.size inb_S4096x128_S4096x128_0_0) (fun _ => rfl)).view f y
      = f y := by
  show f ((Rect.unit (s := S4096x128) ![0, 0] S4096x128.size inb_S4096x128_S4096x128_0_0).emb y) = f y
  congr 1
  funext a
  apply Fin.ext
  rw [Rect.emb_apply]
  match a with
  | ⟨0, _⟩ => show 0 + 1 * (y 0).val = (y 0).val; omega
  | ⟨1, _⟩ => show 0 + 1 * (y 1).val = (y 1).val; omega

/-- The second table read through the slice that is all of it. -/
theorem table_read_r (f : (rV).view.ty.Contents (Elt F)) (y : S4096x128.Idx) :
    View.read (Elt F) ((rV).slice (Rect.unit (s := S4096x128) ![0, 0] S4096x128.size inb_S4096x128_S4096x128_0_0) (fun _ => rfl)).view f y
      = f y := by
  show f ((Rect.unit (s := S4096x128) ![0, 0] S4096x128.size inb_S4096x128_S4096x128_0_0).emb y) = f y
  congr 1
  funext a
  apply Fin.ext
  rw [Rect.emb_apply]
  match a with
  | ⟨0, _⟩ => show 0 + 1 * (y 0).val = (y 0).val; omega
  | ⟨1, _⟩ => show 0 + 1 * (y 1).val = (y 1).val; omega

omit [FloatOps F] in
/-- Row 1 and row 2 coordinates of an index of a slot's row are the slot index's own. -/
theorem slot_coord1 (σ : ℕ) (inb) (a b' : Fin 128) :
    ((Rect.unit (s := S3x128x128) ![σ, 0, 0] S1x128x128.size inb).emb (ix3 (⟨0, Nat.one_pos⟩ : Fin 1) a b')) 1 = a :=
  Fin.ext (by
    rw [Rect.emb_apply]
    show 0 + 1 * a.val = a.val
    omega)
omit [FloatOps F] in
theorem slot_coord2 (σ : ℕ) (inb) (a b' : Fin 128) :
    ((Rect.unit (s := S3x128x128) ![σ, 0, 0] S1x128x128.size inb).emb (ix3 (⟨0, Nat.one_pos⟩ : Fin 1) a b')) 2 = b' :=
  Fin.ext (by
    rw [Rect.emb_apply]
    show 0 + 1 * b'.val = b'.val
    omega)

/-- What the first table's gather is to leave, at the element of a slot under (r, j). -/
theorem gathA_slot (d : Dev nD) (L : grid1.Coords) (c : Fin 4) (σ : ℕ) (inb) (x : S128x128.Idx) :
    gathA m prodC d L c ((sR1).view.emb ((Rect.unit (s := S3x128x128) ![σ, 0, 0] S1x128x128.size inb).emb (ix3 (⟨0, Nat.one_pos⟩ : Fin 1) (x 0) (x 1))))
      = prodC (ix2 (rowIx (m (edgeLoc d) (ix2 (1 : Fin 2) (edgeAt L c (x 0))))) (x 1)) := by
  unfold gathA
  show prodC (ix2 (rowIx (m (edgeLoc d) (ix2 (1 : Fin 2) (edgeAt L c
      (((Rect.unit (s := S3x128x128) ![σ, 0, 0] S1x128x128.size inb).emb (ix3 (⟨0, Nat.one_pos⟩ : Fin 1) (x 0) (x 1))) 1)))))
      (((Rect.unit (s := S3x128x128) ![σ, 0, 0] S1x128x128.size inb).emb (ix3 (⟨0, Nat.one_pos⟩ : Fin 1) (x 0) (x 1))) 2)) = _
  have h1 : ((Rect.unit (s := S3x128x128) ![σ, 0, 0] S1x128x128.size inb).emb (ix3 (⟨0, Nat.one_pos⟩ : Fin 1) (x 0) (x 1))) 1 = x 0 :=
    slot_coord1 σ inb (x 0) (x 1)
  have h2 : ((Rect.unit (s := S3x128x128) ![σ, 0, 0] S1x128x128.size inb).emb (ix3 (⟨0, Nat.one_pos⟩ : Fin 1) (x 0) (x 1))) 2 = x 1 :=
    slot_coord2 σ inb (x 0) (x 1)
  rw [h1, h2]

/-- The same of the second table. -/
theorem gathB_slot (d : Dev nD) (L : grid1.Coords) (c : Fin 4) (σ : ℕ) (inb) (x : S128x128.Idx) :
    gathB m recipC d L c ((sR0).view.emb ((Rect.unit (s := S3x128x128) ![σ, 0, 0] S1x128x128.size inb).emb (ix3 (⟨0, Nat.one_pos⟩ : Fin 1) (x 0) (x 1))))
      = recipC (ix2 (rowIx (m (edgeLoc d) (ix2 (0 : Fin 2) (edgeAt L c (x 0))))) (x 1)) := by
  unfold gathB
  show recipC (ix2 (rowIx (m (edgeLoc d) (ix2 (0 : Fin 2) (edgeAt L c
      (((Rect.unit (s := S3x128x128) ![σ, 0, 0] S1x128x128.size inb).emb (ix3 (⟨0, Nat.one_pos⟩ : Fin 1) (x 0) (x 1))) 1)))))
      (((Rect.unit (s := S3x128x128) ![σ, 0, 0] S1x128x128.size inb).emb (ix3 (⟨0, Nat.one_pos⟩ : Fin 1) (x 0) (x 1))) 2)) = _
  have h1 : ((Rect.unit (s := S3x128x128) ![σ, 0, 0] S1x128x128.size inb).emb (ix3 (⟨0, Nat.one_pos⟩ : Fin 1) (x 0) (x 1))) 1 = x 0 :=
    slot_coord1 σ inb (x 0) (x 1)
  have h2 : ((Rect.unit (s := S3x128x128) ![σ, 0, 0] S1x128x128.size inb).emb (ix3 (⟨0, Nat.one_pos⟩ : Fin 1) (x 0) (x 1))) 2 = x 1 :=
    slot_coord2 σ inb (x 0) (x 1)
  rw [h1, h2]

/-! ## What the gathers leave -/

set_option maxHeartbeats 4000000 in
theorem landA0 (hpre : PreOK m) (d : Dev nD) (L : grid1.Coords) (c : Fin 4) (prev : (sR1).view.ty.Contents (Elt F)) (g : (sI1).view.ty.Contents (Elt F))
    (o : ℕ) (hoc : o = 128 * c.val) (ho : ∀ a, (![o] : Fin 1 → ℕ) a + S128.size a ≤ S512.size a) (hn : _) (hin : _) :
    ∀ i ∈ (slot0M sR1).view.set,
      View.write (Elt F) (slot0M sR1).view prev
        (SparseCore.gatherPayload gathers_S4096x128_S128x128
        (View.read (Elt F) ((pV).slice (Rect.unit (s := S4096x128) ![0, 0] S4096x128.size inb_S4096x128_S4096x128_0_0) (fun _ => rfl)).view prodC)
        (SparseCore.rows
          (View.read (Elt F) ((sI1).slice (Rect.unit (s := S512) ![o] S128.size ho) (fun _ => rfl)).view
            ((sI1).view.writes (Elt F) g [⟨Rect.whole S512, (ReadAs.same : ReadAs (Elt F) S512 .i32 S512 .i32).apply
              (View.read (Elt F) (((eV).slice (Rect.unit (s := S2x16384) (k1_off1 L) S1x512.size (k1_off1_inb L)) (fun _ => rfl)).squeeze S512 squeezes_S1x512_S512).view (m (edgeLoc d)))⟩]))
          hn hin))
        Finset.univ i = gathA m prodC d L c i := by
  intro i hi
  obtain ⟨x, -, rfl⟩ := Finset.mem_map.mp hi
  rw [View.write_emb_of_mem _ _ (Finset.mem_univ x), cast_eq]
  unfold SparseCore.gatherPayload
  rw [gather_idx, table_read_p]
  -- the row the list names for this index's row: the edge's word, which is in range
  have hrow : SparseCore.rows
        (View.read (Elt F) ((sI1).slice (Rect.unit (s := S512) ![o] S128.size ho) (fun _ => rfl)).view
          ((sI1).view.writes (Elt F) g [⟨Rect.whole S512, (ReadAs.same : ReadAs (Elt F) S512 .i32 S512 .i32).apply
            (View.read (Elt F) (((eV).slice (Rect.unit (s := S2x16384) (k1_off1 L) S1x512.size (k1_off1_inb L)) (fun _ => rfl)).squeeze S512 squeezes_S1x512_S512).view (m (edgeLoc d)))⟩]))
        hn hin (x 0) = rowIx (m (edgeLoc d) (ix2 (1 : Fin 2) (edgeAt L c (x 0)))) := by
    apply Fin.ext
    show (View.read (Elt F) ((sI1).slice (Rect.unit (s := S512) ![o] S128.size ho) (fun _ => rfl)).view
      ((sI1).view.writes (Elt F) g [⟨Rect.whole S512, (ReadAs.same : ReadAs (Elt F) S512 .i32 S512 .i32).apply
            (View.read (Elt F) (((eV).slice (Rect.unit (s := S2x16384) (k1_off1 L) S1x512.size (k1_off1_inb L)) (fun _ => rfl)).squeeze S512 squeezes_S1x512_S512).view (m (edgeLoc d)))⟩])
      (S128.rowMajor.symm ((x 0).cast hn.symm))).toNat = _
    have e : S128.rowMajor.symm ((x 0).cast hn.symm) = ix1 (x 0) := rowMajor_symm_128 (x 0) hn
    rw [e]
    refine (congrArg BitVec.toNat (list_read (sI1) g _ o ho (ix1 (x 0)))).trans ?_
    show (View.read (Elt F) (((eV).slice (Rect.unit (s := S2x16384) (k1_off1 L) S1x512.size (k1_off1_inb L)) (fun _ => rfl)).squeeze S512 squeezes_S1x512_S512).view (m (edgeLoc d))
      ((Rect.unit (s := S512) ![o] S128.size ho).emb (ix1 (x 0)))).toNat = _
    refine (congrArg BitVec.toNat (edge_read (k1_off1 L) (k1_off1_inb L) (m (edgeLoc d))
      ((Rect.unit (s := S512) ![o] S128.size ho).emb (ix1 (x 0))))).trans ?_
    refine (congrArg (fun y : S2x16384.Idx => BitVec.toNat (m (edgeLoc d) y))
      (edge_idx L c o hoc ho (x 0) (k1_off1 L) (k1_off1_inb L) (1 : Fin 2) (k1_off1_eq L))).trans ?_
    exact (Nat.mod_eq_of_lt (hpre d _)).symm
  rw [hrow]
  refine Eq.trans ?_ (congrArg (gathA m prodC d L c) (slot_emb sR1 _ _ x)).symm
  exact (gathA_slot m prodC d L c _ _ x).symm

set_option maxHeartbeats 4000000 in
theorem landA1 (hpre : PreOK m) (d : Dev nD) (L : grid1.Coords) (c : Fin 4) (prev : (sR1).view.ty.Contents (Elt F)) (g : (sI1).view.ty.Contents (Elt F))
    (o : ℕ) (hoc : o = 128 * c.val) (ho : ∀ a, (![o] : Fin 1 → ℕ) a + S128.size a ≤ S512.size a) (hn : _) (hin : _) :
    ∀ i ∈ (slot1M sR1).view.set,
      View.write (Elt F) (slot1M sR1).view prev
        (SparseCore.gatherPayload gathers_S4096x128_S128x128
        (View.read (Elt F) ((pV).slice (Rect.unit (s := S4096x128) ![0, 0] S4096x128.size inb_S4096x128_S4096x128_0_0) (fun _ => rfl)).view prodC)
        (SparseCore.rows
          (View.read (Elt F) ((sI1).slice (Rect.unit (s := S512) ![o] S128.size ho) (fun _ => rfl)).view
            ((sI1).view.writes (Elt F) g [⟨Rect.whole S512, (ReadAs.same : ReadAs (Elt F) S512 .i32 S512 .i32).apply
              (View.read (Elt F) (((eV).slice (Rect.unit (s := S2x16384) (k1_off1 L) S1x512.size (k1_off1_inb L)) (fun _ => rfl)).squeeze S512 squeezes_S1x512_S512).view (m (edgeLoc d)))⟩]))
          hn hin))
        Finset.univ i = gathA m prodC d L c i := by
  intro i hi
  obtain ⟨x, -, rfl⟩ := Finset.mem_map.mp hi
  rw [View.write_emb_of_mem _ _ (Finset.mem_univ x), cast_eq]
  unfold SparseCore.gatherPayload
  rw [gather_idx, table_read_p]
  -- the row the list names for this index's row: the edge's word, which is in range
  have hrow : SparseCore.rows
        (View.read (Elt F) ((sI1).slice (Rect.unit (s := S512) ![o] S128.size ho) (fun _ => rfl)).view
          ((sI1).view.writes (Elt F) g [⟨Rect.whole S512, (ReadAs.same : ReadAs (Elt F) S512 .i32 S512 .i32).apply
            (View.read (Elt F) (((eV).slice (Rect.unit (s := S2x16384) (k1_off1 L) S1x512.size (k1_off1_inb L)) (fun _ => rfl)).squeeze S512 squeezes_S1x512_S512).view (m (edgeLoc d)))⟩]))
        hn hin (x 0) = rowIx (m (edgeLoc d) (ix2 (1 : Fin 2) (edgeAt L c (x 0)))) := by
    apply Fin.ext
    show (View.read (Elt F) ((sI1).slice (Rect.unit (s := S512) ![o] S128.size ho) (fun _ => rfl)).view
      ((sI1).view.writes (Elt F) g [⟨Rect.whole S512, (ReadAs.same : ReadAs (Elt F) S512 .i32 S512 .i32).apply
            (View.read (Elt F) (((eV).slice (Rect.unit (s := S2x16384) (k1_off1 L) S1x512.size (k1_off1_inb L)) (fun _ => rfl)).squeeze S512 squeezes_S1x512_S512).view (m (edgeLoc d)))⟩])
      (S128.rowMajor.symm ((x 0).cast hn.symm))).toNat = _
    have e : S128.rowMajor.symm ((x 0).cast hn.symm) = ix1 (x 0) := rowMajor_symm_128 (x 0) hn
    rw [e]
    refine (congrArg BitVec.toNat (list_read (sI1) g _ o ho (ix1 (x 0)))).trans ?_
    show (View.read (Elt F) (((eV).slice (Rect.unit (s := S2x16384) (k1_off1 L) S1x512.size (k1_off1_inb L)) (fun _ => rfl)).squeeze S512 squeezes_S1x512_S512).view (m (edgeLoc d))
      ((Rect.unit (s := S512) ![o] S128.size ho).emb (ix1 (x 0)))).toNat = _
    refine (congrArg BitVec.toNat (edge_read (k1_off1 L) (k1_off1_inb L) (m (edgeLoc d))
      ((Rect.unit (s := S512) ![o] S128.size ho).emb (ix1 (x 0))))).trans ?_
    refine (congrArg (fun y : S2x16384.Idx => BitVec.toNat (m (edgeLoc d) y))
      (edge_idx L c o hoc ho (x 0) (k1_off1 L) (k1_off1_inb L) (1 : Fin 2) (k1_off1_eq L))).trans ?_
    exact (Nat.mod_eq_of_lt (hpre d _)).symm
  rw [hrow]
  refine Eq.trans ?_ (congrArg (gathA m prodC d L c) (slot_emb sR1 _ _ x)).symm
  exact (gathA_slot m prodC d L c _ _ x).symm

set_option maxHeartbeats 4000000 in
theorem landA2 (hpre : PreOK m) (d : Dev nD) (L : grid1.Coords) (c : Fin 4) (prev : (sR1).view.ty.Contents (Elt F)) (g : (sI1).view.ty.Contents (Elt F))
    (o : ℕ) (hoc : o = 128 * c.val) (ho : ∀ a, (![o] : Fin 1 → ℕ) a + S128.size a ≤ S512.size a) (hn : _) (hin : _) :
    ∀ i ∈ (slot2M sR1).view.set,
      View.write (Elt F) (slot2M sR1).view prev
        (SparseCore.gatherPayload gathers_S4096x128_S128x128
        (View.read (Elt F) ((pV).slice (Rect.unit (s := S4096x128) ![0, 0] S4096x128.size inb_S4096x128_S4096x128_0_0) (fun _ => rfl)).view prodC)
        (SparseCore.rows
          (View.read (Elt F) ((sI1).slice (Rect.unit (s := S512) ![o] S128.size ho) (fun _ => rfl)).view
            ((sI1).view.writes (Elt F) g [⟨Rect.whole S512, (ReadAs.same : ReadAs (Elt F) S512 .i32 S512 .i32).apply
              (View.read (Elt F) (((eV).slice (Rect.unit (s := S2x16384) (k1_off1 L) S1x512.size (k1_off1_inb L)) (fun _ => rfl)).squeeze S512 squeezes_S1x512_S512).view (m (edgeLoc d)))⟩]))
          hn hin))
        Finset.univ i = gathA m prodC d L c i := by
  intro i hi
  obtain ⟨x, -, rfl⟩ := Finset.mem_map.mp hi
  rw [View.write_emb_of_mem _ _ (Finset.mem_univ x), cast_eq]
  unfold SparseCore.gatherPayload
  rw [gather_idx, table_read_p]
  -- the row the list names for this index's row: the edge's word, which is in range
  have hrow : SparseCore.rows
        (View.read (Elt F) ((sI1).slice (Rect.unit (s := S512) ![o] S128.size ho) (fun _ => rfl)).view
          ((sI1).view.writes (Elt F) g [⟨Rect.whole S512, (ReadAs.same : ReadAs (Elt F) S512 .i32 S512 .i32).apply
            (View.read (Elt F) (((eV).slice (Rect.unit (s := S2x16384) (k1_off1 L) S1x512.size (k1_off1_inb L)) (fun _ => rfl)).squeeze S512 squeezes_S1x512_S512).view (m (edgeLoc d)))⟩]))
        hn hin (x 0) = rowIx (m (edgeLoc d) (ix2 (1 : Fin 2) (edgeAt L c (x 0)))) := by
    apply Fin.ext
    show (View.read (Elt F) ((sI1).slice (Rect.unit (s := S512) ![o] S128.size ho) (fun _ => rfl)).view
      ((sI1).view.writes (Elt F) g [⟨Rect.whole S512, (ReadAs.same : ReadAs (Elt F) S512 .i32 S512 .i32).apply
            (View.read (Elt F) (((eV).slice (Rect.unit (s := S2x16384) (k1_off1 L) S1x512.size (k1_off1_inb L)) (fun _ => rfl)).squeeze S512 squeezes_S1x512_S512).view (m (edgeLoc d)))⟩])
      (S128.rowMajor.symm ((x 0).cast hn.symm))).toNat = _
    have e : S128.rowMajor.symm ((x 0).cast hn.symm) = ix1 (x 0) := rowMajor_symm_128 (x 0) hn
    rw [e]
    refine (congrArg BitVec.toNat (list_read (sI1) g _ o ho (ix1 (x 0)))).trans ?_
    show (View.read (Elt F) (((eV).slice (Rect.unit (s := S2x16384) (k1_off1 L) S1x512.size (k1_off1_inb L)) (fun _ => rfl)).squeeze S512 squeezes_S1x512_S512).view (m (edgeLoc d))
      ((Rect.unit (s := S512) ![o] S128.size ho).emb (ix1 (x 0)))).toNat = _
    refine (congrArg BitVec.toNat (edge_read (k1_off1 L) (k1_off1_inb L) (m (edgeLoc d))
      ((Rect.unit (s := S512) ![o] S128.size ho).emb (ix1 (x 0))))).trans ?_
    refine (congrArg (fun y : S2x16384.Idx => BitVec.toNat (m (edgeLoc d) y))
      (edge_idx L c o hoc ho (x 0) (k1_off1 L) (k1_off1_inb L) (1 : Fin 2) (k1_off1_eq L))).trans ?_
    exact (Nat.mod_eq_of_lt (hpre d _)).symm
  rw [hrow]
  refine Eq.trans ?_ (congrArg (gathA m prodC d L c) (slot_emb sR1 _ _ x)).symm
  exact (gathA_slot m prodC d L c _ _ x).symm

set_option maxHeartbeats 4000000 in
theorem landB0 (hpre : PreOK m) (d : Dev nD) (L : grid1.Coords) (c : Fin 4) (prev : (sR0).view.ty.Contents (Elt F)) (g : (sI0).view.ty.Contents (Elt F))
    (o : ℕ) (hoc : o = 128 * c.val) (ho : ∀ a, (![o] : Fin 1 → ℕ) a + S128.size a ≤ S512.size a) (hn : _) (hin : _) :
    ∀ i ∈ (slot0M sR0).view.set,
      View.write (Elt F) (slot0M sR0).view prev
        (SparseCore.gatherPayload gathers_S4096x128_S128x128
        (View.read (Elt F) ((rV).slice (Rect.unit (s := S4096x128) ![0, 0] S4096x128.size inb_S4096x128_S4096x128_0_0) (fun _ => rfl)).view recipC)
        (SparseCore.rows
          (View.read (Elt F) ((sI0).slice (Rect.unit (s := S512) ![o] S128.size ho) (fun _ => rfl)).view
            ((sI0).view.writes (Elt F) g [⟨Rect.whole S512, (ReadAs.same : ReadAs (Elt F) S512 .i32 S512 .i32).apply
              (View.read (Elt F) (((eV).slice (Rect.unit (s := S2x16384) (k1_off2 L) S1x512.size (k1_off2_inb L)) (fun _ => rfl)).squeeze S512 squeezes_S1x512_S512).view (m (edgeLoc d)))⟩]))
          hn hin))
        Finset.univ i = gathB m recipC d L c i := by
  intro i hi
  obtain ⟨x, -, rfl⟩ := Finset.mem_map.mp hi
  rw [View.write_emb_of_mem _ _ (Finset.mem_univ x), cast_eq]
  unfold SparseCore.gatherPayload
  rw [gather_idx, table_read_r]
  -- the row the list names for this index's row: the edge's word, which is in range
  have hrow : SparseCore.rows
        (View.read (Elt F) ((sI0).slice (Rect.unit (s := S512) ![o] S128.size ho) (fun _ => rfl)).view
          ((sI0).view.writes (Elt F) g [⟨Rect.whole S512, (ReadAs.same : ReadAs (Elt F) S512 .i32 S512 .i32).apply
            (View.read (Elt F) (((eV).slice (Rect.unit (s := S2x16384) (k1_off2 L) S1x512.size (k1_off2_inb L)) (fun _ => rfl)).squeeze S512 squeezes_S1x512_S512).view (m (edgeLoc d)))⟩]))
        hn hin (x 0) = rowIx (m (edgeLoc d) (ix2 (0 : Fin 2) (edgeAt L c (x 0)))) := by
    apply Fin.ext
    show (View.read (Elt F) ((sI0).slice (Rect.unit (s := S512) ![o] S128.size ho) (fun _ => rfl)).view
      ((sI0).view.writes (Elt F) g [⟨Rect.whole S512, (ReadAs.same : ReadAs (Elt F) S512 .i32 S512 .i32).apply
            (View.read (Elt F) (((eV).slice (Rect.unit (s := S2x16384) (k1_off2 L) S1x512.size (k1_off2_inb L)) (fun _ => rfl)).squeeze S512 squeezes_S1x512_S512).view (m (edgeLoc d)))⟩])
      (S128.rowMajor.symm ((x 0).cast hn.symm))).toNat = _
    have e : S128.rowMajor.symm ((x 0).cast hn.symm) = ix1 (x 0) := rowMajor_symm_128 (x 0) hn
    rw [e]
    refine (congrArg BitVec.toNat (list_read (sI0) g _ o ho (ix1 (x 0)))).trans ?_
    show (View.read (Elt F) (((eV).slice (Rect.unit (s := S2x16384) (k1_off2 L) S1x512.size (k1_off2_inb L)) (fun _ => rfl)).squeeze S512 squeezes_S1x512_S512).view (m (edgeLoc d))
      ((Rect.unit (s := S512) ![o] S128.size ho).emb (ix1 (x 0)))).toNat = _
    refine (congrArg BitVec.toNat (edge_read (k1_off2 L) (k1_off2_inb L) (m (edgeLoc d))
      ((Rect.unit (s := S512) ![o] S128.size ho).emb (ix1 (x 0))))).trans ?_
    refine (congrArg (fun y : S2x16384.Idx => BitVec.toNat (m (edgeLoc d) y))
      (edge_idx L c o hoc ho (x 0) (k1_off2 L) (k1_off2_inb L) (0 : Fin 2) (k1_off2_eq L))).trans ?_
    exact (Nat.mod_eq_of_lt (hpre d _)).symm
  rw [hrow]
  refine Eq.trans ?_ (congrArg (gathB m recipC d L c) (slot_emb sR0 _ _ x)).symm
  exact (gathB_slot m recipC d L c _ _ x).symm

set_option maxHeartbeats 4000000 in
theorem landB1 (hpre : PreOK m) (d : Dev nD) (L : grid1.Coords) (c : Fin 4) (prev : (sR0).view.ty.Contents (Elt F)) (g : (sI0).view.ty.Contents (Elt F))
    (o : ℕ) (hoc : o = 128 * c.val) (ho : ∀ a, (![o] : Fin 1 → ℕ) a + S128.size a ≤ S512.size a) (hn : _) (hin : _) :
    ∀ i ∈ (slot1M sR0).view.set,
      View.write (Elt F) (slot1M sR0).view prev
        (SparseCore.gatherPayload gathers_S4096x128_S128x128
        (View.read (Elt F) ((rV).slice (Rect.unit (s := S4096x128) ![0, 0] S4096x128.size inb_S4096x128_S4096x128_0_0) (fun _ => rfl)).view recipC)
        (SparseCore.rows
          (View.read (Elt F) ((sI0).slice (Rect.unit (s := S512) ![o] S128.size ho) (fun _ => rfl)).view
            ((sI0).view.writes (Elt F) g [⟨Rect.whole S512, (ReadAs.same : ReadAs (Elt F) S512 .i32 S512 .i32).apply
              (View.read (Elt F) (((eV).slice (Rect.unit (s := S2x16384) (k1_off2 L) S1x512.size (k1_off2_inb L)) (fun _ => rfl)).squeeze S512 squeezes_S1x512_S512).view (m (edgeLoc d)))⟩]))
          hn hin))
        Finset.univ i = gathB m recipC d L c i := by
  intro i hi
  obtain ⟨x, -, rfl⟩ := Finset.mem_map.mp hi
  rw [View.write_emb_of_mem _ _ (Finset.mem_univ x), cast_eq]
  unfold SparseCore.gatherPayload
  rw [gather_idx, table_read_r]
  -- the row the list names for this index's row: the edge's word, which is in range
  have hrow : SparseCore.rows
        (View.read (Elt F) ((sI0).slice (Rect.unit (s := S512) ![o] S128.size ho) (fun _ => rfl)).view
          ((sI0).view.writes (Elt F) g [⟨Rect.whole S512, (ReadAs.same : ReadAs (Elt F) S512 .i32 S512 .i32).apply
            (View.read (Elt F) (((eV).slice (Rect.unit (s := S2x16384) (k1_off2 L) S1x512.size (k1_off2_inb L)) (fun _ => rfl)).squeeze S512 squeezes_S1x512_S512).view (m (edgeLoc d)))⟩]))
        hn hin (x 0) = rowIx (m (edgeLoc d) (ix2 (0 : Fin 2) (edgeAt L c (x 0)))) := by
    apply Fin.ext
    show (View.read (Elt F) ((sI0).slice (Rect.unit (s := S512) ![o] S128.size ho) (fun _ => rfl)).view
      ((sI0).view.writes (Elt F) g [⟨Rect.whole S512, (ReadAs.same : ReadAs (Elt F) S512 .i32 S512 .i32).apply
            (View.read (Elt F) (((eV).slice (Rect.unit (s := S2x16384) (k1_off2 L) S1x512.size (k1_off2_inb L)) (fun _ => rfl)).squeeze S512 squeezes_S1x512_S512).view (m (edgeLoc d)))⟩])
      (S128.rowMajor.symm ((x 0).cast hn.symm))).toNat = _
    have e : S128.rowMajor.symm ((x 0).cast hn.symm) = ix1 (x 0) := rowMajor_symm_128 (x 0) hn
    rw [e]
    refine (congrArg BitVec.toNat (list_read (sI0) g _ o ho (ix1 (x 0)))).trans ?_
    show (View.read (Elt F) (((eV).slice (Rect.unit (s := S2x16384) (k1_off2 L) S1x512.size (k1_off2_inb L)) (fun _ => rfl)).squeeze S512 squeezes_S1x512_S512).view (m (edgeLoc d))
      ((Rect.unit (s := S512) ![o] S128.size ho).emb (ix1 (x 0)))).toNat = _
    refine (congrArg BitVec.toNat (edge_read (k1_off2 L) (k1_off2_inb L) (m (edgeLoc d))
      ((Rect.unit (s := S512) ![o] S128.size ho).emb (ix1 (x 0))))).trans ?_
    refine (congrArg (fun y : S2x16384.Idx => BitVec.toNat (m (edgeLoc d) y))
      (edge_idx L c o hoc ho (x 0) (k1_off2 L) (k1_off2_inb L) (0 : Fin 2) (k1_off2_eq L))).trans ?_
    exact (Nat.mod_eq_of_lt (hpre d _)).symm
  rw [hrow]
  refine Eq.trans ?_ (congrArg (gathB m recipC d L c) (slot_emb sR0 _ _ x)).symm
  exact (gathB_slot m recipC d L c _ _ x).symm

set_option maxHeartbeats 4000000 in
theorem landB2 (hpre : PreOK m) (d : Dev nD) (L : grid1.Coords) (c : Fin 4) (prev : (sR0).view.ty.Contents (Elt F)) (g : (sI0).view.ty.Contents (Elt F))
    (o : ℕ) (hoc : o = 128 * c.val) (ho : ∀ a, (![o] : Fin 1 → ℕ) a + S128.size a ≤ S512.size a) (hn : _) (hin : _) :
    ∀ i ∈ (slot2M sR0).view.set,
      View.write (Elt F) (slot2M sR0).view prev
        (SparseCore.gatherPayload gathers_S4096x128_S128x128
        (View.read (Elt F) ((rV).slice (Rect.unit (s := S4096x128) ![0, 0] S4096x128.size inb_S4096x128_S4096x128_0_0) (fun _ => rfl)).view recipC)
        (SparseCore.rows
          (View.read (Elt F) ((sI0).slice (Rect.unit (s := S512) ![o] S128.size ho) (fun _ => rfl)).view
            ((sI0).view.writes (Elt F) g [⟨Rect.whole S512, (ReadAs.same : ReadAs (Elt F) S512 .i32 S512 .i32).apply
              (View.read (Elt F) (((eV).slice (Rect.unit (s := S2x16384) (k1_off2 L) S1x512.size (k1_off2_inb L)) (fun _ => rfl)).squeeze S512 squeezes_S1x512_S512).view (m (edgeLoc d)))⟩]))
          hn hin))
        Finset.univ i = gathB m recipC d L c i := by
  intro i hi
  obtain ⟨x, -, rfl⟩ := Finset.mem_map.mp hi
  rw [View.write_emb_of_mem _ _ (Finset.mem_univ x), cast_eq]
  unfold SparseCore.gatherPayload
  rw [gather_idx, table_read_r]
  -- the row the list names for this index's row: the edge's word, which is in range
  have hrow : SparseCore.rows
        (View.read (Elt F) ((sI0).slice (Rect.unit (s := S512) ![o] S128.size ho) (fun _ => rfl)).view
          ((sI0).view.writes (Elt F) g [⟨Rect.whole S512, (ReadAs.same : ReadAs (Elt F) S512 .i32 S512 .i32).apply
            (View.read (Elt F) (((eV).slice (Rect.unit (s := S2x16384) (k1_off2 L) S1x512.size (k1_off2_inb L)) (fun _ => rfl)).squeeze S512 squeezes_S1x512_S512).view (m (edgeLoc d)))⟩]))
        hn hin (x 0) = rowIx (m (edgeLoc d) (ix2 (0 : Fin 2) (edgeAt L c (x 0)))) := by
    apply Fin.ext
    show (View.read (Elt F) ((sI0).slice (Rect.unit (s := S512) ![o] S128.size ho) (fun _ => rfl)).view
      ((sI0).view.writes (Elt F) g [⟨Rect.whole S512, (ReadAs.same : ReadAs (Elt F) S512 .i32 S512 .i32).apply
            (View.read (Elt F) (((eV).slice (Rect.unit (s := S2x16384) (k1_off2 L) S1x512.size (k1_off2_inb L)) (fun _ => rfl)).squeeze S512 squeezes_S1x512_S512).view (m (edgeLoc d)))⟩])
      (S128.rowMajor.symm ((x 0).cast hn.symm))).toNat = _
    have e : S128.rowMajor.symm ((x 0).cast hn.symm) = ix1 (x 0) := rowMajor_symm_128 (x 0) hn
    rw [e]
    refine (congrArg BitVec.toNat (list_read (sI0) g _ o ho (ix1 (x 0)))).trans ?_
    show (View.read (Elt F) (((eV).slice (Rect.unit (s := S2x16384) (k1_off2 L) S1x512.size (k1_off2_inb L)) (fun _ => rfl)).squeeze S512 squeezes_S1x512_S512).view (m (edgeLoc d))
      ((Rect.unit (s := S512) ![o] S128.size ho).emb (ix1 (x 0)))).toNat = _
    refine (congrArg BitVec.toNat (edge_read (k1_off2 L) (k1_off2_inb L) (m (edgeLoc d))
      ((Rect.unit (s := S512) ![o] S128.size ho).emb (ix1 (x 0))))).trans ?_
    refine (congrArg (fun y : S2x16384.Idx => BitVec.toNat (m (edgeLoc d) y))
      (edge_idx L c o hoc ho (x 0) (k1_off2 L) (k1_off2_inb L) (0 : Fin 2) (k1_off2_eq L))).trans ?_
    exact (Nat.mod_eq_of_lt (hpre d _)).symm
  rw [hrow]
  refine Eq.trans ?_ (congrArg (gathB m recipC d L c) (slot_emb sR0 _ _ x)).symm
  exact (gathB_slot m recipC d L c _ _ x).symm

end Cert.Kernel.Sc

end
-- ==== Proof.ScIdxDK.lean ====
/-
  One trip of a row loop, and a block of the result after its copy out of a slot.
-/
import proofs.«208470_g86148454023375_cont_sun_c4_654_45_alg».proof.Proof.ScIdxK
import Idealize.ShloMosaic.Lib.Pipeline.Value

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type}

local notation "𝕄" => MT nD τ sig (HIx 1) (Elt F) ℕ UU ℕ

variable [FloatOps F]
variable (m : (ℓ : Loc nD τ sig) → Buf (Elt F) ℓ) (prodC recipC : (⟨S4096x128, .f32⟩ : BufTy).Contents (Elt F))

/-- An index in row `k` of slot `σ` whose lane is in [ℓ, ℓ + 16) is in the sixteen-lane rectangle at (σ, k, ℓ); -/
theorem mem_lane {σ : Fin 3} {k ℓ : ℕ} {inb : ∀ a, (![σ.val, k, ℓ] : Fin 3 → ℕ) a + S1x1x16.size a ≤ S3x128x128.size a} (i : S3x128x128.Idx)
    (h0 : (i 0).val = σ.val) (h1 : (i 1).val = k) (h2 : ℓ ≤ (i 2).val ∧ (i 2).val < ℓ + 16) :
    i ∈ (Rect.unit (s := S3x128x128) ![σ.val, k, ℓ] S1x1x16.size inb).set := by
  rw [Rect.mem_set_unit]
  intro a
  match a with
  | ⟨0, _⟩ => show σ.val ≤ (i 0).val ∧ (i 0).val < σ.val + 1; omega
  | ⟨1, _⟩ => show k ≤ (i 1).val ∧ (i 1).val < k + 1; omega
  | ⟨2, _⟩ => show ℓ ≤ (i 2).val ∧ (i 2).val < ℓ + 16; omega

/-- and an index in that rectangle is in that row. -/
theorem row_of_mem_lane {σ : Fin 3} {k ℓ : ℕ} {inb : ∀ a, (![σ.val, k, ℓ] : Fin 3 → ℕ) a + S1x1x16.size a ≤ S3x128x128.size a} {i : S3x128x128.Idx}
    (hmem : i ∈ (Rect.unit (s := S3x128x128) ![σ.val, k, ℓ] S1x1x16.size inb).set) : (i 0).val = σ.val ∧ (i 1).val = k := by
  rw [Rect.mem_set_unit] at hmem
  have h0 : σ.val ≤ (i 0).val ∧ (i 0).val < σ.val + 1 := hmem 0
  have h1 : k ≤ (i 1).val ∧ (i 1).val < k + 1 := hmem 1
  omega

/-- A trip's eight lane stores of row `k` of slot `σ` are the row's lanewise product. -/
theorem row_step (σ : Fin 3) (k : ℕ) (hk : k < 128) (f : (sR1).view.ty.Contents (Elt F)) (h : (sR0).view.ty.Contents (Elt F))
    (o0 : Fin 3 → ℕ) (ho0 : o0 = ![σ.val, k, 0]) (inb0 : ∀ a, o0 a + S1x1x16.size a ≤ S3x128x128.size a)
    (P0 : Vec F S1x1x16 .f32 → Vec F S1x1x16 .f32 → FVec F S1x1x16 .f32) (hP0 : ∀ a b x, P0 a b x = FloatOps.mulf (a x) (b x))
    (o1 : Fin 3 → ℕ) (ho1 : o1 = ![σ.val, k, 16]) (inb1 : ∀ a, o1 a + S1x1x16.size a ≤ S3x128x128.size a)
    (P1 : Vec F S1x1x16 .f32 → Vec F S1x1x16 .f32 → FVec F S1x1x16 .f32) (hP1 : ∀ a b x, P1 a b x = FloatOps.mulf (a x) (b x))
    (o2 : Fin 3 → ℕ) (ho2 : o2 = ![σ.val, k, 32]) (inb2 : ∀ a, o2 a + S1x1x16.size a ≤ S3x128x128.size a)
    (P2 : Vec F S1x1x16 .f32 → Vec F S1x1x16 .f32 → FVec F S1x1x16 .f32) (hP2 : ∀ a b x, P2 a b x = FloatOps.mulf (a x) (b x))
    (o3 : Fin 3 → ℕ) (ho3 : o3 = ![σ.val, k, 48]) (inb3 : ∀ a, o3 a + S1x1x16.size a ≤ S3x128x128.size a)
    (P3 : Vec F S1x1x16 .f32 → Vec F S1x1x16 .f32 → FVec F S1x1x16 .f32) (hP3 : ∀ a b x, P3 a b x = FloatOps.mulf (a x) (b x))
    (o4 : Fin 3 → ℕ) (ho4 : o4 = ![σ.val, k, 64]) (inb4 : ∀ a, o4 a + S1x1x16.size a ≤ S3x128x128.size a)
    (P4 : Vec F S1x1x16 .f32 → Vec F S1x1x16 .f32 → FVec F S1x1x16 .f32) (hP4 : ∀ a b x, P4 a b x = FloatOps.mulf (a x) (b x))
    (o5 : Fin 3 → ℕ) (ho5 : o5 = ![σ.val, k, 80]) (inb5 : ∀ a, o5 a + S1x1x16.size a ≤ S3x128x128.size a)
    (P5 : Vec F S1x1x16 .f32 → Vec F S1x1x16 .f32 → FVec F S1x1x16 .f32) (hP5 : ∀ a b x, P5 a b x = FloatOps.mulf (a x) (b x))
    (o6 : Fin 3 → ℕ) (ho6 : o6 = ![σ.val, k, 96]) (inb6 : ∀ a, o6 a + S1x1x16.size a ≤ S3x128x128.size a)
    (P6 : Vec F S1x1x16 .f32 → Vec F S1x1x16 .f32 → FVec F S1x1x16 .f32) (hP6 : ∀ a b x, P6 a b x = FloatOps.mulf (a x) (b x))
    (o7 : Fin 3 → ℕ) (ho7 : o7 = ![σ.val, k, 112]) (inb7 : ∀ a, o7 a + S1x1x16.size a ≤ S3x128x128.size a)
    (P7 : Vec F S1x1x16 .f32 → Vec F S1x1x16 .f32 → FVec F S1x1x16 .f32) (hP7 : ∀ a b x, P7 a b x = FloatOps.mulf (a x) (b x)) :
    ∀ i, (sR1).view.writes (Elt F) f
      [⟨Rect.unit (s := S3x128x128) o7 S1x1x16.size inb7,
          P7 (View.readAt (Elt F) (sR1).view (Rect.unit (s := S3x128x128) o7 S1x1x16.size inb7).toLoadRect f)
            (View.readAt (Elt F) (sR0).view (Rect.unit (s := S3x128x128) o7 S1x1x16.size inb7).toLoadRect h)⟩,
        ⟨Rect.unit (s := S3x128x128) o6 S1x1x16.size inb6,
          P6 (View.readAt (Elt F) (sR1).view (Rect.unit (s := S3x128x128) o6 S1x1x16.size inb6).toLoadRect f)
            (View.readAt (Elt F) (sR0).view (Rect.unit (s := S3x128x128) o6 S1x1x16.size inb6).toLoadRect h)⟩,
        ⟨Rect.unit (s := S3x128x128) o5 S1x1x16.size inb5,
          P5 (View.readAt (Elt F) (sR1).view (Rect.unit (s := S3x128x128) o5 S1x1x16.size inb5).toLoadRect f)
            (View.readAt (Elt F) (sR0).view (Rect.unit (s := S3x128x128) o5 S1x1x16.size inb5).toLoadRect h)⟩,
        ⟨Rect.unit (s := S3x128x128) o4 S1x1x16.size inb4,
          P4 (View.readAt (Elt F) (sR1).view (Rect.unit (s := S3x128x128) o4 S1x1x16.size inb4).toLoadRect f)
            (View.readAt (Elt F) (sR0).view (Rect.unit (s := S3x128x128) o4 S1x1x16.size inb4).toLoadRect h)⟩,
        ⟨Rect.unit (s := S3x128x128) o3 S1x1x16.size inb3,
          P3 (View.readAt (Elt F) (sR1).view (Rect.unit (s := S3x128x128) o3 S1x1x16.size inb3).toLoadRect f)
            (View.readAt (Elt F) (sR0).view (Rect.unit (s := S3x128x128) o3 S1x1x16.size inb3).toLoadRect h)⟩,
        ⟨Rect.unit (s := S3x128x128) o2 S1x1x16.size inb2,
          P2 (View.readAt (Elt F) (sR1).view (Rect.unit (s := S3x128x128) o2 S1x1x16.size inb2).toLoadRect f)
            (View.readAt (Elt F) (sR0).view (Rect.unit (s := S3x128x128) o2 S1x1x16.size inb2).toLoadRect h)⟩,
        ⟨Rect.unit (s := S3x128x128) o1 S1x1x16.size inb1,
          P1 (View.readAt (Elt F) (sR1).view (Rect.unit (s := S3x128x128) o1 S1x1x16.size inb1).toLoadRect f)
            (View.readAt (Elt F) (sR0).view (Rect.unit (s := S3x128x128) o1 S1x1x16.size inb1).toLoadRect h)⟩,
        ⟨Rect.unit (s := S3x128x128) o0 S1x1x16.size inb0,
          P0 (View.readAt (Elt F) (sR1).view (Rect.unit (s := S3x128x128) o0 S1x1x16.size inb0).toLoadRect f)
            (View.readAt (Elt F) (sR0).view (Rect.unit (s := S3x128x128) o0 S1x1x16.size inb0).toLoadRect h)⟩] i
      = if (i 0).val = σ.val ∧ (i 1).val = k then FloatOps.mulf (f i) (h i) else f i := by
  intro i
  subst ho0 ho1 ho2 ho3 ho4 ho5 ho6 ho7
  have key : ∀ g : (sR1).view.ty.Contents (Elt F), (sR1).view.read (Elt F) g i = g i := fun g => rfl
  refine (key _).symm.trans ?_
  by_cases hrow : (i 0).val = σ.val ∧ (i 1).val = k
  · rw [if_pos hrow]
    refine View.read_writes_apply_of_pieces (sR1).view f (fun j => FloatOps.mulf (f j) (h j)) _ ?_ i ?_
    · intro p hp x
      simp only [List.mem_cons, List.not_mem_nil, _root_.or_false] at hp
      rcases hp with rfl | rfl | rfl | rfl | rfl | rfl | rfl | rfl
      · exact hP7 _ _ x
      · exact hP6 _ _ x
      · exact hP5 _ _ x
      · exact hP4 _ _ x
      · exact hP3 _ _ x
      · exact hP2 _ _ x
      · exact hP1 _ _ x
      · exact hP0 _ _ x
    · have hi2 : (i 2).val < 128 := (i 2).isLt
      have hc : (i 2).val < 16 ∨ (16 ≤ (i 2).val ∧ (i 2).val < 32) ∨ (32 ≤ (i 2).val ∧ (i 2).val < 48) ∨ (48 ≤ (i 2).val ∧ (i 2).val < 64)
          ∨ (64 ≤ (i 2).val ∧ (i 2).val < 80) ∨ (80 ≤ (i 2).val ∧ (i 2).val < 96) ∨ (96 ≤ (i 2).val ∧ (i 2).val < 112) ∨ (112 ≤ (i 2).val ∧ (i 2).val < 128) := by omega
      rcases hc with hc | hc | hc | hc | hc | hc | hc | hc
      · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_lane (ℓ := 0) (inb := inb0) i hrow.1 hrow.2 (by omega)⟩
      · exact ⟨_, (List.mem_cons_of_mem _ (List.mem_cons_of_mem _ (List.mem_cons_of_mem _ (List.mem_cons_of_mem _ (List.mem_cons_of_mem _ (List.mem_cons_of_mem _ List.mem_cons_self)))))), mem_lane (ℓ := 16) (inb := inb1) i hrow.1 hrow.2 (by omega)⟩
      · exact ⟨_, (List.mem_cons_of_mem _ (List.mem_cons_of_mem _ (List.mem_cons_of_mem _ (List.mem_cons_of_mem _ (List.mem_cons_of_mem _ List.mem_cons_self))))), mem_lane (ℓ := 32) (inb := inb2) i hrow.1 hrow.2 (by omega)⟩
      · exact ⟨_, (List.mem_cons_of_mem _ (List.mem_cons_of_mem _ (List.mem_cons_of_mem _ (List.mem_cons_of_mem _ List.mem_cons_self)))), mem_lane (ℓ := 48) (inb := inb3) i hrow.1 hrow.2 (by omega)⟩
      · exact ⟨_, (List.mem_cons_of_mem _ (List.mem_cons_of_mem _ (List.mem_cons_of_mem _ List.mem_cons_self))), mem_lane (ℓ := 64) (inb := inb4) i hrow.1 hrow.2 (by omega)⟩
      · exact ⟨_, (List.mem_cons_of_mem _ (List.mem_cons_of_mem _ List.mem_cons_self)), mem_lane (ℓ := 80) (inb := inb5) i hrow.1 hrow.2 (by omega)⟩
      · exact ⟨_, (List.mem_cons_of_mem _ List.mem_cons_self), mem_lane (ℓ := 96) (inb := inb6) i hrow.1 hrow.2 (by omega)⟩
      · exact ⟨_, List.mem_cons_self, mem_lane (ℓ := 112) (inb := inb7) i hrow.1 hrow.2 (by omega)⟩
  · rw [if_neg hrow]
    refine (View.read_writes_apply_of_forall_not_mem (sR1).view f i _ ?_).trans (key f)
    intro p hp hmem
    simp only [List.mem_cons, List.not_mem_nil, _root_.or_false] at hp
    rcases hp with rfl | rfl | rfl | rfl | rfl | rfl | rfl | rfl
    · exact hrow (row_of_mem_lane (ℓ := 112) (inb := inb7) hmem)
    · exact hrow (row_of_mem_lane (ℓ := 96) (inb := inb6) hmem)
    · exact hrow (row_of_mem_lane (ℓ := 80) (inb := inb5) hmem)
    · exact hrow (row_of_mem_lane (ℓ := 64) (inb := inb4) hmem)
    · exact hrow (row_of_mem_lane (ℓ := 48) (inb := inb3) hmem)
    · exact hrow (row_of_mem_lane (ℓ := 32) (inb := inb2) hmem)
    · exact hrow (row_of_mem_lane (ℓ := 16) (inb := inb1) hmem)
    · exact hrow (row_of_mem_lane (ℓ := 0) (inb := inb0) hmem)

/-! ## The scatter -/

/-- A block of the result after the copy out of the slot at offsets (σ, 0, 0), when the slot holds the products of the
    block's chunk: element (r, l) of the block is element (σ, r, l) of the ring buffer, and sits at row
    (the subcore's first row) + 128 c + r, lane l, of the result. -/
theorem scat_gen (d : Dev nD) (L : grid1.Coords) (c : Fin 4) (off : Fin 3 → ℕ) (σ : ℕ) (hoff : off = ![σ, 0, 0])
    (inb : ∀ a, off a + S1x128x128.size a ≤ S3x128x128.size a)
    (g : (sR1).view.ty.Contents (Elt F)) (base : (chunkM L c).view.ty.Contents (Elt F))
    (hg : ∀ j ∈ (((sR1).slice (Rect.unit (s := S3x128x128) off S1x128x128.size inb) (fun _ => rfl)).squeeze S128x128 squeezes_S1x128x128_S128x128).view.set,
      g j = FloatOps.mulf (gathA m prodC d L c j) (gathB m recipC d L c j)) :
    ∀ i ∈ chunkSet L c,
      (chunkM L c).view.writes (Elt F) base [⟨Rect.whole S128x128, (ReadAs.same : ReadAs (Elt F) S128x128 .f32 S128x128 .f32).apply
        (View.read (Elt F) (((sR1).slice (Rect.unit (s := S3x128x128) off S1x128x128.size inb) (fun _ => rfl)).squeeze S128x128 squeezes_S1x128x128_S128x128).view g)⟩] i
        = msgC m prodC recipC d i := by
  intro i hi
  obtain ⟨x, -, rfl⟩ := Finset.mem_map.mp hi
  rw [View.writes_singleton]
  have e : (chunkM L c).view.emb x = ((chunkM L c).view.slice (Rect.whole S128x128)).emb x := by
    simp only [View.emb_slice, Function.Embedding.trans_apply, Rect.emb_whole_apply]
  rw [e, View.write_emb_of_mem _ _ (Finset.mem_univ _)]
  subst hoff
  have hc : S1x128x128.ShapeCasts S128x128 := by decide
  have hrd := Memref.read_squeeze_slice (Val := Elt F) (sR1) (Rect.unit (s := S3x128x128) ![σ, 0, 0] S1x128x128.size inb) (fun _ => rfl) squeezes_S1x128x128_S128x128 hc g
  show View.read (Elt F) (((sR1).slice (Rect.unit (s := S3x128x128) ![σ, 0, 0] S1x128x128.size inb) (fun _ => rfl)).squeeze S128x128 squeezes_S1x128x128_S128x128).view g x = _
  rw [hrd]
  rw [shapeCast_dropUnit_apply (n := 2) ![128, 128], ← e]
  have hx0 : (x 0).val < 128 := (x 0).isLt
  have hx1 : (x 1).val < 128 := (x 1).isLt
  -- the slot's element the block's element (x 0, x 1) is copied from
  let j : S3x128x128.Idx := (Rect.unit (s := S3x128x128) ![σ, 0, 0] S1x128x128.size inb).toLoadRect.idx (Fin.cons ⟨0, Nat.one_pos⟩ x)
  have hj1 : (j 1).val = (x 0).val := by show 0 + 1 * (x 0).val = _; omega
  have hj2 : (j 2).val = (x 1).val := by show 0 + 1 * (x 1).val = _; omega
  have hjmem : j ∈ (((sR1).slice (Rect.unit (s := S3x128x128) ![σ, 0, 0] S1x128x128.size inb) (fun _ => rfl)).squeeze S128x128 squeezes_S1x128x128_S128x128).view.set := by
    have hs : (((sR1).slice (Rect.unit (s := S3x128x128) ![σ, 0, 0] S1x128x128.size inb) (fun _ => rfl)).squeeze S128x128 squeezes_S1x128x128_S128x128).view.set
        = (Rect.unit (s := S3x128x128) ![σ, 0, 0] S1x128x128.size inb).set :=
      (View.set_reshape (v := (View.whole cc1_scratch2).slice (Rect.unit (s := S3x128x128) ![σ, 0, 0] S1x128x128.size inb)) _).trans
        (View.set_slice_whole cc1_scratch2 _)
    rw [hs]
    exact LoadRect.idx_mem _ _
  show g j = _
  rw [hg j hjmem]
  -- the block's element sits at row baseRow L + 128 c + x 0, lane x 1 of the result
  have hi0 : ((chunkM L c).view.emb x) 0 = edgeAt L c (j 1) := by
    apply Fin.ext
    show (k1_off11 L (BitVec.ofNat 32 (128 * c.val))) 0 + 1 * (x 0).val = baseRow L + 128 * c.val + (j 1).val
    rw [k1_off11_eq L c, hj1]; unfold baseRow
    show 1024 * (L 1).val + 512 * (L 0).val + 128 * c.val + 1 * (x 0).val = _; omega
  have hi1 : ((chunkM L c).view.emb x) 1 = j 2 := by
    apply Fin.ext
    show (k1_off11 L (BitVec.ofNat 32 (128 * c.val))) 1 + 1 * (x 1).val = (j 2).val
    rw [k1_off11_eq L c, hj2]
    show 0 + 1 * (x 1).val = _; omega
  unfold gathA gathB
  show _ = msgV prodC recipC (m (edgeLoc d)) ((chunkM L c).view.emb x)
  unfold msgV
  rw [hi0, hi1]

/-- Block `c` of the result after the scatter out of slot 0, when that slot holds the products of chunk `c`. -/
theorem scat0 (hpre : PreOK m) (d : Dev nD) (L : grid1.Coords) (c : Fin 4) (g : (sR1).view.ty.Contents (Elt F)) (base : (chunkM L c).view.ty.Contents (Elt F))
    (hg : ∀ j ∈ (slot0M sR1).view.set, g j = FloatOps.mulf (gathA m prodC d L c j) (gathB m recipC d L c j)) :
    ∀ i ∈ chunkSet L c,
      (chunkM L c).view.writes (Elt F) base [⟨Rect.whole S128x128, (ReadAs.same : ReadAs (Elt F) S128x128 .f32 S128x128 .f32).apply
        (View.read (Elt F) (slot0M sR1).view g)⟩] i = msgC m prodC recipC d i := by
  exact scat_gen m prodC recipC d L c ![0, 0, 0] 0 rfl inb_S3x128x128_S1x128x128_0_0_0 g base hg

/-- Block `c` of the result after the scatter out of slot 1, when that slot holds the products of chunk `c`. -/
theorem scat1 (hpre : PreOK m) (d : Dev nD) (L : grid1.Coords) (c : Fin 4) (g : (sR1).view.ty.Contents (Elt F)) (base : (chunkM L c).view.ty.Contents (Elt F))
    (hg : ∀ j ∈ (slot1M sR1).view.set, g j = FloatOps.mulf (gathA m prodC d L c j) (gathB m recipC d L c j)) :
    ∀ i ∈ chunkSet L c,
      (chunkM L c).view.writes (Elt F) base [⟨Rect.whole S128x128, (ReadAs.same : ReadAs (Elt F) S128x128 .f32 S128x128 .f32).apply
        (View.read (Elt F) (slot1M sR1).view g)⟩] i = msgC m prodC recipC d i := by
  exact scat_gen m prodC recipC d L c ![1, 0, 0] 1 rfl inb_S3x128x128_S1x128x128_1_0_0 g base hg

/-- Block `c` of the result after the scatter out of slot 2, when that slot holds the products of chunk `c`. -/
theorem scat2 (hpre : PreOK m) (d : Dev nD) (L : grid1.Coords) (c : Fin 4) (g : (sR1).view.ty.Contents (Elt F)) (base : (chunkM L c).view.ty.Contents (Elt F))
    (hg : ∀ j ∈ (slot2M sR1).view.set, g j = FloatOps.mulf (gathA m prodC d L c j) (gathB m recipC d L c j)) :
    ∀ i ∈ chunkSet L c,
      (chunkM L c).view.writes (Elt F) base [⟨Rect.whole S128x128, (ReadAs.same : ReadAs (Elt F) S128x128 .f32 S128x128 .f32).apply
        (View.read (Elt F) (slot2M sR1).view g)⟩] i = msgC m prodC recipC d i := by
  exact scat_gen m prodC recipC d L c ![2, 0, 0] 2 rfl inb_S3x128x128_S1x128x128_2_0_0 g base hg

/-! ## The three slots of a ring buffer: disjoint, and together the whole buffer -/

omit [FloatOps F] in
/-- The unit-row rectangle at row `σ` of the ring buffer's shape holds exactly the indices whose first coordinate is `σ`. -/
theorem unit3_rowD (x : S3x128x128.Idx) (σ : ℕ) (inb : ∀ a, (![σ, 0, 0] : Fin 3 → ℕ) a + S1x128x128.size a ≤ S3x128x128.size a) :
    x ∈ (Rect.unit (s := S3x128x128) ![σ, 0, 0] S1x128x128.size inb).set ↔ (x 0).val = σ := by
  rw [Rect.mem_set_unit]
  have h1 : (x 1).val < 128 := (x 1).isLt
  have h2 : (x 2).val < 128 := (x 2).isLt
  constructor
  · intro h
    have h0 : σ ≤ (x 0).val ∧ (x 0).val < σ + 1 := h 0
    omega
  · intro h a
    match a with
    | ⟨0, _⟩ => show σ ≤ (x 0).val ∧ (x 0).val < σ + 1; omega
    | ⟨1, _⟩ => show 0 ≤ (x 1).val ∧ (x 1).val < 0 + 128; omega
    | ⟨2, _⟩ => show 0 ≤ (x 2).val ∧ (x 2).val < 0 + 128; omega

omit [FloatOps F] in
/-- The elements under the slot at row `σ`: the buffer's elements under the indices of that row. -/
theorem mem_slotD (b : Memref sig .scVector .vmem S3x128x128 .f32) (σ : ℕ) (inb : ∀ a, (![σ, 0, 0] : Fin 3 → ℕ) a + S1x128x128.size a ≤ S3x128x128.size a)
    (i : b.view.ty.Idx) :
    i ∈ ((b.slice (Rect.unit (s := S3x128x128) ![σ, 0, 0] S1x128x128.size inb) (fun _ => rfl)).squeeze S128x128
        squeezes_S1x128x128_S128x128).view.set ↔ ∃ x : S3x128x128.Idx, (x 0).val = σ ∧ b.view.emb x = i := by
  have e : ((b.slice (Rect.unit (s := S3x128x128) ![σ, 0, 0] S1x128x128.size inb) (fun _ => rfl)).squeeze S128x128
        squeezes_S1x128x128_S128x128).view.set = (Rect.unit (s := S3x128x128) ![σ, 0, 0] S1x128x128.size inb).set.map b.view.emb :=
    (View.set_reshape (v := b.view.slice (Rect.unit (s := S3x128x128) ![σ, 0, 0] S1x128x128.size inb)) _).trans (View.set_slice b.view _)
  rw [e, Finset.mem_map]
  constructor
  · rintro ⟨x, hx, rfl⟩; exact ⟨x, (unit3_rowD x σ inb).mp hx, rfl⟩
  · rintro ⟨x, hx, rfl⟩; exact ⟨x, (unit3_rowD x σ inb).mpr hx, rfl⟩

omit [FloatOps F] in
theorem mem_viewD (b : Memref sig .scVector .vmem S3x128x128 .f32) (i : b.view.ty.Idx) :
    i ∈ b.view.set ↔ ∃ x : S3x128x128.Idx, b.view.emb x = i := by
  simp only [View.set, Finset.mem_map, Finset.mem_univ, true_and]

omit [FloatOps F] in
/-- Slots at different rows share no element. -/
theorem slot_disjD (b : Memref sig .scVector .vmem S3x128x128 .f32) (σ σ' : ℕ) (hne : σ ≠ σ')
    (inb : ∀ a, (![σ, 0, 0] : Fin 3 → ℕ) a + S1x128x128.size a ≤ S3x128x128.size a)
    (inb' : ∀ a, (![σ', 0, 0] : Fin 3 → ℕ) a + S1x128x128.size a ≤ S3x128x128.size a) :
    Disjoint ((b.slice (Rect.unit (s := S3x128x128) ![σ, 0, 0] S1x128x128.size inb) (fun _ => rfl)).squeeze S128x128 squeezes_S1x128x128_S128x128).view.set
      ((b.slice (Rect.unit (s := S3x128x128) ![σ', 0, 0] S1x128x128.size inb') (fun _ => rfl)).squeeze S128x128 squeezes_S1x128x128_S128x128).view.set := by
  rw [Finset.disjoint_left]
  intro i h h'
  obtain ⟨x, hx, rfl⟩ := (mem_slotD b σ inb i).mp h
  obtain ⟨y, hy, e⟩ := (mem_slotD b σ' inb' _).mp h'
  have := b.view.emb.injective e
  subst this
  exact hne (hx.symm.trans hy)

omit [FloatOps F] in
theorem slot_disj01 (b : Memref sig .scVector .vmem S3x128x128 .f32) : Disjoint (slot0M b).view.set (slot1M b).view.set :=
  slot_disjD b 0 1 (by decide) _ _
omit [FloatOps F] in
theorem slot_disj02 (b : Memref sig .scVector .vmem S3x128x128 .f32) : Disjoint (slot0M b).view.set (slot2M b).view.set :=
  slot_disjD b 0 2 (by decide) _ _
omit [FloatOps F] in
theorem slot_disj12 (b : Memref sig .scVector .vmem S3x128x128 .f32) : Disjoint (slot1M b).view.set (slot2M b).view.set :=
  slot_disjD b 1 2 (by decide) _ _

omit [FloatOps F] in
/-- The three slots are the whole ring buffer. -/
theorem slots_union (b : Memref sig .scVector .vmem S3x128x128 .f32) :
    ((slot0M b).view.set ∪ (slot1M b).view.set) ∪ (slot2M b).view.set = b.view.set := by
  ext i
  rw [Finset.mem_union, Finset.mem_union, mem_slotD b 0, mem_slotD b 1, mem_slotD b 2, mem_viewD]
  constructor
  · rintro ((⟨x, -, e⟩ | ⟨x, -, e⟩) | ⟨x, -, e⟩) <;> exact ⟨x, e⟩
  · rintro ⟨x, e⟩
    have hx : (x 0).val < 3 := (x 0).isLt
    have h3 : (x 0).val = 0 ∨ (x 0).val = 1 ∨ (x 0).val = 2 := by omega
    rcases h3 with h | h | h
    · exact Or.inl (Or.inl ⟨x, h, e⟩)
    · exact Or.inl (Or.inr ⟨x, h, e⟩)
    · exact Or.inr ⟨x, h, e⟩

/-- The three slots of a ring buffer, each held whole, are the ring buffer held whole. -/
theorem ring_join (d : Dev nD) (L : grid1.Coords) (b : Memref sig .scVector .vmem S3x128x128 .f32)
    (f0 f1 f2 : Buf (Elt F) (b.view.loc (V d (cV L) (jV L)))) :
    iprop(((slot0M b).view.loc (V d (cV L) (jV L)) ↦[(slot0M b).view.set]{fullShare} f0)
        ∗ ((slot1M b).view.loc (V d (cV L) (jV L)) ↦[(slot1M b).view.set]{fullShare} f1)
        ∗ ((slot2M b).view.loc (V d (cV L) (jV L)) ↦[(slot2M b).view.set]{fullShare} f2))
      ⊢ (iprop(∃ f, b.view.loc (V d (cV L) (jV L)) ↦[b.view.set]{fullShare} f) : sProp 𝕄) := by
  have hd : Disjoint ((slot0M b).view.set ∪ (slot1M b).view.set) (slot2M b).view.set :=
    Finset.disjoint_union_left.mpr ⟨slot_disj02 b, slot_disj12 b⟩
  rw [← slots_union b]
  iintro ⟨H0, H1, H2⟩
  iexists _
  iapply (pointsTo_join (ℓ := b.view.loc (V d (cV L) (jV L))) hd)
  isplitl [H0 H1]
  · iapply (pointsTo_join (ℓ := b.view.loc (V d (cV L) (jV L))) (slot_disj01 b))
    isplitl [H0]
    · iexact H0
    · iexact H1
  · iexact H2

/-! ## A write through the whole rectangle -/

omit [FloatOps F] in
/-- One store through the whole rectangle of a view's shape is the unmasked write through the view. -/
theorem writes_whole_eq {κ : Kind} {sp : Space} {s : Shape} {e : EltTy} (v : View sig κ sp s e) (f : v.ty.Contents (Elt F)) (w : s.Idx → Elt F e) :
    v.writes (Elt F) f [⟨Rect.whole s, w⟩] = v.write (Elt F) f w Finset.univ := by
  rw [View.writes_singleton]
  funext i
  by_cases hi : i ∈ v.set
  · obtain ⟨x, -, rfl⟩ := Finset.mem_map.mp hi
    have e1 : v.emb x = (v.slice (Rect.whole s)).emb x := by
      simp only [View.emb_slice, Function.Embedding.trans_apply, Rect.emb_whole_apply]
    conv_lhs => rw [e1, View.write_emb_of_mem _ _ (Finset.mem_univ _)]
    rw [View.write_emb_of_mem _ _ (Finset.mem_univ _)]
  · have hi' : i ∉ (v.slice (Rect.whole s)).set := by
      rw [View.set_slice, Rect.set_whole]; exact hi
    rw [View.write_of_not_mem _ _ _ (by rwa [View.setOn_univ]), View.write_of_not_mem _ _ _ (by rwa [View.setOn_univ])]

end Cert.Kernel.Sc

end
-- ==== Proof.ScBodyK.lean ====
/-
  One vector subcore's task, at a symbolic place of the grid.
-/
import proofs.«208470_g86148454023375_cont_sun_c4_654_45_alg».proof.Proof.ScIdxAK
import proofs.«208470_g86148454023375_cont_sun_c4_654_45_alg».proof.Proof.ScIdxDK
import proofs.«208470_g86148454023375_cont_sun_c4_654_45_alg».proof.Proof.Gen.Kernel.Skeleton
import Idealize.ShloMosaic.Lib.Pipeline.Value

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type}

local notation "𝕄" => MT nD τ sig (HIx 1) (Elt F) ℕ UU ℕ

variable [FloatOps F]
variable (m : (ℓ : Loc nD τ sig) → Buf (Elt F) ℓ) (prodC recipC : (⟨S4096x128, .f32⟩ : BufTy).Contents (Elt F))

omit [FloatOps F] in
/-- A list buffer written whole with in-range words reads in-range words through every slice. -/
theorem list_inb {thr : Thread nD τ} (vI : Memref sig thr.2.kind .vmem S512 .i32) (g : Buf (Elt F) (vI.view.loc thr))
    (w : (Rect.whole S512).shape.Idx → Elt F .i32) (hw : ∀ j, (w j).toNat < 4096) (r : Rect S512) (hr : ∀ a, r.stride a = 1) (x : r.shape.Idx) :
    ((vI.slice r hr).view.read (Elt F) (vI.view.writes (Elt F) g [⟨Rect.whole S512, w⟩]) x).toNat < 4096 := by
  have h := View.read_writes_cons_emb vI.view g (Rect.whole S512) w [] (r.emb x)
  rw [Rect.emb_whole_apply] at h
  have h' : (vI.slice r hr).view.read (Elt F) (vI.view.writes (Elt F) g [⟨Rect.whole S512, w⟩]) x
      = vI.view.read (Elt F) (vI.view.writes (Elt F) g [⟨Rect.whole S512, w⟩]) (r.emb x) := rfl
  rw [h', h]
  exact hw _

/-! ## A lane vector's product -/

omit [FloatOps F] in
theorem x1x16 (x : S1x1x16.Idx) : (x 0).val = 0 ∧ (x 1).val = 0 := by
  have h0 : (x 0).val < 1 := (x 0).isLt
  have h1 : (x 1).val < 1 := (x 1).isLt
  omega

/-- Sixteen lanes multiplied as a vector of sixteen and cast back are the lanes' products. -/
theorem lane_mul (a b : Vec F S1x1x16 .f32) (h1 : S1x1x16.ShapeCasts S16) (h2 : S16.ShapeCasts S1x1x16) (x : S1x1x16.Idx) :
    shapeCast S1x1x16 (Idealize.ShloMosaic.mulf (shapeCast S16 a h1) (shapeCast S16 b h1)) h2 x = FloatOps.mulf (a x) (b x) := by
  obtain ⟨hx0, hx1⟩ := x1x16 x
  have hk : (S1x1x16.rowMajor x : Nat) = S16.rowMajor (ix1 (x 2)) := by
    rw [Shape.rowMajor_val_one, Shape.rowMajor_val_three]; simp [hx0, hx1]
  rw [shapeCast_apply _ h2 x (ix1 (x 2)) hk.symm]
  show FloatOps.mulf (shapeCast S16 a h1 (ix1 (x 2))) (shapeCast S16 b h1 (ix1 (x 2))) = _
  rw [shapeCast_apply a h1 (ix1 (x 2)) x hk, shapeCast_apply b h1 (ix1 (x 2)) x hk]

/-- A pointwise change of contents and a respelling of the held set. -/
theorem pts_conv {ℓ : Loc nD τ sig} {S S' : Finset (Idx ℓ)} {f f' : Buf (Elt F) ℓ} (hS : S = S') (hf : ∀ i ∈ S, f i = f' i) :
    (ℓ ↦[S]{fullShare} f : sProp 𝕄) ⊢ ℓ ↦[S']{fullShare} f' := by
  subst hS; rw [pointsTo_congr hf]

omit [FloatOps F] in
theorem rowsDone_zero [FloatOps F] (A B : S3x128x128.Idx → F .f32) : rowsDone 0 A B = A := by
  funext i; simp [rowsDone]

theorem rowsDone_full (A B : S3x128x128.Idx → F .f32) (i : S3x128x128.Idx) : rowsDone 128 A B i = FloatOps.mulf (A i) (B i) := by
  have : (i 1).val < 128 := (i 1).isLt
  simp [rowsDone, this]

/-- One trip of a row loop on the held indices of slot `σ`: row `k` multiplied. -/
theorem rows_step (σ : Fin 3) (k : ℕ) (hk : k < 128) (A B : S3x128x128.Idx → F .f32)
    (S : Finset S3x128x128.Idx) (hS : ∀ i ∈ S, (i 0).val = σ.val)
    (o0 : Fin 3 → ℕ) (ho0 : o0 = ![σ.val, k, 0]) (inb0 : ∀ a, o0 a + S1x1x16.size a ≤ S3x128x128.size a)
    (P0 : Vec F S1x1x16 .f32 → Vec F S1x1x16 .f32 → FVec F S1x1x16 .f32) (hP0 : ∀ a b x, P0 a b x = FloatOps.mulf (a x) (b x))
    (o1 : Fin 3 → ℕ) (ho1 : o1 = ![σ.val, k, 16]) (inb1 : ∀ a, o1 a + S1x1x16.size a ≤ S3x128x128.size a)
    (P1 : Vec F S1x1x16 .f32 → Vec F S1x1x16 .f32 → FVec F S1x1x16 .f32) (hP1 : ∀ a b x, P1 a b x = FloatOps.mulf (a x) (b x))
    (o2 : Fin 3 → ℕ) (ho2 : o2 = ![σ.val, k, 32]) (inb2 : ∀ a, o2 a + S1x1x16.size a ≤ S3x128x128.size a)
    (P2 : Vec F S1x1x16 .f32 → Vec F S1x1x16 .f32 → FVec F S1x1x16 .f32) (hP2 : ∀ a b x, P2 a b x = FloatOps.mulf (a x) (b x))
    (o3 : Fin 3 → ℕ) (ho3 : o3 = ![σ.val, k, 48]) (inb3 : ∀ a, o3 a + S1x1x16.size a ≤ S3x128x128.size a)
    (P3 : Vec F S1x1x16 .f32 → Vec F S1x1x16 .f32 → FVec F S1x1x16 .f32) (hP3 : ∀ a b x, P3 a b x = FloatOps.mulf (a x) (b x))
    (o4 : Fin 3 → ℕ) (ho4 : o4 = ![σ.val, k, 64]) (inb4 : ∀ a, o4 a + S1x1x16.size a ≤ S3x128x128.size a)
    (P4 : Vec F S1x1x16 .f32 → Vec F S1x1x16 .f32 → FVec F S1x1x16 .f32) (hP4 : ∀ a b x, P4 a b x = FloatOps.mulf (a x) (b x))
    (o5 : Fin 3 → ℕ) (ho5 : o5 = ![σ.val, k, 80]) (inb5 : ∀ a, o5 a + S1x1x16.size a ≤ S3x128x128.size a)
    (P5 : Vec F S1x1x16 .f32 → Vec F S1x1x16 .f32 → FVec F S1x1x16 .f32) (hP5 : ∀ a b x, P5 a b x = FloatOps.mulf (a x) (b x))
    (o6 : Fin 3 → ℕ) (ho6 : o6 = ![σ.val, k, 96]) (inb6 : ∀ a, o6 a + S1x1x16.size a ≤ S3x128x128.size a)
    (P6 : Vec F S1x1x16 .f32 → Vec F S1x1x16 .f32 → FVec F S1x1x16 .f32) (hP6 : ∀ a b x, P6 a b x = FloatOps.mulf (a x) (b x))
    (o7 : Fin 3 → ℕ) (ho7 : o7 = ![σ.val, k, 112]) (inb7 : ∀ a, o7 a + S1x1x16.size a ≤ S3x128x128.size a)
    (P7 : Vec F S1x1x16 .f32 → Vec F S1x1x16 .f32 → FVec F S1x1x16 .f32) (hP7 : ∀ a b x, P7 a b x = FloatOps.mulf (a x) (b x)) :
    ∀ i ∈ S, (sR1).view.writes (Elt F) (rowsDone k A B)
      [⟨Rect.unit (s := S3x128x128) o7 S1x1x16.size inb7,
          P7 (View.readAt (Elt F) (sR1).view (Rect.unit (s := S3x128x128) o7 S1x1x16.size inb7).toLoadRect (rowsDone k A B))
            (View.readAt (Elt F) (sR0).view (Rect.unit (s := S3x128x128) o7 S1x1x16.size inb7).toLoadRect B)⟩,
        ⟨Rect.unit (s := S3x128x128) o6 S1x1x16.size inb6,
          P6 (View.readAt (Elt F) (sR1).view (Rect.unit (s := S3x128x128) o6 S1x1x16.size inb6).toLoadRect (rowsDone k A B))
            (View.readAt (Elt F) (sR0).view (Rect.unit (s := S3x128x128) o6 S1x1x16.size inb6).toLoadRect B)⟩,
        ⟨Rect.unit (s := S3x128x128) o5 S1x1x16.size inb5,
          P5 (View.readAt (Elt F) (sR1).view (Rect.unit (s := S3x128x128) o5 S1x1x16.size inb5).toLoadRect (rowsDone k A B))
            (View.readAt (Elt F) (sR0).view (Rect.unit (s := S3x128x128) o5 S1x1x16.size inb5).toLoadRect B)⟩,
        ⟨Rect.unit (s := S3x128x128) o4 S1x1x16.size inb4,
          P4 (View.readAt (Elt F) (sR1).view (Rect.unit (s := S3x128x128) o4 S1x1x16.size inb4).toLoadRect (rowsDone k A B))
            (View.readAt (Elt F) (sR0).view (Rect.unit (s := S3x128x128) o4 S1x1x16.size inb4).toLoadRect B)⟩,
        ⟨Rect.unit (s := S3x128x128) o3 S1x1x16.size inb3,
          P3 (View.readAt (Elt F) (sR1).view (Rect.unit (s := S3x128x128) o3 S1x1x16.size inb3).toLoadRect (rowsDone k A B))
            (View.readAt (Elt F) (sR0).view (Rect.unit (s := S3x128x128) o3 S1x1x16.size inb3).toLoadRect B)⟩,
        ⟨Rect.unit (s := S3x128x128) o2 S1x1x16.size inb2,
          P2 (View.readAt (Elt F) (sR1).view (Rect.unit (s := S3x128x128) o2 S1x1x16.size inb2).toLoadRect (rowsDone k A B))
            (View.readAt (Elt F) (sR0).view (Rect.unit (s := S3x128x128) o2 S1x1x16.size inb2).toLoadRect B)⟩,
        ⟨Rect.unit (s := S3x128x128) o1 S1x1x16.size inb1,
          P1 (View.readAt (Elt F) (sR1).view (Rect.unit (s := S3x128x128) o1 S1x1x16.size inb1).toLoadRect (rowsDone k A B))
            (View.readAt (Elt F) (sR0).view (Rect.unit (s := S3x128x128) o1 S1x1x16.size inb1).toLoadRect B)⟩,
        ⟨Rect.unit (s := S3x128x128) o0 S1x1x16.size inb0,
          P0 (View.readAt (Elt F) (sR1).view (Rect.unit (s := S3x128x128) o0 S1x1x16.size inb0).toLoadRect (rowsDone k A B))
            (View.readAt (Elt F) (sR0).view (Rect.unit (s := S3x128x128) o0 S1x1x16.size inb0).toLoadRect B)⟩] i
      = rowsDone (k + 1) A B i := by
  intro i hi
  rw [row_step σ k hk (rowsDone k A B) B o0 ho0 inb0 P0 hP0 o1 ho1 inb1 P1 hP1 o2 ho2 inb2 P2 hP2 o3 ho3 inb3 P3 hP3 o4 ho4 inb4 P4 hP4 o5 ho5 inb5 P5 hP5 o6 ho6 inb6 P6 hP6 o7 ho7 inb7 P7 hP7]
  have h0 := hS i hi
  unfold rowsDone
  by_cases h1 : (i 1).val = k
  · simp [h0, h1]
  · have h2 : ((i 1).val < k + 1) ↔ ((i 1).val < k) := by omega
    simp [h0, h1, h2]

/-- The loop invariant: the slot's held rows below `k` multiplied, the second ring buffer's as gathered. -/
def invL (d : Dev nD) (L : grid1.Coords) (S1 : Finset (Idx ((sR1).view.loc (V d (cV L) (jV L))))) (S0 : Finset (Idx ((sR0).view.loc (V d (cV L) (jV L)))))
    (A B : S3x128x128.Idx → F .f32) (k : Nat) (_ : PUnit) : sProp 𝕄 :=
  iprop(((sR1).view.loc (V d (cV L) (jV L)) ↦[S1]{fullShare} rowsDone k A B) ∗ ((sR0).view.loc (V d (cV L) (jV L)) ↦[S0]{fullShare} B))

omit [FloatOps F] in
theorem rest_slot0 {b : Memref sig .scVector .vmem S3x128x128 .f32} {i} (hi : i ∈ (((b).view.set \ (slot1M b).view.set) \ (slot2M b).view.set)) : i ∈ (slot0M b).view.set := slot_rest0 b ▸ hi
omit [FloatOps F] in
theorem rest_slot1 {b : Memref sig .scVector .vmem S3x128x128 .f32} {i} (hi : i ∈ (((b).view.set \ (slot0M b).view.set) \ (slot2M b).view.set)) : i ∈ (slot1M b).view.set := slot_rest1 b ▸ hi
omit [FloatOps F] in
theorem rest_slot2 {b : Memref sig .scVector .vmem S3x128x128 .f32} {i} (hi : i ∈ (((b).view.set \ (slot0M b).view.set) \ (slot1M b).view.set)) : i ∈ (slot2M b).view.set := slot_rest2 b ▸ hi

/-- The first wait's landing: the first slot of each ring buffer, the two later gathers' writes elsewhere. -/
theorem land1A (hpre : PreOK m) (d : Dev nD) (L : grid1.Coords) (prev : (sR1).view.ty.Contents (Elt F)) (g : (sI1).view.ty.Contents (Elt F))
    (ho : ∀ a, (![0] : Fin 1 → ℕ) a + S128.size a ≤ S512.size a) (hn : _) (hin : _) (P1 P2 : S128x128.Idx → F .f32) :
    ∀ i ∈ (((sR1).view.set \ (slot1M sR1).view.set) \ (slot2M sR1).view.set),
      View.write (Elt F) (slot2M sR1).view (View.write (Elt F) (slot1M sR1).view (View.write (Elt F) (slot0M sR1).view prev
        (SparseCore.gatherPayload gathers_S4096x128_S128x128
        (View.read (Elt F) ((pV).slice (Rect.unit (s := S4096x128) ![0, 0] S4096x128.size inb_S4096x128_S4096x128_0_0) (fun _ => rfl)).view prodC)
        (SparseCore.rows
          (View.read (Elt F) ((sI1).slice (Rect.unit (s := S512) ![0] S128.size ho) (fun _ => rfl)).view
            ((sI1).view.writes (Elt F) g [⟨Rect.whole S512, (ReadAs.same : ReadAs (Elt F) S512 .i32 S512 .i32).apply
              (View.read (Elt F) (((eV).slice (Rect.unit (s := S2x16384) (k1_off1 L) S1x512.size (k1_off1_inb L)) (fun _ => rfl)).squeeze S512 squeezes_S1x512_S512).view (m (edgeLoc d)))⟩]))
          hn hin))
        Finset.univ) P1 Finset.univ) P2 Finset.univ i = gathA m prodC d L 0 i := by
  intro i hi
  obtain ⟨hi12, hi2⟩ := Finset.mem_sdiff.mp hi
  obtain ⟨_, hi1⟩ := Finset.mem_sdiff.mp hi12
  rw [View.write_of_not_mem _ _ _ (show i ∉ (slot2M sR1).view.setOn Finset.univ from hi2),
    View.write_of_not_mem _ _ _ (show i ∉ (slot1M sR1).view.setOn Finset.univ from hi1)]
  exact landA0 m prodC hpre d L 0 prev g 0 rfl ho hn hin i (rest_slot0 hi)

theorem land1B (hpre : PreOK m) (d : Dev nD) (L : grid1.Coords) (prev : (sR0).view.ty.Contents (Elt F)) (g : (sI0).view.ty.Contents (Elt F))
    (ho : ∀ a, (![0] : Fin 1 → ℕ) a + S128.size a ≤ S512.size a) (hn : _) (hin : _) (P1 P2 : S128x128.Idx → F .f32) :
    ∀ i ∈ (((sR0).view.set \ (slot1M sR0).view.set) \ (slot2M sR0).view.set),
      View.write (Elt F) (slot2M sR0).view (View.write (Elt F) (slot1M sR0).view (View.write (Elt F) (slot0M sR0).view prev
        (SparseCore.gatherPayload gathers_S4096x128_S128x128
        (View.read (Elt F) ((rV).slice (Rect.unit (s := S4096x128) ![0, 0] S4096x128.size inb_S4096x128_S4096x128_0_0) (fun _ => rfl)).view recipC)
        (SparseCore.rows
          (View.read (Elt F) ((sI0).slice (Rect.unit (s := S512) ![0] S128.size ho) (fun _ => rfl)).view
            ((sI0).view.writes (Elt F) g [⟨Rect.whole S512, (ReadAs.same : ReadAs (Elt F) S512 .i32 S512 .i32).apply
              (View.read (Elt F) (((eV).slice (Rect.unit (s := S2x16384) (k1_off2 L) S1x512.size (k1_off2_inb L)) (fun _ => rfl)).squeeze S512 squeezes_S1x512_S512).view (m (edgeLoc d)))⟩]))
          hn hin))
        Finset.univ) P1 Finset.univ) P2 Finset.univ i = gathB m recipC d L 0 i := by
  intro i hi
  obtain ⟨hi12, hi2⟩ := Finset.mem_sdiff.mp hi
  obtain ⟨_, hi1⟩ := Finset.mem_sdiff.mp hi12
  rw [View.write_of_not_mem _ _ _ (show i ∉ (slot2M sR0).view.setOn Finset.univ from hi2),
    View.write_of_not_mem _ _ _ (show i ∉ (slot1M sR0).view.setOn Finset.univ from hi1)]
  exact landB0 m recipC hpre d L 0 prev g 0 rfl ho hn hin i (rest_slot0 hi)
omit [FloatOps F] in
/-- Slot 0's elements, as the slot's own memref addresses them. -/
theorem own0 (d : Dev nD) (L : grid1.Coords) (b : Memref sig .scVector .vmem S3x128x128 .f32) (f : Buf (Elt F) (b.view.loc (V d (cV L) (jV L)))) :
    (b.view.loc (V d (cV L) (jV L)) ↦[(slot0M b).view.set]{fullShare} f : sProp 𝕄)
      = ((slot0M b).view.loc (V d (cV L) (jV L)) ↦[(slot0M b).view.set]{fullShare} f) := rfl
omit [FloatOps F] in
/-- Slot 1's elements, as the slot's own memref addresses them. -/
theorem own1 (d : Dev nD) (L : grid1.Coords) (b : Memref sig .scVector .vmem S3x128x128 .f32) (f : Buf (Elt F) (b.view.loc (V d (cV L) (jV L)))) :
    (b.view.loc (V d (cV L) (jV L)) ↦[(slot1M b).view.set]{fullShare} f : sProp 𝕄)
      = ((slot1M b).view.loc (V d (cV L) (jV L)) ↦[(slot1M b).view.set]{fullShare} f) := rfl
omit [FloatOps F] in
/-- Slot 2's elements, as the slot's own memref addresses them. -/
theorem own2 (d : Dev nD) (L : grid1.Coords) (b : Memref sig .scVector .vmem S3x128x128 .f32) (f : Buf (Elt F) (b.view.loc (V d (cV L) (jV L)))) :
    (b.view.loc (V d (cV L) (jV L)) ↦[(slot2M b).view.set]{fullShare} f : sProp 𝕄)
      = ((slot2M b).view.loc (V d (cV L) (jV L)) ↦[(slot2M b).view.set]{fullShare} f) := rfl

/-- The last chunk's landing, written as one whole piece of the slot. -/
theorem landA0w (hpre : PreOK m) (d : Dev nD) (L : grid1.Coords) (c : Fin 4) (prev : (sR1).view.ty.Contents (Elt F)) (g : (sI1).view.ty.Contents (Elt F))
    (o : ℕ) (hoc : o = 128 * c.val) (ho : ∀ a, (![o] : Fin 1 → ℕ) a + S128.size a ≤ S512.size a) (hn : _) (hin : _) :
    ∀ i ∈ (slot0M sR1).view.set,
      (slot0M sR1).view.writes (Elt F) prev [⟨Rect.whole S128x128,
        (SparseCore.gatherPayload gathers_S4096x128_S128x128
        (View.read (Elt F) ((pV).slice (Rect.unit (s := S4096x128) ![0, 0] S4096x128.size inb_S4096x128_S4096x128_0_0) (fun _ => rfl)).view prodC)
        (SparseCore.rows
          (View.read (Elt F) ((sI1).slice (Rect.unit (s := S512) ![o] S128.size ho) (fun _ => rfl)).view
            ((sI1).view.writes (Elt F) g [⟨Rect.whole S512, (ReadAs.same : ReadAs (Elt F) S512 .i32 S512 .i32).apply
              (View.read (Elt F) (((eV).slice (Rect.unit (s := S2x16384) (k1_off1 L) S1x512.size (k1_off1_inb L)) (fun _ => rfl)).squeeze S512 squeezes_S1x512_S512).view (m (edgeLoc d)))⟩]))
          hn hin))⟩] i = gathA m prodC d L c i := by
  intro i hi
  rw [writes_whole_eq]
  exact landA0 m prodC hpre d L c prev g o hoc ho hn hin i hi

theorem landB0w (hpre : PreOK m) (d : Dev nD) (L : grid1.Coords) (c : Fin 4) (prev : (sR0).view.ty.Contents (Elt F)) (g : (sI0).view.ty.Contents (Elt F))
    (o : ℕ) (hoc : o = 128 * c.val) (ho : ∀ a, (![o] : Fin 1 → ℕ) a + S128.size a ≤ S512.size a) (hn : _) (hin : _) :
    ∀ i ∈ (slot0M sR0).view.set,
      (slot0M sR0).view.writes (Elt F) prev [⟨Rect.whole S128x128,
        (SparseCore.gatherPayload gathers_S4096x128_S128x128
        (View.read (Elt F) ((rV).slice (Rect.unit (s := S4096x128) ![0, 0] S4096x128.size inb_S4096x128_S4096x128_0_0) (fun _ => rfl)).view recipC)
        (SparseCore.rows
          (View.read (Elt F) ((sI0).slice (Rect.unit (s := S512) ![o] S128.size ho) (fun _ => rfl)).view
            ((sI0).view.writes (Elt F) g [⟨Rect.whole S512, (ReadAs.same : ReadAs (Elt F) S512 .i32 S512 .i32).apply
              (View.read (Elt F) (((eV).slice (Rect.unit (s := S2x16384) (k1_off2 L) S1x512.size (k1_off2_inb L)) (fun _ => rfl)).squeeze S512 squeezes_S1x512_S512).view (m (edgeLoc d)))⟩]))
          hn hin))⟩] i = gathB m recipC d L c i := by
  intro i hi
  rw [writes_whole_eq]
  exact landB0 m recipC hpre d L c prev g o hoc ho hn hin i hi

omit [FloatOps F] in
/-- A wait recorded at the kernel's own index beside admissible ones is admissible. -/
theorem ins_ok {W W' : Waits sig (HIx 1)} {a : SemLoc sig × HIx 1} (ha : a.2 = none) (h : ∀ p ∈ W', p ∈ W ∨ p.2 = none) :
    ∀ p ∈ insert a W', p ∈ W ∨ p.2 = none := by
  intro p hp
  rcases Finset.mem_insert.mp hp with rfl | hp
  · exact .inr ha
  · exact h p hp

/-- The first ring buffer given back whole. -/
theorem ring_back1 (d : Dev nD) (L : grid1.Coords) (f0 f1 f2 : Buf (Elt F) ((sR1).view.loc (V d (cV L) (jV L)))) :
    iprop(((slot0M sR1).view.loc (V d (cV L) (jV L)) ↦[(slot0M sR1).view.set]{fullShare} f0)
        ∗ ((slot1M sR1).view.loc (V d (cV L) (jV L)) ↦[(slot1M sR1).view.set]{fullShare} f1)
        ∗ ((slot2M sR1).view.loc (V d (cV L) (jV L)) ↦[(slot2M sR1).view.set]{fullShare} f2))
      ⊢ (iprop(∃ f, (V d (cV L) (jV L)).loc cc1_scratch2 ↦{fullShare} f) : sProp 𝕄) := by
  refine (ring_join (F := F) d L sR1 f0 f1 f2).trans ?_
  iintro ⟨%f, H⟩
  iexists f
  iapply (Entails.of_eq (pts_sR1 (F := F) d L f)); iexact H
/-- The second ring buffer given back whole. -/
theorem ring_back0 (d : Dev nD) (L : grid1.Coords) (f0 f1 f2 : Buf (Elt F) ((sR0).view.loc (V d (cV L) (jV L)))) :
    iprop(((slot0M sR0).view.loc (V d (cV L) (jV L)) ↦[(slot0M sR0).view.set]{fullShare} f0)
        ∗ ((slot1M sR0).view.loc (V d (cV L) (jV L)) ↦[(slot1M sR0).view.set]{fullShare} f1)
        ∗ ((slot2M sR0).view.loc (V d (cV L) (jV L)) ↦[(slot2M sR0).view.set]{fullShare} f2))
      ⊢ (iprop(∃ f, (V d (cV L) (jV L)).loc cc1_scratch3 ↦{fullShare} f) : sProp 𝕄) := by
  refine (ring_join (F := F) d L sR0 f0 f1 f2).trans ?_
  iintro ⟨%f, H⟩
  iexists f
  iapply (Entails.of_eq (pts_sR0 (F := F) d L f)); iexact H

set_option maxHeartbeats 4000000 in
/-- The task of the vector subcore at `L`: from its read shares and its four blocks of the result, the blocks written
    with the products of the gathered rows. -/
theorem tile_body (hF : (K (F := F)).Facts) (hpre : PreOK m) (d : Dev nD) (L : grid1.Coords)
    (O : CellTallies nD τ sig (HIx 1)) (W : Waits sig (HIx 1)) (hO : ∀ g, O g none = 0) :
    iprop(levAts (K (F := F)).L (K (F := F)).lev ∗ emp ∗ tileGo m prodC recipC d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L (Memref.whole main_v1_0_scv) (Memref.isWhole_whole _) (Memref.whole main_v1_1_scv) (Memref.isWhole_whole _)
            (Memref.whole main_arg3_scv) (Memref.isWhole_whole _) (Memref.whole main_v2_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scratch4 cc1_scratch5 cc1_scratch6 cc1_scratch7 cc1_scratch8 cc1_scratch9 cc1_scratch10 cc1_scratch11 cc1_scratch12 cc1_scoped0 cc1_scoped1)
          fun _ => iprop(tileTd m prodC recipC d L ∗ scopedBufs (V d (cV L) (jV L)) ∗ scopedSems0 (V d (cV L) (jV L))
            ∗ ∃ W', ⌜∀ p ∈ W', p ∈ W ∨ p.2 = none⌝ ∗ owes (V d (cV L) (jV L)) O W') := by
  have hin1 : ∀ (g : Buf (Elt F) ((sI1).view.loc (V d (cV L) (jV L)))) (r : Rect S512) (hr : ∀ a, r.stride a = 1) (x : r.shape.Idx),
      (((sI1).slice r hr).view.read (Elt F) ((sI1).view.writes (Elt F) g [⟨Rect.whole S512,
        (ReadAs.same : ReadAs (Elt F) S512 .i32 S512 .i32).apply
          ((((eV).slice (Rect.unit (s := S2x16384) (k1_off1 L) S1x512.size (k1_off1_inb L)) (fun _ => rfl)).squeeze S512 squeezes_S1x512_S512).view.read (Elt F) (m (edgeLoc d)))⟩]) x).toNat < 4096 :=
    fun g r hr x => list_inb (thr := V d (cV L) (jV L)) sI1 g _ (fun j => hpre d _) r hr x
  have hin0 : ∀ (g : Buf (Elt F) ((sI0).view.loc (V d (cV L) (jV L)))) (r : Rect S512) (hr : ∀ a, r.stride a = 1) (x : r.shape.Idx),
      (((sI0).slice r hr).view.read (Elt F) ((sI0).view.writes (Elt F) g [⟨Rect.whole S512,
        (ReadAs.same : ReadAs (Elt F) S512 .i32 S512 .i32).apply
          ((((eV).slice (Rect.unit (s := S2x16384) (k1_off2 L) S1x512.size (k1_off2_inb L)) (fun _ => rfl)).squeeze S512 squeezes_S1x512_S512).view.read (Elt F) (m (edgeLoc d)))⟩]) x).toNat < 4096 :=
    fun g r hr x => list_inb (thr := V d (cV L) (jV L)) sI0 g _ (fun j => hpre d _) r hr x
  simp only [cc1_k_eq_skeleton]; unfold cc1_k_skel
  rw [(K (F := F)).scopedBufs_V hF d (cV L) (jV L), SparseCore.Cfg.scopedSems0_V (Val := Elt F) d (cV L) (jV L), ownSems0_V, ownBufs_V]
  unfold tileGo tileTd
  rw [bigSep_fin4, bigSep_fin4, pts_toksP (ℓ := prodLoc d) (shT (cL L) (sL L)), pts_toksR (ℓ := recipLoc d) (shT (cL L) (sL L))]
  iintro ⟨#Hlv, -, ⟨⟨HpD, Hp10, Hp9, Hp8, HpR⟩, ⟨HrD, Hr13, Hr12, Hr11, HrR⟩, He, ⟨%g0, Hm0⟩, ⟨%g1, Hm1⟩, ⟨%g2, Hm2⟩, ⟨%g3, Hm3⟩⟩,
    ⟨⟨⟨%f0, Hs0⟩, ⟨%f1, Hs1⟩, ⟨%f2, Hs2⟩, ⟨%f3, Hs3⟩⟩, Hbufs⟩, ⟨⟨H4, H5, H6, H7, H8, H9, H10, H11, H12, Hc0, Hc1⟩, Hsems⟩, HO⟩
  ihave Hmw := ((K (F := F)).mayWaits_none (thr := V d (cV L) (jV L)) hO) $$ Hlv
  ihave Hp8' := (Entails.of_eq (pts_pV (F := F) d L _ _).symm) $$ Hp8
  ihave Hp9' := (Entails.of_eq (pts_pV (F := F) d L _ _).symm) $$ Hp9
  ihave Hp10' := (Entails.of_eq (pts_pV (F := F) d L _ _).symm) $$ Hp10
  ihave Hr11' := (Entails.of_eq (pts_rV (F := F) d L _ _).symm) $$ Hr11
  ihave Hr12' := (Entails.of_eq (pts_rV (F := F) d L _ _).symm) $$ Hr12
  ihave Hr13' := (Entails.of_eq (pts_rV (F := F) d L _ _).symm) $$ Hr13
  ihave He' := (Entails.of_eq (pts_eV (F := F) d L _ _).symm) $$ He
  ihave Hm0' := (Entails.of_eq (pts_chunk (F := F) d L 0 _).symm) $$ Hm0
  ihave Hm1' := (Entails.of_eq (pts_chunk (F := F) d L 1 _).symm) $$ Hm1
  ihave Hm2' := (Entails.of_eq (pts_chunk (F := F) d L 2 _).symm) $$ Hm2
  ihave Hm3' := (Entails.of_eq (pts_chunk (F := F) d L 3 _).symm) $$ Hm3
  ihave Hs0' := (Entails.of_eq (pts_sI1 (F := F) d L _).symm) $$ Hs0
  ihave Hs1' := (Entails.of_eq (pts_sI0 (F := F) d L _).symm) $$ Hs1
  ihave Hs2' := (Entails.of_eq (pts_sR1 (F := F) d L _).symm) $$ Hs2
  ihave Hs3' := (Entails.of_eq (pts_sR0 (F := F) d L _).symm) $$ Hs3
  sl_exec
  -- the first chunk's rows have landed in slot 0 of each ring buffer
  ihave Hs2' := (pts_conv rfl (land1A m prodC hpre d L _ _ _ _ _ _ _)) $$ Hs2'
  ihave Hs3' := (pts_conv rfl (land1B m recipC hpre d L _ _ _ _ _ _ _)) $$ Hs3'
  sl_for (invL d L (((sR1).view.set \ (slot1M sR1).view.set) \ (slot2M sR1).view.set) (((sR0).view.set \ (slot1M sR0).view.set) \ (slot2M sR0).view.set) (gathA m prodC d L 0) (gathB m recipC d L 0)) $$ [Hs2' Hs3']
  case region =>
    intro k _
    unfold invL
    iintro ⟨H1, H0⟩
    sl_exec
    sl_unfold_run_names
    ihave H1 := (pts_conv (ℓ := (sR1).view.loc (V d (cV L) (jV L))) (S := (((sR1).view.set \ (slot1M sR1).view.set) \ (slot2M sR1).view.set)) (f' := rowsDone (k.val + 1) (gathA m prodC d L 0) (gathB m recipC d L 0)) rfl
      (rows_step 0 k.val k.isLt (gathA m prodC d L 0) (gathB m recipC d L 0) (((sR1).view.set \ (slot1M sR1).view.set) \ (slot2M sR1).view.set)
        (fun i hi => (mem_slot0_sR1 i).mp (rest_slot0 hi))
        (k1_off3 k) (k1_off3_eq k) (k1_off3_inb k) k1_pay1 (fun a b x => lane_mul a b _ _ x)
        (k1_off4 k) (k1_off4_eq k) (k1_off4_inb k) k1_pay2 (fun a b x => lane_mul a b _ _ x)
        (k1_off5 k) (k1_off5_eq k) (k1_off5_inb k) (fun a b => k1_pay4 (k1_pay3 a b)) (fun a b x => lane_mul a b _ _ x)
        (k1_off6 k) (k1_off6_eq k) (k1_off6_inb k) k1_pay5 (fun a b x => lane_mul a b _ _ x)
        (k1_off7 k) (k1_off7_eq k) (k1_off7_inb k) k1_pay6 (fun a b x => lane_mul a b _ _ x)
        (k1_off8 k) (k1_off8_eq k) (k1_off8_inb k) (fun a b => k1_pay29 (k1_pay7 a b)) (fun a b x => lane_mul a b _ _ x)
        (k1_off9 k) (k1_off9_eq k) (k1_off9_inb k) k1_pay30 (fun a b x => lane_mul a b _ _ x)
        (k1_off10 k) (k1_off10_eq k) (k1_off10_inb k) k1_pay31 (fun a b x => lane_mul a b _ _ x))) $$ H1
    sl_step
    isplitl [H1]
    · iexact H1
    · iexact H0
  · unfold invL
    rw [rowsDone_zero]
    isplitl [Hs2']
    · iexact Hs2'
    · iexact Hs3'
  iintro %_ HI
  unfold invL
  icases HI with ⟨Hs2', Hs3'⟩
  ihave Hs2' := (pts_conv (slot_rest0 sR1) (fun i _ => rfl)) $$ Hs2'
  ihave Hs3' := (pts_conv (slot_rest0 sR0) (fun i _ => rfl)) $$ Hs3'
  ihave Hs2' := (Entails.of_eq (own0 (F := F) d L sR1 _)) $$ Hs2'
  ihave Hs3' := (Entails.of_eq (own0 (F := F) d L sR0 _)) $$ Hs3'
  sl_exec
  -- chunk 1's rows have landed in slot 1 of each ring buffer
  sl_unfold_run_names
  ihave Hs2'_2 := (pts_conv rfl (landA1 m prodC hpre d L 1 _ _ 128 rfl _ _ _)) $$ Hs2'_2
  ihave Hs3'_2 := (pts_conv rfl (landB1 m recipC hpre d L 1 _ _ 128 rfl _ _ _)) $$ Hs3'_2
  ihave Hs2'_2 := (pts_conv (slot_rest1 sR1).symm (fun i _ => rfl)) $$ Hs2'_2
  ihave Hs3'_2 := (pts_conv (slot_rest1 sR0).symm (fun i _ => rfl)) $$ Hs3'_2
  sl_for (invL d L (((sR1).view.set \ (slot0M sR1).view.set) \ (slot2M sR1).view.set) (((sR0).view.set \ (slot0M sR0).view.set) \ (slot2M sR0).view.set) (gathA m prodC d L 1) (gathB m recipC d L 1)) $$ [Hs2'_2 Hs3'_2]
  case region =>
    intro k _
    unfold invL
    iintro ⟨H1, H0⟩
    sl_exec
    sl_unfold_run_names
    ihave H1 := (pts_conv (ℓ := (sR1).view.loc (V d (cV L) (jV L))) (S := (((sR1).view.set \ (slot0M sR1).view.set) \ (slot2M sR1).view.set)) (f' := rowsDone (k.val + 1) (gathA m prodC d L 1) (gathB m recipC d L 1)) rfl
      (rows_step 1 k.val k.isLt (gathA m prodC d L 1) (gathB m recipC d L 1) (((sR1).view.set \ (slot0M sR1).view.set) \ (slot2M sR1).view.set)
        (fun i hi => (mem_slot1_sR1 i).mp (rest_slot1 hi))
        (k1_off12 k) (k1_off12_eq k) (k1_off12_inb k) k1_pay8 (fun a b x => lane_mul a b _ _ x)
        (k1_off13 k) (k1_off13_eq k) (k1_off13_inb k) k1_pay9 (fun a b x => lane_mul a b _ _ x)
        (k1_off14 k) (k1_off14_eq k) (k1_off14_inb k) (fun a b => k1_pay11 (k1_pay10 a b)) (fun a b x => lane_mul a b _ _ x)
        (k1_off15 k) (k1_off15_eq k) (k1_off15_inb k) k1_pay12 (fun a b x => lane_mul a b _ _ x)
        (k1_off16 k) (k1_off16_eq k) (k1_off16_inb k) k1_pay13 (fun a b x => lane_mul a b _ _ x)
        (k1_off17 k) (k1_off17_eq k) (k1_off17_inb k) (fun a b => k1_pay32 (k1_pay14 a b)) (fun a b x => lane_mul a b _ _ x)
        (k1_off18 k) (k1_off18_eq k) (k1_off18_inb k) k1_pay33 (fun a b x => lane_mul a b _ _ x)
        (k1_off19 k) (k1_off19_eq k) (k1_off19_inb k) k1_pay34 (fun a b x => lane_mul a b _ _ x))) $$ H1
    sl_step
    isplitl [H1]
    · iexact H1
    · iexact H0
  · unfold invL
    rw [rowsDone_zero]
    isplitl [Hs2'_2]
    · iexact Hs2'_2
    · iexact Hs3'_2
  iintro %_ HI
  unfold invL
  icases HI with ⟨Hs2'_2, Hs3'_2⟩
  ihave Hs2'_2 := (pts_conv (slot_rest1 sR1) (fun i _ => rfl)) $$ Hs2'_2
  ihave Hs3'_2 := (pts_conv (slot_rest1 sR0) (fun i _ => rfl)) $$ Hs3'_2
  ihave Hs2'_2 := (Entails.of_eq (own1 (F := F) d L sR1 _)) $$ Hs2'_2
  ihave Hs3'_2 := (Entails.of_eq (own1 (F := F) d L sR0 _)) $$ Hs3'_2
  sl_exec
  -- chunk 2's rows have landed in slot 2 of each ring buffer
  sl_unfold_run_names
  ihave Hs2'_2 := (pts_conv rfl (landA2 m prodC hpre d L 2 _ _ 256 rfl _ _ _)) $$ Hs2'_2
  ihave Hs3'_3 := (pts_conv rfl (landB2 m recipC hpre d L 2 _ _ 256 rfl _ _ _)) $$ Hs3'_3
  ihave Hs2'_2 := (pts_conv (slot_rest2 sR1).symm (fun i _ => rfl)) $$ Hs2'_2
  ihave Hs3'_3 := (pts_conv (slot_rest2 sR0).symm (fun i _ => rfl)) $$ Hs3'_3
  sl_for (invL d L (((sR1).view.set \ (slot0M sR1).view.set) \ (slot1M sR1).view.set) (((sR0).view.set \ (slot0M sR0).view.set) \ (slot1M sR0).view.set) (gathA m prodC d L 2) (gathB m recipC d L 2)) $$ [Hs2'_2 Hs3'_3]
  case region =>
    intro k _
    unfold invL
    iintro ⟨H1, H0⟩
    sl_exec
    sl_unfold_run_names
    ihave H1 := (pts_conv (ℓ := (sR1).view.loc (V d (cV L) (jV L))) (S := (((sR1).view.set \ (slot0M sR1).view.set) \ (slot1M sR1).view.set)) (f' := rowsDone (k.val + 1) (gathA m prodC d L 2) (gathB m recipC d L 2)) rfl
      (rows_step 2 k.val k.isLt (gathA m prodC d L 2) (gathB m recipC d L 2) (((sR1).view.set \ (slot0M sR1).view.set) \ (slot1M sR1).view.set)
        (fun i hi => (mem_slot2_sR1 i).mp (rest_slot2 hi))
        (k1_off20 k) (k1_off20_eq k) (k1_off20_inb k) k1_pay15 (fun a b x => lane_mul a b _ _ x)
        (k1_off21 k) (k1_off21_eq k) (k1_off21_inb k) k1_pay16 (fun a b x => lane_mul a b _ _ x)
        (k1_off22 k) (k1_off22_eq k) (k1_off22_inb k) (fun a b => k1_pay18 (k1_pay17 a b)) (fun a b x => lane_mul a b _ _ x)
        (k1_off23 k) (k1_off23_eq k) (k1_off23_inb k) k1_pay19 (fun a b x => lane_mul a b _ _ x)
        (k1_off24 k) (k1_off24_eq k) (k1_off24_inb k) k1_pay20 (fun a b x => lane_mul a b _ _ x)
        (k1_off25 k) (k1_off25_eq k) (k1_off25_inb k) (fun a b => k1_pay35 (k1_pay21 a b)) (fun a b x => lane_mul a b _ _ x)
        (k1_off26 k) (k1_off26_eq k) (k1_off26_inb k) k1_pay36 (fun a b x => lane_mul a b _ _ x)
        (k1_off27 k) (k1_off27_eq k) (k1_off27_inb k) k1_pay37 (fun a b x => lane_mul a b _ _ x))) $$ H1
    sl_step
    isplitl [H1]
    · iexact H1
    · iexact H0
  · unfold invL
    rw [rowsDone_zero]
    isplitl [Hs2'_2]
    · iexact Hs2'_2
    · iexact Hs3'_3
  iintro %_ HI
  unfold invL
  icases HI with ⟨Hs2'_2, Hs3'_3⟩
  ihave Hs2'_2 := (pts_conv (slot_rest2 sR1) (fun i _ => rfl)) $$ Hs2'_2
  ihave Hs3'_3 := (pts_conv (slot_rest2 sR0) (fun i _ => rfl)) $$ Hs3'_3
  ihave Hs2'_2 := (Entails.of_eq (own2 (F := F) d L sR1 _)) $$ Hs2'_2
  ihave Hs3'_3 := (Entails.of_eq (own2 (F := F) d L sR0 _)) $$ Hs3'_3
  sl_exec
  -- chunk 3's rows have landed in slot 0 of each ring buffer
  sl_unfold_run_names
  ihave Hs2' := (pts_conv rfl (landA0w m prodC hpre d L 3 _ _ 384 rfl _ _ _)) $$ Hs2'
  ihave Hs3' := (pts_conv rfl (landB0w m recipC hpre d L 3 _ _ 384 rfl _ _ _)) $$ Hs3'
  ihave Hs2' := (Entails.of_eq (own0 (F := F) d L sR1 _).symm) $$ Hs2'
  ihave Hs3' := (Entails.of_eq (own0 (F := F) d L sR0 _).symm) $$ Hs3'
  ihave Hs2' := (pts_conv (slot_rest0 sR1).symm (fun i _ => rfl)) $$ Hs2'
  ihave Hs3' := (pts_conv (slot_rest0 sR0).symm (fun i _ => rfl)) $$ Hs3'
  sl_for (invL d L (((sR1).view.set \ (slot1M sR1).view.set) \ (slot2M sR1).view.set) (((sR0).view.set \ (slot1M sR0).view.set) \ (slot2M sR0).view.set) (gathA m prodC d L 3) (gathB m recipC d L 3)) $$ [Hs2' Hs3']
  case region =>
    intro k _
    unfold invL
    iintro ⟨H1, H0⟩
    sl_exec
    sl_unfold_run_names
    ihave H1 := (pts_conv (ℓ := (sR1).view.loc (V d (cV L) (jV L))) (S := (((sR1).view.set \ (slot1M sR1).view.set) \ (slot2M sR1).view.set)) (f' := rowsDone (k.val + 1) (gathA m prodC d L 3) (gathB m recipC d L 3)) rfl
      (rows_step 0 k.val k.isLt (gathA m prodC d L 3) (gathB m recipC d L 3) (((sR1).view.set \ (slot1M sR1).view.set) \ (slot2M sR1).view.set)
        (fun i hi => (mem_slot0_sR1 i).mp (rest_slot0 hi))
        (k1_off28 k) (k1_off28_eq k) (k1_off28_inb k) k1_pay22 (fun a b x => lane_mul a b _ _ x)
        (k1_off29 k) (k1_off29_eq k) (k1_off29_inb k) k1_pay23 (fun a b x => lane_mul a b _ _ x)
        (k1_off30 k) (k1_off30_eq k) (k1_off30_inb k) (fun a b => k1_pay25 (k1_pay24 a b)) (fun a b x => lane_mul a b _ _ x)
        (k1_off31 k) (k1_off31_eq k) (k1_off31_inb k) k1_pay26 (fun a b x => lane_mul a b _ _ x)
        (k1_off32 k) (k1_off32_eq k) (k1_off32_inb k) k1_pay27 (fun a b x => lane_mul a b _ _ x)
        (k1_off33 k) (k1_off33_eq k) (k1_off33_inb k) (fun a b => k1_pay38 (k1_pay28 a b)) (fun a b x => lane_mul a b _ _ x)
        (k1_off34 k) (k1_off34_eq k) (k1_off34_inb k) k1_pay39 (fun a b x => lane_mul a b _ _ x)
        (k1_off35 k) (k1_off35_eq k) (k1_off35_inb k) k1_pay40 (fun a b x => lane_mul a b _ _ x))) $$ H1
    sl_step
    isplitl [H1]
    · iexact H1
    · iexact H0
  · unfold invL
    rw [rowsDone_zero]
    isplitl [Hs2']
    · iexact Hs2'
    · iexact Hs3'
  iintro %_ HI
  unfold invL
  icases HI with ⟨Hs2', Hs3'⟩
  ihave Hs2' := (pts_conv (slot_rest0 sR1) (fun i _ => rfl)) $$ Hs2'
  ihave Hs3' := (pts_conv (slot_rest0 sR0) (fun i _ => rfl)) $$ Hs3'
  ihave Hs2' := (Entails.of_eq (own0 (F := F) d L sR1 _)) $$ Hs2'
  ihave Hs3' := (Entails.of_eq (own0 (F := F) d L sR0 _)) $$ Hs3'
  sl_exec
  -- the four blocks of the result hold the products
  sl_unfold_run_names
  ihave Hm0' := (pts_conv (ℓ := (chunkM L 0).view.loc (V d (cV L) (jV L))) (S := chunkSet L 0) (f' := msgC m prodC recipC d) rfl
    (scat0 m prodC recipC hpre d L 0 (rowsDone (Scf.trips k1_t1_loop.lb k1_t1_loop.ub k1_t1_loop.st) (gathA m prodC d L 0) (gathB m recipC d L 0)) _
      (fun j _ => rowsDone_full (gathA m prodC d L 0) (gathB m recipC d L 0) j))) $$ Hm0'
  ihave Hm1' := (pts_conv (ℓ := (chunkM L 1).view.loc (V d (cV L) (jV L))) (S := chunkSet L 1) (f' := msgC m prodC recipC d) rfl
    (scat1 m prodC recipC hpre d L 1 (rowsDone (Scf.trips k1_t2_loop.lb k1_t2_loop.ub k1_t2_loop.st) (gathA m prodC d L 1) (gathB m recipC d L 1)) _
      (fun j _ => rowsDone_full (gathA m prodC d L 1) (gathB m recipC d L 1) j))) $$ Hm1'
  ihave Hm2' := (pts_conv (ℓ := (chunkM L 2).view.loc (V d (cV L) (jV L))) (S := chunkSet L 2) (f' := msgC m prodC recipC d) rfl
    (scat2 m prodC recipC hpre d L 2 (rowsDone (Scf.trips k1_t3_loop.lb k1_t3_loop.ub k1_t3_loop.st) (gathA m prodC d L 2) (gathB m recipC d L 2)) _
      (fun j _ => rowsDone_full (gathA m prodC d L 2) (gathB m recipC d L 2) j))) $$ Hm2'
  ihave Hm3' := (pts_conv (ℓ := (chunkM L 3).view.loc (V d (cV L) (jV L))) (S := chunkSet L 3) (f' := msgC m prodC recipC d) rfl
    (scat0 m prodC recipC hpre d L 3 (rowsDone (Scf.trips k1_t4_loop.lb k1_t4_loop.ub k1_t4_loop.st) (gathA m prodC d L 3) (gathB m recipC d L 3)) _
      (fun j _ => rowsDone_full (gathA m prodC d L 3) (gathB m recipC d L 3) j))) $$ Hm3'
  ihave Hm0 := (Entails.of_eq (pts_chunk (F := F) d L 0 _)) $$ Hm0'
  ihave Hm1 := (Entails.of_eq (pts_chunk (F := F) d L 1 _)) $$ Hm1'
  ihave Hm2 := (Entails.of_eq (pts_chunk (F := F) d L 2 _)) $$ Hm2'
  ihave Hm3 := (Entails.of_eq (pts_chunk (F := F) d L 3 _)) $$ Hm3'
  ihave Hp8 := (Entails.of_eq (pts_pV (F := F) d L _ _)) $$ Hp8'
  ihave Hp9 := (Entails.of_eq (pts_pV (F := F) d L _ _)) $$ Hp9'
  ihave Hp10 := (Entails.of_eq (pts_pV (F := F) d L _ _)) $$ Hp10'
  ihave Hr11 := (Entails.of_eq (pts_rV (F := F) d L _ _)) $$ Hr11'
  ihave Hr12 := (Entails.of_eq (pts_rV (F := F) d L _ _)) $$ Hr12'
  ihave Hr13 := (Entails.of_eq (pts_rV (F := F) d L _ _)) $$ Hr13'
  ihave He := (Entails.of_eq (pts_eV (F := F) d L _ _)) $$ He'
  sl_step
  isplitl [HpD Hp10 Hp9 Hp8 HpR HrD Hr13 Hr12 Hr11 HrR He Hm0 Hm1 Hm2 Hm3]
  · isplitl [HpD Hp10 Hp9 Hp8 HpR]
    ·
      isplitl [HpD]; · iexact HpD
      isplitl [Hp10]; · iexact Hp10
      isplitl [Hp9]; · iexact Hp9
      isplitl [Hp8]; · iexact Hp8
      iexact HpR
    isplitl [HrD Hr13 Hr12 Hr11 HrR]
    ·
      isplitl [HrD]; · iexact HrD
      isplitl [Hr13]; · iexact Hr13
      isplitl [Hr12]; · iexact Hr12
      isplitl [Hr11]; · iexact Hr11
      iexact HrR
    isplitl [He]; · iexact He
    isplitl [Hm0]; · iexact Hm0
    isplitl [Hm1]; · iexact Hm1
    isplitl [Hm2]; · iexact Hm2
    iexact Hm3
  isplitl [Hs0' Hs1' Hs2' Hs2'_2 Hs2'_2_2 Hs3' Hs3'_2 Hs3'_3 Hbufs]
  · isplitr [Hbufs]
    · isplitl [Hs0']
      · iexists _; iapply (Entails.of_eq (pts_sI1 (F := F) d L _)); iexact Hs0'
      isplitl [Hs1']
      · iexists _; iapply (Entails.of_eq (pts_sI0 (F := F) d L _)); iexact Hs1'
      isplitl [Hs2' Hs2'_2 Hs2'_2_2]
      · iapply (ring_back1 (F := F) d L _ _ _)
        isplitl [Hs2']; · iexact Hs2'
        isplitl [Hs2'_2]; · iexact Hs2'_2
        iexact Hs2'_2_2
      · iapply (ring_back0 (F := F) d L _ _ _)
        isplitl [Hs3']; · iexact Hs3'
        isplitl [Hs3'_2]; · iexact Hs3'_2
        iexact Hs3'_3
    · iexact Hbufs
  isplitl [H4 H5 H6 H7 H8 H9 H10 H11 H12 Hc0 Hc1 Hsems]
  · isplitr [Hsems]
    ·
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [Hc0]; · iexact Hc0
      iexact Hc1
    · iexact Hsems
  iexists _; isplitr
  rotate_left
  · iexact HO
  · ipureintro
    repeat (first | exact fun p hp => Or.inl hp | refine ins_ok rfl ?_)

end Cert.Kernel.Sc

end
-- ==== Proof.ScOblK.lean ====
/-
  The launch theorem's obligations for the vector subcores' kernel: each task, and how a SparseCore's operands split
  among its vector subcores.
-/
import proofs.«208470_g86148454023375_cont_sun_c4_654_45_alg».proof.Proof.ScBodyK

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type}

local notation "𝕄" => MT nD τ sig (HIx 1) (Elt F) ℕ UU ℕ

variable [FloatOps F]
variable (m : (ℓ : Loc nD τ sig) → Buf (Elt F) ℓ) (prodC recipC : (⟨S4096x128, .f32⟩ : BufTy).Contents (Elt F))

theorem defs₀_vector (c : Fin τ.nSC) (s : Fin τ.nSub) :
    defs₀ (F := F) (.scVector c s) 1 ()
      = SparseCore.onTile hcore1 hsub1 (fun c s => cc1_k (coordsV c s)
            (Memref.whole main_v1_0_scv) (Memref.isWhole_whole _) (Memref.whole main_v1_1_scv) (Memref.isWhole_whole _)
            (Memref.whole main_arg3_scv) (Memref.isWhole_whole _) (Memref.whole main_v2_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scratch4 cc1_scratch5 cc1_scratch6 cc1_scratch7 cc1_scratch8 cc1_scratch9 cc1_scratch10 cc1_scratch11 cc1_scratch12 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call. -/
theorem tileObl (hpre : PreOK m) : (K (F := F)).TileObl (D (F := F)) 𝒱 (P m prodC recipC) v₀ 0 := by
  intro d c i O W hO _ _
  simp only [show (P m prodC recipC).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m prodC recipC facts hpre d (coordsV ⟨_, hc.1⟩ ⟨_, hc.2⟩) O W hO).trans (wp_mono frame _ _ fun _ => obl_post)

omit [FloatOps F] in
theorem cL_Lcs (c : Fin 2) (s : Fin 16) : cL (Lcs c s) = c := rfl
omit [FloatOps F] in
theorem sL_Lcs (c : Fin 2) (s : Fin 16) : sL (Lcs c s) = s := rfl

/-- A SparseCore's operands are its vector subcores' operands. -/
theorem core_split (d : Dev nD) (c : Fin 2) :
    coreSt m prodC recipC d c = bigSep Finset.univ fun s : Fin 16 => tileGo m prodC recipC d (Lcs c s) := by
  unfold coreSt tileGo
  rw [bigSep_sep', bigSep_sep', bigSep_sep']
  simp only [cL_Lcs, sL_Lcs]
  rw [share16, share16, share16]

/-- A SparseCore's results are its vector subcores' results. -/
theorem core_join (d : Dev nD) (c : Fin 2) :
    coreDn m prodC recipC d c = bigSep Finset.univ fun s : Fin 16 => tileTd m prodC recipC d (Lcs c s) := by
  unfold coreDn tileTd
  rw [bigSep_sep', bigSep_sep', bigSep_sep']
  simp only [cL_Lcs, sL_Lcs]
  rw [share16, share16, share16]

/-- A SparseCore's operands split among its sixteen vector subcores, and their results gather. -/
theorem vecSplit : (K (F := F)).VecSplit' (P m prodC recipC) 0 := by
  intro d c
  show coreSt m prodC recipC d (Fin.cast nCore_zero c) ⊢ |={Set.univ}=> iprop(
      (bigSep Finset.univ fun i : Fin ((K (F := F)).nSub 0) => tileGo m prodC recipC d (Lcs (Fin.cast nCore_zero c) (Fin.cast nSub_zero i)))
      ∗ ((bigSep Finset.univ fun i : Fin ((K (F := F)).nSub 0) => tileTd m prodC recipC d (Lcs (Fin.cast nCore_zero c) (Fin.cast nSub_zero i)))
          -∗ coreDn m prodC recipC d (Fin.cast nCore_zero c)))
  rw [bigSep_subs (fun s => tileGo m prodC recipC d (Lcs (Fin.cast nCore_zero c) s)),
    bigSep_subs (fun s => tileTd m prodC recipC d (Lcs (Fin.cast nCore_zero c) s)), core_split, core_join]
  iintro H; imodintro
  isplitl [H]; · iexact H
  iintro H; iexact H

end Cert.Kernel.Sc

end
-- ==== Proof.RunK.lean ====
/-
  The program's run: every weakly fair execution of the device's threads terminates, nothing faulting, with the result
  array at the composed value of the argument arrays and the arguments as they were.
-/
import proofs.«208470_g86148454023375_cont_sun_c4_654_45_alg».proof.Proof.MainK
import proofs.«208470_g86148454023375_cont_sun_c4_654_45_alg».proof.Proof.ScOblK

noncomputable section

namespace Cert.Kernel.Sc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- The run's post: the result array at `o`, the seven arguments as launched. -/
def QC (o : (d : Dev nD) → Buf (Elt F) (aLoc d main_v4)) : PUnit × MemSt nD τ sig (Elt F) → Prop := fun r => ∀ c : Dev nD,
  r.2.mem (aLoc c main_v4) = o c ∧ r.2.mem (aLoc c main_arg0) = m (aLoc c main_arg0) ∧ r.2.mem (aLoc c main_arg1) = m (aLoc c main_arg1) ∧ r.2.mem (aLoc c main_arg2) = m (aLoc c main_arg2)
    ∧ r.2.mem (aLoc c main_arg3) = m (aLoc c main_arg3) ∧ r.2.mem (aLoc c main_arg4) = m (aLoc c main_arg4) ∧ r.2.mem (aLoc c main_arg5) = m (aLoc c main_arg5) ∧ r.2.mem (aLoc c main_arg6) = m (aLoc c main_arg6)

variable {prodV : (⟨S1x1, .f32⟩ : BufTy).Contents (Elt F) → (⟨S4096x256, .f32⟩ : BufTy).Contents (Elt F) → (⟨S256x128, .f32⟩ : BufTy).Contents (Elt F) → (⟨S4096x128, .f32⟩ : BufTy).Contents (Elt F)}
  {recipV : (⟨S1x1, .f32⟩ : BufTy).Contents (Elt F) → (⟨S4096x256, .f32⟩ : BufTy).Contents (Elt F) → (⟨S256x128, .f32⟩ : BufTy).Contents (Elt F) → (⟨S4096x4096, .f32⟩ : BufTy).Contents (Elt F) → (⟨S4096x128, .f32⟩ : BufTy).Contents (Elt F)}
  {outV : (⟨S4096x16384, .f32⟩ : BufTy).Contents (Elt F) → (⟨S16384x128, .f32⟩ : BufTy).Contents (Elt F) → (⟨S1x128, .f32⟩ : BufTy).Contents (Elt F) → (⟨S4096x128, .f32⟩ : BufTy).Contents (Elt F)}

theorem run_main [∀ e, Nonempty (Elt F e)] (h0 : Region0Spec (F := F) prodV recipV) (h2 : Region2Spec (F := F) outV) (hpre : PreOK m) :
    θ_run (Cert.Kernel.defs (F := F)) (Cert.Kernel.threads (F := F)) ⟨m, fun _ => 0, ρ⟩ (QC m (outCv m prodV recipV outV)) :=
  SparseCore.Cfg.θ_run_sc (K := K (F := F)) (D := D (F := F)) (𝒱 := 𝒱) (EH := EH) (P := P m (prodCv m prodV 0) (recipCv m recipV 0)) facts v₀
    (fun q hq => match q with | 0 => nomatch hq)
    (fun q _ => match q with | 0 => tileObl m (prodCv m prodV 0) (recipCv m recipV 0) hpre)
    (fun q _ => match q with | 0 => SparseCore.Cfg.VecSplit.of_plain (vecSplit m (prodCv m prodV 0) (recipCv m recipV 0)))
    m ρ main (G (F := F)) (FIN m (outCv m prodV recipV outV)) (u₀ (F := F))
    (sep_elim_left.trans (hu₀ (P m (prodCv m prodV 0) (recipCv m recipV 0)) (fun _ _ => rfl)))
    (hmain m ρ h0 h2) (fq m (outCv m prodV recipV outV)) (hfin m (outCv m prodV recipV outV)) (QC m (outCv m prodV recipV outV)) (fun _ h => h)

end Cert.Kernel.Sc

end
-- ==== Proof.Tc2Body.lean ====
/-
  The output pallas_call (grid of 32 row blocks): what the body leaves in its staging buffers at a point, the body's
  triple, the proof data of the pipeline over a valuation of the TensorCore's buffers, and the body obligation.
  out block t = T block t · msg + bias row.
-/
import proofs.«208470_g86148454023375_cont_sun_c4_654_45_alg».proof.Proof.ScSetup
import proofs.«208470_g86148454023375_cont_sun_c4_654_45_alg».proof.Proof.Gen.KernelIdeal.Launch
import proofs.«208470_g86148454023375_cont_sun_c4_654_45_alg».proof.Proof.Gen.KernelIdeal.Skeleton
import proofs.«208470_g86148454023375_cont_sun_c4_654_45_alg».proof.Proof.Gen.KernelIdeal.Points

import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Tc

open Cert.KernelIdeal Cert.KernelIdeal.Gen Cert.KernelIdeal.Sc

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- A valuation of the TensorCore's buffers on each device. -/
abbrev Val𝕍 (F : FTy → Type) : Type := (d : Dev nD) → (b : Ref sig .tc) → Buf (Elt F) ((d : Thread nD τ).loc b)

variable (𝕧 : Val𝕍 F) (O : Dev nD → CellTallies nD τ sig (HIx 1)) (b : ℕ)

/-! ## The windows' blocks -/

/-- Window `w`'s block at point `t`, read off its array at the valuation. -/
def iblk2 (c : Dev nD) (w : Fin cfg2.W) (t : Fin cfg2.N) : ((cfg2.win w).xblock (cfg2.grid.coords t)).Idx → Elt F (cfg2.win w).elt :=
  ((cfg2.win w).blk t).view.read (Elt F) (𝕧 c (Pipeline.arrRef spec2 w))

theorem before2_0_of {c : Dev nD} (dat : Dat τ (Elt F) (HIx 1) ℕ UU ℕ cfg2 c) (hA : dat.A 0 = 𝕧 c (Pipeline.arrRef spec2 0))
    (hafter : ∀ t, dat.after 0 t = iblk2 𝕧 c 0 t) (t : Fin cfg2.N) (d) : dat.before 0 t d = iblk2 𝕧 c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = 𝕧 c (Pipeline.arrRef spec2 1))
    (hafter : ∀ t, dat.after 1 t = iblk2 𝕧 c 1 t) (t : Fin cfg2.N) (d) : dat.before 1 t d = iblk2 𝕧 c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 1) ℕ UU ℕ cfg2 c) (hA : dat.A 2 = 𝕧 c (Pipeline.arrRef spec2 2))
    (hafter : ∀ t, dat.after 2 t = iblk2 𝕧 c 2 t) (t : Fin cfg2.N) (d) : dat.before 2 t d = iblk2 𝕧 c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S128x16384 := Rect.unit (s := S128x16384) ![0, 0] S128x16384.size inb_S128x16384_S128x16384_0_0
abbrev r2_1 : Rect S16384x128 := Rect.unit (s := S16384x128) ![0, 0] S16384x128.size inb_S16384x128_S16384x128_0_0
abbrev r2_2 : Rect S1x128 := Rect.unit (s := S1x128) ![0, 0] S1x128.size inb_S1x128_S1x128_0_0
abbrev r2_3 : Rect S128x128 := Rect.unit (s := S128x128) ![0, 0] S128x128.size inb_S128x128_S128x128_0_0

/-- The output window's staging buffer after the body, from the input windows' blocks: its one store. -/
def out2_3 (x0 : Vec F S128x16384 .f32) (x1 : Vec F S16384x128 .f32) (x2 : Vec F S1x128 .f32) : Vec F S128x128 .f32 :=
  View.canon [⟨r2_3, k2_pay1 (View.ld x0 r2_0) (View.ld x1 r2_1) (View.ld x2 r2_2)⟩]

theorem cover2_3 (p0 : Vec F S128x128 .f32) (y : S128x128.Idx) :
    ∃ pc ∈ ([⟨r2_3, p0⟩] : List (View.Piece (Elt F) S128x128 .f32)), y ∈ pc.1.set :=
  View.cover_of_tiled [⟨r2_3, p0⟩] S128x128.size (by rfl) y

/-! ## The body's triple -/

set_option maxHeartbeats 1000000 in
/-- The body on whole staging memrefs: the three inputs' kept, the output's at the product plus the bias row. -/
theorem sound_kernel2 (c : Dev nD) (E : Set ℕ) (i : grid2.Coords) (arg1 : Memref sig .tc .vmem S128x16384 .f32) (harg1 : arg1.IsWhole) (arg2 : Memref sig .tc .vmem S16384x128 .f32) (harg2 : arg2.IsWhole)
    (arg3 : Memref sig .tc .vmem S1x128 .f32) (harg3 : arg3.IsWhole) (arg4 : Memref sig .tc .vmem S128x128 .f32) (harg4 : arg4.IsWhole)
    (x0 : Vec F S128x16384 .f32) (x1 : Vec F S16384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__k_out i arg1 harg1 arg2 harg2 arg3 harg3 arg4 harg4) K := by
  simp only [cc2__k_out_eq_skeleton]; unfold cc2__k_out_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the output pipeline on core `c`: the arrays at the valuation; after the body each input's buffer
    at its block and the output's at the body's result over the input blocks; the invariant the scoped buffers no window
    stages, untouched; the core owes `O c` throughout. -/
def dat2 (c : Dev nD) : Dat τ (Elt F) (HIx 1) ℕ UU ℕ cfg2 c where
  A w := 𝕧 c (Pipeline.arrRef spec2 w)
  after w t := match w with
    | ⟨0, _⟩ => iblk2 𝕧 c 0 t
    | ⟨1, _⟩ => iblk2 𝕧 c 1 t
    | ⟨2, _⟩ => iblk2 𝕧 c 2 t
    | ⟨3, _⟩ => out2_3 (iblk2 𝕧 c 0 t) (iblk2 𝕧 c 1 t) (iblk2 𝕧 c 2 t)
  Φ _ := Pipeline.scopedRest spec2 c
  q _ := fullShare
  owed _ := O c
  recorded _ := {p | (K (F := F)).lev ((c : Thread nD τ), p.1) p.2 ≤ b}

theorem A2_eq (c : Dev nD) (w : Fin cfg2.W) : (dat2 𝕧 O b c).A w = 𝕧 c (Pipeline.arrRef spec2 w) := by
  dsimp only [dat2]

theorem after2_0 (c : Dev nD) (t : Fin cfg2.N) : (dat2 𝕧 O b c).after 0 t = iblk2 𝕧 c 0 t := by dsimp only [dat2]
theorem after2_1 (c : Dev nD) (t : Fin cfg2.N) : (dat2 𝕧 O b c).after 1 t = iblk2 𝕧 c 1 t := by dsimp only [dat2]
theorem after2_2 (c : Dev nD) (t : Fin cfg2.N) : (dat2 𝕧 O b c).after 2 t = iblk2 𝕧 c 2 t := by dsimp only [dat2]
theorem after2_3 (c : Dev nD) (t : Fin cfg2.N) : (dat2 𝕧 O b c).after 3 t = out2_3 (iblk2 𝕧 c 0 t) (iblk2 𝕧 c 1 t) (iblk2 𝕧 c 2 t) := by dsimp only [dat2]

theorem before2_0 (c : Dev nD) (t : Fin cfg2.N) (d) : (dat2 𝕧 O b c).before 0 t d = iblk2 𝕧 c 0 t :=
  before2_0_of 𝕧 (dat2 𝕧 O b c) (A2_eq 𝕧 O b c 0) (after2_0 𝕧 O b c) t d
theorem before2_1 (c : Dev nD) (t : Fin cfg2.N) (d) : (dat2 𝕧 O b c).before 1 t d = iblk2 𝕧 c 1 t :=
  before2_1_of 𝕧 (dat2 𝕧 O b c) (A2_eq 𝕧 O b c 1) (after2_1 𝕧 O b c) t d
theorem before2_2 (c : Dev nD) (t : Fin cfg2.N) (d) : (dat2 𝕧 O b c).before 2 t d = iblk2 𝕧 c 2 t :=
  before2_2_of 𝕧 (dat2 𝕧 O b c) (A2_eq 𝕧 O b c 2) (after2_2 𝕧 O b c) t d

/-! ## The body obligation, at a generic point -/

def bodyPre2 (c : Dev nD) (t : Fin cfg2.N) : sProp 𝕄 :=
  iprop((dat2 𝕧 O b c).Φ t.castSucc ∗ (dat2 𝕧 O b c).owesAt none t.castSucc
    ∗ (∃ d, owns (c : Thread nD τ) (st2_0 t) fullShare ((dat2 𝕧 O b c).before 0 t d))
    ∗ (∃ d, owns (c : Thread nD τ) (st2_1 t) fullShare ((dat2 𝕧 O b c).before 1 t d))
    ∗ (∃ d, owns (c : Thread nD τ) (st2_2 t) fullShare ((dat2 𝕧 O b c).before 2 t d))
    ∗ (∃ d, owns (c : Thread nD τ) (st2_3 t) fullShare ((dat2 𝕧 O b c).before 3 t d)))

def bodyPost2 (c : Dev nD) (t : Fin cfg2.N) : sProp 𝕄 :=
  iprop((dat2 𝕧 O b c).Φ t.succ ∗ (dat2 𝕧 O b c).owesAt none t.succ
    ∗ owns (c : Thread nD τ) (st2_0 t) fullShare ((dat2 𝕧 O b c).after 0 t)
    ∗ owns (c : Thread nD τ) (st2_1 t) fullShare ((dat2 𝕧 O b c).after 1 t)
    ∗ owns (c : Thread nD τ) (st2_2 t) fullShare ((dat2 𝕧 O b c).after 2 t)
    ∗ owns (c : Thread nD τ) (st2_3 t) fullShare ((dat2 𝕧 O b c).after 3 t))

theorem sound_body2 (c : Dev nD) (t : Fin cfg2.N) :
    bodyPre2 𝕧 O b c t ⊢ wp frame (wpE (defs₀ (F := F)) Variants.none c none) Set.univ (bodyAt2 t) (fun _ => bodyPost2 𝕧 O b c t) := by
  unfold bodyPre2 bodyPost2 bodyAt2
  simp only [before2_0, before2_1, before2_2]
  rw [show (dat2 𝕧 O b c).Φ t.succ = (dat2 𝕧 O b c).Φ t.castSucc from rfl,
    show (dat2 𝕧 O b c).owesAt none t.succ = (dat2 𝕧 O b c).owesAt none t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 𝕧 c 0 t) (iblk2 𝕧 c 1 t) (iblk2 𝕧 c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) 𝕧 O b c) (defs₀ (F := F)) Variants.none none Set.univ := fun t => by
  rw [bigSep_W2, bigSep_W2]
  exact sound_body2 𝕧 O b c t

end Cert.KernelIdeal.Tc

end
-- ==== Proof.Tc0RunA.lean ====
/-
  The first kernel's body at the point where its condition holds (the first grid point), on any staging memrefs: it
  fills the scratch with the shifted exponentials and the first output with their products with the support, then the
  row block's reciprocal block.
-/
import proofs.«208470_g86148454023375_cont_sun_c4_654_45_alg».proof.Proof.ScSetup
import proofs.«208470_g86148454023375_cont_sun_c4_654_45_alg».proof.Proof.Gen.KernelIdeal.Skeleton
import proofs.«208470_g86148454023375_cont_sun_c4_654_45_alg».proof.Proof.Gen.KernelIdeal.Launch
import proofs.«208470_g86148454023375_cont_sun_c4_654_45_alg».proof.Proof.Gen.KernelIdeal.Points
import Idealize.ShloMosaic.Lib.Pipeline.FrameBody
import Idealize.ShloMosaic.Lib.Tactic

set_option maxRecDepth 16384

noncomputable section

namespace Cert.KernelIdeal.Tc

open Cert.KernelIdeal Cert.KernelIdeal.Gen Cert.KernelIdeal.Sc

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

set_option maxHeartbeats 2000000 in
/-- What the body's stores leave in the two outputs' staging memrefs and in the scratch, as pieces, where the condition
    holds, with the proof that on whole staging memrefs — the inputs' at their contents, the outputs' and the scratch at
    anything — the body runs to the continuation holding the inputs' as they were and each written memref with its pieces. -/
noncomputable def kernelRun0_A (c : Dev nD) (i : grid0.Coords) (arg1 : Memref sig .tc .vmem S1x1 .f32) (harg1 : arg1.IsWhole) (arg2 : Memref sig .tc .vmem S4096x256 .f32) (harg2 : arg2.IsWhole)
    (arg3 : Memref sig .tc .vmem S256x128 .f32) (harg3 : arg3.IsWhole) (arg4 : Memref sig .tc .vmem S512x4096 .f32) (harg4 : arg4.IsWhole) (arg5 : Memref sig .tc .vmem S4096x128 .f32) (harg5 : arg5.IsWhole)
    (arg6 : Memref sig .tc .vmem S512x128 .f32) (harg6 : arg6.IsWhole) (arg7 : Memref sig .tc .vmem S4096x128 .f32) (harg7 : arg7.IsWhole) (hc0 : k0_cond1 i = 1#1)
    (x0 : Vec F S1x1 .f32) (x1 : Vec F S4096x256 .f32) (x2 : Vec F S256x128 .f32) (x3 : Vec F S512x4096 .f32) :
    { L : List (View.Piece (Elt F) S4096x128 .f32) × List (View.Piece (Elt F) S512x128 .f32) × List (View.Piece (Elt F) S4096x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc0__k_sup_agg i arg1 harg1 arg2 harg2 arg3 harg3 arg4 harg4 arg5 harg5 arg6 harg6 arg7 harg7) K } := by
  refine ⟨⟨?_, ?_, ?_⟩, fun E K => ?run⟩
  case run =>
    simp only [cc0__k_sup_agg_eq_skeleton]; unfold cc0__k_sup_agg_skel
    unfold owns
    iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%d7, %f7, -, H7⟩, Hk⟩
    obtain rfl := harg1.eq_unread hf0
    obtain rfl := harg2.eq_unread hf1
    obtain rfl := harg3.eq_unread hf2
    obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H5]; · iexists _; iexact H5
    isplitl [H6]; · iexists _; iexact H6
    iexists _; iexact H7

end Cert.KernelIdeal.Tc

end
-- ==== Proof.Tc0RunB.lean ====
/-
  The first kernel's body at the points where its condition fails (every grid point after the first), on any staging
  memrefs: from the row block and the scratch as the first point left it, the block's reciprocal block; nothing else is touched.
-/
import proofs.«208470_g86148454023375_cont_sun_c4_654_45_alg».proof.Proof.ScSetup
import proofs.«208470_g86148454023375_cont_sun_c4_654_45_alg».proof.Proof.Gen.KernelIdeal.Skeleton
import proofs.«208470_g86148454023375_cont_sun_c4_654_45_alg».proof.Proof.Gen.KernelIdeal.Launch
import proofs.«208470_g86148454023375_cont_sun_c4_654_45_alg».proof.Proof.Gen.KernelIdeal.Points
import Idealize.ShloMosaic.Lib.Pipeline.FrameBody
import Idealize.ShloMosaic.Lib.Tactic

set_option maxRecDepth 16384

noncomputable section

namespace Cert.KernelIdeal.Tc

open Cert.KernelIdeal Cert.KernelIdeal.Gen Cert.KernelIdeal.Sc

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

set_option maxHeartbeats 2000000 in
/-- What the body's one store leaves in the second output's staging memref, as pieces, where the condition fails, with
    the proof that on whole staging memrefs — the row block's and the scratch at their contents, the output's at anything
    — the body runs to the continuation holding those two as they were and the output's with the piece written. -/
noncomputable def kernelRun0_B (c : Dev nD) (i : grid0.Coords) (arg1 : Memref sig .tc .vmem S1x1 .f32) (harg1 : arg1.IsWhole) (arg2 : Memref sig .tc .vmem S4096x256 .f32) (harg2 : arg2.IsWhole)
    (arg3 : Memref sig .tc .vmem S256x128 .f32) (harg3 : arg3.IsWhole) (arg4 : Memref sig .tc .vmem S512x4096 .f32) (harg4 : arg4.IsWhole) (arg5 : Memref sig .tc .vmem S4096x128 .f32) (harg5 : arg5.IsWhole)
    (arg6 : Memref sig .tc .vmem S512x128 .f32) (harg6 : arg6.IsWhole) (arg7 : Memref sig .tc .vmem S4096x128 .f32) (harg7 : arg7.IsWhole) (hc0 : ¬ k0_cond1 i = 1#1)
    (x3 : Vec F S512x4096 .f32) (x7 : Vec F S4096x128 .f32) :
    { L : List (View.Piece (Elt F) S512x128 .f32) //
      ∀ (E : Set ℕ) (K : PUnit → sProp 𝕄),
        iprop(owns (c : Thread nD τ) arg4 fullShare x3 ∗ owns (c : Thread nD τ) arg7 fullShare x7 ∗ (∃ d, owns (c : Thread nD τ) arg6 fullShare d)
            ∗ (iprop(owns (c : Thread nD τ) arg4 fullShare x3 ∗ owns (c : Thread nD τ) arg7 fullShare x7
                ∗ (∃ f, arg6.view.loc (c : Thread nD τ) ↦[arg6.view.set]{fullShare} arg6.view.writes (Elt F) f L)) -∗ K ⟨⟩))
          ⊢ wp frame (wpE (defs₀ (F := F)) Variants.none c none) E (cc0__k_sup_agg i arg1 harg1 arg2 harg2 arg3 harg3 arg4 harg4 arg5 harg5 arg6 harg6 arg7 harg7) K } := by
  refine ⟨?_, fun E K => ?run⟩
  case run =>
    simp only [cc0__k_sup_agg_eq_skeleton]; unfold cc0__k_sup_agg_skel
    unfold owns
    iintro ⟨⟨%f3, %hf3, H3⟩, ⟨%f7, %hf7, H7⟩, ⟨%d6, %f6, -, H6⟩, Hk⟩
    obtain rfl := harg4.eq_unread hf3
    obtain rfl := harg7.eq_unread hf7
    sl_exec (disch := first | exact hc0)
    sl_step
    iapply Hk
    isplitl [H3]
    · iexists _; isplitr; · ipureintro; exact harg4.read_unread _
      iexact H3
    isplitl [H7]
    · iexists _; isplitr; · ipureintro; exact harg7.read_unread _
      iexact H7
    iexists _; iexact H6

end Cert.KernelIdeal.Tc

end
-- ==== Proof.Tc0Body.lean ====
/-
  The first pallas_call (grid of 8 row blocks; a scratch carried between points; the first output stored at the first
  point only and written back after the last): its proof data over a valuation of the TensorCore's buffers, what the body
  finds in and leaves in each staging buffer, and the body obligation from the body's two runs.
    first point: scratch := shifted exponentials sm; first output := support · sm; then, at every point,
    second output's block t := Newton-refined reciprocal of (adjacency block t · sm + 1e-6).
-/
import proofs.«208470_g86148454023375_cont_sun_c4_654_45_alg».proof.Proof.ScSetup
import proofs.«208470_g86148454023375_cont_sun_c4_654_45_alg».proof.Proof.Gen.KernelIdeal.Launch
import proofs.«208470_g86148454023375_cont_sun_c4_654_45_alg».proof.Proof.Gen.KernelIdeal.Skeleton
import proofs.«208470_g86148454023375_cont_sun_c4_654_45_alg».proof.Proof.Gen.KernelIdeal.Points
import proofs.«208470_g86148454023375_cont_sun_c4_654_45_alg».proof.Proof.Tc2Body
import proofs.«208470_g86148454023375_cont_sun_c4_654_45_alg».proof.Proof.Tc0RunA
import proofs.«208470_g86148454023375_cont_sun_c4_654_45_alg».proof.Proof.Tc0RunB
import Idealize.ShloMosaic.Lib.Pipeline.TableIdle
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Tc

open Cert.KernelIdeal Cert.KernelIdeal.Gen Cert.KernelIdeal.Sc

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (𝕧 : Val𝕍 F) (O : Dev nD → CellTallies nD τ sig (HIx 1)) (b : ℕ)

/-! ## The windows' blocks -/

/-- Window `w`'s block at point `t`, read off its array at the valuation. -/
def iblk0 (c : Dev nD) (w : Fin cfg0.W) (t : Fin cfg0.N) : ((cfg0.win w).xblock (cfg0.grid.coords t)).Idx → Elt F (cfg0.win w).elt :=
  ((cfg0.win w).blk t).view.read (Elt F) (𝕧 c (Pipeline.arrRef spec0 w))

theorem before0_0_of {c : Dev nD} (dat : Dat τ (Elt F) (HIx 1) ℕ UU ℕ cfg0 c) (hA : dat.A 0 = 𝕧 c (Pipeline.arrRef spec0 0))
    (hafter : ∀ t, dat.after 0 t = iblk0 𝕧 c 0 t) (t : Fin cfg0.N) (d) : dat.before 0 t d = iblk0 𝕧 c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) (HIx 1) ℕ UU ℕ cfg0 c) (hA : dat.A 1 = 𝕧 c (Pipeline.arrRef spec0 1))
    (hafter : ∀ t, dat.after 1 t = iblk0 𝕧 c 1 t) (t : Fin cfg0.N) (d) : dat.before 1 t d = iblk0 𝕧 c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) (HIx 1) ℕ UU ℕ cfg0 c) (hA : dat.A 2 = 𝕧 c (Pipeline.arrRef spec0 2))
    (hafter : ∀ t, dat.after 2 t = iblk0 𝕧 c 2 t) (t : Fin cfg0.N) (d) : dat.before 2 t d = iblk0 𝕧 c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) (HIx 1) ℕ UU ℕ cfg0 c) (hA : dat.A 3 = 𝕧 c (Pipeline.arrRef spec0 3))
    (hafter : ∀ t, dat.after 3 t = iblk0 𝕧 c 3 t) (t : Fin cfg0.N) (d) : dat.before 3 t d = iblk0 𝕧 c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The schedule's facts -/

/-- The body's condition holds at the first point only. -/
theorem hcond0 : ∀ t : Fin cfg0.N, k0_cond1 (grid0.coords t) = 1#1 ↔ t.val = 0 :=
  (by decide +kernel : ∀ t : Fin grid0.N, k0_cond1 (grid0.coords t) = 1#1 ↔ t.val = 0)

/-- The first output's window is idle exactly where the condition fails. -/
theorem idle0_4 : ∀ t : Fin cfg0.N, cfg0.idle 4 (cfg0.grid.coords t) = decide (t.val ≠ 0) :=
  (by decide +kernel : ∀ t : Fin grid0.N, idle0 4 (grid0.coords t) = decide (t.val ≠ 0))

/-- Its buffer holds nothing stored at the first point only. -/
theorem fresh0_4 : ∀ t : Fin cfg0.N, cfg0.fresh 4 t.val = decide (t.val = 0) :=
  (by decide +kernel : ∀ t : Fin grid0.N, cfg0.fresh 4 t.val = decide (t.val = 0))

/-! ## The staging memrefs at a point -/

abbrev ms0_0 (t : Fin cfg0.N) : Memref sig .tc .vmem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
/-- The scratch. -/
abbrev scM0 : Memref sig .tc .vmem S4096x128 .f32 := Memref.whole cc0_scratch0

/-! ## The body's two runs at the pipeline's memrefs -/

/-- The run at a point where the condition holds. -/
def runA (c : Dev nD) (t : Fin cfg0.N) (hz : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t)
    scM0 (Memref.isWhole_whole _) ((hcond0 t).mpr hz) (iblk0 𝕧 c 0 t) (iblk0 𝕧 c 1 t) (iblk0 𝕧 c 2 t) (iblk0 𝕧 c 3 t)

/-- What the first point leaves in the scratch, -/
def smK (c : Dev nD) : Vec F S4096x128 .f32 := View.canon (runA 𝕧 c t0_0 rfl).1.2.2
/-- in the first output's buffer, -/
def prodK (c : Dev nD) : Vec F S4096x128 .f32 := View.canon (runA 𝕧 c t0_0 rfl).1.1

/-- The run at a point where the condition fails, the scratch at what the first point left. -/
def runB (c : Dev nD) (t : Fin cfg0.N) (hz : t.val ≠ 0) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t)
    scM0 (Memref.isWhole_whole _) (fun h => hz ((hcond0 t).mp h)) (iblk0 𝕧 c 3 t) (smK 𝕧 c)

/-- and what each point leaves in the second output's buffer. -/
def recipAt (c : Dev nD) (t : Fin cfg0.N) : Vec F S512x128 .f32 :=
  if hz : t.val = 0 then View.canon (runA 𝕧 c t hz).1.2.1 else View.canon (runB 𝕧 c t hz).1

theorem coverA_5 (c : Dev nD) (t : Fin cfg0.N) (hz : t.val = 0) (y : S4096x128.Idx) : ∃ pc ∈ (runA 𝕧 c t hz).1.1, y ∈ pc.1.set :=
  View.cover_of_tiledL (runA 𝕧 c t hz).1.1 S4096x128.size (by sl_kernel_rfl) y
theorem coverA_6 (c : Dev nD) (t : Fin cfg0.N) (hz : t.val = 0) (y : S512x128.Idx) : ∃ pc ∈ (runA 𝕧 c t hz).1.2.1, y ∈ pc.1.set :=
  View.cover_of_tiledL (runA 𝕧 c t hz).1.2.1 S512x128.size (by sl_kernel_rfl) y
theorem coverA_7 (c : Dev nD) (t : Fin cfg0.N) (hz : t.val = 0) (y : S4096x128.Idx) : ∃ pc ∈ (runA 𝕧 c t hz).1.2.2, y ∈ pc.1.set :=
  View.cover_of_tiledL (runA 𝕧 c t hz).1.2.2 S4096x128.size (by sl_kernel_rfl) y
theorem coverB_6 (c : Dev nD) (t : Fin cfg0.N) (hz : t.val ≠ 0) (y : S512x128.Idx) : ∃ pc ∈ (runB 𝕧 c t hz).1, y ∈ pc.1.set :=
  View.cover_of_tiledL (runB 𝕧 c t hz).1 S512x128.size (by sl_kernel_rfl) y

/-! ## The region's invariant: the scoped buffers no window stages, the scratch carried from the first point on -/

/-- The other pipeline's staging buffers, at anything. -/
def rest0 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

theorem scopedRest0_split (c : Dev nD) :
    (Pipeline.scopedRest (Ix := HIx 1) (Name := ℕ) (U := UU) (Lvl := ℕ) (Val := Elt F) spec0 c : sProp 𝕄)
      = iprop((∃ d, owns (c : Thread nD τ) scM0 fullShare d) ∗ rest0 c) := by
  rw [scopedRest0_eq]; unfold rest0; simp only [scM0, owns_whole]; try rfl

/-- Before point `n`: at the first point every scratch at anything; afterwards the carried scratch at what the first point left. -/
def Phi0 (c : Dev nD) : ℕ → sProp 𝕄
  | 0 => Pipeline.scopedRest spec0 c
  | _ + 1 => iprop(owns (c : Thread nD τ) scM0 fullShare (smK 𝕧 c) ∗ rest0 c)

theorem Phi0_pos (c : Dev nD) (n : ℕ) (hn : n ≠ 0) : Phi0 𝕧 c n = iprop(owns (c : Thread nD τ) scM0 fullShare (smK 𝕧 c) ∗ rest0 c) := by
  cases n with
  | zero => exact absurd rfl hn
  | succ n => rfl

/-! ## The pipeline's proof data -/

def dat0 (c : Dev nD) : Dat τ (Elt F) (HIx 1) ℕ UU ℕ cfg0 c where
  A w := 𝕧 c (Pipeline.arrRef spec0 w)
  after w t := match w with
    | ⟨0, _⟩ => iblk0 𝕧 c 0 t
    | ⟨1, _⟩ => iblk0 𝕧 c 1 t
    | ⟨2, _⟩ => iblk0 𝕧 c 2 t
    | ⟨3, _⟩ => iblk0 𝕧 c 3 t
    | ⟨4, _⟩ => prodK 𝕧 c
    | ⟨5, _⟩ => recipAt 𝕧 c t
  Φ t := Phi0 𝕧 c t.val
  q _ := fullShare
  owed _ := O c
  recorded _ := {p | (K (F := F)).lev ((c : Thread nD τ), p.1) p.2 ≤ b}

theorem A0_eq (c : Dev nD) (w : Fin cfg0.W) : (dat0 𝕧 O b c).A w = 𝕧 c (Pipeline.arrRef spec0 w) := by
  dsimp only [dat0]

theorem after0_0 (c : Dev nD) (t : Fin cfg0.N) : (dat0 𝕧 O b c).after 0 t = iblk0 𝕧 c 0 t := by dsimp only [dat0]
theorem after0_1 (c : Dev nD) (t : Fin cfg0.N) : (dat0 𝕧 O b c).after 1 t = iblk0 𝕧 c 1 t := by dsimp only [dat0]
theorem after0_2 (c : Dev nD) (t : Fin cfg0.N) : (dat0 𝕧 O b c).after 2 t = iblk0 𝕧 c 2 t := by dsimp only [dat0]
theorem after0_3 (c : Dev nD) (t : Fin cfg0.N) : (dat0 𝕧 O b c).after 3 t = iblk0 𝕧 c 3 t := by dsimp only [dat0]
theorem after0_4 (c : Dev nD) (t : Fin cfg0.N) : (dat0 𝕧 O b c).after 4 t = prodK 𝕧 c := by dsimp only [dat0]
theorem after0_5 (c : Dev nD) (t : Fin cfg0.N) : (dat0 𝕧 O b c).after 5 t = recipAt 𝕧 c t := by dsimp only [dat0]

theorem before0_0 (c : Dev nD) (t : Fin cfg0.N) (d) : (dat0 𝕧 O b c).before 0 t d = iblk0 𝕧 c 0 t :=
  before0_0_of 𝕧 (dat0 𝕧 O b c) (A0_eq 𝕧 O b c 0) (after0_0 𝕧 O b c) t d
theorem before0_1 (c : Dev nD) (t : Fin cfg0.N) (d) : (dat0 𝕧 O b c).before 1 t d = iblk0 𝕧 c 1 t :=
  before0_1_of 𝕧 (dat0 𝕧 O b c) (A0_eq 𝕧 O b c 1) (after0_1 𝕧 O b c) t d
theorem before0_2 (c : Dev nD) (t : Fin cfg0.N) (d) : (dat0 𝕧 O b c).before 2 t d = iblk0 𝕧 c 2 t :=
  before0_2_of 𝕧 (dat0 𝕧 O b c) (A0_eq 𝕧 O b c 2) (after0_2 𝕧 O b c) t d
theorem before0_3 (c : Dev nD) (t : Fin cfg0.N) (d) : (dat0 𝕧 O b c).before 3 t d = iblk0 𝕧 c 3 t :=
  before0_3_of 𝕧 (dat0 𝕧 O b c) (A0_eq 𝕧 O b c 3) (after0_3 𝕧 O b c) t d

/-- After the first point the first output's buffer holds what the first point stored: no later point stores into it, none but
    the last writes it back. -/
theorem before0_4_pos (c : Dev nD) (t : Fin cfg0.N) (hz : t.val ≠ 0) (d) : (dat0 𝕧 O b c).before 4 t d = prodK 𝕧 c := by
  rw [Dat.before_out_traj (dat0 𝕧 O b c) 4 rfl (fun _ _ => rfl) (fun _ _ _ _ => by dsimp only [dat0]) t.val t rfl d, fresh0_4,
    if_neg (by simpa using hz)]
  dsimp only [dat0]

end Cert.KernelIdeal.Tc

end
-- ==== Proof.Tc0Obl.lean ====
/-
  The first pallas_call's body obligation: at the first point the body fills the scratch and both outputs' buffers; at
  every later point it reads the carried scratch and stores the second output's block, leaving the first output's
  buffer as the first point left it.
-/
import proofs.«208470_g86148454023375_cont_sun_c4_654_45_alg».proof.Proof.ScSetup
import proofs.«208470_g86148454023375_cont_sun_c4_654_45_alg».proof.Proof.Gen.KernelIdeal.Launch
import proofs.«208470_g86148454023375_cont_sun_c4_654_45_alg».proof.Proof.Gen.KernelIdeal.Skeleton
import proofs.«208470_g86148454023375_cont_sun_c4_654_45_alg».proof.Proof.Gen.KernelIdeal.Points
import proofs.«208470_g86148454023375_cont_sun_c4_654_45_alg».proof.Proof.Tc0Body
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Tc

open Cert.KernelIdeal Cert.KernelIdeal.Gen Cert.KernelIdeal.Sc

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (𝕧 : Val𝕍 F) (O : Dev nD → CellTallies nD τ sig (HIx 1)) (b : ℕ)

def bodyPre0 (c : Dev nD) (t : Fin cfg0.N) : sProp 𝕄 :=
  iprop((dat0 𝕧 O b c).Φ t.castSucc ∗ (dat0 𝕧 O b c).owesAt none t.castSucc
    ∗ (∃ d, owns (c : Thread nD τ) (ms0_0 t) fullShare ((dat0 𝕧 O b c).before 0 t d))
    ∗ (∃ d, owns (c : Thread nD τ) (ms0_1 t) fullShare ((dat0 𝕧 O b c).before 1 t d))
    ∗ (∃ d, owns (c : Thread nD τ) (ms0_2 t) fullShare ((dat0 𝕧 O b c).before 2 t d))
    ∗ (∃ d, owns (c : Thread nD τ) (ms0_3 t) fullShare ((dat0 𝕧 O b c).before 3 t d))
    ∗ (∃ d, owns (c : Thread nD τ) (ms0_4 t) fullShare ((dat0 𝕧 O b c).before 4 t d))
    ∗ (∃ d, owns (c : Thread nD τ) (ms0_5 t) fullShare ((dat0 𝕧 O b c).before 5 t d)))

def bodyPost0 (c : Dev nD) (t : Fin cfg0.N) : sProp 𝕄 :=
  iprop((dat0 𝕧 O b c).Φ t.succ ∗ (dat0 𝕧 O b c).owesAt none t.succ
    ∗ (dat0 𝕧 O b c).leavesExact 0 t
    ∗ (dat0 𝕧 O b c).leavesExact 1 t
    ∗ (dat0 𝕧 O b c).leavesExact 2 t
    ∗ (dat0 𝕧 O b c).leavesExact 3 t
    ∗ (dat0 𝕧 O b c).leavesExact 4 t
    ∗ (dat0 𝕧 O b c).leavesExact 5 t)

theorem leaves0_0 (c : Dev nD) (t : Fin cfg0.N) : (dat0 𝕧 O b c).leavesExact 0 t = owns (c : Thread nD τ) (ms0_0 t) fullShare (iblk0 𝕧 c 0 t) := by
  unfold Dat.leavesExact; rw [show cfg0.idle 0 (cfg0.grid.coords t) = false from rfl, after0_0]
theorem leaves0_1 (c : Dev nD) (t : Fin cfg0.N) : (dat0 𝕧 O b c).leavesExact 1 t = owns (c : Thread nD τ) (ms0_1 t) fullShare (iblk0 𝕧 c 1 t) := by
  unfold Dat.leavesExact; rw [show cfg0.idle 1 (cfg0.grid.coords t) = false from rfl, after0_1]
theorem leaves0_2 (c : Dev nD) (t : Fin cfg0.N) : (dat0 𝕧 O b c).leavesExact 2 t = owns (c : Thread nD τ) (ms0_2 t) fullShare (iblk0 𝕧 c 2 t) := by
  unfold Dat.leavesExact; rw [show cfg0.idle 2 (cfg0.grid.coords t) = false from rfl, after0_2]
theorem leaves0_3 (c : Dev nD) (t : Fin cfg0.N) : (dat0 𝕧 O b c).leavesExact 3 t = owns (c : Thread nD τ) (ms0_3 t) fullShare (iblk0 𝕧 c 3 t) := by
  unfold Dat.leavesExact; rw [show cfg0.idle 3 (cfg0.grid.coords t) = false from rfl, after0_3]
theorem leaves0_5 (c : Dev nD) (t : Fin cfg0.N) : (dat0 𝕧 O b c).leavesExact 5 t = owns (c : Thread nD τ) (ms0_5 t) fullShare (recipAt 𝕧 c t) := by
  unfold Dat.leavesExact; rw [show cfg0.idle 5 (cfg0.grid.coords t) = false from rfl, after0_5]
/-- The first output's buffer: stored at the first point; -/
theorem leaves0_4_first (c : Dev nD) (t : Fin cfg0.N) (hz : t.val = 0) :
    (dat0 𝕧 O b c).leavesExact 4 t = owns (c : Thread nD τ) (ms0_4 t) fullShare (prodK 𝕧 c) := by
  unfold Dat.leavesExact; rw [idle0_4 t, show decide (t.val ≠ 0) = false from by simpa using hz, after0_4]
/-- untouched and kept at the middle points; -/
theorem leaves0_4_mid (c : Dev nD) (t : Fin cfg0.N) (hz : t.val ≠ 0) (h7 : t.val ≠ 7) :
    (dat0 𝕧 O b c).leavesExact 4 t = iprop(∃ d, owns (c : Thread nD τ) (ms0_4 t) fullShare ((dat0 𝕧 O b c).before 4 t d)) :=
  Dat.leavesExact_idle (dat0 𝕧 O b c) 4 t (by rw [idle0_4 t]; simpa using hz)
    (Bool.eq_false_iff.mpr fun h => by have := (flush0_4 t).mp h; have hN : t.val < 8 := lt_of_lt_of_eq t.isLt N_0; omega)
/-- untouched and written back at the last. -/
theorem leaves0_4_last (c : Dev nD) (t : Fin cfg0.N) (h7 : t.val = 7) :
    (dat0 𝕧 O b c).leavesExact 4 t = owns (c : Thread nD τ) (ms0_4 t) fullShare (prodK 𝕧 c) := by
  unfold Dat.leavesExact
  rw [idle0_4 t, show decide (t.val ≠ 0) = true from by simp [h7], show (cfg0.win 4).flush t = true from (flush0_4 t).mpr (by rw [h7]), after0_4]

set_option maxHeartbeats 4000000 in
/-- The body at any point. -/
theorem sound_body0 (c : Dev nD) (t : Fin cfg0.N) :
    bodyPre0 𝕧 O b c t ⊢ wp frame (wpE (defs₀ (F := F)) Variants.none c none) Set.univ (bodyAt0 t) (fun _ => bodyPost0 𝕧 O b c t) := by
  unfold bodyPre0 bodyPost0 bodyAt0
  simp only [before0_0, before0_1, before0_2, before0_3]
  rw [show (dat0 𝕧 O b c).owesAt none t.succ = (dat0 𝕧 O b c).owesAt none t.castSucc from rfl,
    show (dat0 𝕧 O b c).Φ t.succ = iprop(owns (c : Thread nD τ) scM0 fullShare (smK 𝕧 c) ∗ rest0 c) from rfl,
    leaves0_0, leaves0_1, leaves0_2, leaves0_3, leaves0_5]
  by_cases hz : t.val = 0
  · obtain rfl : t = t0_0 := Fin.ext hz
    rw [leaves0_4_first 𝕧 O b c t0_0 rfl,
      show (dat0 𝕧 O b c).Φ t0_0.castSucc = Pipeline.scopedRest spec0 c from rfl, scopedRest0_split]
    have hrecip : recipAt 𝕧 c t0_0 = View.canon (runA 𝕧 c t0_0 rfl).1.2.1 := by unfold recipAt; exact dif_pos (show (t0_0 : Fin cfg0.N).val = 0 from rfl)
    iintro ⟨⟨⟨%ds, HS⟩, HR⟩, Ho, ⟨%d0, H0⟩, ⟨%d1, H1⟩, ⟨%d2, H2⟩, ⟨%d3, H3⟩, ⟨%d4, H4⟩, ⟨%d5, H5⟩⟩
    iapply ((runA 𝕧 c t0_0 rfl).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexists _; iexact HS
    iintro ⟨H0, H1, H2, H3, ⟨%e5, H5'⟩, ⟨%e6, H6'⟩, ⟨%e7, H7'⟩⟩
    isplitl [H7' HR]
    · isplitl [H7']
      · unfold owns; iexists _; isplitr
        swap; · iexact H7'
        ipureintro; exact View.read_writes_eq_canon _ _ _ (coverA_7 𝕧 c t0_0 rfl)
      iexact HR
    isplitl [Ho]; · iexact Ho
    isplitl [H0]; · iexact H0
    isplitl [H1]; · iexact H1
    isplitl [H2]; · iexact H2
    isplitl [H3]; · iexact H3
    isplitl [H5']
    · unfold owns; iexists _; isplitr
      swap; · iexact H5'
      ipureintro; exact View.read_writes_eq_canon _ _ _ (coverA_5 𝕧 c t0_0 rfl)
    unfold owns; iexists _; isplitr
    swap; · iexact H6'
    ipureintro; exact (View.read_writes_eq_canon _ _ _ (coverA_6 𝕧 c t0_0 rfl)).trans hrecip.symm
  · rw [show (dat0 𝕧 O b c).Φ t.castSucc = Phi0 𝕧 c t.val from rfl, Phi0_pos 𝕧 c _ hz]
    have hrecip : recipAt 𝕧 c t = View.canon (runB 𝕧 c t hz).1 := by unfold recipAt; exact dif_neg hz
    by_cases h7 : t.val = 7
    · rw [leaves0_4_last 𝕧 O b c t h7]
      simp only [before0_4_pos 𝕧 O b c t hz]
      iintro ⟨⟨HS, HR⟩, Ho, ⟨%d0, H0⟩, ⟨%d1, H1⟩, ⟨%d2, H2⟩, ⟨%d3, H3⟩, ⟨%d4, H4⟩, ⟨%d5, H5⟩⟩
      iapply ((runB 𝕧 c t hz).2 Set.univ _)
      isplitl [H3]; · iexact H3
      isplitl [HS]; · iexact HS
      isplitl [H5]; · iexists _; iexact H5
      iintro ⟨H3, HS, ⟨%e6, H6'⟩⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H6'
      ipureintro; exact (View.read_writes_eq_canon _ _ _ (coverB_6 𝕧 c t hz)).trans hrecip.symm
    · rw [leaves0_4_mid 𝕧 O b c t hz h7]
      iintro ⟨⟨HS, HR⟩, Ho, ⟨%d0, H0⟩, ⟨%d1, H1⟩, ⟨%d2, H2⟩, ⟨%d3, H3⟩, ⟨%d4, H4⟩, ⟨%d5, H5⟩⟩
      iapply ((runB 𝕧 c t hz).2 Set.univ _)
      isplitl [H3]; · iexact H3
      isplitl [HS]; · iexact HS
      isplitl [H5]; · iexists _; iexact H5
      iintro ⟨H3, HS, ⟨%e6, H6'⟩⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H6'
      ipureintro; exact (View.read_writes_eq_canon _ _ _ (coverB_6 𝕧 c t hz)).trans hrecip.symm

/-- The library's body obligation, at every point. -/
theorem body_obligation0 (c : Dev nD) : BodyObligation (dat0 (F := F) 𝕧 O b c) (defs₀ (F := F)) Variants.none none Set.univ := fun t => by
  rw [bigSep_W0, bigSep_W0]
  exact sound_body0 𝕧 O b c t

end Cert.KernelIdeal.Tc

end
-- ==== Proof.Tc2Region.lean ====
/-
  The output pallas_call as a region of the TensorCore's program inside the SparseCore launch: the region's record
  (entry, exit, wait evidence under what the TensorCore owes the SparseCores) and the rule for its custom call under the
  extended body table.
-/
import proofs.«208470_g86148454023375_cont_sun_c4_654_45_alg».proof.Proof.ScSetup
import proofs.«208470_g86148454023375_cont_sun_c4_654_45_alg».proof.Proof.Gen.KernelIdeal.Launch
import proofs.«208470_g86148454023375_cont_sun_c4_654_45_alg».proof.Proof.Gen.KernelIdeal.Skeleton
import proofs.«208470_g86148454023375_cont_sun_c4_654_45_alg».proof.Proof.Gen.KernelIdeal.Points
import proofs.«208470_g86148454023375_cont_sun_c4_654_45_alg».proof.Proof.Tc2Body
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Tc

open Cert.KernelIdeal Cert.KernelIdeal.Gen Cert.KernelIdeal.Sc

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- No pipeline has a prefetched table. -/
abbrev adm : (p : Fin 2) → (pcfgs (F := F) p).Adm := fun p => (cfgs p).toPCfg_adm

variable (𝕧 : Val𝕍 F) (O : Dev nD → CellTallies nD τ sig (HIx 1)) (b : ℕ)

/-- Proof data for the other pipeline, which this region never consults. -/
def unread0 (c : Dev nD) : Dat τ (Elt F) (HIx 1) ℕ UU ℕ cfg0 c where
  A w := 𝕧 c (Pipeline.arrRef spec0 w)
  after w t := Dat.unnamed w t
  Φ _ := BI.emp
  q _ := fullShare
  owed _ := 0

/-- The family of proof data the output region is run with. -/
def pdats2 : (p : Fin 2) → (c : Dev nD) → Dat τ (Elt F) (HIx 1) ℕ UU ℕ (Pipeline.pin (pcfgs (F := F)) adm p) c
  | ⟨0, _⟩ => unread0 𝕧
  | ⟨1, _⟩ => dat2 𝕧 O b

/-- What the TensorCore owes, its recorded pairs at levels at most `b`. -/
def owesB (d : Dev nD) : sProp 𝕄 := iprop(∃ W, ⌜(K (F := F)).WBelow (T d) W b⌝ ∗ owes (T d) (O d) W)

/-- The four arrays the output region stages, whole: the three operands at the valuation, the result at `out`. -/
def arrs2 (d : Dev nD) (out : Buf (Elt F) ((d : Thread nD τ).loc main_v4)) : sProp 𝕄 :=
  iprop((((d : Thread nD τ).loc main_arg1) ↦{fullShare} 𝕧 d main_arg1) ∗ (((d : Thread nD τ).loc main_v2) ↦{fullShare} 𝕧 d main_v2)
    ∗ (((d : Thread nD τ).loc main_v3) ↦{fullShare} 𝕧 d main_v3) ∗ (((d : Thread nD τ).loc main_v4) ↦{fullShare} out))

theorem bigSep_Fin0 {M : Type} [URA M] (Φ : Fin 0 → sProp M) : bigSep Finset.univ Φ = (BI.emp : sProp M) :=
  bigSep_univ_eq_bigSepL [] (by decide) (by decide) Φ

theorem prefHeld2 (c : Dev nD) (q) (pf) : (Pipeline.prefHeld (Ix := HIx 1) (Name := ℕ) (U := UU) (Lvl := ℕ) (Val := Elt F) (pcfgs (F := F) 1).pre c q pf : sProp 𝕄) = BI.emp :=
  bigSep_Fin0 _

theorem pt_congr {ℓ : Loc nD τ sig} {f g : Buf (Elt F) ℓ} (h : f = g) : (ℓ ↦{fullShare} f : sProp 𝕄) ⊢ (ℓ ↦{fullShare} g : sProp 𝕄) := by rw [h]

theorem share2 (c : Dev nD) (w) : (pdats2 𝕧 O b 1 c).share w = fullShare := (dat2 𝕧 O b c).share_full (fun _ => rfl) w

variable (lv : GSem nD τ sig → HIx 1 → ℕ) (hlv : (K (F := F)).Refines lv) (hO : ∀ d g, O d g none = 0)

/-- The output region's record. -/
def reg2 : Pipeline.RegionSeg (pcfgs (F := F)) adm (pdats2 𝕧 O b) none defs₀ 𝒱₀ (K (F := F)).L lv 1 where
  win := winFacts2.to₀
  block_pos := block_pos2
  stage_whole := stage_whole2
  K := PEmpty
  osem k := k.elim
  ho := Pipeline.OwnSemFacts.none _
  hbody c := (body_obligation2 𝕧 O b c).loose
  hwaits c := Pipeline.cellsWaits_intro (Pipeline.pin (pcfgs (F := F)) adm) (pdats2 𝕧 O b) none 1 c
    (fun w s t => (K (F := F)).mayWait_none _ (hO c) lv hlv)
  pre c := iprop(arrs2 𝕧 c (𝕧 c main_v4) ∗ owesB O b c)
  post c := iprop(arrs2 𝕧 c ((dat2 𝕧 O b c).arrAt 3 cfg2.N) ∗ owesB O b c)
  X _ := BI.emp
  Y _ := BI.emp
  Z _ := BI.emp
  hentry c := by
    rw [Pipeline.ownSems0_none, Pipeline.arrays_eq (Pipeline.pin (pcfgs (F := F)) adm) (pdats2 𝕧 O b) 1 c arr_whole2 (share2 𝕧 O b c), bigSep_W2, prefHeld2]
    unfold arrs2 owesB
    iintro ⟨⟨⟨H0, H1, H2, H3⟩, ⟨%W, %hW, HO⟩⟩, -, -⟩
    imodintro
    isplitl [H0 H1 H2 H3]
    · isplitl [H0]; · iexact H0
      isplitl [H1]; · iexact H1
      isplitl [H2]; · iexact H2
      iexact H3
    isplitr; · iempintro
    isplitl [HO]
    · iexists W; isplitr; · ipureintro; exact fun p hp => Or.inl (hW p (Finset.mem_coe.mp hp))
      iexact HO
    isplitr <;> iempintro
  hin c := by
    rw [show (pdats2 𝕧 O b 1 c).Φ 0 = Pipeline.scopedRest spec2 c from rfl]
    iintro ⟨-, -, H⟩; iexact H
  hout c := by
    rw [show (pdats2 𝕧 O b 1 c).Φ (Fin.last _) = Pipeline.scopedRest spec2 c from rfl, Pipeline.ownSems0_none]
    iintro H
    isplitr; · iempintro
    isplitr; · iempintro
    iexact H
  hexit c := by
    rw [Pipeline.arrays_eq (Pipeline.pin (pcfgs (F := F)) adm) (pdats2 𝕧 O b) 1 c arr_whole2 (share2 𝕧 O b c), bigSep_W2]
    unfold arrs2 owesB
    have e0 : (dat2 𝕧 O b c).arrAt 0 cfg2.N = 𝕧 c main_arg1 := (dat2 𝕧 O b c).arrAt_in 0 rfl _
    have e1 : (dat2 𝕧 O b c).arrAt 1 cfg2.N = 𝕧 c main_v2 := (dat2 𝕧 O b c).arrAt_in 1 rfl _
    have e2 : (dat2 𝕧 O b c).arrAt 2 cfg2.N = 𝕧 c main_v3 := (dat2 𝕧 O b c).arrAt_in 2 rfl _
    iintro ⟨⟨H0, H1, H2, H3⟩, ⟨%W, %hW, HO⟩, -, -⟩
    imodintro
    isplitl [H0 H1 H2 H3]
    · isplitl [H0]; · iapply (pt_congr e0); iexact H0
      isplitl [H1]; · iapply (pt_congr e1); iexact H1
      isplitl [H2]; · iapply (pt_congr e2); iexact H2
      iexact H3
    iexists W; isplitr
    · ipureintro
      intro p hp
      rcases hW (Finset.mem_coe.mpr hp) with h | ⟨w, s, e⟩
      · exact h
      · rw [e]; exact Nat.zero_le _
    iexact HO

include hlv hO in
set_option backward.isDefEq.respectTransparency.types false in
/-- The output region inside the TensorCore's program: from the boundary, the level facts, the pipeline's staging cells'
    ghost state, what the TensorCore owes and the four arrays at the valuation, the custom call runs to the boundary, the
    same owed, the operands unchanged and the result array at what the pipeline computes. -/
theorem region2_raw (d : Dev nD) :
    iprop(boundary (T d) ∗ levAts (K (F := F)).L lv ∗ Pipeline.cellsGhost cfgs EP 1 d ∗ Pipeline.toksInit cfgs EP 1 d
        ∗ arrs2 𝕧 d (𝕧 d main_v4) ∗ owesB O b d)
      ⊢ wp frame (wpE ((K (F := F)).defs D) 𝒱 (T d) none) Set.univ (Prog.lift (.customCall (SparseCore.inner (Pipeline.entry 1)) ()))
          (fun _ => iprop(boundary (T d) ∗ arrs2 𝕧 d ((dat2 𝕧 O b d).arrAt 3 cfg2.N) ∗ owesB O b d)) := by
  have hprog : (Prog.lift (.customCall (SparseCore.inner (Pipeline.entry 1)) ()) : Prog (TpuEff nD τ sig (Elt F) (SparseCore.Sig (ΛP (F := F)) 1) .tc) PUnit)
      = SparseCore.liftProg (Prog.lift (.customCall (Pipeline.entry (1 : Fin 2)) ()) : Prog (TpuEff nD τ sig (Elt F) (ΛP (F := F)) .tc) PUnit) := rfl
  rw [hprog]
  refine BIBase.Entails.trans ?_ ((K (F := F)).wp_liftProg D 𝒱 (T d) Set.univ none _ _)
  refine BIBase.Entails.trans ?_ (Pipeline.RegionSeg.wp (pcfgs (F := F)) adm (pdats2 𝕧 O b) none cellOf_inj EP defs₀ 𝒱₀ (K (F := F)).L lv (reg2 𝕧 O b lv hlv hO) d none
    (fun _ h => (Option.not_mem_none _ h).elim) (fun u => .ret u) _)
  rw [show (reg2 𝕧 O b lv hlv hO).post d = iprop(arrs2 𝕧 d ((dat2 𝕧 O b d).arrAt 3 cfg2.N) ∗ owesB O b d) from rfl,
    show (reg2 𝕧 O b lv hlv hO).pre d = iprop(arrs2 𝕧 d (𝕧 d main_v4) ∗ owesB O b d) from rfl]
  iintro ⟨Hb, Hlev, Hg, Ht, Ha, Ho⟩
  isplitr
  · iintro ⟨Hb, Ha, Ho⟩
    rw [wp_ret]
    imodintro
    isplitl [Hb]; · iexact Hb
    isplitl [Ha]; · iexact Ha
    iexact Ho
  isplitl [Hb]; · iexact Hb
  isplitl [Ha Ho]
  · isplitl [Ha]; · iexact Ha
    iexact Ho
  isplitl [Hlev]; · iexact Hlev
  isplitl [Hg]; · iexact Hg
  iexact Ht

end Cert.KernelIdeal.Tc

end
-- ==== Proof.Tc0Region.lean ====
/-
  The first pallas_call as a region of the TensorCore's program inside the SparseCore launch: the region's record and the
  rule for its custom call under the extended body table.
-/
import proofs.«208470_g86148454023375_cont_sun_c4_654_45_alg».proof.Proof.ScSetup
import proofs.«208470_g86148454023375_cont_sun_c4_654_45_alg».proof.Proof.Gen.KernelIdeal.Launch
import proofs.«208470_g86148454023375_cont_sun_c4_654_45_alg».proof.Proof.Gen.KernelIdeal.Skeleton
import proofs.«208470_g86148454023375_cont_sun_c4_654_45_alg».proof.Proof.Gen.KernelIdeal.Points
import proofs.«208470_g86148454023375_cont_sun_c4_654_45_alg».proof.Proof.Tc0Obl
import proofs.«208470_g86148454023375_cont_sun_c4_654_45_alg».proof.Proof.Tc2Region
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Tc

open Cert.KernelIdeal Cert.KernelIdeal.Gen Cert.KernelIdeal.Sc

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (𝕧 : Val𝕍 F) (O : Dev nD → CellTallies nD τ sig (HIx 1)) (b : ℕ)

/-- Proof data for the other pipeline, which this region never consults. -/
def unread2 (c : Dev nD) : Dat τ (Elt F) (HIx 1) ℕ UU ℕ cfg2 c where
  A w := 𝕧 c (Pipeline.arrRef spec2 w)
  after w t := Dat.unnamed w t
  Φ _ := BI.emp
  q _ := fullShare
  owed _ := 0

/-- The family of proof data the first region is run with. -/
def pdats0 : (p : Fin 2) → (c : Dev nD) → Dat τ (Elt F) (HIx 1) ℕ UU ℕ (Pipeline.pin (pcfgs (F := F)) adm p) c
  | ⟨0, _⟩ => dat0 𝕧 O b
  | ⟨1, _⟩ => unread2 𝕧

/-- The six arrays the first region stages, whole: the four operands at the valuation, the two results at `prod`, `recip`. -/
def arrs0 (d : Dev nD) (prod : Buf (Elt F) ((d : Thread nD τ).loc main_v1_0)) (recip : Buf (Elt F) ((d : Thread nD τ).loc main_v1_1)) : sProp 𝕄 :=
  iprop((((d : Thread nD τ).loc main_v0) ↦{fullShare} 𝕧 d main_v0) ∗ (((d : Thread nD τ).loc main_arg0) ↦{fullShare} 𝕧 d main_arg0)
    ∗ (((d : Thread nD τ).loc main_arg5) ↦{fullShare} 𝕧 d main_arg5) ∗ (((d : Thread nD τ).loc main_arg2) ↦{fullShare} 𝕧 d main_arg2)
    ∗ (((d : Thread nD τ).loc main_v1_0) ↦{fullShare} prod) ∗ (((d : Thread nD τ).loc main_v1_1) ↦{fullShare} recip))

theorem prefHeld0 (c : Dev nD) (q) (pf) : (Pipeline.prefHeld (Ix := HIx 1) (Name := ℕ) (U := UU) (Lvl := ℕ) (Val := Elt F) (pcfgs (F := F) 0).pre c q pf : sProp 𝕄) = BI.emp :=
  bigSep_Fin0 _

theorem share0 (c : Dev nD) (w) : (pdats0 𝕧 O b 0 c).share w = fullShare := (dat0 𝕧 O b c).share_full (fun _ => rfl) w

variable (lv : GSem nD τ sig → HIx 1 → ℕ) (hlv : (K (F := F)).Refines lv) (hO : ∀ d g, O d g none = 0)

/-- The first region's record. -/
def reg0 : Pipeline.RegionSeg (pcfgs (F := F)) adm (pdats0 𝕧 O b) none defs₀ 𝒱₀ (K (F := F)).L lv 0 where
  win := winFacts0.to₀
  block_pos := block_pos0
  stage_whole := stage_whole0
  K := PEmpty
  osem k := k.elim
  ho := Pipeline.OwnSemFacts.none _
  hbody c := (body_obligation0 𝕧 O b c).loose
  hwaits c := Pipeline.cellsWaits_intro (Pipeline.pin (pcfgs (F := F)) adm) (pdats0 𝕧 O b) none 0 c
    (fun w s t => (K (F := F)).mayWait_none _ (hO c) lv hlv)
  pre c := iprop(arrs0 𝕧 c (𝕧 c main_v1_0) (𝕧 c main_v1_1) ∗ owesB O b c)
  post c := iprop(arrs0 𝕧 c ((dat0 𝕧 O b c).arrAt 4 cfg0.N) ((dat0 𝕧 O b c).arrAt 5 cfg0.N) ∗ owesB O b c)
  X _ := BI.emp
  Y _ := BI.emp
  Z _ := BI.emp
  hentry c := by
    rw [Pipeline.ownSems0_none, Pipeline.arrays_eq (Pipeline.pin (pcfgs (F := F)) adm) (pdats0 𝕧 O b) 0 c arr_whole0 (share0 𝕧 O b c), bigSep_W0, prefHeld0]
    unfold arrs0 owesB
    iintro ⟨⟨⟨H0, H1, H2, H3, H4, H5⟩, ⟨%W, %hW, HO⟩⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · iempintro
    isplitl [HO]
    · iexists W; isplitr; · ipureintro; exact fun p hp => Or.inl (hW p (Finset.mem_coe.mp hp))
      iexact HO
    isplitr <;> iempintro
  hin c := by
    rw [show (pdats0 𝕧 O b 0 c).Φ 0 = Pipeline.scopedRest spec0 c from rfl]
    iintro ⟨-, -, H⟩; iexact H
  hout c := by
    rw [show (pdats0 𝕧 O b 0 c).Φ (Fin.last _) = Phi0 𝕧 c (Fin.last cfg0.N).val from rfl,
      Phi0_pos 𝕧 c _ (by rw [Fin.val_last, show cfg0.N = 8 from N_0]; decide), Pipeline.ownSems0_none]
    show _ ⊢ iprop(BI.emp ∗ BI.emp ∗ Pipeline.scopedRest spec0 c)
    rw [scopedRest0_split]
    iintro ⟨HS, HR⟩
    isplitr; · iempintro
    isplitr; · iempintro
    isplitl [HS]; · iexists _; iexact HS
    iexact HR
  hexit c := by
    rw [Pipeline.arrays_eq (Pipeline.pin (pcfgs (F := F)) adm) (pdats0 𝕧 O b) 0 c arr_whole0 (share0 𝕧 O b c), bigSep_W0]
    unfold arrs0 owesB
    have e0 : (dat0 𝕧 O b c).arrAt 0 cfg0.N = 𝕧 c main_v0 := (dat0 𝕧 O b c).arrAt_in 0 rfl _
    have e1 : (dat0 𝕧 O b c).arrAt 1 cfg0.N = 𝕧 c main_arg0 := (dat0 𝕧 O b c).arrAt_in 1 rfl _
    have e2 : (dat0 𝕧 O b c).arrAt 2 cfg0.N = 𝕧 c main_arg5 := (dat0 𝕧 O b c).arrAt_in 2 rfl _
    have e3 : (dat0 𝕧 O b c).arrAt 3 cfg0.N = 𝕧 c main_arg2 := (dat0 𝕧 O b c).arrAt_in 3 rfl _
    iintro ⟨⟨H0, H1, H2, H3, H4, H5⟩, ⟨%W, %hW, HO⟩, -, -⟩
    imodintro
    isplitl [H0 H1 H2 H3 H4 H5]
    · isplitl [H0]; · iapply (pt_congr e0); iexact H0
      isplitl [H1]; · iapply (pt_congr e1); iexact H1
      isplitl [H2]; · iapply (pt_congr e2); iexact H2
      isplitl [H3]; · iapply (pt_congr e3); iexact H3
      isplitl [H4]; · iexact H4
      iexact H5
    iexists W; isplitr
    · ipureintro
      intro p hp
      rcases hW (Finset.mem_coe.mpr hp) with h | ⟨w, s, e⟩
      · exact h
      · rw [e]; exact Nat.zero_le _
    iexact HO

include hlv hO in
set_option backward.isDefEq.respectTransparency.types false in
/-- The first region inside the TensorCore's program: from the boundary, the level facts, the pipeline's staging cells'
    ghost state, what the TensorCore owes and the six arrays at the valuation, the custom call runs to the boundary, the
    same owed, the operands unchanged and the two result arrays at what the pipeline computes. -/
theorem region0_raw (d : Dev nD) :
    iprop(boundary (T d) ∗ levAts (K (F := F)).L lv ∗ Pipeline.cellsGhost cfgs EP 0 d ∗ Pipeline.toksInit cfgs EP 0 d
        ∗ arrs0 𝕧 d (𝕧 d main_v1_0) (𝕧 d main_v1_1) ∗ owesB O b d)
      ⊢ wp frame (wpE ((K (F := F)).defs D) 𝒱 (T d) none) Set.univ (Prog.lift (.customCall (SparseCore.inner (Pipeline.entry 0)) ()))
          (fun _ => iprop(boundary (T d) ∗ arrs0 𝕧 d ((dat0 𝕧 O b d).arrAt 4 cfg0.N) ((dat0 𝕧 O b d).arrAt 5 cfg0.N) ∗ owesB O b d)) := by
  have hprog : (Prog.lift (.customCall (SparseCore.inner (Pipeline.entry 0)) ()) : Prog (TpuEff nD τ sig (Elt F) (SparseCore.Sig (ΛP (F := F)) 1) .tc) PUnit)
      = SparseCore.liftProg (Prog.lift (.customCall (Pipeline.entry (0 : Fin 2)) ()) : Prog (TpuEff nD τ sig (Elt F) (ΛP (F := F)) .tc) PUnit) := rfl
  rw [hprog]
  refine BIBase.Entails.trans ?_ ((K (F := F)).wp_liftProg D 𝒱 (T d) Set.univ none _ _)
  refine BIBase.Entails.trans ?_ (Pipeline.RegionSeg.wp (pcfgs (F := F)) adm (pdats0 𝕧 O b) none cellOf_inj EP defs₀ 𝒱₀ (K (F := F)).L lv (reg0 𝕧 O b lv hlv hO) d none
    (fun _ h => (Option.not_mem_none _ h).elim) (fun u => .ret u) _)
  rw [show (reg0 𝕧 O b lv hlv hO).post d = iprop(arrs0 𝕧 d ((dat0 𝕧 O b d).arrAt 4 cfg0.N) ((dat0 𝕧 O b d).arrAt 5 cfg0.N) ∗ owesB O b d) from rfl,
    show (reg0 𝕧 O b lv hlv hO).pre d = iprop(arrs0 𝕧 d (𝕧 d main_v1_0) (𝕧 d main_v1_1) ∗ owesB O b d) from rfl]
  iintro ⟨Hb, Hlev, Hg, Ht, Ha, Ho⟩
  isplitr
  · iintro ⟨Hb, Ha, Ho⟩
    rw [wp_ret]
    imodintro
    isplitl [Hb]; · iexact Hb
    isplitl [Ha]; · iexact Ha
    iexact Ho
  isplitl [Hb]; · iexact Hb
  isplitl [Ha Ho]
  · isplitl [Ha]; · iexact Ha
    iexact Ho
  isplitl [Hlev]; · iexact Hlev
  isplitl [Hg]; · iexact Hg
  iexact Ht

end Cert.KernelIdeal.Tc

end
-- ==== Proof.TcSpec.lean ====
/-
  The two TensorCore kernels' results as whole-array functions of their argument arrays.
    support = x · w;  e = support * 2 sigmoid(p);  sm = exp(e - max e);  prod = support * sm;
    recip, row block k (512 rows) = the twice Newton-refined reciprocal of (adjacency row block k · sm + 1e-6);
    out, row block k (128 rows) = (T row block k) · msg + the bias row.
  Each is stated through the kernel bodies' own payload functions, at the row block that holds the row.
-/
import proofs.«208470_g86148454023375_cont_sun_c4_654_45_alg».proof.Proof.Gen.KernelIdeal.Skeleton

noncomputable section

namespace Cert.KernelIdeal.Tc

open Cert.KernelIdeal Cert.KernelIdeal.Gen
open Idealize.ShloMosaic

variable {F : FTy → Type} [FloatOps F]

/-- The index (r, c) of a matrix shape. -/
def ix2 {R C : ℕ} (r : Fin R) (c : Fin C) : (⟨2, ![R, C]⟩ : Shape).Idx :=
  fun a => Fin.cases (motive := fun a => (⟨2, ![R, C]⟩ : Shape).Coord a) r
    (fun a' => Fin.cases (motive := fun a' => (⟨2, ![R, C]⟩ : Shape).Coord a'.succ) c (fun z => z.elim0) a') a

@[simp] theorem ix2_zero {R C : ℕ} (r : Fin R) (c : Fin C) : ix2 r c 0 = r := rfl
@[simp] theorem ix2_one {R C : ℕ} (r : Fin R) (c : Fin C) : ix2 r c 1 = c := rfl

theorem ix2_eta {R C : ℕ} (i : (⟨2, ![R, C]⟩ : Shape).Idx) : ix2 (i 0) (i 1) = i := by
  funext a
  refine Fin.cases rfl (fun a' => ?_) a
  refine Fin.cases rfl (fun z => z.elim0) a'

/-- Rows [n k, n k + n) of a matrix with R rows. -/
def rowBlk {α : Type} {R C : ℕ} (n k : ℕ) (hk : n * (k + 1) ≤ R) (X : (⟨2, ![R, C]⟩ : Shape).Idx → α) : (⟨2, ![n, C]⟩ : Shape).Idx → α :=
  fun y => X (ix2 ⟨n * k + (y 0).val, by have h : (y 0).val < n := (y 0).isLt; have e : n * (k + 1) = n * k + n := Nat.mul_succ n k; omega⟩ (y 1))

/-- The first output: the support times its shifted exponentials. -/
def prodV (p11 : (⟨S1x1, .f32⟩ : BufTy).Contents (Elt F)) (x : (⟨S4096x256, .f32⟩ : BufTy).Contents (Elt F)) (w : (⟨S256x128, .f32⟩ : BufTy).Contents (Elt F)) :
    (⟨S4096x128, .f32⟩ : BufTy).Contents (Elt F) :=
  k0_pay4 p11 x w

/-- The shifted exponentials the first grid point leaves in the scratch. -/
def smV (p11 : (⟨S1x1, .f32⟩ : BufTy).Contents (Elt F)) (x : (⟨S4096x256, .f32⟩ : BufTy).Contents (Elt F)) (w : (⟨S256x128, .f32⟩ : BufTy).Contents (Elt F)) :
    (⟨S4096x128, .f32⟩ : BufTy).Contents (Elt F) :=
  k0_pay3 p11 x w

/-- The second output: row i is row (i mod 512) of the body's block at the 512-row block of the adjacency that holds row i. -/
def recipV (p11 : (⟨S1x1, .f32⟩ : BufTy).Contents (Elt F)) (x : (⟨S4096x256, .f32⟩ : BufTy).Contents (Elt F)) (w : (⟨S256x128, .f32⟩ : BufTy).Contents (Elt F))
    (adj : (⟨S4096x4096, .f32⟩ : BufTy).Contents (Elt F)) : (⟨S4096x128, .f32⟩ : BufTy).Contents (Elt F) :=
  fun i => k0_pay5 (rowBlk 512 ((i 0).val / 512) (by have h : (i 0).val < 4096 := (i 0).isLt; omega) adj) (smV p11 x w)
    (ix2 ⟨(i 0).val % 512, Nat.mod_lt _ (by decide)⟩ (i 1))

/-- The program's result: row i is row (i mod 128) of the body's block at the 128-row block of T that holds row i. -/
def outV (tm : (⟨S4096x16384, .f32⟩ : BufTy).Contents (Elt F)) (msg : (⟨S16384x128, .f32⟩ : BufTy).Contents (Elt F)) (b1 : (⟨S1x128, .f32⟩ : BufTy).Contents (Elt F)) :
    (⟨S4096x128, .f32⟩ : BufTy).Contents (Elt F) :=
  fun i => k2_pay1 (rowBlk 128 ((i 0).val / 128) (by have h : (i 0).val < 4096 := (i 0).isLt; omega) tm) msg b1
    (ix2 ⟨(i 0).val % 128, Nat.mod_lt _ (by decide)⟩ (i 1))

end Cert.KernelIdeal.Tc

end
-- ==== Proof.Tc2Value.lean ====
/-
  The output pallas_call's result array as a whole-array function of its operands: what every grid point writes back
  is its 128-row block of that function, and the 32 blocks cover the array.
-/
import proofs.«208470_g86148454023375_cont_sun_c4_654_45_alg».proof.Proof.ScSetup
import proofs.«208470_g86148454023375_cont_sun_c4_654_45_alg».proof.Proof.Gen.KernelIdeal.Launch
import proofs.«208470_g86148454023375_cont_sun_c4_654_45_alg».proof.Proof.Gen.KernelIdeal.Skeleton
import proofs.«208470_g86148454023375_cont_sun_c4_654_45_alg».proof.Proof.Gen.KernelIdeal.Points
import proofs.«208470_g86148454023375_cont_sun_c4_654_45_alg».proof.Proof.Tc2Body
import proofs.«208470_g86148454023375_cont_sun_c4_654_45_alg».proof.Proof.TcSpec
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Tc

open Cert.KernelIdeal Cert.KernelIdeal.Gen Cert.KernelIdeal.Sc

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (𝕧 : Val𝕍 F) (O : Dev nD → CellTallies nD τ sig (HIx 1)) (b : ℕ)

theorem hz2 : (![0, 0] : Fin 2 → Nat) = fun _ => 0 := funext fun a => by fin_cases a <;> rfl

theorem rowBlk_congr {α : Type} {R C : ℕ} (n : ℕ) {k k' : ℕ} (e : k = k') (hk : n * (k + 1) ≤ R) (hk' : n * (k' + 1) ≤ R)
    (X : (⟨2, ![R, C]⟩ : Shape).Idx → α) : rowBlk n k hk X = rowBlk n k' hk' X := by subst e; rfl

/-- The body's result over its input blocks is its payload at them. -/
theorem out2_3_eq (x0 : Vec F S128x16384 .f32) (x1 : Vec F S16384x128 .f32) (x2 : Vec F S1x128 .f32) : out2_3 x0 x1 x2 = k2_pay1 x0 x1 x2 := by
  unfold out2_3
  rw [View.canon_unit_zero hz2]
  simp only [View.ld_unit_zero (S := S128x16384) hz2, View.ld_unit_zero (S := S16384x128) hz2, View.ld_unit_zero (S := S1x128) hz2]

/-- The printed index maps, decided over the grid: the first operand's and the result's blocks move down the rows with the
    point; the two others are whole. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of the whole-array function of the operands. -/
theorem flushed2_3_eq (c : Dev nD) (t : Fin cfg2.N) :
    (dat2 𝕧 O b c).flushed 3 t = ((cfg2.win 3).blk t).view.read (Elt F) (outV (𝕧 c main_arg1) (𝕧 c main_v2) (𝕧 c main_v3)) := by
  show (cfg2.win 3).cut (grid2.coords t) ((dat2 𝕧 O b c).after 3 t) = _
  rw [after2_3, out2_3_eq]
  obtain ⟨e00, e01, e10, e11, e20, e21, e30, e31⟩ := idx_facts2 t
  have hN : t.val < 32 := lt_of_lt_of_eq t.isLt N_2
  funext j
  show k2_pay1 (iblk2 𝕧 c 0 t) (iblk2 𝕧 c 1 t) (iblk2 𝕧 c 2 t) j = outV (𝕧 c main_arg1) (𝕧 c main_v2) (𝕧 c main_v3) (((cfg2.win 3).blk t).view.emb j)
  have hj0 : (j 0).val < 128 := (j 0).isLt
  have hi0 : ((((cfg2.win 3).blk t).view.emb j) 0).val = t.val * 128 + (j 0).val := by
    show win2_3.index t (0 : Fin 2) * 128 + 1 * (j 0).val = _; omega
  have hi1 : ((((cfg2.win 3).blk t).view.emb j) 1).val = (j 1).val := by
    show win2_3.index t (1 : Fin 2) * 128 + 1 * (j 1).val = _; omega
  unfold outV
  have ha : (iblk2 𝕧 c 0 t : Vec F S128x16384 .f32) = rowBlk 128 t.val (by omega) (𝕧 c main_arg1) := by
    funext y
    show 𝕧 c main_arg1 (((cfg2.win 0).blk t).view.emb y) = 𝕧 c main_arg1 (ix2 _ _)
    congr 1
    funext a; apply Fin.ext
    match a with
    | ⟨0, _⟩ => show win2_0.index t (0 : Fin 2) * 128 + 1 * (y 0).val = 128 * t.val + (y 0).val; omega
    | ⟨1, _⟩ => show win2_0.index t (1 : Fin 2) * 16384 + 1 * (y 1).val = (y 1).val; omega
  have hb : (iblk2 𝕧 c 1 t : Vec F S16384x128 .f32) = 𝕧 c main_v2 := by
    funext y
    show 𝕧 c main_v2 (((cfg2.win 1).blk t).view.emb y) = 𝕧 c main_v2 y
    congr 1
    funext a; apply Fin.ext
    match a with
    | ⟨0, _⟩ => show win2_1.index t (0 : Fin 2) * 16384 + 1 * (y 0).val = (y 0).val; omega
    | ⟨1, _⟩ => show win2_1.index t (1 : Fin 2) * 128 + 1 * (y 1).val = (y 1).val; omega
  have hc : (iblk2 𝕧 c 2 t : Vec F S1x128 .f32) = 𝕧 c main_v3 := by
    funext y
    show 𝕧 c main_v3 (((cfg2.win 2).blk t).view.emb y) = 𝕧 c main_v3 y
    congr 1
    funext a; apply Fin.ext
    match a with
    | ⟨0, _⟩ => show win2_2.index t (0 : Fin 2) * 1 + 1 * (y 0).val = (y 0).val; omega
    | ⟨1, _⟩ => show win2_2.index t (1 : Fin 2) * 128 + 1 * (y 1).val = (y 1).val; omega
  have hd : (j : S128x128.Idx) = ix2 ⟨((((cfg2.win 3).blk t).view.emb j) 0).val % 128, Nat.mod_lt _ (by decide)⟩ ((((cfg2.win 3).blk t).view.emb j) 1) := by
    funext a; apply Fin.ext
    match a with
    | ⟨0, _⟩ => show (j 0).val = ((((cfg2.win 3).blk t).view.emb j) 0).val % 128; omega
    | ⟨1, _⟩ => show (j 1).val = ((((cfg2.win 3).blk t).view.emb j) 1).val; omega
  rw [ha, hb, hc, rowBlk_congr 128 (show t.val = ((((cfg2.win 3).blk t).view.emb j) 0).val / 128 by omega)]
  exact congrArg _ hd

/-- An index of the array is in point `t`'s block iff each coordinate is in the block's range on its axis. -/
theorem mem_blk2_3 (t : Fin cfg2.N) (i : S4096x128.Idx) :
    i ∈ ((cfg2.win 3).blk t).view.set ↔ ∀ a : Fin 2, win2_3.index t a * S128x128.size a ≤ (i a).val ∧ (i a).val < win2_3.index t a * S128x128.size a + S128x128.size a := by
  show i ∈ ((View.whole main_v4).slice (win2_3.rect t)).set ↔ _
  rw [View.set_slice_whole, Rect.mem_set_unit]
  exact Iff.rfl

/-- The 32 blocks cover the array. -/
theorem cover2_arr (i : S4096x128.Idx) : ∃ t : Fin cfg2.N, (cfg2.win 3).flush t = true ∧ i ∈ ((cfg2.win 3).blk t).view.set := by
  have hi0 : (i 0).val < 4096 := (i 0).isLt
  have hi1 : (i 1).val < 128 := (i 1).isLt
  let t : Fin cfg2.N := ⟨(i 0).val / 128, lt_of_lt_of_eq (by omega : (i 0).val / 128 < 32) N_2.symm⟩
  obtain ⟨e00, e01, e10, e11, e20, e21, e30, e31⟩ := idx_facts2 t
  refine ⟨t, flush2_3 t, ?_⟩
  rw [mem_blk2_3]
  intro a
  match a with
  | ⟨0, _⟩ => show win2_3.index t (0 : Fin 2) * 128 ≤ (i 0).val ∧ (i 0).val < win2_3.index t (0 : Fin 2) * 128 + 128; rw [e30]; show (i 0).val / 128 * 128 ≤ _ ∧ _ < (i 0).val / 128 * 128 + 128; omega
  | ⟨1, _⟩ => show win2_3.index t (1 : Fin 2) * 128 ≤ (i 1).val ∧ (i 1).val < win2_3.index t (1 : Fin 2) * 128 + 128; omega

/-- THE ARRAY after the run. -/
theorem arrAt2_eq (c : Dev nD) : (dat2 𝕧 O b c).arrAt 3 cfg2.N = outV (𝕧 c main_arg1) (𝕧 c main_v2) (𝕧 c main_v3) :=
  (dat2 𝕧 O b c).arrAt_eq_of_cover 3 _ (fun t _ => flushed2_3_eq 𝕧 O b c t) cover2_arr

end Cert.KernelIdeal.Tc

end
-- ==== Proof.Tc0Pay.lean ====
/-
  What the first kernel's body leaves, as its payload functions of the inputs' contents: the pieces its runs found, each
  one whole-buffer store, read back.
-/
import proofs.«208470_g86148454023375_cont_sun_c4_654_45_alg».proof.Proof.ScSetup
import proofs.«208470_g86148454023375_cont_sun_c4_654_45_alg».proof.Proof.Gen.KernelIdeal.Launch
import proofs.«208470_g86148454023375_cont_sun_c4_654_45_alg».proof.Proof.Gen.KernelIdeal.Skeleton
import proofs.«208470_g86148454023375_cont_sun_c4_654_45_alg».proof.Proof.Gen.KernelIdeal.Points
import proofs.«208470_g86148454023375_cont_sun_c4_654_45_alg».proof.Proof.Tc0RunA
import proofs.«208470_g86148454023375_cont_sun_c4_654_45_alg».proof.Proof.Tc0RunB
import Idealize.ShloMosaic.Lib.WholeRead
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Tc

open Cert.KernelIdeal Cert.KernelIdeal.Gen Cert.KernelIdeal.Sc

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

theorem hz0 : (![0, 0] : Fin 2 → Nat) = fun _ => 0 := funext fun a => by fin_cases a <;> rfl

/-- A load of the whole of a whole memref held at the contents that read `X` reads `X`. -/
theorem readAt_unread_zero {κ : Kind} {sp : Space} {s : Shape} {e : EltTy} {m : Memref sig κ sp s e} (h : m.IsWhole) (X : s.Idx → Elt F e)
    {off : Fin s.rank → ℕ} (h0 : off = fun _ => 0) (inb : ∀ a, off a + s.size a ≤ s.size a) :
    View.readAt (Elt F) m.view (Rect.unit (s := s) off s.size inb).toLoadRect (h.unread X) = X := by
  subst h0
  funext x
  rw [h.readAt_unread]
  show X ((Rect.whole s).emb x) = X x
  rw [Rect.emb_whole_apply]

section Runs

variable (c : Dev nD) (i : grid0.Coords) (arg1 : Memref sig .tc .vmem S1x1 .f32) (harg1 : arg1.IsWhole) (arg2 : Memref sig .tc .vmem S4096x256 .f32) (harg2 : arg2.IsWhole)
    (arg3 : Memref sig .tc .vmem S256x128 .f32) (harg3 : arg3.IsWhole) (arg4 : Memref sig .tc .vmem S512x4096 .f32) (harg4 : arg4.IsWhole) (arg5 : Memref sig .tc .vmem S4096x128 .f32) (harg5 : arg5.IsWhole)
    (arg6 : Memref sig .tc .vmem S512x128 .f32) (harg6 : arg6.IsWhole) (arg7 : Memref sig .tc .vmem S4096x128 .f32) (harg7 : arg7.IsWhole)
    (x0 : Vec F S1x1 .f32) (x1 : Vec F S4096x256 .f32) (x2 : Vec F S256x128 .f32) (x3 : Vec F S512x4096 .f32) (x7 : Vec F S4096x128 .f32)

/-- Where the condition holds: the first output's buffer at the support times the shifted exponentials, -/
theorem canonA_5 (hc0 : k0_cond1 i = 1#1) :
    View.canon (kernelRun0_A (F := F) c i arg1 harg1 arg2 harg2 arg3 harg3 arg4 harg4 arg5 harg5 arg6 harg6 arg7 harg7 hc0 x0 x1 x2 x3).1.1 = k0_pay4 x0 x1 x2 := by
  unfold kernelRun0_A
  dsimp only
  rw [View.canon_unit_zero (S := S4096x128) hz0, readAt_unread_zero (s := S1x1) harg1 x0 hz0, readAt_unread_zero (s := S4096x256) harg2 x1 hz0, readAt_unread_zero (s := S256x128) harg3 x2 hz0]

/-- the scratch at the shifted exponentials, -/
theorem canonA_7 (hc0 : k0_cond1 i = 1#1) :
    View.canon (kernelRun0_A (F := F) c i arg1 harg1 arg2 harg2 arg3 harg3 arg4 harg4 arg5 harg5 arg6 harg6 arg7 harg7 hc0 x0 x1 x2 x3).1.2.2 = k0_pay3 x0 x1 x2 := by
  unfold kernelRun0_A kernelRun0_A.sl.H7_1
  dsimp only
  rw [View.canon_unit_zero (S := S4096x128) hz0, readAt_unread_zero (s := S1x1) harg1 x0 hz0, readAt_unread_zero (s := S4096x256) harg2 x1 hz0, readAt_unread_zero (s := S256x128) harg3 x2 hz0]

/-- the second output's buffer at the reciprocal block over the scratch just stored. -/
theorem canonA_6 (hc0 : k0_cond1 i = 1#1) :
    View.canon (kernelRun0_A (F := F) c i arg1 harg1 arg2 harg2 arg3 harg3 arg4 harg4 arg5 harg5 arg6 harg6 arg7 harg7 hc0 x0 x1 x2 x3).1.2.1 = k0_pay5 x3 (k0_pay3 x0 x1 x2) := by
  unfold kernelRun0_A kernelRun0_A.sl.v4 kernelRun0_A.sl.H7_1
  dsimp only
  rw [View.canon_unit_zero (S := S512x128) hz0, View.readCov_unit_zero (S := S4096x128) _ hz0, readAt_unread_zero (s := S512x4096) harg4 x3 hz0,
    readAt_unread_zero (s := S1x1) harg1 x0 hz0, readAt_unread_zero (s := S4096x256) harg2 x1 hz0, readAt_unread_zero (s := S256x128) harg3 x2 hz0]

/-- Where it fails: the second output's buffer at the reciprocal block over the carried scratch. -/
theorem canonB_6 (hc0 : ¬ k0_cond1 i = 1#1) :
    View.canon (kernelRun0_B (F := F) c i arg1 harg1 arg2 harg2 arg3 harg3 arg4 harg4 arg5 harg5 arg6 harg6 arg7 harg7 hc0 x3 x7).1 = k0_pay5 x3 x7 := by
  unfold kernelRun0_B
  dsimp only
  rw [View.canon_unit_zero (S := S512x128) hz0, readAt_unread_zero (s := S512x4096) harg4 x3 hz0, readAt_unread_zero (s := S4096x128) harg7 x7 hz0]

end Runs

end Cert.KernelIdeal.Tc

end
-- ==== Proof.Tc0Value.lean ====
/-
  The first pallas_call's two result arrays as whole-array functions of its operands: the first output is written back
  once, whole, after the last point; of the second, every grid point writes back its 512-row block, and the 8 blocks
  cover it.
-/
import proofs.«208470_g86148454023375_cont_sun_c4_654_45_alg».proof.Proof.ScSetup
import proofs.«208470_g86148454023375_cont_sun_c4_654_45_alg».proof.Proof.Gen.KernelIdeal.Launch
import proofs.«208470_g86148454023375_cont_sun_c4_654_45_alg».proof.Proof.Gen.KernelIdeal.Skeleton
import proofs.«208470_g86148454023375_cont_sun_c4_654_45_alg».proof.Proof.Gen.KernelIdeal.Points
import proofs.«208470_g86148454023375_cont_sun_c4_654_45_alg».proof.Proof.Tc0Body
import proofs.«208470_g86148454023375_cont_sun_c4_654_45_alg».proof.Proof.Tc0Pay
import proofs.«208470_g86148454023375_cont_sun_c4_654_45_alg».proof.Proof.Tc2Value
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Tc

open Cert.KernelIdeal Cert.KernelIdeal.Gen Cert.KernelIdeal.Sc

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (𝕧 : Val𝕍 F) (O : Dev nD → CellTallies nD τ sig (HIx 1)) (b : ℕ)

/-- The printed index maps, decided over the grid: the adjacency's and the second result's blocks move down the rows with
    the point; the others are whole. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks -/

theorem iblk0_0 (c : Dev nD) (t : Fin cfg0.N) : (iblk0 𝕧 c 0 t : Vec F S1x1 .f32) = 𝕧 c main_v0 := by
  obtain ⟨e00, e01, -⟩ := idx_facts0 t
  funext y
  show 𝕧 c main_v0 (((cfg0.win 0).blk t).view.emb y) = 𝕧 c main_v0 y
  congr 1
  funext a; apply Fin.ext
  match a with
  | ⟨0, _⟩ => show win0_0.index t (0 : Fin 2) * 1 + 1 * (y 0).val = (y 0).val; omega
  | ⟨1, _⟩ => show win0_0.index t (1 : Fin 2) * 1 + 1 * (y 1).val = (y 1).val; omega

theorem iblk0_1 (c : Dev nD) (t : Fin cfg0.N) : (iblk0 𝕧 c 1 t : Vec F S4096x256 .f32) = 𝕧 c main_arg0 := by
  obtain ⟨-, -, e10, e11, -⟩ := idx_facts0 t
  funext y
  show 𝕧 c main_arg0 (((cfg0.win 1).blk t).view.emb y) = 𝕧 c main_arg0 y
  congr 1
  funext a; apply Fin.ext
  match a with
  | ⟨0, _⟩ => show win0_1.index t (0 : Fin 2) * 4096 + 1 * (y 0).val = (y 0).val; omega
  | ⟨1, _⟩ => show win0_1.index t (1 : Fin 2) * 256 + 1 * (y 1).val = (y 1).val; omega

theorem iblk0_2 (c : Dev nD) (t : Fin cfg0.N) : (iblk0 𝕧 c 2 t : Vec F S256x128 .f32) = 𝕧 c main_arg5 := by
  obtain ⟨-, -, -, -, e20, e21, -⟩ := idx_facts0 t
  funext y
  show 𝕧 c main_arg5 (((cfg0.win 2).blk t).view.emb y) = 𝕧 c main_arg5 y
  congr 1
  funext a; apply Fin.ext
  match a with
  | ⟨0, _⟩ => show win0_2.index t (0 : Fin 2) * 256 + 1 * (y 0).val = (y 0).val; omega
  | ⟨1, _⟩ => show win0_2.index t (1 : Fin 2) * 128 + 1 * (y 1).val = (y 1).val; omega

theorem iblk0_3 (c : Dev nD) (t : Fin cfg0.N) :
    (iblk0 𝕧 c 3 t : Vec F S512x4096 .f32) = rowBlk 512 t.val (by have hN : t.val < 8 := lt_of_lt_of_eq t.isLt N_0; omega) (𝕧 c main_arg2) := by
  obtain ⟨-, -, -, -, -, -, e30, e31, -⟩ := idx_facts0 t
  funext y
  show 𝕧 c main_arg2 (((cfg0.win 3).blk t).view.emb y) = 𝕧 c main_arg2 (ix2 _ _)
  congr 1
  funext a; apply Fin.ext
  match a with
  | ⟨0, _⟩ => show win0_3.index t (0 : Fin 2) * 512 + 1 * (y 0).val = 512 * t.val + (y 0).val; omega
  | ⟨1, _⟩ => show win0_3.index t (1 : Fin 2) * 4096 + 1 * (y 1).val = (y 1).val; omega

/-! ## What the points leave, as the payload functions of the operands -/

theorem smK_eq (c : Dev nD) : smK 𝕧 c = smV (𝕧 c main_v0) (𝕧 c main_arg0) (𝕧 c main_arg5) := by
  unfold smK runA
  rw [canonA_7, iblk0_0, iblk0_1, iblk0_2]
  rfl

theorem prodK_eq (c : Dev nD) : prodK 𝕧 c = prodV (𝕧 c main_v0) (𝕧 c main_arg0) (𝕧 c main_arg5) := by
  unfold prodK runA
  rw [canonA_5, iblk0_0, iblk0_1, iblk0_2]
  rfl

theorem recipAt_eq (c : Dev nD) (t : Fin cfg0.N) :
    recipAt 𝕧 c t = k0_pay5 (rowBlk 512 t.val (by have hN : t.val < 8 := lt_of_lt_of_eq t.isLt N_0; omega) (𝕧 c main_arg2)) (smV (𝕧 c main_v0) (𝕧 c main_arg0) (𝕧 c main_arg5)) := by
  unfold recipAt
  split
  · unfold runA
    rw [canonA_6, iblk0_0, iblk0_1, iblk0_2, iblk0_3]
    rfl
  · unfold runB
    rw [canonB_6, smK_eq, iblk0_3]

/-! ## The first result -/

theorem flushed0_4_eq (c : Dev nD) (t : Fin cfg0.N) :
    (dat0 𝕧 O b c).flushed 4 t = ((cfg0.win 4).blk t).view.read (Elt F) (prodV (𝕧 c main_v0) (𝕧 c main_arg0) (𝕧 c main_arg5)) := by
  show (cfg0.win 4).cut (grid0.coords t) ((dat0 𝕧 O b c).after 4 t) = _
  rw [after0_4, prodK_eq]
  obtain ⟨-, -, -, -, -, -, -, -, e40, e41, -⟩ := idx_facts0 t
  funext j
  show prodV (𝕧 c main_v0) (𝕧 c main_arg0) (𝕧 c main_arg5) j = prodV (𝕧 c main_v0) (𝕧 c main_arg0) (𝕧 c main_arg5) (((cfg0.win 4).blk t).view.emb j)
  congr 1
  funext a; apply Fin.ext
  match a with
  | ⟨0, _⟩ => show (j 0).val = win0_4.index t (0 : Fin 2) * 4096 + 1 * (j 0).val; omega
  | ⟨1, _⟩ => show (j 1).val = win0_4.index t (1 : Fin 2) * 128 + 1 * (j 1).val; omega

theorem mem_blk0_4 (t : Fin cfg0.N) (i : S4096x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v1_0).slice (win0_4.rect t)).set ↔ _
  rw [View.set_slice_whole, Rect.mem_set_unit]
  exact Iff.rfl

theorem cover0_4_arr (i : S4096x128.Idx) : ∃ t : Fin cfg0.N, (cfg0.win 4).flush t = true ∧ i ∈ ((cfg0.win 4).blk t).view.set := by
  have hi0 : (i 0).val < 4096 := (i 0).isLt
  have hi1 : (i 1).val < 128 := (i 1).isLt
  obtain ⟨-, -, -, -, -, -, -, -, e40, e41, -⟩ := idx_facts0 t0_7
  refine ⟨t0_7, (flush0_4 t0_7).mpr rfl, ?_⟩
  rw [mem_blk0_4]
  intro a
  match a with
  | ⟨0, _⟩ => show win0_4.index t0_7 (0 : Fin 2) * 4096 ≤ (i 0).val ∧ (i 0).val < win0_4.index t0_7 (0 : Fin 2) * 4096 + 4096; omega
  | ⟨1, _⟩ => show win0_4.index t0_7 (1 : Fin 2) * 128 ≤ (i 1).val ∧ (i 1).val < win0_4.index t0_7 (1 : Fin 2) * 128 + 128; omega

/-- THE FIRST RESULT after the run. -/
theorem arrAt0_4_eq (c : Dev nD) : (dat0 𝕧 O b c).arrAt 4 cfg0.N = prodV (𝕧 c main_v0) (𝕧 c main_arg0) (𝕧 c main_arg5) :=
  (dat0 𝕧 O b c).arrAt_eq_of_cover 4 _ (fun t _ => flushed0_4_eq 𝕧 O b c t) cover0_4_arr

/-! ## The second result -/

theorem flushed0_5_eq (c : Dev nD) (t : Fin cfg0.N) :
    (dat0 𝕧 O b c).flushed 5 t = ((cfg0.win 5).blk t).view.read (Elt F) (recipV (𝕧 c main_v0) (𝕧 c main_arg0) (𝕧 c main_arg5) (𝕧 c main_arg2)) := by
  show (cfg0.win 5).cut (grid0.coords t) ((dat0 𝕧 O b c).after 5 t) = _
  rw [after0_5, recipAt_eq]
  obtain ⟨-, -, -, -, -, -, -, -, -, -, e50, e51⟩ := idx_facts0 t
  have hN : t.val < 8 := lt_of_lt_of_eq t.isLt N_0
  funext j
  show k0_pay5 _ _ j = recipV (𝕧 c main_v0) (𝕧 c main_arg0) (𝕧 c main_arg5) (𝕧 c main_arg2) (((cfg0.win 5).blk t).view.emb j)
  have hj0 : (j 0).val < 512 := (j 0).isLt
  have hi0 : ((((cfg0.win 5).blk t).view.emb j) 0).val = t.val * 512 + (j 0).val := by
    show win0_5.index t (0 : Fin 2) * 512 + 1 * (j 0).val = _; omega
  have hi1 : ((((cfg0.win 5).blk t).view.emb j) 1).val = (j 1).val := by
    show win0_5.index t (1 : Fin 2) * 128 + 1 * (j 1).val = _; omega
  unfold recipV
  have hd : (j : S512x128.Idx) = ix2 ⟨((((cfg0.win 5).blk t).view.emb j) 0).val % 512, Nat.mod_lt _ (by decide)⟩ ((((cfg0.win 5).blk t).view.emb j) 1) := by
    funext a; apply Fin.ext
    match a with
    | ⟨0, _⟩ => show (j 0).val = ((((cfg0.win 5).blk t).view.emb j) 0).val % 512; omega
    | ⟨1, _⟩ => show (j 1).val = ((((cfg0.win 5).blk t).view.emb j) 1).val; omega
  rw [rowBlk_congr 512 (show t.val = ((((cfg0.win 5).blk t).view.emb j) 0).val / 512 by omega)]
  exact congrArg _ hd

theorem mem_blk0_5 (t : Fin cfg0.N) (i : S4096x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v1_1).slice (win0_5.rect t)).set ↔ _
  rw [View.set_slice_whole, Rect.mem_set_unit]
  exact Iff.rfl

theorem cover0_5_arr (i : S4096x128.Idx) : ∃ t : Fin cfg0.N, (cfg0.win 5).flush t = true ∧ i ∈ ((cfg0.win 5).blk t).view.set := by
  have hi0 : (i 0).val < 4096 := (i 0).isLt
  have hi1 : (i 1).val < 128 := (i 1).isLt
  let t : Fin cfg0.N := ⟨(i 0).val / 512, lt_of_lt_of_eq (by omega : (i 0).val / 512 < 8) N_0.symm⟩
  obtain ⟨-, -, -, -, -, -, -, -, -, -, e50, e51⟩ := idx_facts0 t
  refine ⟨t, flush0_5 t, ?_⟩
  rw [mem_blk0_5]
  intro a
  match a with
  | ⟨0, _⟩ => show win0_5.index t (0 : Fin 2) * 512 ≤ (i 0).val ∧ (i 0).val < win0_5.index t (0 : Fin 2) * 512 + 512; rw [e50]; show (i 0).val / 512 * 512 ≤ _ ∧ _ < (i 0).val / 512 * 512 + 512; omega
  | ⟨1, _⟩ => show win0_5.index t (1 : Fin 2) * 128 ≤ (i 1).val ∧ (i 1).val < win0_5.index t (1 : Fin 2) * 128 + 128; omega

/-- THE SECOND RESULT after the run. -/
theorem arrAt0_5_eq (c : Dev nD) : (dat0 𝕧 O b c).arrAt 5 cfg0.N = recipV (𝕧 c main_v0) (𝕧 c main_arg0) (𝕧 c main_arg5) (𝕧 c main_arg2) :=
  (dat0 𝕧 O b c).arrAt_eq_of_cover 5 _ (fun t _ => flushed0_5_eq 𝕧 O b c t) cover0_5_arr

end Cert.KernelIdeal.Tc

end
-- ==== Proof.TcRegions.lean ====
/-
  The two TensorCore regions in the form the TensorCore's program is proved from: explicit contents of the regions'
  arrays, the results at the whole-array functions of the operands.
-/
import proofs.«208470_g86148454023375_cont_sun_c4_654_45_alg».proof.Proof.ScSetup
import proofs.«208470_g86148454023375_cont_sun_c4_654_45_alg».proof.Proof.Gen.KernelIdeal.Launch
import proofs.«208470_g86148454023375_cont_sun_c4_654_45_alg».proof.Proof.Gen.KernelIdeal.Skeleton
import proofs.«208470_g86148454023375_cont_sun_c4_654_45_alg».proof.Proof.Gen.KernelIdeal.Points
import proofs.«208470_g86148454023375_cont_sun_c4_654_45_alg».proof.Proof.Main
import proofs.«208470_g86148454023375_cont_sun_c4_654_45_alg».proof.Proof.Tc0Region
import proofs.«208470_g86148454023375_cont_sun_c4_654_45_alg».proof.Proof.Tc2Region
import proofs.«208470_g86148454023375_cont_sun_c4_654_45_alg».proof.Proof.Tc2Value
import proofs.«208470_g86148454023375_cont_sun_c4_654_45_alg».proof.Proof.Tc0Value
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Tc

open Cert.KernelIdeal Cert.KernelIdeal.Gen Cert.KernelIdeal.Sc

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## Valuations that hold given contents at given buffers -/

/-- The valuation with `f` at buffer `r` of device `d`. -/
def setV (𝕧 : Val𝕍 F) (d : Dev nD) (r : Ref sig .tc) (f : Buf (Elt F) ((d : Thread nD τ).loc r)) : Val𝕍 F :=
  fun d' r' => if h : d' = d ∧ r' = r then (by obtain ⟨rfl, rfl⟩ := h; exact f) else 𝕧 d' r'

theorem setV_self (𝕧 : Val𝕍 F) (d : Dev nD) (r : Ref sig .tc) (f : Buf (Elt F) ((d : Thread nD τ).loc r)) : setV 𝕧 d r f d r = f := by
  unfold setV; rw [dif_pos ⟨rfl, rfl⟩]

theorem setV_ne (𝕧 : Val𝕍 F) (d : Dev nD) (r : Ref sig .tc) (f : Buf (Elt F) ((d : Thread nD τ).loc r)) (d' : Dev nD) (r' : Ref sig .tc) (h : r' ≠ r) :
    setV 𝕧 d r f d' r' = 𝕧 d' r' := by
  unfold setV; rw [dif_neg fun h' => h h'.2]

/-- Some valuation. -/
def anyV : Val𝕍 F := fun _ _ _ => Classical.arbitrary _

/-! ## The output region -/

/-- The valuation of the output region's arrays. -/
def val2 (d : Dev nD) (tm : Buf (Elt F) ((d : Thread nD τ).loc main_arg1)) (msg : Buf (Elt F) ((d : Thread nD τ).loc main_v2))
    (b1 : Buf (Elt F) ((d : Thread nD τ).loc main_v3)) (f4 : Buf (Elt F) ((d : Thread nD τ).loc main_v4)) : Val𝕍 F :=
  setV (setV (setV (setV anyV d main_arg1 tm) d main_v2 msg) d main_v3 b1) d main_v4 f4

theorem val2_arg1 (d tm msg b1 f4) : val2 (F := F) d tm msg b1 f4 d main_arg1 = tm := by
  unfold val2; rw [setV_ne _ _ _ _ _ _ (by decide), setV_ne _ _ _ _ _ _ (by decide), setV_ne _ _ _ _ _ _ (by decide), setV_self]
theorem val2_v2 (d tm msg b1 f4) : val2 (F := F) d tm msg b1 f4 d main_v2 = msg := by
  unfold val2; rw [setV_ne _ _ _ _ _ _ (by decide), setV_ne _ _ _ _ _ _ (by decide), setV_self]
theorem val2_v3 (d tm msg b1 f4) : val2 (F := F) d tm msg b1 f4 d main_v3 = b1 := by
  unfold val2; rw [setV_ne _ _ _ _ _ _ (by decide), setV_self]
theorem val2_v4 (d tm msg b1 f4) : val2 (F := F) d tm msg b1 f4 d main_v4 = f4 := by
  unfold val2; rw [setV_self]

/-- The output region: the result array at the product of its row blocks with the messages plus the bias row. -/
theorem region2 : Sc.Region2Spec (F := F) outV := by
  intro d O b hO tm msg b1 f4
  have h := region2_raw (val2 d tm msg b1 f4) (fun _ => O) b (K (F := F)).lev (K (F := F)).refines_self (fun _ => hO) d
  rw [arrAt2_eq] at h
  unfold arrs2 owesB at h
  rw [val2_arg1, val2_v2, val2_v3, val2_v4] at h
  unfold Sc.owesB'
  refine BIBase.Entails.trans ?_ (h.trans (wp_mono frame _ Set.univ fun _ => ?_))
  · iintro ⟨Hl, Hb, Hg, Ht, Ho, H1, H2, H3, H4⟩
    isplitl [Hb]; · iexact Hb
    isplitl [Hl]; · iexact Hl
    isplitl [Hg]; · iexact Hg
    isplitl [Ht]; · iexact Ht
    isplitl [H1 H2 H3 H4]
    · isplitl [H1]; · iexact H1
      isplitl [H2]; · iexact H2
      isplitl [H3]; · iexact H3
      iexact H4
    iexact Ho
  · iintro ⟨Hb, ⟨H1, H2, H3, H4⟩, Ho⟩
    isplitl [Hb]; · iexact Hb
    isplitl [Ho]; · iexact Ho
    isplitl [H1]; · iexact H1
    isplitl [H2]; · iexact H2
    isplitl [H3]; · iexact H3
    iexact H4

/-! ## The first region -/

/-- The valuation of the first region's arrays. -/
def val0 (d : Dev nD) (p11 : Buf (Elt F) ((d : Thread nD τ).loc main_v0)) (x : Buf (Elt F) ((d : Thread nD τ).loc main_arg0))
    (w : Buf (Elt F) ((d : Thread nD τ).loc main_arg5)) (adj : Buf (Elt F) ((d : Thread nD τ).loc main_arg2))
    (f10 : Buf (Elt F) ((d : Thread nD τ).loc main_v1_0)) (f11 : Buf (Elt F) ((d : Thread nD τ).loc main_v1_1)) : Val𝕍 F :=
  setV (setV (setV (setV (setV (setV anyV d main_v0 p11) d main_arg0 x) d main_arg5 w) d main_arg2 adj) d main_v1_0 f10) d main_v1_1 f11

theorem val0_v0 (d p11 x w adj f10 f11) : val0 (F := F) d p11 x w adj f10 f11 d main_v0 = p11 := by
  unfold val0; rw [setV_ne _ _ _ _ _ _ (by decide), setV_ne _ _ _ _ _ _ (by decide), setV_ne _ _ _ _ _ _ (by decide), setV_ne _ _ _ _ _ _ (by decide), setV_ne _ _ _ _ _ _ (by decide), setV_self]
theorem val0_arg0 (d p11 x w adj f10 f11) : val0 (F := F) d p11 x w adj f10 f11 d main_arg0 = x := by
  unfold val0; rw [setV_ne _ _ _ _ _ _ (by decide), setV_ne _ _ _ _ _ _ (by decide), setV_ne _ _ _ _ _ _ (by decide), setV_ne _ _ _ _ _ _ (by decide), setV_self]
theorem val0_arg5 (d p11 x w adj f10 f11) : val0 (F := F) d p11 x w adj f10 f11 d main_arg5 = w := by
  unfold val0; rw [setV_ne _ _ _ _ _ _ (by decide), setV_ne _ _ _ _ _ _ (by decide), setV_ne _ _ _ _ _ _ (by decide), setV_self]
theorem val0_arg2 (d p11 x w adj f10 f11) : val0 (F := F) d p11 x w adj f10 f11 d main_arg2 = adj := by
  unfold val0; rw [setV_ne _ _ _ _ _ _ (by decide), setV_ne _ _ _ _ _ _ (by decide), setV_self]
theorem val0_v10 (d p11 x w adj f10 f11) : val0 (F := F) d p11 x w adj f10 f11 d main_v1_0 = f10 := by
  unfold val0; rw [setV_ne _ _ _ _ _ _ (by decide), setV_self]
theorem val0_v11 (d p11 x w adj f10 f11) : val0 (F := F) d p11 x w adj f10 f11 d main_v1_1 = f11 := by
  unfold val0; rw [setV_self]

/-- The first region: the two result arrays at the support times its shifted exponentials and at the refined reciprocals
    of the adjacency's row sums over them. -/
theorem region0 : Sc.Region0Spec (F := F) prodV recipV := by
  intro d O b hO p11 x w adj f10 f11
  have h := region0_raw (val0 d p11 x w adj f10 f11) (fun _ => O) b (K (F := F)).lev (K (F := F)).refines_self (fun _ => hO) d
  rw [arrAt0_4_eq, arrAt0_5_eq] at h
  unfold arrs0 owesB at h
  rw [val0_v0, val0_arg0, val0_arg5, val0_arg2, val0_v10, val0_v11] at h
  unfold Sc.owesB'
  refine BIBase.Entails.trans ?_ (h.trans (wp_mono frame _ Set.univ fun _ => ?_))
  · iintro ⟨Hl, Hb, Hg, Ht, Ho, H0, H1, H2, H3, H4, H5⟩
    isplitl [Hb]; · iexact Hb
    isplitl [Hl]; · iexact Hl
    isplitl [Hg]; · iexact Hg
    isplitl [Ht]; · iexact Ht
    isplitl [H0 H1 H2 H3 H4 H5]
    · isplitl [H0]; · iexact H0
      isplitl [H1]; · iexact H1
      isplitl [H2]; · iexact H2
      isplitl [H3]; · iexact H3
      isplitl [H4]; · iexact H4
      iexact H5
    iexact Ho
  · iintro ⟨Hb, ⟨H0, H1, H2, H3, H4, H5⟩, Ho⟩
    isplitl [Hb]; · iexact Hb
    isplitl [Ho]; · iexact Ho
    isplitl [H0]; · iexact H0
    isplitl [H1]; · iexact H1
    isplitl [H2]; · iexact H2
    isplitl [H3]; · iexact H3
    isplitl [H4]; · iexact H4
    iexact H5

end Cert.KernelIdeal.Tc

end
-- ==== Proof.Tc2BodyK.lean ====
/-
  The output pallas_call (grid of 32 row blocks): what the body leaves in its staging buffers at a point, the body's
  triple, the proof data of the pipeline over a valuation of the TensorCore's buffers, and the body obligation.
  out block t = T block t · msg + bias row.
-/
import proofs.«208470_g86148454023375_cont_sun_c4_654_45_alg».proof.Proof.ScSetupK
import proofs.«208470_g86148454023375_cont_sun_c4_654_45_alg».proof.Proof.Gen.Kernel.Launch
import proofs.«208470_g86148454023375_cont_sun_c4_654_45_alg».proof.Proof.Gen.Kernel.Skeleton
import proofs.«208470_g86148454023375_cont_sun_c4_654_45_alg».proof.Proof.Gen.Kernel.Points

import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Tc

open Cert.Kernel Cert.Kernel.Gen Cert.Kernel.Sc

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- A valuation of the TensorCore's buffers on each device. -/
abbrev Val𝕍 (F : FTy → Type) : Type := (d : Dev nD) → (b : Ref sig .tc) → Buf (Elt F) ((d : Thread nD τ).loc b)

variable (𝕧 : Val𝕍 F) (O : Dev nD → CellTallies nD τ sig (HIx 1)) (b : ℕ)

/-! ## The windows' blocks -/

/-- Window `w`'s block at point `t`, read off its array at the valuation. -/
def iblk2 (c : Dev nD) (w : Fin cfg2.W) (t : Fin cfg2.N) : ((cfg2.win w).xblock (cfg2.grid.coords t)).Idx → Elt F (cfg2.win w).elt :=
  ((cfg2.win w).blk t).view.read (Elt F) (𝕧 c (Pipeline.arrRef spec2 w))

theorem before2_0_of {c : Dev nD} (dat : Dat τ (Elt F) (HIx 1) ℕ UU ℕ cfg2 c) (hA : dat.A 0 = 𝕧 c (Pipeline.arrRef spec2 0))
    (hafter : ∀ t, dat.after 0 t = iblk2 𝕧 c 0 t) (t : Fin cfg2.N) (d) : dat.before 0 t d = iblk2 𝕧 c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = 𝕧 c (Pipeline.arrRef spec2 1))
    (hafter : ∀ t, dat.after 1 t = iblk2 𝕧 c 1 t) (t : Fin cfg2.N) (d) : dat.before 1 t d = iblk2 𝕧 c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 1) ℕ UU ℕ cfg2 c) (hA : dat.A 2 = 𝕧 c (Pipeline.arrRef spec2 2))
    (hafter : ∀ t, dat.after 2 t = iblk2 𝕧 c 2 t) (t : Fin cfg2.N) (d) : dat.before 2 t d = iblk2 𝕧 c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S128x16384 := Rect.unit (s := S128x16384) ![0, 0] S128x16384.size inb_S128x16384_S128x16384_0_0
abbrev r2_1 : Rect S16384x128 := Rect.unit (s := S16384x128) ![0, 0] S16384x128.size inb_S16384x128_S16384x128_0_0
abbrev r2_2 : Rect S1x128 := Rect.unit (s := S1x128) ![0, 0] S1x128.size inb_S1x128_S1x128_0_0
abbrev r2_3 : Rect S128x128 := Rect.unit (s := S128x128) ![0, 0] S128x128.size inb_S128x128_S128x128_0_0

/-- The output window's staging buffer after the body, from the input windows' blocks: its one store. -/
def out2_3 (x0 : Vec F S128x16384 .f32) (x1 : Vec F S16384x128 .f32) (x2 : Vec F S1x128 .f32) : Vec F S128x128 .f32 :=
  View.canon [⟨r2_3, k2_pay1 (View.ld x0 r2_0) (View.ld x1 r2_1) (View.ld x2 r2_2)⟩]

theorem cover2_3 (p0 : Vec F S128x128 .f32) (y : S128x128.Idx) :
    ∃ pc ∈ ([⟨r2_3, p0⟩] : List (View.Piece (Elt F) S128x128 .f32)), y ∈ pc.1.set :=
  View.cover_of_tiled [⟨r2_3, p0⟩] S128x128.size (by rfl) y

/-! ## The body's triple -/

set_option maxHeartbeats 1000000 in
/-- The body on whole staging memrefs: the three inputs' kept, the output's at the product plus the bias row. -/
theorem sound_kernel2 (c : Dev nD) (E : Set ℕ) (i : grid2.Coords) (arg1 : Memref sig .tc .vmem S128x16384 .f32) (harg1 : arg1.IsWhole) (arg2 : Memref sig .tc .vmem S16384x128 .f32) (harg2 : arg2.IsWhole)
    (arg3 : Memref sig .tc .vmem S1x128 .f32) (harg3 : arg3.IsWhole) (arg4 : Memref sig .tc .vmem S128x128 .f32) (harg4 : arg4.IsWhole)
    (x0 : Vec F S128x16384 .f32) (x1 : Vec F S16384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__k_out i arg1 harg1 arg2 harg2 arg3 harg3 arg4 harg4) K := by
  simp only [cc2__k_out_eq_skeleton]; unfold cc2__k_out_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the output pipeline on core `c`: the arrays at the valuation; after the body each input's buffer
    at its block and the output's at the body's result over the input blocks; the invariant the scoped buffers no window
    stages, untouched; the core owes `O c` throughout. -/
def dat2 (c : Dev nD) : Dat τ (Elt F) (HIx 1) ℕ UU ℕ cfg2 c where
  A w := 𝕧 c (Pipeline.arrRef spec2 w)
  after w t := match w with
    | ⟨0, _⟩ => iblk2 𝕧 c 0 t
    | ⟨1, _⟩ => iblk2 𝕧 c 1 t
    | ⟨2, _⟩ => iblk2 𝕧 c 2 t
    | ⟨3, _⟩ => out2_3 (iblk2 𝕧 c 0 t) (iblk2 𝕧 c 1 t) (iblk2 𝕧 c 2 t)
  Φ _ := Pipeline.scopedRest spec2 c
  q _ := fullShare
  owed _ := O c
  recorded _ := {p | (K (F := F)).lev ((c : Thread nD τ), p.1) p.2 ≤ b}

theorem A2_eq (c : Dev nD) (w : Fin cfg2.W) : (dat2 𝕧 O b c).A w = 𝕧 c (Pipeline.arrRef spec2 w) := by
  dsimp only [dat2]

theorem after2_0 (c : Dev nD) (t : Fin cfg2.N) : (dat2 𝕧 O b c).after 0 t = iblk2 𝕧 c 0 t := by dsimp only [dat2]
theorem after2_1 (c : Dev nD) (t : Fin cfg2.N) : (dat2 𝕧 O b c).after 1 t = iblk2 𝕧 c 1 t := by dsimp only [dat2]
theorem after2_2 (c : Dev nD) (t : Fin cfg2.N) : (dat2 𝕧 O b c).after 2 t = iblk2 𝕧 c 2 t := by dsimp only [dat2]
theorem after2_3 (c : Dev nD) (t : Fin cfg2.N) : (dat2 𝕧 O b c).after 3 t = out2_3 (iblk2 𝕧 c 0 t) (iblk2 𝕧 c 1 t) (iblk2 𝕧 c 2 t) := by dsimp only [dat2]

theorem before2_0 (c : Dev nD) (t : Fin cfg2.N) (d) : (dat2 𝕧 O b c).before 0 t d = iblk2 𝕧 c 0 t :=
  before2_0_of 𝕧 (dat2 𝕧 O b c) (A2_eq 𝕧 O b c 0) (after2_0 𝕧 O b c) t d
theorem before2_1 (c : Dev nD) (t : Fin cfg2.N) (d) : (dat2 𝕧 O b c).before 1 t d = iblk2 𝕧 c 1 t :=
  before2_1_of 𝕧 (dat2 𝕧 O b c) (A2_eq 𝕧 O b c 1) (after2_1 𝕧 O b c) t d
theorem before2_2 (c : Dev nD) (t : Fin cfg2.N) (d) : (dat2 𝕧 O b c).before 2 t d = iblk2 𝕧 c 2 t :=
  before2_2_of 𝕧 (dat2 𝕧 O b c) (A2_eq 𝕧 O b c 2) (after2_2 𝕧 O b c) t d

/-! ## The body obligation, at a generic point -/

def bodyPre2 (c : Dev nD) (t : Fin cfg2.N) : sProp 𝕄 :=
  iprop((dat2 𝕧 O b c).Φ t.castSucc ∗ (dat2 𝕧 O b c).owesAt none t.castSucc
    ∗ (∃ d, owns (c : Thread nD τ) (st2_0 t) fullShare ((dat2 𝕧 O b c).before 0 t d))
    ∗ (∃ d, owns (c : Thread nD τ) (st2_1 t) fullShare ((dat2 𝕧 O b c).before 1 t d))
    ∗ (∃ d, owns (c : Thread nD τ) (st2_2 t) fullShare ((dat2 𝕧 O b c).before 2 t d))
    ∗ (∃ d, owns (c : Thread nD τ) (st2_3 t) fullShare ((dat2 𝕧 O b c).before 3 t d)))

def bodyPost2 (c : Dev nD) (t : Fin cfg2.N) : sProp 𝕄 :=
  iprop((dat2 𝕧 O b c).Φ t.succ ∗ (dat2 𝕧 O b c).owesAt none t.succ
    ∗ owns (c : Thread nD τ) (st2_0 t) fullShare ((dat2 𝕧 O b c).after 0 t)
    ∗ owns (c : Thread nD τ) (st2_1 t) fullShare ((dat2 𝕧 O b c).after 1 t)
    ∗ owns (c : Thread nD τ) (st2_2 t) fullShare ((dat2 𝕧 O b c).after 2 t)
    ∗ owns (c : Thread nD τ) (st2_3 t) fullShare ((dat2 𝕧 O b c).after 3 t))

theorem sound_body2 (c : Dev nD) (t : Fin cfg2.N) :
    bodyPre2 𝕧 O b c t ⊢ wp frame (wpE (defs₀ (F := F)) Variants.none c none) Set.univ (bodyAt2 t) (fun _ => bodyPost2 𝕧 O b c t) := by
  unfold bodyPre2 bodyPost2 bodyAt2
  simp only [before2_0, before2_1, before2_2]
  rw [show (dat2 𝕧 O b c).Φ t.succ = (dat2 𝕧 O b c).Φ t.castSucc from rfl,
    show (dat2 𝕧 O b c).owesAt none t.succ = (dat2 𝕧 O b c).owesAt none t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 𝕧 c 0 t) (iblk2 𝕧 c 1 t) (iblk2 𝕧 c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) 𝕧 O b c) (defs₀ (F := F)) Variants.none none Set.univ := fun t => by
  rw [bigSep_W2, bigSep_W2]
  exact sound_body2 𝕧 O b c t

end Cert.Kernel.Tc

end
-- ==== Proof.Tc0RunAK.lean ====
/-
  The first kernel's body at the point where its condition holds (the first grid point), on any staging memrefs: it
  fills the scratch with the shifted exponentials and the first output with their products with the support, then the
  row block's reciprocal block.
-/
import proofs.«208470_g86148454023375_cont_sun_c4_654_45_alg».proof.Proof.ScSetupK
import proofs.«208470_g86148454023375_cont_sun_c4_654_45_alg».proof.Proof.Gen.Kernel.Skeleton
import proofs.«208470_g86148454023375_cont_sun_c4_654_45_alg».proof.Proof.Gen.Kernel.Launch
import proofs.«208470_g86148454023375_cont_sun_c4_654_45_alg».proof.Proof.Gen.Kernel.Points
import Idealize.ShloMosaic.Lib.Pipeline.FrameBody
import Idealize.ShloMosaic.Lib.Tactic

set_option maxRecDepth 16384

noncomputable section

namespace Cert.Kernel.Tc

open Cert.Kernel Cert.Kernel.Gen Cert.Kernel.Sc

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

set_option maxHeartbeats 2000000 in
/-- What the body's stores leave in the two outputs' staging memrefs and in the scratch, as pieces, where the condition
    holds, with the proof that on whole staging memrefs — the inputs' at their contents, the outputs' and the scratch at
    anything — the body runs to the continuation holding the inputs' as they were and each written memref with its pieces. -/
noncomputable def kernelRun0_A (c : Dev nD) (i : grid0.Coords) (arg1 : Memref sig .tc .vmem S1x1 .f32) (harg1 : arg1.IsWhole) (arg2 : Memref sig .tc .vmem S4096x256 .f32) (harg2 : arg2.IsWhole)
    (arg3 : Memref sig .tc .vmem S256x128 .f32) (harg3 : arg3.IsWhole) (arg4 : Memref sig .tc .vmem S512x4096 .f32) (harg4 : arg4.IsWhole) (arg5 : Memref sig .tc .vmem S4096x128 .f32) (harg5 : arg5.IsWhole)
    (arg6 : Memref sig .tc .vmem S512x128 .f32) (harg6 : arg6.IsWhole) (arg7 : Memref sig .tc .vmem S4096x128 .f32) (harg7 : arg7.IsWhole) (hc0 : k0_cond1 i = 1#1)
    (x0 : Vec F S1x1 .f32) (x1 : Vec F S4096x256 .f32) (x2 : Vec F S256x128 .f32) (x3 : Vec F S512x4096 .f32) :
    { L : List (View.Piece (Elt F) S4096x128 .f32) × List (View.Piece (Elt F) S512x128 .f32) × List (View.Piece (Elt F) S4096x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc0__k_sup_agg i arg1 harg1 arg2 harg2 arg3 harg3 arg4 harg4 arg5 harg5 arg6 harg6 arg7 harg7) K } := by
  refine ⟨⟨?_, ?_, ?_⟩, fun E K => ?run⟩
  case run =>
    simp only [cc0__k_sup_agg_eq_skeleton]; unfold cc0__k_sup_agg_skel
    unfold owns
    iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%d7, %f7, -, H7⟩, Hk⟩
    obtain rfl := harg1.eq_unread hf0
    obtain rfl := harg2.eq_unread hf1
    obtain rfl := harg3.eq_unread hf2
    obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H5]; · iexists _; iexact H5
    isplitl [H6]; · iexists _; iexact H6
    iexists _; iexact H7

end Cert.Kernel.Tc

end
-- ==== Proof.Tc0RunBK.lean ====
/-
  The first kernel's body at the points where its condition fails (every grid point after the first), on any staging
  memrefs: from the row block and the scratch as the first point left it, the block's reciprocal block; nothing else is touched.
-/
import proofs.«208470_g86148454023375_cont_sun_c4_654_45_alg».proof.Proof.ScSetupK
import proofs.«208470_g86148454023375_cont_sun_c4_654_45_alg».proof.Proof.Gen.Kernel.Skeleton
import proofs.«208470_g86148454023375_cont_sun_c4_654_45_alg».proof.Proof.Gen.Kernel.Launch
import proofs.«208470_g86148454023375_cont_sun_c4_654_45_alg».proof.Proof.Gen.Kernel.Points
import Idealize.ShloMosaic.Lib.Pipeline.FrameBody
import Idealize.ShloMosaic.Lib.Tactic

set_option maxRecDepth 16384

noncomputable section

namespace Cert.Kernel.Tc

open Cert.Kernel Cert.Kernel.Gen Cert.Kernel.Sc

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

set_option maxHeartbeats 2000000 in
/-- What the body's one store leaves in the second output's staging memref, as pieces, where the condition fails, with
    the proof that on whole staging memrefs — the row block's and the scratch at their contents, the output's at anything
    — the body runs to the continuation holding those two as they were and the output's with the piece written. -/
noncomputable def kernelRun0_B (c : Dev nD) (i : grid0.Coords) (arg1 : Memref sig .tc .vmem S1x1 .f32) (harg1 : arg1.IsWhole) (arg2 : Memref sig .tc .vmem S4096x256 .f32) (harg2 : arg2.IsWhole)
    (arg3 : Memref sig .tc .vmem S256x128 .f32) (harg3 : arg3.IsWhole) (arg4 : Memref sig .tc .vmem S512x4096 .f32) (harg4 : arg4.IsWhole) (arg5 : Memref sig .tc .vmem S4096x128 .f32) (harg5 : arg5.IsWhole)
    (arg6 : Memref sig .tc .vmem S512x128 .f32) (harg6 : arg6.IsWhole) (arg7 : Memref sig .tc .vmem S4096x128 .f32) (harg7 : arg7.IsWhole) (hc0 : ¬ k0_cond1 i = 1#1)
    (x3 : Vec F S512x4096 .f32) (x7 : Vec F S4096x128 .f32) :
    { L : List (View.Piece (Elt F) S512x128 .f32) //
      ∀ (E : Set ℕ) (K : PUnit → sProp 𝕄),
        iprop(owns (c : Thread nD τ) arg4 fullShare x3 ∗ owns (c : Thread nD τ) arg7 fullShare x7 ∗ (∃ d, owns (c : Thread nD τ) arg6 fullShare d)
            ∗ (iprop(owns (c : Thread nD τ) arg4 fullShare x3 ∗ owns (c : Thread nD τ) arg7 fullShare x7
                ∗ (∃ f, arg6.view.loc (c : Thread nD τ) ↦[arg6.view.set]{fullShare} arg6.view.writes (Elt F) f L)) -∗ K ⟨⟩))
          ⊢ wp frame (wpE (defs₀ (F := F)) Variants.none c none) E (cc0__k_sup_agg i arg1 harg1 arg2 harg2 arg3 harg3 arg4 harg4 arg5 harg5 arg6 harg6 arg7 harg7) K } := by
  refine ⟨?_, fun E K => ?run⟩
  case run =>
    simp only [cc0__k_sup_agg_eq_skeleton]; unfold cc0__k_sup_agg_skel
    unfold owns
    iintro ⟨⟨%f3, %hf3, H3⟩, ⟨%f7, %hf7, H7⟩, ⟨%d6, %f6, -, H6⟩, Hk⟩
    obtain rfl := harg4.eq_unread hf3
    obtain rfl := harg7.eq_unread hf7
    sl_exec (disch := first | exact hc0)
    sl_step
    iapply Hk
    isplitl [H3]
    · iexists _; isplitr; · ipureintro; exact harg4.read_unread _
      iexact H3
    isplitl [H7]
    · iexists _; isplitr; · ipureintro; exact harg7.read_unread _
      iexact H7
    iexists _; iexact H6

end Cert.Kernel.Tc

end
-- ==== Proof.Tc0BodyK.lean ====
/-
  The first pallas_call (grid of 8 row blocks; a scratch carried between points; the first output stored at the first
  point only and written back after the last): its proof data over a valuation of the TensorCore's buffers, what the body
  finds in and leaves in each staging buffer, and the body obligation from the body's two runs.
    first point: scratch := shifted exponentials sm; first output := support · sm; then, at every point,
    second output's block t := Newton-refined reciprocal of (adjacency block t · sm + 1e-6).
-/
import proofs.«208470_g86148454023375_cont_sun_c4_654_45_alg».proof.Proof.ScSetupK
import proofs.«208470_g86148454023375_cont_sun_c4_654_45_alg».proof.Proof.Gen.Kernel.Launch
import proofs.«208470_g86148454023375_cont_sun_c4_654_45_alg».proof.Proof.Gen.Kernel.Skeleton
import proofs.«208470_g86148454023375_cont_sun_c4_654_45_alg».proof.Proof.Gen.Kernel.Points
import proofs.«208470_g86148454023375_cont_sun_c4_654_45_alg».proof.Proof.Tc2BodyK
import proofs.«208470_g86148454023375_cont_sun_c4_654_45_alg».proof.Proof.Tc0RunAK
import proofs.«208470_g86148454023375_cont_sun_c4_654_45_alg».proof.Proof.Tc0RunBK
import Idealize.ShloMosaic.Lib.Pipeline.TableIdle
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Tc

open Cert.Kernel Cert.Kernel.Gen Cert.Kernel.Sc

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (𝕧 : Val𝕍 F) (O : Dev nD → CellTallies nD τ sig (HIx 1)) (b : ℕ)

/-! ## The windows' blocks -/

/-- Window `w`'s block at point `t`, read off its array at the valuation. -/
def iblk0 (c : Dev nD) (w : Fin cfg0.W) (t : Fin cfg0.N) : ((cfg0.win w).xblock (cfg0.grid.coords t)).Idx → Elt F (cfg0.win w).elt :=
  ((cfg0.win w).blk t).view.read (Elt F) (𝕧 c (Pipeline.arrRef spec0 w))

theorem before0_0_of {c : Dev nD} (dat : Dat τ (Elt F) (HIx 1) ℕ UU ℕ cfg0 c) (hA : dat.A 0 = 𝕧 c (Pipeline.arrRef spec0 0))
    (hafter : ∀ t, dat.after 0 t = iblk0 𝕧 c 0 t) (t : Fin cfg0.N) (d) : dat.before 0 t d = iblk0 𝕧 c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) (HIx 1) ℕ UU ℕ cfg0 c) (hA : dat.A 1 = 𝕧 c (Pipeline.arrRef spec0 1))
    (hafter : ∀ t, dat.after 1 t = iblk0 𝕧 c 1 t) (t : Fin cfg0.N) (d) : dat.before 1 t d = iblk0 𝕧 c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) (HIx 1) ℕ UU ℕ cfg0 c) (hA : dat.A 2 = 𝕧 c (Pipeline.arrRef spec0 2))
    (hafter : ∀ t, dat.after 2 t = iblk0 𝕧 c 2 t) (t : Fin cfg0.N) (d) : dat.before 2 t d = iblk0 𝕧 c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) (HIx 1) ℕ UU ℕ cfg0 c) (hA : dat.A 3 = 𝕧 c (Pipeline.arrRef spec0 3))
    (hafter : ∀ t, dat.after 3 t = iblk0 𝕧 c 3 t) (t : Fin cfg0.N) (d) : dat.before 3 t d = iblk0 𝕧 c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The schedule's facts -/

/-- The body's condition holds at the first point only. -/
theorem hcond0 : ∀ t : Fin cfg0.N, k0_cond1 (grid0.coords t) = 1#1 ↔ t.val = 0 :=
  (by decide +kernel : ∀ t : Fin grid0.N, k0_cond1 (grid0.coords t) = 1#1 ↔ t.val = 0)

/-- The first output's window is idle exactly where the condition fails. -/
theorem idle0_4 : ∀ t : Fin cfg0.N, cfg0.idle 4 (cfg0.grid.coords t) = decide (t.val ≠ 0) :=
  (by decide +kernel : ∀ t : Fin grid0.N, idle0 4 (grid0.coords t) = decide (t.val ≠ 0))

/-- Its buffer holds nothing stored at the first point only. -/
theorem fresh0_4 : ∀ t : Fin cfg0.N, cfg0.fresh 4 t.val = decide (t.val = 0) :=
  (by decide +kernel : ∀ t : Fin grid0.N, cfg0.fresh 4 t.val = decide (t.val = 0))

/-! ## The staging memrefs at a point -/

abbrev ms0_0 (t : Fin cfg0.N) : Memref sig .tc .vmem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
/-- The scratch. -/
abbrev scM0 : Memref sig .tc .vmem S4096x128 .f32 := Memref.whole cc0_scratch0

/-! ## The body's two runs at the pipeline's memrefs -/

/-- The run at a point where the condition holds. -/
def runA (c : Dev nD) (t : Fin cfg0.N) (hz : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t)
    scM0 (Memref.isWhole_whole _) ((hcond0 t).mpr hz) (iblk0 𝕧 c 0 t) (iblk0 𝕧 c 1 t) (iblk0 𝕧 c 2 t) (iblk0 𝕧 c 3 t)

/-- What the first point leaves in the scratch, -/
def smK (c : Dev nD) : Vec F S4096x128 .f32 := View.canon (runA 𝕧 c t0_0 rfl).1.2.2
/-- in the first output's buffer, -/
def prodK (c : Dev nD) : Vec F S4096x128 .f32 := View.canon (runA 𝕧 c t0_0 rfl).1.1

/-- The run at a point where the condition fails, the scratch at what the first point left. -/
def runB (c : Dev nD) (t : Fin cfg0.N) (hz : t.val ≠ 0) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t)
    scM0 (Memref.isWhole_whole _) (fun h => hz ((hcond0 t).mp h)) (iblk0 𝕧 c 3 t) (smK 𝕧 c)

/-- and what each point leaves in the second output's buffer. -/
def recipAt (c : Dev nD) (t : Fin cfg0.N) : Vec F S512x128 .f32 :=
  if hz : t.val = 0 then View.canon (runA 𝕧 c t hz).1.2.1 else View.canon (runB 𝕧 c t hz).1

theorem coverA_5 (c : Dev nD) (t : Fin cfg0.N) (hz : t.val = 0) (y : S4096x128.Idx) : ∃ pc ∈ (runA 𝕧 c t hz).1.1, y ∈ pc.1.set :=
  View.cover_of_tiledL (runA 𝕧 c t hz).1.1 S4096x128.size (by sl_kernel_rfl) y
theorem coverA_6 (c : Dev nD) (t : Fin cfg0.N) (hz : t.val = 0) (y : S512x128.Idx) : ∃ pc ∈ (runA 𝕧 c t hz).1.2.1, y ∈ pc.1.set :=
  View.cover_of_tiledL (runA 𝕧 c t hz).1.2.1 S512x128.size (by sl_kernel_rfl) y
theorem coverA_7 (c : Dev nD) (t : Fin cfg0.N) (hz : t.val = 0) (y : S4096x128.Idx) : ∃ pc ∈ (runA 𝕧 c t hz).1.2.2, y ∈ pc.1.set :=
  View.cover_of_tiledL (runA 𝕧 c t hz).1.2.2 S4096x128.size (by sl_kernel_rfl) y
theorem coverB_6 (c : Dev nD) (t : Fin cfg0.N) (hz : t.val ≠ 0) (y : S512x128.Idx) : ∃ pc ∈ (runB 𝕧 c t hz).1, y ∈ pc.1.set :=
  View.cover_of_tiledL (runB 𝕧 c t hz).1 S512x128.size (by sl_kernel_rfl) y

/-! ## The region's invariant: the scoped buffers no window stages, the scratch carried from the first point on -/

/-- The other pipeline's staging buffers, at anything. -/
def rest0 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

theorem scopedRest0_split (c : Dev nD) :
    (Pipeline.scopedRest (Ix := HIx 1) (Name := ℕ) (U := UU) (Lvl := ℕ) (Val := Elt F) spec0 c : sProp 𝕄)
      = iprop((∃ d, owns (c : Thread nD τ) scM0 fullShare d) ∗ rest0 c) := by
  rw [scopedRest0_eq]; unfold rest0; simp only [scM0, owns_whole]; try rfl

/-- Before point `n`: at the first point every scratch at anything; afterwards the carried scratch at what the first point left. -/
def Phi0 (c : Dev nD) : ℕ → sProp 𝕄
  | 0 => Pipeline.scopedRest spec0 c
  | _ + 1 => iprop(owns (c : Thread nD τ) scM0 fullShare (smK 𝕧 c) ∗ rest0 c)

theorem Phi0_pos (c : Dev nD) (n : ℕ) (hn : n ≠ 0) : Phi0 𝕧 c n = iprop(owns (c : Thread nD τ) scM0 fullShare (smK 𝕧 c) ∗ rest0 c) := by
  cases n with
  | zero => exact absurd rfl hn
  | succ n => rfl

/-! ## The pipeline's proof data -/

def dat0 (c : Dev nD) : Dat τ (Elt F) (HIx 1) ℕ UU ℕ cfg0 c where
  A w := 𝕧 c (Pipeline.arrRef spec0 w)
  after w t := match w with
    | ⟨0, _⟩ => iblk0 𝕧 c 0 t
    | ⟨1, _⟩ => iblk0 𝕧 c 1 t
    | ⟨2, _⟩ => iblk0 𝕧 c 2 t
    | ⟨3, _⟩ => iblk0 𝕧 c 3 t
    | ⟨4, _⟩ => prodK 𝕧 c
    | ⟨5, _⟩ => recipAt 𝕧 c t
  Φ t := Phi0 𝕧 c t.val
  q _ := fullShare
  owed _ := O c
  recorded _ := {p | (K (F := F)).lev ((c : Thread nD τ), p.1) p.2 ≤ b}

theorem A0_eq (c : Dev nD) (w : Fin cfg0.W) : (dat0 𝕧 O b c).A w = 𝕧 c (Pipeline.arrRef spec0 w) := by
  dsimp only [dat0]

theorem after0_0 (c : Dev nD) (t : Fin cfg0.N) : (dat0 𝕧 O b c).after 0 t = iblk0 𝕧 c 0 t := by dsimp only [dat0]
theorem after0_1 (c : Dev nD) (t : Fin cfg0.N) : (dat0 𝕧 O b c).after 1 t = iblk0 𝕧 c 1 t := by dsimp only [dat0]
theorem after0_2 (c : Dev nD) (t : Fin cfg0.N) : (dat0 𝕧 O b c).after 2 t = iblk0 𝕧 c 2 t := by dsimp only [dat0]
theorem after0_3 (c : Dev nD) (t : Fin cfg0.N) : (dat0 𝕧 O b c).after 3 t = iblk0 𝕧 c 3 t := by dsimp only [dat0]
theorem after0_4 (c : Dev nD) (t : Fin cfg0.N) : (dat0 𝕧 O b c).after 4 t = prodK 𝕧 c := by dsimp only [dat0]
theorem after0_5 (c : Dev nD) (t : Fin cfg0.N) : (dat0 𝕧 O b c).after 5 t = recipAt 𝕧 c t := by dsimp only [dat0]

theorem before0_0 (c : Dev nD) (t : Fin cfg0.N) (d) : (dat0 𝕧 O b c).before 0 t d = iblk0 𝕧 c 0 t :=
  before0_0_of 𝕧 (dat0 𝕧 O b c) (A0_eq 𝕧 O b c 0) (after0_0 𝕧 O b c) t d
theorem before0_1 (c : Dev nD) (t : Fin cfg0.N) (d) : (dat0 𝕧 O b c).before 1 t d = iblk0 𝕧 c 1 t :=
  before0_1_of 𝕧 (dat0 𝕧 O b c) (A0_eq 𝕧 O b c 1) (after0_1 𝕧 O b c) t d
theorem before0_2 (c : Dev nD) (t : Fin cfg0.N) (d) : (dat0 𝕧 O b c).before 2 t d = iblk0 𝕧 c 2 t :=
  before0_2_of 𝕧 (dat0 𝕧 O b c) (A0_eq 𝕧 O b c 2) (after0_2 𝕧 O b c) t d
theorem before0_3 (c : Dev nD) (t : Fin cfg0.N) (d) : (dat0 𝕧 O b c).before 3 t d = iblk0 𝕧 c 3 t :=
  before0_3_of 𝕧 (dat0 𝕧 O b c) (A0_eq 𝕧 O b c 3) (after0_3 𝕧 O b c) t d

/-- After the first point the first output's buffer holds what the first point stored: no later point stores into it, none but
    the last writes it back. -/
theorem before0_4_pos (c : Dev nD) (t : Fin cfg0.N) (hz : t.val ≠ 0) (d) : (dat0 𝕧 O b c).before 4 t d = prodK 𝕧 c := by
  rw [Dat.before_out_traj (dat0 𝕧 O b c) 4 rfl (fun _ _ => rfl) (fun _ _ _ _ => by dsimp only [dat0]) t.val t rfl d, fresh0_4,
    if_neg (by simpa using hz)]
  dsimp only [dat0]

end Cert.Kernel.Tc

end
-- ==== Proof.Tc0OblK.lean ====
/-
  The first pallas_call's body obligation: at the first point the body fills the scratch and both outputs' buffers; at
  every later point it reads the carried scratch and stores the second output's block, leaving the first output's
  buffer as the first point left it.
-/
import proofs.«208470_g86148454023375_cont_sun_c4_654_45_alg».proof.Proof.ScSetupK
import proofs.«208470_g86148454023375_cont_sun_c4_654_45_alg».proof.Proof.Gen.Kernel.Launch
import proofs.«208470_g86148454023375_cont_sun_c4_654_45_alg».proof.Proof.Gen.Kernel.Skeleton
import proofs.«208470_g86148454023375_cont_sun_c4_654_45_alg».proof.Proof.Gen.Kernel.Points
import proofs.«208470_g86148454023375_cont_sun_c4_654_45_alg».proof.Proof.Tc0BodyK
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Tc

open Cert.Kernel Cert.Kernel.Gen Cert.Kernel.Sc

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (𝕧 : Val𝕍 F) (O : Dev nD → CellTallies nD τ sig (HIx 1)) (b : ℕ)

def bodyPre0 (c : Dev nD) (t : Fin cfg0.N) : sProp 𝕄 :=
  iprop((dat0 𝕧 O b c).Φ t.castSucc ∗ (dat0 𝕧 O b c).owesAt none t.castSucc
    ∗ (∃ d, owns (c : Thread nD τ) (ms0_0 t) fullShare ((dat0 𝕧 O b c).before 0 t d))
    ∗ (∃ d, owns (c : Thread nD τ) (ms0_1 t) fullShare ((dat0 𝕧 O b c).before 1 t d))
    ∗ (∃ d, owns (c : Thread nD τ) (ms0_2 t) fullShare ((dat0 𝕧 O b c).before 2 t d))
    ∗ (∃ d, owns (c : Thread nD τ) (ms0_3 t) fullShare ((dat0 𝕧 O b c).before 3 t d))
    ∗ (∃ d, owns (c : Thread nD τ) (ms0_4 t) fullShare ((dat0 𝕧 O b c).before 4 t d))
    ∗ (∃ d, owns (c : Thread nD τ) (ms0_5 t) fullShare ((dat0 𝕧 O b c).before 5 t d)))

def bodyPost0 (c : Dev nD) (t : Fin cfg0.N) : sProp 𝕄 :=
  iprop((dat0 𝕧 O b c).Φ t.succ ∗ (dat0 𝕧 O b c).owesAt none t.succ
    ∗ (dat0 𝕧 O b c).leavesExact 0 t
    ∗ (dat0 𝕧 O b c).leavesExact 1 t
    ∗ (dat0 𝕧 O b c).leavesExact 2 t
    ∗ (dat0 𝕧 O b c).leavesExact 3 t
    ∗ (dat0 𝕧 O b c).leavesExact 4 t
    ∗ (dat0 𝕧 O b c).leavesExact 5 t)

theorem leaves0_0 (c : Dev nD) (t : Fin cfg0.N) : (dat0 𝕧 O b c).leavesExact 0 t = owns (c : Thread nD τ) (ms0_0 t) fullShare (iblk0 𝕧 c 0 t) := by
  unfold Dat.leavesExact; rw [show cfg0.idle 0 (cfg0.grid.coords t) = false from rfl, after0_0]
theorem leaves0_1 (c : Dev nD) (t : Fin cfg0.N) : (dat0 𝕧 O b c).leavesExact 1 t = owns (c : Thread nD τ) (ms0_1 t) fullShare (iblk0 𝕧 c 1 t) := by
  unfold Dat.leavesExact; rw [show cfg0.idle 1 (cfg0.grid.coords t) = false from rfl, after0_1]
theorem leaves0_2 (c : Dev nD) (t : Fin cfg0.N) : (dat0 𝕧 O b c).leavesExact 2 t = owns (c : Thread nD τ) (ms0_2 t) fullShare (iblk0 𝕧 c 2 t) := by
  unfold Dat.leavesExact; rw [show cfg0.idle 2 (cfg0.grid.coords t) = false from rfl, after0_2]
theorem leaves0_3 (c : Dev nD) (t : Fin cfg0.N) : (dat0 𝕧 O b c).leavesExact 3 t = owns (c : Thread nD τ) (ms0_3 t) fullShare (iblk0 𝕧 c 3 t) := by
  unfold Dat.leavesExact; rw [show cfg0.idle 3 (cfg0.grid.coords t) = false from rfl, after0_3]
theorem leaves0_5 (c : Dev nD) (t : Fin cfg0.N) : (dat0 𝕧 O b c).leavesExact 5 t = owns (c : Thread nD τ) (ms0_5 t) fullShare (recipAt 𝕧 c t) := by
  unfold Dat.leavesExact; rw [show cfg0.idle 5 (cfg0.grid.coords t) = false from rfl, after0_5]
/-- The first output's buffer: stored at the first point; -/
theorem leaves0_4_first (c : Dev nD) (t : Fin cfg0.N) (hz : t.val = 0) :
    (dat0 𝕧 O b c).leavesExact 4 t = owns (c : Thread nD τ) (ms0_4 t) fullShare (prodK 𝕧 c) := by
  unfold Dat.leavesExact; rw [idle0_4 t, show decide (t.val ≠ 0) = false from by simpa using hz, after0_4]
/-- untouched and kept at the middle points; -/
theorem leaves0_4_mid (c : Dev nD) (t : Fin cfg0.N) (hz : t.val ≠ 0) (h7 : t.val ≠ 7) :
    (dat0 𝕧 O b c).leavesExact 4 t = iprop(∃ d, owns (c : Thread nD τ) (ms0_4 t) fullShare ((dat0 𝕧 O b c).before 4 t d)) :=
  Dat.leavesExact_idle (dat0 𝕧 O b c) 4 t (by rw [idle0_4 t]; simpa using hz)
    (Bool.eq_false_iff.mpr fun h => by have := (flush0_4 t).mp h; have hN : t.val < 8 := lt_of_lt_of_eq t.isLt N_0; omega)
/-- untouched and written back at the last. -/
theorem leaves0_4_last (c : Dev nD) (t : Fin cfg0.N) (h7 : t.val = 7) :
    (dat0 𝕧 O b c).leavesExact 4 t = owns (c : Thread nD τ) (ms0_4 t) fullShare (prodK 𝕧 c) := by
  unfold Dat.leavesExact
  rw [idle0_4 t, show decide (t.val ≠ 0) = true from by simp [h7], show (cfg0.win 4).flush t = true from (flush0_4 t).mpr (by rw [h7]), after0_4]

set_option maxHeartbeats 4000000 in
/-- The body at any point. -/
theorem sound_body0 (c : Dev nD) (t : Fin cfg0.N) :
    bodyPre0 𝕧 O b c t ⊢ wp frame (wpE (defs₀ (F := F)) Variants.none c none) Set.univ (bodyAt0 t) (fun _ => bodyPost0 𝕧 O b c t) := by
  unfold bodyPre0 bodyPost0 bodyAt0
  simp only [before0_0, before0_1, before0_2, before0_3]
  rw [show (dat0 𝕧 O b c).owesAt none t.succ = (dat0 𝕧 O b c).owesAt none t.castSucc from rfl,
    show (dat0 𝕧 O b c).Φ t.succ = iprop(owns (c : Thread nD τ) scM0 fullShare (smK 𝕧 c) ∗ rest0 c) from rfl,
    leaves0_0, leaves0_1, leaves0_2, leaves0_3, leaves0_5]
  by_cases hz : t.val = 0
  · obtain rfl : t = t0_0 := Fin.ext hz
    rw [leaves0_4_first 𝕧 O b c t0_0 rfl,
      show (dat0 𝕧 O b c).Φ t0_0.castSucc = Pipeline.scopedRest spec0 c from rfl, scopedRest0_split]
    have hrecip : recipAt 𝕧 c t0_0 = View.canon (runA 𝕧 c t0_0 rfl).1.2.1 := by unfold recipAt; exact dif_pos (show (t0_0 : Fin cfg0.N).val = 0 from rfl)
    iintro ⟨⟨⟨%ds, HS⟩, HR⟩, Ho, ⟨%d0, H0⟩, ⟨%d1, H1⟩, ⟨%d2, H2⟩, ⟨%d3, H3⟩, ⟨%d4, H4⟩, ⟨%d5, H5⟩⟩
    iapply ((runA 𝕧 c t0_0 rfl).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexists _; iexact HS
    iintro ⟨H0, H1, H2, H3, ⟨%e5, H5'⟩, ⟨%e6, H6'⟩, ⟨%e7, H7'⟩⟩
    isplitl [H7' HR]
    · isplitl [H7']
      · unfold owns; iexists _; isplitr
        swap; · iexact H7'
        ipureintro; exact View.read_writes_eq_canon _ _ _ (coverA_7 𝕧 c t0_0 rfl)
      iexact HR
    isplitl [Ho]; · iexact Ho
    isplitl [H0]; · iexact H0
    isplitl [H1]; · iexact H1
    isplitl [H2]; · iexact H2
    isplitl [H3]; · iexact H3
    isplitl [H5']
    · unfold owns; iexists _; isplitr
      swap; · iexact H5'
      ipureintro; exact View.read_writes_eq_canon _ _ _ (coverA_5 𝕧 c t0_0 rfl)
    unfold owns; iexists _; isplitr
    swap; · iexact H6'
    ipureintro; exact (View.read_writes_eq_canon _ _ _ (coverA_6 𝕧 c t0_0 rfl)).trans hrecip.symm
  · rw [show (dat0 𝕧 O b c).Φ t.castSucc = Phi0 𝕧 c t.val from rfl, Phi0_pos 𝕧 c _ hz]
    have hrecip : recipAt 𝕧 c t = View.canon (runB 𝕧 c t hz).1 := by unfold recipAt; exact dif_neg hz
    by_cases h7 : t.val = 7
    · rw [leaves0_4_last 𝕧 O b c t h7]
      simp only [before0_4_pos 𝕧 O b c t hz]
      iintro ⟨⟨HS, HR⟩, Ho, ⟨%d0, H0⟩, ⟨%d1, H1⟩, ⟨%d2, H2⟩, ⟨%d3, H3⟩, ⟨%d4, H4⟩, ⟨%d5, H5⟩⟩
      iapply ((runB 𝕧 c t hz).2 Set.univ _)
      isplitl [H3]; · iexact H3
      isplitl [HS]; · iexact HS
      isplitl [H5]; · iexists _; iexact H5
      iintro ⟨H3, HS, ⟨%e6, H6'⟩⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H6'
      ipureintro; exact (View.read_writes_eq_canon _ _ _ (coverB_6 𝕧 c t hz)).trans hrecip.symm
    · rw [leaves0_4_mid 𝕧 O b c t hz h7]
      iintro ⟨⟨HS, HR⟩, Ho, ⟨%d0, H0⟩, ⟨%d1, H1⟩, ⟨%d2, H2⟩, ⟨%d3, H3⟩, ⟨%d4, H4⟩, ⟨%d5, H5⟩⟩
      iapply ((runB 𝕧 c t hz).2 Set.univ _)
      isplitl [H3]; · iexact H3
      isplitl [HS]; · iexact HS
      isplitl [H5]; · iexists _; iexact H5
      iintro ⟨H3, HS, ⟨%e6, H6'⟩⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H6'
      ipureintro; exact (View.read_writes_eq_canon _ _ _ (coverB_6 𝕧 c t hz)).trans hrecip.symm

/-- The library's body obligation, at every point. -/
theorem body_obligation0 (c : Dev nD) : BodyObligation (dat0 (F := F) 𝕧 O b c) (defs₀ (F := F)) Variants.none none Set.univ := fun t => by
  rw [bigSep_W0, bigSep_W0]
  exact sound_body0 𝕧 O b c t

end Cert.Kernel.Tc

end
-- ==== Proof.Tc2RegionK.lean ====
/-
  The output pallas_call as a region of the TensorCore's program inside the SparseCore launch: the region's record
  (entry, exit, wait evidence under what the TensorCore owes the SparseCores) and the rule for its custom call under the
  extended body table.
-/
import proofs.«208470_g86148454023375_cont_sun_c4_654_45_alg».proof.Proof.ScSetupK
import proofs.«208470_g86148454023375_cont_sun_c4_654_45_alg».proof.Proof.Gen.Kernel.Launch
import proofs.«208470_g86148454023375_cont_sun_c4_654_45_alg».proof.Proof.Gen.Kernel.Skeleton
import proofs.«208470_g86148454023375_cont_sun_c4_654_45_alg».proof.Proof.Gen.Kernel.Points
import proofs.«208470_g86148454023375_cont_sun_c4_654_45_alg».proof.Proof.Tc2BodyK
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Tc

open Cert.Kernel Cert.Kernel.Gen Cert.Kernel.Sc

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- No pipeline has a prefetched table. -/
abbrev adm : (p : Fin 2) → (pcfgs (F := F) p).Adm := fun p => (cfgs p).toPCfg_adm

variable (𝕧 : Val𝕍 F) (O : Dev nD → CellTallies nD τ sig (HIx 1)) (b : ℕ)

/-- Proof data for the other pipeline, which this region never consults. -/
def unread0 (c : Dev nD) : Dat τ (Elt F) (HIx 1) ℕ UU ℕ cfg0 c where
  A w := 𝕧 c (Pipeline.arrRef spec0 w)
  after w t := Dat.unnamed w t
  Φ _ := BI.emp
  q _ := fullShare
  owed _ := 0

/-- The family of proof data the output region is run with. -/
def pdats2 : (p : Fin 2) → (c : Dev nD) → Dat τ (Elt F) (HIx 1) ℕ UU ℕ (Pipeline.pin (pcfgs (F := F)) adm p) c
  | ⟨0, _⟩ => unread0 𝕧
  | ⟨1, _⟩ => dat2 𝕧 O b

/-- What the TensorCore owes, its recorded pairs at levels at most `b`. -/
def owesB (d : Dev nD) : sProp 𝕄 := iprop(∃ W, ⌜(K (F := F)).WBelow (T d) W b⌝ ∗ owes (T d) (O d) W)

/-- The four arrays the output region stages, whole: the three operands at the valuation, the result at `out`. -/
def arrs2 (d : Dev nD) (out : Buf (Elt F) ((d : Thread nD τ).loc main_v4)) : sProp 𝕄 :=
  iprop((((d : Thread nD τ).loc main_arg1) ↦{fullShare} 𝕧 d main_arg1) ∗ (((d : Thread nD τ).loc main_v2) ↦{fullShare} 𝕧 d main_v2)
    ∗ (((d : Thread nD τ).loc main_v3) ↦{fullShare} 𝕧 d main_v3) ∗ (((d : Thread nD τ).loc main_v4) ↦{fullShare} out))

theorem bigSep_Fin0 {M : Type} [URA M] (Φ : Fin 0 → sProp M) : bigSep Finset.univ Φ = (BI.emp : sProp M) :=
  bigSep_univ_eq_bigSepL [] (by decide) (by decide) Φ

theorem prefHeld2 (c : Dev nD) (q) (pf) : (Pipeline.prefHeld (Ix := HIx 1) (Name := ℕ) (U := UU) (Lvl := ℕ) (Val := Elt F) (pcfgs (F := F) 1).pre c q pf : sProp 𝕄) = BI.emp :=
  bigSep_Fin0 _

theorem pt_congr {ℓ : Loc nD τ sig} {f g : Buf (Elt F) ℓ} (h : f = g) : (ℓ ↦{fullShare} f : sProp 𝕄) ⊢ (ℓ ↦{fullShare} g : sProp 𝕄) := by rw [h]

theorem share2 (c : Dev nD) (w) : (pdats2 𝕧 O b 1 c).share w = fullShare := (dat2 𝕧 O b c).share_full (fun _ => rfl) w

variable (lv : GSem nD τ sig → HIx 1 → ℕ) (hlv : (K (F := F)).Refines lv) (hO : ∀ d g, O d g none = 0)

/-- The output region's record. -/
def reg2 : Pipeline.RegionSeg (pcfgs (F := F)) adm (pdats2 𝕧 O b) none defs₀ 𝒱₀ (K (F := F)).L lv 1 where
  win := winFacts2.to₀
  block_pos := block_pos2
  stage_whole := stage_whole2
  K := PEmpty
  osem k := k.elim
  ho := Pipeline.OwnSemFacts.none _
  hbody c := (body_obligation2 𝕧 O b c).loose
  hwaits c := Pipeline.cellsWaits_intro (Pipeline.pin (pcfgs (F := F)) adm) (pdats2 𝕧 O b) none 1 c
    (fun w s t => (K (F := F)).mayWait_none _ (hO c) lv hlv)
  pre c := iprop(arrs2 𝕧 c (𝕧 c main_v4) ∗ owesB O b c)
  post c := iprop(arrs2 𝕧 c ((dat2 𝕧 O b c).arrAt 3 cfg2.N) ∗ owesB O b c)
  X _ := BI.emp
  Y _ := BI.emp
  Z _ := BI.emp
  hentry c := by
    rw [Pipeline.ownSems0_none, Pipeline.arrays_eq (Pipeline.pin (pcfgs (F := F)) adm) (pdats2 𝕧 O b) 1 c arr_whole2 (share2 𝕧 O b c), bigSep_W2, prefHeld2]
    unfold arrs2 owesB
    iintro ⟨⟨⟨H0, H1, H2, H3⟩, ⟨%W, %hW, HO⟩⟩, -, -⟩
    imodintro
    isplitl [H0 H1 H2 H3]
    · isplitl [H0]; · iexact H0
      isplitl [H1]; · iexact H1
      isplitl [H2]; · iexact H2
      iexact H3
    isplitr; · iempintro
    isplitl [HO]
    · iexists W; isplitr; · ipureintro; exact fun p hp => Or.inl (hW p (Finset.mem_coe.mp hp))
      iexact HO
    isplitr <;> iempintro
  hin c := by
    rw [show (pdats2 𝕧 O b 1 c).Φ 0 = Pipeline.scopedRest spec2 c from rfl]
    iintro ⟨-, -, H⟩; iexact H
  hout c := by
    rw [show (pdats2 𝕧 O b 1 c).Φ (Fin.last _) = Pipeline.scopedRest spec2 c from rfl, Pipeline.ownSems0_none]
    iintro H
    isplitr; · iempintro
    isplitr; · iempintro
    iexact H
  hexit c := by
    rw [Pipeline.arrays_eq (Pipeline.pin (pcfgs (F := F)) adm) (pdats2 𝕧 O b) 1 c arr_whole2 (share2 𝕧 O b c), bigSep_W2]
    unfold arrs2 owesB
    have e0 : (dat2 𝕧 O b c).arrAt 0 cfg2.N = 𝕧 c main_arg1 := (dat2 𝕧 O b c).arrAt_in 0 rfl _
    have e1 : (dat2 𝕧 O b c).arrAt 1 cfg2.N = 𝕧 c main_v2 := (dat2 𝕧 O b c).arrAt_in 1 rfl _
    have e2 : (dat2 𝕧 O b c).arrAt 2 cfg2.N = 𝕧 c main_v3 := (dat2 𝕧 O b c).arrAt_in 2 rfl _
    iintro ⟨⟨H0, H1, H2, H3⟩, ⟨%W, %hW, HO⟩, -, -⟩
    imodintro
    isplitl [H0 H1 H2 H3]
    · isplitl [H0]; · iapply (pt_congr e0); iexact H0
      isplitl [H1]; · iapply (pt_congr e1); iexact H1
      isplitl [H2]; · iapply (pt_congr e2); iexact H2
      iexact H3
    iexists W; isplitr
    · ipureintro
      intro p hp
      rcases hW (Finset.mem_coe.mpr hp) with h | ⟨w, s, e⟩
      · exact h
      · rw [e]; exact Nat.zero_le _
    iexact HO

include hlv hO in
set_option backward.isDefEq.respectTransparency.types false in
/-- The output region inside the TensorCore's program: from the boundary, the level facts, the pipeline's staging cells'
    ghost state, what the TensorCore owes and the four arrays at the valuation, the custom call runs to the boundary, the
    same owed, the operands unchanged and the result array at what the pipeline computes. -/
theorem region2_raw (d : Dev nD) :
    iprop(boundary (T d) ∗ levAts (K (F := F)).L lv ∗ Pipeline.cellsGhost cfgs EP 1 d ∗ Pipeline.toksInit cfgs EP 1 d
        ∗ arrs2 𝕧 d (𝕧 d main_v4) ∗ owesB O b d)
      ⊢ wp frame (wpE ((K (F := F)).defs D) 𝒱 (T d) none) Set.univ (Prog.lift (.customCall (SparseCore.inner (Pipeline.entry 1)) ()))
          (fun _ => iprop(boundary (T d) ∗ arrs2 𝕧 d ((dat2 𝕧 O b d).arrAt 3 cfg2.N) ∗ owesB O b d)) := by
  have hprog : (Prog.lift (.customCall (SparseCore.inner (Pipeline.entry 1)) ()) : Prog (TpuEff nD τ sig (Elt F) (SparseCore.Sig (ΛP (F := F)) 1) .tc) PUnit)
      = SparseCore.liftProg (Prog.lift (.customCall (Pipeline.entry (1 : Fin 2)) ()) : Prog (TpuEff nD τ sig (Elt F) (ΛP (F := F)) .tc) PUnit) := rfl
  rw [hprog]
  refine BIBase.Entails.trans ?_ ((K (F := F)).wp_liftProg D 𝒱 (T d) Set.univ none _ _)
  refine BIBase.Entails.trans ?_ (Pipeline.RegionSeg.wp (pcfgs (F := F)) adm (pdats2 𝕧 O b) none cellOf_inj EP defs₀ 𝒱₀ (K (F := F)).L lv (reg2 𝕧 O b lv hlv hO) d none
    (fun _ h => (Option.not_mem_none _ h).elim) (fun u => .ret u) _)
  rw [show (reg2 𝕧 O b lv hlv hO).post d = iprop(arrs2 𝕧 d ((dat2 𝕧 O b d).arrAt 3 cfg2.N) ∗ owesB O b d) from rfl,
    show (reg2 𝕧 O b lv hlv hO).pre d = iprop(arrs2 𝕧 d (𝕧 d main_v4) ∗ owesB O b d) from rfl]
  iintro ⟨Hb, Hlev, Hg, Ht, Ha, Ho⟩
  isplitr
  · iintro ⟨Hb, Ha, Ho⟩
    rw [wp_ret]
    imodintro
    isplitl [Hb]; · iexact Hb
    isplitl [Ha]; · iexact Ha
    iexact Ho
  isplitl [Hb]; · iexact Hb
  isplitl [Ha Ho]
  · isplitl [Ha]; · iexact Ha
    iexact Ho
  isplitl [Hlev]; · iexact Hlev
  isplitl [Hg]; · iexact Hg
  iexact Ht

end Cert.Kernel.Tc

end
-- ==== Proof.Tc0RegionK.lean ====
/-
  The first pallas_call as a region of the TensorCore's program inside the SparseCore launch: the region's record and the
  rule for its custom call under the extended body table.
-/
import proofs.«208470_g86148454023375_cont_sun_c4_654_45_alg».proof.Proof.ScSetupK
import proofs.«208470_g86148454023375_cont_sun_c4_654_45_alg».proof.Proof.Gen.Kernel.Launch
import proofs.«208470_g86148454023375_cont_sun_c4_654_45_alg».proof.Proof.Gen.Kernel.Skeleton
import proofs.«208470_g86148454023375_cont_sun_c4_654_45_alg».proof.Proof.Gen.Kernel.Points
import proofs.«208470_g86148454023375_cont_sun_c4_654_45_alg».proof.Proof.Tc0OblK
import proofs.«208470_g86148454023375_cont_sun_c4_654_45_alg».proof.Proof.Tc2RegionK
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Tc

open Cert.Kernel Cert.Kernel.Gen Cert.Kernel.Sc

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (𝕧 : Val𝕍 F) (O : Dev nD → CellTallies nD τ sig (HIx 1)) (b : ℕ)

/-- Proof data for the other pipeline, which this region never consults. -/
def unread2 (c : Dev nD) : Dat τ (Elt F) (HIx 1) ℕ UU ℕ cfg2 c where
  A w := 𝕧 c (Pipeline.arrRef spec2 w)
  after w t := Dat.unnamed w t
  Φ _ := BI.emp
  q _ := fullShare
  owed _ := 0

/-- The family of proof data the first region is run with. -/
def pdats0 : (p : Fin 2) → (c : Dev nD) → Dat τ (Elt F) (HIx 1) ℕ UU ℕ (Pipeline.pin (pcfgs (F := F)) adm p) c
  | ⟨0, _⟩ => dat0 𝕧 O b
  | ⟨1, _⟩ => unread2 𝕧

/-- The six arrays the first region stages, whole: the four operands at the valuation, the two results at `prod`, `recip`. -/
def arrs0 (d : Dev nD) (prod : Buf (Elt F) ((d : Thread nD τ).loc main_v1_0)) (recip : Buf (Elt F) ((d : Thread nD τ).loc main_v1_1)) : sProp 𝕄 :=
  iprop((((d : Thread nD τ).loc main_v0) ↦{fullShare} 𝕧 d main_v0) ∗ (((d : Thread nD τ).loc main_arg0) ↦{fullShare} 𝕧 d main_arg0)
    ∗ (((d : Thread nD τ).loc main_arg5) ↦{fullShare} 𝕧 d main_arg5) ∗ (((d : Thread nD τ).loc main_arg2) ↦{fullShare} 𝕧 d main_arg2)
    ∗ (((d : Thread nD τ).loc main_v1_0) ↦{fullShare} prod) ∗ (((d : Thread nD τ).loc main_v1_1) ↦{fullShare} recip))

theorem prefHeld0 (c : Dev nD) (q) (pf) : (Pipeline.prefHeld (Ix := HIx 1) (Name := ℕ) (U := UU) (Lvl := ℕ) (Val := Elt F) (pcfgs (F := F) 0).pre c q pf : sProp 𝕄) = BI.emp :=
  bigSep_Fin0 _

theorem share0 (c : Dev nD) (w) : (pdats0 𝕧 O b 0 c).share w = fullShare := (dat0 𝕧 O b c).share_full (fun _ => rfl) w

variable (lv : GSem nD τ sig → HIx 1 → ℕ) (hlv : (K (F := F)).Refines lv) (hO : ∀ d g, O d g none = 0)

/-- The first region's record. -/
def reg0 : Pipeline.RegionSeg (pcfgs (F := F)) adm (pdats0 𝕧 O b) none defs₀ 𝒱₀ (K (F := F)).L lv 0 where
  win := winFacts0.to₀
  block_pos := block_pos0
  stage_whole := stage_whole0
  K := PEmpty
  osem k := k.elim
  ho := Pipeline.OwnSemFacts.none _
  hbody c := (body_obligation0 𝕧 O b c).loose
  hwaits c := Pipeline.cellsWaits_intro (Pipeline.pin (pcfgs (F := F)) adm) (pdats0 𝕧 O b) none 0 c
    (fun w s t => (K (F := F)).mayWait_none _ (hO c) lv hlv)
  pre c := iprop(arrs0 𝕧 c (𝕧 c main_v1_0) (𝕧 c main_v1_1) ∗ owesB O b c)
  post c := iprop(arrs0 𝕧 c ((dat0 𝕧 O b c).arrAt 4 cfg0.N) ((dat0 𝕧 O b c).arrAt 5 cfg0.N) ∗ owesB O b c)
  X _ := BI.emp
  Y _ := BI.emp
  Z _ := BI.emp
  hentry c := by
    rw [Pipeline.ownSems0_none, Pipeline.arrays_eq (Pipeline.pin (pcfgs (F := F)) adm) (pdats0 𝕧 O b) 0 c arr_whole0 (share0 𝕧 O b c), bigSep_W0, prefHeld0]
    unfold arrs0 owesB
    iintro ⟨⟨⟨H0, H1, H2, H3, H4, H5⟩, ⟨%W, %hW, HO⟩⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · iempintro
    isplitl [HO]
    · iexists W; isplitr; · ipureintro; exact fun p hp => Or.inl (hW p (Finset.mem_coe.mp hp))
      iexact HO
    isplitr <;> iempintro
  hin c := by
    rw [show (pdats0 𝕧 O b 0 c).Φ 0 = Pipeline.scopedRest spec0 c from rfl]
    iintro ⟨-, -, H⟩; iexact H
  hout c := by
    rw [show (pdats0 𝕧 O b 0 c).Φ (Fin.last _) = Phi0 𝕧 c (Fin.last cfg0.N).val from rfl,
      Phi0_pos 𝕧 c _ (by rw [Fin.val_last, show cfg0.N = 8 from N_0]; decide), Pipeline.ownSems0_none]
    show _ ⊢ iprop(BI.emp ∗ BI.emp ∗ Pipeline.scopedRest spec0 c)
    rw [scopedRest0_split]
    iintro ⟨HS, HR⟩
    isplitr; · iempintro
    isplitr; · iempintro
    isplitl [HS]; · iexists _; iexact HS
    iexact HR
  hexit c := by
    rw [Pipeline.arrays_eq (Pipeline.pin (pcfgs (F := F)) adm) (pdats0 𝕧 O b) 0 c arr_whole0 (share0 𝕧 O b c), bigSep_W0]
    unfold arrs0 owesB
    have e0 : (dat0 𝕧 O b c).arrAt 0 cfg0.N = 𝕧 c main_v0 := (dat0 𝕧 O b c).arrAt_in 0 rfl _
    have e1 : (dat0 𝕧 O b c).arrAt 1 cfg0.N = 𝕧 c main_arg0 := (dat0 𝕧 O b c).arrAt_in 1 rfl _
    have e2 : (dat0 𝕧 O b c).arrAt 2 cfg0.N = 𝕧 c main_arg5 := (dat0 𝕧 O b c).arrAt_in 2 rfl _
    have e3 : (dat0 𝕧 O b c).arrAt 3 cfg0.N = 𝕧 c main_arg2 := (dat0 𝕧 O b c).arrAt_in 3 rfl _
    iintro ⟨⟨H0, H1, H2, H3, H4, H5⟩, ⟨%W, %hW, HO⟩, -, -⟩
    imodintro
    isplitl [H0 H1 H2 H3 H4 H5]
    · isplitl [H0]; · iapply (pt_congr e0); iexact H0
      isplitl [H1]; · iapply (pt_congr e1); iexact H1
      isplitl [H2]; · iapply (pt_congr e2); iexact H2
      isplitl [H3]; · iapply (pt_congr e3); iexact H3
      isplitl [H4]; · iexact H4
      iexact H5
    iexists W; isplitr
    · ipureintro
      intro p hp
      rcases hW (Finset.mem_coe.mpr hp) with h | ⟨w, s, e⟩
      · exact h
      · rw [e]; exact Nat.zero_le _
    iexact HO

include hlv hO in
set_option backward.isDefEq.respectTransparency.types false in
/-- The first region inside the TensorCore's program: from the boundary, the level facts, the pipeline's staging cells'
    ghost state, what the TensorCore owes and the six arrays at the valuation, the custom call runs to the boundary, the
    same owed, the operands unchanged and the two result arrays at what the pipeline computes. -/
theorem region0_raw (d : Dev nD) :
    iprop(boundary (T d) ∗ levAts (K (F := F)).L lv ∗ Pipeline.cellsGhost cfgs EP 0 d ∗ Pipeline.toksInit cfgs EP 0 d
        ∗ arrs0 𝕧 d (𝕧 d main_v1_0) (𝕧 d main_v1_1) ∗ owesB O b d)
      ⊢ wp frame (wpE ((K (F := F)).defs D) 𝒱 (T d) none) Set.univ (Prog.lift (.customCall (SparseCore.inner (Pipeline.entry 0)) ()))
          (fun _ => iprop(boundary (T d) ∗ arrs0 𝕧 d ((dat0 𝕧 O b d).arrAt 4 cfg0.N) ((dat0 𝕧 O b d).arrAt 5 cfg0.N) ∗ owesB O b d)) := by
  have hprog : (Prog.lift (.customCall (SparseCore.inner (Pipeline.entry 0)) ()) : Prog (TpuEff nD τ sig (Elt F) (SparseCore.Sig (ΛP (F := F)) 1) .tc) PUnit)
      = SparseCore.liftProg (Prog.lift (.customCall (Pipeline.entry (0 : Fin 2)) ()) : Prog (TpuEff nD τ sig (Elt F) (ΛP (F := F)) .tc) PUnit) := rfl
  rw [hprog]
  refine BIBase.Entails.trans ?_ ((K (F := F)).wp_liftProg D 𝒱 (T d) Set.univ none _ _)
  refine BIBase.Entails.trans ?_ (Pipeline.RegionSeg.wp (pcfgs (F := F)) adm (pdats0 𝕧 O b) none cellOf_inj EP defs₀ 𝒱₀ (K (F := F)).L lv (reg0 𝕧 O b lv hlv hO) d none
    (fun _ h => (Option.not_mem_none _ h).elim) (fun u => .ret u) _)
  rw [show (reg0 𝕧 O b lv hlv hO).post d = iprop(arrs0 𝕧 d ((dat0 𝕧 O b d).arrAt 4 cfg0.N) ((dat0 𝕧 O b d).arrAt 5 cfg0.N) ∗ owesB O b d) from rfl,
    show (reg0 𝕧 O b lv hlv hO).pre d = iprop(arrs0 𝕧 d (𝕧 d main_v1_0) (𝕧 d main_v1_1) ∗ owesB O b d) from rfl]
  iintro ⟨Hb, Hlev, Hg, Ht, Ha, Ho⟩
  isplitr
  · iintro ⟨Hb, Ha, Ho⟩
    rw [wp_ret]
    imodintro
    isplitl [Hb]; · iexact Hb
    isplitl [Ha]; · iexact Ha
    iexact Ho
  isplitl [Hb]; · iexact Hb
  isplitl [Ha Ho]
  · isplitl [Ha]; · iexact Ha
    iexact Ho
  isplitl [Hlev]; · iexact Hlev
  isplitl [Hg]; · iexact Hg
  iexact Ht

end Cert.Kernel.Tc

end
-- ==== Proof.TcSpecK.lean ====
/-
  The two TensorCore kernels' results as whole-array functions of their argument arrays.
    support = x · w;  e = support * 2 sigmoid(p);  sm = exp(e - max e);  prod = support * sm;
    recip, row block k (512 rows) = the twice Newton-refined reciprocal of (adjacency row block k · sm + 1e-6);
    out, row block k (128 rows) = (T row block k) · msg + the bias row.
  Each is stated through the kernel bodies' own payload functions, at the row block that holds the row.
-/
import proofs.«208470_g86148454023375_cont_sun_c4_654_45_alg».proof.Proof.Gen.Kernel.Skeleton

noncomputable section

namespace Cert.Kernel.Tc

open Cert.Kernel Cert.Kernel.Gen
open Idealize.ShloMosaic

variable {F : FTy → Type} [FloatOps F]

/-- The index (r, c) of a matrix shape. -/
def ix2 {R C : ℕ} (r : Fin R) (c : Fin C) : (⟨2, ![R, C]⟩ : Shape).Idx :=
  fun a => Fin.cases (motive := fun a => (⟨2, ![R, C]⟩ : Shape).Coord a) r
    (fun a' => Fin.cases (motive := fun a' => (⟨2, ![R, C]⟩ : Shape).Coord a'.succ) c (fun z => z.elim0) a') a

@[simp] theorem ix2_zero {R C : ℕ} (r : Fin R) (c : Fin C) : ix2 r c 0 = r := rfl
@[simp] theorem ix2_one {R C : ℕ} (r : Fin R) (c : Fin C) : ix2 r c 1 = c := rfl

theorem ix2_eta {R C : ℕ} (i : (⟨2, ![R, C]⟩ : Shape).Idx) : ix2 (i 0) (i 1) = i := by
  funext a
  refine Fin.cases rfl (fun a' => ?_) a
  refine Fin.cases rfl (fun z => z.elim0) a'

/-- Rows [n k, n k + n) of a matrix with R rows. -/
def rowBlk {α : Type} {R C : ℕ} (n k : ℕ) (hk : n * (k + 1) ≤ R) (X : (⟨2, ![R, C]⟩ : Shape).Idx → α) : (⟨2, ![n, C]⟩ : Shape).Idx → α :=
  fun y => X (ix2 ⟨n * k + (y 0).val, by have h : (y 0).val < n := (y 0).isLt; have e : n * (k + 1) = n * k + n := Nat.mul_succ n k; omega⟩ (y 1))

/-- The first output: the support times its shifted exponentials. -/
def prodV (p11 : (⟨S1x1, .f32⟩ : BufTy).Contents (Elt F)) (x : (⟨S4096x256, .f32⟩ : BufTy).Contents (Elt F)) (w : (⟨S256x128, .f32⟩ : BufTy).Contents (Elt F)) :
    (⟨S4096x128, .f32⟩ : BufTy).Contents (Elt F) :=
  k0_pay4 p11 x w

/-- The shifted exponentials the first grid point leaves in the scratch. -/
def smV (p11 : (⟨S1x1, .f32⟩ : BufTy).Contents (Elt F)) (x : (⟨S4096x256, .f32⟩ : BufTy).Contents (Elt F)) (w : (⟨S256x128, .f32⟩ : BufTy).Contents (Elt F)) :
    (⟨S4096x128, .f32⟩ : BufTy).Contents (Elt F) :=
  k0_pay3 p11 x w

/-- The second output: row i is row (i mod 512) of the body's block at the 512-row block of the adjacency that holds row i. -/
def recipV (p11 : (⟨S1x1, .f32⟩ : BufTy).Contents (Elt F)) (x : (⟨S4096x256, .f32⟩ : BufTy).Contents (Elt F)) (w : (⟨S256x128, .f32⟩ : BufTy).Contents (Elt F))
    (adj : (⟨S4096x4096, .f32⟩ : BufTy).Contents (Elt F)) : (⟨S4096x128, .f32⟩ : BufTy).Contents (Elt F) :=
  fun i => k0_pay5 (rowBlk 512 ((i 0).val / 512) (by have h : (i 0).val < 4096 := (i 0).isLt; omega) adj) (smV p11 x w)
    (ix2 ⟨(i 0).val % 512, Nat.mod_lt _ (by decide)⟩ (i 1))

/-- The program's result: row i is row (i mod 128) of the body's block at the 128-row block of T that holds row i. -/
def outV (tm : (⟨S4096x16384, .f32⟩ : BufTy).Contents (Elt F)) (msg : (⟨S16384x128, .f32⟩ : BufTy).Contents (Elt F)) (b1 : (⟨S1x128, .f32⟩ : BufTy).Contents (Elt F)) :
    (⟨S4096x128, .f32⟩ : BufTy).Contents (Elt F) :=
  fun i => k2_pay1 (rowBlk 128 ((i 0).val / 128) (by have h : (i 0).val < 4096 := (i 0).isLt; omega) tm) msg b1
    (ix2 ⟨(i 0).val % 128, Nat.mod_lt _ (by decide)⟩ (i 1))

end Cert.Kernel.Tc

end
-- ==== Proof.Tc2ValueK.lean ====
/-
  The output pallas_call's result array as a whole-array function of its operands: what every grid point writes back
  is its 128-row block of that function, and the 32 blocks cover the array.
-/
import proofs.«208470_g86148454023375_cont_sun_c4_654_45_alg».proof.Proof.ScSetupK
import proofs.«208470_g86148454023375_cont_sun_c4_654_45_alg».proof.Proof.Gen.Kernel.Launch
import proofs.«208470_g86148454023375_cont_sun_c4_654_45_alg».proof.Proof.Gen.Kernel.Skeleton
import proofs.«208470_g86148454023375_cont_sun_c4_654_45_alg».proof.Proof.Gen.Kernel.Points
import proofs.«208470_g86148454023375_cont_sun_c4_654_45_alg».proof.Proof.Tc2BodyK
import proofs.«208470_g86148454023375_cont_sun_c4_654_45_alg».proof.Proof.TcSpecK
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Tc

open Cert.Kernel Cert.Kernel.Gen Cert.Kernel.Sc

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (𝕧 : Val𝕍 F) (O : Dev nD → CellTallies nD τ sig (HIx 1)) (b : ℕ)

theorem hz2 : (![0, 0] : Fin 2 → Nat) = fun _ => 0 := funext fun a => by fin_cases a <;> rfl

theorem rowBlk_congr {α : Type} {R C : ℕ} (n : ℕ) {k k' : ℕ} (e : k = k') (hk : n * (k + 1) ≤ R) (hk' : n * (k' + 1) ≤ R)
    (X : (⟨2, ![R, C]⟩ : Shape).Idx → α) : rowBlk n k hk X = rowBlk n k' hk' X := by subst e; rfl

/-- The body's result over its input blocks is its payload at them. -/
theorem out2_3_eq (x0 : Vec F S128x16384 .f32) (x1 : Vec F S16384x128 .f32) (x2 : Vec F S1x128 .f32) : out2_3 x0 x1 x2 = k2_pay1 x0 x1 x2 := by
  unfold out2_3
  rw [View.canon_unit_zero hz2]
  simp only [View.ld_unit_zero (S := S128x16384) hz2, View.ld_unit_zero (S := S16384x128) hz2, View.ld_unit_zero (S := S1x128) hz2]

/-- The printed index maps, decided over the grid: the first operand's and the result's blocks move down the rows with the
    point; the two others are whole. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of the whole-array function of the operands. -/
theorem flushed2_3_eq (c : Dev nD) (t : Fin cfg2.N) :
    (dat2 𝕧 O b c).flushed 3 t = ((cfg2.win 3).blk t).view.read (Elt F) (outV (𝕧 c main_arg1) (𝕧 c main_v2) (𝕧 c main_v3)) := by
  show (cfg2.win 3).cut (grid2.coords t) ((dat2 𝕧 O b c).after 3 t) = _
  rw [after2_3, out2_3_eq]
  obtain ⟨e00, e01, e10, e11, e20, e21, e30, e31⟩ := idx_facts2 t
  have hN : t.val < 32 := lt_of_lt_of_eq t.isLt N_2
  funext j
  show k2_pay1 (iblk2 𝕧 c 0 t) (iblk2 𝕧 c 1 t) (iblk2 𝕧 c 2 t) j = outV (𝕧 c main_arg1) (𝕧 c main_v2) (𝕧 c main_v3) (((cfg2.win 3).blk t).view.emb j)
  have hj0 : (j 0).val < 128 := (j 0).isLt
  have hi0 : ((((cfg2.win 3).blk t).view.emb j) 0).val = t.val * 128 + (j 0).val := by
    show win2_3.index t (0 : Fin 2) * 128 + 1 * (j 0).val = _; omega
  have hi1 : ((((cfg2.win 3).blk t).view.emb j) 1).val = (j 1).val := by
    show win2_3.index t (1 : Fin 2) * 128 + 1 * (j 1).val = _; omega
  unfold outV
  have ha : (iblk2 𝕧 c 0 t : Vec F S128x16384 .f32) = rowBlk 128 t.val (by omega) (𝕧 c main_arg1) := by
    funext y
    show 𝕧 c main_arg1 (((cfg2.win 0).blk t).view.emb y) = 𝕧 c main_arg1 (ix2 _ _)
    congr 1
    funext a; apply Fin.ext
    match a with
    | ⟨0, _⟩ => show win2_0.index t (0 : Fin 2) * 128 + 1 * (y 0).val = 128 * t.val + (y 0).val; omega
    | ⟨1, _⟩ => show win2_0.index t (1 : Fin 2) * 16384 + 1 * (y 1).val = (y 1).val; omega
  have hb : (iblk2 𝕧 c 1 t : Vec F S16384x128 .f32) = 𝕧 c main_v2 := by
    funext y
    show 𝕧 c main_v2 (((cfg2.win 1).blk t).view.emb y) = 𝕧 c main_v2 y
    congr 1
    funext a; apply Fin.ext
    match a with
    | ⟨0, _⟩ => show win2_1.index t (0 : Fin 2) * 16384 + 1 * (y 0).val = (y 0).val; omega
    | ⟨1, _⟩ => show win2_1.index t (1 : Fin 2) * 128 + 1 * (y 1).val = (y 1).val; omega
  have hc : (iblk2 𝕧 c 2 t : Vec F S1x128 .f32) = 𝕧 c main_v3 := by
    funext y
    show 𝕧 c main_v3 (((cfg2.win 2).blk t).view.emb y) = 𝕧 c main_v3 y
    congr 1
    funext a; apply Fin.ext
    match a with
    | ⟨0, _⟩ => show win2_2.index t (0 : Fin 2) * 1 + 1 * (y 0).val = (y 0).val; omega
    | ⟨1, _⟩ => show win2_2.index t (1 : Fin 2) * 128 + 1 * (y 1).val = (y 1).val; omega
  have hd : (j : S128x128.Idx) = ix2 ⟨((((cfg2.win 3).blk t).view.emb j) 0).val % 128, Nat.mod_lt _ (by decide)⟩ ((((cfg2.win 3).blk t).view.emb j) 1) := by
    funext a; apply Fin.ext
    match a with
    | ⟨0, _⟩ => show (j 0).val = ((((cfg2.win 3).blk t).view.emb j) 0).val % 128; omega
    | ⟨1, _⟩ => show (j 1).val = ((((cfg2.win 3).blk t).view.emb j) 1).val; omega
  rw [ha, hb, hc, rowBlk_congr 128 (show t.val = ((((cfg2.win 3).blk t).view.emb j) 0).val / 128 by omega)]
  exact congrArg _ hd

/-- An index of the array is in point `t`'s block iff each coordinate is in the block's range on its axis. -/
theorem mem_blk2_3 (t : Fin cfg2.N) (i : S4096x128.Idx) :
    i ∈ ((cfg2.win 3).blk t).view.set ↔ ∀ a : Fin 2, win2_3.index t a * S128x128.size a ≤ (i a).val ∧ (i a).val < win2_3.index t a * S128x128.size a + S128x128.size a := by
  show i ∈ ((View.whole main_v4).slice (win2_3.rect t)).set ↔ _
  rw [View.set_slice_whole, Rect.mem_set_unit]
  exact Iff.rfl

/-- The 32 blocks cover the array. -/
theorem cover2_arr (i : S4096x128.Idx) : ∃ t : Fin cfg2.N, (cfg2.win 3).flush t = true ∧ i ∈ ((cfg2.win 3).blk t).view.set := by
  have hi0 : (i 0).val < 4096 := (i 0).isLt
  have hi1 : (i 1).val < 128 := (i 1).isLt
  let t : Fin cfg2.N := ⟨(i 0).val / 128, lt_of_lt_of_eq (by omega : (i 0).val / 128 < 32) N_2.symm⟩
  obtain ⟨e00, e01, e10, e11, e20, e21, e30, e31⟩ := idx_facts2 t
  refine ⟨t, flush2_3 t, ?_⟩
  rw [mem_blk2_3]
  intro a
  match a with
  | ⟨0, _⟩ => show win2_3.index t (0 : Fin 2) * 128 ≤ (i 0).val ∧ (i 0).val < win2_3.index t (0 : Fin 2) * 128 + 128; rw [e30]; show (i 0).val / 128 * 128 ≤ _ ∧ _ < (i 0).val / 128 * 128 + 128; omega
  | ⟨1, _⟩ => show win2_3.index t (1 : Fin 2) * 128 ≤ (i 1).val ∧ (i 1).val < win2_3.index t (1 : Fin 2) * 128 + 128; omega

/-- THE ARRAY after the run. -/
theorem arrAt2_eq (c : Dev nD) : (dat2 𝕧 O b c).arrAt 3 cfg2.N = outV (𝕧 c main_arg1) (𝕧 c main_v2) (𝕧 c main_v3) :=
  (dat2 𝕧 O b c).arrAt_eq_of_cover 3 _ (fun t _ => flushed2_3_eq 𝕧 O b c t) cover2_arr

end Cert.Kernel.Tc

end
-- ==== Proof.Tc0PayK.lean ====
/-
  What the first kernel's body leaves, as its payload functions of the inputs' contents: the pieces its runs found, each
  one whole-buffer store, read back.
-/
import proofs.«208470_g86148454023375_cont_sun_c4_654_45_alg».proof.Proof.ScSetupK
import proofs.«208470_g86148454023375_cont_sun_c4_654_45_alg».proof.Proof.Gen.Kernel.Launch
import proofs.«208470_g86148454023375_cont_sun_c4_654_45_alg».proof.Proof.Gen.Kernel.Skeleton
import proofs.«208470_g86148454023375_cont_sun_c4_654_45_alg».proof.Proof.Gen.Kernel.Points
import proofs.«208470_g86148454023375_cont_sun_c4_654_45_alg».proof.Proof.Tc0RunAK
import proofs.«208470_g86148454023375_cont_sun_c4_654_45_alg».proof.Proof.Tc0RunBK
import Idealize.ShloMosaic.Lib.WholeRead
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Tc

open Cert.Kernel Cert.Kernel.Gen Cert.Kernel.Sc

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

theorem hz0 : (![0, 0] : Fin 2 → Nat) = fun _ => 0 := funext fun a => by fin_cases a <;> rfl

/-- A load of the whole of a whole memref held at the contents that read `X` reads `X`. -/
theorem readAt_unread_zero {κ : Kind} {sp : Space} {s : Shape} {e : EltTy} {m : Memref sig κ sp s e} (h : m.IsWhole) (X : s.Idx → Elt F e)
    {off : Fin s.rank → ℕ} (h0 : off = fun _ => 0) (inb : ∀ a, off a + s.size a ≤ s.size a) :
    View.readAt (Elt F) m.view (Rect.unit (s := s) off s.size inb).toLoadRect (h.unread X) = X := by
  subst h0
  funext x
  rw [h.readAt_unread]
  show X ((Rect.whole s).emb x) = X x
  rw [Rect.emb_whole_apply]

section Runs

variable (c : Dev nD) (i : grid0.Coords) (arg1 : Memref sig .tc .vmem S1x1 .f32) (harg1 : arg1.IsWhole) (arg2 : Memref sig .tc .vmem S4096x256 .f32) (harg2 : arg2.IsWhole)
    (arg3 : Memref sig .tc .vmem S256x128 .f32) (harg3 : arg3.IsWhole) (arg4 : Memref sig .tc .vmem S512x4096 .f32) (harg4 : arg4.IsWhole) (arg5 : Memref sig .tc .vmem S4096x128 .f32) (harg5 : arg5.IsWhole)
    (arg6 : Memref sig .tc .vmem S512x128 .f32) (harg6 : arg6.IsWhole) (arg7 : Memref sig .tc .vmem S4096x128 .f32) (harg7 : arg7.IsWhole)
    (x0 : Vec F S1x1 .f32) (x1 : Vec F S4096x256 .f32) (x2 : Vec F S256x128 .f32) (x3 : Vec F S512x4096 .f32) (x7 : Vec F S4096x128 .f32)

/-- Where the condition holds: the first output's buffer at the support times the shifted exponentials, -/
theorem canonA_5 (hc0 : k0_cond1 i = 1#1) :
    View.canon (kernelRun0_A (F := F) c i arg1 harg1 arg2 harg2 arg3 harg3 arg4 harg4 arg5 harg5 arg6 harg6 arg7 harg7 hc0 x0 x1 x2 x3).1.1 = k0_pay4 x0 x1 x2 := by
  unfold kernelRun0_A
  dsimp only
  rw [View.canon_unit_zero (S := S4096x128) hz0, readAt_unread_zero (s := S1x1) harg1 x0 hz0, readAt_unread_zero (s := S4096x256) harg2 x1 hz0, readAt_unread_zero (s := S256x128) harg3 x2 hz0]

/-- the scratch at the shifted exponentials, -/
theorem canonA_7 (hc0 : k0_cond1 i = 1#1) :
    View.canon (kernelRun0_A (F := F) c i arg1 harg1 arg2 harg2 arg3 harg3 arg4 harg4 arg5 harg5 arg6 harg6 arg7 harg7 hc0 x0 x1 x2 x3).1.2.2 = k0_pay3 x0 x1 x2 := by
  unfold kernelRun0_A kernelRun0_A.sl.H7_1
  dsimp only
  rw [View.canon_unit_zero (S := S4096x128) hz0, readAt_unread_zero (s := S1x1) harg1 x0 hz0, readAt_unread_zero (s := S4096x256) harg2 x1 hz0, readAt_unread_zero (s := S256x128) harg3 x2 hz0]

/-- the second output's buffer at the reciprocal block over the scratch just stored. -/
theorem canonA_6 (hc0 : k0_cond1 i = 1#1) :
    View.canon (kernelRun0_A (F := F) c i arg1 harg1 arg2 harg2 arg3 harg3 arg4 harg4 arg5 harg5 arg6 harg6 arg7 harg7 hc0 x0 x1 x2 x3).1.2.1 = k0_pay5 x3 (k0_pay3 x0 x1 x2) := by
  unfold kernelRun0_A kernelRun0_A.sl.v4 kernelRun0_A.sl.H7_1
  dsimp only
  rw [View.canon_unit_zero (S := S512x128) hz0, View.readCov_unit_zero (S := S4096x128) _ hz0, readAt_unread_zero (s := S512x4096) harg4 x3 hz0,
    readAt_unread_zero (s := S1x1) harg1 x0 hz0, readAt_unread_zero (s := S4096x256) harg2 x1 hz0, readAt_unread_zero (s := S256x128) harg3 x2 hz0]

/-- Where it fails: the second output's buffer at the reciprocal block over the carried scratch. -/
theorem canonB_6 (hc0 : ¬ k0_cond1 i = 1#1) :
    View.canon (kernelRun0_B (F := F) c i arg1 harg1 arg2 harg2 arg3 harg3 arg4 harg4 arg5 harg5 arg6 harg6 arg7 harg7 hc0 x3 x7).1 = k0_pay5 x3 x7 := by
  unfold kernelRun0_B
  dsimp only
  rw [View.canon_unit_zero (S := S512x128) hz0, readAt_unread_zero (s := S512x4096) harg4 x3 hz0, readAt_unread_zero (s := S4096x128) harg7 x7 hz0]

end Runs

end Cert.Kernel.Tc

end
-- ==== Proof.Tc0ValueK.lean ====
/-
  The first pallas_call's two result arrays as whole-array functions of its operands: the first output is written back
  once, whole, after the last point; of the second, every grid point writes back its 512-row block, and the 8 blocks
  cover it.
-/
import proofs.«208470_g86148454023375_cont_sun_c4_654_45_alg».proof.Proof.ScSetupK
import proofs.«208470_g86148454023375_cont_sun_c4_654_45_alg».proof.Proof.Gen.Kernel.Launch
import proofs.«208470_g86148454023375_cont_sun_c4_654_45_alg».proof.Proof.Gen.Kernel.Skeleton
import proofs.«208470_g86148454023375_cont_sun_c4_654_45_alg».proof.Proof.Gen.Kernel.Points
import proofs.«208470_g86148454023375_cont_sun_c4_654_45_alg».proof.Proof.Tc0BodyK
import proofs.«208470_g86148454023375_cont_sun_c4_654_45_alg».proof.Proof.Tc0PayK
import proofs.«208470_g86148454023375_cont_sun_c4_654_45_alg».proof.Proof.Tc2ValueK
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Tc

open Cert.Kernel Cert.Kernel.Gen Cert.Kernel.Sc

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (𝕧 : Val𝕍 F) (O : Dev nD → CellTallies nD τ sig (HIx 1)) (b : ℕ)

/-- The printed index maps, decided over the grid: the adjacency's and the second result's blocks move down the rows with
    the point; the others are whole. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks -/

theorem iblk0_0 (c : Dev nD) (t : Fin cfg0.N) : (iblk0 𝕧 c 0 t : Vec F S1x1 .f32) = 𝕧 c main_v0 := by
  obtain ⟨e00, e01, -⟩ := idx_facts0 t
  funext y
  show 𝕧 c main_v0 (((cfg0.win 0).blk t).view.emb y) = 𝕧 c main_v0 y
  congr 1
  funext a; apply Fin.ext
  match a with
  | ⟨0, _⟩ => show win0_0.index t (0 : Fin 2) * 1 + 1 * (y 0).val = (y 0).val; omega
  | ⟨1, _⟩ => show win0_0.index t (1 : Fin 2) * 1 + 1 * (y 1).val = (y 1).val; omega

theorem iblk0_1 (c : Dev nD) (t : Fin cfg0.N) : (iblk0 𝕧 c 1 t : Vec F S4096x256 .f32) = 𝕧 c main_arg0 := by
  obtain ⟨-, -, e10, e11, -⟩ := idx_facts0 t
  funext y
  show 𝕧 c main_arg0 (((cfg0.win 1).blk t).view.emb y) = 𝕧 c main_arg0 y
  congr 1
  funext a; apply Fin.ext
  match a with
  | ⟨0, _⟩ => show win0_1.index t (0 : Fin 2) * 4096 + 1 * (y 0).val = (y 0).val; omega
  | ⟨1, _⟩ => show win0_1.index t (1 : Fin 2) * 256 + 1 * (y 1).val = (y 1).val; omega

theorem iblk0_2 (c : Dev nD) (t : Fin cfg0.N) : (iblk0 𝕧 c 2 t : Vec F S256x128 .f32) = 𝕧 c main_arg5 := by
  obtain ⟨-, -, -, -, e20, e21, -⟩ := idx_facts0 t
  funext y
  show 𝕧 c main_arg5 (((cfg0.win 2).blk t).view.emb y) = 𝕧 c main_arg5 y
  congr 1
  funext a; apply Fin.ext
  match a with
  | ⟨0, _⟩ => show win0_2.index t (0 : Fin 2) * 256 + 1 * (y 0).val = (y 0).val; omega
  | ⟨1, _⟩ => show win0_2.index t (1 : Fin 2) * 128 + 1 * (y 1).val = (y 1).val; omega

theorem iblk0_3 (c : Dev nD) (t : Fin cfg0.N) :
    (iblk0 𝕧 c 3 t : Vec F S512x4096 .f32) = rowBlk 512 t.val (by have hN : t.val < 8 := lt_of_lt_of_eq t.isLt N_0; omega) (𝕧 c main_arg2) := by
  obtain ⟨-, -, -, -, -, -, e30, e31, -⟩ := idx_facts0 t
  funext y
  show 𝕧 c main_arg2 (((cfg0.win 3).blk t).view.emb y) = 𝕧 c main_arg2 (ix2 _ _)
  congr 1
  funext a; apply Fin.ext
  match a with
  | ⟨0, _⟩ => show win0_3.index t (0 : Fin 2) * 512 + 1 * (y 0).val = 512 * t.val + (y 0).val; omega
  | ⟨1, _⟩ => show win0_3.index t (1 : Fin 2) * 4096 + 1 * (y 1).val = (y 1).val; omega

/-! ## What the points leave, as the payload functions of the operands -/

theorem smK_eq (c : Dev nD) : smK 𝕧 c = smV (𝕧 c main_v0) (𝕧 c main_arg0) (𝕧 c main_arg5) := by
  unfold smK runA
  rw [canonA_7, iblk0_0, iblk0_1, iblk0_2]
  rfl

theorem prodK_eq (c : Dev nD) : prodK 𝕧 c = prodV (𝕧 c main_v0) (𝕧 c main_arg0) (𝕧 c main_arg5) := by
  unfold prodK runA
  rw [canonA_5, iblk0_0, iblk0_1, iblk0_2]
  rfl

theorem recipAt_eq (c : Dev nD) (t : Fin cfg0.N) :
    recipAt 𝕧 c t = k0_pay5 (rowBlk 512 t.val (by have hN : t.val < 8 := lt_of_lt_of_eq t.isLt N_0; omega) (𝕧 c main_arg2)) (smV (𝕧 c main_v0) (𝕧 c main_arg0) (𝕧 c main_arg5)) := by
  unfold recipAt
  split
  · unfold runA
    rw [canonA_6, iblk0_0, iblk0_1, iblk0_2, iblk0_3]
    rfl
  · unfold runB
    rw [canonB_6, smK_eq, iblk0_3]

/-! ## The first result -/

theorem flushed0_4_eq (c : Dev nD) (t : Fin cfg0.N) :
    (dat0 𝕧 O b c).flushed 4 t = ((cfg0.win 4).blk t).view.read (Elt F) (prodV (𝕧 c main_v0) (𝕧 c main_arg0) (𝕧 c main_arg5)) := by
  show (cfg0.win 4).cut (grid0.coords t) ((dat0 𝕧 O b c).after 4 t) = _
  rw [after0_4, prodK_eq]
  obtain ⟨-, -, -, -, -, -, -, -, e40, e41, -⟩ := idx_facts0 t
  funext j
  show prodV (𝕧 c main_v0) (𝕧 c main_arg0) (𝕧 c main_arg5) j = prodV (𝕧 c main_v0) (𝕧 c main_arg0) (𝕧 c main_arg5) (((cfg0.win 4).blk t).view.emb j)
  congr 1
  funext a; apply Fin.ext
  match a with
  | ⟨0, _⟩ => show (j 0).val = win0_4.index t (0 : Fin 2) * 4096 + 1 * (j 0).val; omega
  | ⟨1, _⟩ => show (j 1).val = win0_4.index t (1 : Fin 2) * 128 + 1 * (j 1).val; omega

theorem mem_blk0_4 (t : Fin cfg0.N) (i : S4096x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v1_0).slice (win0_4.rect t)).set ↔ _
  rw [View.set_slice_whole, Rect.mem_set_unit]
  exact Iff.rfl

theorem cover0_4_arr (i : S4096x128.Idx) : ∃ t : Fin cfg0.N, (cfg0.win 4).flush t = true ∧ i ∈ ((cfg0.win 4).blk t).view.set := by
  have hi0 : (i 0).val < 4096 := (i 0).isLt
  have hi1 : (i 1).val < 128 := (i 1).isLt
  obtain ⟨-, -, -, -, -, -, -, -, e40, e41, -⟩ := idx_facts0 t0_7
  refine ⟨t0_7, (flush0_4 t0_7).mpr rfl, ?_⟩
  rw [mem_blk0_4]
  intro a
  match a with
  | ⟨0, _⟩ => show win0_4.index t0_7 (0 : Fin 2) * 4096 ≤ (i 0).val ∧ (i 0).val < win0_4.index t0_7 (0 : Fin 2) * 4096 + 4096; omega
  | ⟨1, _⟩ => show win0_4.index t0_7 (1 : Fin 2) * 128 ≤ (i 1).val ∧ (i 1).val < win0_4.index t0_7 (1 : Fin 2) * 128 + 128; omega

/-- THE FIRST RESULT after the run. -/
theorem arrAt0_4_eq (c : Dev nD) : (dat0 𝕧 O b c).arrAt 4 cfg0.N = prodV (𝕧 c main_v0) (𝕧 c main_arg0) (𝕧 c main_arg5) :=
  (dat0 𝕧 O b c).arrAt_eq_of_cover 4 _ (fun t _ => flushed0_4_eq 𝕧 O b c t) cover0_4_arr

/-! ## The second result -/

theorem flushed0_5_eq (c : Dev nD) (t : Fin cfg0.N) :
    (dat0 𝕧 O b c).flushed 5 t = ((cfg0.win 5).blk t).view.read (Elt F) (recipV (𝕧 c main_v0) (𝕧 c main_arg0) (𝕧 c main_arg5) (𝕧 c main_arg2)) := by
  show (cfg0.win 5).cut (grid0.coords t) ((dat0 𝕧 O b c).after 5 t) = _
  rw [after0_5, recipAt_eq]
  obtain ⟨-, -, -, -, -, -, -, -, -, -, e50, e51⟩ := idx_facts0 t
  have hN : t.val < 8 := lt_of_lt_of_eq t.isLt N_0
  funext j
  show k0_pay5 _ _ j = recipV (𝕧 c main_v0) (𝕧 c main_arg0) (𝕧 c main_arg5) (𝕧 c main_arg2) (((cfg0.win 5).blk t).view.emb j)
  have hj0 : (j 0).val < 512 := (j 0).isLt
  have hi0 : ((((cfg0.win 5).blk t).view.emb j) 0).val = t.val * 512 + (j 0).val := by
    show win0_5.index t (0 : Fin 2) * 512 + 1 * (j 0).val = _; omega
  have hi1 : ((((cfg0.win 5).blk t).view.emb j) 1).val = (j 1).val := by
    show win0_5.index t (1 : Fin 2) * 128 + 1 * (j 1).val = _; omega
  unfold recipV
  have hd : (j : S512x128.Idx) = ix2 ⟨((((cfg0.win 5).blk t).view.emb j) 0).val % 512, Nat.mod_lt _ (by decide)⟩ ((((cfg0.win 5).blk t).view.emb j) 1) := by
    funext a; apply Fin.ext
    match a with
    | ⟨0, _⟩ => show (j 0).val = ((((cfg0.win 5).blk t).view.emb j) 0).val % 512; omega
    | ⟨1, _⟩ => show (j 1).val = ((((cfg0.win 5).blk t).view.emb j) 1).val; omega
  rw [rowBlk_congr 512 (show t.val = ((((cfg0.win 5).blk t).view.emb j) 0).val / 512 by omega)]
  exact congrArg _ hd

theorem mem_blk0_5 (t : Fin cfg0.N) (i : S4096x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v1_1).slice (win0_5.rect t)).set ↔ _
  rw [View.set_slice_whole, Rect.mem_set_unit]
  exact Iff.rfl

theorem cover0_5_arr (i : S4096x128.Idx) : ∃ t : Fin cfg0.N, (cfg0.win 5).flush t = true ∧ i ∈ ((cfg0.win 5).blk t).view.set := by
  have hi0 : (i 0).val < 4096 := (i 0).isLt
  have hi1 : (i 1).val < 128 := (i 1).isLt
  let t : Fin cfg0.N := ⟨(i 0).val / 512, lt_of_lt_of_eq (by omega : (i 0).val / 512 < 8) N_0.symm⟩
  obtain ⟨-, -, -, -, -, -, -, -, -, -, e50, e51⟩ := idx_facts0 t
  refine ⟨t, flush0_5 t, ?_⟩
  rw [mem_blk0_5]
  intro a
  match a with
  | ⟨0, _⟩ => show win0_5.index t (0 : Fin 2) * 512 ≤ (i 0).val ∧ (i 0).val < win0_5.index t (0 : Fin 2) * 512 + 512; rw [e50]; show (i 0).val / 512 * 512 ≤ _ ∧ _ < (i 0).val / 512 * 512 + 512; omega
  | ⟨1, _⟩ => show win0_5.index t (1 : Fin 2) * 128 ≤ (i 1).val ∧ (i 1).val < win0_5.index t (1 : Fin 2) * 128 + 128; omega

/-- THE SECOND RESULT after the run. -/
theorem arrAt0_5_eq (c : Dev nD) : (dat0 𝕧 O b c).arrAt 5 cfg0.N = recipV (𝕧 c main_v0) (𝕧 c main_arg0) (𝕧 c main_arg5) (𝕧 c main_arg2) :=
  (dat0 𝕧 O b c).arrAt_eq_of_cover 5 _ (fun t _ => flushed0_5_eq 𝕧 O b c t) cover0_5_arr

end Cert.Kernel.Tc

end
-- ==== Proof.TcRegionsK.lean ====
/-
  The two TensorCore regions in the form the TensorCore's program is proved from: explicit contents of the regions'
  arrays, the results at the whole-array functions of the operands.
-/
import proofs.«208470_g86148454023375_cont_sun_c4_654_45_alg».proof.Proof.ScSetupK
import proofs.«208470_g86148454023375_cont_sun_c4_654_45_alg».proof.Proof.Gen.Kernel.Launch
import proofs.«208470_g86148454023375_cont_sun_c4_654_45_alg».proof.Proof.Gen.Kernel.Skeleton
import proofs.«208470_g86148454023375_cont_sun_c4_654_45_alg».proof.Proof.Gen.Kernel.Points
import proofs.«208470_g86148454023375_cont_sun_c4_654_45_alg».proof.Proof.MainK
import proofs.«208470_g86148454023375_cont_sun_c4_654_45_alg».proof.Proof.Tc0RegionK
import proofs.«208470_g86148454023375_cont_sun_c4_654_45_alg».proof.Proof.Tc2RegionK
import proofs.«208470_g86148454023375_cont_sun_c4_654_45_alg».proof.Proof.Tc2ValueK
import proofs.«208470_g86148454023375_cont_sun_c4_654_45_alg».proof.Proof.Tc0ValueK
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Tc

open Cert.Kernel Cert.Kernel.Gen Cert.Kernel.Sc

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## Valuations that hold given contents at given buffers -/

/-- The valuation with `f` at buffer `r` of device `d`. -/
def setV (𝕧 : Val𝕍 F) (d : Dev nD) (r : Ref sig .tc) (f : Buf (Elt F) ((d : Thread nD τ).loc r)) : Val𝕍 F :=
  fun d' r' => if h : d' = d ∧ r' = r then (by obtain ⟨rfl, rfl⟩ := h; exact f) else 𝕧 d' r'

theorem setV_self (𝕧 : Val𝕍 F) (d : Dev nD) (r : Ref sig .tc) (f : Buf (Elt F) ((d : Thread nD τ).loc r)) : setV 𝕧 d r f d r = f := by
  unfold setV; rw [dif_pos ⟨rfl, rfl⟩]

theorem setV_ne (𝕧 : Val𝕍 F) (d : Dev nD) (r : Ref sig .tc) (f : Buf (Elt F) ((d : Thread nD τ).loc r)) (d' : Dev nD) (r' : Ref sig .tc) (h : r' ≠ r) :
    setV 𝕧 d r f d' r' = 𝕧 d' r' := by
  unfold setV; rw [dif_neg fun h' => h h'.2]

/-- Some valuation. -/
def anyV : Val𝕍 F := fun _ _ _ => Classical.arbitrary _

/-! ## The output region -/

/-- The valuation of the output region's arrays. -/
def val2 (d : Dev nD) (tm : Buf (Elt F) ((d : Thread nD τ).loc main_arg1)) (msg : Buf (Elt F) ((d : Thread nD τ).loc main_v2))
    (b1 : Buf (Elt F) ((d : Thread nD τ).loc main_v3)) (f4 : Buf (Elt F) ((d : Thread nD τ).loc main_v4)) : Val𝕍 F :=
  setV (setV (setV (setV anyV d main_arg1 tm) d main_v2 msg) d main_v3 b1) d main_v4 f4

theorem val2_arg1 (d tm msg b1 f4) : val2 (F := F) d tm msg b1 f4 d main_arg1 = tm := by
  unfold val2; rw [setV_ne _ _ _ _ _ _ (by decide), setV_ne _ _ _ _ _ _ (by decide), setV_ne _ _ _ _ _ _ (by decide), setV_self]
theorem val2_v2 (d tm msg b1 f4) : val2 (F := F) d tm msg b1 f4 d main_v2 = msg := by
  unfold val2; rw [setV_ne _ _ _ _ _ _ (by decide), setV_ne _ _ _ _ _ _ (by decide), setV_self]
theorem val2_v3 (d tm msg b1 f4) : val2 (F := F) d tm msg b1 f4 d main_v3 = b1 := by
  unfold val2; rw [setV_ne _ _ _ _ _ _ (by decide), setV_self]
theorem val2_v4 (d tm msg b1 f4) : val2 (F := F) d tm msg b1 f4 d main_v4 = f4 := by
  unfold val2; rw [setV_self]

/-- The output region: the result array at the product of its row blocks with the messages plus the bias row. -/
theorem region2 : Sc.Region2Spec (F := F) outV := by
  intro d O b hO tm msg b1 f4
  have h := region2_raw (val2 d tm msg b1 f4) (fun _ => O) b (K (F := F)).lev (K (F := F)).refines_self (fun _ => hO) d
  rw [arrAt2_eq] at h
  unfold arrs2 owesB at h
  rw [val2_arg1, val2_v2, val2_v3, val2_v4] at h
  unfold Sc.owesB'
  refine BIBase.Entails.trans ?_ (h.trans (wp_mono frame _ Set.univ fun _ => ?_))
  · iintro ⟨Hl, Hb, Hg, Ht, Ho, H1, H2, H3, H4⟩
    isplitl [Hb]; · iexact Hb
    isplitl [Hl]; · iexact Hl
    isplitl [Hg]; · iexact Hg
    isplitl [Ht]; · iexact Ht
    isplitl [H1 H2 H3 H4]
    · isplitl [H1]; · iexact H1
      isplitl [H2]; · iexact H2
      isplitl [H3]; · iexact H3
      iexact H4
    iexact Ho
  · iintro ⟨Hb, ⟨H1, H2, H3, H4⟩, Ho⟩
    isplitl [Hb]; · iexact Hb
    isplitl [Ho]; · iexact Ho
    isplitl [H1]; · iexact H1
    isplitl [H2]; · iexact H2
    isplitl [H3]; · iexact H3
    iexact H4

/-! ## The first region -/

/-- The valuation of the first region's arrays. -/
def val0 (d : Dev nD) (p11 : Buf (Elt F) ((d : Thread nD τ).loc main_v0)) (x : Buf (Elt F) ((d : Thread nD τ).loc main_arg0))
    (w : Buf (Elt F) ((d : Thread nD τ).loc main_arg5)) (adj : Buf (Elt F) ((d : Thread nD τ).loc main_arg2))
    (f10 : Buf (Elt F) ((d : Thread nD τ).loc main_v1_0)) (f11 : Buf (Elt F) ((d : Thread nD τ).loc main_v1_1)) : Val𝕍 F :=
  setV (setV (setV (setV (setV (setV anyV d main_v0 p11) d main_arg0 x) d main_arg5 w) d main_arg2 adj) d main_v1_0 f10) d main_v1_1 f11

theorem val0_v0 (d p11 x w adj f10 f11) : val0 (F := F) d p11 x w adj f10 f11 d main_v0 = p11 := by
  unfold val0; rw [setV_ne _ _ _ _ _ _ (by decide), setV_ne _ _ _ _ _ _ (by decide), setV_ne _ _ _ _ _ _ (by decide), setV_ne _ _ _ _ _ _ (by decide), setV_ne _ _ _ _ _ _ (by decide), setV_self]
theorem val0_arg0 (d p11 x w adj f10 f11) : val0 (F := F) d p11 x w adj f10 f11 d main_arg0 = x := by
  unfold val0; rw [setV_ne _ _ _ _ _ _ (by decide), setV_ne _ _ _ _ _ _ (by decide), setV_ne _ _ _ _ _ _ (by decide), setV_ne _ _ _ _ _ _ (by decide), setV_self]
theorem val0_arg5 (d p11 x w adj f10 f11) : val0 (F := F) d p11 x w adj f10 f11 d main_arg5 = w := by
  unfold val0; rw [setV_ne _ _ _ _ _ _ (by decide), setV_ne _ _ _ _ _ _ (by decide), setV_ne _ _ _ _ _ _ (by decide), setV_self]
theorem val0_arg2 (d p11 x w adj f10 f11) : val0 (F := F) d p11 x w adj f10 f11 d main_arg2 = adj := by
  unfold val0; rw [setV_ne _ _ _ _ _ _ (by decide), setV_ne _ _ _ _ _ _ (by decide), setV_self]
theorem val0_v10 (d p11 x w adj f10 f11) : val0 (F := F) d p11 x w adj f10 f11 d main_v1_0 = f10 := by
  unfold val0; rw [setV_ne _ _ _ _ _ _ (by decide), setV_self]
theorem val0_v11 (d p11 x w adj f10 f11) : val0 (F := F) d p11 x w adj f10 f11 d main_v1_1 = f11 := by
  unfold val0; rw [setV_self]

/-- The first region: the two result arrays at the support times its shifted exponentials and at the refined reciprocals
    of the adjacency's row sums over them. -/
theorem region0 : Sc.Region0Spec (F := F) prodV recipV := by
  intro d O b hO p11 x w adj f10 f11
  have h := region0_raw (val0 d p11 x w adj f10 f11) (fun _ => O) b (K (F := F)).lev (K (F := F)).refines_self (fun _ => hO) d
  rw [arrAt0_4_eq, arrAt0_5_eq] at h
  unfold arrs0 owesB at h
  rw [val0_v0, val0_arg0, val0_arg5, val0_arg2, val0_v10, val0_v11] at h
  unfold Sc.owesB'
  refine BIBase.Entails.trans ?_ (h.trans (wp_mono frame _ Set.univ fun _ => ?_))
  · iintro ⟨Hl, Hb, Hg, Ht, Ho, H0, H1, H2, H3, H4, H5⟩
    isplitl [Hb]; · iexact Hb
    isplitl [Hl]; · iexact Hl
    isplitl [Hg]; · iexact Hg
    isplitl [Ht]; · iexact Ht
    isplitl [H0 H1 H2 H3 H4 H5]
    · isplitl [H0]; · iexact H0
      isplitl [H1]; · iexact H1
      isplitl [H2]; · iexact H2
      isplitl [H3]; · iexact H3
      isplitl [H4]; · iexact H4
      iexact H5
    iexact Ho
  · iintro ⟨Hb, ⟨H0, H1, H2, H3, H4, H5⟩, Ho⟩
    isplitl [Hb]; · iexact Hb
    isplitl [Ho]; · iexact Ho
    isplitl [H0]; · iexact H0
    isplitl [H1]; · iexact H1
    isplitl [H2]; · iexact H2
    isplitl [H3]; · iexact H3
    isplitl [H4]; · iexact H4
    iexact H5

end Cert.Kernel.Tc

end
-- ==== Proof.RefRun.lean ====
/-
  The reference program's run, written out: @main as the list of its 105 host operations, the three
  calls of the row lookup (each with its negative-index wrap and its in-range mask) written at the call
  sites over the calls' own buffers; every weakly fair execution terminates with the result buffer at
  `out` of the arguments' launch contents, a pure term, and the arguments unchanged.
-/
import proofs.«208470_g86148454023375_cont_sun_c4_654_45_alg».proof.Defs
import proofs.«208470_g86148454023375_cont_sun_c4_654_45_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each call's operations in the call's place. -/
abbrev ops : List (HloOp τ sig (Elt F)) :=
  [ StableHlo.unary main_arg4 main_v0 (Host.negf : (⟨S1, .f32⟩ : BufTy).Contents (Elt F) → (⟨S1, .f32⟩ : BufTy).Contents (Elt F)),
    StableHlo.unary main_v0 main_v1 (Host.exp : (⟨S1, .f32⟩ : BufTy).Contents (Elt F) → (⟨S1, .f32⟩ : BufTy).Contents (Elt F)),
    StableHlo.nullary main_cst (constant S_ .f32 0x3F800000#32),
    StableHlo.unary main_cst main_v2 (broadcastInDim S1 ![] bcast_S_S1 : (⟨S_, .f32⟩ : BufTy).Contents (Elt F) → (⟨S1, .f32⟩ : BufTy).Contents (Elt F)),
    StableHlo.binary main_v2 main_v1 main_v3 (addf : (⟨S1, .f32⟩ : BufTy).Contents (Elt F) → (⟨S1, .f32⟩ : BufTy).Contents (Elt F) → (⟨S1, .f32⟩ : BufTy).Contents (Elt F)),
    StableHlo.nullary main_cst_0 (constant S_ .f32 0x3F800000#32),
    StableHlo.unary main_cst_0 main_v4 (broadcastInDim S1 ![] bcast_S_S1 : (⟨S_, .f32⟩ : BufTy).Contents (Elt F) → (⟨S1, .f32⟩ : BufTy).Contents (Elt F)),
    StableHlo.binary main_v4 main_v3 main_v5 (Host.divf : (⟨S1, .f32⟩ : BufTy).Contents (Elt F) → (⟨S1, .f32⟩ : BufTy).Contents (Elt F) → (⟨S1, .f32⟩ : BufTy).Contents (Elt F)),
    StableHlo.nullary main_cst_1 (constant S_ .f32 0x40000000#32),
    StableHlo.unary main_cst_1 main_v6 (broadcastInDim S1 ![] bcast_S_S1 : (⟨S_, .f32⟩ : BufTy).Contents (Elt F) → (⟨S1, .f32⟩ : BufTy).Contents (Elt F)),
    StableHlo.binary main_v5 main_v6 main_v7 (mulf : (⟨S1, .f32⟩ : BufTy).Contents (Elt F) → (⟨S1, .f32⟩ : BufTy).Contents (Elt F) → (⟨S1, .f32⟩ : BufTy).Contents (Elt F)),
    StableHlo.binary main_arg0 main_arg5 main_v8 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_v7 main_v9 (broadcastInDim S1x1 ![1] bcast_S1_S1x1_1 : (⟨S1, .f32⟩ : BufTy).Contents (Elt F) → (⟨S1x1, .f32⟩ : BufTy).Contents (Elt F)),
    StableHlo.unary main_v9 main_v10 (broadcastInDim S4096x128 ![0, 1] bcast_S1x1_S4096x128_0_1 : (⟨S1x1, .f32⟩ : BufTy).Contents (Elt F) → (⟨S4096x128, .f32⟩ : BufTy).Contents (Elt F)),
    StableHlo.binary main_v10 main_v8 main_v11 (mulf : (⟨S4096x128, .f32⟩ : BufTy).Contents (Elt F) → (⟨S4096x128, .f32⟩ : BufTy).Contents (Elt F) → (⟨S4096x128, .f32⟩ : BufTy).Contents (Elt F)),
    StableHlo.nullary main_cst_2 (constant S_ .f32 0xFF800000#32),
    StableHlo.binary main_v11 main_cst_2 main_v12 ((fun x v => Host.reduce FloatOps.maximumf x v reducesTo_S4096x128_S_d0_1 h_S_) : (⟨S4096x128, .f32⟩ : BufTy).Contents (Elt F) → (⟨S_, .f32⟩ : BufTy).Contents (Elt F) → (⟨S_, .f32⟩ : BufTy).Contents (Elt F)),
    StableHlo.unary main_v12 main_v13 (broadcastInDim S4096x128 ![] bcast_S_S4096x128 : (⟨S_, .f32⟩ : BufTy).Contents (Elt F) → (⟨S4096x128, .f32⟩ : BufTy).Contents (Elt F)),
    StableHlo.binary main_v11 main_v13 main_v14 (subf : (⟨S4096x128, .f32⟩ : BufTy).Contents (Elt F) → (⟨S4096x128, .f32⟩ : BufTy).Contents (Elt F) → (⟨S4096x128, .f32⟩ : BufTy).Contents (Elt F)),
    StableHlo.unary main_v14 main_v15 (Host.exp : (⟨S4096x128, .f32⟩ : BufTy).Contents (Elt F) → (⟨S4096x128, .f32⟩ : BufTy).Contents (Elt F)),
    StableHlo.binary main_arg2 main_v15 main_v16 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    StableHlo.unary main_arg3 main_v17 ((extractStridedSlice S1x16384 ![1, 0] · slices_S2x16384_S1x16384_1_0) : (⟨S2x16384, .i32⟩ : BufTy).Contents (Elt F) → (⟨S1x16384, .i32⟩ : BufTy).Contents (Elt F)),
    StableHlo.reshape main_v17 main_v18 rfl shapeCasts_S1x16384_S16384,
    StableHlo.TRef.nullary main_call0.c (constantI S_ 32 0#32),
    StableHlo.TRef.unary main_call0.c main_call0.v0 (broadcastInDim S16384 ![] bcast_S_S16384),
    StableHlo.TRef.binary (.of main_v18 : StableHlo.TRef sig ⟨S16384, .i32⟩) main_call0.v0 main_call0.v1 (cmpi .slt),
    StableHlo.TRef.nullary main_call0.c_0 (constantI S_ 32 4096#32),
    StableHlo.TRef.unary main_call0.c_0 main_call0.v2 (broadcastInDim S16384 ![] bcast_S_S16384),
    StableHlo.TRef.binary (.of main_v18 : StableHlo.TRef sig ⟨S16384, .i32⟩) main_call0.v2 main_call0.v3 addi,
    StableHlo.TRef.ternary main_call0.v1 main_call0.v3 (.of main_v18 : StableHlo.TRef sig ⟨S16384, .i32⟩) main_call0.call0.v0 select,
    StableHlo.TRef.unary main_call0.call0.v0 main_call0.v5 (broadcastInDim S16384x1 ![0] bcast_S16384_S16384x1_0),
    StableHlo.TRef.nullary main_call0.c_1 (constantI S1 32 4095#32),
    StableHlo.TRef.nullary main_call0.c_2 (constantI S_ 32 0#32),
    StableHlo.TRef.unary main_call0.c_2 main_call0.v6 (broadcastInDim S16384x1 ![] bcast_S_S16384x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S16384x1 ![0, 1] bcast_S1x1_S16384x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x1_S16384_d1 h_S_),
    StableHlo.TRef.binary (.of main_v15 : StableHlo.TRef sig ⟨S4096x128, .f32⟩) main_call0.v5 main_call0.v13 (fun x i => Host.gather gather_S4096x128_S16384x1_S16384x128_1_0_n_n_0_1_1128 x i),
    StableHlo.TRef.unary main_call0.v12 main_call0.v14 (broadcastInDim S16384x128 ![0] bcast_S16384_S16384x128_0),
    StableHlo.TRef.nullary main_call0.cst (constant S_ .f32 0x7FC00000#32),
    StableHlo.TRef.unary main_call0.cst main_call0.v15 (broadcastInDim S16384x128 ![] bcast_S_S16384x128),
    StableHlo.TRef.ternary main_call0.v14 main_call0.v13 main_call0.v15 main_call0.v16 select,
    StableHlo.unary main_arg3 main_v20 ((extractStridedSlice S1x16384 ![0, 0] · slices_S2x16384_S1x16384_0_0) : (⟨S2x16384, .i32⟩ : BufTy).Contents (Elt F) → (⟨S1x16384, .i32⟩ : BufTy).Contents (Elt F)),
    StableHlo.reshape main_v20 main_v21 rfl shapeCasts_S1x16384_S16384,
    StableHlo.TRef.nullary main_call1.c (constantI S_ 32 0#32),
    StableHlo.TRef.unary main_call1.c main_call1.v0 (broadcastInDim S16384 ![] bcast_S_S16384),
    StableHlo.TRef.binary (.of main_v21 : StableHlo.TRef sig ⟨S16384, .i32⟩) main_call1.v0 main_call1.v1 (cmpi .slt),
    StableHlo.TRef.nullary main_call1.c_0 (constantI S_ 32 4096#32),
    StableHlo.TRef.unary main_call1.c_0 main_call1.v2 (broadcastInDim S16384 ![] bcast_S_S16384),
    StableHlo.TRef.binary (.of main_v21 : StableHlo.TRef sig ⟨S16384, .i32⟩) main_call1.v2 main_call1.v3 addi,
    StableHlo.TRef.ternary main_call1.v1 main_call1.v3 (.of main_v21 : StableHlo.TRef sig ⟨S16384, .i32⟩) main_call1.call0.v0 select,
    StableHlo.TRef.unary main_call1.call0.v0 main_call1.v5 (broadcastInDim S16384x1 ![0] bcast_S16384_S16384x1_0),
    StableHlo.TRef.nullary main_call1.c_1 (constantI S1 32 4095#32),
    StableHlo.TRef.nullary main_call1.c_2 (constantI S_ 32 0#32),
    StableHlo.TRef.unary main_call1.c_2 main_call1.v6 (broadcastInDim S16384x1 ![] bcast_S_S16384x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S16384x1 ![0, 1] bcast_S1x1_S16384x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x1_S16384_d1 h_S_),
    StableHlo.TRef.binary (.of main_v16 : StableHlo.TRef sig ⟨S4096x128, .f32⟩) main_call1.v5 main_call1.v13 (fun x i => Host.gather gather_S4096x128_S16384x1_S16384x128_1_0_n_n_0_1_1128 x i),
    StableHlo.TRef.unary main_call1.v12 main_call1.v14 (broadcastInDim S16384x128 ![0] bcast_S16384_S16384x128_0),
    StableHlo.TRef.nullary main_call1.cst (constant S_ .f32 0x7FC00000#32),
    StableHlo.TRef.unary main_call1.cst main_call1.v15 (broadcastInDim S16384x128 ![] bcast_S_S16384x128),
    StableHlo.TRef.ternary main_call1.v14 main_call1.v13 main_call1.v15 main_call1.v16 select,
    StableHlo.nullary main_cst_3 (constant S_ .f32 0x358637BD#32),
    StableHlo.unary main_cst_3 main_v23 (broadcastInDim S16384x128 ![] bcast_S_S16384x128 : (⟨S_, .f32⟩ : BufTy).Contents (Elt F) → (⟨S16384x128, .f32⟩ : BufTy).Contents (Elt F)),
    StableHlo.binary main_v22 main_v23 main_v24 (addf : (⟨S16384x128, .f32⟩ : BufTy).Contents (Elt F) → (⟨S16384x128, .f32⟩ : BufTy).Contents (Elt F) → (⟨S16384x128, .f32⟩ : BufTy).Contents (Elt F)),
    StableHlo.binary main_v19 main_v24 main_v25 (Host.divf : (⟨S16384x128, .f32⟩ : BufTy).Contents (Elt F) → (⟨S16384x128, .f32⟩ : BufTy).Contents (Elt F) → (⟨S16384x128, .f32⟩ : BufTy).Contents (Elt F)),
    StableHlo.unary main_arg3 main_v26 ((extractStridedSlice S1x16384 ![1, 0] · slices_S2x16384_S1x16384_1_0) : (⟨S2x16384, .i32⟩ : BufTy).Contents (Elt F) → (⟨S1x16384, .i32⟩ : BufTy).Contents (Elt F)),
    StableHlo.reshape main_v26 main_v27 rfl shapeCasts_S1x16384_S16384,
    StableHlo.TRef.nullary main_call2.c (constantI S_ 32 0#32),
    StableHlo.TRef.unary main_call2.c main_call2.v0 (broadcastInDim S16384 ![] bcast_S_S16384),
    StableHlo.TRef.binary (.of main_v27 : StableHlo.TRef sig ⟨S16384, .i32⟩) main_call2.v0 main_call2.v1 (cmpi .slt),
    StableHlo.TRef.nullary main_call2.c_0 (constantI S_ 32 4096#32),
    StableHlo.TRef.unary main_call2.c_0 main_call2.v2 (broadcastInDim S16384 ![] bcast_S_S16384),
    StableHlo.TRef.binary (.of main_v27 : StableHlo.TRef sig ⟨S16384, .i32⟩) main_call2.v2 main_call2.v3 addi,
    StableHlo.TRef.ternary main_call2.v1 main_call2.v3 (.of main_v27 : StableHlo.TRef sig ⟨S16384, .i32⟩) main_call2.call0.v0 select,
    StableHlo.TRef.unary main_call2.call0.v0 main_call2.v5 (broadcastInDim S16384x1 ![0] bcast_S16384_S16384x1_0),
    StableHlo.TRef.nullary main_call2.c_1 (constantI S1 32 4095#32),
    StableHlo.TRef.nullary main_call2.c_2 (constantI S_ 32 0#32),
    StableHlo.TRef.unary main_call2.c_2 main_call2.v6 (broadcastInDim S16384x1 ![] bcast_S_S16384x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S16384x1 ![0, 1] bcast_S1x1_S16384x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S16384x1_S16384_d1 h_S_),
    StableHlo.TRef.binary (.of main_v8 : StableHlo.TRef sig ⟨S4096x128, .f32⟩) main_call2.v5 main_call2.v13 (fun x i => Host.gather gather_S4096x128_S16384x1_S16384x128_1_0_n_n_0_1_1128 x i),
    StableHlo.TRef.unary main_call2.v12 main_call2.v14 (broadcastInDim S16384x128 ![0] bcast_S16384_S16384x128_0),
    StableHlo.TRef.nullary main_call2.cst (constant S_ .f32 0x7FC00000#32),
    StableHlo.TRef.unary main_call2.cst main_call2.v15 (broadcastInDim S16384x128 ![] bcast_S_S16384x128),
    StableHlo.TRef.ternary main_call2.v14 main_call2.v13 main_call2.v15 main_call2.v16 select,
    StableHlo.binary main_v28 main_v25 main_v29 (mulf : (⟨S16384x128, .f32⟩ : BufTy).Contents (Elt F) → (⟨S16384x128, .f32⟩ : BufTy).Contents (Elt F) → (⟨S16384x128, .f32⟩ : BufTy).Contents (Elt F)),
    StableHlo.binary main_arg1 main_v29 main_v30 ((fun l r => Host.dotGeneral dot_S4096x16384_S16384x128_S4096x128_1_0_0_1_n_n none l r) : (⟨S4096x16384, .f32⟩ : BufTy).Contents (Elt F) → (⟨S16384x128, .f32⟩ : BufTy).Contents (Elt F) → (⟨S4096x128, .f32⟩ : BufTy).Contents (Elt F)),
    StableHlo.unary main_arg6 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S4096x128 ![0, 1] bcast_S1x128_S4096x128_0_1 : (⟨S1x128, .f32⟩ : BufTy).Contents (Elt F) → (⟨S4096x128, .f32⟩ : BufTy).Contents (Elt F)),
    StableHlo.binary main_v30 main_v32 main_v33 (addf : (⟨S4096x128, .f32⟩ : BufTy).Contents (Elt F) → (⟨S4096x128, .f32⟩ : BufTy).Contents (Elt F) → (⟨S4096x128, .f32⟩ : BufTy).Contents (Elt F)) ]

set_option maxHeartbeats 4000000 in
set_option maxRecDepth 8192 in
/-- @main is that straight line: the two functions unfolded at their calls, by computation. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., nullary_bufs_sub .., unary_bufs_sub .., binary_bufs_sub .., nullary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., binary_bufs_sub .., unary_bufs_sub ..,
    binary_bufs_sub .., unary_bufs_sub .., binary_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., binary_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub .., binary_bufs_sub ..,
    unary_bufs_sub .., unary_bufs_sub .., binary_bufs_sub ..⟩

/-- Every weakly fair execution of @main terminates, every buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The list in five windows -/

/-- Operations 1–23 of @main. -/
abbrev ops1 : List (HloOp τ sig (Elt F)) :=
  [ StableHlo.unary main_arg4 main_v0 (Host.negf : (⟨S1, .f32⟩ : BufTy).Contents (Elt F) → (⟨S1, .f32⟩ : BufTy).Contents (Elt F)),
    StableHlo.unary main_v0 main_v1 (Host.exp : (⟨S1, .f32⟩ : BufTy).Contents (Elt F) → (⟨S1, .f32⟩ : BufTy).Contents (Elt F)),
    StableHlo.nullary main_cst (constant S_ .f32 0x3F800000#32),
    StableHlo.unary main_cst main_v2 (broadcastInDim S1 ![] bcast_S_S1 : (⟨S_, .f32⟩ : BufTy).Contents (Elt F) → (⟨S1, .f32⟩ : BufTy).Contents (Elt F)),
    StableHlo.binary main_v2 main_v1 main_v3 (addf : (⟨S1, .f32⟩ : BufTy).Contents (Elt F) → (⟨S1, .f32⟩ : BufTy).Contents (Elt F) → (⟨S1, .f32⟩ : BufTy).Contents (Elt F)),
    StableHlo.nullary main_cst_0 (constant S_ .f32 0x3F800000#32),
    StableHlo.unary main_cst_0 main_v4 (broadcastInDim S1 ![] bcast_S_S1 : (⟨S_, .f32⟩ : BufTy).Contents (Elt F) → (⟨S1, .f32⟩ : BufTy).Contents (Elt F)),
    StableHlo.binary main_v4 main_v3 main_v5 (Host.divf : (⟨S1, .f32⟩ : BufTy).Contents (Elt F) → (⟨S1, .f32⟩ : BufTy).Contents (Elt F) → (⟨S1, .f32⟩ : BufTy).Contents (Elt F)),
    StableHlo.nullary main_cst_1 (constant S_ .f32 0x40000000#32),
    StableHlo.unary main_cst_1 main_v6 (broadcastInDim S1 ![] bcast_S_S1 : (⟨S_, .f32⟩ : BufTy).Contents (Elt F) → (⟨S1, .f32⟩ : BufTy).Contents (Elt F)),
    StableHlo.binary main_v5 main_v6 main_v7 (mulf : (⟨S1, .f32⟩ : BufTy).Contents (Elt F) → (⟨S1, .f32⟩ : BufTy).Contents (Elt F) → (⟨S1, .f32⟩ : BufTy).Contents (Elt F)),
    StableHlo.binary main_arg0 main_arg5 main_v8 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_v7 main_v9 (broadcastInDim S1x1 ![1] bcast_S1_S1x1_1 : (⟨S1, .f32⟩ : BufTy).Contents (Elt F) → (⟨S1x1, .f32⟩ : BufTy).Contents (Elt F)),
    StableHlo.unary main_v9 main_v10 (broadcastInDim S4096x128 ![0, 1] bcast_S1x1_S4096x128_0_1 : (⟨S1x1, .f32⟩ : BufTy).Contents (Elt F) → (⟨S4096x128, .f32⟩ : BufTy).Contents (Elt F)),
    StableHlo.binary main_v10 main_v8 main_v11 (mulf : (⟨S4096x128, .f32⟩ : BufTy).Contents (Elt F) → (⟨S4096x128, .f32⟩ : BufTy).Contents (Elt F) → (⟨S4096x128, .f32⟩ : BufTy).Contents (Elt F)),
    StableHlo.nullary main_cst_2 (constant S_ .f32 0xFF800000#32),
    StableHlo.binary main_v11 main_cst_2 main_v12 ((fun x v => Host.reduce FloatOps.maximumf x v reducesTo_S4096x128_S_d0_1 h_S_) : (⟨S4096x128, .f32⟩ : BufTy).Contents (Elt F) → (⟨S_, .f32⟩ : BufTy).Contents (Elt F) → (⟨S_, .f32⟩ : BufTy).Contents (Elt F)),
    StableHlo.unary main_v12 main_v13 (broadcastInDim S4096x128 ![] bcast_S_S4096x128 : (⟨S_, .f32⟩ : BufTy).Contents (Elt F) → (⟨S4096x128, .f32⟩ : BufTy).Contents (Elt F)),
    StableHlo.binary main_v11 main_v13 main_v14 (subf : (⟨S4096x128, .f32⟩ : BufTy).Contents (Elt F) → (⟨S4096x128, .f32⟩ : BufTy).Contents (Elt F) → (⟨S4096x128, .f32⟩ : BufTy).Contents (Elt F)),
    StableHlo.unary main_v14 main_v15 (Host.exp : (⟨S4096x128, .f32⟩ : BufTy).Contents (Elt F) → (⟨S4096x128, .f32⟩ : BufTy).Contents (Elt F)),
    StableHlo.binary main_arg2 main_v15 main_v16 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    StableHlo.unary main_arg3 main_v17 ((extractStridedSlice S1x16384 ![1, 0] · slices_S2x16384_S1x16384_1_0) : (⟨S2x16384, .i32⟩ : BufTy).Contents (Elt F) → (⟨S1x16384, .i32⟩ : BufTy).Contents (Elt F)),
    StableHlo.reshape main_v17 main_v18 rfl shapeCasts_S1x16384_S16384 ]

/-- Operations 24–46 of @main. -/
abbrev ops2 : List (HloOp τ sig (Elt F)) :=
  [ StableHlo.TRef.nullary main_call0.c (constantI S_ 32 0#32),
    StableHlo.TRef.unary main_call0.c main_call0.v0 (broadcastInDim S16384 ![] bcast_S_S16384),
    StableHlo.TRef.binary (.of main_v18 : StableHlo.TRef sig ⟨S16384, .i32⟩) main_call0.v0 main_call0.v1 (cmpi .slt),
    StableHlo.TRef.nullary main_call0.c_0 (constantI S_ 32 4096#32),
    StableHlo.TRef.unary main_call0.c_0 main_call0.v2 (broadcastInDim S16384 ![] bcast_S_S16384),
    StableHlo.TRef.binary (.of main_v18 : StableHlo.TRef sig ⟨S16384, .i32⟩) main_call0.v2 main_call0.v3 addi,
    StableHlo.TRef.ternary main_call0.v1 main_call0.v3 (.of main_v18 : StableHlo.TRef sig ⟨S16384, .i32⟩) main_call0.call0.v0 select,
    StableHlo.TRef.unary main_call0.call0.v0 main_call0.v5 (broadcastInDim S16384x1 ![0] bcast_S16384_S16384x1_0),
    StableHlo.TRef.nullary main_call0.c_1 (constantI S1 32 4095#32),
    StableHlo.TRef.nullary main_call0.c_2 (constantI S_ 32 0#32),
    StableHlo.TRef.unary main_call0.c_2 main_call0.v6 (broadcastInDim S16384x1 ![] bcast_S_S16384x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S16384x1 ![0, 1] bcast_S1x1_S16384x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x1_S16384_d1 h_S_),
    StableHlo.TRef.binary (.of main_v15 : StableHlo.TRef sig ⟨S4096x128, .f32⟩) main_call0.v5 main_call0.v13 (fun x i => Host.gather gather_S4096x128_S16384x1_S16384x128_1_0_n_n_0_1_1128 x i),
    StableHlo.TRef.unary main_call0.v12 main_call0.v14 (broadcastInDim S16384x128 ![0] bcast_S16384_S16384x128_0),
    StableHlo.TRef.nullary main_call0.cst (constant S_ .f32 0x7FC00000#32),
    StableHlo.TRef.unary main_call0.cst main_call0.v15 (broadcastInDim S16384x128 ![] bcast_S_S16384x128),
    StableHlo.TRef.ternary main_call0.v14 main_call0.v13 main_call0.v15 main_call0.v16 select ]

/-- Operations 47–71 of @main. -/
abbrev ops3 : List (HloOp τ sig (Elt F)) :=
  [ StableHlo.unary main_arg3 main_v20 ((extractStridedSlice S1x16384 ![0, 0] · slices_S2x16384_S1x16384_0_0) : (⟨S2x16384, .i32⟩ : BufTy).Contents (Elt F) → (⟨S1x16384, .i32⟩ : BufTy).Contents (Elt F)),
    StableHlo.reshape main_v20 main_v21 rfl shapeCasts_S1x16384_S16384,
    StableHlo.TRef.nullary main_call1.c (constantI S_ 32 0#32),
    StableHlo.TRef.unary main_call1.c main_call1.v0 (broadcastInDim S16384 ![] bcast_S_S16384),
    StableHlo.TRef.binary (.of main_v21 : StableHlo.TRef sig ⟨S16384, .i32⟩) main_call1.v0 main_call1.v1 (cmpi .slt),
    StableHlo.TRef.nullary main_call1.c_0 (constantI S_ 32 4096#32),
    StableHlo.TRef.unary main_call1.c_0 main_call1.v2 (broadcastInDim S16384 ![] bcast_S_S16384),
    StableHlo.TRef.binary (.of main_v21 : StableHlo.TRef sig ⟨S16384, .i32⟩) main_call1.v2 main_call1.v3 addi,
    StableHlo.TRef.ternary main_call1.v1 main_call1.v3 (.of main_v21 : StableHlo.TRef sig ⟨S16384, .i32⟩) main_call1.call0.v0 select,
    StableHlo.TRef.unary main_call1.call0.v0 main_call1.v5 (broadcastInDim S16384x1 ![0] bcast_S16384_S16384x1_0),
    StableHlo.TRef.nullary main_call1.c_1 (constantI S1 32 4095#32),
    StableHlo.TRef.nullary main_call1.c_2 (constantI S_ 32 0#32),
    StableHlo.TRef.unary main_call1.c_2 main_call1.v6 (broadcastInDim S16384x1 ![] bcast_S_S16384x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S16384x1 ![0, 1] bcast_S1x1_S16384x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x1_S16384_d1 h_S_),
    StableHlo.TRef.binary (.of main_v16 : StableHlo.TRef sig ⟨S4096x128, .f32⟩) main_call1.v5 main_call1.v13 (fun x i => Host.gather gather_S4096x128_S16384x1_S16384x128_1_0_n_n_0_1_1128 x i),
    StableHlo.TRef.unary main_call1.v12 main_call1.v14 (broadcastInDim S16384x128 ![0] bcast_S16384_S16384x128_0),
    StableHlo.TRef.nullary main_call1.cst (constant S_ .f32 0x7FC00000#32),
    StableHlo.TRef.unary main_call1.cst main_call1.v15 (broadcastInDim S16384x128 ![] bcast_S_S16384x128),
    StableHlo.TRef.ternary main_call1.v14 main_call1.v13 main_call1.v15 main_call1.v16 select ]

/-- Operations 72–100 of @main. -/
abbrev ops4 : List (HloOp τ sig (Elt F)) :=
  [ StableHlo.nullary main_cst_3 (constant S_ .f32 0x358637BD#32),
    StableHlo.unary main_cst_3 main_v23 (broadcastInDim S16384x128 ![] bcast_S_S16384x128 : (⟨S_, .f32⟩ : BufTy).Contents (Elt F) → (⟨S16384x128, .f32⟩ : BufTy).Contents (Elt F)),
    StableHlo.binary main_v22 main_v23 main_v24 (addf : (⟨S16384x128, .f32⟩ : BufTy).Contents (Elt F) → (⟨S16384x128, .f32⟩ : BufTy).Contents (Elt F) → (⟨S16384x128, .f32⟩ : BufTy).Contents (Elt F)),
    StableHlo.binary main_v19 main_v24 main_v25 (Host.divf : (⟨S16384x128, .f32⟩ : BufTy).Contents (Elt F) → (⟨S16384x128, .f32⟩ : BufTy).Contents (Elt F) → (⟨S16384x128, .f32⟩ : BufTy).Contents (Elt F)),
    StableHlo.unary main_arg3 main_v26 ((extractStridedSlice S1x16384 ![1, 0] · slices_S2x16384_S1x16384_1_0) : (⟨S2x16384, .i32⟩ : BufTy).Contents (Elt F) → (⟨S1x16384, .i32⟩ : BufTy).Contents (Elt F)),
    StableHlo.reshape main_v26 main_v27 rfl shapeCasts_S1x16384_S16384,
    StableHlo.TRef.nullary main_call2.c (constantI S_ 32 0#32),
    StableHlo.TRef.unary main_call2.c main_call2.v0 (broadcastInDim S16384 ![] bcast_S_S16384),
    StableHlo.TRef.binary (.of main_v27 : StableHlo.TRef sig ⟨S16384, .i32⟩) main_call2.v0 main_call2.v1 (cmpi .slt),
    StableHlo.TRef.nullary main_call2.c_0 (constantI S_ 32 4096#32),
    StableHlo.TRef.unary main_call2.c_0 main_call2.v2 (broadcastInDim S16384 ![] bcast_S_S16384),
    StableHlo.TRef.binary (.of main_v27 : StableHlo.TRef sig ⟨S16384, .i32⟩) main_call2.v2 main_call2.v3 addi,
    StableHlo.TRef.ternary main_call2.v1 main_call2.v3 (.of main_v27 : StableHlo.TRef sig ⟨S16384, .i32⟩) main_call2.call0.v0 select,
    StableHlo.TRef.unary main_call2.call0.v0 main_call2.v5 (broadcastInDim S16384x1 ![0] bcast_S16384_S16384x1_0),
    StableHlo.TRef.nullary main_call2.c_1 (constantI S1 32 4095#32),
    StableHlo.TRef.nullary main_call2.c_2 (constantI S_ 32 0#32),
    StableHlo.TRef.unary main_call2.c_2 main_call2.v6 (broadcastInDim S16384x1 ![] bcast_S_S16384x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S16384x1 ![0, 1] bcast_S1x1_S16384x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S16384x1_S16384_d1 h_S_),
    StableHlo.TRef.binary (.of main_v8 : StableHlo.TRef sig ⟨S4096x128, .f32⟩) main_call2.v5 main_call2.v13 (fun x i => Host.gather gather_S4096x128_S16384x1_S16384x128_1_0_n_n_0_1_1128 x i),
    StableHlo.TRef.unary main_call2.v12 main_call2.v14 (broadcastInDim S16384x128 ![0] bcast_S16384_S16384x128_0),
    StableHlo.TRef.nullary main_call2.cst (constant S_ .f32 0x7FC00000#32),
    StableHlo.TRef.unary main_call2.cst main_call2.v15 (broadcastInDim S16384x128 ![] bcast_S_S16384x128),
    StableHlo.TRef.ternary main_call2.v14 main_call2.v13 main_call2.v15 main_call2.v16 select ]

/-- Operations 101–105 of @main. -/
abbrev ops5 : List (HloOp τ sig (Elt F)) :=
  [ StableHlo.binary main_v28 main_v25 main_v29 (mulf : (⟨S16384x128, .f32⟩ : BufTy).Contents (Elt F) → (⟨S16384x128, .f32⟩ : BufTy).Contents (Elt F) → (⟨S16384x128, .f32⟩ : BufTy).Contents (Elt F)),
    StableHlo.binary main_arg1 main_v29 main_v30 ((fun l r => Host.dotGeneral dot_S4096x16384_S16384x128_S4096x128_1_0_0_1_n_n none l r) : (⟨S4096x16384, .f32⟩ : BufTy).Contents (Elt F) → (⟨S16384x128, .f32⟩ : BufTy).Contents (Elt F) → (⟨S4096x128, .f32⟩ : BufTy).Contents (Elt F)),
    StableHlo.unary main_arg6 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S4096x128 ![0, 1] bcast_S1x128_S4096x128_0_1 : (⟨S1x128, .f32⟩ : BufTy).Contents (Elt F) → (⟨S4096x128, .f32⟩ : BufTy).Contents (Elt F)),
    StableHlo.binary main_v30 main_v32 main_v33 (addf : (⟨S4096x128, .f32⟩ : BufTy).Contents (Elt F) → (⟨S4096x128, .f32⟩ : BufTy).Contents (Elt F) → (⟨S4096x128, .f32⟩ : BufTy).Contents (Elt F)) ]

theorem ops_split : (ops : List (HloOp τ sig (Elt F))) = ops1 ++ (ops2 ++ (ops3 ++ (ops4 ++ ops5))) := rfl

/-- The fold over two lists in turn is the fold over their concatenation. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The result as a pure term of the seven arguments -/

/-- 2 · logistic p, as the reference spells it: (1 / (1 + exp (-p))) · 2. -/
def p2v (a4 : FVec Ideal S1 .f32) : FVec Ideal S1 .f32 :=
  mulf (Host.divf (broadcastInDim S1 ![] bcast_S_S1 (constant (F := Ideal) S_ .f32 0x3F800000#32))
      (addf (broadcastInDim S1 ![] bcast_S_S1 (constant (F := Ideal) S_ .f32 0x3F800000#32)) (Host.exp (Host.negf a4))))
    (broadcastInDim S1 ![] bcast_S_S1 (constant (F := Ideal) S_ .f32 0x40000000#32))

/-- support = x · w. -/
def supv (a0 : FVec Ideal S4096x256 .f32) (a5 : FVec Ideal S256x128 .f32) : FVec Ideal S4096x128 .f32 :=
  Host.dotGeneral dot_S4096x256_S256x128_S4096x128_1_0_0_1_n_n none a0 a5

/-- e = p2 · support. -/
def ev (a0 : FVec Ideal S4096x256 .f32) (a4 : FVec Ideal S1 .f32) (a5 : FVec Ideal S256x128 .f32) : FVec Ideal S4096x128 .f32 :=
  mulf (broadcastInDim S4096x128 ![0, 1] bcast_S1x1_S4096x128_0_1 (broadcastInDim S1x1 ![1] bcast_S1_S1x1_1 (p2v a4))) (supv a0 a5)

/-- The maximum of e over both axes, from -∞. -/
def mxv (a0 : FVec Ideal S4096x256 .f32) (a4 : FVec Ideal S1 .f32) (a5 : FVec Ideal S256x128 .f32) : FVec Ideal S_ .f32 :=
  Host.reduce (FloatOps.maximumf (F := Ideal) (φ := .f32)) (ev a0 a4 a5) (constant (F := Ideal) S_ .f32 0xFF800000#32)
    reducesTo_S4096x128_S_d0_1 h_S_

/-- sm = exp (e - max e). -/
def smv (a0 : FVec Ideal S4096x256 .f32) (a4 : FVec Ideal S1 .f32) (a5 : FVec Ideal S256x128 .f32) : FVec Ideal S4096x128 .f32 :=
  Host.exp (subf (ev a0 a4 a5) (broadcastInDim S4096x128 ![] bcast_S_S4096x128 (mxv a0 a4 a5)))

/-- agg = adj · sm. -/
def aggv (a0 : FVec Ideal S4096x256 .f32) (a2 : FVec Ideal S4096x4096 .f32) (a4 : FVec Ideal S1 .f32) (a5 : FVec Ideal S256x128 .f32) :
    FVec Ideal S4096x128 .f32 :=
  Host.dotGeneral dot_S4096x4096_S4096x128_S4096x128_1_0_0_1_n_n none a2 (smv a0 a4 a5)

/-- Row 1 of the edge list (the source nodes). -/
def edgeRow1 (a3 : IVec S2x16384 32) : IVec S16384 32 :=
  shapeCast S16384 (extractStridedSlice S1x16384 ![1, 0] a3 slices_S2x16384_S1x16384_1_0) shapeCasts_S1x16384_S16384

/-- Row 0 of the edge list (the target nodes). -/
def edgeRow0 (a3 : IVec S2x16384 32) : IVec S16384 32 :=
  shapeCast S16384 (extractStridedSlice S1x16384 ![0, 0] a3 slices_S2x16384_S1x16384_0_0) shapeCasts_S1x16384_S16384

/-- The wrapped index column of a row lookup: a negative index has the table's height added. -/
def takeIdx (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 4096#32))) idx)

/-- Which rows of a lookup are in range: 0 ≤ index ≤ 4095 after the wrap. -/
def takeOk (idx : IVec S16384 32) : IVec S16384 1 :=
  Host.reduce IntOp.andi
    (andi (cmpi .sge (takeIdx idx) (broadcastInDim S16384x1 ![] bcast_S_S16384x1 (constantI S_ 32 0#32)))
      (cmpi .sle (takeIdx idx) (broadcastInDim S16384x1 ![0, 1] bcast_S1x1_S16384x1_0_1
        (broadcastInDim S1x1 ![1] bcast_S1_S1x1_1 (constantI S1 32 4095#32)))))
    (constantI S_ 1 1#1) reducesTo_S16384x1_S16384_d1 h_S_

/-- The row lookup with fill: the gathered rows where the index is in range, the fill pattern elsewhere. -/
def takeF (tbl : FVec Ideal S4096x128 .f32) (idx : IVec S16384 32) : FVec Ideal S16384x128 .f32 :=
  select (broadcastInDim S16384x128 ![0] bcast_S16384_S16384x128_0 (takeOk idx))
    (Host.gather gather_S4096x128_S16384x1_S16384x128_1_0_n_n_0_1_1128 tbl (takeIdx idx))
    (broadcastInDim S16384x128 ![] bcast_S_S16384x128 (constant (F := Ideal) S_ .f32 0x7FC00000#32))

/-- The per-edge messages: support[edge 1] · (sm[edge 1] / (agg[edge 0] + literal)). -/
def msgv (a0 : FVec Ideal S4096x256 .f32) (a2 : FVec Ideal S4096x4096 .f32) (a3 : IVec S2x16384 32) (a4 : FVec Ideal S1 .f32)
    (a5 : FVec Ideal S256x128 .f32) : FVec Ideal S16384x128 .f32 :=
  mulf (takeF (supv a0 a5) (edgeRow1 a3))
    (Host.divf (takeF (smv a0 a4 a5) (edgeRow1 a3))
      (addf (takeF (aggv a0 a2 a4 a5) (edgeRow0 a3))
        (broadcastInDim S16384x128 ![] bcast_S_S16384x128 (constant (F := Ideal) S_ .f32 0x358637BD#32))))

/-- T · msg + bias, of any message array. -/
def finish (a1 : FVec Ideal S4096x16384 .f32) (a6 : FVec Ideal S128 .f32) (msg : FVec Ideal S16384x128 .f32) : FVec Ideal S4096x128 .f32 :=
  addf (Host.dotGeneral dot_S4096x16384_S16384x128_S4096x128_1_0_0_1_n_n none a1 msg)
    (broadcastInDim S4096x128 ![0, 1] bcast_S1x128_S4096x128_0_1 (broadcastInDim S1x128 ![1] bcast_S128_S1x128_1 a6))

/-- The reference's result: T · msg + bias. -/
def out (a0 : FVec Ideal S4096x256 .f32) (a1 : FVec Ideal S4096x16384 .f32) (a2 : FVec Ideal S4096x4096 .f32) (a3 : IVec S2x16384 32)
    (a4 : FVec Ideal S1 .f32) (a5 : FVec Ideal S256x128 .f32) (a6 : FVec Ideal S128 .f32) : FVec Ideal S4096x128 .f32 :=
  finish a1 a6 (msgv a0 a2 a3 a4 a5)

/-! ## What each window leaves in the buffers the later ones read -/

theorem w1_arg1 (W : Valuation τ sig (Elt Ideal)) : after (ops1 (F := Ideal)) W (main_arg1 : DevRef τ sig) = W (main_arg1 : DevRef τ sig) := by
  after_results_simp

theorem w1_arg3 (W : Valuation τ sig (Elt Ideal)) : after (ops1 (F := Ideal)) W (main_arg3 : DevRef τ sig) = W (main_arg3 : DevRef τ sig) := by
  after_results_simp

theorem w1_arg6 (W : Valuation τ sig (Elt Ideal)) : after (ops1 (F := Ideal)) W (main_arg6 : DevRef τ sig) = W (main_arg6 : DevRef τ sig) := by
  after_results_simp

attribute [local irreducible] Host.reduce Host.gather in
set_option maxRecDepth 8192 in
theorem w1_v8 (W : Valuation τ sig (Elt Ideal)) :
    after (ops1 (F := Ideal)) W (main_v8 : DevRef τ sig) = supv (W (main_arg0 : DevRef τ sig)) (W (main_arg5 : DevRef τ sig)) := by
  after_results_simp <;> rfl

attribute [local irreducible] Host.reduce Host.gather in
set_option maxRecDepth 8192 in
theorem w1_v15 (W : Valuation τ sig (Elt Ideal)) :
    after (ops1 (F := Ideal)) W (main_v15 : DevRef τ sig) = smv (W (main_arg0 : DevRef τ sig)) (W (main_arg4 : DevRef τ sig)) (W (main_arg5 : DevRef τ sig)) := by
  after_results_simp <;> rfl

attribute [local irreducible] Host.reduce Host.gather in
set_option maxRecDepth 8192 in
theorem w1_v16 (W : Valuation τ sig (Elt Ideal)) :
    after (ops1 (F := Ideal)) W (main_v16 : DevRef τ sig) = aggv (W (main_arg0 : DevRef τ sig)) (W (main_arg2 : DevRef τ sig)) (W (main_arg4 : DevRef τ sig)) (W (main_arg5 : DevRef τ sig)) := by
  after_results_simp <;> rfl

attribute [local irreducible] Host.reduce Host.gather in
set_option maxRecDepth 8192 in
theorem w1_v18 (W : Valuation τ sig (Elt Ideal)) :
    after (ops1 (F := Ideal)) W (main_v18 : DevRef τ sig) = edgeRow1 (W (main_arg3 : DevRef τ sig)) := by
  after_results_simp <;> rfl

theorem w2_arg1 (W : Valuation τ sig (Elt Ideal)) : after (ops2 (F := Ideal)) W (main_arg1 : DevRef τ sig) = W (main_arg1 : DevRef τ sig) := by
  after_results_simp

theorem w2_arg3 (W : Valuation τ sig (Elt Ideal)) : after (ops2 (F := Ideal)) W (main_arg3 : DevRef τ sig) = W (main_arg3 : DevRef τ sig) := by
  after_results_simp

theorem w2_arg6 (W : Valuation τ sig (Elt Ideal)) : after (ops2 (F := Ideal)) W (main_arg6 : DevRef τ sig) = W (main_arg6 : DevRef τ sig) := by
  after_results_simp

theorem w2_v8 (W : Valuation τ sig (Elt Ideal)) : after (ops2 (F := Ideal)) W (main_v8 : DevRef τ sig) = W (main_v8 : DevRef τ sig) := by
  after_results_simp

theorem w2_v16 (W : Valuation τ sig (Elt Ideal)) : after (ops2 (F := Ideal)) W (main_v16 : DevRef τ sig) = W (main_v16 : DevRef τ sig) := by
  after_results_simp

attribute [local irreducible] Host.reduce Host.gather in
set_option maxRecDepth 8192 in
theorem w2_v19 (W : Valuation τ sig (Elt Ideal)) :
    after (ops2 (F := Ideal)) W (main_v19 : DevRef τ sig) = takeF (W (main_v15 : DevRef τ sig)) (W (main_v18 : DevRef τ sig)) := by
  after_results_simp <;> rfl

theorem w3_arg1 (W : Valuation τ sig (Elt Ideal)) : after (ops3 (F := Ideal)) W (main_arg1 : DevRef τ sig) = W (main_arg1 : DevRef τ sig) := by
  after_results_simp

theorem w3_arg3 (W : Valuation τ sig (Elt Ideal)) : after (ops3 (F := Ideal)) W (main_arg3 : DevRef τ sig) = W (main_arg3 : DevRef τ sig) := by
  after_results_simp

theorem w3_arg6 (W : Valuation τ sig (Elt Ideal)) : after (ops3 (F := Ideal)) W (main_arg6 : DevRef τ sig) = W (main_arg6 : DevRef τ sig) := by
  after_results_simp

theorem w3_v8 (W : Valuation τ sig (Elt Ideal)) : after (ops3 (F := Ideal)) W (main_v8 : DevRef τ sig) = W (main_v8 : DevRef τ sig) := by
  after_results_simp

theorem w3_v19 (W : Valuation τ sig (Elt Ideal)) : after (ops3 (F := Ideal)) W (main_v19 : DevRef τ sig) = W (main_v19 : DevRef τ sig) := by
  after_results_simp

attribute [local irreducible] Host.reduce Host.gather in
set_option maxRecDepth 8192 in
theorem w3_v22 (W : Valuation τ sig (Elt Ideal)) :
    after (ops3 (F := Ideal)) W (main_v22 : DevRef τ sig) = takeF (W (main_v16 : DevRef τ sig)) (edgeRow0 (W (main_arg3 : DevRef τ sig))) := by
  after_results_simp <;> rfl

theorem w4_arg1 (W : Valuation τ sig (Elt Ideal)) : after (ops4 (F := Ideal)) W (main_arg1 : DevRef τ sig) = W (main_arg1 : DevRef τ sig) := by
  after_results_simp

theorem w4_arg6 (W : Valuation τ sig (Elt Ideal)) : after (ops4 (F := Ideal)) W (main_arg6 : DevRef τ sig) = W (main_arg6 : DevRef τ sig) := by
  after_results_simp

attribute [local irreducible] Host.reduce Host.gather in
set_option maxRecDepth 8192 in
theorem w4_v25 (W : Valuation τ sig (Elt Ideal)) :
    after (ops4 (F := Ideal)) W (main_v25 : DevRef τ sig) = Host.divf (W (main_v19 : DevRef τ sig)) (addf (W (main_v22 : DevRef τ sig)) (broadcastInDim S16384x128 ![] bcast_S_S16384x128 (constant (F := Ideal) S_ .f32 0x358637BD#32))) := by
  after_results_simp <;> rfl

attribute [local irreducible] Host.reduce Host.gather in
set_option maxRecDepth 8192 in
theorem w4_v28 (W : Valuation τ sig (Elt Ideal)) :
    after (ops4 (F := Ideal)) W (main_v28 : DevRef τ sig) = takeF (W (main_v8 : DevRef τ sig)) (edgeRow1 (W (main_arg3 : DevRef τ sig))) := by
  after_results_simp <;> rfl

attribute [local irreducible] Host.reduce Host.gather in
set_option maxRecDepth 8192 in
theorem w5_v33 (W : Valuation τ sig (Elt Ideal)) :
    after (ops5 (F := Ideal)) W (main_v33 : DevRef τ sig) = finish (W (main_arg1 : DevRef τ sig)) (W (main_arg6 : DevRef τ sig)) (mulf (W (main_v28 : DevRef τ sig)) (W (main_v25 : DevRef τ sig)) : FVec Ideal S16384x128 .f32) := by
  after_results_simp <;> rfl

/-! ## The whole line -/

set_option maxRecDepth 8192 in
/-- The fold of the operations at the result buffer is `out` of the arguments' contents: window by window. -/
theorem out_eq (V : Valuation τ sig (Elt Ideal)) :
    after (ops (F := Ideal)) V (main_v33 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  rw [ops_split, after_app, after_app, after_app, after_app]
  rw [w5_v33, w4_arg1, w4_arg6, w4_v25, w4_v28, w3_arg1, w3_arg6, w3_v8, w3_arg3, w3_v19, w3_v22,
    w2_arg1, w2_arg6, w2_v8, w2_arg3, w2_v19, w2_v16, w1_arg1, w1_arg6, w1_v8, w1_arg3, w1_v15, w1_v18, w1_v16]
  rfl

set_option maxRecDepth 8192 in
theorem arg0_eq (V : Valuation τ sig (Elt Ideal)) : after (ops (F := Ideal)) V (main_arg0 : DevRef τ sig) = V (main_arg0 : DevRef τ sig) := by
  after_results_simp

set_option maxRecDepth 8192 in
theorem arg1_eq (V : Valuation τ sig (Elt Ideal)) : after (ops (F := Ideal)) V (main_arg1 : DevRef τ sig) = V (main_arg1 : DevRef τ sig) := by
  after_results_simp

set_option maxRecDepth 8192 in
theorem arg2_eq (V : Valuation τ sig (Elt Ideal)) : after (ops (F := Ideal)) V (main_arg2 : DevRef τ sig) = V (main_arg2 : DevRef τ sig) := by
  after_results_simp

set_option maxRecDepth 8192 in
theorem arg3_eq (V : Valuation τ sig (Elt Ideal)) : after (ops (F := Ideal)) V (main_arg3 : DevRef τ sig) = V (main_arg3 : DevRef τ sig) := by
  after_results_simp

set_option maxRecDepth 8192 in
theorem arg4_eq (V : Valuation τ sig (Elt Ideal)) : after (ops (F := Ideal)) V (main_arg4 : DevRef τ sig) = V (main_arg4 : DevRef τ sig) := by
  after_results_simp

set_option maxRecDepth 8192 in
theorem arg5_eq (V : Valuation τ sig (Elt Ideal)) : after (ops (F := Ideal)) V (main_arg5 : DevRef τ sig) = V (main_arg5 : DevRef τ sig) := by
  after_results_simp

set_option maxRecDepth 8192 in
theorem arg6_eq (V : Valuation τ sig (Elt Ideal)) : after (ops (F := Ideal)) V (main_arg6 : DevRef τ sig) = V (main_arg6 : DevRef τ sig) := by
  after_results_simp

/-- From any memory with zero counters: every weakly fair execution of @main terminates with the result at `out` of the
    arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v33) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v33).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_main m ρ)

end Cert.ReferenceIdeal.RefRun

end
-- ==== Proof.MathSpec.lean ====
/-
  The two programs' results as index-wise functions on the extended reals, over plain coordinate
  functions of the seven inputs, and the lemma that the two per-edge messages agree.

  x : the node features, w : the weight, adj : the adjacency, Tm : the edge-to-node matrix,
  b : the bias, p : the scalar parameter, e0 / e1 : the two rows of the edge list as node numbers.
-/
import Idealize.ShloMosaic.PureOps.Ideal.Laws

namespace Cert.MathSpec

open Idealize.ShloMosaic
open scoped BigOperators

noncomputable section

/-- support = x · w. -/
def sup (x : Fin 4096 → Fin 256 → EReal) (w : Fin 256 → Fin 128 → EReal) (k : Fin 4096) (j : Fin 128) : EReal :=
  ∑ l, x k l * w l j

/-- p2 = 2 · logistic p, with logistic p = 1 / (1 + exp (-p)). -/
def p2 (p : EReal) : EReal := 2 * Ideal.logistic p

/-- e = support · p2. -/
def ee (x : Fin 4096 → Fin 256 → EReal) (w : Fin 256 → Fin 128 → EReal) (p : EReal) (k : Fin 4096) (j : Fin 128) : EReal :=
  sup x w k j * p2 p

/-- The maximum of e over every (k, j), from ⊥. -/
def mx (x : Fin 4096 → Fin 256 → EReal) (w : Fin 256 → Fin 128 → EReal) (p : EReal) : EReal :=
  Finset.univ.sup fun k : Fin 4096 => Finset.univ.sup fun j : Fin 128 => ee x w p k j

/-- sm = exp (e - max e). -/
def sm (x : Fin 4096 → Fin 256 → EReal) (w : Fin 256 → Fin 128 → EReal) (p : EReal) (k : Fin 4096) (j : Fin 128) : EReal :=
  Ideal.exp (ee x w p k j - mx x w p)

/-- agg = adj · sm. -/
def agg (adj : Fin 4096 → Fin 4096 → EReal) (x : Fin 4096 → Fin 256 → EReal) (w : Fin 256 → Fin 128 → EReal) (p : EReal)
    (r : Fin 4096) (j : Fin 128) : EReal :=
  ∑ k, adj r k * sm x w p k j

/-- The float literal both programs add to the aggregate (the f32 nearest 1e-6), as the extended real its pattern denotes. -/
def c6 : EReal := Ideal.ofBits .f32 0x358637BD#32

/-- Two Newton steps on the reciprocal estimate r = 1 / d. -/
def newton (d : EReal) : EReal :=
  let r := Ideal.div 1 d
  let r1 := r * (2 - d * r)
  r1 * (2 - d * r1)

/-- The kernel's message of edge t: (support · sm) at the edge's source row times the refined reciprocal of the
    aggregate (plus the literal) at the edge's target row. -/
def msgK (adj : Fin 4096 → Fin 4096 → EReal) (x : Fin 4096 → Fin 256 → EReal) (w : Fin 256 → Fin 128 → EReal) (p : EReal)
    (e0 e1 : Fin 16384 → Fin 4096) (t : Fin 16384) (j : Fin 128) : EReal :=
  (sup x w (e1 t) j * sm x w p (e1 t) j) * newton (agg adj x w p (e0 t) j + c6)

/-- The reference's message of edge t: support times the quotient sm / (aggregate + literal). -/
def msgR (adj : Fin 4096 → Fin 4096 → EReal) (x : Fin 4096 → Fin 256 → EReal) (w : Fin 256 → Fin 128 → EReal) (p : EReal)
    (e0 e1 : Fin 16384 → Fin 4096) (t : Fin 16384) (j : Fin 128) : EReal :=
  sup x w (e1 t) j * Ideal.div (sm x w p (e1 t) j) (agg adj x w p (e0 t) j + c6)

/-- The output of a message array: Tm · msg + b. -/
def outOf (Tm : Fin 4096 → Fin 16384 → EReal) (b : Fin 128 → EReal) (msg : Fin 16384 → Fin 128 → EReal)
    (i : Fin 4096) (j : Fin 128) : EReal :=
  (∑ t, Tm i t * msg t j) + b j

/-- A value is a real number (neither infinity). -/
def IsReal (a : EReal) : Prop := ∃ r : ℝ, a = (r : EReal)

/-! ## Real values are closed under the arithmetic -/

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem isReal_two : IsReal (2 : EReal) := ⟨2, by norm_cast⟩

/-- The f32 pattern of two is the extended real two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-! ## The pieces are real, and the softmax numerator is positive -/

section Pieces
variable {x : Fin 4096 → Fin 256 → EReal} {w : Fin 256 → Fin 128 → EReal} {p : EReal}

theorem sup_isReal (hx : ∀ k l, IsReal (x k l)) (hw : ∀ l j, IsReal (w l j)) (k : Fin 4096) (j : Fin 128) :
    IsReal (sup x w k j) :=
  IsReal.sum _ _ fun l _ => (hx k l).mul (hw l j)

theorem p2_isReal (hp : IsReal p) : IsReal (p2 p) := by
  obtain ⟨r, rfl⟩ := hp
  unfold p2
  exact isReal_two.mul ⟨_, Ideal.logistic_coe r⟩

theorem ee_isReal (hx : ∀ k l, IsReal (x k l)) (hw : ∀ l j, IsReal (w l j)) (hp : IsReal p) (k : Fin 4096) (j : Fin 128) :
    IsReal (ee x w p k j) :=
  (sup_isReal hx hw k j).mul (p2_isReal hp)

/-- The maximum is attained. -/
theorem mx_mem (x : Fin 4096 → Fin 256 → EReal) (w : Fin 256 → Fin 128 → EReal) (p : EReal) :
    ∃ k j, mx x w p = ee x w p k j := by
  obtain ⟨k, -, hk⟩ := Finset.exists_mem_eq_sup (Finset.univ : Finset (Fin 4096)) ⟨0, Finset.mem_univ _⟩
    (fun k => Finset.univ.sup fun j : Fin 128 => ee x w p k j)
  obtain ⟨j, -, hj⟩ := Finset.exists_mem_eq_sup (Finset.univ : Finset (Fin 128)) ⟨0, Finset.mem_univ _⟩
    (fun j => ee x w p k j)
  exact ⟨k, j, by rw [mx, hk, hj]⟩

/-- Every entry is at most the maximum. -/
theorem le_mx (x : Fin 4096 → Fin 256 → EReal) (w : Fin 256 → Fin 128 → EReal) (p : EReal) (k : Fin 4096) (j : Fin 128) :
    ee x w p k j ≤ mx x w p :=
  le_trans (Finset.le_sup (f := fun j => ee x w p k j) (Finset.mem_univ j))
    (Finset.le_sup (f := fun k => Finset.univ.sup fun j : Fin 128 => ee x w p k j) (Finset.mem_univ k))

theorem mx_isReal (hx : ∀ k l, IsReal (x k l)) (hw : ∀ l j, IsReal (w l j)) (hp : IsReal p) : IsReal (mx x w p) := by
  obtain ⟨k, j, h⟩ := mx_mem x w p
  rw [h]; exact ee_isReal hx hw hp k j

/-- exp (e - max e) is a positive real. -/
theorem sm_pos (hx : ∀ k l, IsReal (x k l)) (hw : ∀ l j, IsReal (w l j)) (hp : IsReal p) (k : Fin 4096) (j : Fin 128) :
    ∃ b : ℝ, 0 < b ∧ sm x w p k j = (b : EReal) := by
  obtain ⟨r, hr⟩ := (ee_isReal hx hw hp k j).sub (mx_isReal hx hw hp)
  exact ⟨Real.exp r, Real.exp_pos r, by rw [sm, hr, Ideal.exp_coe]⟩

end Pieces

/-! ## Two Newton steps from the exact reciprocal give the reciprocal -/

theorem newton_zero : newton 0 = ⊤ := by
  have h2 : (2 : EReal) - 0 = 2 := sub_zero 2
  have ht : (⊤ : EReal) * 2 = ⊤ := by
    rw [show (2 : EReal) = ((2 : ℝ) : EReal) by norm_cast]
    exact EReal.top_mul_coe_of_pos (by norm_num)
  simp only [newton, Ideal.div, if_pos, zero_lt_one, zero_mul, h2, ht]

theorem newton_of_ne_zero {d : EReal} (hd : d ≠ 0) : newton d = d⁻¹ := by
  have h2 : (2 : EReal) - 0 = 2 := sub_zero 2
  induction d using EReal.rec with
  | bot => simp only [newton, Ideal.div, if_neg hd, EReal.inv_bot, mul_zero, zero_mul, h2]
  | top => simp only [newton, Ideal.div, if_neg hd, EReal.inv_top, mul_zero, zero_mul, h2]
  | coe r =>
    have hr : r ≠ 0 := by exact_mod_cast hd
    have h1 : (r : EReal) * (r : EReal)⁻¹ = 1 := by
      rw [← EReal.coe_inv, ← EReal.coe_mul, mul_inv_cancel₀ hr, EReal.coe_one]
    have h21 : (2 : EReal) - 1 = 1 := by
      rw [show (2 : EReal) = ((2 : ℝ) : EReal) by norm_cast, show (1 : EReal) = ((1 : ℝ) : EReal) by norm_cast,
        ← EReal.coe_sub]; norm_num
    simp only [newton, Ideal.div, if_neg hd, one_mul, h1, h21, mul_one]

/-! ## The two messages agree -/

theorem msg_eq (adj : Fin 4096 → Fin 4096 → EReal) (x : Fin 4096 → Fin 256 → EReal) (w : Fin 256 → Fin 128 → EReal) (p : EReal)
    (e0 e1 : Fin 16384 → Fin 4096)
    (hx : ∀ k l, IsReal (x k l)) (hw : ∀ l j, IsReal (w l j)) (hp : IsReal p) :
    msgK adj x w p e0 e1 = msgR adj x w p e0 e1 := by
  funext t j
  obtain ⟨a, ha⟩ := sup_isReal hx hw (e1 t) j
  obtain ⟨b, hb, hm⟩ := sm_pos hx hw hp (e1 t) j
  unfold msgK msgR
  generalize agg adj x w p (e0 t) j + c6 = D
  rw [ha, hm]
  by_cases hD : D = 0
  · -- a zero divisor: both sides are the real a (times a positive real) against +∞, the sign of a deciding
    subst hD
    rw [newton_zero, Ideal.div, if_pos rfl, if_pos (by exact_mod_cast hb), ← EReal.coe_mul]
    rcases lt_trichotomy a 0 with h | h | h
    · rw [EReal.coe_mul_top_of_neg (mul_neg_of_neg_of_pos h hb), EReal.coe_mul_top_of_neg h]
    · subst h; simp
    · rw [EReal.coe_mul_top_of_pos (mul_pos h hb), EReal.coe_mul_top_of_pos h]
  · -- otherwise the refined estimate is the reciprocal, and the products associate
    rw [newton_of_ne_zero hD, Ideal.div, if_neg hD, mul_assoc]

end

end Cert.MathSpec
-- ==== Proof.PreFacts.lean ====
/-
  The input-domain precondition decoded: the edge array's entries are node numbers (an integer
  fact, at any float instance), and at the extended reals the three float inputs the per-edge
  algebra needs are real numbers.
-/
import proofs.«208470_g86148454023375_cont_sun_c4_654_45_alg».proof.Pre_input_domain
import proofs.«208470_g86148454023375_cont_sun_c4_654_45_alg».proof.Proof.Gen.Pre_input_domain
import proofs.«208470_g86148454023375_cont_sun_c4_654_45_alg».proof.Proof.MathSpec
import Idealize.ShloMosaic.Lib.ReduceAll
import Idealize.ShloMosaic.Lib.ValueIdx

namespace Cert.PreFacts

open Idealize.ShloMosaic Cert.Pre_input_domain

instance : Subsingleton S_.Idx := ⟨fun a b => funext fun d => d.elim0⟩

/-- A word that is ≥ 0 and ≤ 4095 as a signed integer is below 4096 as a natural number. -/
theorem toNat_lt_of_cmpi (x : BitVec 32) (h1 : IntOp.cmpi .sge x 0#32 = 1#1) (h2 : IntOp.cmpi .sle x 4095#32 = 1#1) :
    x.toNat < 4096 := by
  have h1' : (0#32).sle x = true := by
    cases hb : (0#32).sle x
    · rw [IntOp.cmpi] at h1; simp only [hb] at h1; exact absurd h1 (by decide)
    · rfl
  have h2' : x.sle 4095#32 = true := by
    cases hb : x.sle 4095#32
    · rw [IntOp.cmpi] at h2; simp only [hb] at h2; exact absurd h2 (by decide)
    · rfl
  rw [BitVec.sle, decide_eq_true_eq] at h1' h2'
  have e0 : (0#32).toInt = 0 := by decide
  have e1 : (4095#32).toInt = 4095 := by decide
  rw [e0] at h1'; rw [e1] at h2'
  rw [BitVec.toInt_eq_toNat_cond] at h1' h2'
  have := x.isLt
  split_ifs at h1' h2' <;> omega

/-- An extended real whose absolute value is below +∞ is a real number. -/
theorem isReal_of_abs_lt (x : EReal)
    (h : FloatOps.cmpf (F := Ideal) (φ := .f32) .olt (FloatOps.hostAbsf (F := Ideal) (φ := .f32) x) (FloatOps.ofBits (F := Ideal) .f32 0x7F800000#32) = 1#1) :
    Cert.MathSpec.IsReal x := by
  have htop : Ideal.ofBits .f32 0x7F800000#32 = ⊤ := by simp [Ideal.ofBits, Ideal.ieee]
  rw [Ideal.hostAbsf_def, Ideal.cmpf_def, Ideal.absf_def, Ideal.ofBits_def, htop] at h
  induction x using EReal.rec with
  | bot => exact absurd h (by simp [Ideal.cmp])
  | coe r => exact ⟨r, rfl⟩
  | top => exact absurd h (by simp [Ideal.cmp])

section
variable {F : FTy → Type} [FloatOps F] [hF : Cert.Pre_input_domain.Facts]

/-- The precondition's seven conjuncts, each the all-ones of its comparison array. -/
theorem conjuncts (a0 : FVec F S4096x256 .f32) (a1 : FVec F S4096x16384 .f32) (a2 : FVec F S4096x4096 .f32) (a3 : IVec S2x16384 32)
    (a4 : FVec F S1 .f32) (a5 : FVec F S256x128 .f32) (a6 : FVec F S128 .f32)
    (h : Cert.Pre_input_domain.fn (F := F) a0 a1 a2 a3 a4 a5 a6 = fun _ => 1#1) :
    (∀ i, FloatOps.cmpf .olt (FloatOps.hostAbsf (a0 i)) (FloatOps.ofBits (F := F) .f32 0x7F800000#32) = 1#1)
    ∧ (∀ i, FloatOps.cmpf .olt (FloatOps.hostAbsf (a4 i)) (FloatOps.ofBits (F := F) .f32 0x7F800000#32) = 1#1)
    ∧ (∀ i, FloatOps.cmpf .olt (FloatOps.hostAbsf (a5 i)) (FloatOps.ofBits (F := F) .f32 0x7F800000#32) = 1#1)
    ∧ (∀ i, IntOp.cmpi .sge (a3 i) 0#32 = 1#1 ∧ IntOp.cmpi .sle (a3 i) 4095#32 = 1#1) := by
  have h0 := congrFun h ValueIdx.ix0
  dsimp only [Cert.Pre_input_domain.fn, Cert.Pre_input_domain.fn_part1, Cert.Pre_input_domain.fn_part2] at h0
  obtain ⟨h28, h34⟩ := IntOp.andi_eq_one.1 h0
  obtain ⟨h23, -⟩ := IntOp.andi_eq_one.1 h28
  obtain ⟨h18, h22⟩ := IntOp.andi_eq_one.1 h23
  obtain ⟨h13, h17⟩ := IntOp.andi_eq_one.1 h18
  obtain ⟨h8, -⟩ := IntOp.andi_eq_one.1 h13
  obtain ⟨h3, -⟩ := IntOp.andi_eq_one.1 h8
  refine ⟨fun i => ?_, fun i => ?_, fun i => ?_, fun i => ?_⟩
  · exact Host.reduce_andi_all _ _ _ _ _ h3 i
  · exact Host.reduce_andi_all _ _ _ _ _ h17 i
  · exact Host.reduce_andi_all _ _ _ _ _ h22 i
  · exact IntOp.andi_eq_one.1 (Host.reduce_andi_all _ _ _ _ _ h34 i)

/-- Every entry of the edge array is a node number. -/
theorem edge_range (a0 : FVec F S4096x256 .f32) (a1 : FVec F S4096x16384 .f32) (a2 : FVec F S4096x4096 .f32) (a3 : IVec S2x16384 32)
    (a4 : FVec F S1 .f32) (a5 : FVec F S256x128 .f32) (a6 : FVec F S128 .f32)
    (h : Cert.Pre_input_domain.fn (F := F) a0 a1 a2 a3 a4 a5 a6 = fun _ => 1#1) :
    ∀ i : S2x16384.Idx, (a3 i).toNat < 4096 := fun i =>
  let hc := (conjuncts a0 a1 a2 a3 a4 a5 a6 h).2.2.2 i
  toNat_lt_of_cmpi (a3 i) hc.1 hc.2

end

/-- At the extended reals: the features, the scalar parameter and the weight are real numbers. -/
theorem finite_inputs [hF : Cert.Pre_input_domain.Facts] (a0 : FVec Ideal S4096x256 .f32) (a1 : FVec Ideal S4096x16384 .f32) (a2 : FVec Ideal S4096x4096 .f32)
    (a3 : IVec S2x16384 32) (a4 : FVec Ideal S1 .f32) (a5 : FVec Ideal S256x128 .f32) (a6 : FVec Ideal S128 .f32)
    (h : Cert.Pre_input_domain.fn (F := Ideal) a0 a1 a2 a3 a4 a5 a6 = fun _ => 1#1) :
    (∀ i, Cert.MathSpec.IsReal (a0 i)) ∧ (∀ i, Cert.MathSpec.IsReal (a4 i)) ∧ (∀ i, Cert.MathSpec.IsReal (a5 i)) :=
  let hc := conjuncts a0 a1 a2 a3 a4 a5 a6 h
  ⟨fun i => isReal_of_abs_lt _ (hc.1 i), fun i => isReal_of_abs_lt _ (hc.2.1 i), fun i => isReal_of_abs_lt _ (hc.2.2.1 i)⟩

end Cert.PreFacts
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.TcPayIdeal.lean ====
/-
  The two TensorCore kernels' arithmetic read at an entry, on the extended reals: the support as a sum over the
  contracted axis, the reciprocal block as the twice-refined reciprocal of the aggregated sum plus the small constant,
  the output block as the contraction with the messages plus the bias entry.
-/
import proofs.«208470_g86148454023375_cont_sun_c4_654_45_alg».proof.Proof.Gen.KernelIdeal.Skeleton
import proofs.«208470_g86148454023375_cont_sun_c4_654_45_alg».proof.Proof.LibMatmulPlain
import proofs.«208470_g86148454023375_cont_sun_c4_654_45_alg».proof.Proof.MathSpec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.KernelIdeal.Tc

open Cert.KernelIdeal Cert.KernelIdeal.Gen
open Idealize.ShloMosaic Idealize.ShloMosaic.ValueIdx

/-- The support at an entry: the sum over the contracted axis. -/
theorem pay1_apply (x : Vec Ideal S4096x256 .f32) (w : Vec Ideal S256x128 .f32) (k : Fin 4096) (j : Fin 128) :
    k0_pay1 (F := Ideal) x w (ix2 k j) = ∑ l : Fin 256, x (ix2 k l) * w (ix2 l j) := by
  unfold k0_pay1
  exact Cert.LibMatmulPlain.matmul_zero_apply dot_S4096x256_S256x128_S4096x128_1_0_0_1_n_n rfl rfl rfl rfl rfl rfl none x w k j

/-- The output block at an entry. -/
theorem pay2_1_apply (tm : Vec Ideal S128x16384 .f32) (msg : Vec Ideal S16384x128 .f32) (b : Vec Ideal S1x128 .f32) (i : Fin 128) (j : Fin 128) :
    k2_pay1 (F := Ideal) tm msg b (ix2 i j) = (∑ t : Fin 16384, tm (ix2 i t) * msg (ix2 t j)) + b (ix2 0 j) := by
  unfold k2_pay1
  rw [addf_apply, shapeCast_self, shapeCast_self, broadcastTo_1b_ab_apply]
  exact congrArg (· + b (ix2 0 j)) (Cert.LibMatmulPlain.matmul_zero_apply dot_S128x16384_S16384x128_S128x128_1_0_0_1_n_n rfl rfl rfl rfl rfl rfl none tm msg i j)

/-- The reciprocal block at an entry: the reciprocal of the aggregated sum plus the small constant, refined twice. -/
theorem pay5_apply (a : Vec Ideal S512x4096 .f32) (s : Vec Ideal S4096x128 .f32) (r : Fin 512) (j : Fin 128) :
    k0_pay5 (F := Ideal) a s (ix2 r j) = Cert.MathSpec.newton ((∑ k : Fin 4096, a (ix2 r k) * s (ix2 k j)) + Cert.MathSpec.c6) := by
  unfold k0_pay5 Cert.MathSpec.newton Cert.MathSpec.c6
  dsimp only
  simp only [mulf_apply, subf_apply, divf_apply, addf_apply, broadcast_apply,
    Cert.LibMatmulPlain.matmul_zero_apply dot_S512x4096_S4096x128_S512x128_1_0_0_1_n_n rfl rfl rfl rfl rfl rfl none a s r j]
  simp only [Scalar.ofBits, Ideal.ofBits_def, Ideal.ofBits_one_f32, Cert.MathSpec.ofBits_two_f32]

/-- The support times the doubled logistic of the parameter, as the first kernel spells it. -/
def eeK (p11 : Vec Ideal S1x1 .f32) (x : Vec Ideal S4096x256 .f32) (w : Vec Ideal S256x128 .f32) : FVec Ideal S4096x128 .f32 :=
  mulf (k0_pay1 x w)
    (broadcastTo S4096x128 (mulf (broadcast S1x1 (FloatOps.ofBits FTy.f32 0x40000000#32)) (logistic (shapeCast S1x1 p11 shapeCasts_S1x1_S1x1))) broadcasts_S1x1_S4096x128)

theorem eeK_apply (p11 : Vec Ideal S1x1 .f32) (x : Vec Ideal S4096x256 .f32) (w : Vec Ideal S256x128 .f32) (k : Fin 4096) (j : Fin 128) :
    eeK p11 x w (ix2 k j) = (∑ l : Fin 256, x (ix2 k l) * w (ix2 l j)) * (2 * Ideal.logistic (p11 (ix2 0 0))) := by
  unfold eeK
  rw [mulf_apply, pay1_apply, shapeCast_self,
    broadcastTo_apply _ broadcasts_S1x1_S4096x128 (ix2 k j) (ix2 (0 : Fin 1) (0 : Fin 1)) (fun a => by match a with | ⟨0, _⟩ => rfl | ⟨1, _⟩ => rfl),
    mulf_apply, broadcast_apply]
  simp only [logistic, Ideal.ofBits_def, Ideal.logistic_def, Cert.MathSpec.ofBits_two_f32]

/-- The scalar the first kernel subtracts before exponentiating: the maximum, over all entries, of the support times the
    doubled logistic of the parameter. -/
def kmax (p11 : Vec Ideal S1x1 .f32) (x : Vec Ideal S4096x256 .f32) (w : Vec Ideal S256x128 .f32) : EReal :=
  Finset.univ.sup fun k : Fin 4096 => Finset.univ.sup fun j : Fin 128 => eeK p11 x w (ix2 k j)

theorem S1_idx_eq (a b : S1.Idx) : a = b := funext fun d => by
  match d with
  | ⟨0, _⟩ =>
    have ha : (a 0).val < 1 := (a 0).isLt
    have hb : (b 0).val < 1 := (b 0).isLt
    exact Fin.ext (by show (a 0).val = (b 0).val; omega)

/-- A maximum over the two long axes of a one-by-rows-by-columns array, from the bottom, is the supremum over rows and columns. -/
theorem max_all (E : FVec Ideal S4096x128 .f32) (h1 : S4096x128.ShapeCasts S1x4096x128) (h2 : S1x4096x128.Reduces [1, 2] S1) (hφ) (hacc) (j : S1.Idx) :
    multiReduction .maximumf [1, 2] S1 (shapeCast S1x4096x128 E h1) 0xFF800000#32 h2 hφ hacc j
      = Finset.univ.sup fun k : Fin 4096 => Finset.univ.sup fun c : Fin 128 => E (ix2 k c) := by
  rw [multiReduction_maximumf_eq_fold]
  have hall : (Finset.univ.filter fun i : S1x4096x128.Idx => h2.drop i = j) = Finset.univ :=
    Finset.filter_true_of_mem fun i _ => S1_idx_eq _ _
  rw [hall]
  have hbot : FloatOps.ofBits (F := Ideal) FTy.f32 0xFF800000#32 = (⊥ : EReal) := by
    simp [Ideal.ofBits_def, Ideal.ofBits, Ideal.ieee]
  rw [hbot]
  have hfold : ∀ (s : Finset S1x4096x128.Idx) (g : S1x4096x128.Idx → EReal), s.fold (FloatOps.maximumf (F := Ideal) (φ := .f32)) ⊥ g = s.sup g := by
    intro s g; rfl
  rw [hfold]
  apply le_antisymm
  · refine Finset.sup_le fun i _ => ?_
    obtain ⟨u, k', c', rfl⟩ : ∃ (u : Fin 1) (k' : Fin 4096) (c' : Fin 128), i = ix3 u k' c' := ⟨i 0, i 1, i 2, eq_ix3 i⟩
    rw [shapeCast_ab_1ab_apply]
    exact le_trans (Finset.le_sup (f := fun c : Fin 128 => E (ix2 k' c)) (Finset.mem_univ c'))
      (Finset.le_sup (f := fun k : Fin 4096 => Finset.univ.sup fun c : Fin 128 => E (ix2 k c)) (Finset.mem_univ k'))
  · refine Finset.sup_le fun k _ => Finset.sup_le fun c _ => ?_
    have := Finset.le_sup (f := shapeCast S1x4096x128 E h1) (Finset.mem_univ (ix3 (0 : Fin 1) k c))
    rwa [shapeCast_ab_1ab_apply] at this

/-- The subtracted scalar as the kernel spells it. -/
def kmaxRaw (p11 : Vec Ideal S1x1 .f32) (x : Vec Ideal S4096x256 .f32) (w : Vec Ideal S256x128 .f32) : EReal :=
  extractAt ![0, 0, 0] (shapeCast S1x1x1 (multiReduction .maximumf [1, 2] S1 (shapeCast S1x4096x128 (eeK p11 x w) shapeCasts_S4096x128_S1x4096x128)
    0xFF800000#32 reduces_S1x4096x128_S1 (.inl rfl) rfl) shapeCasts_S1_S1x1x1) inpos_S1x1x1_p0_0_0

theorem kmaxRaw_eq (p11 : Vec Ideal S1x1 .f32) (x : Vec Ideal S4096x256 .f32) (w : Vec Ideal S256x128 .f32) : kmaxRaw p11 x w = kmax p11 x w := by
  unfold kmaxRaw extractAt
  rw [shapeCast_apply _ shapeCasts_S1_S1x1x1 _ (ix1 (0 : Fin 1)) (by rfl)]
  exact max_all (eeK p11 x w) _ _ _ _ _

theorem pay2_eq (p11 : Vec Ideal S1x1 .f32) (x : Vec Ideal S4096x256 .f32) (w : Vec Ideal S256x128 .f32) :
    k0_pay2 (F := Ideal) p11 x w = exp (subf (eeK p11 x w) (broadcast S4096x128 (kmaxRaw p11 x w))) := rfl

theorem exp_sub_bcast (E : FVec Ideal S4096x128 .f32) (M : EReal) (i : S4096x128.Idx) :
    (exp (subf E (broadcast S4096x128 M))) i = Ideal.exp (E i - M) := rfl

/-- The shifted exponential at an entry. -/
theorem pay2_apply (p11 : Vec Ideal S1x1 .f32) (x : Vec Ideal S4096x256 .f32) (w : Vec Ideal S256x128 .f32) (k : Fin 4096) (j : Fin 128) :
    k0_pay2 (F := Ideal) p11 x w (ix2 k j) = Ideal.exp (eeK p11 x w (ix2 k j) - kmax p11 x w) :=
  (congrFun (pay2_eq p11 x w) (ix2 k j)).trans ((exp_sub_bcast (eeK p11 x w) (kmaxRaw p11 x w) (ix2 k j)).trans
    (congrArg (fun M => Ideal.exp (eeK p11 x w (ix2 k j) - M)) (kmaxRaw_eq p11 x w)))

/-- The first output at an entry. -/
theorem pay4_apply (p11 : Vec Ideal S1x1 .f32) (x : Vec Ideal S4096x256 .f32) (w : Vec Ideal S256x128 .f32) (k : Fin 4096) (j : Fin 128) :
    k0_pay4 (F := Ideal) p11 x w (ix2 k j) = (∑ l : Fin 256, x (ix2 k l) * w (ix2 l j)) * Ideal.exp (eeK p11 x w (ix2 k j) - kmax p11 x w) := by
  unfold k0_pay4
  rw [mulf_apply, pay1_apply, pay2_apply]

/-- The scratch at an entry. -/
theorem pay3_apply (p11 : Vec Ideal S1x1 .f32) (x : Vec Ideal S4096x256 .f32) (w : Vec Ideal S256x128 .f32) (k : Fin 4096) (j : Fin 128) :
    k0_pay3 (F := Ideal) p11 x w (ix2 k j) = Ideal.exp (eeK p11 x w (ix2 k j) - kmax p11 x w) := by
  unfold k0_pay3
  rw [shapeCast_self, pay2_apply]

end Cert.KernelIdeal.Tc

end
-- ==== Proof.RefValue.lean ====
/-
  The reference's result read at an index: under the edge array's range, `out` at (i, j) is the
  index-wise specification's `outOf` of the reference's message. Each host operation is read at an
  index in turn: the products as sums over the contracted coordinate, the broadcasts as the operand's
  entry, the global maximum as the supremum over both coordinates, and the row lookup as the table's
  row (its negative-index wrap and its fill never fire on node numbers).
-/
import proofs.«208470_g86148454023375_cont_sun_c4_654_45_alg».proof.Proof.RefRun
import proofs.«208470_g86148454023375_cont_sun_c4_654_45_alg».proof.Proof.MathSpec
import proofs.«208470_g86148454023375_cont_sun_c4_654_45_alg».proof.Proof.PreFacts
import Idealize.ShloMosaic.Lib.IdealHost
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.RefRun Idealize.ShloMosaic Idealize.ShloMosaic.ValueIdx
open scoped BigOperators

/-! ## Generic readings -/

/-- A rank-2 product contracting the left operand's columns with the right operand's rows, read at (i, j). -/
theorem dot2_apply {M K N : Nat} (D : DotDims ⟨2, ![M, K]⟩ ⟨2, ![K, N]⟩ ⟨2, ![M, N]⟩) (hr : D.contr.rank = 1)
    (hs : D.contr.size ⟨0, by omega⟩ = K)
    (hl : ∀ (i : Fin M) (j : Fin N) (q : D.contr.Idx), D.lhsIdx (ix2 i j) q = ix2 i (contrEquiv1 D K hr hs q))
    (hrr : ∀ (i : Fin M) (j : Fin N) (q : D.contr.Idx), D.rhsIdx (ix2 i j) q = ix2 (contrEquiv1 D K hr hs q) j)
    (lhs : FVec Ideal ⟨2, ![M, K]⟩ .f32) (rhs : FVec Ideal ⟨2, ![K, N]⟩ .f32) (i : Fin M) (j : Fin N) :
    Host.dotGeneral D none lhs rhs (ix2 i j) = ∑ l : Fin K, lhs (ix2 i l) * rhs (ix2 l j) := by
  show FloatOps.dotGeneral D none .single lhs rhs (ix2 i j) = _
  rw [Ideal.dotGeneral_apply]
  exact Fintype.sum_equiv (contrEquiv1 D K hr hs) _ _ fun q => by rw [hl, hrr]

/-- The supremum over a rank-2 index set is the supremum over the two coordinates in turn. -/
theorem sup_idx2 {n0 n1 : Nat} (g : (⟨2, ![n0, n1]⟩ : Shape).Idx → EReal) :
    Finset.univ.sup g = Finset.univ.sup fun k : Fin n0 => Finset.univ.sup fun j : Fin n1 => g (ix2 k j) := by
  apply le_antisymm
  · refine Finset.sup_le fun i _ => ?_
    rw [eq_ix2 i]
    exact le_trans (Finset.le_sup (f := fun j => g (ix2 (i 0) j)) (Finset.mem_univ (i 1)))
      (Finset.le_sup (f := fun k => Finset.univ.sup fun j => g (ix2 k j)) (Finset.mem_univ (i 0)))
  · exact Finset.sup_le fun k _ => Finset.sup_le fun j _ => Finset.le_sup (f := g) (Finset.mem_univ (ix2 k j))

/-- A fold of the maximum from -∞ is the supremum. -/
theorem fold_max_bot {ι : Type} (s : Finset ι) (f : ι → EReal) :
    s.fold (FloatOps.maximumf (F := Ideal) (φ := .f32)) ⊥ f = s.sup f := by
  classical
  induction s using Finset.induction_on with
  | empty => simp
  | insert a s ha ih =>
    rw [Finset.fold_insert ha, Finset.sup_insert, ih]
    rfl

instance : Subsingleton S_.Idx := ⟨fun a b => funext fun d => d.elim0⟩

/-- A left fold of `and` from 1 over ones is 1. -/
theorem foldl_andi_one {ι : Type} (f : ι → BitVec 1) :
    ∀ (l : List ι), (∀ i ∈ l, f i = 1#1) → l.foldl (fun r i => IntOp.andi r (f i)) 1#1 = 1#1
  | [], _ => rfl
  | a :: l, h => by
    rw [List.foldl_cons, h a List.mem_cons_self]
    exact foldl_andi_one f l fun i hi => h i (List.mem_cons_of_mem _ hi)

/-- A word below 4096 is not negative, and is between 0 and 4095 as a signed integer. -/
theorem cmpi_of_toNat_lt (v : BitVec 32) (hv : v.toNat < 4096) :
    IntOp.cmpi .slt v 0#32 = 0#1 ∧ IntOp.cmpi .sge v 0#32 = 1#1 ∧ IntOp.cmpi .sle v 4095#32 = 1#1 ∧ v.toInt.toNat = v.toNat := by
  have hi : v.toInt = (v.toNat : Int) := by
    rw [BitVec.toInt_eq_toNat_cond]; split_ifs <;> omega
  have e0 : (0#32).toInt = 0 := by decide
  have e1 : (4095#32).toInt = 4095 := by decide
  refine ⟨?_, ?_, ?_, by rw [hi]; rfl⟩
  · have : v.slt 0#32 = false := by rw [BitVec.slt, hi, e0]; exact decide_eq_false (by omega)
    rw [IntOp.cmpi]; simp only [this]; rfl
  · have : (0#32).sle v = true := by rw [BitVec.sle, hi, e0]; exact decide_eq_true (by omega)
    rw [IntOp.cmpi]; simp only [this]; rfl
  · have : v.sle 4095#32 = true := by rw [BitVec.sle, hi, e1]; exact decide_eq_true (by omega)
    rw [IntOp.cmpi]; simp only [this]; rfl

/-! ## The reference's stages at an index -/

local notation "gd" => gather_S4096x128_S16384x1_S16384x128_1_0_n_n_0_1_1128

section Stages
variable (a0 : FVec Ideal S4096x256 .f32) (a1 : FVec Ideal S4096x16384 .f32) (a2 : FVec Ideal S4096x4096 .f32) (a3 : IVec S2x16384 32)
  (a4 : FVec Ideal S1 .f32) (a5 : FVec Ideal S256x128 .f32) (a6 : FVec Ideal S128 .f32)

theorem supv_apply (k : Fin 4096) (j : Fin 128) :
    supv a0 a5 (ix2 k j) = Cert.MathSpec.sup (fun k l => a0 (ix2 k l)) (fun l j => a5 (ix2 l j)) k j :=
  dot2_apply dot_S4096x256_S256x128_S4096x128_1_0_0_1_n_n rfl rfl
    (fun i j q => funext fun a => match a with | ⟨0, _⟩ => rfl | ⟨1, _⟩ => rfl)
    (fun i j q => funext fun a => match a with | ⟨0, _⟩ => rfl | ⟨1, _⟩ => rfl) a0 a5 k j

theorem p2v_apply : p2v a4 (ix1 0) = Cert.MathSpec.p2 (a4 (ix1 0)) := by
  have h1 : ∀ i : S1.Idx, broadcastInDim S1 ![] bcast_S_S1 (constant (F := Ideal) S_ .f32 0x3F800000#32) i = 1 := fun i => by
    rw [broadcastInDim_scalar_apply]; exact Ideal.ofBits_one_f32
  have h2 : ∀ i : S1.Idx, broadcastInDim S1 ![] bcast_S_S1 (constant (F := Ideal) S_ .f32 0x40000000#32) i = 2 := fun i => by
    rw [broadcastInDim_scalar_apply]; exact Cert.MathSpec.ofBits_two_f32
  show Ideal.div (broadcastInDim S1 ![] bcast_S_S1 (constant (F := Ideal) S_ .f32 0x3F800000#32) (ix1 0))
        (broadcastInDim S1 ![] bcast_S_S1 (constant (F := Ideal) S_ .f32 0x3F800000#32) (ix1 0) + Ideal.exp (-(a4 (ix1 0))))
      * broadcastInDim S1 ![] bcast_S_S1 (constant (F := Ideal) S_ .f32 0x40000000#32) (ix1 0) = _
  rw [h1, h2, Cert.MathSpec.p2, Ideal.logistic, mul_comm]

theorem ev_apply (k : Fin 4096) (j : Fin 128) :
    ev a0 a4 a5 (ix2 k j) = Cert.MathSpec.ee (fun k l => a0 (ix2 k l)) (fun l j => a5 (ix2 l j)) (a4 (ix1 0)) k j := by
  have hb : broadcastInDim S4096x128 ![0, 1] bcast_S1x1_S4096x128_0_1 (broadcastInDim S1x1 ![1] bcast_S1_S1x1_1 (p2v a4)) (ix2 k j)
      = p2v a4 (ix1 0) := by
    rw [broadcastInDim_apply _ _ _ (ix2 k j) (ix2 (0 : Fin 1) (0 : Fin 1)) (fun a => match a with | ⟨0, _⟩ => rfl | ⟨1, _⟩ => rfl)]
    exact broadcastInDim_apply _ _ _ _ (ix1 0) (fun a => match a with | ⟨0, _⟩ => rfl)
  show _ * supv a0 a5 (ix2 k j) = _
  rw [hb, p2v_apply, supv_apply, Cert.MathSpec.ee, mul_comm]

theorem mxv_apply : mxv a0 a4 a5 ix0 = Cert.MathSpec.mx (fun k l => a0 (ix2 k l)) (fun l j => a5 (ix2 l j)) (a4 (ix1 0)) := by
  unfold mxv
  rw [Host.reduce_eq_fold]
  have hf : (Finset.univ.filter fun i : S4096x128.Idx => reducesTo_S4096x128_S_d0_1.drop i = ix0) = Finset.univ :=
    Finset.filter_true_of_mem fun i _ => Subsingleton.elim _ _
  rw [hf]
  have hb : constant (F := Ideal) S_ .f32 0xFF800000#32 (Shape.Idx.first h_S_) = ⊥ := by
    show Ideal.ofBits .f32 0xFF800000#32 = ⊥
    simp [Ideal.ofBits, Ideal.ieee]
  rw [hb, fold_max_bot, sup_idx2, Cert.MathSpec.mx]
  exact Finset.sup_congr rfl fun k _ => Finset.sup_congr rfl fun j _ => ev_apply a0 a4 a5 k j

theorem smv_apply (k : Fin 4096) (j : Fin 128) :
    smv a0 a4 a5 (ix2 k j) = Cert.MathSpec.sm (fun k l => a0 (ix2 k l)) (fun l j => a5 (ix2 l j)) (a4 (ix1 0)) k j := by
  show Ideal.exp (ev a0 a4 a5 (ix2 k j) - broadcastInDim S4096x128 ![] bcast_S_S4096x128 (mxv a0 a4 a5) (ix2 k j)) = _
  rw [broadcastInDim_scalar_apply, ev_apply, mxv_apply, Cert.MathSpec.sm]

theorem aggv_apply (r : Fin 4096) (j : Fin 128) :
    aggv a0 a2 a4 a5 (ix2 r j) = Cert.MathSpec.agg (fun r k => a2 (ix2 r k)) (fun k l => a0 (ix2 k l)) (fun l j => a5 (ix2 l j)) (a4 (ix1 0)) r j := by
  unfold aggv
  rw [dot2_apply dot_S4096x4096_S4096x128_S4096x128_1_0_0_1_n_n rfl rfl
    (fun i j q => funext fun a => match a with | ⟨0, _⟩ => rfl | ⟨1, _⟩ => rfl)
    (fun i j q => funext fun a => match a with | ⟨0, _⟩ => rfl | ⟨1, _⟩ => rfl)]
  unfold Cert.MathSpec.agg
  exact Finset.sum_congr rfl fun k _ => by rw [smv_apply]

theorem edgeRow1_apply (t : Fin 16384) : edgeRow1 a3 (ix1 t) = a3 (ix2 1 t) := by
  unfold edgeRow1
  rw [shapeCast_1a_a_apply]
  exact extractStridedSlice_apply _ _ _ _ (ix2 1 t) (fun a => match a with | ⟨0, _⟩ => rfl | ⟨1, _⟩ => (Nat.zero_add _).symm)

theorem edgeRow0_apply (t : Fin 16384) : edgeRow0 a3 (ix1 t) = a3 (ix2 0 t) := by
  unfold edgeRow0
  rw [shapeCast_1a_a_apply]
  exact extractStridedSlice_apply _ _ _ _ (ix2 0 t) (fun a => match a with | ⟨0, _⟩ => rfl | ⟨1, _⟩ => (Nat.zero_add _).symm)

end Stages

/-! ## The row lookup on node numbers -/

theorem takeIdx_apply (idx : IVec S16384 32) (t : Fin 16384) (h : (idx (ix1 t)).toNat < 4096) :
    RefRun.takeIdx idx (ix2 t (0 : Fin 1)) = idx (ix1 t) := by
  unfold RefRun.takeIdx
  rw [broadcastInDim_apply _ _ _ (ix2 t (0 : Fin 1)) (ix1 t) (fun a => match a with | ⟨0, _⟩ => rfl)]
  show Scalar.select (IntOp.cmpi .slt (idx (ix1 t)) (broadcastInDim S16384 ![] bcast_S_S16384 (constantI S_ 32 0#32) (ix1 t))) _ _ = _
  rw [broadcastInDim_scalar_apply]
  show Scalar.select (IntOp.cmpi .slt (idx (ix1 t)) 0#32) _ _ = _
  rw [(cmpi_of_toNat_lt _ h).1, select_zero]

theorem takeOk_apply (idx : IVec S16384 32) (h : ∀ t, (idx (ix1 t)).toNat < 4096) (t : Fin 16384) :
    takeOk idx (ix1 t) = 1#1 := by
  unfold takeOk
  rw [Host.reduce_eq_foldl]
  apply foldl_andi_one
  intro i _
  obtain ⟨t', u, rfl⟩ : ∃ t' u, i = ix2 t' u := ⟨i 0, i 1, eq_ix2 i⟩
  obtain rfl : u = 0 := Subsingleton.elim _ _
  have hv := cmpi_of_toNat_lt _ (h t')
  show IntOp.andi (IntOp.cmpi .sge (RefRun.takeIdx idx (ix2 t' 0)) (broadcastInDim S16384x1 ![] bcast_S_S16384x1 (constantI S_ 32 0#32) (ix2 t' 0)))
      (IntOp.cmpi .sle (RefRun.takeIdx idx (ix2 t' 0)) (broadcastInDim S16384x1 ![0, 1] bcast_S1x1_S16384x1_0_1
        (broadcastInDim S1x1 ![1] bcast_S1_S1x1_1 (constantI S1 32 4095#32)) (ix2 t' 0))) = 1#1
  rw [takeIdx_apply idx t' (h t'), broadcastInDim_scalar_apply,
    broadcastInDim_apply _ _ _ (ix2 t' (0 : Fin 1)) (ix2 (0 : Fin 1) (0 : Fin 1)) (fun a => match a with | ⟨0, _⟩ => rfl | ⟨1, _⟩ => rfl),
    broadcastInDim_apply _ _ _ (ix2 (0 : Fin 1) (0 : Fin 1)) (ix1 (0 : Fin 1)) (fun a => match a with | ⟨0, _⟩ => rfl)]
  show IntOp.andi (IntOp.cmpi .sge _ 0#32) (IntOp.cmpi .sle _ 4095#32) = 1#1
  rw [hv.2.1, hv.2.2.1]
  rfl

/-- The gather of whole rows read at (t, j): the table at the start index of row t, read signed and clamped, column j. -/
theorem gather_apply (tbl : FVec Ideal S4096x128 .f32) (I : IVec S16384x1 32) (t : Fin 16384) (j : Fin 128) :
    Host.gather gd tbl I (ix2 t j)
      = tbl (ix2 (⟨min (I (ix2 t (0 : Fin 1))).toInt.toNat 4095, by omega⟩ : Fin 4096) j) := by
  unfold Host.gather
  congr 1
  funext a
  refine Fin.ext ?_
  match a with
  | ⟨0, _⟩ =>
    show GatherDims.start gd (ix2 t j) I 0 + GatherDims.batchCoord gd (ix2 t j) 0 + GatherDims.offCoord gd (ix2 t j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (GatherDims.startIndexMap gd) from List.mem_singleton.mpr rfl)]
    have hsi : GatherDims.siIdx gd (ix2 t j) ⟨List.idxOf (0 : Fin 2) (GatherDims.startIndexMap gd),
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  | ⟨1, _⟩ =>
    show GatherDims.start gd (ix2 t j) I 1 + GatherDims.batchCoord gd (ix2 t j) 1 + GatherDims.offCoord gd (ix2 t j) 1 = _
    rw [GatherDims.batchCoord_eq_zero _ _ _ List.not_mem_nil]
    unfold GatherDims.start
    rw [dif_neg (show (1 : Fin 2) ∉ (GatherDims.startIndexMap gd) by decide)]
    unfold GatherDims.offCoord
    rw [dif_pos (show (1 : Fin 2) ∈ GatherDims.sKept gd by decide)]
    simp only [Nat.add_zero, Nat.zero_add]
    rfl

theorem takeF_apply (tbl : FVec Ideal S4096x128 .f32) (idx : IVec S16384 32) (h : ∀ t, (idx (ix1 t)).toNat < 4096)
    (t : Fin 16384) (j : Fin 128) :
    takeF tbl idx (ix2 t j) = tbl (ix2 (⟨(idx (ix1 t)).toNat, h t⟩ : Fin 4096) j) := by
  unfold takeF
  rw [select_apply, broadcastInDim_apply _ _ _ (ix2 t j) (ix1 t) (fun a => match a with | ⟨0, _⟩ => rfl), takeOk_apply idx h t, select_one,
    gather_apply]
  have e : (⟨min (RefRun.takeIdx idx (ix2 t (0 : Fin 1))).toInt.toNat 4095, by omega⟩ : Fin 4096) = ⟨(idx (ix1 t)).toNat, h t⟩ :=
    Fin.ext (by
      show min (RefRun.takeIdx idx (ix2 t (0 : Fin 1))).toInt.toNat 4095 = (idx (ix1 t)).toNat
      rw [takeIdx_apply idx t (h t), (cmpi_of_toNat_lt _ (h t)).2.2.2]
      have := h t
      omega)
  rw [e]

/-! ## The result at an index -/

/-- The node an edge entry names. -/
def node (a3 : IVec S2x16384 32) (hedge : ∀ i : S2x16384.Idx, (a3 i).toNat < 4096) (r : Fin 2) (t : Fin 16384) : Fin 4096 :=
  ⟨(a3 (ix2 r t)).toNat, hedge _⟩

section Result
variable (a0 : FVec Ideal S4096x256 .f32) (a1 : FVec Ideal S4096x16384 .f32) (a2 : FVec Ideal S4096x4096 .f32) (a3 : IVec S2x16384 32)
  (a4 : FVec Ideal S1 .f32) (a5 : FVec Ideal S256x128 .f32) (a6 : FVec Ideal S128 .f32)
  (hedge : ∀ i : S2x16384.Idx, (a3 i).toNat < 4096)

theorem msgv_apply (t : Fin 16384) (j : Fin 128) :
    msgv a0 a2 a3 a4 a5 (ix2 t j)
      = Cert.MathSpec.msgR (fun r k => a2 (ix2 r k)) (fun k l => a0 (ix2 k l)) (fun l j => a5 (ix2 l j)) (a4 (ix1 0)) (node a3 hedge 0) (node a3 hedge 1) t j := by
  have h1 : ∀ t, (edgeRow1 a3 (ix1 t)).toNat < 4096 := fun t => by rw [edgeRow1_apply]; exact hedge _
  have h0 : ∀ t, (edgeRow0 a3 (ix1 t)).toNat < 4096 := fun t => by rw [edgeRow0_apply]; exact hedge _
  unfold msgv
  rw [mulf_apply, hostDivf_apply, addf_apply, takeF_apply _ _ h1, takeF_apply _ _ h1, takeF_apply _ _ h0, broadcastInDim_scalar_apply, supv_apply, smv_apply, aggv_apply]
  have e1 : (⟨(edgeRow1 a3 (ix1 t)).toNat, h1 t⟩ : Fin 4096) = node a3 hedge 1 t := Fin.ext (by
    show (edgeRow1 a3 (ix1 t)).toNat = (a3 (ix2 1 t)).toNat
    rw [edgeRow1_apply])
  have e0 : (⟨(edgeRow0 a3 (ix1 t)).toNat, h0 t⟩ : Fin 4096) = node a3 hedge 0 t := Fin.ext (by
    show (edgeRow0 a3 (ix1 t)).toNat = (a3 (ix2 0 t)).toNat
    rw [edgeRow0_apply])
  rw [e1, e0, constant_apply]
  unfold Cert.MathSpec.msgR Cert.MathSpec.c6
  rfl

/-- THE REFERENCE'S RESULT AT (i, j), on node-numbered edges: the specification's output of the reference's message. -/
theorem out_apply (i : Fin 4096) (j : Fin 128) :
    out a0 a1 a2 a3 a4 a5 a6 (ix2 i j)
      = Cert.MathSpec.outOf (fun i t => a1 (ix2 i t)) (fun j => a6 (ix1 j))
          (Cert.MathSpec.msgR (fun r k => a2 (ix2 r k)) (fun k l => a0 (ix2 k l)) (fun l j => a5 (ix2 l j)) (a4 (ix1 0)) (node a3 hedge 0) (node a3 hedge 1)) i j := by
  unfold out finish
  rw [addf_apply, dot2_apply dot_S4096x16384_S16384x128_S4096x128_1_0_0_1_n_n rfl rfl
    (fun i j q => funext fun a => match a with | ⟨0, _⟩ => rfl | ⟨1, _⟩ => rfl)
    (fun i j q => funext fun a => match a with | ⟨0, _⟩ => rfl | ⟨1, _⟩ => rfl),
    broadcastInDim_apply _ _ _ (ix2 i j) (ix2 (0 : Fin 1) j) (fun a => match a with | ⟨0, _⟩ => rfl | ⟨1, _⟩ => rfl),
    broadcastInDim_apply _ _ _ (ix2 (0 : Fin 1) j) (ix1 j) (fun a => match a with | ⟨0, _⟩ => rfl)]
  simp only [Cert.MathSpec.outOf, msgv_apply a0 a2 a3 a4 a5 hedge]

/-- The same against the kernel's message: where the features, the scalar parameter and the weight are real numbers the
    two messages agree (`Cert.MathSpec.msg_eq`), so the reference's result is the specification's output of the
    KERNEL's message. -/
theorem out_apply_msgK (hx : ∀ i : S4096x256.Idx, Cert.MathSpec.IsReal (a0 i)) (hp : ∀ i : S1.Idx, Cert.MathSpec.IsReal (a4 i))
    (hw : ∀ i : S256x128.Idx, Cert.MathSpec.IsReal (a5 i)) (i : Fin 4096) (j : Fin 128) :
    out a0 a1 a2 a3 a4 a5 a6 (ix2 i j)
      = Cert.MathSpec.outOf (fun i t => a1 (ix2 i t)) (fun j => a6 (ix1 j))
          (Cert.MathSpec.msgK (fun r k => a2 (ix2 r k)) (fun k l => a0 (ix2 k l)) (fun l j => a5 (ix2 l j)) (a4 (ix1 0)) (node a3 hedge 0) (node a3 hedge 1)) i j := by
  rw [out_apply a0 a1 a2 a3 a4 a5 a6 hedge,
    Cert.MathSpec.msg_eq (fun r k => a2 (ix2 r k)) (fun k l => a0 (ix2 k l)) (fun l j => a5 (ix2 l j)) (a4 (ix1 0)) (node a3 hedge 0) (node a3 hedge 1)
      (fun k l => hx _) (fun l j => hw _) (hp _)]

end Result

/-! ## The precondition, decoded at the reference's arguments -/

/-- Under the precondition, on every device: the features, the scalar parameter and the weight are real numbers and the
    edge array's entries are node numbers. -/
theorem pre_facts (m : (ℓ : Loc nD τ sig) → Buf (Elt Ideal) ℓ) (h : Cert.Pre_ReferenceIdeal m) (c : Dev nD) :
    (∀ i : S4096x256.Idx, Cert.MathSpec.IsReal ((m ((c.tc : Thread nD τ).loc main_arg0) : FVec Ideal S4096x256 .f32) i))
    ∧ (∀ i : S1.Idx, Cert.MathSpec.IsReal ((m ((c.tc : Thread nD τ).loc main_arg4) : FVec Ideal S1 .f32) i))
    ∧ (∀ i : S256x128.Idx, Cert.MathSpec.IsReal ((m ((c.tc : Thread nD τ).loc main_arg5) : FVec Ideal S256x128 .f32) i))
    ∧ ∀ i : S2x16384.Idx, ((m ((c.tc : Thread nD τ).loc main_arg3) : IVec S2x16384 32) i).toNat < 4096 :=
  have hc := h c
  have hf := Cert.PreFacts.finite_inputs _ _ _ _ _ _ _ hc
  ⟨hf.1, hf.2.1, hf.2.2, Cert.PreFacts.edge_range _ _ _ _ _ _ _ hc⟩

end Cert.ReferenceIdeal.RefValue

end
-- ==== Proof.ValueBridge.lean ====
/-
  The value bridge: the kernel program's composed result (the three launches' payload functions applied to the launch
  contents) is, index by index, the index-wise specification's output of the kernel's message; under the precondition
  the reference's result is the same function, so the two results are equal.
-/
import proofs.«208470_g86148454023375_cont_sun_c4_654_45_alg».proof.Proof.Main
import proofs.«208470_g86148454023375_cont_sun_c4_654_45_alg».proof.Proof.TcSpec
import proofs.«208470_g86148454023375_cont_sun_c4_654_45_alg».proof.Proof.TcPayIdeal
import proofs.«208470_g86148454023375_cont_sun_c4_654_45_alg».proof.Proof.RefValue
import Idealize.ShloMosaic.Lib.ValueLayout

noncomputable section

namespace Cert.KernelIdeal.Bridge

open Cert.KernelIdeal Cert.KernelIdeal.Gen Idealize.ShloMosaic Idealize.ShloMosaic.ValueIdx
open scoped BigOperators

/-- The two spellings of a matrix index agree. -/
theorem tc_ix2 {R C : ℕ} (r : Fin R) (c : Fin C) : Tc.ix2 r c = ix2 r c := by
  funext a
  match a with
  | ⟨0, _⟩ => rfl
  | ⟨1, _⟩ => rfl

section Pieces
variable (a4 : FVec Ideal S1 .f32) (x : FVec Ideal S4096x256 .f32) (w : FVec Ideal S256x128 .f32) (adj : FVec Ideal S4096x4096 .f32)

/-- The scalar parameter as the kernel reads it: entry (0, 0) of its [1, 1] reshape. -/
theorem p11Of_apply : Sc.p11Of (F := Ideal) a4 (ix2 0 0) = a4 (ix1 0) :=
  shapeCast_a_1a_apply a4 shapeCasts_S1_S1x1 0 0

theorem eeK_eq (k : Fin 4096) (j : Fin 128) :
    Tc.eeK (Sc.p11Of (F := Ideal) a4) x w (ix2 k j) = Cert.MathSpec.ee (fun k l => x (ix2 k l)) (fun l j => w (ix2 l j)) (a4 (ix1 0)) k j := by
  rw [Tc.eeK_apply, p11Of_apply]
  rfl

theorem kmax_eq : Tc.kmax (Sc.p11Of (F := Ideal) a4) x w = Cert.MathSpec.mx (fun k l => x (ix2 k l)) (fun l j => w (ix2 l j)) (a4 (ix1 0)) := by
  unfold Tc.kmax Cert.MathSpec.mx
  exact Finset.sup_congr rfl fun k _ => Finset.sup_congr rfl fun j _ => eeK_eq a4 x w k j

theorem smV_eq (k : Fin 4096) (j : Fin 128) :
    Tc.smV (F := Ideal) (Sc.p11Of (F := Ideal) a4) x w (ix2 k j) = Cert.MathSpec.sm (fun k l => x (ix2 k l)) (fun l j => w (ix2 l j)) (a4 (ix1 0)) k j := by
  unfold Tc.smV
  rw [Tc.pay3_apply, eeK_eq, kmax_eq]
  rfl

theorem prodV_eq (k : Fin 4096) (j : Fin 128) :
    Tc.prodV (F := Ideal) (Sc.p11Of (F := Ideal) a4) x w (ix2 k j)
      = Cert.MathSpec.sup (fun k l => x (ix2 k l)) (fun l j => w (ix2 l j)) k j * Cert.MathSpec.sm (fun k l => x (ix2 k l)) (fun l j => w (ix2 l j)) (a4 (ix1 0)) k j := by
  unfold Tc.prodV
  rw [Tc.pay4_apply, eeK_eq, kmax_eq]
  rfl

theorem recipV_eq (r : Fin 4096) (j : Fin 128) :
    Tc.recipV (F := Ideal) (Sc.p11Of (F := Ideal) a4) x w adj (ix2 r j)
      = Cert.MathSpec.newton (Cert.MathSpec.agg (fun r k => adj (ix2 r k)) (fun k l => x (ix2 k l)) (fun l j => w (ix2 l j)) (a4 (ix1 0)) r j + Cert.MathSpec.c6) := by
  unfold Tc.recipV
  show k0_pay5 _ _ (Tc.ix2 ⟨r.val % 512, _⟩ j) = _
  rw [tc_ix2, Tc.pay5_apply]
  congr 2
  unfold Cert.MathSpec.agg
  refine Finset.sum_congr rfl fun k _ => ?_
  rw [smV_eq]
  congr 1
  unfold Tc.rowBlk
  rw [tc_ix2]
  show adj (ix2 (⟨512 * (r.val / 512) + r.val % 512, _⟩ : Fin 4096) k) = adj (ix2 r k)
  congr 2
  exact Fin.ext (Nat.div_add_mod r.val 512)

end Pieces

section Whole
variable (a0 : FVec Ideal S4096x256 .f32) (a1 : FVec Ideal S4096x16384 .f32) (a2 : FVec Ideal S4096x4096 .f32) (a3 : IVec S2x16384 32)
  (a4 : FVec Ideal S1 .f32) (a5 : FVec Ideal S256x128 .f32) (a6 : FVec Ideal S128 .f32)
  (hedge : ∀ i : Cert.ReferenceIdeal.S2x16384.Idx, (a3 i).toNat < 4096)

/-- The third launch's result at (r, j): row r of T against the messages, plus the bias. -/
theorem outV_eq (msg : FVec Ideal S16384x128 .f32) (r : Fin 4096) (j : Fin 128) :
    Tc.outV (F := Ideal) a1 msg (Sc.b1Of (F := Ideal) a6) (ix2 r j)
      = (∑ t : Fin 16384, a1 (ix2 r t) * msg (ix2 t j)) + a6 (ix1 j) := by
  unfold Tc.outV
  show k2_pay1 _ _ _ (Tc.ix2 ⟨r.val % 128, _⟩ j) = _
  rw [tc_ix2, Tc.pay2_1_apply]
  refine congrArg₂ (· + ·) (Finset.sum_congr rfl fun t _ => ?_) (shapeCast_a_1a_apply a6 shapeCasts_S128_S1x128 0 j)
  refine congrArg (· * msg (ix2 t j)) ?_
  unfold Tc.rowBlk
  rw [tc_ix2]
  show a1 (ix2 (⟨128 * (r.val / 128) + r.val % 128, _⟩ : Fin 4096) t) = a1 (ix2 r t)
  congr 2
  exact Fin.ext (Nat.div_add_mod r.val 128)

/-- The second launch's result at (t, j): the kernel's message of edge t. -/
theorem msgV_eq (t : Fin 16384) (j : Fin 128) :
    Sc.msgV (F := Ideal) (Tc.prodV (F := Ideal) (Sc.p11Of (F := Ideal) a4) a0 a5)
        (Tc.recipV (F := Ideal) (Sc.p11Of (F := Ideal) a4) a0 a5 a2) a3 (ix2 t j)
      = Cert.MathSpec.msgK (fun r k => a2 (ix2 r k)) (fun k l => a0 (ix2 k l)) (fun l j => a5 (ix2 l j)) (a4 (ix1 0))
          (Cert.ReferenceIdeal.RefValue.node a3 hedge 0) (Cert.ReferenceIdeal.RefValue.node a3 hedge 1) t j := by
  rw [Sc.msgV_apply _ _ _ t j (hedge _) (hedge _), prodV_eq, recipV_eq]
  unfold Cert.MathSpec.msgK Cert.ReferenceIdeal.RefValue.node
  rfl

/-- The three launches composed, at (r, j): the specification's output of the kernel's message. -/
theorem value_eq (r : Fin 4096) (j : Fin 128) :
    Tc.outV (F := Ideal) a1
        (Sc.msgV (F := Ideal) (Tc.prodV (F := Ideal) (Sc.p11Of (F := Ideal) a4) a0 a5)
          (Tc.recipV (F := Ideal) (Sc.p11Of (F := Ideal) a4) a0 a5 a2) a3)
        (Sc.b1Of (F := Ideal) a6) (ix2 r j)
      = Cert.MathSpec.outOf (fun i t => a1 (ix2 i t)) (fun j => a6 (ix1 j))
          (Cert.MathSpec.msgK (fun r k => a2 (ix2 r k)) (fun k l => a0 (ix2 k l)) (fun l j => a5 (ix2 l j)) (a4 (ix1 0))
            (Cert.ReferenceIdeal.RefValue.node a3 hedge 0) (Cert.ReferenceIdeal.RefValue.node a3 hedge 1)) r j := by
  rw [outV_eq]
  unfold Cert.MathSpec.outOf
  refine congrArg (· + a6 (ix1 j)) (Finset.sum_congr rfl fun t _ => ?_)
  rw [msgV_eq a0 a2 a3 a4 a5 hedge]

end Whole

/-- THE KERNEL'S RESULT IS THE REFERENCE'S: the composed value of the three launches, read at an index through the
    kernel bodies' payload functions, is the specification's output of the kernel's message; under the precondition the
    reference's result is the same. -/
theorem kernel_eq_ref (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Sc.outCv m Cert.KernelIdeal.Tc.prodV Cert.KernelIdeal.Tc.recipV Cert.KernelIdeal.Tc.outV c
      = Cert.ReferenceIdeal.RefRun.out
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  have hc := hpre c
  have hedge := Cert.PreFacts.edge_range _ _ _ _ _ _ _ hc
  have hfin := Cert.PreFacts.finite_inputs _ _ _ _ _ _ _ hc
  refine funext fun (i : (⟨2, ![4096, 128]⟩ : Shape).Idx) => ?_
  obtain ⟨r, j, rfl⟩ : ∃ r j, i = ix2 r j := ⟨i 0, i 1, eq_ix2 i⟩
  exact (value_eq _ _ _ _ _ _ _ hedge r j).trans
    (Cert.ReferenceIdeal.RefValue.out_apply_msgK _ _ _ _ _ _ _ hedge hfin.1 hfin.2.1 hfin.2.2 r j).symm

end Cert.KernelIdeal.Bridge

end
-- ==== Proof.lean ====
/-
  The certificate's five claims for the graph-attention aggregation kernel against its jnp reference.

  The kernel is three launches on one device. A TensorCore pipeline computes the support x·w, its shifted exponentials
  sm = exp(support·2σ(p) − max) and the two tables prod = support·sm and recip = N(adj·sm + ε), N the reciprocal refined
  twice by Newton's step; a SparseCore kernel on thirty-two vector subcores gathers, per edge, the row of prod at the
  edge's source and the row of recip at its target and multiplies them lanewise into the message array; a second
  TensorCore pipeline contracts the messages with T and adds the bias. The reference divides sm's row by
  (adj·sm + ε)'s row and multiplies by the support's row. On the extended reals N(d) is 1/d wherever d ≠ 0 (d·(1/d) = 1
  for a real d, and both sides vanish at an infinite d), and at d = 0 both programs' message is the support's sign
  times +∞, sm being positive because the support, the parameter and hence the maximum are real under the
  precondition: the two message arrays agree entry by entry, and so do the results.

  The frames: every weakly fair execution of the device's thirty-five threads terminates without a fault with the
  arguments unchanged — the launch theorem for a SparseCore program applied to the vector subcores' task, the split
  of a SparseCore's operands among its subcores and @main on the TensorCore, whose two pipeline regions are entered
  from the launch's ghost state for their staging cells; the edge list's entries name rows of the two tables by the
  precondition's range conjunct, which is what the indexed copies need. The same text serves the word-level program
  and its idealization (the proofs are generic in the float instance); the reference's frame is its run with the
  value dropped.
-/
import proofs.«208470_g86148454023375_cont_sun_c4_654_45_alg».proof.Defs
import proofs.«208470_g86148454023375_cont_sun_c4_654_45_alg».proof.Proof.Gen.Kernel
import proofs.«208470_g86148454023375_cont_sun_c4_654_45_alg».proof.Proof.Gen.KernelIdeal
import proofs.«208470_g86148454023375_cont_sun_c4_654_45_alg».proof.Proof.Gen.ReferenceIdeal
import proofs.«208470_g86148454023375_cont_sun_c4_654_45_alg».proof.Proof.Gen.Pre_input_domain
import proofs.«208470_g86148454023375_cont_sun_c4_654_45_alg».proof.Proof.Run
import proofs.«208470_g86148454023375_cont_sun_c4_654_45_alg».proof.Proof.RunK
import proofs.«208470_g86148454023375_cont_sun_c4_654_45_alg».proof.Proof.TcRegions
import proofs.«208470_g86148454023375_cont_sun_c4_654_45_alg».proof.Proof.TcRegionsK
import proofs.«208470_g86148454023375_cont_sun_c4_654_45_alg».proof.Proof.RefRun
import proofs.«208470_g86148454023375_cont_sun_c4_654_45_alg».proof.Proof.PreFacts
import proofs.«208470_g86148454023375_cont_sun_c4_654_45_alg».proof.Proof.ValueBridge
import Idealize.ShloMosaic.Adequacy
import Idealize.ShloMosaic.Init

noncomputable section

namespace Cert.Proof

open Idealize.ShloMosaic Idealize.SL.Sem

/-- The edge list's entries name rows of the two tables, from the precondition's range conjunct: the idealized program's memory, -/
theorem preOK_KI (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : Cert.KernelIdeal.Sc.PreOK m :=
  haveI := Cert.Pre_input_domain.Gen.facts
  fun d x => Cert.PreFacts.edge_range _ _ _ _ _ _ _ (h d) x

/-- and the word-level program's. -/
theorem preOK_K (m : (ℓ : Loc Cert.Kernel.nD Cert.Kernel.τ Cert.Kernel.sig) → Buf (Elt Bits) ℓ)
    (h : Cert.Pre_Kernel (hPre_input_domain := Cert.Pre_input_domain.Gen.facts) m) : Cert.Kernel.Sc.PreOK m :=
  haveI := Cert.Pre_input_domain.Gen.facts
  fun d x => Cert.PreFacts.edge_range _ _ _ _ _ _ _ (h d) x

theorem frame_K : Cert.frame_Kernel (hKernel := Cert.Kernel.Gen.facts) (hPre_input_domain := Cert.Pre_input_domain.Gen.facts) := fun m ρ hpre =>
  (θ_run (Cert.Kernel.defs (F := Bits)) _ _).mono (fun _ h c => (h c).2)
    (Cert.Kernel.Sc.run_main (F := Bits) m ρ Cert.Kernel.Tc.region0 Cert.Kernel.Tc.region2 (preOK_K m hpre))

theorem frame_KI : Cert.frame_KernelIdeal (hKernelIdeal := Cert.KernelIdeal.Gen.facts) (hPre_input_domain := Cert.Pre_input_domain.Gen.facts) := fun m ρ hpre =>
  (θ_run (Cert.KernelIdeal.defs (F := Ideal)) _ _).mono (fun _ h c => (h c).2)
    (Cert.KernelIdeal.Sc.run_main (F := Ideal) m ρ Cert.KernelIdeal.Tc.region0 Cert.KernelIdeal.Tc.region2 (preOK_KI m hpre))

theorem frame_R : Cert.frame_ReferenceIdeal (hReferenceIdeal := Cert.ReferenceIdeal.Gen.facts) (hPre_input_domain := Cert.Pre_input_domain.Gen.facts) := fun m ρ _ =>
  (θ_run (Cert.ReferenceIdeal.defs (F := Ideal)) _ _).mono (fun _ h c => (h c).2) (Cert.ReferenceIdeal.RefRun.run m ρ)

/-- Both idealized programs run, and the reference's result is the kernel's composed value of arguments that agree. -/
theorem algebraic_KR : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m g m' g' hpre hagree
  refine ⟨fun c => Cert.KernelIdeal.Sc.outCv m Cert.KernelIdeal.Tc.prodV Cert.KernelIdeal.Tc.recipV Cert.KernelIdeal.Tc.outV c,
    Cert.KernelIdeal.Sc.run_main (F := Ideal) m g Cert.KernelIdeal.Tc.region0 Cert.KernelIdeal.Tc.region2 (preOK_KI m hpre), ?_⟩
  refine (θ_run (Cert.ReferenceIdeal.defs (F := Ideal)) _ _).mono (fun _ h c => ⟨(h c).1.trans ?_, (h c).2⟩) (Cert.ReferenceIdeal.RefRun.run m' g')
  rw [(hagree c).1, (hagree c).2.1, (hagree c).2.2.1, (hagree c).2.2.2.1, (hagree c).2.2.2.2.1, (hagree c).2.2.2.2.2.1, (hagree c).2.2.2.2.2.2]
  exact (Cert.KernelIdeal.Bridge.kernel_eq_ref m hpre c).symm

theorem claim : Cert.Claim :=
  ⟨Cert.Kernel.Gen.facts, Cert.KernelIdeal.Gen.facts, Cert.ReferenceIdeal.Gen.facts, Cert.Pre_input_domain.Gen.facts,
    frame_K, frame_KI, frame_R, trivial, algebraic_KR⟩

end Cert.Proof

end
